-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x27687 : Shape := ⟨2, ![1024, 27687]⟩
abbrev S27687 : Shape := ⟨1, ![27687]⟩
abbrev S9229 : Shape := ⟨1, ![9229]⟩
abbrev S9229x1387 : Shape := ⟨2, ![9229, 1387]⟩
abbrev S1387 : Shape := ⟨1, ![1387]⟩
abbrev S1387x1066 : Shape := ⟨2, ![1387, 1066]⟩
abbrev S1066 : Shape := ⟨1, ![1066]⟩
abbrev S1066x447 : Shape := ⟨2, ![1066, 447]⟩
abbrev S447 : Shape := ⟨1, ![447]⟩
abbrev S447x147 : Shape := ⟨2, ![447, 147]⟩
abbrev S147 : Shape := ⟨1, ![147]⟩
abbrev S147x26 : Shape := ⟨2, ![147, 26]⟩
abbrev S26 : Shape := ⟨1, ![26]⟩
abbrev S9229x1 : Shape := ⟨2, ![9229, 1]⟩
abbrev S1 : Shape := ⟨1, ![1]⟩
abbrev S1387x1 : Shape := ⟨2, ![1387, 1]⟩
abbrev S1066x1 : Shape := ⟨2, ![1066, 1]⟩
abbrev S447x1 : Shape := ⟨2, ![447, 1]⟩
abbrev S147x1 : Shape := ⟨2, ![147, 1]⟩
abbrev S26x1 : Shape := ⟨2, ![26, 1]⟩
abbrev S_ : Shape := ⟨0, ![]⟩

class Facts : Prop where
  bcast_S_S1024x27687 : S_.BroadcastsInDim S1024x27687 (![] : Fin 0 → Fin S1024x27687.rank)
  reducesTo_S1024x27687_S_d0_1 : S1024x27687.ReducesTo [0, 1] S_
  h_S_ : 0 < S_.numel
  bcast_S_S27687 : S_.BroadcastsInDim S27687 (![] : Fin 0 → Fin S27687.rank)
  reducesTo_S27687_S_d0 : S27687.ReducesTo [0] S_
  bcast_S_S9229 : S_.BroadcastsInDim S9229 (![] : Fin 0 → Fin S9229.rank)
  reducesTo_S9229_S_d0 : S9229.ReducesTo [0] S_
  bcast_S_S9229x1387 : S_.BroadcastsInDim S9229x1387 (![] : Fin 0 → Fin S9229x1387.rank)
  reducesTo_S9229x1387_S_d0_1 : S9229x1387.ReducesTo [0, 1] S_
  bcast_S_S1387 : S_.BroadcastsInDim S1387 (![] : Fin 0 → Fin S1387.rank)
  reducesTo_S1387_S_d0 : S1387.ReducesTo [0] S_
  bcast_S_S1387x1066 : S_.BroadcastsInDim S1387x1066 (![] : Fin 0 → Fin S1387x1066.rank)
  reducesTo_S1387x1066_S_d0_1 : S1387x1066.ReducesTo [0, 1] S_
  bcast_S_S1066 : S_.BroadcastsInDim S1066 (![] : Fin 0 → Fin S1066.rank)
  reducesTo_S1066_S_d0 : S1066.ReducesTo [0] S_
  bcast_S_S1066x447 : S_.BroadcastsInDim S1066x447 (![] : Fin 0 → Fin S1066x447.rank)
  reducesTo_S1066x447_S_d0_1 : S1066x447.ReducesTo [0, 1] S_
  bcast_S_S447 : S_.BroadcastsInDim S447 (![] : Fin 0 → Fin S447.rank)
  reducesTo_S447_S_d0 : S447.ReducesTo [0] S_
  bcast_S_S447x147 : S_.BroadcastsInDim S447x147 (![] : Fin 0 → Fin S447x147.rank)
  reducesTo_S447x147_S_d0_1 : S447x147.ReducesTo [0, 1] S_
  bcast_S_S147 : S_.BroadcastsInDim S147 (![] : Fin 0 → Fin S147.rank)
  reducesTo_S147_S_d0 : S147.ReducesTo [0] S_
  bcast_S_S147x26 : S_.BroadcastsInDim S147x26 (![] : Fin 0 → Fin S147x26.rank)
  reducesTo_S147x26_S_d0_1 : S147x26.ReducesTo [0, 1] S_
  bcast_S_S26 : S_.BroadcastsInDim S26 (![] : Fin 0 → Fin S26.rank)
  reducesTo_S26_S_d0 : S26.ReducesTo [0] S_
  bcast_S_S9229x1 : S_.BroadcastsInDim S9229x1 (![] : Fin 0 → Fin S9229x1.rank)
  reducesTo_S9229x1_S_d0_1 : S9229x1.ReducesTo [0, 1] S_
  bcast_S_S1 : S_.BroadcastsInDim S1 (![] : Fin 0 → Fin S1.rank)
  reducesTo_S1_S_d0 : S1.ReducesTo [0] S_
  bcast_S_S1387x1 : S_.BroadcastsInDim S1387x1 (![] : Fin 0 → Fin S1387x1.rank)
  reducesTo_S1387x1_S_d0_1 : S1387x1.ReducesTo [0, 1] S_
  bcast_S_S1066x1 : S_.BroadcastsInDim S1066x1 (![] : Fin 0 → Fin S1066x1.rank)
  reducesTo_S1066x1_S_d0_1 : S1066x1.ReducesTo [0, 1] S_
  bcast_S_S447x1 : S_.BroadcastsInDim S447x1 (![] : Fin 0 → Fin S447x1.rank)
  reducesTo_S447x1_S_d0_1 : S447x1.ReducesTo [0, 1] S_
  bcast_S_S147x1 : S_.BroadcastsInDim S147x1 (![] : Fin 0 → Fin S147x1.rank)
  reducesTo_S147x1_S_d0_1 : S147x1.ReducesTo [0, 1] S_
  bcast_S_S26x1 : S_.BroadcastsInDim S26x1 (![] : Fin 0 → Fin S26x1.rank)
  reducesTo_S26x1_S_d0_1 : S26x1.ReducesTo [0, 1] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg21 : FVec F S147x1 .f32) (main_arg22 : FVec F S1 .f32) (main_arg23 : FVec F S26x1 .f32) (main_arg24 : FVec F S1 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_v104 : FVec F S147x1 .f32 := Host.absf main_arg21
  let main_cst_40 : FVec F S_ .f32 := constant S_ .f32 0x7F800000#32
  let main_v105 : FVec F S147x1 .f32 := broadcastInDim S147x1 ![] bcast_S_S147x1 main_cst_40
  let main_v106 : IVec S147x1 1 := cmpf .olt main_v104 main_v105
  let main_c_41 : IVec S_ 1 := constantI S_ 1 1#1
  let main_v107 : IVec S_ 1 := (fun x v => Host.reduce IntOp.andi x v reducesTo_S147x1_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_v114 : FVec F S26x1 .f32 := Host.absf main_arg23
  let main_cst_44 : FVec F S_ .f32 := constant S_ .f32 0x7F800000#32
  let main_v115 : FVec F S26x1 .f32 := broadcastInDim S26x1 ![] bcast_S_S26x1 main_cst_44
  let main_v116 : IVec S26x1 1 := cmpf .olt main_v114 main_v115
  let main_c_45 : IVec S_ 1 := constantI S_ 1 1#1
  let main_v117 : IVec S_ 1 := (fun x v => Host.reduce IntOp.andi x v reducesTo_S26x1_S_d0_1 h_S_) main_v116 main_c_45
  let main_v118 : IVec S_ 1 := andi main_v113 main_v117
  let main_v119 : FVec F S1 .f32 := Host.absf main_arg24
  fn_part7 (F := F) main_v118 main_v119

def fn_part5 {F : FTy → Type} [FloatOps F] (main_arg18 : FVec F S1 .f32) (main_arg19 : FVec F S447x1 .f32) (main_arg20 : FVec F S1 .f32) (main_arg21 : FVec F S147x1 .f32) (main_arg22 : FVec F S1 .f32) (main_arg23 : FVec F S26x1 .f32) (main_arg24 : FVec F S1 .f32) (main_v83 : IVec S_ 1) (main_v84 : FVec F S1066x1 .f32) (main_cst_32 : FVec F S_ .f32) : IVec S_ 1 :=
  let main_v85 : FVec F S1066x1 .f32 := broadcastInDim S1066x1 ![] bcast_S_S1066x1 main_cst_32
  let main_v86 : IVec S1066x1 1 := cmpf .olt main_v84 main_v85
  let main_c_33 : IVec S_ 1 := constantI S_ 1 1#1
  let main_v87 : IVec S_ 1 := (fun x v => Host.reduce IntOp.andi x v reducesTo_S1066x1_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S447x1 .f32 := Host.absf main_arg19
  let main_cst_36 : FVec F S_ .f32 := constant S_ .f32 0x7F800000#32
  let main_v95 : FVec F S447x1 .f32 := broadcastInDim S447x1 ![] bcast_S_S447x1 main_cst_36
  let main_v96 : IVec S447x1 1 := cmpf .olt main_v94 main_v95
  let main_c_37 : IVec S_ 1 := constantI S_ 1 1#1
  let main_v97 : IVec S_ 1 := (fun x v => Host.reduce IntOp.andi x v reducesTo_S447x1_S_d0_1 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S1 .f32) (main_arg15 : FVec F S1387x1 .f32) (main_arg16 : FVec F S1 .f32) (main_arg17 : FVec F S1066x1 .f32) (main_arg18 : FVec F S1 .f32) (main_arg19 : FVec F S447x1 .f32) (main_arg20 : FVec F S1 .f32) (main_arg21 : FVec F S147x1 .f32) (main_arg22 : FVec F S1 .f32) (main_arg23 : FVec F S26x1 .f32) (main_arg24 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1387x1 .f32 := Host.absf main_arg15
  let main_cst_28 : FVec F S_ .f32 := constant S_ .f32 0x7F800000#32
  let main_v75 : FVec F S1387x1 .f32 := broadcastInDim S1387x1 ![] bcast_S_S1387x1 main_cst_28
  let main_v76 : IVec S1387x1 1 := cmpf .olt main_v74 main_v75
  let main_c_29 : IVec S_ 1 := constantI S_ 1 1#1
  let main_v77 : IVec S_ 1 := (fun x v => Host.reduce IntOp.andi x v reducesTo_S1387x1_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S1066x1 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S147x26 .f32) (main_arg12 : FVec F S26 .f32) (main_arg13 : FVec F S9229x1 .f32) (main_arg14 : FVec F S1 .f32) (main_arg15 : FVec F S1387x1 .f32) (main_arg16 : FVec F S1 .f32) (main_arg17 : FVec F S1066x1 .f32) (main_arg18 : FVec F S1 .f32) (main_arg19 : FVec F S447x1 .f32) (main_arg20 : FVec F S1 .f32) (main_arg21 : FVec F S147x1 .f32) (main_arg22 : FVec F S1 .f32) (main_arg23 : FVec F S26x1 .f32) (main_arg24 : FVec F S1 .f32) (main_v48 : IVec S_ 1) (main_v49 : FVec F S147 .f32) (main_v50 : FVec F S147 .f32) : IVec S_ 1 :=
  let main_v51 : IVec S147 1 := cmpf .olt main_v49 main_v50
  let main_c_19 : IVec S_ 1 := constantI S_ 1 1#1
  let main_v52 : IVec S_ 1 := (fun x v => Host.reduce IntOp.andi x v reducesTo_S147_S_d0 h_S_) main_v51 main_c_19
  let main_v53 : IVec S_ 1 := andi main_v48 main_v52
  let main_v54 : FVec F S147x26 .f32 := Host.absf main_arg11
  let main_cst_20 : FVec F S_ .f32 := constant S_ .f32 0x7F800000#32
  let main_v55 : FVec F S147x26 .f32 := broadcastInDim S147x26 ![] bcast_S_S147x26 main_cst_20
  let main_v56 : IVec S147x26 1 := cmpf .olt main_v54 main_v55
  let main_c_21 : IVec S_ 1 := constantI S_ 1 1#1
  let main_v57 : IVec S_ 1 := (fun x v => Host.reduce IntOp.andi x v reducesTo_S147x26_S_d0_1 h_S_) main_v56 main_c_21
  let main_v58 : IVec S_ 1 := andi main_v53 main_v57
  let main_v59 : FVec F S26 .f32 := Host.absf main_arg12
  let main_cst_22 : FVec F S_ .f32 := constant S_ .f32 0x7F800000#32
  let main_v60 : FVec F S26 .f32 := broadcastInDim S26 ![] bcast_S_S26 main_cst_22
  let main_v61 : IVec S26 1 := cmpf .olt main_v59 main_v60
  let main_c_23 : IVec S_ 1 := constantI S_ 1 1#1
  let main_v62 : IVec S_ 1 := (fun x v => Host.reduce IntOp.andi x v reducesTo_S26_S_d0 h_S_) main_v61 main_c_23
  let main_v63 : IVec S_ 1 := andi main_v58 main_v62
  let main_v64 : FVec F S9229x1 .f32 := Host.absf main_arg13
  let main_cst_24 : FVec F S_ .f32 := constant S_ .f32 0x7F800000#32
  let main_v65 : FVec F S9229x1 .f32 := broadcastInDim S9229x1 ![] bcast_S_S9229x1 main_cst_24
  let main_v66 : IVec S9229x1 1 := cmpf .olt main_v64 main_v65
  let main_c_25 : IVec S_ 1 := constantI S_ 1 1#1
  let main_v67 : IVec S_ 1 := (fun x v => Host.reduce IntOp.andi x v reducesTo_S9229x1_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S1066x447 .f32) (main_arg8 : FVec F S447 .f32) (main_arg9 : FVec F S447x147 .f32) (main_arg10 : FVec F S147 .f32) (main_arg11 : FVec F S147x26 .f32) (main_arg12 : FVec F S26 .f32) (main_arg13 : FVec F S9229x1 .f32) (main_arg14 : FVec F S1 .f32) (main_arg15 : FVec F S1387x1 .f32) (main_arg16 : FVec F S1 .f32) (main_arg17 : FVec F S1066x1 .f32) (main_arg18 : FVec F S1 .f32) (main_arg19 : FVec F S447x1 .f32) (main_arg20 : FVec F S1 .f32) (main_arg21 : FVec F S147x1 .f32) (main_arg22 : FVec F S1 .f32) (main_arg23 : FVec F S26x1 .f32) (main_arg24 : FVec F S1 .f32) (main_v33 : IVec S_ 1) : IVec S_ 1 :=
  let main_v34 : FVec F S1066x447 .f32 := Host.absf main_arg7
  let main_cst_12 : FVec F S_ .f32 := constant S_ .f32 0x7F800000#32
  let main_v35 : FVec F S1066x447 .f32 := broadcastInDim S1066x447 ![] bcast_S_S1066x447 main_cst_12
  let main_v36 : IVec S1066x447 1 := cmpf .olt main_v34 main_v35
  let main_c_13 : IVec S_ 1 := constantI S_ 1 1#1
  let main_v37 : IVec S_ 1 := (fun x v => Host.reduce IntOp.andi x v reducesTo_S1066x447_S_d0_1 h_S_) main_v36 main_c_13
  let main_v38 : IVec S_ 1 := andi main_v33 main_v37
  let main_v39 : FVec F S447 .f32 := Host.absf main_arg8
  let main_cst_14 : FVec F S_ .f32 := constant S_ .f32 0x7F800000#32
  let main_v40 : FVec F S447 .f32 := broadcastInDim S447 ![] bcast_S_S447 main_cst_14
  let main_v41 : IVec S447 1 := cmpf .olt main_v39 main_v40
  let main_c_15 : IVec S_ 1 := constantI S_ 1 1#1
  let main_v42 : IVec S_ 1 := (fun x v => Host.reduce IntOp.andi x v reducesTo_S447_S_d0 h_S_) main_v41 main_c_15
  let main_v43 : IVec S_ 1 := andi main_v38 main_v42
  let main_v44 : FVec F S447x147 .f32 := Host.absf main_arg9
  let main_cst_16 : FVec F S_ .f32 := constant S_ .f32 0x7F800000#32
  let main_v45 : FVec F S447x147 .f32 := broadcastInDim S447x147 ![] bcast_S_S447x147 main_cst_16
  let main_v46 : IVec S447x147 1 := cmpf .olt main_v44 main_v45
  let main_c_17 : IVec S_ 1 := constantI S_ 1 1#1
  let main_v47 : IVec S_ 1 := (fun x v => Host.reduce IntOp.andi x v reducesTo_S447x147_S_d0_1 h_S_) main_v46 main_c_17
  let main_v48 : IVec S_ 1 := andi main_v43 main_v47
  let main_v49 : FVec F S147 .f32 := Host.absf main_arg10
  let main_cst_18 : FVec F S_ .f32 := constant S_ .f32 0x7F800000#32
  let main_v50 : FVec F S147 .f32 := broadcastInDim S147 ![] bcast_S_S147 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S1387 .f32) (main_arg5 : FVec F S1387x1066 .f32) (main_arg6 : FVec F S1066 .f32) (main_arg7 : FVec F S1066x447 .f32) (main_arg8 : FVec F S447 .f32) (main_arg9 : FVec F S447x147 .f32) (main_arg10 : FVec F S147 .f32) (main_arg11 : FVec F S147x26 .f32) (main_arg12 : FVec F S26 .f32) (main_arg13 : FVec F S9229x1 .f32) (main_arg14 : FVec F S1 .f32) (main_arg15 : FVec F S1387x1 .f32) (main_arg16 : FVec F S1 .f32) (main_arg17 : FVec F S1066x1 .f32) (main_arg18 : FVec F S1 .f32) (main_arg19 : FVec F S447x1 .f32) (main_arg20 : FVec F S1 .f32) (main_arg21 : FVec F S147x1 .f32) (main_arg22 : FVec F S1 .f32) (main_arg23 : FVec F S26x1 .f32) (main_arg24 : FVec F S1 .f32) (main_v13 : IVec S_ 1) (main_v16 : IVec S9229x1387 1) : IVec S_ 1 :=
  let main_c_5 : IVec S_ 1 := constantI S_ 1 1#1
  let main_v17 : IVec S_ 1 := (fun x v => Host.reduce IntOp.andi x v reducesTo_S9229x1387_S_d0_1 h_S_) main_v16 main_c_5
  let main_v18 : IVec S_ 1 := andi main_v13 main_v17
  let main_v19 : FVec F S1387 .f32 := Host.absf main_arg4
  let main_cst_6 : FVec F S_ .f32 := constant S_ .f32 0x7F800000#32
  let main_v20 : FVec F S1387 .f32 := broadcastInDim S1387 ![] bcast_S_S1387 main_cst_6
  let main_v21 : IVec S1387 1 := cmpf .olt main_v19 main_v20
  let main_c_7 : IVec S_ 1 := constantI S_ 1 1#1
  let main_v22 : IVec S_ 1 := (fun x v => Host.reduce IntOp.andi x v reducesTo_S1387_S_d0 h_S_) main_v21 main_c_7
  let main_v23 : IVec S_ 1 := andi main_v18 main_v22
  let main_v24 : FVec F S1387x1066 .f32 := Host.absf main_arg5
  let main_cst_8 : FVec F S_ .f32 := constant S_ .f32 0x7F800000#32
  let main_v25 : FVec F S1387x1066 .f32 := broadcastInDim S1387x1066 ![] bcast_S_S1387x1066 main_cst_8
  let main_v26 : IVec S1387x1066 1 := cmpf .olt main_v24 main_v25
  let main_c_9 : IVec S_ 1 := constantI S_ 1 1#1
  let main_v27 : IVec S_ 1 := (fun x v => Host.reduce IntOp.andi x v reducesTo_S1387x1066_S_d0_1 h_S_) main_v26 main_c_9
  let main_v28 : IVec S_ 1 := andi main_v23 main_v27
  let main_v29 : FVec F S1066 .f32 := Host.absf main_arg6
  let main_cst_10 : FVec F S_ .f32 := constant S_ .f32 0x7F800000#32
  let main_v30 : FVec F S1066 .f32 := broadcastInDim S1066 ![] bcast_S_S1066 main_cst_10
  let main_v31 : IVec S1066 1 := cmpf .olt main_v29 main_v30
  let main_c_11 : IVec S_ 1 := constantI S_ 1 1#1
  let main_v32 : IVec S_ 1 := (fun x v => Host.reduce IntOp.andi x v reducesTo_S1066_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S1024x27687 .f32) (main_arg1 : FVec F S27687 .f32) (main_arg2 : FVec F S9229 .f32) (main_arg3 : FVec F S9229x1387 .f32) (main_arg4 : FVec F S1387 .f32) (main_arg5 : FVec F S1387x1066 .f32) (main_arg6 : FVec F S1066 .f32) (main_arg7 : FVec F S1066x447 .f32) (main_arg8 : FVec F S447 .f32) (main_arg9 : FVec F S447x147 .f32) (main_arg10 : FVec F S147 .f32) (main_arg11 : FVec F S147x26 .f32) (main_arg12 : FVec F S26 .f32) (main_arg13 : FVec F S9229x1 .f32) (main_arg14 : FVec F S1 .f32) (main_arg15 : FVec F S1387x1 .f32) (main_arg16 : FVec F S1 .f32) (main_arg17 : FVec F S1066x1 .f32) (main_arg18 : FVec F S1 .f32) (main_arg19 : FVec F S447x1 .f32) (main_arg20 : FVec F S1 .f32) (main_arg21 : FVec F S147x1 .f32) (main_arg22 : FVec F S1 .f32) (main_arg23 : FVec F S26x1 .f32) (main_arg24 : FVec F S1 .f32) (main_arg25 : IVec S9229x1387 1) (main_arg26 : IVec S1387x1066 1) (main_arg27 : IVec S1066x447 1) (main_arg28 : IVec S447x147 1) (main_arg29 : IVec S147x26 1) : IVec S_ 1 :=
  let main_v0 : FVec F S1024x27687 .f32 := Host.absf main_arg0
  let main_cst : FVec F S_ .f32 := constant S_ .f32 0x7F800000#32
  let main_v1 : FVec F S1024x27687 .f32 := broadcastInDim S1024x27687 ![] bcast_S_S1024x27687 main_cst
  let main_v2 : IVec S1024x27687 1 := cmpf .olt main_v0 main_v1
  let main_c : IVec S_ 1 := constantI S_ 1 1#1
  let main_v3 : IVec S_ 1 := (fun x v => Host.reduce IntOp.andi x v reducesTo_S1024x27687_S_d0_1 h_S_) main_v2 main_c
  let main_v4 : FVec F S27687 .f32 := Host.absf main_arg1
  let main_cst_0 : FVec F S_ .f32 := constant S_ .f32 0x7F800000#32
  let main_v5 : FVec F S27687 .f32 := broadcastInDim S27687 ![] bcast_S_S27687 main_cst_0
  let main_v6 : IVec S27687 1 := cmpf .olt main_v4 main_v5
  let main_c_1 : IVec S_ 1 := constantI S_ 1 1#1
  let main_v7 : IVec S_ 1 := (fun x v => Host.reduce IntOp.andi x v reducesTo_S27687_S_d0 h_S_) main_v6 main_c_1
  let main_v8 : IVec S_ 1 := andi main_v3 main_v7
  let main_v9 : FVec F S9229 .f32 := Host.absf main_arg2
  let main_cst_2 : FVec F S_ .f32 := constant S_ .f32 0x7F800000#32
  let main_v10 : FVec F S9229 .f32 := broadcastInDim S9229 ![] bcast_S_S9229 main_cst_2
  let main_v11 : IVec S9229 1 := cmpf .olt main_v9 main_v10
  let main_c_3 : IVec S_ 1 := constantI S_ 1 1#1
  let main_v12 : IVec S_ 1 := (fun x v => Host.reduce IntOp.andi x v reducesTo_S9229_S_d0 h_S_) main_v11 main_c_3
  let main_v13 : IVec S_ 1 := andi main_v8 main_v12
  let main_v14 : FVec F S9229x1387 .f32 := Host.absf main_arg3
  let main_cst_4 : FVec F S_ .f32 := constant S_ .f32 0x7F800000#32
  let main_v15 : FVec F S9229x1387 .f32 := broadcastInDim S9229x1387 ![] bcast_S_S9229x1387 main_cst_4
  let main_v16 : IVec S9229x1387 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S1024x27687 : Shape := ⟨2, ![1024, 27687]⟩
abbrev S27687 : Shape := ⟨1, ![27687]⟩
abbrev S9229 : Shape := ⟨1, ![9229]⟩
abbrev S9229x1387 : Shape := ⟨2, ![9229, 1387]⟩
abbrev S1387 : Shape := ⟨1, ![1387]⟩
abbrev S1387x1066 : Shape := ⟨2, ![1387, 1066]⟩
abbrev S1066 : Shape := ⟨1, ![1066]⟩
abbrev S1066x447 : Shape := ⟨2, ![1066, 447]⟩
abbrev S447 : Shape := ⟨1, ![447]⟩
abbrev S447x147 : Shape := ⟨2, ![447, 147]⟩
abbrev S147 : Shape := ⟨1, ![147]⟩
abbrev S147x26 : Shape := ⟨2, ![147, 26]⟩
abbrev S26 : Shape := ⟨1, ![26]⟩
abbrev S9229x1 : Shape := ⟨2, ![9229, 1]⟩
abbrev S1 : Shape := ⟨1, ![1]⟩
abbrev S1387x1 : Shape := ⟨2, ![1387, 1]⟩
abbrev S1066x1 : Shape := ⟨2, ![1066, 1]⟩
abbrev S447x1 : Shape := ⟨2, ![447, 1]⟩
abbrev S147x1 : Shape := ⟨2, ![147, 1]⟩
abbrev S26x1 : Shape := ⟨2, ![26, 1]⟩
abbrev S1024x9229x3 : Shape := ⟨3, ![1024, 9229, 3]⟩
abbrev S1024x9229x1 : Shape := ⟨3, ![1024, 9229, 1]⟩
abbrev S1024x9229 : Shape := ⟨2, ![1024, 9229]⟩
abbrev S9229x3 : Shape := ⟨2, ![9229, 3]⟩
abbrev S1x9229 : Shape := ⟨2, ![1, 9229]⟩
abbrev S128x9229 : Shape := ⟨2, ![128, 9229]⟩
abbrev S1024x1 : Shape := ⟨2, ![1024, 1]⟩
abbrev S1x1 : Shape := ⟨2, ![1, 1]⟩
abbrev S_ : Shape := ⟨0, ![]⟩
abbrev S1x1387 : Shape := ⟨2, ![1, 1387]⟩
abbrev S1024x9728 : Shape := ⟨2, ![1024, 9728]⟩
abbrev S9728x1387 : Shape := ⟨2, ![9728, 1387]⟩
abbrev S1024x1387 : Shape := ⟨2, ![1024, 1387]⟩
abbrev S512x512 : Shape := ⟨2, ![512, 512]⟩
abbrev S512x1387 : Shape := ⟨2, ![512, 1387]⟩
abbrev S1x1066 : Shape := ⟨2, ![1, 1066]⟩
abbrev S1024x1066 : Shape := ⟨2, ![1024, 1066]⟩
abbrev S512x1066 : Shape := ⟨2, ![512, 1066]⟩
abbrev S1x447 : Shape := ⟨2, ![1, 447]⟩
abbrev S1024x447 : Shape := ⟨2, ![1024, 447]⟩
abbrev S512x447 : Shape := ⟨2, ![512, 447]⟩
abbrev S1x147 : Shape := ⟨2, ![1, 147]⟩
abbrev S1024x147 : Shape := ⟨2, ![1024, 147]⟩
abbrev S512x147 : Shape := ⟨2, ![512, 147]⟩
abbrev S1x26 : Shape := ⟨2, ![1, 26]⟩
abbrev S1024x26 : Shape := ⟨2, ![1024, 26]⟩
abbrev S512x26 : Shape := ⟨2, ![512, 26]⟩
abbrev S1024x6 : Shape := ⟨2, ![1024, 6]⟩

abbrev nBuf : Space → Nat
  | .hbm => 149
  | .vmem => 54
  | .smem => 0
  | _ => 0

abbrev hbmTy0_0 (i : Nat) : BufTy := match i % 128 with
  | 0 => ⟨S1024x27687, .f32⟩
  | 1 => ⟨S27687, .f32⟩
  | 2 => ⟨S9229, .f32⟩
  | 3 => ⟨S9229x1387, .f32⟩
  | 4 => ⟨S1387, .f32⟩
  | 5 => ⟨S1387x1066, .f32⟩
  | 6 => ⟨S1066, .f32⟩
  | 7 => ⟨S1066x447, .f32⟩
  | 8 => ⟨S447, .f32⟩
  | 9 => ⟨S447x147, .f32⟩
  | 10 => ⟨S147, .f32⟩
  | 11 => ⟨S147x26, .f32⟩
  | 12 => ⟨S26, .f32⟩
  | 13 => ⟨S9229x1, .f32⟩
  | 14 => ⟨S1, .f32⟩
  | 15 => ⟨S1387x1, .f32⟩
  | 16 => ⟨S1, .f32⟩
  | 17 => ⟨S1066x1, .f32⟩
  | 18 => ⟨S1, .f32⟩
  | 19 => ⟨S447x1, .f32⟩
  | 20 => ⟨S1, .f32⟩
  | 21 => ⟨S147x1, .f32⟩
  | 22 => ⟨S1, .f32⟩
  | 23 => ⟨S26x1, .f32⟩
  | 24 => ⟨S1, .f32⟩
  | 25 => ⟨S9229x1387, .i1⟩
  | 26 => ⟨S1387x1066, .i1⟩
  | 27 => ⟨S1066x447, .i1⟩
  | 28 => ⟨S447x147, .i1⟩
  | 29 => ⟨S147x26, .i1⟩
  | 30 => ⟨S1024x9229x3, .f32⟩
  | 31 => ⟨S1024x9229x1, .f32⟩
  | 32 => ⟨S1024x9229, .f32⟩
  | 33 => ⟨S1024x9229x1, .f32⟩
  | 34 => ⟨S1024x9229, .f32⟩
  | 35 => ⟨S1024x9229x1, .f32⟩
  | 36 => ⟨S1024x9229, .f32⟩
  | 37 => ⟨S9229x3, .f32⟩
  | 38 => ⟨S9229x1, .f32⟩
  | 39 => ⟨S9229, .f32⟩
  | 40 => ⟨S1x9229, .f32⟩
  | 41 => ⟨S9229x1, .f32⟩
  | 42 => ⟨S9229, .f32⟩
  | 43 => ⟨S1x9229, .f32⟩
  | 44 => ⟨S9229x1, .f32⟩
  | 45 => ⟨S9229, .f32⟩
  | 46 => ⟨S1x9229, .f32⟩
  | 47 => ⟨S1x9229, .f32⟩
  | 48 => ⟨S1024x9229, .f32⟩
  | 49 => ⟨S1024x1, .f32⟩
  | 50 => ⟨S1x1, .f32⟩
  | 51 => ⟨S1024x1, .f32⟩
  | 52 => ⟨S1024x1, .f32⟩
  | 53 => ⟨S1024x1, .f32⟩
  | 54 => ⟨S1024x1, .f32⟩
  | 55 => ⟨S_, .f32⟩
  | 56 => ⟨S1024x1, .f32⟩
  | 57 => ⟨S1024x1, .f32⟩
  | 58 => ⟨S_, .f32⟩
  | 59 => ⟨S1024x1, .f32⟩
  | 60 => ⟨S1024x1, .f32⟩
  | 61 => ⟨S1x1387, .f32⟩
  | 62 => ⟨S_, .i32⟩
  | 63 => ⟨S_, .f32⟩
  | 64 => ⟨S1024x9728, .f32⟩
  | 65 => ⟨S_, .i32⟩
  | 66 => ⟨S_, .f32⟩
  | 67 => ⟨S9728x1387, .f32⟩
  | 68 => ⟨S_, .i32⟩
  | 69 => ⟨S_, .i32⟩
  | 70 => ⟨S_, .i32⟩
  | 71 => ⟨S_, .i1⟩
  | 72 => ⟨S_, .i1⟩
  | 73 => ⟨S9728x1387, .i1⟩
  | 74 => ⟨S9728x1387, .i32⟩
  | 75 => ⟨S1024x1387, .f32⟩
  | 76 => ⟨S1024x1, .f32⟩
  | 77 => ⟨S1x1, .f32⟩
  | 78 => ⟨S1024x1, .f32⟩
  | 79 => ⟨S1024x1, .f32⟩
  | 80 => ⟨S1024x1, .f32⟩
  | 81 => ⟨S1024x1, .f32⟩
  | 82 => ⟨S_, .f32⟩
  | 83 => ⟨S1024x1, .f32⟩
  | 84 => ⟨S1024x1, .f32⟩
  | 85 => ⟨S_, .f32⟩
  | 86 => ⟨S1024x1, .f32⟩
  | 87 => ⟨S1024x1, .f32⟩
  | 88 => ⟨S1x1066, .f32⟩
  | 89 => ⟨S1387x1066, .i32⟩
  | 90 => ⟨S1024x1066, .f32⟩
  | 91 => ⟨S1024x1, .f32⟩
  | 92 => ⟨S1x1, .f32⟩
  | 93 => ⟨S1024x1, .f32⟩
  | 94 => ⟨S1024x1, .f32⟩
  | 95 => ⟨S1024x1, .f32⟩
  | 96 => ⟨S1024x1, .f32⟩
  | 97 => ⟨S_, .f32⟩
  | 98 => ⟨S1024x1, .f32⟩
  | 99 => ⟨S1024x1, .f32⟩
  | 100 => ⟨S_, .f32⟩
  | 101 => ⟨S1024x1, .f32⟩
  | 102 => ⟨S1024x1, .f32⟩
  | 103 => ⟨S1x447, .f32⟩
  | 104 => ⟨S1066x447, .i32⟩
  | 105 => ⟨S1024x447, .f32⟩
  | 106 => ⟨S1024x1, .f32⟩
  | 107 => ⟨S1x1, .f32⟩
  | 108 => ⟨S1024x1, .f32⟩
  | 109 => ⟨S1024x1, .f32⟩
  | 110 => ⟨S1024x1, .f32⟩
  | 111 => ⟨S1024x1, .f32⟩
  | 112 => ⟨S_, .f32⟩
  | 113 => ⟨S1024x1, .f32⟩
  | 114 => ⟨S1024x1, .f32⟩
  | 115 => ⟨S_, .f32⟩
  | 116 => ⟨S1024x1, .f32⟩
  | 117 => ⟨S1024x1, .f32⟩
  | 118 => ⟨S1x147, .f32⟩
  | 119 => ⟨S447x147, .i32⟩
  | 120 => ⟨S1024x147, .f32⟩
  | 121 => ⟨S1024x1, .f32⟩
  | 122 => ⟨S1x1, .f32⟩
  | 123 => ⟨S1024x1, .f32⟩
  | 124 => ⟨S1024x1, .f32⟩
  | 125 => ⟨S1024x1, .f32⟩
  | 126 => ⟨S1024x1, .f32⟩
  | 127 => ⟨S_, .f32⟩
  | _ => ⟨S1024x27687, .f32⟩

abbrev hbmTy0_1 (i : Nat) : BufTy := match i % 128 with
  | 0 => ⟨S1024x1, .f32⟩
  | 1 => ⟨S1024x1, .f32⟩
  | 2 => ⟨S_, .f32⟩
  | 3 => ⟨S1024x1, .f32⟩
  | 4 => ⟨S1024x1, .f32⟩
  | 5 => ⟨S1x26, .f32⟩
  | 6 => ⟨S147x26, .i32⟩
  | 7 => ⟨S1024x26, .f32⟩
  | 8 => ⟨S1024x1, .f32⟩
  | 9 => ⟨S1x1, .f32⟩
  | 10 => ⟨S1024x1, .f32⟩
  | 11 => ⟨S1024x1, .f32⟩
  | 12 => ⟨S1024x1, .f32⟩
  | 13 => ⟨S1024x1, .f32⟩
  | 14 => ⟨S_, .f32⟩
  | 15 => ⟨S1024x1, .f32⟩
  | 16 => ⟨S1024x1, .f32⟩
  | 17 => ⟨S_, .f32⟩
  | 18 => ⟨S1024x1, .f32⟩
  | 19 => ⟨S1024x1, .f32⟩
  | 20 => ⟨S1024x6, .f32⟩
  | _ => ⟨S1024x27687, .f32⟩

abbrev hbmTy (i : Nat) : BufTy := match i / 128 with
  | 0 => hbmTy0_0 i
  | 1 => hbmTy0_1 i
  | _ => ⟨S1024x27687, .f32⟩

abbrev bufTy : (tb : Table) → Fin (tcTables nBuf tb) → BufTy
  | .hbm, ⟨i, _⟩ => hbmTy i
  | .local _ .vmem, ⟨0, _⟩ => ⟨S128x9229, .f32⟩
  | .local _ .vmem, ⟨1, _⟩ => ⟨S128x9229, .f32⟩
  | .local _ .vmem, ⟨2, _⟩ => ⟨S128x9229, .f32⟩
  | .local _ .vmem, ⟨3, _⟩ => ⟨S128x9229, .f32⟩
  | .local _ .vmem, ⟨4, _⟩ => ⟨S128x9229, .f32⟩
  | .local _ .vmem, ⟨5, _⟩ => ⟨S128x9229, .f32⟩
  | .local _ .vmem, ⟨6, _⟩ => ⟨S1x9229, .f32⟩
  | .local _ .vmem, ⟨7, _⟩ => ⟨S1x9229, .f32⟩
  | .local _ .vmem, ⟨8, _⟩ => ⟨S1x9229, .f32⟩
  | .local _ .vmem, ⟨9, _⟩ => ⟨S1x9229, .f32⟩
  | .local _ .vmem, ⟨10, _⟩ => ⟨S128x9229, .f32⟩
  | .local _ .vmem, ⟨11, _⟩ => ⟨S128x9229, .f32⟩
  | .local _ .vmem, ⟨12, _⟩ => ⟨S512x512, .f32⟩
  | .local _ .vmem, ⟨13, _⟩ => ⟨S512x512, .f32⟩
  | .local _ .vmem, ⟨14, _⟩ => ⟨S512x1387, .f32⟩
  | .local _ .vmem, ⟨15, _⟩ => ⟨S512x1387, .f32⟩
  | .local _ .vmem, ⟨16, _⟩ => ⟨S512x1387, .i32⟩
  | .local _ .vmem, ⟨17, _⟩ => ⟨S512x1387, .i32⟩
  | .local _ .vmem, ⟨18, _⟩ => ⟨S1x1387, .f32⟩
  | .local _ .vmem, ⟨19, _⟩ => ⟨S512x1387, .f32⟩
  | .local _ .vmem, ⟨20, _⟩ => ⟨S512x1387, .f32⟩
  | .local _ .vmem, ⟨21, _⟩ => ⟨S512x1387, .f32⟩
  | .local _ .vmem, ⟨22, _⟩ => ⟨S512x1387, .f32⟩
  | .local _ .vmem, ⟨23, _⟩ => ⟨S512x1387, .f32⟩
  | .local _ .vmem, ⟨24, _⟩ => ⟨S1387x1066, .f32⟩
  | .local _ .vmem, ⟨25, _⟩ => ⟨S1387x1066, .i32⟩
  | .local _ .vmem, ⟨26, _⟩ => ⟨S1x1066, .f32⟩
  | .local _ .vmem, ⟨27, _⟩ => ⟨S512x1066, .f32⟩
  | .local _ .vmem, ⟨28, _⟩ => ⟨S512x1066, .f32⟩
  | .local _ .vmem, ⟨29, _⟩ => ⟨S512x1066, .f32⟩
  | .local _ .vmem, ⟨30, _⟩ => ⟨S512x1066, .f32⟩
  | .local _ .vmem, ⟨31, _⟩ => ⟨S512x1066, .f32⟩
  | .local _ .vmem, ⟨32, _⟩ => ⟨S1066x447, .f32⟩
  | .local _ .vmem, ⟨33, _⟩ => ⟨S1066x447, .i32⟩
  | .local _ .vmem, ⟨34, _⟩ => ⟨S1x447, .f32⟩
  | .local _ .vmem, ⟨35, _⟩ => ⟨S512x447, .f32⟩
  | .local _ .vmem, ⟨36, _⟩ => ⟨S512x447, .f32⟩
  | .local _ .vmem, ⟨37, _⟩ => ⟨S512x447, .f32⟩
  | .local _ .vmem, ⟨38, _⟩ => ⟨S512x447, .f32⟩
  | .local _ .vmem, ⟨39, _⟩ => ⟨S512x447, .f32⟩
  | .local _ .vmem, ⟨40, _⟩ => ⟨S447x147, .f32⟩
  | .local _ .vmem, ⟨41, _⟩ => ⟨S447x147, .i32⟩
  | .local _ .vmem, ⟨42, _⟩ => ⟨S1x147, .f32⟩
  | .local _ .vmem, ⟨43, _⟩ => ⟨S512x147, .f32⟩
  | .local _ .vmem, ⟨44, _⟩ => ⟨S512x147, .f32⟩
  | .local _ .vmem, ⟨45, _⟩ => ⟨S512x147, .f32⟩
  | .local _ .vmem, ⟨46, _⟩ => ⟨S512x147, .f32⟩
  | .local _ .vmem, ⟨47, _⟩ => ⟨S512x147, .f32⟩
  | .local _ .vmem, ⟨48, _⟩ => ⟨S147x26, .f32⟩
  | .local _ .vmem, ⟨49, _⟩ => ⟨S147x26, .i32⟩
  | .local _ .vmem, ⟨50, _⟩ => ⟨S1x26, .f32⟩
  | .local _ .vmem, ⟨51, _⟩ => ⟨S512x26, .f32⟩
  | .local _ .vmem, ⟨52, _⟩ => ⟨S512x26, .f32⟩
  | .local _ .vmem, ⟨53, _⟩ => ⟨S512x26, .f32⟩
  | _, _ => ⟨S1024x27687, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst : Ref sig .tc := ⟨.hbm, 55, rfl⟩
abbrev main_v25 : Ref sig .tc := ⟨.hbm, 56, rfl⟩
abbrev main_v26 : Ref sig .tc := ⟨.hbm, 57, rfl⟩
abbrev main_cst_0 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c : Ref sig .tc := ⟨.hbm, 62, rfl⟩
abbrev main_call0_v0 : Ref sig .tc := ⟨.hbm, 63, rfl⟩
abbrev main_v30 : Ref sig .tc := ⟨.hbm, 64, rfl⟩
abbrev main_c_1 : Ref sig .tc := ⟨.hbm, 65, rfl⟩
abbrev main_call1_v0 : Ref sig .tc := ⟨.hbm, 66, rfl⟩
abbrev main_v31 : Ref sig .tc := ⟨.hbm, 67, rfl⟩
abbrev main_c_2 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_3 : Ref sig .tc := ⟨.hbm, 82, rfl⟩
abbrev main_v41 : Ref sig .tc := ⟨.hbm, 83, rfl⟩
abbrev main_v42 : Ref sig .tc := ⟨.hbm, 84, rfl⟩
abbrev main_cst_4 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_5 : Ref sig .tc := ⟨.hbm, 97, rfl⟩
abbrev main_v54 : Ref sig .tc := ⟨.hbm, 98, rfl⟩
abbrev main_v55 : Ref sig .tc := ⟨.hbm, 99, rfl⟩
abbrev main_cst_6 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_7 : Ref sig .tc := ⟨.hbm, 112, rfl⟩
abbrev main_v67 : Ref sig .tc := ⟨.hbm, 113, rfl⟩
abbrev main_v68 : Ref sig .tc := ⟨.hbm, 114, rfl⟩
abbrev main_cst_8 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_9 : Ref sig .tc := ⟨.hbm, 127, rfl⟩
abbrev main_v80 : Ref sig .tc := ⟨.hbm, 128, rfl⟩
abbrev main_v81 : Ref sig .tc := ⟨.hbm, 129, rfl⟩
abbrev main_cst_10 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_11 : Ref sig .tc := ⟨.hbm, 142, rfl⟩
abbrev main_v93 : Ref sig .tc := ⟨.hbm, 143, rfl⟩
abbrev main_v94 : Ref sig .tc := ⟨.hbm, 144, rfl⟩
abbrev main_cst_12 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc2_scratch0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg4_1 : Ref sig .tc := ⟨.vmem, 36, rfl⟩
abbrev cc3_scratch0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg4_1 : Ref sig .tc := ⟨.vmem, 44, rfl⟩
abbrev cc4_scratch0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg4_1 : Ref sig .tc := ⟨.vmem, 52, rfl⟩
abbrev cc5_scratch0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem4_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem4_1 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem4_1 : DmaSem sig := 48

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x9229 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x9229 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x9229 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x9229 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x9229 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x9229 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x9229 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x9229 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 19], ![false, false]⟩

def k1_cond2 (i : grid1.Coords) : BitVec 1 :=
  let arg1 : BitVec 32 := BitVec.ofNat 32 (i 1).val
  let c18_i32 : BitVec 32 := 18#32
  let v20 : BitVec 1 := Scalar.cmpi .eq arg1 c18_i32
  let v21 : BitVec 32 := Scalar.extui v20
  let c0_i32_12 : BitVec 32 := 0#32
  let v22 : BitVec 1 := Scalar.cmpi .ne v21 c0_i32_12
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1387 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1387 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x1387 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x1387 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![2, 1], ![false, false]⟩

def k2_cond2 (i : grid2.Coords) : BitVec 1 :=
  let arg1 : BitVec 32 := BitVec.ofNat 32 (i 1).val
  let c0_i32_12 : BitVec 32 := 0#32
  let v18 : BitVec 1 := Scalar.cmpi .eq arg1 c0_i32_12
  let v19 : BitVec 32 := Scalar.extui v18
  let c0_i32_13 : BitVec 32 := 0#32
  let v20 : BitVec 1 := Scalar.cmpi .ne v19 c0_i32_13
  v20

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1387 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1387x1066 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1387x1066 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 1 → Memref sig .tc .vmem S1x1066 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S512x1066 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![2, 1], ![false, false]⟩

def k3_cond2 (i : grid3.Coords) : BitVec 1 :=
  let arg1 : BitVec 32 := BitVec.ofNat 32 (i 1).val
  let c0_i32_12 : BitVec 32 := 0#32
  let v18 : BitVec 1 := Scalar.cmpi .eq arg1 c0_i32_12
  let v19 : BitVec 32 := Scalar.extui v18
  let c0_i32_13 : BitVec 32 := 0#32
  let v20 : BitVec 1 := Scalar.cmpi .ne v19 c0_i32_13
  v20

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x1066 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1066x447 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S1066x447 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true]

abbrev stage3_3 : Fin 1 → Memref sig .tc .vmem S1x447 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S512x447 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![2, 1], ![false, false]⟩

def k4_cond2 (i : grid4.Coords) : BitVec 1 :=
  let arg1 : BitVec 32 := BitVec.ofNat 32 (i 1).val
  let c0_i32_12 : BitVec 32 := 0#32
  let v18 : BitVec 1 := Scalar.cmpi .eq arg1 c0_i32_12
  let v19 : BitVec 32 := Scalar.extui v18
  let c0_i32_13 : BitVec 32 := 0#32
  let v20 : BitVec 1 := Scalar.cmpi .ne v19 c0_i32_13
  v20

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S512x447 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S447x147 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S447x147 .i32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true]

abbrev stage4_3 : Fin 1 → Memref sig .tc .vmem S1x147 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S512x147 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![2, 1], ![false, false]⟩

def k5_cond2 (i : grid5.Coords) : BitVec 1 :=
  let arg1 : BitVec 32 := BitVec.ofNat 32 (i 1).val
  let c0_i32_12 : BitVec 32 := 0#32
  let v18 : BitVec 1 := Scalar.cmpi .eq arg1 c0_i32_12
  let v19 : BitVec 32 := Scalar.extui v18
  let c0_i32_13 : BitVec 32 := 0#32
  let v20 : BitVec 1 := Scalar.cmpi .ne v19 c0_i32_13
  v20

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S512x147 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S147x26 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S147x26 .i32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true]

abbrev stage5_3 : Fin 1 → Memref sig .tc .vmem S1x26 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 2 → Memref sig .tc .vmem S512x26 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

class Facts₀ : Prop where
  shapeCasts_S1024x27687_S1024x9229x3 : S1024x27687.ShapeCasts S1024x9229x3
  slices_S1024x9229x3_S1024x9229x1_0_0_0 : S1024x9229x3.Slices ![0, 0, 0] S1024x9229x1
  shapeCasts_S1024x9229x1_S1024x9229 : S1024x9229x1.ShapeCasts S1024x9229
  slices_S1024x9229x3_S1024x9229x1_0_0_1 : S1024x9229x3.Slices ![0, 0, 1] S1024x9229x1
  slices_S1024x9229x3_S1024x9229x1_0_0_2 : S1024x9229x3.Slices ![0, 0, 2] S1024x9229x1
  shapeCasts_S27687_S9229x3 : S27687.ShapeCasts S9229x3
  slices_S9229x3_S9229x1_0_0 : S9229x3.Slices ![0, 0] S9229x1
  shapeCasts_S9229x1_S9229 : S9229x1.ShapeCasts S9229
  shapeCasts_S9229_S1x9229 : S9229.ShapeCasts S1x9229
  slices_S9229x3_S9229x1_0_1 : S9229x3.Slices ![0, 1] S9229x1
  slices_S9229x3_S9229x1_0_2 : S9229x3.Slices ![0, 2] S9229x1
  inb_S128x9229_S128x9229_0_0 : ∀ a, (![0, 0] : Fin 2 → Nat) a + S128x9229.size a ≤ S128x9229.size a
  h_S128x9229 : 0 < S128x9229.numel
  shapeCasts_S128x9229_S128x9229 : S128x9229.ShapeCasts S128x9229
  inb_S1x9229_S1x9229_0_0 : ∀ a, (![0, 0] : Fin 2 → Nat) a + S1x9229.size a ≤ S1x9229.size a
  h_S1x9229 : 0 < S1x9229.numel
  shapeCasts_S1x9229_S1x9229 : S1x9229.ShapeCasts S1x9229
  broadcasts_S1x9229_S128x9229 : S1x9229.Broadcasts S128x9229
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  shapeCasts_S1387_S1x1387 : S1387.ShapeCasts S1x1387
  pads_S1024x9229_S1024x9728_000_04990 : S1024x9229.Pads (![0, 0] : Fin 2 → Nat) ![0, 499] ![0, 0] S1024x9728
  h_S_ : 0 < S_.numel
  pads_S9229x1387_S9728x1387_04990_000 : S9229x1387.Pads (![0, 0] : Fin 2 → Nat) ![499, 0] ![0, 0] S9728x1387
  bcast_S_S_ : S_.BroadcastsInDim S_ (![] : Fin 0 → Fin S_.rank)
  natLt_1_32 : 1 < 32
  inb_S512x1387_S512x1387_0_0 : ∀ a, (![0, 0] : Fin 2 → Nat) a + S512x1387.size a ≤ S512x1387.size a
  h_S512x1387 : 0 < S512x1387.numel
  shapeCasts_S512x1387_S512x1387 : S512x1387.ShapeCasts S512x1387
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1x1387_S1x1387_0_0 : ∀ a, (![0, 0] : Fin 2 → Nat) a + S1x1387.size a ≤ S1x1387.size a
  h_S1x1387 : 0 < S1x1387.numel
  shapeCasts_S1x1387_S1x1387 : S1x1387.ShapeCasts S1x1387
  broadcasts_S1x1387_S512x1387 : S1x1387.Broadcasts S512x1387
  shapeCasts_S1066_S1x1066 : S1066.ShapeCasts S1x1066
  inb_S512x1066_S512x1066_0_0 : ∀ a, (![0, 0] : Fin 2 → Nat) a + S512x1066.size a ≤ S512x1066.size a
  h_S512x1066 : 0 < S512x1066.numel
  shapeCasts_S512x1066_S512x1066 : S512x1066.ShapeCasts S512x1066
  inb_S1387x1066_S1387x1066_0_0 : ∀ a, (![0, 0] : Fin 2 → Nat) a + S1387x1066.size a ≤ S1387x1066.size a
  h_S1387x1066 : 0 < S1387x1066.numel
  inb_S1x1066_S1x1066_0_0 : ∀ a, (![0, 0] : Fin 2 → Nat) a + S1x1066.size a ≤ S1x1066.size a
  h_S1x1066 : 0 < S1x1066.numel
  shapeCasts_S1x1066_S1x1066 : S1x1066.ShapeCasts S1x1066
  broadcasts_S1x1066_S512x1066 : S1x1066.Broadcasts S512x1066
  shapeCasts_S447_S1x447 : S447.ShapeCasts S1x447
  inb_S512x447_S512x447_0_0 : ∀ a, (![0, 0] : Fin 2 → Nat) a + S512x447.size a ≤ S512x447.size a
  h_S512x447 : 0 < S512x447.numel
  shapeCasts_S512x447_S512x447 : S512x447.ShapeCasts S512x447
  inb_S1066x447_S1066x447_0_0 : ∀ a, (![0, 0] : Fin 2 → Nat) a + S1066x447.size a ≤ S1066x447.size a
  h_S1066x447 : 0 < S1066x447.numel
  inb_S1x447_S1x447_0_0 : ∀ a, (![0, 0] : Fin 2 → Nat) a + S1x447.size a ≤ S1x447.size a
  h_S1x447 : 0 < S1x447.numel
  shapeCasts_S1x447_S1x447 : S1x447.ShapeCasts S1x447
  broadcasts_S1x447_S512x447 : S1x447.Broadcasts S512x447
  shapeCasts_S147_S1x147 : S147.ShapeCasts S1x147
  inb_S512x147_S512x147_0_0 : ∀ a, (![0, 0] : Fin 2 → Nat) a + S512x147.size a ≤ S512x147.size a
  h_S512x147 : 0 < S512x147.numel
  shapeCasts_S512x147_S512x147 : S512x147.ShapeCasts S512x147
  inb_S447x147_S447x147_0_0 : ∀ a, (![0, 0] : Fin 2 → Nat) a + S447x147.size a ≤ S447x147.size a
  h_S447x147 : 0 < S447x147.numel
  inb_S1x147_S1x147_0_0 : ∀ a, (![0, 0] : Fin 2 → Nat) a + S1x147.size a ≤ S1x147.size a
  h_S1x147 : 0 < S1x147.numel
  shapeCasts_S1x147_S1x147 : S1x147.ShapeCasts S1x147
  broadcasts_S1x147_S512x147 : S1x147.Broadcasts S512x147
  shapeCasts_S26_S1x26 : S26.ShapeCasts S1x26
  inb_S512x26_S512x26_0_0 : ∀ a, (![0, 0] : Fin 2 → Nat) a + S512x26.size a ≤ S512x26.size a
  h_S512x26 : 0 < S512x26.numel
  shapeCasts_S512x26_S512x26 : S512x26.ShapeCasts S512x26
  inb_S147x26_S147x26_0_0 : ∀ a, (![0, 0] : Fin 2 → Nat) a + S147x26.size a ≤ S147x26.size a
  h_S147x26 : 0 < S147x26.numel
  inb_S1x26_S1x26_0_0 : ∀ a, (![0, 0] : Fin 2 → Nat) a + S1x26.size a ≤ S1x26.size a
  h_S1x26 : 0 < S1x26.numel
  shapeCasts_S1x26_S1x26 : S1x26.ShapeCasts S1x26
  broadcasts_S1x26_S512x26 : S1x26.Broadcasts S512x26
  concatenates_S1024x1_S1024x1_S1024x1_S1024x1_S1024x1_S1024x1_S1024x6_d1 : Shape.Concatenates [S1024x1, S1024x1, S1024x1, S1024x1, S1024x1, S1024x1] S1024x6 1
  dot_S1024x9229_S9229x1_S1024x1_1_0_0_1_n_n_wf : DotDims.WF S1024x9229 S9229x1 S1024x1 [1] [0] [0] [1] [] []
  dot_S512x512_S512x1387_S512x1387_1_0_0_1_n_n_wf : DotDims.WF S512x512 S512x1387 S512x1387 [1] [0] [0] [1] [] []
  dot_S1024x1387_S1387x1_S1024x1_1_0_0_1_n_n_wf : DotDims.WF S1024x1387 S1387x1 S1024x1 [1] [0] [0] [1] [] []
  dot_S512x1387_S1387x1066_S512x1066_1_0_0_1_n_n_wf : DotDims.WF S512x1387 S1387x1066 S512x1066 [1] [0] [0] [1] [] []
  dot_S1024x1066_S1066x1_S1024x1_1_0_0_1_n_n_wf : DotDims.WF S1024x1066 S1066x1 S1024x1 [1] [0] [0] [1] [] []
  dot_S512x1066_S1066x447_S512x447_1_0_0_1_n_n_wf : DotDims.WF S512x1066 S1066x447 S512x447 [1] [0] [0] [1] [] []
  dot_S1024x447_S447x1_S1024x1_1_0_0_1_n_n_wf : DotDims.WF S1024x447 S447x1 S1024x1 [1] [0] [0] [1] [] []
  dot_S512x447_S447x147_S512x147_1_0_0_1_n_n_wf : DotDims.WF S512x447 S447x147 S512x147 [1] [0] [0] [1] [] []
  dot_S1024x147_S147x1_S1024x1_1_0_0_1_n_n_wf : DotDims.WF S1024x147 S147x1 S1024x1 [1] [0] [0] [1] [] []
  dot_S512x147_S147x26_S512x26_1_0_0_1_n_n_wf : DotDims.WF S512x147 S147x26 S512x26 [1] [0] [0] [1] [] []
  dot_S1024x26_S26x1_S1024x1_1_0_0_1_n_n_wf : DotDims.WF S1024x26 S26x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x9229.size a ≤ S1024x9229.size a
  hwx0_0 : ∀ i : grid0.Coords, EltTy.bits .f32 = 32 ∨ (Rect.block (s := S1024x9229) S128x9229.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x9229.size a ≤ S1024x9229.size a
  hwx0_1 : ∀ i : grid0.Coords, EltTy.bits .f32 = 32 ∨ (Rect.block (s := S1024x9229) S128x9229.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x9229.size a ≤ S1024x9229.size a
  hwx0_2 : ∀ i : grid0.Coords, EltTy.bits .f32 = 32 ∨ (Rect.block (s := S1024x9229) S128x9229.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x9229.size a ≤ S1x9229.size a
  hwx0_3 : ∀ i : grid0.Coords, EltTy.bits .f32 = 32 ∨ (Rect.block (s := S1x9229) S1x9229.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x9229.size a ≤ S1x9229.size a
  hwx0_4 : ∀ i : grid0.Coords, EltTy.bits .f32 = 32 ∨ (Rect.block (s := S1x9229) S1x9229.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x9229.size a ≤ S1x9229.size a
  hwx0_5 : ∀ i : grid0.Coords, EltTy.bits .f32 = 32 ∨ (Rect.block (s := S1x9229) S1x9229.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x9229.size a ≤ S1x9229.size a
  hwx0_6 : ∀ i : grid0.Coords, EltTy.bits .f32 = 32 ∨ (Rect.block (s := S1x9229) S1x9229.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x9229.size a ≤ S1024x9229.size a
  hwx0_7 : ∀ i : grid0.Coords, EltTy.bits .f32 = 32 ∨ (Rect.block (s := S1024x9229) S128x9229.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S1024x9728.size a
  hwx1_0 : ∀ i : grid1.Coords, EltTy.bits .f32 = 32 ∨ (Rect.block (s := S1024x9728) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1387.size a ≤ S9728x1387.size a
  hwx1_1 : ∀ i : grid1.Coords, EltTy.bits .f32 = 32 ∨ (Rect.block (s := S9728x1387) S512x1387.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1387.size a ≤ S9728x1387.size a
  hwx1_2 : ∀ i : grid1.Coords, EltTy.bits .i32 = 32 ∨ (Rect.block (s := S9728x1387) S512x1387.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1387.size a ≤ S1x1387.size a
  hwx1_3 : ∀ i : grid1.Coords, EltTy.bits .f32 = 32 ∨ (Rect.block (s := S1x1387) S1x1387.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1387.size a ≤ S1024x1387.size a
  hwx1_4 : ∀ i : grid1.Coords, EltTy.bits .f32 = 32 ∨ (Rect.block (s := S1024x1387) S512x1387.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1387.size a ≤ S1024x1387.size a
  hwx2_0 : ∀ i : grid2.Coords, EltTy.bits .f32 = 32 ∨ (Rect.block (s := S1024x1387) S512x1387.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1387x1066.size a ≤ S1387x1066.size a
  hwx2_1 : ∀ i : grid2.Coords, EltTy.bits .f32 = 32 ∨ (Rect.block (s := S1387x1066) S1387x1066.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1387x1066.size a ≤ S1387x1066.size a
  hwx2_2 : ∀ i : grid2.Coords, EltTy.bits .i32 = 32 ∨ (Rect.block (s := S1387x1066) S1387x1066.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1066.size a ≤ S1x1066.size a
  hwx2_3 : ∀ i : grid2.Coords, EltTy.bits .f32 = 32 ∨ (Rect.block (s := S1x1066) S1x1066.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1066.size a ≤ S1024x1066.size a
  hwx2_4 : ∀ i : grid2.Coords, EltTy.bits .f32 = 32 ∨ (Rect.block (s := S1024x1066) S512x1066.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1066.size a ≤ S1024x1066.size a
  hwx3_0 : ∀ i : grid3.Coords, EltTy.bits .f32 = 32 ∨ (Rect.block (s := S1024x1066) S512x1066.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S1066x447.size a ≤ S1066x447.size a
  hwx3_1 : ∀ i : grid3.Coords, EltTy.bits .f32 = 32 ∨ (Rect.block (s := S1066x447) S1066x447.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1066x447.size a ≤ S1066x447.size a
  hwx3_2 : ∀ i : grid3.Coords, EltTy.bits .i32 = 32 ∨ (Rect.block (s := S1066x447) S1066x447.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x447.size a ≤ S1x447.size a
  hwx3_3 : ∀ i : grid3.Coords, EltTy.bits .f32 = 32 ∨ (Rect.block (s := S1x447) S1x447.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x447.size a ≤ S1024x447.size a
  hwx3_4 : ∀ i : grid3.Coords, EltTy.bits .f32 = 32 ∨ (Rect.block (s := S1024x447) S512x447.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x447.size a ≤ S1024x447.size a
  hwx4_0 : ∀ i : grid4.Coords, EltTy.bits .f32 = 32 ∨ (Rect.block (s := S1024x447) S512x447.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S447x147.size a ≤ S447x147.size a
  hwx4_1 : ∀ i : grid4.Coords, EltTy.bits .f32 = 32 ∨ (Rect.block (s := S447x147) S447x147.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S447x147.size a ≤ S447x147.size a
  hwx4_2 : ∀ i : grid4.Coords, EltTy.bits .i32 = 32 ∨ (Rect.block (s := S447x147) S447x147.size (cc4_transform_2 i) (hinb4_2 i)).WholeWords (EltTy.packing .i32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x147.size a ≤ S1x147.size a
  hwx4_3 : ∀ i : grid4.Coords, EltTy.bits .f32 = 32 ∨ (Rect.block (s := S1x147) S1x147.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x147.size a ≤ S1024x147.size a
  hwx4_4 : ∀ i : grid4.Coords, EltTy.bits .f32 = 32 ∨ (Rect.block (s := S1024x147) S512x147.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x147.size a ≤ S1024x147.size a
  hwx5_0 : ∀ i : grid5.Coords, EltTy.bits .f32 = 32 ∨ (Rect.block (s := S1024x147) S512x147.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S147x26.size a ≤ S147x26.size a
  hwx5_1 : ∀ i : grid5.Coords, EltTy.bits .f32 = 32 ∨ (Rect.block (s := S147x26) S147x26.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S147x26.size a ≤ S147x26.size a
  hwx5_2 : ∀ i : grid5.Coords, EltTy.bits .i32 = 32 ∨ (Rect.block (s := S147x26) S147x26.size (cc5_transform_2 i) (hinb5_2 i)).WholeWords (EltTy.packing .i32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x26.size a ≤ S1x26.size a
  hwx5_3 : ∀ i : grid5.Coords, EltTy.bits .f32 = 32 ∨ (Rect.block (s := S1x26) S1x26.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S512x26.size a ≤ S1024x26.size a
  hwx5_4 : ∀ i : grid5.Coords, EltTy.bits .f32 = 32 ∨ (Rect.block (s := S1024x26) S512x26.size (cc5_transform_4 i) (hinb5_4 i)).WholeWords (EltTy.packing .f32)

variable [Facts₀]

def dot_S1024x9229_S9229x1_S1024x1_1_0_0_1_n_n : DotDims S1024x9229 S9229x1 S1024x1 where
  lhsContracting := [1]
  rhsContracting := [0]
  lhsNonContracting := [0]
  rhsNonContracting := [1]
  lhsBatch := []
  rhsBatch := []
  wf := dot_S1024x9229_S9229x1_S1024x1_1_0_0_1_n_n_wf
def dot_S512x512_S512x1387_S512x1387_1_0_0_1_n_n : DotDims S512x512 S512x1387 S512x1387 where
  lhsContracting := [1]
  rhsContracting := [0]
  lhsNonContracting := [0]
  rhsNonContracting := [1]
  lhsBatch := []
  rhsBatch := []
  wf := dot_S512x512_S512x1387_S512x1387_1_0_0_1_n_n_wf
def dot_S1024x1387_S1387x1_S1024x1_1_0_0_1_n_n : DotDims S1024x1387 S1387x1 S1024x1 where
  lhsContracting := [1]
  rhsContracting := [0]
  lhsNonContracting := [0]
  rhsNonContracting := [1]
  lhsBatch := []
  rhsBatch := []
  wf := dot_S1024x1387_S1387x1_S1024x1_1_0_0_1_n_n_wf
def dot_S512x1387_S1387x1066_S512x1066_1_0_0_1_n_n : DotDims S512x1387 S1387x1066 S512x1066 where
  lhsContracting := [1]
  rhsContracting := [0]
  lhsNonContracting := [0]
  rhsNonContracting := [1]
  lhsBatch := []
  rhsBatch := []
  wf := dot_S512x1387_S1387x1066_S512x1066_1_0_0_1_n_n_wf
def dot_S1024x1066_S1066x1_S1024x1_1_0_0_1_n_n : DotDims S1024x1066 S1066x1 S1024x1 where
  lhsContracting := [1]
  rhsContracting := [0]
  lhsNonContracting := [0]
  rhsNonContracting := [1]
  lhsBatch := []
  rhsBatch := []
  wf := dot_S1024x1066_S1066x1_S1024x1_1_0_0_1_n_n_wf
def dot_S512x1066_S1066x447_S512x447_1_0_0_1_n_n : DotDims S512x1066 S1066x447 S512x447 where
  lhsContracting := [1]
  rhsContracting := [0]
  lhsNonContracting := [0]
  rhsNonContracting := [1]
  lhsBatch := []
  rhsBatch := []
  wf := dot_S512x1066_S1066x447_S512x447_1_0_0_1_n_n_wf
def dot_S1024x447_S447x1_S1024x1_1_0_0_1_n_n : DotDims S1024x447 S447x1 S1024x1 where
  lhsContracting := [1]
  rhsContracting := [0]
  lhsNonContracting := [0]
  rhsNonContracting := [1]
  lhsBatch := []
  rhsBatch := []
  wf := dot_S1024x447_S447x1_S1024x1_1_0_0_1_n_n_wf
def dot_S512x447_S447x147_S512x147_1_0_0_1_n_n : DotDims S512x447 S447x147 S512x147 where
  lhsContracting := [1]
  rhsContracting := [0]
  lhsNonContracting := [0]
  rhsNonContracting := [1]
  lhsBatch := []
  rhsBatch := []
  wf := dot_S512x447_S447x147_S512x147_1_0_0_1_n_n_wf
def dot_S1024x147_S147x1_S1024x1_1_0_0_1_n_n : DotDims S1024x147 S147x1 S1024x1 where
  lhsContracting := [1]
  rhsContracting := [0]
  lhsNonContracting := [0]
  rhsNonContracting := [1]
  lhsBatch := []
  rhsBatch := []
  wf := dot_S1024x147_S147x1_S1024x1_1_0_0_1_n_n_wf
def dot_S512x147_S147x26_S512x26_1_0_0_1_n_n : DotDims S512x147 S147x26 S512x26 where
  lhsContracting := [1]
  rhsContracting := [0]
  lhsNonContracting := [0]
  rhsNonContracting := [1]
  lhsBatch := []
  rhsBatch := []
  wf := dot_S512x147_S147x26_S512x26_1_0_0_1_n_n_wf
def dot_S1024x26_S26x1_S1024x1_1_0_0_1_n_n : DotDims S1024x26 S26x1 S1024x1 where
  lhsContracting := [1]
  rhsContracting := [0]
  lhsNonContracting := [0]
  rhsNonContracting := [1]
  lhsBatch := []
  rhsBatch := []
  wf := dot_S1024x26_S26x1_S1024x1_1_0_0_1_n_n_wf

abbrev win0_0 : Pipeline.Window sig grid0 :=
  Pipeline.Window.ofSpec (Memref.whole main_v2) S128x9229.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x9229.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x9229.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x9229.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x9229.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x9229.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x9229.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S128x9229.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v30) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S512x1387.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S512x1387.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x1387.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S512x1387.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v34) S512x1387.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1387x1066.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1387x1066.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x1066.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S512x1066.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v47) S512x1066.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S1066x447.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1066x447.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x447.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S512x447.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v60) S512x447.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S447x147.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S447x147.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S1x147.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73) S512x147.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v73) S512x147.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S147x26.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S147x26.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S1x26.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S512x26.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

class Facts : Prop extends Facts₀ where

variable [Facts]
-- ==== ReferenceIdeal.lean ====
abbrev S1024x27687 : Shape := ⟨2, ![1024, 27687]⟩
abbrev S27687 : Shape := ⟨1, ![27687]⟩
abbrev S9229 : Shape := ⟨1, ![9229]⟩
abbrev S9229x1387 : Shape := ⟨2, ![9229, 1387]⟩
abbrev S1387 : Shape := ⟨1, ![1387]⟩
abbrev S1387x1066 : Shape := ⟨2, ![1387, 1066]⟩
abbrev S1066 : Shape := ⟨1, ![1066]⟩
abbrev S1066x447 : Shape := ⟨2, ![1066, 447]⟩
abbrev S447 : Shape := ⟨1, ![447]⟩
abbrev S447x147 : Shape := ⟨2, ![447, 147]⟩
abbrev S147 : Shape := ⟨1, ![147]⟩
abbrev S147x26 : Shape := ⟨2, ![147, 26]⟩
abbrev S26 : Shape := ⟨1, ![26]⟩
abbrev S9229x1 : Shape := ⟨2, ![9229, 1]⟩
abbrev S1 : Shape := ⟨1, ![1]⟩
abbrev S1387x1 : Shape := ⟨2, ![1387, 1]⟩
abbrev S1066x1 : Shape := ⟨2, ![1066, 1]⟩
abbrev S447x1 : Shape := ⟨2, ![447, 1]⟩
abbrev S147x1 : Shape := ⟨2, ![147, 1]⟩
abbrev S26x1 : Shape := ⟨2, ![26, 1]⟩
abbrev S1x27687 : Shape := ⟨2, ![1, 27687]⟩
abbrev S1024x9229x3 : Shape := ⟨3, ![1024, 9229, 3]⟩
abbrev S_ : Shape := ⟨0, ![]⟩
abbrev S1024x9229 : Shape := ⟨2, ![1024, 9229]⟩
abbrev S1x9229 : Shape := ⟨2, ![1, 9229]⟩
abbrev S1024x1 : Shape := ⟨2, ![1024, 1]⟩
abbrev S1x1 : Shape := ⟨2, ![1, 1]⟩
abbrev S1024x1387 : Shape := ⟨2, ![1024, 1387]⟩
abbrev S1x1387 : Shape := ⟨2, ![1, 1387]⟩
abbrev S1024x1066 : Shape := ⟨2, ![1024, 1066]⟩
abbrev S1x1066 : Shape := ⟨2, ![1, 1066]⟩
abbrev S1024x447 : Shape := ⟨2, ![1024, 447]⟩
abbrev S1x447 : Shape := ⟨2, ![1, 447]⟩
abbrev S1024x147 : Shape := ⟨2, ![1024, 147]⟩
abbrev S1x147 : Shape := ⟨2, ![1, 147]⟩
abbrev S1024x26 : Shape := ⟨2, ![1024, 26]⟩
abbrev S1x26 : Shape := ⟨2, ![1, 26]⟩
abbrev S1024x6 : Shape := ⟨2, ![1024, 6]⟩

abbrev nBuf : Space → Nat
  | .hbm => 148
  | .vmem => 0
  | .smem => 0
  | _ => 0

abbrev hbmTy0_0 (i : Nat) : BufTy := match i % 128 with
  | 0 => ⟨S1024x27687, .f32⟩
  | 1 => ⟨S27687, .f32⟩
  | 2 => ⟨S9229, .f32⟩
  | 3 => ⟨S9229x1387, .f32⟩
  | 4 => ⟨S1387, .f32⟩
  | 5 => ⟨S1387x1066, .f32⟩
  | 6 => ⟨S1066, .f32⟩
  | 7 => ⟨S1066x447, .f32⟩
  | 8 => ⟨S447, .f32⟩
  | 9 => ⟨S447x147, .f32⟩
  | 10 => ⟨S147, .f32⟩
  | 11 => ⟨S147x26, .f32⟩
  | 12 => ⟨S26, .f32⟩
  | 13 => ⟨S9229x1, .f32⟩
  | 14 => ⟨S1, .f32⟩
  | 15 => ⟨S1387x1, .f32⟩
  | 16 => ⟨S1, .f32⟩
  | 17 => ⟨S1066x1, .f32⟩
  | 18 => ⟨S1, .f32⟩
  | 19 => ⟨S447x1, .f32⟩
  | 20 => ⟨S1, .f32⟩
  | 21 => ⟨S147x1, .f32⟩
  | 22 => ⟨S1, .f32⟩
  | 23 => ⟨S26x1, .f32⟩
  | 24 => ⟨S1, .f32⟩
  | 25 => ⟨S9229x1387, .i1⟩
  | 26 => ⟨S1387x1066, .i1⟩
  | 27 => ⟨S1066x447, .i1⟩
  | 28 => ⟨S447x147, .i1⟩
  | 29 => ⟨S147x26, .i1⟩
  | 30 => ⟨S1x27687, .f32⟩
  | 31 => ⟨S1024x27687, .f32⟩
  | 32 => ⟨S1024x27687, .f32⟩
  | 33 => ⟨S1024x9229x3, .f32⟩
  | 34 => ⟨S_, .f32⟩
  | 35 => ⟨S1024x9229, .f32⟩
  | 36 => ⟨S1x9229, .f32⟩
  | 37 => ⟨S1024x9229, .f32⟩
  | 38 => ⟨S1024x9229, .f32⟩
  | 39 => ⟨S1024x9229, .f32⟩
  | 40 => ⟨S1024x1, .f32⟩
  | 41 => ⟨S1x1, .f32⟩
  | 42 => ⟨S1024x1, .f32⟩
  | 43 => ⟨S1024x1, .f32⟩
  | 44 => ⟨S1024x1, .f32⟩
  | 45 => ⟨S1024x1, .f32⟩
  | 46 => ⟨S_, .f32⟩
  | 47 => ⟨S1024x1, .f32⟩
  | 48 => ⟨S1024x1, .f32⟩
  | 49 => ⟨S_, .f32⟩
  | 50 => ⟨S1024x1, .f32⟩
  | 51 => ⟨S1024x1, .f32⟩
  | 52 => ⟨S9229x1387, .f32⟩
  | 53 => ⟨S9229x1387, .f32⟩
  | 54 => ⟨S1024x1387, .f32⟩
  | 55 => ⟨S1x1387, .f32⟩
  | 56 => ⟨S1024x1387, .f32⟩
  | 57 => ⟨S1024x1387, .f32⟩
  | 58 => ⟨S1024x1387, .f32⟩
  | 59 => ⟨S1024x1, .f32⟩
  | 60 => ⟨S1x1, .f32⟩
  | 61 => ⟨S1024x1, .f32⟩
  | 62 => ⟨S1024x1, .f32⟩
  | 63 => ⟨S1024x1, .f32⟩
  | 64 => ⟨S1024x1, .f32⟩
  | 65 => ⟨S_, .f32⟩
  | 66 => ⟨S1024x1, .f32⟩
  | 67 => ⟨S1024x1, .f32⟩
  | 68 => ⟨S_, .f32⟩
  | 69 => ⟨S1024x1, .f32⟩
  | 70 => ⟨S1024x1, .f32⟩
  | 71 => ⟨S1387x1066, .f32⟩
  | 72 => ⟨S1387x1066, .f32⟩
  | 73 => ⟨S1024x1066, .f32⟩
  | 74 => ⟨S1x1066, .f32⟩
  | 75 => ⟨S1024x1066, .f32⟩
  | 76 => ⟨S1024x1066, .f32⟩
  | 77 => ⟨S1024x1066, .f32⟩
  | 78 => ⟨S1024x1, .f32⟩
  | 79 => ⟨S1x1, .f32⟩
  | 80 => ⟨S1024x1, .f32⟩
  | 81 => ⟨S1024x1, .f32⟩
  | 82 => ⟨S1024x1, .f32⟩
  | 83 => ⟨S1024x1, .f32⟩
  | 84 => ⟨S_, .f32⟩
  | 85 => ⟨S1024x1, .f32⟩
  | 86 => ⟨S1024x1, .f32⟩
  | 87 => ⟨S_, .f32⟩
  | 88 => ⟨S1024x1, .f32⟩
  | 89 => ⟨S1024x1, .f32⟩
  | 90 => ⟨S1066x447, .f32⟩
  | 91 => ⟨S1066x447, .f32⟩
  | 92 => ⟨S1024x447, .f32⟩
  | 93 => ⟨S1x447, .f32⟩
  | 94 => ⟨S1024x447, .f32⟩
  | 95 => ⟨S1024x447, .f32⟩
  | 96 => ⟨S1024x447, .f32⟩
  | 97 => ⟨S1024x1, .f32⟩
  | 98 => ⟨S1x1, .f32⟩
  | 99 => ⟨S1024x1, .f32⟩
  | 100 => ⟨S1024x1, .f32⟩
  | 101 => ⟨S1024x1, .f32⟩
  | 102 => ⟨S1024x1, .f32⟩
  | 103 => ⟨S_, .f32⟩
  | 104 => ⟨S1024x1, .f32⟩
  | 105 => ⟨S1024x1, .f32⟩
  | 106 => ⟨S_, .f32⟩
  | 107 => ⟨S1024x1, .f32⟩
  | 108 => ⟨S1024x1, .f32⟩
  | 109 => ⟨S447x147, .f32⟩
  | 110 => ⟨S447x147, .f32⟩
  | 111 => ⟨S1024x147, .f32⟩
  | 112 => ⟨S1x147, .f32⟩
  | 113 => ⟨S1024x147, .f32⟩
  | 114 => ⟨S1024x147, .f32⟩
  | 115 => ⟨S1024x147, .f32⟩
  | 116 => ⟨S1024x1, .f32⟩
  | 117 => ⟨S1x1, .f32⟩
  | 118 => ⟨S1024x1, .f32⟩
  | 119 => ⟨S1024x1, .f32⟩
  | 120 => ⟨S1024x1, .f32⟩
  | 121 => ⟨S1024x1, .f32⟩
  | 122 => ⟨S_, .f32⟩
  | 123 => ⟨S1024x1, .f32⟩
  | 124 => ⟨S1024x1, .f32⟩
  | 125 => ⟨S_, .f32⟩
  | 126 => ⟨S1024x1, .f32⟩
  | 127 => ⟨S1024x1, .f32⟩
  | _ => ⟨S1024x27687, .f32⟩

abbrev hbmTy0_1 (i : Nat) : BufTy := match i % 128 with
  | 0 => ⟨S147x26, .f32⟩
  | 1 => ⟨S147x26, .f32⟩
  | 2 => ⟨S1024x26, .f32⟩
  | 3 => ⟨S1x26, .f32⟩
  | 4 => ⟨S1024x26, .f32⟩
  | 5 => ⟨S1024x26, .f32⟩
  | 6 => ⟨S1024x26, .f32⟩
  | 7 => ⟨S1024x1, .f32⟩
  | 8 => ⟨S1x1, .f32⟩
  | 9 => ⟨S1024x1, .f32⟩
  | 10 => ⟨S1024x1, .f32⟩
  | 11 => ⟨S1024x1, .f32⟩
  | 12 => ⟨S1024x1, .f32⟩
  | 13 => ⟨S_, .f32⟩
  | 14 => ⟨S1024x1, .f32⟩
  | 15 => ⟨S1024x1, .f32⟩
  | 16 => ⟨S_, .f32⟩
  | 17 => ⟨S1024x1, .f32⟩
  | 18 => ⟨S1024x1, .f32⟩
  | 19 => ⟨S1024x6, .f32⟩
  | _ => ⟨S1024x27687, .f32⟩

abbrev hbmTy (i : Nat) : BufTy := match i / 128 with
  | 0 => hbmTy0_0 i
  | 1 => hbmTy0_1 i
  | _ => ⟨S1024x27687, .f32⟩

abbrev bufTy : (tb : Table) → Fin (tcTables nBuf tb) → BufTy
  | .hbm, ⟨i, _⟩ => hbmTy i
  | _, _ => ⟨S1024x27687, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_0 : Ref sig .tc := ⟨.hbm, 46, rfl⟩
abbrev main_v15 : Ref sig .tc := ⟨.hbm, 47, rfl⟩
abbrev main_v16 : Ref sig .tc := ⟨.hbm, 48, rfl⟩
abbrev main_cst_1 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_2 : Ref sig .tc := ⟨.hbm, 65, rfl⟩
abbrev main_v32 : Ref sig .tc := ⟨.hbm, 66, rfl⟩
abbrev main_v33 : Ref sig .tc := ⟨.hbm, 67, rfl⟩
abbrev main_cst_3 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_4 : Ref sig .tc := ⟨.hbm, 84, rfl⟩
abbrev main_v49 : Ref sig .tc := ⟨.hbm, 85, rfl⟩
abbrev main_v50 : Ref sig .tc := ⟨.hbm, 86, rfl⟩
abbrev main_cst_5 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_6 : Ref sig .tc := ⟨.hbm, 103, rfl⟩
abbrev main_v66 : Ref sig .tc := ⟨.hbm, 104, rfl⟩
abbrev main_v67 : Ref sig .tc := ⟨.hbm, 105, rfl⟩
abbrev main_cst_7 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_8 : Ref sig .tc := ⟨.hbm, 122, rfl⟩
abbrev main_v83 : Ref sig .tc := ⟨.hbm, 123, rfl⟩
abbrev main_v84 : Ref sig .tc := ⟨.hbm, 124, rfl⟩
abbrev main_cst_9 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_10 : Ref sig .tc := ⟨.hbm, 141, rfl⟩
abbrev main_v100 : Ref sig .tc := ⟨.hbm, 142, rfl⟩
abbrev main_v101 : Ref sig .tc := ⟨.hbm, 143, rfl⟩
abbrev main_cst_11 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩

abbrev nD : Nat := 1
abbrev τ : Topo := Topo.v7x

variable {F : FTy → Type} [FloatOps F]

class Facts₀ : Prop where
  bcast_S27687_S1x27687_1 : S27687.BroadcastsInDim S1x27687 (![1] : Fin 1 → Fin S1x27687.rank)
  bcast_S1x27687_S1024x27687_0_1 : S1x27687.BroadcastsInDim S1024x27687 (![0, 1] : Fin 2 → Fin S1024x27687.rank)
  shapeCasts_S1024x27687_S1024x9229x3 : S1024x27687.ShapeCasts S1024x9229x3
  reducesTo_S1024x9229x3_S1024x9229_d2 : S1024x9229x3.ReducesTo [2] S1024x9229
  h_S_ : 0 < S_.numel
  bcast_S9229_S1x9229_1 : S9229.BroadcastsInDim S1x9229 (![1] : Fin 1 → Fin S1x9229.rank)
  bcast_S1x9229_S1024x9229_0_1 : S1x9229.BroadcastsInDim S1024x9229 (![0, 1] : Fin 2 → Fin S1024x9229.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  bcast_S1387_S1x1387_1 : S1387.BroadcastsInDim S1x1387 (![1] : Fin 1 → Fin S1x1387.rank)
  bcast_S1x1387_S1024x1387_0_1 : S1x1387.BroadcastsInDim S1024x1387 (![0, 1] : Fin 2 → Fin S1024x1387.rank)
  bcast_S1066_S1x1066_1 : S1066.BroadcastsInDim S1x1066 (![1] : Fin 1 → Fin S1x1066.rank)
  bcast_S1x1066_S1024x1066_0_1 : S1x1066.BroadcastsInDim S1024x1066 (![0, 1] : Fin 2 → Fin S1024x1066.rank)
  bcast_S447_S1x447_1 : S447.BroadcastsInDim S1x447 (![1] : Fin 1 → Fin S1x447.rank)
  bcast_S1x447_S1024x447_0_1 : S1x447.BroadcastsInDim S1024x447 (![0, 1] : Fin 2 → Fin S1024x447.rank)
  bcast_S147_S1x147_1 : S147.BroadcastsInDim S1x147 (![1] : Fin 1 → Fin S1x147.rank)
  bcast_S1x147_S1024x147_0_1 : S1x147.BroadcastsInDim S1024x147 (![0, 1] : Fin 2 → Fin S1024x147.rank)
  bcast_S26_S1x26_1 : S26.BroadcastsInDim S1x26 (![1] : Fin 1 → Fin S1x26.rank)
  bcast_S1x26_S1024x26_0_1 : S1x26.BroadcastsInDim S1024x26 (![0, 1] : Fin 2 → Fin S1024x26.rank)
  concatenates_S1024x1_S1024x1_S1024x1_S1024x1_S1024x1_S1024x1_S1024x6_d1 : Shape.Concatenates [S1024x1, S1024x1, S1024x1, S1024x1, S1024x1, S1024x1] S1024x6 1
  dot_S1024x9229_S9229x1_S1024x1_1_0_0_1_n_n_wf : DotDims.WF S1024x9229 S9229x1 S1024x1 [1] [0] [0] [1] [] []
  dot_S1024x9229_S9229x1387_S1024x1387_1_0_0_1_n_n_wf : DotDims.WF S1024x9229 S9229x1387 S1024x1387 [1] [0] [0] [1] [] []
  dot_S1024x1387_S1387x1_S1024x1_1_0_0_1_n_n_wf : DotDims.WF S1024x1387 S1387x1 S1024x1 [1] [0] [0] [1] [] []
  dot_S1024x1387_S1387x1066_S1024x1066_1_0_0_1_n_n_wf : DotDims.WF S1024x1387 S1387x1066 S1024x1066 [1] [0] [0] [1] [] []
  dot_S1024x1066_S1066x1_S1024x1_1_0_0_1_n_n_wf : DotDims.WF S1024x1066 S1066x1 S1024x1 [1] [0] [0] [1] [] []
  dot_S1024x1066_S1066x447_S1024x447_1_0_0_1_n_n_wf : DotDims.WF S1024x1066 S1066x447 S1024x447 [1] [0] [0] [1] [] []
  dot_S1024x447_S447x1_S1024x1_1_0_0_1_n_n_wf : DotDims.WF S1024x447 S447x1 S1024x1 [1] [0] [0] [1] [] []
  dot_S1024x447_S447x147_S1024x147_1_0_0_1_n_n_wf : DotDims.WF S1024x447 S447x147 S1024x147 [1] [0] [0] [1] [] []
  dot_S1024x147_S147x1_S1024x1_1_0_0_1_n_n_wf : DotDims.WF S1024x147 S147x1 S1024x1 [1] [0] [0] [1] [] []
  dot_S1024x147_S147x26_S1024x26_1_0_0_1_n_n_wf : DotDims.WF S1024x147 S147x26 S1024x26 [1] [0] [0] [1] [] []
  dot_S1024x26_S26x1_S1024x1_1_0_0_1_n_n_wf : DotDims.WF S1024x26 S26x1 S1024x1 [1] [0] [0] [1] [] []

variable [Facts₀]

def dot_S1024x9229_S9229x1_S1024x1_1_0_0_1_n_n : DotDims S1024x9229 S9229x1 S1024x1 where
  lhsContracting := [1]
  rhsContracting := [0]
  lhsNonContracting := [0]
  rhsNonContracting := [1]
  lhsBatch := []
  rhsBatch := []
  wf := dot_S1024x9229_S9229x1_S1024x1_1_0_0_1_n_n_wf
def dot_S1024x9229_S9229x1387_S1024x1387_1_0_0_1_n_n : DotDims S1024x9229 S9229x1387 S1024x1387 where
  lhsContracting := [1]
  rhsContracting := [0]
  lhsNonContracting := [0]
  rhsNonContracting := [1]
  lhsBatch := []
  rhsBatch := []
  wf := dot_S1024x9229_S9229x1387_S1024x1387_1_0_0_1_n_n_wf
def dot_S1024x1387_S1387x1_S1024x1_1_0_0_1_n_n : DotDims S1024x1387 S1387x1 S1024x1 where
  lhsContracting := [1]
  rhsContracting := [0]
  lhsNonContracting := [0]
  rhsNonContracting := [1]
  lhsBatch := []
  rhsBatch := []
  wf := dot_S1024x1387_S1387x1_S1024x1_1_0_0_1_n_n_wf
def dot_S1024x1387_S1387x1066_S1024x1066_1_0_0_1_n_n : DotDims S1024x1387 S1387x1066 S1024x1066 where
  lhsContracting := [1]
  rhsContracting := [0]
  lhsNonContracting := [0]
  rhsNonContracting := [1]
  lhsBatch := []
  rhsBatch := []
  wf := dot_S1024x1387_S1387x1066_S1024x1066_1_0_0_1_n_n_wf
def dot_S1024x1066_S1066x1_S1024x1_1_0_0_1_n_n : DotDims S1024x1066 S1066x1 S1024x1 where
  lhsContracting := [1]
  rhsContracting := [0]
  lhsNonContracting := [0]
  rhsNonContracting := [1]
  lhsBatch := []
  rhsBatch := []
  wf := dot_S1024x1066_S1066x1_S1024x1_1_0_0_1_n_n_wf
def dot_S1024x1066_S1066x447_S1024x447_1_0_0_1_n_n : DotDims S1024x1066 S1066x447 S1024x447 where
  lhsContracting := [1]
  rhsContracting := [0]
  lhsNonContracting := [0]
  rhsNonContracting := [1]
  lhsBatch := []
  rhsBatch := []
  wf := dot_S1024x1066_S1066x447_S1024x447_1_0_0_1_n_n_wf
def dot_S1024x447_S447x1_S1024x1_1_0_0_1_n_n : DotDims S1024x447 S447x1 S1024x1 where
  lhsContracting := [1]
  rhsContracting := [0]
  lhsNonContracting := [0]
  rhsNonContracting := [1]
  lhsBatch := []
  rhsBatch := []
  wf := dot_S1024x447_S447x1_S1024x1_1_0_0_1_n_n_wf
def dot_S1024x447_S447x147_S1024x147_1_0_0_1_n_n : DotDims S1024x447 S447x147 S1024x147 where
  lhsContracting := [1]
  rhsContracting := [0]
  lhsNonContracting := [0]
  rhsNonContracting := [1]
  lhsBatch := []
  rhsBatch := []
  wf := dot_S1024x447_S447x147_S1024x147_1_0_0_1_n_n_wf
def dot_S1024x147_S147x1_S1024x1_1_0_0_1_n_n : DotDims S1024x147 S147x1 S1024x1 where
  lhsContracting := [1]
  rhsContracting := [0]
  lhsNonContracting := [0]
  rhsNonContracting := [1]
  lhsBatch := []
  rhsBatch := []
  wf := dot_S1024x147_S147x1_S1024x1_1_0_0_1_n_n_wf
def dot_S1024x147_S147x26_S1024x26_1_0_0_1_n_n : DotDims S1024x147 S147x26 S1024x26 where
  lhsContracting := [1]
  rhsContracting := [0]
  lhsNonContracting := [0]
  rhsNonContracting := [1]
  lhsBatch := []
  rhsBatch := []
  wf := dot_S1024x147_S147x26_S1024x26_1_0_0_1_n_n_wf
def dot_S1024x26_S26x1_S1024x1_1_0_0_1_n_n : DotDims S1024x26 S26x1 S1024x1 where
  lhsContracting := [1]
  rhsContracting := [0]
  lhsNonContracting := [0]
  rhsNonContracting := [1]
  lhsBatch := []
  rhsBatch := []
  wf := dot_S1024x26_S26x1_S1024x1_1_0_0_1_n_n_wf

class Facts : Prop extends Facts₀ where

variable [Facts]
-- ==== Proof.BitsDiag.lean ====
/- The diagonal layer as one pipelined region over batch tiles: at every grid point the three strided columns of the
   input are each scaled by their own weight row, the three products and the bias row are added, and tanh is applied;
   the result is stored over the whole output block (which the body reads once before overwriting it). -/
import proofs.«156066_j47502338294403_1_alg».proof.Proof.Gen.Kernel.Launch
import proofs.«156066_j47502338294403_1_alg».proof.Proof.Gen.Kernel.Skeleton
import proofs.«156066_j47502338294403_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole buffers: the seven inputs are read and handed back as they were; the output block, entered at
    anything, ends with the pieces the run finds. -/
noncomputable def diagRun (c : Dev nD) (i : grid0.Coords) (arg1 : Memref sig .tc .vmem S128x9229 .f32) (harg1 : arg1.IsWhole) (arg2 : Memref sig .tc .vmem S128x9229 .f32) (harg2 : arg2.IsWhole) (arg3 : Memref sig .tc .vmem S128x9229 .f32) (harg3 : arg3.IsWhole) (arg4 : Memref sig .tc .vmem S1x9229 .f32) (harg4 : arg4.IsWhole) (arg5 : Memref sig .tc .vmem S1x9229 .f32) (harg5 : arg5.IsWhole) (arg6 : Memref sig .tc .vmem S1x9229 .f32) (harg6 : arg6.IsWhole) (arg7 : Memref sig .tc .vmem S1x9229 .f32) (harg7 : arg7.IsWhole) (arg8 : Memref sig .tc .vmem S128x9229 .f32) (harg8 : arg8.IsWhole)
    (x0 : Vec F S128x9229 .f32) (x1 : Vec F S128x9229 .f32) (x2 : Vec F S128x9229 .f32) (x3 : Vec F S1x9229 .f32) (x4 : Vec F S1x9229 .f32) (x5 : Vec F S1x9229 .f32) (x6 : Vec F S1x9229 .f32) :
    { L7 : List (View.Piece (Elt F) S128x9229 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)) -∗ K ⟨⟩))
          ⊢ wp frame (wpE (defs₀ (F := F)) Variants.none c none) E (cc0__diag_kernel i arg1 harg1 arg2 harg2 arg3 harg3 arg4 harg4 arg5 harg5 arg6 harg6 arg7 harg7 arg8 harg8) K } := by
  refine ⟨?_, fun E K => ?run⟩
  case run =>
    simp only [cc0__diag_kernel_eq_skeleton]; unfold cc0__diag_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

/-! ## The staging buffers the body is called on -/

abbrev ms0_0 (t : Fin cfg0.N) : Memref sig .tc .vmem S128x9229 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x9229 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x9229 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x9229 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x9229 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x9229 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x9229 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x9229 .f32 := win0_7.stage (cfg0.slots t 7)
abbrev hs0_7 (t : Fin cfg0.N) : (ms0_7 t).IsWhole := hstage0_7 ((cfg0.slots t 7).cast nbuf0_7)
/-- One staging buffer of the output window, through which its contents are stated. -/
abbrev VO0 : View sig .tc .vmem S128x9229 .f32 := (Memref.whole cc0_stg7_0 : Memref sig .tc .vmem S128x9229 .f32).view

/-- The pieces the run leaves in the output block cover it. -/
theorem coverDiag (c : Dev nD) (i : grid0.Coords) (arg1 : Memref sig .tc .vmem S128x9229 .f32) (harg1 : arg1.IsWhole) (arg2 : Memref sig .tc .vmem S128x9229 .f32) (harg2 : arg2.IsWhole) (arg3 : Memref sig .tc .vmem S128x9229 .f32) (harg3 : arg3.IsWhole) (arg4 : Memref sig .tc .vmem S1x9229 .f32) (harg4 : arg4.IsWhole) (arg5 : Memref sig .tc .vmem S1x9229 .f32) (harg5 : arg5.IsWhole) (arg6 : Memref sig .tc .vmem S1x9229 .f32) (harg6 : arg6.IsWhole) (arg7 : Memref sig .tc .vmem S1x9229 .f32) (harg7 : arg7.IsWhole) (arg8 : Memref sig .tc .vmem S128x9229 .f32) (harg8 : arg8.IsWhole)
    (x0 : Vec F S128x9229 .f32) (x1 : Vec F S128x9229 .f32) (x2 : Vec F S128x9229 .f32) (x3 : Vec F S1x9229 .f32) (x4 : Vec F S1x9229 .f32) (x5 : Vec F S1x9229 .f32) (x6 : Vec F S1x9229 .f32) (y : S128x9229.Idx) :
    ∃ pc ∈ (diagRun c i arg1 harg1 arg2 harg2 arg3 harg3 arg4 harg4 arg5 harg5 arg6 harg6 arg7 harg7 arg8 harg8 x0 x1 x2 x3 x4 x5 x6).1, y ∈ pc.1.set :=
  View.cover_of_tiledL (diagRun c i arg1 harg1 arg2 harg2 arg3 harg3 arg4 harg4 arg5 harg5 arg6 harg6 arg7 harg7 arg8 harg8 x0 x1 x2 x3 x4 x5 x6).1 S128x9229.size (by sl_kernel_rfl) y

/-- What the body leaves in the output block: its pieces read back. -/
def diagOut (c : Dev nD) (i : grid0.Coords) (arg1 : Memref sig .tc .vmem S128x9229 .f32) (harg1 : arg1.IsWhole) (arg2 : Memref sig .tc .vmem S128x9229 .f32) (harg2 : arg2.IsWhole) (arg3 : Memref sig .tc .vmem S128x9229 .f32) (harg3 : arg3.IsWhole) (arg4 : Memref sig .tc .vmem S1x9229 .f32) (harg4 : arg4.IsWhole) (arg5 : Memref sig .tc .vmem S1x9229 .f32) (harg5 : arg5.IsWhole) (arg6 : Memref sig .tc .vmem S1x9229 .f32) (harg6 : arg6.IsWhole) (arg7 : Memref sig .tc .vmem S1x9229 .f32) (harg7 : arg7.IsWhole) (arg8 : Memref sig .tc .vmem S128x9229 .f32) (harg8 : arg8.IsWhole)
    (x0 : Vec F S128x9229 .f32) (x1 : Vec F S128x9229 .f32) (x2 : Vec F S128x9229 .f32) (x3 : Vec F S1x9229 .f32) (x4 : Vec F S1x9229 .f32) (x5 : Vec F S1x9229 .f32) (x6 : Vec F S1x9229 .f32) : Vec F S128x9229 .f32 :=
  VO0.read (Elt F) (VO0.writes (Elt F) VO0.junk (diagRun c i arg1 harg1 arg2 harg2 arg3 harg3 arg4 harg4 arg5 harg5 arg6 harg6 arg7 harg7 arg8 harg8 x0 x1 x2 x3 x4 x5 x6).1)

section Region

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The output block after the body at point `t`: the body's result on the point's seven input blocks. -/
def outAt0 (c : Dev nD) (t : Fin cfg0.N) : Vec F S128x9229 .f32 :=
  diagOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) (iblk0 V c 5 t) (iblk0 V c 6 t)

/-- The proof data of the diagonal layer on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns (no window of this layer is ever idle). -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold outAt0 diagOut; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((diagRun c (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (coverDiag c _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Layers

end
-- ==== Proof.BitsLayer1Runs.lean ====
/- Layer 1 of the masked network as one pipelined region whose contracted axis is cut into nineteen tiles: the grid's
   second coordinate counts the tiles.  At the first tile the accumulator is cleared before the tile's product is
   added; at every later tile the product is added to what the tile before left; at the last tile the bias row is
   then added and tanh applied, and only there is the output block stored.  Here: the body's run in each of the
   three cases the grid meets. -/
import proofs.«156066_j47502338294403_1_alg».proof.Proof.Gen.Kernel.Launch
import proofs.«156066_j47502338294403_1_alg».proof.Proof.Gen.Kernel.Skeleton
import proofs.«156066_j47502338294403_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first tile of the contracted axis: its second coordinate is zero. -/
abbrev first1 (i : grid1.Coords) : Prop :=
  (Scalar.cmpi .ne (Scalar.extui (Scalar.cmpi .eq (BitVec.ofNat 32 (i 1).val) 0#32)) 0#32) = 1#1
/-- The point is the last tile of the contracted axis: its second coordinate is eighteen. -/
abbrev last1 (i : grid1.Coords) : Prop := k1_cond2 i = 1#1

/-- Points are numbered batch tile by batch tile, nineteen to a batch tile. -/
theorem first1_iff : ∀ t : Fin cfg1.N, first1 (grid1.coords t) ↔ t.val % 19 = 0 :=
  (by decide +kernel : ∀ t : Fin grid1.N, first1 (grid1.coords t) ↔ t.val % 19 = 0)
theorem last1_iff : ∀ t : Fin cfg1.N, last1 (grid1.coords t) ↔ t.val % 19 = 18 :=
  (by decide +kernel : ∀ t : Fin grid1.N, last1 (grid1.coords t) ↔ t.val % 19 = 18)

set_option maxHeartbeats 4000000 in
/-- FIRST TILE (not the last): the accumulator, entered at anything, ends with the pieces the run finds; the output
    block is handed back untouched. -/
noncomputable def layerRun1_A (c : Dev nD) (i : grid1.Coords)
    (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole)
    (hc0 : first1 i) (hc1 : ¬last1 i) (x0 : Vec F S512x512 .f32) (x1 : Vec F S512x1387 .f32) (x2 : Vec F S512x1387 .i32) (x3 : Vec F S1x1387 .f32) :
    { LS0 : List (View.Piece (Elt F) S512x1387 .f32) //
      ∀ (xi4 : Vec F S512x1387 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E
              (cc1__masked_linear_kernel i arg2 harg2 arg3 harg3 arg4 harg4 arg5 harg5 arg6 harg6 arg7 harg7) K } := by
  refine ⟨?_, fun xi4 E K => ?run⟩
  case run =>
    simp only [cc1__masked_linear_kernel_eq_skeleton]; unfold cc1__masked_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- A MIDDLE TILE: the accumulator, entered at what the tile before left, ends with the pieces the run finds; the output
    block is handed back untouched. -/
noncomputable def layerRun1_B (c : Dev nD) (i : grid1.Coords)
    (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole)
    (hc0 : ¬first1 i) (hc1 : ¬last1 i) (x0 : Vec F S512x512 .f32) (x1 : Vec F S512x1387 .f32) (x2 : Vec F S512x1387 .i32) (x3 : Vec F S1x1387 .f32) (xs0 : Vec F S512x1387 .f32) :
    { LS0 : List (View.Piece (Elt F) S512x1387 .f32) //
      ∀ (xi4 : Vec F S512x1387 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E
              (cc1__masked_linear_kernel i arg2 harg2 arg3 harg3 arg4 harg4 arg5 harg5 arg6 harg6 arg7 harg7) K } := by
  refine ⟨?_, fun xi4 E K => ?run⟩
  case run =>
    simp only [cc1__masked_linear_kernel_eq_skeleton]; unfold cc1__masked_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1
    obtain rfl := harg4.eq_unread hf2; obtain rfl := harg5.eq_unread hf3; obtain rfl := harg6.eq_unread hf4
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- THE LAST TILE (not the first): the accumulator, entered at what the tile before left, and the output block, entered
    at anything, end with the pieces the run finds. -/
noncomputable def layerRun1_C (c : Dev nD) (i : grid1.Coords)
    (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole)
    (hc0 : ¬first1 i) (hc1 : last1 i) (x0 : Vec F S512x512 .f32) (x1 : Vec F S512x1387 .f32) (x2 : Vec F S512x1387 .i32) (x3 : Vec F S1x1387 .f32) (xs0 : Vec F S512x1387 .f32) :
    Σ' (L4 : List (View.Piece (Elt F) S512x1387 .f32)), { LS0 : List (View.Piece (Elt F) S512x1387 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
            ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E
              (cc1__masked_linear_kernel i arg2 harg2 arg3 harg3 arg4 harg4 arg5 harg5 arg6 harg6 arg7 harg7) K } := by
  refine ⟨?_, ?_, fun E K => ?run⟩
  case run =>
    simp only [cc1__masked_linear_kernel_eq_skeleton]; unfold cc1__masked_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1
    obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Layers

end
-- ==== Proof.BitsLayer1Data.lean ====
/- Layer 1: what the output block and the accumulator hold after each grid point, by recursion on the point — the
   accumulator after a tile is the tile's product added to what the tile before left (to zero at a batch tile's first
   tile), the output block is written at a batch tile's last tile only —, the region's invariant carrying the
   accumulator's contents from a point to the next, and the body's obligation at every point, by the tile's position. -/
import proofs.«156066_j47502338294403_1_alg».proof.Proof.BitsLayer1Runs

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging buffers the body is called on; where the output window is idle -/

abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1387 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1387 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1387 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1387 .f32 := win1_4.stage (cfg1.slots t 4)
abbrev hs1_4 (t : Fin cfg1.N) : (ms1_4 t).IsWhole := hstage1_4 ((cfg1.slots t 4).cast nbuf1_4)
/-- The accumulator: a whole buffer of the kernel's own, and the view through which its contents are stated. -/
abbrev scM1 : Memref sig .tc .vmem S512x1387 .f32 := Memref.whole cc1_scratch0
abbrev VS1 : View sig .tc .vmem S512x1387 .f32 := scM1.view
/-- One staging buffer of the output window, through which its contents are stated. -/
abbrev VO1 : View sig .tc .vmem S512x1387 .f32 := (Memref.whole cc1_stg4_0 : Memref sig .tc .vmem S512x1387 .f32).view

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from a batch tile's last tile the output window is idle and is not written back. -/
theorem idleAt1_4_A : ∀ t : Fin cfg1.N, first1 (grid1.coords t) → ¬last1 (grid1.coords t) → cfg1.idle 4 (grid1.coords t) = true := by decide +kernel
theorem noFlush1_4_A : ∀ t : Fin cfg1.N, first1 (grid1.coords t) → ¬last1 (grid1.coords t) → (cfg1.win 4).flush t = false := by decide +kernel
theorem idleAt1_4_B : ∀ t : Fin cfg1.N, ¬first1 (grid1.coords t) → ¬last1 (grid1.coords t) → cfg1.idle 4 (grid1.coords t) = true := by decide +kernel
theorem noFlush1_4_B : ∀ t : Fin cfg1.N, ¬first1 (grid1.coords t) → ¬last1 (grid1.coords t) → (cfg1.win 4).flush t = false := by decide +kernel
/-- At a batch tile's last tile it is live. -/
theorem liveAt1_4_C : ∀ t : Fin cfg1.N, ¬first1 (grid1.coords t) → last1 (grid1.coords t) → cfg1.idle 4 (grid1.coords t) = false := by decide +kernel

/-- The region's invariant with the accumulator set apart, at some contents. -/
theorem PhiA1_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## What each case leaves -/

theorem scoverA (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : first1 i) (hc1 : ¬last1 i) (x0 : Vec F S512x512 .f32) (x1 : Vec F S512x1387 .f32) (x2 : Vec F S512x1387 .i32) (x3 : Vec F S1x1387 .f32) (y : S512x1387.Idx) :
    ∃ pc ∈ (layerRun1_A c i arg2 harg2 arg3 harg3 arg4 harg4 arg5 harg5 arg6 harg6 arg7 harg7 hc0 hc1 x0 x1 x2 x3).1, y ∈ pc.1.set :=
  View.cover_of_tiledL (layerRun1_A c i arg2 harg2 arg3 harg3 arg4 harg4 arg5 harg5 arg6 harg6 arg7 harg7 hc0 hc1 x0 x1 x2 x3).1 S512x1387.size (by sl_kernel_rfl) y
/-- The accumulator after a first tile. -/
def soutA (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : first1 i) (hc1 : ¬last1 i) (x0 : Vec F S512x512 .f32) (x1 : Vec F S512x1387 .f32) (x2 : Vec F S512x1387 .i32) (x3 : Vec F S1x1387 .f32) : Vec F S512x1387 .f32 :=
  VS1.read (Elt F) (VS1.writes (Elt F) VS1.junk (layerRun1_A c i arg2 harg2 arg3 harg3 arg4 harg4 arg5 harg5 arg6 harg6 arg7 harg7 hc0 hc1 x0 x1 x2 x3).1)

theorem scoverB (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : ¬first1 i) (hc1 : ¬last1 i) (x0 : Vec F S512x512 .f32) (x1 : Vec F S512x1387 .f32) (x2 : Vec F S512x1387 .i32) (x3 : Vec F S1x1387 .f32) (xs0 : Vec F S512x1387 .f32) (y : S512x1387.Idx) :
    ∃ pc ∈ (layerRun1_B c i arg2 harg2 arg3 harg3 arg4 harg4 arg5 harg5 arg6 harg6 arg7 harg7 hc0 hc1 x0 x1 x2 x3 xs0).1, y ∈ pc.1.set :=
  View.cover_of_tiledL (layerRun1_B c i arg2 harg2 arg3 harg3 arg4 harg4 arg5 harg5 arg6 harg6 arg7 harg7 hc0 hc1 x0 x1 x2 x3 xs0).1 S512x1387.size (by sl_kernel_rfl) y
/-- The accumulator after a middle tile, from what the tile before left. -/
def soutB (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : ¬first1 i) (hc1 : ¬last1 i) (x0 : Vec F S512x512 .f32) (x1 : Vec F S512x1387 .f32) (x2 : Vec F S512x1387 .i32) (x3 : Vec F S1x1387 .f32) (xs0 : Vec F S512x1387 .f32) : Vec F S512x1387 .f32 :=
  VS1.read (Elt F) (VS1.writes (Elt F) VS1.junk (layerRun1_B c i arg2 harg2 arg3 harg3 arg4 harg4 arg5 harg5 arg6 harg6 arg7 harg7 hc0 hc1 x0 x1 x2 x3 xs0).1)

theorem coverC (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : ¬first1 i) (hc1 : last1 i) (x0 : Vec F S512x512 .f32) (x1 : Vec F S512x1387 .f32) (x2 : Vec F S512x1387 .i32) (x3 : Vec F S1x1387 .f32) (xs0 : Vec F S512x1387 .f32) (y : S512x1387.Idx) :
    ∃ pc ∈ (layerRun1_C c i arg2 harg2 arg3 harg3 arg4 harg4 arg5 harg5 arg6 harg6 arg7 harg7 hc0 hc1 x0 x1 x2 x3 xs0).1, y ∈ pc.1.set :=
  View.cover_of_tiledL (layerRun1_C c i arg2 harg2 arg3 harg3 arg4 harg4 arg5 harg5 arg6 harg6 arg7 harg7 hc0 hc1 x0 x1 x2 x3 xs0).1 S512x1387.size (by sl_kernel_rfl) y
/-- The output block after a last tile. -/
def outC (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : ¬first1 i) (hc1 : last1 i) (x0 : Vec F S512x512 .f32) (x1 : Vec F S512x1387 .f32) (x2 : Vec F S512x1387 .i32) (x3 : Vec F S1x1387 .f32) (xs0 : Vec F S512x1387 .f32) : Vec F S512x1387 .f32 :=
  VO1.read (Elt F) (VO1.writes (Elt F) VO1.junk (layerRun1_C c i arg2 harg2 arg3 harg3 arg4 harg4 arg5 harg5 arg6 harg6 arg7 harg7 hc0 hc1 x0 x1 x2 x3 xs0).1)
theorem scoverC (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : ¬first1 i) (hc1 : last1 i) (x0 : Vec F S512x512 .f32) (x1 : Vec F S512x1387 .f32) (x2 : Vec F S512x1387 .i32) (x3 : Vec F S1x1387 .f32) (xs0 : Vec F S512x1387 .f32) (y : S512x1387.Idx) :
    ∃ pc ∈ (layerRun1_C c i arg2 harg2 arg3 harg3 arg4 harg4 arg5 harg5 arg6 harg6 arg7 harg7 hc0 hc1 x0 x1 x2 x3 xs0).2.1, y ∈ pc.1.set :=
  View.cover_of_tiledL (layerRun1_C c i arg2 harg2 arg3 harg3 arg4 harg4 arg5 harg5 arg6 harg6 arg7 harg7 hc0 hc1 x0 x1 x2 x3 xs0).2.1 S512x1387.size (by sl_kernel_rfl) y
/-- The accumulator after a last tile. -/
def soutC (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : ¬first1 i) (hc1 : last1 i) (x0 : Vec F S512x512 .f32) (x1 : Vec F S512x1387 .f32) (x2 : Vec F S512x1387 .i32) (x3 : Vec F S1x1387 .f32) (xs0 : Vec F S512x1387 .f32) : Vec F S512x1387 .f32 :=
  VS1.read (Elt F) (VS1.writes (Elt F) VS1.junk (layerRun1_C c i arg2 harg2 arg3 harg3 arg4 harg4 arg5 harg5 arg6 harg6 arg7 harg7 hc0 hc1 x0 x1 x2 x3 xs0).2.1)

/-- What stands for the output block where no store reaches it (nothing reads this). -/
def outIdle : Vec F S512x1387 .f32 := VO1.read (Elt F) (VO1.writes (Elt F) VO1.junk [])

section Region

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: the output block and the accumulator after the body at position `n`. -/
def outsAt1 (c : Dev nD) : (n : ℕ) → n < cfg1.N → Vec F S512x1387 .f32 × Vec F S512x1387 .f32
  | 0, hn => (outIdle, soutA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((first1_iff ⟨0, hn⟩).mpr (Nat.zero_mod _)) (fun h => (fun h => by (try dsimp only at h); omega) ((last1_iff ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 19 = 0 then
      if h1 : (n + 1) % 19 = 18 then
        False.elim (by omega)
      else
        (outIdle, soutA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((first1_iff ⟨n + 1, hn⟩).mpr h0) (fun h => h1 ((last1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 19 = 18 then
        (outC c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((first1_iff ⟨n + 1, hn⟩).mp h)) ((last1_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         soutC c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((first1_iff ⟨n + 1, hn⟩).mp h)) ((last1_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (outIdle, soutB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((first1_iff ⟨n + 1, hn⟩).mp h)) (fun h => h1 ((last1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 19 = 0) (h1 : ¬t.val % 19 = 18) :
    outsAt1 V c t.val t.isLt = (outIdle, soutA c (grid1.coords t) (ms1_0 t) (hs1_0 t) (ms1_1 t) (hs1_1 t) (ms1_2 t) (hs1_2 t) (ms1_3 t) (hs1_3 t) (ms1_4 t) (hs1_4 t) scM1 (Memref.isWhole_whole _) ((first1_iff t).mpr h0) (fun h => h1 ((last1_iff t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 19 = 0) (h1 : ¬t.val % 19 = 18) :
    outsAt1 V c t.val t.isLt = (outIdle, soutB c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((first1_iff t).mp h)) (fun h => h1 ((last1_iff t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 19 = 0) (h1 : t.val % 19 = 18) :
    outsAt1 V c t.val t.isLt = (outC c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((first1_iff t).mp h)) ((last1_iff t).mpr h1) (iblk1 V c 0 t) (iblk1 V c 1 t) (iblk1 V c 2 t) (iblk1 V c 3 t) (outsAt1 V c (t.val - 1) (Nat.lt_of_le_of_lt (Nat.sub_le _ _) t.isLt)).2,
      soutC c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((first1_iff t).mp h)) ((last1_iff t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scoped rest with the accumulator at anything;
    afterwards the accumulator at what the point before left, beside the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of layer 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point, by the tile's position: the invariant hands it the accumulator at what the point before left
    (at anything before the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 38 := lt_of_lt_of_eq t.isLt (show cfg1.N = 38 from N_1)
  by_cases h0 : t.val % 19 = 0
  · by_cases h1 : t.val % 19 = 18
    · exfalso; omega
    · -- a first tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((first1_iff t).mpr h0) (fun h => h1 ((last1_iff t).mp h))) (noFlush1_4_A t ((first1_iff t).mpr h0) (fun h => h1 ((last1_iff t).mp h)))]
      rw [outsAt1_A V c t h0 h1]
      unfold soutA; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩, ⟨%d4, H4⟩⟩
        iapply ((layerRun1_A c (grid1.coords t) _ _ _ _ _ _ _ _ _ _ _ _ ((first1_iff t).mpr h0) (fun h => h1 ((last1_iff t).mp h)) (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scoverA c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((layerRun1_A c (grid1.coords t) _ _ _ _ _ _ _ _ _ _ _ _ ((first1_iff t).mpr h0) (fun h => h1 ((last1_iff t).mp h)) (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scoverA c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 19 = 18
    · -- a last tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((first1_iff t).mp h)) ((last1_iff t).mpr h1)], after1_4]
      rw [outsAt1_C V c t h0 h1]
      unfold outC soutC; (try dsimp only)
      have hz : t.val ≠ 0 := by omega
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((layerRun1_C c (grid1.coords t) _ _ _ _ _ _ _ _ _ _ _ _ (fun h => h0 ((first1_iff t).mp h)) ((last1_iff t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scoverC c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _)
    · -- a middle tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((first1_iff t).mp h)) (fun h => h1 ((last1_iff t).mp h))) (noFlush1_4_B t (fun h => h0 ((first1_iff t).mp h)) (fun h => h1 ((last1_iff t).mp h)))]
      rw [outsAt1_B V c t h0 h1]
      unfold soutB; (try dsimp only)
      have hz : t.val ≠ 0 := by omega
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((layerRun1_B c (grid1.coords t) _ _ _ _ _ _ _ _ _ _ _ _ (fun h => h0 ((first1_iff t).mp h)) (fun h => h1 ((last1_iff t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scoverB c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 38 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

end Region

end Cert.Kernel.Layers

end
-- ==== Proof.BitsLayer2Run.lean ====
/- Layer 2 of the masked network as one pipelined region whose contracted axis is a single tile: at every grid point the
   accumulator is cleared, the whole product of the activation block with the masked weight is added once, and the
   bias row is added and tanh applied.  Here: the body's run on any whole buffers, with both of its conditionals
   (first tile, last tile) taken. -/
import proofs.«156066_j47502338294403_1_alg».proof.Proof.Gen.Kernel.Launch
import proofs.«156066_j47502338294403_1_alg».proof.Proof.Gen.Kernel.Skeleton
import proofs.«156066_j47502338294403_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first tile of the contracted axis: its second coordinate is zero. -/
abbrev first2 (i : grid2.Coords) : Prop :=
  (Scalar.cmpi .ne (Scalar.extui (Scalar.cmpi .eq (BitVec.ofNat 32 (i 1).val) 0#32)) 0#32) = 1#1
/-- The point is the last tile of the contracted axis. -/
abbrev last2 (i : grid2.Coords) : Prop := k2_cond2 i = 1#1

/-- The contracted axis has one tile, so every point is both the first and the last. -/
theorem first2_all : ∀ t : Fin cfg2.N, first2 (grid2.coords t) :=
  (by decide +kernel : ∀ t : Fin grid2.N, first2 (grid2.coords t))
theorem last2_all : ∀ t : Fin cfg2.N, last2 (grid2.coords t) :=
  (by decide +kernel : ∀ t : Fin grid2.N, last2 (grid2.coords t))

set_option maxHeartbeats 4000000 in
/-- The body on whole buffers: the activation block, the weight, the mask and the bias row are read and handed back
    as they were; the output block and the accumulator, entered at anything, end with the pieces the run finds. -/
noncomputable def layerRun2 (c : Dev nD) (i : grid2.Coords)
    (arg2 : Memref sig .tc .vmem S512x1387 .f32) (harg2 : arg2.IsWhole) (arg3 : Memref sig .tc .vmem S1387x1066 .f32) (harg3 : arg3.IsWhole)
    (arg4 : Memref sig .tc .vmem S1387x1066 .i32) (harg4 : arg4.IsWhole) (arg5 : Memref sig .tc .vmem S1x1066 .f32) (harg5 : arg5.IsWhole)
    (arg6 : Memref sig .tc .vmem S512x1066 .f32) (harg6 : arg6.IsWhole) (arg7 : Memref sig .tc .vmem S512x1066 .f32) (harg7 : arg7.IsWhole)
    (hc0 : first2 i) (hc1 : last2 i)
    (x0 : Vec F S512x1387 .f32) (x1 : Vec F S1387x1066 .f32) (x2 : Vec F S1387x1066 .i32) (x3 : Vec F S1x1066 .f32) :
    Σ' (L4 : List (View.Piece (Elt F) S512x1066 .f32)), { LS0 : List (View.Piece (Elt F) S512x1066 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E
              (cc2__masked_linear_kernel i arg2 harg2 arg3 harg3 arg4 harg4 arg5 harg5 arg6 harg6 arg7 harg7) K } := by
  refine ⟨?_, ?_, fun E K => ?run⟩
  case run =>
    simp only [cc2__masked_linear_kernel_eq_skeleton]; unfold cc2__masked_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Layers

end
-- ==== Proof.BitsLayer2Data.lean ====
/- Layer 2: what each window's staging buffer holds around the body at every grid point.  The four inputs (the
   activation block of the point's batch tile, the whole weight, the whole mask, the bias row) hold their blocks
   whether or not they were fetched again at the point; the output block holds what the body's one store leaves,
   a function of those four blocks alone, because the accumulator is cleared before it is read. -/
import proofs.«156066_j47502338294403_1_alg».proof.Proof.BitsLayer2Run
import Idealize.ShloMosaic.Lib.Pipeline.RegionsLoop

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging buffers the body is called on, and where its windows are live -/

abbrev ms2_0 (t : Fin cfg2.N) : Memref sig .tc .vmem S512x1387 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1387x1066 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1387x1066 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1066 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x1066 .f32 := win2_4.stage (cfg2.slots t 4)
abbrev hs2_4 (t : Fin cfg2.N) : (ms2_4 t).IsWhole := hstage2_4 ((cfg2.slots t 4).cast nbuf2_4)
/-- The accumulator: a whole buffer of the kernel's own. -/
abbrev scM2 : Memref sig .tc .vmem S512x1066 .f32 := Memref.whole cc2_scratch0
/-- One staging buffer of the output window, through which its contents are stated. -/
abbrev VO2 : View sig .tc .vmem S512x1066 .f32 := (Memref.whole cc2_stg4_0 : Memref sig .tc .vmem S512x1066 .f32).view

/-- No window is idle at any point: the output is stored under the last-tile condition, which holds everywhere. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel

/-- The region's invariant with the accumulator set apart: at some contents, beside the other scoped buffers and the
    generator register. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## What the body leaves in the output block -/

/-- The pieces the run leaves in the output block cover it. -/
theorem cover2 (c : Dev nD) (i : grid2.Coords)
    (arg2 : Memref sig .tc .vmem S512x1387 .f32) (harg2 : arg2.IsWhole) (arg3 : Memref sig .tc .vmem S1387x1066 .f32) (harg3 : arg3.IsWhole)
    (arg4 : Memref sig .tc .vmem S1387x1066 .i32) (harg4 : arg4.IsWhole) (arg5 : Memref sig .tc .vmem S1x1066 .f32) (harg5 : arg5.IsWhole)
    (arg6 : Memref sig .tc .vmem S512x1066 .f32) (harg6 : arg6.IsWhole) (arg7 : Memref sig .tc .vmem S512x1066 .f32) (harg7 : arg7.IsWhole)
    (hc0 : first2 i) (hc1 : last2 i)
    (x0 : Vec F S512x1387 .f32) (x1 : Vec F S1387x1066 .f32) (x2 : Vec F S1387x1066 .i32) (x3 : Vec F S1x1066 .f32) (y : S512x1066.Idx) :
    ∃ pc ∈ (layerRun2 c i arg2 harg2 arg3 harg3 arg4 harg4 arg5 harg5 arg6 harg6 arg7 harg7 hc0 hc1 x0 x1 x2 x3).1, y ∈ pc.1.set :=
  View.cover_of_tiledL (layerRun2 c i arg2 harg2 arg3 harg3 arg4 harg4 arg5 harg5 arg6 harg6 arg7 harg7 hc0 hc1 x0 x1 x2 x3).1 S512x1066.size (by sl_kernel_rfl) y

/-- What the body leaves in the output block: its pieces read back. -/
def layerOut2 (c : Dev nD) (i : grid2.Coords)
    (arg2 : Memref sig .tc .vmem S512x1387 .f32) (harg2 : arg2.IsWhole) (arg3 : Memref sig .tc .vmem S1387x1066 .f32) (harg3 : arg3.IsWhole)
    (arg4 : Memref sig .tc .vmem S1387x1066 .i32) (harg4 : arg4.IsWhole) (arg5 : Memref sig .tc .vmem S1x1066 .f32) (harg5 : arg5.IsWhole)
    (arg6 : Memref sig .tc .vmem S512x1066 .f32) (harg6 : arg6.IsWhole) (arg7 : Memref sig .tc .vmem S512x1066 .f32) (harg7 : arg7.IsWhole)
    (hc0 : first2 i) (hc1 : last2 i)
    (x0 : Vec F S512x1387 .f32) (x1 : Vec F S1387x1066 .f32) (x2 : Vec F S1387x1066 .i32) (x3 : Vec F S1x1066 .f32) : Vec F S512x1066 .f32 :=
  VO2.read (Elt F) (VO2.writes (Elt F) VO2.junk (layerRun2 c i arg2 harg2 arg3 harg3 arg4 harg4 arg5 harg5 arg6 harg6 arg7 harg7 hc0 hc1 x0 x1 x2 x3).1)

section Region

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The output block after the body at point `t`: the body's result on the point's four input blocks. -/
def outAt2 (c : Dev nD) (t : Fin cfg2.N) : Vec F S512x1066 .f32 :=
  layerOut2 c (grid2.coords t) (ms2_0 t) (hs2_0 t) (ms2_1 t) (hs2_1 t) (ms2_2 t) (hs2_2 t) (ms2_3 t) (hs2_3 t) (ms2_4 t) (hs2_4 t) scM2 (Memref.isWhole_whole _) (first2_all t) (last2_all t) (iblk2 V c 0 t) (iblk2 V c 1 t) (iblk2 V c 2 t) (iblk2 V c 3 t)

/-- The proof data of the layer on core `c`: the arrays as the region finds them; each input's buffer at its block;
    the output's at the body's result; the invariant the scoped rest and the generator register, unchanged; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any point: the inputs' buffers hold their blocks, the invariant lends the accumulator at anything and
    takes it back at anything, and the output block ends at the run's pieces read back. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl, PhiA2_eq]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  unfold outAt2 layerOut2; (try dsimp only)
  iintro ⟨⟨⟨HS0, Hrest⟩, Hg⟩, Ho, ⟨%d0, H0⟩, ⟨%d1, H1⟩, ⟨%d2, H2⟩, ⟨%d3, H3⟩, ⟨%d4, H4⟩⟩
  iapply ((layerRun2 c (grid2.coords t) _ _ _ _ _ _ _ _ _ _ _ _ (first2_all t) (last2_all t) (iblk2 V c 0 t) (iblk2 V c 1 t) (iblk2 V c 2 t) (iblk2 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2 c _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Layers

end
-- ==== Proof.BitsLayer3Run.lean ====
/- Layer 3 of the masked network as one pipelined region whose contracted axis is a single tile: at every grid point the
   accumulator is cleared, the whole product of the activation block with the masked weight is added once, and the
   bias row is added and tanh applied.  Here: the body's run on any whole buffers, with both of its conditionals
   (first tile, last tile) taken. -/
import proofs.«156066_j47502338294403_1_alg».proof.Proof.Gen.Kernel.Launch
import proofs.«156066_j47502338294403_1_alg».proof.Proof.Gen.Kernel.Skeleton
import proofs.«156066_j47502338294403_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first tile of the contracted axis: its second coordinate is zero. -/
abbrev first3 (i : grid3.Coords) : Prop :=
  (Scalar.cmpi .ne (Scalar.extui (Scalar.cmpi .eq (BitVec.ofNat 32 (i 1).val) 0#32)) 0#32) = 1#1
/-- The point is the last tile of the contracted axis. -/
abbrev last3 (i : grid3.Coords) : Prop := k3_cond2 i = 1#1

/-- The contracted axis has one tile, so every point is both the first and the last. -/
theorem first3_all : ∀ t : Fin cfg3.N, first3 (grid3.coords t) :=
  (by decide +kernel : ∀ t : Fin grid3.N, first3 (grid3.coords t))
theorem last3_all : ∀ t : Fin cfg3.N, last3 (grid3.coords t) :=
  (by decide +kernel : ∀ t : Fin grid3.N, last3 (grid3.coords t))

set_option maxHeartbeats 4000000 in
/-- The body on whole buffers: the activation block, the weight, the mask and the bias row are read and handed back
    as they were; the output block and the accumulator, entered at anything, end with the pieces the run finds. -/
noncomputable def layerRun3 (c : Dev nD) (i : grid3.Coords)
    (arg2 : Memref sig .tc .vmem S512x1066 .f32) (harg2 : arg2.IsWhole) (arg3 : Memref sig .tc .vmem S1066x447 .f32) (harg3 : arg3.IsWhole)
    (arg4 : Memref sig .tc .vmem S1066x447 .i32) (harg4 : arg4.IsWhole) (arg5 : Memref sig .tc .vmem S1x447 .f32) (harg5 : arg5.IsWhole)
    (arg6 : Memref sig .tc .vmem S512x447 .f32) (harg6 : arg6.IsWhole) (arg7 : Memref sig .tc .vmem S512x447 .f32) (harg7 : arg7.IsWhole)
    (hc0 : first3 i) (hc1 : last3 i)
    (x0 : Vec F S512x1066 .f32) (x1 : Vec F S1066x447 .f32) (x2 : Vec F S1066x447 .i32) (x3 : Vec F S1x447 .f32) :
    Σ' (L4 : List (View.Piece (Elt F) S512x447 .f32)), { LS0 : List (View.Piece (Elt F) S512x447 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E
              (cc3__masked_linear_kernel i arg2 harg2 arg3 harg3 arg4 harg4 arg5 harg5 arg6 harg6 arg7 harg7) K } := by
  refine ⟨?_, ?_, fun E K => ?run⟩
  case run =>
    simp only [cc3__masked_linear_kernel_eq_skeleton]; unfold cc3__masked_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Layers

end
-- ==== Proof.BitsLayer3Data.lean ====
/- Layer 3: what each window's staging buffer holds around the body at every grid point.  The four inputs (the
   activation block of the point's batch tile, the whole weight, the whole mask, the bias row) hold their blocks
   whether or not they were fetched again at the point; the output block holds what the body's one store leaves,
   a function of those four blocks alone, because the accumulator is cleared before it is read. -/
import proofs.«156066_j47502338294403_1_alg».proof.Proof.BitsLayer3Run
import Idealize.ShloMosaic.Lib.Pipeline.RegionsLoop

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging buffers the body is called on, and where its windows are live -/

abbrev ms3_0 (t : Fin cfg3.N) : Memref sig .tc .vmem S512x1066 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1066x447 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1066x447 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x447 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x447 .f32 := win3_4.stage (cfg3.slots t 4)
abbrev hs3_4 (t : Fin cfg3.N) : (ms3_4 t).IsWhole := hstage3_4 ((cfg3.slots t 4).cast nbuf3_4)
/-- The accumulator: a whole buffer of the kernel's own. -/
abbrev scM3 : Memref sig .tc .vmem S512x447 .f32 := Memref.whole cc3_scratch0
/-- One staging buffer of the output window, through which its contents are stated. -/
abbrev VO3 : View sig .tc .vmem S512x447 .f32 := (Memref.whole cc3_stg4_0 : Memref sig .tc .vmem S512x447 .f32).view

/-- No window is idle at any point: the output is stored under the last-tile condition, which holds everywhere. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel

/-- The region's invariant with the accumulator set apart: at some contents, beside the other scoped buffers and the
    generator register. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## What the body leaves in the output block -/

/-- The pieces the run leaves in the output block cover it. -/
theorem cover3 (c : Dev nD) (i : grid3.Coords)
    (arg2 : Memref sig .tc .vmem S512x1066 .f32) (harg2 : arg2.IsWhole) (arg3 : Memref sig .tc .vmem S1066x447 .f32) (harg3 : arg3.IsWhole)
    (arg4 : Memref sig .tc .vmem S1066x447 .i32) (harg4 : arg4.IsWhole) (arg5 : Memref sig .tc .vmem S1x447 .f32) (harg5 : arg5.IsWhole)
    (arg6 : Memref sig .tc .vmem S512x447 .f32) (harg6 : arg6.IsWhole) (arg7 : Memref sig .tc .vmem S512x447 .f32) (harg7 : arg7.IsWhole)
    (hc0 : first3 i) (hc1 : last3 i)
    (x0 : Vec F S512x1066 .f32) (x1 : Vec F S1066x447 .f32) (x2 : Vec F S1066x447 .i32) (x3 : Vec F S1x447 .f32) (y : S512x447.Idx) :
    ∃ pc ∈ (layerRun3 c i arg2 harg2 arg3 harg3 arg4 harg4 arg5 harg5 arg6 harg6 arg7 harg7 hc0 hc1 x0 x1 x2 x3).1, y ∈ pc.1.set :=
  View.cover_of_tiledL (layerRun3 c i arg2 harg2 arg3 harg3 arg4 harg4 arg5 harg5 arg6 harg6 arg7 harg7 hc0 hc1 x0 x1 x2 x3).1 S512x447.size (by sl_kernel_rfl) y

/-- What the body leaves in the output block: its pieces read back. -/
def layerOut3 (c : Dev nD) (i : grid3.Coords)
    (arg2 : Memref sig .tc .vmem S512x1066 .f32) (harg2 : arg2.IsWhole) (arg3 : Memref sig .tc .vmem S1066x447 .f32) (harg3 : arg3.IsWhole)
    (arg4 : Memref sig .tc .vmem S1066x447 .i32) (harg4 : arg4.IsWhole) (arg5 : Memref sig .tc .vmem S1x447 .f32) (harg5 : arg5.IsWhole)
    (arg6 : Memref sig .tc .vmem S512x447 .f32) (harg6 : arg6.IsWhole) (arg7 : Memref sig .tc .vmem S512x447 .f32) (harg7 : arg7.IsWhole)
    (hc0 : first3 i) (hc1 : last3 i)
    (x0 : Vec F S512x1066 .f32) (x1 : Vec F S1066x447 .f32) (x2 : Vec F S1066x447 .i32) (x3 : Vec F S1x447 .f32) : Vec F S512x447 .f32 :=
  VO3.read (Elt F) (VO3.writes (Elt F) VO3.junk (layerRun3 c i arg2 harg2 arg3 harg3 arg4 harg4 arg5 harg5 arg6 harg6 arg7 harg7 hc0 hc1 x0 x1 x2 x3).1)

section Region

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The output block after the body at point `t`: the body's result on the point's four input blocks. -/
def outAt3 (c : Dev nD) (t : Fin cfg3.N) : Vec F S512x447 .f32 :=
  layerOut3 c (grid3.coords t) (ms3_0 t) (hs3_0 t) (ms3_1 t) (hs3_1 t) (ms3_2 t) (hs3_2 t) (ms3_3 t) (hs3_3 t) (ms3_4 t) (hs3_4 t) scM3 (Memref.isWhole_whole _) (first3_all t) (last3_all t) (iblk3 V c 0 t) (iblk3 V c 1 t) (iblk3 V c 2 t) (iblk3 V c 3 t)

/-- The proof data of the layer on core `c`: the arrays as the region finds them; each input's buffer at its block;
    the output's at the body's result; the invariant the scoped rest and the generator register, unchanged; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => outAt3 V c t
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = outAt3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4000000 in
/-- The body at any point: the inputs' buffers hold their blocks, the invariant lends the accumulator at anything and
    takes it back at anything, and the output block ends at the run's pieces read back. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl, PhiA3_eq]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  unfold outAt3 layerOut3; (try dsimp only)
  iintro ⟨⟨⟨HS0, Hrest⟩, Hg⟩, Ho, ⟨%d0, H0⟩, ⟨%d1, H1⟩, ⟨%d2, H2⟩, ⟨%d3, H3⟩, ⟨%d4, H4⟩⟩
  iapply ((layerRun3 c (grid3.coords t) _ _ _ _ _ _ _ _ _ _ _ _ (first3_all t) (last3_all t) (iblk3 V c 0 t) (iblk3 V c 1 t) (iblk3 V c 2 t) (iblk3 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover3 c _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.Kernel.Layers

end
-- ==== Proof.BitsLayer4Run.lean ====
/- Layer 4 of the masked network as one pipelined region whose contracted axis is a single tile: at every grid point the
   accumulator is cleared, the whole product of the activation block with the masked weight is added once, and the
   bias row is added and tanh applied.  Here: the body's run on any whole buffers, with both of its conditionals
   (first tile, last tile) taken. -/
import proofs.«156066_j47502338294403_1_alg».proof.Proof.Gen.Kernel.Launch
import proofs.«156066_j47502338294403_1_alg».proof.Proof.Gen.Kernel.Skeleton
import proofs.«156066_j47502338294403_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first tile of the contracted axis: its second coordinate is zero. -/
abbrev first4 (i : grid4.Coords) : Prop :=
  (Scalar.cmpi .ne (Scalar.extui (Scalar.cmpi .eq (BitVec.ofNat 32 (i 1).val) 0#32)) 0#32) = 1#1
/-- The point is the last tile of the contracted axis. -/
abbrev last4 (i : grid4.Coords) : Prop := k4_cond2 i = 1#1

/-- The contracted axis has one tile, so every point is both the first and the last. -/
theorem first4_all : ∀ t : Fin cfg4.N, first4 (grid4.coords t) :=
  (by decide +kernel : ∀ t : Fin grid4.N, first4 (grid4.coords t))
theorem last4_all : ∀ t : Fin cfg4.N, last4 (grid4.coords t) :=
  (by decide +kernel : ∀ t : Fin grid4.N, last4 (grid4.coords t))

set_option maxHeartbeats 4000000 in
/-- The body on whole buffers: the activation block, the weight, the mask and the bias row are read and handed back
    as they were; the output block and the accumulator, entered at anything, end with the pieces the run finds. -/
noncomputable def layerRun4 (c : Dev nD) (i : grid4.Coords)
    (arg2 : Memref sig .tc .vmem S512x447 .f32) (harg2 : arg2.IsWhole) (arg3 : Memref sig .tc .vmem S447x147 .f32) (harg3 : arg3.IsWhole)
    (arg4 : Memref sig .tc .vmem S447x147 .i32) (harg4 : arg4.IsWhole) (arg5 : Memref sig .tc .vmem S1x147 .f32) (harg5 : arg5.IsWhole)
    (arg6 : Memref sig .tc .vmem S512x147 .f32) (harg6 : arg6.IsWhole) (arg7 : Memref sig .tc .vmem S512x147 .f32) (harg7 : arg7.IsWhole)
    (hc0 : first4 i) (hc1 : last4 i)
    (x0 : Vec F S512x447 .f32) (x1 : Vec F S447x147 .f32) (x2 : Vec F S447x147 .i32) (x3 : Vec F S1x147 .f32) :
    Σ' (L4 : List (View.Piece (Elt F) S512x147 .f32)), { LS0 : List (View.Piece (Elt F) S512x147 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E
              (cc4__masked_linear_kernel i arg2 harg2 arg3 harg3 arg4 harg4 arg5 harg5 arg6 harg6 arg7 harg7) K } := by
  refine ⟨?_, ?_, fun E K => ?run⟩
  case run =>
    simp only [cc4__masked_linear_kernel_eq_skeleton]; unfold cc4__masked_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Layers

end
-- ==== Proof.BitsLayer4Data.lean ====
/- Layer 4: what each window's staging buffer holds around the body at every grid point.  The four inputs (the
   activation block of the point's batch tile, the whole weight, the whole mask, the bias row) hold their blocks
   whether or not they were fetched again at the point; the output block holds what the body's one store leaves,
   a function of those four blocks alone, because the accumulator is cleared before it is read. -/
import proofs.«156066_j47502338294403_1_alg».proof.Proof.BitsLayer4Run
import Idealize.ShloMosaic.Lib.Pipeline.RegionsLoop

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging buffers the body is called on, and where its windows are live -/

abbrev ms4_0 (t : Fin cfg4.N) : Memref sig .tc .vmem S512x447 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S447x147 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S447x147 .i32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x147 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S512x147 .f32 := win4_4.stage (cfg4.slots t 4)
abbrev hs4_4 (t : Fin cfg4.N) : (ms4_4 t).IsWhole := hstage4_4 ((cfg4.slots t 4).cast nbuf4_4)
/-- The accumulator: a whole buffer of the kernel's own. -/
abbrev scM4 : Memref sig .tc .vmem S512x147 .f32 := Memref.whole cc4_scratch0
/-- One staging buffer of the output window, through which its contents are stated. -/
abbrev VO4 : View sig .tc .vmem S512x147 .f32 := (Memref.whole cc4_stg4_0 : Memref sig .tc .vmem S512x147 .f32).view

/-- No window is idle at any point: the output is stored under the last-tile condition, which holds everywhere. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel

/-- The region's invariant with the accumulator set apart: at some contents, beside the other scoped buffers and the
    generator register. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-! ## What the body leaves in the output block -/

/-- The pieces the run leaves in the output block cover it. -/
theorem cover4 (c : Dev nD) (i : grid4.Coords)
    (arg2 : Memref sig .tc .vmem S512x447 .f32) (harg2 : arg2.IsWhole) (arg3 : Memref sig .tc .vmem S447x147 .f32) (harg3 : arg3.IsWhole)
    (arg4 : Memref sig .tc .vmem S447x147 .i32) (harg4 : arg4.IsWhole) (arg5 : Memref sig .tc .vmem S1x147 .f32) (harg5 : arg5.IsWhole)
    (arg6 : Memref sig .tc .vmem S512x147 .f32) (harg6 : arg6.IsWhole) (arg7 : Memref sig .tc .vmem S512x147 .f32) (harg7 : arg7.IsWhole)
    (hc0 : first4 i) (hc1 : last4 i)
    (x0 : Vec F S512x447 .f32) (x1 : Vec F S447x147 .f32) (x2 : Vec F S447x147 .i32) (x3 : Vec F S1x147 .f32) (y : S512x147.Idx) :
    ∃ pc ∈ (layerRun4 c i arg2 harg2 arg3 harg3 arg4 harg4 arg5 harg5 arg6 harg6 arg7 harg7 hc0 hc1 x0 x1 x2 x3).1, y ∈ pc.1.set :=
  View.cover_of_tiledL (layerRun4 c i arg2 harg2 arg3 harg3 arg4 harg4 arg5 harg5 arg6 harg6 arg7 harg7 hc0 hc1 x0 x1 x2 x3).1 S512x147.size (by sl_kernel_rfl) y

/-- What the body leaves in the output block: its pieces read back. -/
def layerOut4 (c : Dev nD) (i : grid4.Coords)
    (arg2 : Memref sig .tc .vmem S512x447 .f32) (harg2 : arg2.IsWhole) (arg3 : Memref sig .tc .vmem S447x147 .f32) (harg3 : arg3.IsWhole)
    (arg4 : Memref sig .tc .vmem S447x147 .i32) (harg4 : arg4.IsWhole) (arg5 : Memref sig .tc .vmem S1x147 .f32) (harg5 : arg5.IsWhole)
    (arg6 : Memref sig .tc .vmem S512x147 .f32) (harg6 : arg6.IsWhole) (arg7 : Memref sig .tc .vmem S512x147 .f32) (harg7 : arg7.IsWhole)
    (hc0 : first4 i) (hc1 : last4 i)
    (x0 : Vec F S512x447 .f32) (x1 : Vec F S447x147 .f32) (x2 : Vec F S447x147 .i32) (x3 : Vec F S1x147 .f32) : Vec F S512x147 .f32 :=
  VO4.read (Elt F) (VO4.writes (Elt F) VO4.junk (layerRun4 c i arg2 harg2 arg3 harg3 arg4 harg4 arg5 harg5 arg6 harg6 arg7 harg7 hc0 hc1 x0 x1 x2 x3).1)

section Region

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The output block after the body at point `t`: the body's result on the point's four input blocks. -/
def outAt4 (c : Dev nD) (t : Fin cfg4.N) : Vec F S512x147 .f32 :=
  layerOut4 c (grid4.coords t) (ms4_0 t) (hs4_0 t) (ms4_1 t) (hs4_1 t) (ms4_2 t) (hs4_2 t) (ms4_3 t) (hs4_3 t) (ms4_4 t) (hs4_4 t) scM4 (Memref.isWhole_whole _) (first4_all t) (last4_all t) (iblk4 V c 0 t) (iblk4 V c 1 t) (iblk4 V c 2 t) (iblk4 V c 3 t)

/-- The proof data of the layer on core `c`: the arrays as the region finds them; each input's buffer at its block;
    the output's at the body's result; the invariant the scoped rest and the generator register, unchanged; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outAt4 V c t
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = outAt4 V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4000000 in
/-- The body at any point: the inputs' buffers hold their blocks, the invariant lends the accumulator at anything and
    takes it back at anything, and the output block ends at the run's pieces read back. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Pipeline.ΦA spec4 c from rfl, show (dat4 V c).Φ t.castSucc = Pipeline.ΦA spec4 c from rfl, PhiA4_eq]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  unfold outAt4 layerOut4; (try dsimp only)
  iintro ⟨⟨⟨HS0, Hrest⟩, Hg⟩, Ho, ⟨%d0, H0⟩, ⟨%d1, H1⟩, ⟨%d2, H2⟩, ⟨%d3, H3⟩, ⟨%d4, H4⟩⟩
  iapply ((layerRun4 c (grid4.coords t) _ _ _ _ _ _ _ _ _ _ _ _ (first4_all t) (last4_all t) (iblk4 V c 0 t) (iblk4 V c 1 t) (iblk4 V c 2 t) (iblk4 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover4 c _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region

end Cert.Kernel.Layers

end
-- ==== Proof.BitsLayer5Run.lean ====
/- Layer 5 of the masked network as one pipelined region whose contracted axis is a single tile: at every grid point the
   accumulator is cleared, the whole product of the activation block with the masked weight is added once, and the
   bias row is added and tanh applied.  Here: the body's run on any whole buffers, with both of its conditionals
   (first tile, last tile) taken. -/
import proofs.«156066_j47502338294403_1_alg».proof.Proof.Gen.Kernel.Launch
import proofs.«156066_j47502338294403_1_alg».proof.Proof.Gen.Kernel.Skeleton
import proofs.«156066_j47502338294403_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first tile of the contracted axis: its second coordinate is zero. -/
abbrev first5 (i : grid5.Coords) : Prop :=
  (Scalar.cmpi .ne (Scalar.extui (Scalar.cmpi .eq (BitVec.ofNat 32 (i 1).val) 0#32)) 0#32) = 1#1
/-- The point is the last tile of the contracted axis. -/
abbrev last5 (i : grid5.Coords) : Prop := k5_cond2 i = 1#1

/-- The contracted axis has one tile, so every point is both the first and the last. -/
theorem first5_all : ∀ t : Fin cfg5.N, first5 (grid5.coords t) :=
  (by decide +kernel : ∀ t : Fin grid5.N, first5 (grid5.coords t))
theorem last5_all : ∀ t : Fin cfg5.N, last5 (grid5.coords t) :=
  (by decide +kernel : ∀ t : Fin grid5.N, last5 (grid5.coords t))

set_option maxHeartbeats 4000000 in
/-- The body on whole buffers: the activation block, the weight, the mask and the bias row are read and handed back
    as they were; the output block and the accumulator, entered at anything, end with the pieces the run finds. -/
noncomputable def layerRun5 (c : Dev nD) (i : grid5.Coords)
    (arg2 : Memref sig .tc .vmem S512x147 .f32) (harg2 : arg2.IsWhole) (arg3 : Memref sig .tc .vmem S147x26 .f32) (harg3 : arg3.IsWhole)
    (arg4 : Memref sig .tc .vmem S147x26 .i32) (harg4 : arg4.IsWhole) (arg5 : Memref sig .tc .vmem S1x26 .f32) (harg5 : arg5.IsWhole)
    (arg6 : Memref sig .tc .vmem S512x26 .f32) (harg6 : arg6.IsWhole) (arg7 : Memref sig .tc .vmem S512x26 .f32) (harg7 : arg7.IsWhole)
    (hc0 : first5 i) (hc1 : last5 i)
    (x0 : Vec F S512x147 .f32) (x1 : Vec F S147x26 .f32) (x2 : Vec F S147x26 .i32) (x3 : Vec F S1x26 .f32) :
    Σ' (L4 : List (View.Piece (Elt F) S512x26 .f32)), { LS0 : List (View.Piece (Elt F) S512x26 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E
              (cc5__masked_linear_kernel i arg2 harg2 arg3 harg3 arg4 harg4 arg5 harg5 arg6 harg6 arg7 harg7) K } := by
  refine ⟨?_, ?_, fun E K => ?run⟩
  case run =>
    simp only [cc5__masked_linear_kernel_eq_skeleton]; unfold cc5__masked_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Layers

end
-- ==== Proof.BitsLayer5Data.lean ====
/- Layer 5: what each window's staging buffer holds around the body at every grid point.  The four inputs (the
   activation block of the point's batch tile, the whole weight, the whole mask, the bias row) hold their blocks
   whether or not they were fetched again at the point; the output block holds what the body's one store leaves,
   a function of those four blocks alone, because the accumulator is cleared before it is read. -/
import proofs.«156066_j47502338294403_1_alg».proof.Proof.BitsLayer5Run
import Idealize.ShloMosaic.Lib.Pipeline.RegionsLoop

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging buffers the body is called on, and where its windows are live -/

abbrev ms5_0 (t : Fin cfg5.N) : Memref sig .tc .vmem S512x147 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S147x26 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S147x26 .i32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x26 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S512x26 .f32 := win5_4.stage (cfg5.slots t 4)
abbrev hs5_4 (t : Fin cfg5.N) : (ms5_4 t).IsWhole := hstage5_4 ((cfg5.slots t 4).cast nbuf5_4)
/-- The accumulator: a whole buffer of the kernel's own. -/
abbrev scM5 : Memref sig .tc .vmem S512x26 .f32 := Memref.whole cc5_scratch0
/-- One staging buffer of the output window, through which its contents are stated. -/
abbrev VO5 : View sig .tc .vmem S512x26 .f32 := (Memref.whole cc5_stg4_0 : Memref sig .tc .vmem S512x26 .f32).view

/-- No window is idle at any point: the output is stored under the last-tile condition, which holds everywhere. -/
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel

/-- The region's invariant with the accumulator set apart: at some contents, beside the other scoped buffers and the
    generator register. -/
theorem PhiA5_eq (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-! ## What the body leaves in the output block -/

/-- The pieces the run leaves in the output block cover it. -/
theorem cover5 (c : Dev nD) (i : grid5.Coords)
    (arg2 : Memref sig .tc .vmem S512x147 .f32) (harg2 : arg2.IsWhole) (arg3 : Memref sig .tc .vmem S147x26 .f32) (harg3 : arg3.IsWhole)
    (arg4 : Memref sig .tc .vmem S147x26 .i32) (harg4 : arg4.IsWhole) (arg5 : Memref sig .tc .vmem S1x26 .f32) (harg5 : arg5.IsWhole)
    (arg6 : Memref sig .tc .vmem S512x26 .f32) (harg6 : arg6.IsWhole) (arg7 : Memref sig .tc .vmem S512x26 .f32) (harg7 : arg7.IsWhole)
    (hc0 : first5 i) (hc1 : last5 i)
    (x0 : Vec F S512x147 .f32) (x1 : Vec F S147x26 .f32) (x2 : Vec F S147x26 .i32) (x3 : Vec F S1x26 .f32) (y : S512x26.Idx) :
    ∃ pc ∈ (layerRun5 c i arg2 harg2 arg3 harg3 arg4 harg4 arg5 harg5 arg6 harg6 arg7 harg7 hc0 hc1 x0 x1 x2 x3).1, y ∈ pc.1.set :=
  View.cover_of_tiledL (layerRun5 c i arg2 harg2 arg3 harg3 arg4 harg4 arg5 harg5 arg6 harg6 arg7 harg7 hc0 hc1 x0 x1 x2 x3).1 S512x26.size (by sl_kernel_rfl) y

/-- What the body leaves in the output block: its pieces read back. -/
def layerOut5 (c : Dev nD) (i : grid5.Coords)
    (arg2 : Memref sig .tc .vmem S512x147 .f32) (harg2 : arg2.IsWhole) (arg3 : Memref sig .tc .vmem S147x26 .f32) (harg3 : arg3.IsWhole)
    (arg4 : Memref sig .tc .vmem S147x26 .i32) (harg4 : arg4.IsWhole) (arg5 : Memref sig .tc .vmem S1x26 .f32) (harg5 : arg5.IsWhole)
    (arg6 : Memref sig .tc .vmem S512x26 .f32) (harg6 : arg6.IsWhole) (arg7 : Memref sig .tc .vmem S512x26 .f32) (harg7 : arg7.IsWhole)
    (hc0 : first5 i) (hc1 : last5 i)
    (x0 : Vec F S512x147 .f32) (x1 : Vec F S147x26 .f32) (x2 : Vec F S147x26 .i32) (x3 : Vec F S1x26 .f32) : Vec F S512x26 .f32 :=
  VO5.read (Elt F) (VO5.writes (Elt F) VO5.junk (layerRun5 c i arg2 harg2 arg3 harg3 arg4 harg4 arg5 harg5 arg6 harg6 arg7 harg7 hc0 hc1 x0 x1 x2 x3).1)

section Region

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The output block after the body at point `t`: the body's result on the point's four input blocks. -/
def outAt5 (c : Dev nD) (t : Fin cfg5.N) : Vec F S512x26 .f32 :=
  layerOut5 c (grid5.coords t) (ms5_0 t) (hs5_0 t) (ms5_1 t) (hs5_1 t) (ms5_2 t) (hs5_2 t) (ms5_3 t) (hs5_3 t) (ms5_4 t) (hs5_4 t) scM5 (Memref.isWhole_whole _) (first5_all t) (last5_all t) (iblk5 V c 0 t) (iblk5 V c 1 t) (iblk5 V c 2 t) (iblk5 V c 3 t)

/-- The proof data of the layer on core `c`: the arrays as the region finds them; each input's buffer at its block;
    the output's at the body's result; the invariant the scoped rest and the generator register, unchanged; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => outAt5 V c t
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = outAt5 V c t := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4000000 in
/-- The body at any point: the inputs' buffers hold their blocks, the invariant lends the accumulator at anything and
    takes it back at anything, and the output block ends at the run's pieces read back. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = Pipeline.ΦA spec5 c from rfl, show (dat5 V c).Φ t.castSucc = Pipeline.ΦA spec5 c from rfl, PhiA5_eq]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  unfold outAt5 layerOut5; (try dsimp only)
  iintro ⟨⟨⟨HS0, Hrest⟩, Hg⟩, Ho, ⟨%d0, H0⟩, ⟨%d1, H1⟩, ⟨%d2, H2⟩, ⟨%d3, H3⟩, ⟨%d4, H4⟩⟩
  iapply ((layerRun5 c (grid5.coords t) _ _ _ _ _ _ _ _ _ _ _ _ (first5_all t) (last5_all t) (iblk5 V c 0 t) (iblk5 V c 1 t) (iblk5 V c 2 t) (iblk5 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover5 c _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region

end Cert.Kernel.Layers

end
-- ==== Proof.BitsRun.lean ====
/- The whole run of the six-region program: the contents of every unscoped buffer at each boundary between two of
   @main's nineteen items (a stretch of host operations applies its operations; a region leaves each of its arrays at
   what its write-backs fold to and every other buffer as it found it), each region as a segment entered from the
   boundary before it and left at the one after it, and the launch over the list of segments: every weakly fair
   execution terminates with every unscoped buffer at the last boundary's contents. -/
import proofs.«156066_j47502338294403_1_alg».proof.Proof.BitsDiag
import proofs.«156066_j47502338294403_1_alg».proof.Proof.BitsLayer1Data
import proofs.«156066_j47502338294403_1_alg».proof.Proof.BitsLayer2Data
import proofs.«156066_j47502338294403_1_alg».proof.Proof.BitsLayer3Data
import proofs.«156066_j47502338294403_1_alg».proof.Proof.BitsLayer4Data
import proofs.«156066_j47502338294403_1_alg».proof.Proof.BitsLayer5Data
import proofs.«156066_j47502338294403_1_alg».proof.Proof.Gen.Kernel.Regions

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After item 0, the host stretch `hostOps0`. -/
abbrev B1 : Dev nD → Valuation τ sig (Elt F) := fun c => StableHlo.after hostOps0 (B0 m ρ c)
/-- The same read at the TensorCore's references (what layer 0's proof data take). -/
abbrev T1 : (c : Dev nD) → (b : Ref sig .tc) → Buf (Elt F) ((c : Thread nD τ).loc b) := fun c b => B1 m ρ c b
/-- After item 1, region 0: its arrays at what the pipeline leaves, every other buffer as entered. -/
def B2 (c : Dev nD) : Valuation τ sig (Elt F) :=
  Pipeline.withArrays spec0 c (B1 m ρ c) fun w => (dat0 (T1 m ρ) c).arrAt w cfg0.N
theorem B2_arr (c : Dev nD) (w : Fin cfg0.W) :
    B2 m ρ c (Proc.devRef .tc (Pipeline.arrRef spec0 w)) = (dat0 (T1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev T2 : (c : Dev nD) → (b : Ref sig .tc) → Buf (Elt F) ((c : Thread nD τ).loc b) := fun c b => B2 m ρ c b
theorem hF0 (c : Dev nD) (w : Fin cfg0.W) : (dat0 (T1 m ρ) c).arrAt w cfg0.N = T2 m ρ c (Pipeline.arrRef spec0 w) :=
  (B2_arr m ρ c w).symm
theorem hrest0 (c : Dev nD) : ∀ b, b ∉ Finset.univ.image (Pipeline.arrRef spec0) → T2 m ρ c b = T1 m ρ c b :=
  fun b hb => B2_of_ne m ρ c b fun w e => hb (Finset.mem_image.mpr ⟨w, Finset.mem_univ _, e⟩)
/-- After item 2, the host stretch `hostOps1`. -/
abbrev B3 : Dev nD → Valuation τ sig (Elt F) := fun c => StableHlo.after hostOps1 (B2 m ρ c)
/-- After item 3, the host stretch `hostOps1_1`. -/
abbrev B4 : Dev nD → Valuation τ sig (Elt F) := fun c => StableHlo.after hostOps1_1 (B3 m ρ c)
/-- After item 4, the host stretch `hostOps1_2`. -/
abbrev B5 : Dev nD → Valuation τ sig (Elt F) := fun c => StableHlo.after hostOps1_2 (B4 m ρ c)
/-- After item 5, the host stretch `hostOps1_3`. -/
abbrev B6 : Dev nD → Valuation τ sig (Elt F) := fun c => StableHlo.after hostOps1_3 (B5 m ρ c)
/-- After item 6, the host stretch `hostOps1_4`. -/
abbrev B7 : Dev nD → Valuation τ sig (Elt F) := fun c => StableHlo.after hostOps1_4 (B6 m ρ c)
/-- After item 7, the host stretch `hostOps1_5`. -/
abbrev B8 : Dev nD → Valuation τ sig (Elt F) := fun c => StableHlo.after hostOps1_5 (B7 m ρ c)
/-- After item 8, the host stretch `hostOps1_6`. -/
abbrev B9 : Dev nD → Valuation τ sig (Elt F) := fun c => StableHlo.after hostOps1_6 (B8 m ρ c)
/-- The same read at the TensorCore's references (what layer 1's proof data take). -/
abbrev T9 : (c : Dev nD) → (b : Ref sig .tc) → Buf (Elt F) ((c : Thread nD τ).loc b) := fun c b => B9 m ρ c b
/-- After item 9, region 1: its arrays at what the pipeline leaves, every other buffer as entered. -/
def B10 (c : Dev nD) : Valuation τ sig (Elt F) :=
  Pipeline.withArrays spec1 c (B9 m ρ c) fun w => (dat1 (T9 m ρ) c).arrAt w cfg1.N
theorem B10_arr (c : Dev nD) (w : Fin cfg1.W) :
    B10 m ρ c (Proc.devRef .tc (Pipeline.arrRef spec1 w)) = (dat1 (T9 m ρ) c).arrAt w cfg1.N := by
  unfold B10; exact Pipeline.withArrays_arr spec1 launch1.win.arr_inj c _ _ w
theorem B10_of_ne (c : Dev nD) (b : Ref sig .tc) (hb : ∀ w, Pipeline.arrRef spec1 w ≠ b) :
    B10 m ρ c (Proc.devRef .tc b) = B9 m ρ c (Proc.devRef .tc b) := by
  unfold B10; exact Pipeline.withArrays_of_ne spec1 c _ _ b hb
abbrev T10 : (c : Dev nD) → (b : Ref sig .tc) → Buf (Elt F) ((c : Thread nD τ).loc b) := fun c b => B10 m ρ c b
theorem hF1 (c : Dev nD) (w : Fin cfg1.W) : (dat1 (T9 m ρ) c).arrAt w cfg1.N = T10 m ρ c (Pipeline.arrRef spec1 w) :=
  (B10_arr m ρ c w).symm
theorem hrest1 (c : Dev nD) : ∀ b, b ∉ Finset.univ.image (Pipeline.arrRef spec1) → T10 m ρ c b = T9 m ρ c b :=
  fun b hb => B10_of_ne m ρ c b fun w e => hb (Finset.mem_image.mpr ⟨w, Finset.mem_univ _, e⟩)
/-- After item 10, the host stretch `hostOps2`. -/
abbrev B11 : Dev nD → Valuation τ sig (Elt F) := fun c => StableHlo.after hostOps2 (B10 m ρ c)
/-- The same read at the TensorCore's references (what layer 2's proof data take). -/
abbrev T11 : (c : Dev nD) → (b : Ref sig .tc) → Buf (Elt F) ((c : Thread nD τ).loc b) := fun c b => B11 m ρ c b
/-- After item 11, region 2: its arrays at what the pipeline leaves, every other buffer as entered. -/
def B12 (c : Dev nD) : Valuation τ sig (Elt F) :=
  Pipeline.withArrays spec2 c (B11 m ρ c) fun w => (dat2 (T11 m ρ) c).arrAt w cfg2.N
theorem B12_arr (c : Dev nD) (w : Fin cfg2.W) :
    B12 m ρ c (Proc.devRef .tc (Pipeline.arrRef spec2 w)) = (dat2 (T11 m ρ) c).arrAt w cfg2.N := by
  unfold B12; exact Pipeline.withArrays_arr spec2 launch2.win.arr_inj c _ _ w
theorem B12_of_ne (c : Dev nD) (b : Ref sig .tc) (hb : ∀ w, Pipeline.arrRef spec2 w ≠ b) :
    B12 m ρ c (Proc.devRef .tc b) = B11 m ρ c (Proc.devRef .tc b) := by
  unfold B12; exact Pipeline.withArrays_of_ne spec2 c _ _ b hb
abbrev T12 : (c : Dev nD) → (b : Ref sig .tc) → Buf (Elt F) ((c : Thread nD τ).loc b) := fun c b => B12 m ρ c b
theorem hF2 (c : Dev nD) (w : Fin cfg2.W) : (dat2 (T11 m ρ) c).arrAt w cfg2.N = T12 m ρ c (Pipeline.arrRef spec2 w) :=
  (B12_arr m ρ c w).symm
theorem hrest2 (c : Dev nD) : ∀ b, b ∉ Finset.univ.image (Pipeline.arrRef spec2) → T12 m ρ c b = T11 m ρ c b :=
  fun b hb => B12_of_ne m ρ c b fun w e => hb (Finset.mem_image.mpr ⟨w, Finset.mem_univ _, e⟩)
/-- After item 12, the host stretch `hostOps3`. -/
abbrev B13 : Dev nD → Valuation τ sig (Elt F) := fun c => StableHlo.after hostOps3 (B12 m ρ c)
/-- The same read at the TensorCore's references (what layer 3's proof data take). -/
abbrev T13 : (c : Dev nD) → (b : Ref sig .tc) → Buf (Elt F) ((c : Thread nD τ).loc b) := fun c b => B13 m ρ c b
/-- After item 13, region 3: its arrays at what the pipeline leaves, every other buffer as entered. -/
def B14 (c : Dev nD) : Valuation τ sig (Elt F) :=
  Pipeline.withArrays spec3 c (B13 m ρ c) fun w => (dat3 (T13 m ρ) c).arrAt w cfg3.N
theorem B14_arr (c : Dev nD) (w : Fin cfg3.W) :
    B14 m ρ c (Proc.devRef .tc (Pipeline.arrRef spec3 w)) = (dat3 (T13 m ρ) c).arrAt w cfg3.N := by
  unfold B14; exact Pipeline.withArrays_arr spec3 launch3.win.arr_inj c _ _ w
theorem B14_of_ne (c : Dev nD) (b : Ref sig .tc) (hb : ∀ w, Pipeline.arrRef spec3 w ≠ b) :
    B14 m ρ c (Proc.devRef .tc b) = B13 m ρ c (Proc.devRef .tc b) := by
  unfold B14; exact Pipeline.withArrays_of_ne spec3 c _ _ b hb
abbrev T14 : (c : Dev nD) → (b : Ref sig .tc) → Buf (Elt F) ((c : Thread nD τ).loc b) := fun c b => B14 m ρ c b
theorem hF3 (c : Dev nD) (w : Fin cfg3.W) : (dat3 (T13 m ρ) c).arrAt w cfg3.N = T14 m ρ c (Pipeline.arrRef spec3 w) :=
  (B14_arr m ρ c w).symm
theorem hrest3 (c : Dev nD) : ∀ b, b ∉ Finset.univ.image (Pipeline.arrRef spec3) → T14 m ρ c b = T13 m ρ c b :=
  fun b hb => B14_of_ne m ρ c b fun w e => hb (Finset.mem_image.mpr ⟨w, Finset.mem_univ _, e⟩)
/-- After item 14, the host stretch `hostOps4`. -/
abbrev B15 : Dev nD → Valuation τ sig (Elt F) := fun c => StableHlo.after hostOps4 (B14 m ρ c)
/-- The same read at the TensorCore's references (what layer 4's proof data take). -/
abbrev T15 : (c : Dev nD) → (b : Ref sig .tc) → Buf (Elt F) ((c : Thread nD τ).loc b) := fun c b => B15 m ρ c b
/-- After item 15, region 4: its arrays at what the pipeline leaves, every other buffer as entered. -/
def B16 (c : Dev nD) : Valuation τ sig (Elt F) :=
  Pipeline.withArrays spec4 c (B15 m ρ c) fun w => (dat4 (T15 m ρ) c).arrAt w cfg4.N
theorem B16_arr (c : Dev nD) (w : Fin cfg4.W) :
    B16 m ρ c (Proc.devRef .tc (Pipeline.arrRef spec4 w)) = (dat4 (T15 m ρ) c).arrAt w cfg4.N := by
  unfold B16; exact Pipeline.withArrays_arr spec4 launch4.win.arr_inj c _ _ w
theorem B16_of_ne (c : Dev nD) (b : Ref sig .tc) (hb : ∀ w, Pipeline.arrRef spec4 w ≠ b) :
    B16 m ρ c (Proc.devRef .tc b) = B15 m ρ c (Proc.devRef .tc b) := by
  unfold B16; exact Pipeline.withArrays_of_ne spec4 c _ _ b hb
abbrev T16 : (c : Dev nD) → (b : Ref sig .tc) → Buf (Elt F) ((c : Thread nD τ).loc b) := fun c b => B16 m ρ c b
theorem hF4 (c : Dev nD) (w : Fin cfg4.W) : (dat4 (T15 m ρ) c).arrAt w cfg4.N = T16 m ρ c (Pipeline.arrRef spec4 w) :=
  (B16_arr m ρ c w).symm
theorem hrest4 (c : Dev nD) : ∀ b, b ∉ Finset.univ.image (Pipeline.arrRef spec4) → T16 m ρ c b = T15 m ρ c b :=
  fun b hb => B16_of_ne m ρ c b fun w e => hb (Finset.mem_image.mpr ⟨w, Finset.mem_univ _, e⟩)
/-- After item 16, the host stretch `hostOps5`. -/
abbrev B17 : Dev nD → Valuation τ sig (Elt F) := fun c => StableHlo.after hostOps5 (B16 m ρ c)
/-- The same read at the TensorCore's references (what layer 5's proof data take). -/
abbrev T17 : (c : Dev nD) → (b : Ref sig .tc) → Buf (Elt F) ((c : Thread nD τ).loc b) := fun c b => B17 m ρ c b
/-- After item 17, region 5: its arrays at what the pipeline leaves, every other buffer as entered. -/
def B18 (c : Dev nD) : Valuation τ sig (Elt F) :=
  Pipeline.withArrays spec5 c (B17 m ρ c) fun w => (dat5 (T17 m ρ) c).arrAt w cfg5.N
theorem B18_arr (c : Dev nD) (w : Fin cfg5.W) :
    B18 m ρ c (Proc.devRef .tc (Pipeline.arrRef spec5 w)) = (dat5 (T17 m ρ) c).arrAt w cfg5.N := by
  unfold B18; exact Pipeline.withArrays_arr spec5 launch5.win.arr_inj c _ _ w
theorem B18_of_ne (c : Dev nD) (b : Ref sig .tc) (hb : ∀ w, Pipeline.arrRef spec5 w ≠ b) :
    B18 m ρ c (Proc.devRef .tc b) = B17 m ρ c (Proc.devRef .tc b) := by
  unfold B18; exact Pipeline.withArrays_of_ne spec5 c _ _ b hb
abbrev T18 : (c : Dev nD) → (b : Ref sig .tc) → Buf (Elt F) ((c : Thread nD τ).loc b) := fun c b => B18 m ρ c b
theorem hF5 (c : Dev nD) (w : Fin cfg5.W) : (dat5 (T17 m ρ) c).arrAt w cfg5.N = T18 m ρ c (Pipeline.arrRef spec5 w) :=
  (B18_arr m ρ c w).symm
theorem hrest5 (c : Dev nD) : ∀ b, b ∉ Finset.univ.image (Pipeline.arrRef spec5) → T18 m ρ c b = T17 m ρ c b :=
  fun b hb => B18_of_ne m ρ c b fun w e => hb (Finset.mem_image.mpr ⟨w, Finset.mem_univ _, e⟩)
/-- After item 18, the host stretch `hostOps6`. -/
abbrev B19 : Dev nD → Valuation τ sig (Elt F) := fun c => StableHlo.after hostOps6 (B18 m ρ c)

/-! ## No item writes an argument -/

theorem B19_main_arg0 (c : Dev nD) : B19 m ρ c (Proc.devRef .tc main_arg0) = m ((c : Thread nD τ).loc main_arg0) :=
  (StableHlo.after_of_writes_sub hostOps6 _ hostOps6_writes (by decide : main_arg0 ∉ hostOps6_W)).trans <|
  (B18_of_ne m ρ c main_arg0 (by decide)).trans <|
  (StableHlo.after_of_writes_sub hostOps5 _ hostOps5_writes (by decide : main_arg0 ∉ hostOps5_W)).trans <|
  (B16_of_ne m ρ c main_arg0 (by decide)).trans <|
  (StableHlo.after_of_writes_sub hostOps4 _ hostOps4_writes (by decide : main_arg0 ∉ hostOps4_W)).trans <|
  (B14_of_ne m ρ c main_arg0 (by decide)).trans <|
  (StableHlo.after_of_writes_sub hostOps3 _ hostOps3_writes (by decide : main_arg0 ∉ hostOps3_W)).trans <|
  (B12_of_ne m ρ c main_arg0 (by decide)).trans <|
  (StableHlo.after_of_writes_sub hostOps2 _ hostOps2_writes (by decide : main_arg0 ∉ hostOps2_W)).trans <|
  (B10_of_ne m ρ c main_arg0 (by decide)).trans <|
  (StableHlo.after_of_writes_sub hostOps1_6 _ hostOps1_6_writes (by decide : main_arg0 ∉ hostOps1_6_W)).trans <|
  (StableHlo.after_of_writes_sub hostOps1_5 _ hostOps1_5_writes (by decide : main_arg0 ∉ hostOps1_5_W)).trans <|
  (StableHlo.after_of_writes_sub hostOps1_4 _ hostOps1_4_writes (by decide : main_arg0 ∉ hostOps1_4_W)).trans <|
  (StableHlo.after_of_writes_sub hostOps1_3 _ hostOps1_3_writes (by decide : main_arg0 ∉ hostOps1_3_W)).trans <|
  (StableHlo.after_of_writes_sub hostOps1_2 _ hostOps1_2_writes (by decide : main_arg0 ∉ hostOps1_2_W)).trans <|
  (StableHlo.after_of_writes_sub hostOps1_1 _ hostOps1_1_writes (by decide : main_arg0 ∉ hostOps1_1_W)).trans <|
  (StableHlo.after_of_writes_sub hostOps1 _ hostOps1_writes (by decide : main_arg0 ∉ hostOps1_W)).trans <|
  (B2_of_ne m ρ c main_arg0 (by decide)).trans <|
  (StableHlo.after_of_writes_sub hostOps0 _ hostOps0_writes (by decide : main_arg0 ∉ hostOps0_W)).trans <| rfl
theorem B19_main_arg1 (c : Dev nD) : B19 m ρ c (Proc.devRef .tc main_arg1) = m ((c : Thread nD τ).loc main_arg1) :=
  (StableHlo.after_of_writes_sub hostOps6 _ hostOps6_writes (by decide : main_arg1 ∉ hostOps6_W)).trans <|
  (B18_of_ne m ρ c main_arg1 (by decide)).trans <|
  (StableHlo.after_of_writes_sub hostOps5 _ hostOps5_writes (by decide : main_arg1 ∉ hostOps5_W)).trans <|
  (B16_of_ne m ρ c main_arg1 (by decide)).trans <|
  (StableHlo.after_of_writes_sub hostOps4 _ hostOps4_writes (by decide : main_arg1 ∉ hostOps4_W)).trans <|
  (B14_of_ne m ρ c main_arg1 (by decide)).trans <|
  (StableHlo.after_of_writes_sub hostOps3 _ hostOps3_writes (by decide : main_arg1 ∉ hostOps3_W)).trans <|
  (B12_of_ne m ρ c main_arg1 (by decide)).trans <|
  (StableHlo.after_of_writes_sub hostOps2 _ hostOps2_writes (by decide : main_arg1 ∉ hostOps2_W)).trans <|
  (B10_of_ne m ρ c main_arg1 (by decide)).trans <|
  (StableHlo.after_of_writes_sub hostOps1_6 _ hostOps1_6_writes (by decide : main_arg1 ∉ hostOps1_6_W)).trans <|
  (StableHlo.after_of_writes_sub hostOps1_5 _ hostOps1_5_writes (by decide : main_arg1 ∉ hostOps1_5_W)).trans <|
  (StableHlo.after_of_writes_sub hostOps1_4 _ hostOps1_4_writes (by decide : main_arg1 ∉ hostOps1_4_W)).trans <|
  (StableHlo.after_of_writes_sub hostOps1_3 _ hostOps1_3_writes (by decide : main_arg1 ∉ hostOps1_3_W)).trans <|
  (StableHlo.after_of_writes_sub hostOps1_2 _ hostOps1_2_writes (by decide : main_arg1 ∉ hostOps1_2_W)).trans <|
  (StableHlo.after_of_writes_sub hostOps1_1 _ hostOps1_1_writes (by decide : main_arg1 ∉ hostOps1_1_W)).trans <|
  (StableHlo.after_of_writes_sub hostOps1 _ hostOps1_writes (by decide : main_arg1 ∉ hostOps1_W)).trans <|
  (B2_of_ne m ρ c main_arg1 (by decide)).trans <|
  (StableHlo.after_of_writes_sub hostOps0 _ hostOps0_writes (by decide : main_arg1 ∉ hostOps0_W)).trans <| rfl
theorem B19_main_arg2 (c : Dev nD) : B19 m ρ c (Proc.devRef .tc main_arg2) = m ((c : Thread nD τ).loc main_arg2) :=
  (StableHlo.after_of_writes_sub hostOps6 _ hostOps6_writes (by decide : main_arg2 ∉ hostOps6_W)).trans <|
  (B18_of_ne m ρ c main_arg2 (by decide)).trans <|
  (StableHlo.after_of_writes_sub hostOps5 _ hostOps5_writes (by decide : main_arg2 ∉ hostOps5_W)).trans <|
  (B16_of_ne m ρ c main_arg2 (by decide)).trans <|
  (StableHlo.after_of_writes_sub hostOps4 _ hostOps4_writes (by decide : main_arg2 ∉ hostOps4_W)).trans <|
  (B14_of_ne m ρ c main_arg2 (by decide)).trans <|
  (StableHlo.after_of_writes_sub hostOps3 _ hostOps3_writes (by decide : main_arg2 ∉ hostOps3_W)).trans <|
  (B12_of_ne m ρ c main_arg2 (by decide)).trans <|
  (StableHlo.after_of_writes_sub hostOps2 _ hostOps2_writes (by decide : main_arg2 ∉ hostOps2_W)).trans <|
  (B10_of_ne m ρ c main_arg2 (by decide)).trans <|
  (StableHlo.after_of_writes_sub hostOps1_6 _ hostOps1_6_writes (by decide : main_arg2 ∉ hostOps1_6_W)).trans <|
  (StableHlo.after_of_writes_sub hostOps1_5 _ hostOps1_5_writes (by decide : main_arg2 ∉ hostOps1_5_W)).trans <|
  (StableHlo.after_of_writes_sub hostOps1_4 _ hostOps1_4_writes (by decide : main_arg2 ∉ hostOps1_4_W)).trans <|
  (StableHlo.after_of_writes_sub hostOps1_3 _ hostOps1_3_writes (by decide : main_arg2 ∉ hostOps1_3_W)).trans <|
  (StableHlo.after_of_writes_sub hostOps1_2 _ hostOps1_2_writes (by decide : main_arg2 ∉ hostOps1_2_W)).trans <|
  (StableHlo.after_of_writes_sub hostOps1_1 _ hostOps1_1_writes (by decide : main_arg2 ∉ hostOps1_1_W)).trans <|
  (StableHlo.after_of_writes_sub hostOps1 _ hostOps1_writes (by decide : main_arg2 ∉ hostOps1_W)).trans <|
  (B2_of_ne m ρ c main_arg2 (by decide)).trans <|
  (StableHlo.after_of_writes_sub hostOps0 _ hostOps0_writes (by decide : main_arg2 ∉ hostOps0_W)).trans <| rfl
theorem B19_main_arg3 (c : Dev nD) : B19 m ρ c (Proc.devRef .tc main_arg3) = m ((c : Thread nD τ).loc main_arg3) :=
  (StableHlo.after_of_writes_sub hostOps6 _ hostOps6_writes (by decide : main_arg3 ∉ hostOps6_W)).trans <|
  (B18_of_ne m ρ c main_arg3 (by decide)).trans <|
  (StableHlo.after_of_writes_sub hostOps5 _ hostOps5_writes (by decide : main_arg3 ∉ hostOps5_W)).trans <|
  (B16_of_ne m ρ c main_arg3 (by decide)).trans <|
  (StableHlo.after_of_writes_sub hostOps4 _ hostOps4_writes (by decide : main_arg3 ∉ hostOps4_W)).trans <|
  (B14_of_ne m ρ c main_arg3 (by decide)).trans <|
  (StableHlo.after_of_writes_sub hostOps3 _ hostOps3_writes (by decide : main_arg3 ∉ hostOps3_W)).trans <|
  (B12_of_ne m ρ c main_arg3 (by decide)).trans <|
  (StableHlo.after_of_writes_sub hostOps2 _ hostOps2_writes (by decide : main_arg3 ∉ hostOps2_W)).trans <|
  (B10_of_ne m ρ c main_arg3 (by decide)).trans <|
  (StableHlo.after_of_writes_sub hostOps1_6 _ hostOps1_6_writes (by decide : main_arg3 ∉ hostOps1_6_W)).trans <|
  (StableHlo.after_of_writes_sub hostOps1_5 _ hostOps1_5_writes (by decide : main_arg3 ∉ hostOps1_5_W)).trans <|
  (StableHlo.after_of_writes_sub hostOps1_4 _ hostOps1_4_writes (by decide : main_arg3 ∉ hostOps1_4_W)).trans <|
  (StableHlo.after_of_writes_sub hostOps1_3 _ hostOps1_3_writes (by decide : main_arg3 ∉ hostOps1_3_W)).trans <|
  (StableHlo.after_of_writes_sub hostOps1_2 _ hostOps1_2_writes (by decide : main_arg3 ∉ hostOps1_2_W)).trans <|
  (StableHlo.after_of_writes_sub hostOps1_1 _ hostOps1_1_writes (by decide : main_arg3 ∉ hostOps1_1_W)).trans <|
  (StableHlo.after_of_writes_sub hostOps1 _ hostOps1_writes (by decide : main_arg3 ∉ hostOps1_W)).trans <|
  (B2_of_ne m ρ c main_arg3 (by decide)).trans <|
  (StableHlo.after_of_writes_sub hostOps0 _ hostOps0_writes (by decide : main_arg3 ∉ hostOps0_W)).trans <| rfl
theorem B19_main_arg4 (c : Dev nD) : B19 m ρ c (Proc.devRef .tc main_arg4) = m ((c : Thread nD τ).loc main_arg4) :=
  (StableHlo.after_of_writes_sub hostOps6 _ hostOps6_writes (by decide : main_arg4 ∉ hostOps6_W)).trans <|
  (B18_of_ne m ρ c main_arg4 (by decide)).trans <|
  (StableHlo.after_of_writes_sub hostOps5 _ hostOps5_writes (by decide : main_arg4 ∉ hostOps5_W)).trans <|
  (B16_of_ne m ρ c main_arg4 (by decide)).trans <|
  (StableHlo.after_of_writes_sub hostOps4 _ hostOps4_writes (by decide : main_arg4 ∉ hostOps4_W)).trans <|
  (B14_of_ne m ρ c main_arg4 (by decide)).trans <|
  (StableHlo.after_of_writes_sub hostOps3 _ hostOps3_writes (by decide : main_arg4 ∉ hostOps3_W)).trans <|
  (B12_of_ne m ρ c main_arg4 (by decide)).trans <|
  (StableHlo.after_of_writes_sub hostOps2 _ hostOps2_writes (by decide : main_arg4 ∉ hostOps2_W)).trans <|
  (B10_of_ne m ρ c main_arg4 (by decide)).trans <|
  (StableHlo.after_of_writes_sub hostOps1_6 _ hostOps1_6_writes (by decide : main_arg4 ∉ hostOps1_6_W)).trans <|
  (StableHlo.after_of_writes_sub hostOps1_5 _ hostOps1_5_writes (by decide : main_arg4 ∉ hostOps1_5_W)).trans <|
  (StableHlo.after_of_writes_sub hostOps1_4 _ hostOps1_4_writes (by decide : main_arg4 ∉ hostOps1_4_W)).trans <|
  (StableHlo.after_of_writes_sub hostOps1_3 _ hostOps1_3_writes (by decide : main_arg4 ∉ hostOps1_3_W)).trans <|
  (StableHlo.after_of_writes_sub hostOps1_2 _ hostOps1_2_writes (by decide : main_arg4 ∉ hostOps1_2_W)).trans <|
  (StableHlo.after_of_writes_sub hostOps1_1 _ hostOps1_1_writes (by decide : main_arg4 ∉ hostOps1_1_W)).trans <|
  (StableHlo.after_of_writes_sub hostOps1 _ hostOps1_writes (by decide : main_arg4 ∉ hostOps1_W)).trans <|
  (B2_of_ne m ρ c main_arg4 (by decide)).trans <|
  (StableHlo.after_of_writes_sub hostOps0 _ hostOps0_writes (by decide : main_arg4 ∉ hostOps0_W)).trans <| rfl
theorem B19_main_arg5 (c : Dev nD) : B19 m ρ c (Proc.devRef .tc main_arg5) = m ((c : Thread nD τ).loc main_arg5) :=
  (StableHlo.after_of_writes_sub hostOps6 _ hostOps6_writes (by decide : main_arg5 ∉ hostOps6_W)).trans <|
  (B18_of_ne m ρ c main_arg5 (by decide)).trans <|
  (StableHlo.after_of_writes_sub hostOps5 _ hostOps5_writes (by decide : main_arg5 ∉ hostOps5_W)).trans <|
  (B16_of_ne m ρ c main_arg5 (by decide)).trans <|
  (StableHlo.after_of_writes_sub hostOps4 _ hostOps4_writes (by decide : main_arg5 ∉ hostOps4_W)).trans <|
  (B14_of_ne m ρ c main_arg5 (by decide)).trans <|
  (StableHlo.after_of_writes_sub hostOps3 _ hostOps3_writes (by decide : main_arg5 ∉ hostOps3_W)).trans <|
  ((B12_arr m ρ c 1).trans (((dat2 (T11 m ρ) c).arrAt_in 1 rfl _).trans (A_eq2 (T11 m ρ) c 1))).trans <|
  (StableHlo.after_of_writes_sub hostOps2 _ hostOps2_writes (by decide : main_arg5 ∉ hostOps2_W)).trans <|
  (B10_of_ne m ρ c main_arg5 (by decide)).trans <|
  (StableHlo.after_of_writes_sub hostOps1_6 _ hostOps1_6_writes (by decide : main_arg5 ∉ hostOps1_6_W)).trans <|
  (StableHlo.after_of_writes_sub hostOps1_5 _ hostOps1_5_writes (by decide : main_arg5 ∉ hostOps1_5_W)).trans <|
  (StableHlo.after_of_writes_sub hostOps1_4 _ hostOps1_4_writes (by decide : main_arg5 ∉ hostOps1_4_W)).trans <|
  (StableHlo.after_of_writes_sub hostOps1_3 _ hostOps1_3_writes (by decide : main_arg5 ∉ hostOps1_3_W)).trans <|
  (StableHlo.after_of_writes_sub hostOps1_2 _ hostOps1_2_writes (by decide : main_arg5 ∉ hostOps1_2_W)).trans <|
  (StableHlo.after_of_writes_sub hostOps1_1 _ hostOps1_1_writes (by decide : main_arg5 ∉ hostOps1_1_W)).trans <|
  (StableHlo.after_of_writes_sub hostOps1 _ hostOps1_writes (by decide : main_arg5 ∉ hostOps1_W)).trans <|
  (B2_of_ne m ρ c main_arg5 (by decide)).trans <|
  (StableHlo.after_of_writes_sub hostOps0 _ hostOps0_writes (by decide : main_arg5 ∉ hostOps0_W)).trans <| rfl
theorem B19_main_arg6 (c : Dev nD) : B19 m ρ c (Proc.devRef .tc main_arg6) = m ((c : Thread nD τ).loc main_arg6) :=
  (StableHlo.after_of_writes_sub hostOps6 _ hostOps6_writes (by decide : main_arg6 ∉ hostOps6_W)).trans <|
  (B18_of_ne m ρ c main_arg6 (by decide)).trans <|
  (StableHlo.after_of_writes_sub hostOps5 _ hostOps5_writes (by decide : main_arg6 ∉ hostOps5_W)).trans <|
  (B16_of_ne m ρ c main_arg6 (by decide)).trans <|
  (StableHlo.after_of_writes_sub hostOps4 _ hostOps4_writes (by decide : main_arg6 ∉ hostOps4_W)).trans <|
  (B14_of_ne m ρ c main_arg6 (by decide)).trans <|
  (StableHlo.after_of_writes_sub hostOps3 _ hostOps3_writes (by decide : main_arg6 ∉ hostOps3_W)).trans <|
  (B12_of_ne m ρ c main_arg6 (by decide)).trans <|
  (StableHlo.after_of_writes_sub hostOps2 _ hostOps2_writes (by decide : main_arg6 ∉ hostOps2_W)).trans <|
  (B10_of_ne m ρ c main_arg6 (by decide)).trans <|
  (StableHlo.after_of_writes_sub hostOps1_6 _ hostOps1_6_writes (by decide : main_arg6 ∉ hostOps1_6_W)).trans <|
  (StableHlo.after_of_writes_sub hostOps1_5 _ hostOps1_5_writes (by decide : main_arg6 ∉ hostOps1_5_W)).trans <|
  (StableHlo.after_of_writes_sub hostOps1_4 _ hostOps1_4_writes (by decide : main_arg6 ∉ hostOps1_4_W)).trans <|
  (StableHlo.after_of_writes_sub hostOps1_3 _ hostOps1_3_writes (by decide : main_arg6 ∉ hostOps1_3_W)).trans <|
  (StableHlo.after_of_writes_sub hostOps1_2 _ hostOps1_2_writes (by decide : main_arg6 ∉ hostOps1_2_W)).trans <|
  (StableHlo.after_of_writes_sub hostOps1_1 _ hostOps1_1_writes (by decide : main_arg6 ∉ hostOps1_1_W)).trans <|
  (StableHlo.after_of_writes_sub hostOps1 _ hostOps1_writes (by decide : main_arg6 ∉ hostOps1_W)).trans <|
  (B2_of_ne m ρ c main_arg6 (by decide)).trans <|
  (StableHlo.after_of_writes_sub hostOps0 _ hostOps0_writes (by decide : main_arg6 ∉ hostOps0_W)).trans <| rfl
theorem B19_main_arg7 (c : Dev nD) : B19 m ρ c (Proc.devRef .tc main_arg7) = m ((c : Thread nD τ).loc main_arg7) :=
  (StableHlo.after_of_writes_sub hostOps6 _ hostOps6_writes (by decide : main_arg7 ∉ hostOps6_W)).trans <|
  (B18_of_ne m ρ c main_arg7 (by decide)).trans <|
  (StableHlo.after_of_writes_sub hostOps5 _ hostOps5_writes (by decide : main_arg7 ∉ hostOps5_W)).trans <|
  (B16_of_ne m ρ c main_arg7 (by decide)).trans <|
  (StableHlo.after_of_writes_sub hostOps4 _ hostOps4_writes (by decide : main_arg7 ∉ hostOps4_W)).trans <|
  ((B14_arr m ρ c 1).trans (((dat3 (T13 m ρ) c).arrAt_in 1 rfl _).trans (A_eq3 (T13 m ρ) c 1))).trans <|
  (StableHlo.after_of_writes_sub hostOps3 _ hostOps3_writes (by decide : main_arg7 ∉ hostOps3_W)).trans <|
  (B12_of_ne m ρ c main_arg7 (by decide)).trans <|
  (StableHlo.after_of_writes_sub hostOps2 _ hostOps2_writes (by decide : main_arg7 ∉ hostOps2_W)).trans <|
  (B10_of_ne m ρ c main_arg7 (by decide)).trans <|
  (StableHlo.after_of_writes_sub hostOps1_6 _ hostOps1_6_writes (by decide : main_arg7 ∉ hostOps1_6_W)).trans <|
  (StableHlo.after_of_writes_sub hostOps1_5 _ hostOps1_5_writes (by decide : main_arg7 ∉ hostOps1_5_W)).trans <|
  (StableHlo.after_of_writes_sub hostOps1_4 _ hostOps1_4_writes (by decide : main_arg7 ∉ hostOps1_4_W)).trans <|
  (StableHlo.after_of_writes_sub hostOps1_3 _ hostOps1_3_writes (by decide : main_arg7 ∉ hostOps1_3_W)).trans <|
  (StableHlo.after_of_writes_sub hostOps1_2 _ hostOps1_2_writes (by decide : main_arg7 ∉ hostOps1_2_W)).trans <|
  (StableHlo.after_of_writes_sub hostOps1_1 _ hostOps1_1_writes (by decide : main_arg7 ∉ hostOps1_1_W)).trans <|
  (StableHlo.after_of_writes_sub hostOps1 _ hostOps1_writes (by decide : main_arg7 ∉ hostOps1_W)).trans <|
  (B2_of_ne m ρ c main_arg7 (by decide)).trans <|
  (StableHlo.after_of_writes_sub hostOps0 _ hostOps0_writes (by decide : main_arg7 ∉ hostOps0_W)).trans <| rfl
theorem B19_main_arg8 (c : Dev nD) : B19 m ρ c (Proc.devRef .tc main_arg8) = m ((c : Thread nD τ).loc main_arg8) :=
  (StableHlo.after_of_writes_sub hostOps6 _ hostOps6_writes (by decide : main_arg8 ∉ hostOps6_W)).trans <|
  (B18_of_ne m ρ c main_arg8 (by decide)).trans <|
  (StableHlo.after_of_writes_sub hostOps5 _ hostOps5_writes (by decide : main_arg8 ∉ hostOps5_W)).trans <|
  (B16_of_ne m ρ c main_arg8 (by decide)).trans <|
  (StableHlo.after_of_writes_sub hostOps4 _ hostOps4_writes (by decide : main_arg8 ∉ hostOps4_W)).trans <|
  (B14_of_ne m ρ c main_arg8 (by decide)).trans <|
  (StableHlo.after_of_writes_sub hostOps3 _ hostOps3_writes (by decide : main_arg8 ∉ hostOps3_W)).trans <|
  (B12_of_ne m ρ c main_arg8 (by decide)).trans <|
  (StableHlo.after_of_writes_sub hostOps2 _ hostOps2_writes (by decide : main_arg8 ∉ hostOps2_W)).trans <|
  (B10_of_ne m ρ c main_arg8 (by decide)).trans <|
  (StableHlo.after_of_writes_sub hostOps1_6 _ hostOps1_6_writes (by decide : main_arg8 ∉ hostOps1_6_W)).trans <|
  (StableHlo.after_of_writes_sub hostOps1_5 _ hostOps1_5_writes (by decide : main_arg8 ∉ hostOps1_5_W)).trans <|
  (StableHlo.after_of_writes_sub hostOps1_4 _ hostOps1_4_writes (by decide : main_arg8 ∉ hostOps1_4_W)).trans <|
  (StableHlo.after_of_writes_sub hostOps1_3 _ hostOps1_3_writes (by decide : main_arg8 ∉ hostOps1_3_W)).trans <|
  (StableHlo.after_of_writes_sub hostOps1_2 _ hostOps1_2_writes (by decide : main_arg8 ∉ hostOps1_2_W)).trans <|
  (StableHlo.after_of_writes_sub hostOps1_1 _ hostOps1_1_writes (by decide : main_arg8 ∉ hostOps1_1_W)).trans <|
  (StableHlo.after_of_writes_sub hostOps1 _ hostOps1_writes (by decide : main_arg8 ∉ hostOps1_W)).trans <|
  (B2_of_ne m ρ c main_arg8 (by decide)).trans <|
  (StableHlo.after_of_writes_sub hostOps0 _ hostOps0_writes (by decide : main_arg8 ∉ hostOps0_W)).trans <| rfl
theorem B19_main_arg9 (c : Dev nD) : B19 m ρ c (Proc.devRef .tc main_arg9) = m ((c : Thread nD τ).loc main_arg9) :=
  (StableHlo.after_of_writes_sub hostOps6 _ hostOps6_writes (by decide : main_arg9 ∉ hostOps6_W)).trans <|
  (B18_of_ne m ρ c main_arg9 (by decide)).trans <|
  (StableHlo.after_of_writes_sub hostOps5 _ hostOps5_writes (by decide : main_arg9 ∉ hostOps5_W)).trans <|
  ((B16_arr m ρ c 1).trans (((dat4 (T15 m ρ) c).arrAt_in 1 rfl _).trans (A_eq4 (T15 m ρ) c 1))).trans <|
  (StableHlo.after_of_writes_sub hostOps4 _ hostOps4_writes (by decide : main_arg9 ∉ hostOps4_W)).trans <|
  (B14_of_ne m ρ c main_arg9 (by decide)).trans <|
  (StableHlo.after_of_writes_sub hostOps3 _ hostOps3_writes (by decide : main_arg9 ∉ hostOps3_W)).trans <|
  (B12_of_ne m ρ c main_arg9 (by decide)).trans <|
  (StableHlo.after_of_writes_sub hostOps2 _ hostOps2_writes (by decide : main_arg9 ∉ hostOps2_W)).trans <|
  (B10_of_ne m ρ c main_arg9 (by decide)).trans <|
  (StableHlo.after_of_writes_sub hostOps1_6 _ hostOps1_6_writes (by decide : main_arg9 ∉ hostOps1_6_W)).trans <|
  (StableHlo.after_of_writes_sub hostOps1_5 _ hostOps1_5_writes (by decide : main_arg9 ∉ hostOps1_5_W)).trans <|
  (StableHlo.after_of_writes_sub hostOps1_4 _ hostOps1_4_writes (by decide : main_arg9 ∉ hostOps1_4_W)).trans <|
  (StableHlo.after_of_writes_sub hostOps1_3 _ hostOps1_3_writes (by decide : main_arg9 ∉ hostOps1_3_W)).trans <|
  (StableHlo.after_of_writes_sub hostOps1_2 _ hostOps1_2_writes (by decide : main_arg9 ∉ hostOps1_2_W)).trans <|
  (StableHlo.after_of_writes_sub hostOps1_1 _ hostOps1_1_writes (by decide : main_arg9 ∉ hostOps1_1_W)).trans <|
  (StableHlo.after_of_writes_sub hostOps1 _ hostOps1_writes (by decide : main_arg9 ∉ hostOps1_W)).trans <|
  (B2_of_ne m ρ c main_arg9 (by decide)).trans <|
  (StableHlo.after_of_writes_sub hostOps0 _ hostOps0_writes (by decide : main_arg9 ∉ hostOps0_W)).trans <| rfl
theorem B19_main_arg10 (c : Dev nD) : B19 m ρ c (Proc.devRef .tc main_arg10) = m ((c : Thread nD τ).loc main_arg10) :=
  (StableHlo.after_of_writes_sub hostOps6 _ hostOps6_writes (by decide : main_arg10 ∉ hostOps6_W)).trans <|
  (B18_of_ne m ρ c main_arg10 (by decide)).trans <|
  (StableHlo.after_of_writes_sub hostOps5 _ hostOps5_writes (by decide : main_arg10 ∉ hostOps5_W)).trans <|
  (B16_of_ne m ρ c main_arg10 (by decide)).trans <|
  (StableHlo.after_of_writes_sub hostOps4 _ hostOps4_writes (by decide : main_arg10 ∉ hostOps4_W)).trans <|
  (B14_of_ne m ρ c main_arg10 (by decide)).trans <|
  (StableHlo.after_of_writes_sub hostOps3 _ hostOps3_writes (by decide : main_arg10 ∉ hostOps3_W)).trans <|
  (B12_of_ne m ρ c main_arg10 (by decide)).trans <|
  (StableHlo.after_of_writes_sub hostOps2 _ hostOps2_writes (by decide : main_arg10 ∉ hostOps2_W)).trans <|
  (B10_of_ne m ρ c main_arg10 (by decide)).trans <|
  (StableHlo.after_of_writes_sub hostOps1_6 _ hostOps1_6_writes (by decide : main_arg10 ∉ hostOps1_6_W)).trans <|
  (StableHlo.after_of_writes_sub hostOps1_5 _ hostOps1_5_writes (by decide : main_arg10 ∉ hostOps1_5_W)).trans <|
  (StableHlo.after_of_writes_sub hostOps1_4 _ hostOps1_4_writes (by decide : main_arg10 ∉ hostOps1_4_W)).trans <|
  (StableHlo.after_of_writes_sub hostOps1_3 _ hostOps1_3_writes (by decide : main_arg10 ∉ hostOps1_3_W)).trans <|
  (StableHlo.after_of_writes_sub hostOps1_2 _ hostOps1_2_writes (by decide : main_arg10 ∉ hostOps1_2_W)).trans <|
  (StableHlo.after_of_writes_sub hostOps1_1 _ hostOps1_1_writes (by decide : main_arg10 ∉ hostOps1_1_W)).trans <|
  (StableHlo.after_of_writes_sub hostOps1 _ hostOps1_writes (by decide : main_arg10 ∉ hostOps1_W)).trans <|
  (B2_of_ne m ρ c main_arg10 (by decide)).trans <|
  (StableHlo.after_of_writes_sub hostOps0 _ hostOps0_writes (by decide : main_arg10 ∉ hostOps0_W)).trans <| rfl
theorem B19_main_arg11 (c : Dev nD) : B19 m ρ c (Proc.devRef .tc main_arg11) = m ((c : Thread nD τ).loc main_arg11) :=
  (StableHlo.after_of_writes_sub hostOps6 _ hostOps6_writes (by decide : main_arg11 ∉ hostOps6_W)).trans <|
  ((B18_arr m ρ c 1).trans (((dat5 (T17 m ρ) c).arrAt_in 1 rfl _).trans (A_eq5 (T17 m ρ) c 1))).trans <|
  (StableHlo.after_of_writes_sub hostOps5 _ hostOps5_writes (by decide : main_arg11 ∉ hostOps5_W)).trans <|
  (B16_of_ne m ρ c main_arg11 (by decide)).trans <|
  (StableHlo.after_of_writes_sub hostOps4 _ hostOps4_writes (by decide : main_arg11 ∉ hostOps4_W)).trans <|
  (B14_of_ne m ρ c main_arg11 (by decide)).trans <|
  (StableHlo.after_of_writes_sub hostOps3 _ hostOps3_writes (by decide : main_arg11 ∉ hostOps3_W)).trans <|
  (B12_of_ne m ρ c main_arg11 (by decide)).trans <|
  (StableHlo.after_of_writes_sub hostOps2 _ hostOps2_writes (by decide : main_arg11 ∉ hostOps2_W)).trans <|
  (B10_of_ne m ρ c main_arg11 (by decide)).trans <|
  (StableHlo.after_of_writes_sub hostOps1_6 _ hostOps1_6_writes (by decide : main_arg11 ∉ hostOps1_6_W)).trans <|
  (StableHlo.after_of_writes_sub hostOps1_5 _ hostOps1_5_writes (by decide : main_arg11 ∉ hostOps1_5_W)).trans <|
  (StableHlo.after_of_writes_sub hostOps1_4 _ hostOps1_4_writes (by decide : main_arg11 ∉ hostOps1_4_W)).trans <|
  (StableHlo.after_of_writes_sub hostOps1_3 _ hostOps1_3_writes (by decide : main_arg11 ∉ hostOps1_3_W)).trans <|
  (StableHlo.after_of_writes_sub hostOps1_2 _ hostOps1_2_writes (by decide : main_arg11 ∉ hostOps1_2_W)).trans <|
  (StableHlo.after_of_writes_sub hostOps1_1 _ hostOps1_1_writes (by decide : main_arg11 ∉ hostOps1_1_W)).trans <|
  (StableHlo.after_of_writes_sub hostOps1 _ hostOps1_writes (by decide : main_arg11 ∉ hostOps1_W)).trans <|
  (B2_of_ne m ρ c main_arg11 (by decide)).trans <|
  (StableHlo.after_of_writes_sub hostOps0 _ hostOps0_writes (by decide : main_arg11 ∉ hostOps0_W)).trans <| rfl
theorem B19_main_arg12 (c : Dev nD) : B19 m ρ c (Proc.devRef .tc main_arg12) = m ((c : Thread nD τ).loc main_arg12) :=
  (StableHlo.after_of_writes_sub hostOps6 _ hostOps6_writes (by decide : main_arg12 ∉ hostOps6_W)).trans <|
  (B18_of_ne m ρ c main_arg12 (by decide)).trans <|
  (StableHlo.after_of_writes_sub hostOps5 _ hostOps5_writes (by decide : main_arg12 ∉ hostOps5_W)).trans <|
  (B16_of_ne m ρ c main_arg12 (by decide)).trans <|
  (StableHlo.after_of_writes_sub hostOps4 _ hostOps4_writes (by decide : main_arg12 ∉ hostOps4_W)).trans <|
  (B14_of_ne m ρ c main_arg12 (by decide)).trans <|
  (StableHlo.after_of_writes_sub hostOps3 _ hostOps3_writes (by decide : main_arg12 ∉ hostOps3_W)).trans <|
  (B12_of_ne m ρ c main_arg12 (by decide)).trans <|
  (StableHlo.after_of_writes_sub hostOps2 _ hostOps2_writes (by decide : main_arg12 ∉ hostOps2_W)).trans <|
  (B10_of_ne m ρ c main_arg12 (by decide)).trans <|
  (StableHlo.after_of_writes_sub hostOps1_6 _ hostOps1_6_writes (by decide : main_arg12 ∉ hostOps1_6_W)).trans <|
  (StableHlo.after_of_writes_sub hostOps1_5 _ hostOps1_5_writes (by decide : main_arg12 ∉ hostOps1_5_W)).trans <|
  (StableHlo.after_of_writes_sub hostOps1_4 _ hostOps1_4_writes (by decide : main_arg12 ∉ hostOps1_4_W)).trans <|
  (StableHlo.after_of_writes_sub hostOps1_3 _ hostOps1_3_writes (by decide : main_arg12 ∉ hostOps1_3_W)).trans <|
  (StableHlo.after_of_writes_sub hostOps1_2 _ hostOps1_2_writes (by decide : main_arg12 ∉ hostOps1_2_W)).trans <|
  (StableHlo.after_of_writes_sub hostOps1_1 _ hostOps1_1_writes (by decide : main_arg12 ∉ hostOps1_1_W)).trans <|
  (StableHlo.after_of_writes_sub hostOps1 _ hostOps1_writes (by decide : main_arg12 ∉ hostOps1_W)).trans <|
  (B2_of_ne m ρ c main_arg12 (by decide)).trans <|
  (StableHlo.after_of_writes_sub hostOps0 _ hostOps0_writes (by decide : main_arg12 ∉ hostOps0_W)).trans <| rfl
theorem B19_main_arg13 (c : Dev nD) : B19 m ρ c (Proc.devRef .tc main_arg13) = m ((c : Thread nD τ).loc main_arg13) :=
  (StableHlo.after_of_writes_sub hostOps6 _ hostOps6_writes (by decide : main_arg13 ∉ hostOps6_W)).trans <|
  (B18_of_ne m ρ c main_arg13 (by decide)).trans <|
  (StableHlo.after_of_writes_sub hostOps5 _ hostOps5_writes (by decide : main_arg13 ∉ hostOps5_W)).trans <|
  (B16_of_ne m ρ c main_arg13 (by decide)).trans <|
  (StableHlo.after_of_writes_sub hostOps4 _ hostOps4_writes (by decide : main_arg13 ∉ hostOps4_W)).trans <|
  (B14_of_ne m ρ c main_arg13 (by decide)).trans <|
  (StableHlo.after_of_writes_sub hostOps3 _ hostOps3_writes (by decide : main_arg13 ∉ hostOps3_W)).trans <|
  (B12_of_ne m ρ c main_arg13 (by decide)).trans <|
  (StableHlo.after_of_writes_sub hostOps2 _ hostOps2_writes (by decide : main_arg13 ∉ hostOps2_W)).trans <|
  (B10_of_ne m ρ c main_arg13 (by decide)).trans <|
  (StableHlo.after_of_writes_sub hostOps1_6 _ hostOps1_6_writes (by decide : main_arg13 ∉ hostOps1_6_W)).trans <|
  (StableHlo.after_of_writes_sub hostOps1_5 _ hostOps1_5_writes (by decide : main_arg13 ∉ hostOps1_5_W)).trans <|
  (StableHlo.after_of_writes_sub hostOps1_4 _ hostOps1_4_writes (by decide : main_arg13 ∉ hostOps1_4_W)).trans <|
  (StableHlo.after_of_writes_sub hostOps1_3 _ hostOps1_3_writes (by decide : main_arg13 ∉ hostOps1_3_W)).trans <|
  (StableHlo.after_of_writes_sub hostOps1_2 _ hostOps1_2_writes (by decide : main_arg13 ∉ hostOps1_2_W)).trans <|
  (StableHlo.after_of_writes_sub hostOps1_1 _ hostOps1_1_writes (by decide : main_arg13 ∉ hostOps1_1_W)).trans <|
  (StableHlo.after_of_writes_sub hostOps1 _ hostOps1_writes (by decide : main_arg13 ∉ hostOps1_W)).trans <|
  (B2_of_ne m ρ c main_arg13 (by decide)).trans <|
  (StableHlo.after_of_writes_sub hostOps0 _ hostOps0_writes (by decide : main_arg13 ∉ hostOps0_W)).trans <| rfl
theorem B19_main_arg14 (c : Dev nD) : B19 m ρ c (Proc.devRef .tc main_arg14) = m ((c : Thread nD τ).loc main_arg14) :=
  (StableHlo.after_of_writes_sub hostOps6 _ hostOps6_writes (by decide : main_arg14 ∉ hostOps6_W)).trans <|
  (B18_of_ne m ρ c main_arg14 (by decide)).trans <|
  (StableHlo.after_of_writes_sub hostOps5 _ hostOps5_writes (by decide : main_arg14 ∉ hostOps5_W)).trans <|
  (B16_of_ne m ρ c main_arg14 (by decide)).trans <|
  (StableHlo.after_of_writes_sub hostOps4 _ hostOps4_writes (by decide : main_arg14 ∉ hostOps4_W)).trans <|
  (B14_of_ne m ρ c main_arg14 (by decide)).trans <|
  (StableHlo.after_of_writes_sub hostOps3 _ hostOps3_writes (by decide : main_arg14 ∉ hostOps3_W)).trans <|
  (B12_of_ne m ρ c main_arg14 (by decide)).trans <|
  (StableHlo.after_of_writes_sub hostOps2 _ hostOps2_writes (by decide : main_arg14 ∉ hostOps2_W)).trans <|
  (B10_of_ne m ρ c main_arg14 (by decide)).trans <|
  (StableHlo.after_of_writes_sub hostOps1_6 _ hostOps1_6_writes (by decide : main_arg14 ∉ hostOps1_6_W)).trans <|
  (StableHlo.after_of_writes_sub hostOps1_5 _ hostOps1_5_writes (by decide : main_arg14 ∉ hostOps1_5_W)).trans <|
  (StableHlo.after_of_writes_sub hostOps1_4 _ hostOps1_4_writes (by decide : main_arg14 ∉ hostOps1_4_W)).trans <|
  (StableHlo.after_of_writes_sub hostOps1_3 _ hostOps1_3_writes (by decide : main_arg14 ∉ hostOps1_3_W)).trans <|
  (StableHlo.after_of_writes_sub hostOps1_2 _ hostOps1_2_writes (by decide : main_arg14 ∉ hostOps1_2_W)).trans <|
  (StableHlo.after_of_writes_sub hostOps1_1 _ hostOps1_1_writes (by decide : main_arg14 ∉ hostOps1_1_W)).trans <|
  (StableHlo.after_of_writes_sub hostOps1 _ hostOps1_writes (by decide : main_arg14 ∉ hostOps1_W)).trans <|
  (B2_of_ne m ρ c main_arg14 (by decide)).trans <|
  (StableHlo.after_of_writes_sub hostOps0 _ hostOps0_writes (by decide : main_arg14 ∉ hostOps0_W)).trans <| rfl
theorem B19_main_arg15 (c : Dev nD) : B19 m ρ c (Proc.devRef .tc main_arg15) = m ((c : Thread nD τ).loc main_arg15) :=
  (StableHlo.after_of_writes_sub hostOps6 _ hostOps6_writes (by decide : main_arg15 ∉ hostOps6_W)).trans <|
  (B18_of_ne m ρ c main_arg15 (by decide)).trans <|
  (StableHlo.after_of_writes_sub hostOps5 _ hostOps5_writes (by decide : main_arg15 ∉ hostOps5_W)).trans <|
  (B16_of_ne m ρ c main_arg15 (by decide)).trans <|
  (StableHlo.after_of_writes_sub hostOps4 _ hostOps4_writes (by decide : main_arg15 ∉ hostOps4_W)).trans <|
  (B14_of_ne m ρ c main_arg15 (by decide)).trans <|
  (StableHlo.after_of_writes_sub hostOps3 _ hostOps3_writes (by decide : main_arg15 ∉ hostOps3_W)).trans <|
  (B12_of_ne m ρ c main_arg15 (by decide)).trans <|
  (StableHlo.after_of_writes_sub hostOps2 _ hostOps2_writes (by decide : main_arg15 ∉ hostOps2_W)).trans <|
  (B10_of_ne m ρ c main_arg15 (by decide)).trans <|
  (StableHlo.after_of_writes_sub hostOps1_6 _ hostOps1_6_writes (by decide : main_arg15 ∉ hostOps1_6_W)).trans <|
  (StableHlo.after_of_writes_sub hostOps1_5 _ hostOps1_5_writes (by decide : main_arg15 ∉ hostOps1_5_W)).trans <|
  (StableHlo.after_of_writes_sub hostOps1_4 _ hostOps1_4_writes (by decide : main_arg15 ∉ hostOps1_4_W)).trans <|
  (StableHlo.after_of_writes_sub hostOps1_3 _ hostOps1_3_writes (by decide : main_arg15 ∉ hostOps1_3_W)).trans <|
  (StableHlo.after_of_writes_sub hostOps1_2 _ hostOps1_2_writes (by decide : main_arg15 ∉ hostOps1_2_W)).trans <|
  (StableHlo.after_of_writes_sub hostOps1_1 _ hostOps1_1_writes (by decide : main_arg15 ∉ hostOps1_1_W)).trans <|
  (StableHlo.after_of_writes_sub hostOps1 _ hostOps1_writes (by decide : main_arg15 ∉ hostOps1_W)).trans <|
  (B2_of_ne m ρ c main_arg15 (by decide)).trans <|
  (StableHlo.after_of_writes_sub hostOps0 _ hostOps0_writes (by decide : main_arg15 ∉ hostOps0_W)).trans <| rfl
theorem B19_main_arg16 (c : Dev nD) : B19 m ρ c (Proc.devRef .tc main_arg16) = m ((c : Thread nD τ).loc main_arg16) :=
  (StableHlo.after_of_writes_sub hostOps6 _ hostOps6_writes (by decide : main_arg16 ∉ hostOps6_W)).trans <|
  (B18_of_ne m ρ c main_arg16 (by decide)).trans <|
  (StableHlo.after_of_writes_sub hostOps5 _ hostOps5_writes (by decide : main_arg16 ∉ hostOps5_W)).trans <|
  (B16_of_ne m ρ c main_arg16 (by decide)).trans <|
  (StableHlo.after_of_writes_sub hostOps4 _ hostOps4_writes (by decide : main_arg16 ∉ hostOps4_W)).trans <|
  (B14_of_ne m ρ c main_arg16 (by decide)).trans <|
  (StableHlo.after_of_writes_sub hostOps3 _ hostOps3_writes (by decide : main_arg16 ∉ hostOps3_W)).trans <|
  (B12_of_ne m ρ c main_arg16 (by decide)).trans <|
  (StableHlo.after_of_writes_sub hostOps2 _ hostOps2_writes (by decide : main_arg16 ∉ hostOps2_W)).trans <|
  (B10_of_ne m ρ c main_arg16 (by decide)).trans <|
  (StableHlo.after_of_writes_sub hostOps1_6 _ hostOps1_6_writes (by decide : main_arg16 ∉ hostOps1_6_W)).trans <|
  (StableHlo.after_of_writes_sub hostOps1_5 _ hostOps1_5_writes (by decide : main_arg16 ∉ hostOps1_5_W)).trans <|
  (StableHlo.after_of_writes_sub hostOps1_4 _ hostOps1_4_writes (by decide : main_arg16 ∉ hostOps1_4_W)).trans <|
  (StableHlo.after_of_writes_sub hostOps1_3 _ hostOps1_3_writes (by decide : main_arg16 ∉ hostOps1_3_W)).trans <|
  (StableHlo.after_of_writes_sub hostOps1_2 _ hostOps1_2_writes (by decide : main_arg16 ∉ hostOps1_2_W)).trans <|
  (StableHlo.after_of_writes_sub hostOps1_1 _ hostOps1_1_writes (by decide : main_arg16 ∉ hostOps1_1_W)).trans <|
  (StableHlo.after_of_writes_sub hostOps1 _ hostOps1_writes (by decide : main_arg16 ∉ hostOps1_W)).trans <|
  (B2_of_ne m ρ c main_arg16 (by decide)).trans <|
  (StableHlo.after_of_writes_sub hostOps0 _ hostOps0_writes (by decide : main_arg16 ∉ hostOps0_W)).trans <| rfl
theorem B19_main_arg17 (c : Dev nD) : B19 m ρ c (Proc.devRef .tc main_arg17) = m ((c : Thread nD τ).loc main_arg17) :=
  (StableHlo.after_of_writes_sub hostOps6 _ hostOps6_writes (by decide : main_arg17 ∉ hostOps6_W)).trans <|
  (B18_of_ne m ρ c main_arg17 (by decide)).trans <|
  (StableHlo.after_of_writes_sub hostOps5 _ hostOps5_writes (by decide : main_arg17 ∉ hostOps5_W)).trans <|
  (B16_of_ne m ρ c main_arg17 (by decide)).trans <|
  (StableHlo.after_of_writes_sub hostOps4 _ hostOps4_writes (by decide : main_arg17 ∉ hostOps4_W)).trans <|
  (B14_of_ne m ρ c main_arg17 (by decide)).trans <|
  (StableHlo.after_of_writes_sub hostOps3 _ hostOps3_writes (by decide : main_arg17 ∉ hostOps3_W)).trans <|
  (B12_of_ne m ρ c main_arg17 (by decide)).trans <|
  (StableHlo.after_of_writes_sub hostOps2 _ hostOps2_writes (by decide : main_arg17 ∉ hostOps2_W)).trans <|
  (B10_of_ne m ρ c main_arg17 (by decide)).trans <|
  (StableHlo.after_of_writes_sub hostOps1_6 _ hostOps1_6_writes (by decide : main_arg17 ∉ hostOps1_6_W)).trans <|
  (StableHlo.after_of_writes_sub hostOps1_5 _ hostOps1_5_writes (by decide : main_arg17 ∉ hostOps1_5_W)).trans <|
  (StableHlo.after_of_writes_sub hostOps1_4 _ hostOps1_4_writes (by decide : main_arg17 ∉ hostOps1_4_W)).trans <|
  (StableHlo.after_of_writes_sub hostOps1_3 _ hostOps1_3_writes (by decide : main_arg17 ∉ hostOps1_3_W)).trans <|
  (StableHlo.after_of_writes_sub hostOps1_2 _ hostOps1_2_writes (by decide : main_arg17 ∉ hostOps1_2_W)).trans <|
  (StableHlo.after_of_writes_sub hostOps1_1 _ hostOps1_1_writes (by decide : main_arg17 ∉ hostOps1_1_W)).trans <|
  (StableHlo.after_of_writes_sub hostOps1 _ hostOps1_writes (by decide : main_arg17 ∉ hostOps1_W)).trans <|
  (B2_of_ne m ρ c main_arg17 (by decide)).trans <|
  (StableHlo.after_of_writes_sub hostOps0 _ hostOps0_writes (by decide : main_arg17 ∉ hostOps0_W)).trans <| rfl
theorem B19_main_arg18 (c : Dev nD) : B19 m ρ c (Proc.devRef .tc main_arg18) = m ((c : Thread nD τ).loc main_arg18) :=
  (StableHlo.after_of_writes_sub hostOps6 _ hostOps6_writes (by decide : main_arg18 ∉ hostOps6_W)).trans <|
  (B18_of_ne m ρ c main_arg18 (by decide)).trans <|
  (StableHlo.after_of_writes_sub hostOps5 _ hostOps5_writes (by decide : main_arg18 ∉ hostOps5_W)).trans <|
  (B16_of_ne m ρ c main_arg18 (by decide)).trans <|
  (StableHlo.after_of_writes_sub hostOps4 _ hostOps4_writes (by decide : main_arg18 ∉ hostOps4_W)).trans <|
  (B14_of_ne m ρ c main_arg18 (by decide)).trans <|
  (StableHlo.after_of_writes_sub hostOps3 _ hostOps3_writes (by decide : main_arg18 ∉ hostOps3_W)).trans <|
  (B12_of_ne m ρ c main_arg18 (by decide)).trans <|
  (StableHlo.after_of_writes_sub hostOps2 _ hostOps2_writes (by decide : main_arg18 ∉ hostOps2_W)).trans <|
  (B10_of_ne m ρ c main_arg18 (by decide)).trans <|
  (StableHlo.after_of_writes_sub hostOps1_6 _ hostOps1_6_writes (by decide : main_arg18 ∉ hostOps1_6_W)).trans <|
  (StableHlo.after_of_writes_sub hostOps1_5 _ hostOps1_5_writes (by decide : main_arg18 ∉ hostOps1_5_W)).trans <|
  (StableHlo.after_of_writes_sub hostOps1_4 _ hostOps1_4_writes (by decide : main_arg18 ∉ hostOps1_4_W)).trans <|
  (StableHlo.after_of_writes_sub hostOps1_3 _ hostOps1_3_writes (by decide : main_arg18 ∉ hostOps1_3_W)).trans <|
  (StableHlo.after_of_writes_sub hostOps1_2 _ hostOps1_2_writes (by decide : main_arg18 ∉ hostOps1_2_W)).trans <|
  (StableHlo.after_of_writes_sub hostOps1_1 _ hostOps1_1_writes (by decide : main_arg18 ∉ hostOps1_1_W)).trans <|
  (StableHlo.after_of_writes_sub hostOps1 _ hostOps1_writes (by decide : main_arg18 ∉ hostOps1_W)).trans <|
  (B2_of_ne m ρ c main_arg18 (by decide)).trans <|
  (StableHlo.after_of_writes_sub hostOps0 _ hostOps0_writes (by decide : main_arg18 ∉ hostOps0_W)).trans <| rfl
theorem B19_main_arg19 (c : Dev nD) : B19 m ρ c (Proc.devRef .tc main_arg19) = m ((c : Thread nD τ).loc main_arg19) :=
  (StableHlo.after_of_writes_sub hostOps6 _ hostOps6_writes (by decide : main_arg19 ∉ hostOps6_W)).trans <|
  (B18_of_ne m ρ c main_arg19 (by decide)).trans <|
  (StableHlo.after_of_writes_sub hostOps5 _ hostOps5_writes (by decide : main_arg19 ∉ hostOps5_W)).trans <|
  (B16_of_ne m ρ c main_arg19 (by decide)).trans <|
  (StableHlo.after_of_writes_sub hostOps4 _ hostOps4_writes (by decide : main_arg19 ∉ hostOps4_W)).trans <|
  (B14_of_ne m ρ c main_arg19 (by decide)).trans <|
  (StableHlo.after_of_writes_sub hostOps3 _ hostOps3_writes (by decide : main_arg19 ∉ hostOps3_W)).trans <|
  (B12_of_ne m ρ c main_arg19 (by decide)).trans <|
  (StableHlo.after_of_writes_sub hostOps2 _ hostOps2_writes (by decide : main_arg19 ∉ hostOps2_W)).trans <|
  (B10_of_ne m ρ c main_arg19 (by decide)).trans <|
  (StableHlo.after_of_writes_sub hostOps1_6 _ hostOps1_6_writes (by decide : main_arg19 ∉ hostOps1_6_W)).trans <|
  (StableHlo.after_of_writes_sub hostOps1_5 _ hostOps1_5_writes (by decide : main_arg19 ∉ hostOps1_5_W)).trans <|
  (StableHlo.after_of_writes_sub hostOps1_4 _ hostOps1_4_writes (by decide : main_arg19 ∉ hostOps1_4_W)).trans <|
  (StableHlo.after_of_writes_sub hostOps1_3 _ hostOps1_3_writes (by decide : main_arg19 ∉ hostOps1_3_W)).trans <|
  (StableHlo.after_of_writes_sub hostOps1_2 _ hostOps1_2_writes (by decide : main_arg19 ∉ hostOps1_2_W)).trans <|
  (StableHlo.after_of_writes_sub hostOps1_1 _ hostOps1_1_writes (by decide : main_arg19 ∉ hostOps1_1_W)).trans <|
  (StableHlo.after_of_writes_sub hostOps1 _ hostOps1_writes (by decide : main_arg19 ∉ hostOps1_W)).trans <|
  (B2_of_ne m ρ c main_arg19 (by decide)).trans <|
  (StableHlo.after_of_writes_sub hostOps0 _ hostOps0_writes (by decide : main_arg19 ∉ hostOps0_W)).trans <| rfl
theorem B19_main_arg20 (c : Dev nD) : B19 m ρ c (Proc.devRef .tc main_arg20) = m ((c : Thread nD τ).loc main_arg20) :=
  (StableHlo.after_of_writes_sub hostOps6 _ hostOps6_writes (by decide : main_arg20 ∉ hostOps6_W)).trans <|
  (B18_of_ne m ρ c main_arg20 (by decide)).trans <|
  (StableHlo.after_of_writes_sub hostOps5 _ hostOps5_writes (by decide : main_arg20 ∉ hostOps5_W)).trans <|
  (B16_of_ne m ρ c main_arg20 (by decide)).trans <|
  (StableHlo.after_of_writes_sub hostOps4 _ hostOps4_writes (by decide : main_arg20 ∉ hostOps4_W)).trans <|
  (B14_of_ne m ρ c main_arg20 (by decide)).trans <|
  (StableHlo.after_of_writes_sub hostOps3 _ hostOps3_writes (by decide : main_arg20 ∉ hostOps3_W)).trans <|
  (B12_of_ne m ρ c main_arg20 (by decide)).trans <|
  (StableHlo.after_of_writes_sub hostOps2 _ hostOps2_writes (by decide : main_arg20 ∉ hostOps2_W)).trans <|
  (B10_of_ne m ρ c main_arg20 (by decide)).trans <|
  (StableHlo.after_of_writes_sub hostOps1_6 _ hostOps1_6_writes (by decide : main_arg20 ∉ hostOps1_6_W)).trans <|
  (StableHlo.after_of_writes_sub hostOps1_5 _ hostOps1_5_writes (by decide : main_arg20 ∉ hostOps1_5_W)).trans <|
  (StableHlo.after_of_writes_sub hostOps1_4 _ hostOps1_4_writes (by decide : main_arg20 ∉ hostOps1_4_W)).trans <|
  (StableHlo.after_of_writes_sub hostOps1_3 _ hostOps1_3_writes (by decide : main_arg20 ∉ hostOps1_3_W)).trans <|
  (StableHlo.after_of_writes_sub hostOps1_2 _ hostOps1_2_writes (by decide : main_arg20 ∉ hostOps1_2_W)).trans <|
  (StableHlo.after_of_writes_sub hostOps1_1 _ hostOps1_1_writes (by decide : main_arg20 ∉ hostOps1_1_W)).trans <|
  (StableHlo.after_of_writes_sub hostOps1 _ hostOps1_writes (by decide : main_arg20 ∉ hostOps1_W)).trans <|
  (B2_of_ne m ρ c main_arg20 (by decide)).trans <|
  (StableHlo.after_of_writes_sub hostOps0 _ hostOps0_writes (by decide : main_arg20 ∉ hostOps0_W)).trans <| rfl
theorem B19_main_arg21 (c : Dev nD) : B19 m ρ c (Proc.devRef .tc main_arg21) = m ((c : Thread nD τ).loc main_arg21) :=
  (StableHlo.after_of_writes_sub hostOps6 _ hostOps6_writes (by decide : main_arg21 ∉ hostOps6_W)).trans <|
  (B18_of_ne m ρ c main_arg21 (by decide)).trans <|
  (StableHlo.after_of_writes_sub hostOps5 _ hostOps5_writes (by decide : main_arg21 ∉ hostOps5_W)).trans <|
  (B16_of_ne m ρ c main_arg21 (by decide)).trans <|
  (StableHlo.after_of_writes_sub hostOps4 _ hostOps4_writes (by decide : main_arg21 ∉ hostOps4_W)).trans <|
  (B14_of_ne m ρ c main_arg21 (by decide)).trans <|
  (StableHlo.after_of_writes_sub hostOps3 _ hostOps3_writes (by decide : main_arg21 ∉ hostOps3_W)).trans <|
  (B12_of_ne m ρ c main_arg21 (by decide)).trans <|
  (StableHlo.after_of_writes_sub hostOps2 _ hostOps2_writes (by decide : main_arg21 ∉ hostOps2_W)).trans <|
  (B10_of_ne m ρ c main_arg21 (by decide)).trans <|
  (StableHlo.after_of_writes_sub hostOps1_6 _ hostOps1_6_writes (by decide : main_arg21 ∉ hostOps1_6_W)).trans <|
  (StableHlo.after_of_writes_sub hostOps1_5 _ hostOps1_5_writes (by decide : main_arg21 ∉ hostOps1_5_W)).trans <|
  (StableHlo.after_of_writes_sub hostOps1_4 _ hostOps1_4_writes (by decide : main_arg21 ∉ hostOps1_4_W)).trans <|
  (StableHlo.after_of_writes_sub hostOps1_3 _ hostOps1_3_writes (by decide : main_arg21 ∉ hostOps1_3_W)).trans <|
  (StableHlo.after_of_writes_sub hostOps1_2 _ hostOps1_2_writes (by decide : main_arg21 ∉ hostOps1_2_W)).trans <|
  (StableHlo.after_of_writes_sub hostOps1_1 _ hostOps1_1_writes (by decide : main_arg21 ∉ hostOps1_1_W)).trans <|
  (StableHlo.after_of_writes_sub hostOps1 _ hostOps1_writes (by decide : main_arg21 ∉ hostOps1_W)).trans <|
  (B2_of_ne m ρ c main_arg21 (by decide)).trans <|
  (StableHlo.after_of_writes_sub hostOps0 _ hostOps0_writes (by decide : main_arg21 ∉ hostOps0_W)).trans <| rfl
theorem B19_main_arg22 (c : Dev nD) : B19 m ρ c (Proc.devRef .tc main_arg22) = m ((c : Thread nD τ).loc main_arg22) :=
  (StableHlo.after_of_writes_sub hostOps6 _ hostOps6_writes (by decide : main_arg22 ∉ hostOps6_W)).trans <|
  (B18_of_ne m ρ c main_arg22 (by decide)).trans <|
  (StableHlo.after_of_writes_sub hostOps5 _ hostOps5_writes (by decide : main_arg22 ∉ hostOps5_W)).trans <|
  (B16_of_ne m ρ c main_arg22 (by decide)).trans <|
  (StableHlo.after_of_writes_sub hostOps4 _ hostOps4_writes (by decide : main_arg22 ∉ hostOps4_W)).trans <|
  (B14_of_ne m ρ c main_arg22 (by decide)).trans <|
  (StableHlo.after_of_writes_sub hostOps3 _ hostOps3_writes (by decide : main_arg22 ∉ hostOps3_W)).trans <|
  (B12_of_ne m ρ c main_arg22 (by decide)).trans <|
  (StableHlo.after_of_writes_sub hostOps2 _ hostOps2_writes (by decide : main_arg22 ∉ hostOps2_W)).trans <|
  (B10_of_ne m ρ c main_arg22 (by decide)).trans <|
  (StableHlo.after_of_writes_sub hostOps1_6 _ hostOps1_6_writes (by decide : main_arg22 ∉ hostOps1_6_W)).trans <|
  (StableHlo.after_of_writes_sub hostOps1_5 _ hostOps1_5_writes (by decide : main_arg22 ∉ hostOps1_5_W)).trans <|
  (StableHlo.after_of_writes_sub hostOps1_4 _ hostOps1_4_writes (by decide : main_arg22 ∉ hostOps1_4_W)).trans <|
  (StableHlo.after_of_writes_sub hostOps1_3 _ hostOps1_3_writes (by decide : main_arg22 ∉ hostOps1_3_W)).trans <|
  (StableHlo.after_of_writes_sub hostOps1_2 _ hostOps1_2_writes (by decide : main_arg22 ∉ hostOps1_2_W)).trans <|
  (StableHlo.after_of_writes_sub hostOps1_1 _ hostOps1_1_writes (by decide : main_arg22 ∉ hostOps1_1_W)).trans <|
  (StableHlo.after_of_writes_sub hostOps1 _ hostOps1_writes (by decide : main_arg22 ∉ hostOps1_W)).trans <|
  (B2_of_ne m ρ c main_arg22 (by decide)).trans <|
  (StableHlo.after_of_writes_sub hostOps0 _ hostOps0_writes (by decide : main_arg22 ∉ hostOps0_W)).trans <| rfl
theorem B19_main_arg23 (c : Dev nD) : B19 m ρ c (Proc.devRef .tc main_arg23) = m ((c : Thread nD τ).loc main_arg23) :=
  (StableHlo.after_of_writes_sub hostOps6 _ hostOps6_writes (by decide : main_arg23 ∉ hostOps6_W)).trans <|
  (B18_of_ne m ρ c main_arg23 (by decide)).trans <|
  (StableHlo.after_of_writes_sub hostOps5 _ hostOps5_writes (by decide : main_arg23 ∉ hostOps5_W)).trans <|
  (B16_of_ne m ρ c main_arg23 (by decide)).trans <|
  (StableHlo.after_of_writes_sub hostOps4 _ hostOps4_writes (by decide : main_arg23 ∉ hostOps4_W)).trans <|
  (B14_of_ne m ρ c main_arg23 (by decide)).trans <|
  (StableHlo.after_of_writes_sub hostOps3 _ hostOps3_writes (by decide : main_arg23 ∉ hostOps3_W)).trans <|
  (B12_of_ne m ρ c main_arg23 (by decide)).trans <|
  (StableHlo.after_of_writes_sub hostOps2 _ hostOps2_writes (by decide : main_arg23 ∉ hostOps2_W)).trans <|
  (B10_of_ne m ρ c main_arg23 (by decide)).trans <|
  (StableHlo.after_of_writes_sub hostOps1_6 _ hostOps1_6_writes (by decide : main_arg23 ∉ hostOps1_6_W)).trans <|
  (StableHlo.after_of_writes_sub hostOps1_5 _ hostOps1_5_writes (by decide : main_arg23 ∉ hostOps1_5_W)).trans <|
  (StableHlo.after_of_writes_sub hostOps1_4 _ hostOps1_4_writes (by decide : main_arg23 ∉ hostOps1_4_W)).trans <|
  (StableHlo.after_of_writes_sub hostOps1_3 _ hostOps1_3_writes (by decide : main_arg23 ∉ hostOps1_3_W)).trans <|
  (StableHlo.after_of_writes_sub hostOps1_2 _ hostOps1_2_writes (by decide : main_arg23 ∉ hostOps1_2_W)).trans <|
  (StableHlo.after_of_writes_sub hostOps1_1 _ hostOps1_1_writes (by decide : main_arg23 ∉ hostOps1_1_W)).trans <|
  (StableHlo.after_of_writes_sub hostOps1 _ hostOps1_writes (by decide : main_arg23 ∉ hostOps1_W)).trans <|
  (B2_of_ne m ρ c main_arg23 (by decide)).trans <|
  (StableHlo.after_of_writes_sub hostOps0 _ hostOps0_writes (by decide : main_arg23 ∉ hostOps0_W)).trans <| rfl
theorem B19_main_arg24 (c : Dev nD) : B19 m ρ c (Proc.devRef .tc main_arg24) = m ((c : Thread nD τ).loc main_arg24) :=
  (StableHlo.after_of_writes_sub hostOps6 _ hostOps6_writes (by decide : main_arg24 ∉ hostOps6_W)).trans <|
  (B18_of_ne m ρ c main_arg24 (by decide)).trans <|
  (StableHlo.after_of_writes_sub hostOps5 _ hostOps5_writes (by decide : main_arg24 ∉ hostOps5_W)).trans <|
  (B16_of_ne m ρ c main_arg24 (by decide)).trans <|
  (StableHlo.after_of_writes_sub hostOps4 _ hostOps4_writes (by decide : main_arg24 ∉ hostOps4_W)).trans <|
  (B14_of_ne m ρ c main_arg24 (by decide)).trans <|
  (StableHlo.after_of_writes_sub hostOps3 _ hostOps3_writes (by decide : main_arg24 ∉ hostOps3_W)).trans <|
  (B12_of_ne m ρ c main_arg24 (by decide)).trans <|
  (StableHlo.after_of_writes_sub hostOps2 _ hostOps2_writes (by decide : main_arg24 ∉ hostOps2_W)).trans <|
  (B10_of_ne m ρ c main_arg24 (by decide)).trans <|
  (StableHlo.after_of_writes_sub hostOps1_6 _ hostOps1_6_writes (by decide : main_arg24 ∉ hostOps1_6_W)).trans <|
  (StableHlo.after_of_writes_sub hostOps1_5 _ hostOps1_5_writes (by decide : main_arg24 ∉ hostOps1_5_W)).trans <|
  (StableHlo.after_of_writes_sub hostOps1_4 _ hostOps1_4_writes (by decide : main_arg24 ∉ hostOps1_4_W)).trans <|
  (StableHlo.after_of_writes_sub hostOps1_3 _ hostOps1_3_writes (by decide : main_arg24 ∉ hostOps1_3_W)).trans <|
  (StableHlo.after_of_writes_sub hostOps1_2 _ hostOps1_2_writes (by decide : main_arg24 ∉ hostOps1_2_W)).trans <|
  (StableHlo.after_of_writes_sub hostOps1_1 _ hostOps1_1_writes (by decide : main_arg24 ∉ hostOps1_1_W)).trans <|
  (StableHlo.after_of_writes_sub hostOps1 _ hostOps1_writes (by decide : main_arg24 ∉ hostOps1_W)).trans <|
  (B2_of_ne m ρ c main_arg24 (by decide)).trans <|
  (StableHlo.after_of_writes_sub hostOps0 _ hostOps0_writes (by decide : main_arg24 ∉ hostOps0_W)).trans <| rfl
theorem B19_main_arg25 (c : Dev nD) : B19 m ρ c (Proc.devRef .tc main_arg25) = m ((c : Thread nD τ).loc main_arg25) :=
  (StableHlo.after_of_writes_sub hostOps6 _ hostOps6_writes (by decide : main_arg25 ∉ hostOps6_W)).trans <|
  (B18_of_ne m ρ c main_arg25 (by decide)).trans <|
  (StableHlo.after_of_writes_sub hostOps5 _ hostOps5_writes (by decide : main_arg25 ∉ hostOps5_W)).trans <|
  (B16_of_ne m ρ c main_arg25 (by decide)).trans <|
  (StableHlo.after_of_writes_sub hostOps4 _ hostOps4_writes (by decide : main_arg25 ∉ hostOps4_W)).trans <|
  (B14_of_ne m ρ c main_arg25 (by decide)).trans <|
  (StableHlo.after_of_writes_sub hostOps3 _ hostOps3_writes (by decide : main_arg25 ∉ hostOps3_W)).trans <|
  (B12_of_ne m ρ c main_arg25 (by decide)).trans <|
  (StableHlo.after_of_writes_sub hostOps2 _ hostOps2_writes (by decide : main_arg25 ∉ hostOps2_W)).trans <|
  (B10_of_ne m ρ c main_arg25 (by decide)).trans <|
  (StableHlo.after_of_writes_sub hostOps1_6 _ hostOps1_6_writes (by decide : main_arg25 ∉ hostOps1_6_W)).trans <|
  (StableHlo.after_of_writes_sub hostOps1_5 _ hostOps1_5_writes (by decide : main_arg25 ∉ hostOps1_5_W)).trans <|
  (StableHlo.after_of_writes_sub hostOps1_4 _ hostOps1_4_writes (by decide : main_arg25 ∉ hostOps1_4_W)).trans <|
  (StableHlo.after_of_writes_sub hostOps1_3 _ hostOps1_3_writes (by decide : main_arg25 ∉ hostOps1_3_W)).trans <|
  (StableHlo.after_of_writes_sub hostOps1_2 _ hostOps1_2_writes (by decide : main_arg25 ∉ hostOps1_2_W)).trans <|
  (StableHlo.after_of_writes_sub hostOps1_1 _ hostOps1_1_writes (by decide : main_arg25 ∉ hostOps1_1_W)).trans <|
  (StableHlo.after_of_writes_sub hostOps1 _ hostOps1_writes (by decide : main_arg25 ∉ hostOps1_W)).trans <|
  (B2_of_ne m ρ c main_arg25 (by decide)).trans <|
  (StableHlo.after_of_writes_sub hostOps0 _ hostOps0_writes (by decide : main_arg25 ∉ hostOps0_W)).trans <| rfl
theorem B19_main_arg26 (c : Dev nD) : B19 m ρ c (Proc.devRef .tc main_arg26) = m ((c : Thread nD τ).loc main_arg26) :=
  (StableHlo.after_of_writes_sub hostOps6 _ hostOps6_writes (by decide : main_arg26 ∉ hostOps6_W)).trans <|
  (B18_of_ne m ρ c main_arg26 (by decide)).trans <|
  (StableHlo.after_of_writes_sub hostOps5 _ hostOps5_writes (by decide : main_arg26 ∉ hostOps5_W)).trans <|
  (B16_of_ne m ρ c main_arg26 (by decide)).trans <|
  (StableHlo.after_of_writes_sub hostOps4 _ hostOps4_writes (by decide : main_arg26 ∉ hostOps4_W)).trans <|
  (B14_of_ne m ρ c main_arg26 (by decide)).trans <|
  (StableHlo.after_of_writes_sub hostOps3 _ hostOps3_writes (by decide : main_arg26 ∉ hostOps3_W)).trans <|
  (B12_of_ne m ρ c main_arg26 (by decide)).trans <|
  (StableHlo.after_of_writes_sub hostOps2 _ hostOps2_writes (by decide : main_arg26 ∉ hostOps2_W)).trans <|
  (B10_of_ne m ρ c main_arg26 (by decide)).trans <|
  (StableHlo.after_of_writes_sub hostOps1_6 _ hostOps1_6_writes (by decide : main_arg26 ∉ hostOps1_6_W)).trans <|
  (StableHlo.after_of_writes_sub hostOps1_5 _ hostOps1_5_writes (by decide : main_arg26 ∉ hostOps1_5_W)).trans <|
  (StableHlo.after_of_writes_sub hostOps1_4 _ hostOps1_4_writes (by decide : main_arg26 ∉ hostOps1_4_W)).trans <|
  (StableHlo.after_of_writes_sub hostOps1_3 _ hostOps1_3_writes (by decide : main_arg26 ∉ hostOps1_3_W)).trans <|
  (StableHlo.after_of_writes_sub hostOps1_2 _ hostOps1_2_writes (by decide : main_arg26 ∉ hostOps1_2_W)).trans <|
  (StableHlo.after_of_writes_sub hostOps1_1 _ hostOps1_1_writes (by decide : main_arg26 ∉ hostOps1_1_W)).trans <|
  (StableHlo.after_of_writes_sub hostOps1 _ hostOps1_writes (by decide : main_arg26 ∉ hostOps1_W)).trans <|
  (B2_of_ne m ρ c main_arg26 (by decide)).trans <|
  (StableHlo.after_of_writes_sub hostOps0 _ hostOps0_writes (by decide : main_arg26 ∉ hostOps0_W)).trans <| rfl
theorem B19_main_arg27 (c : Dev nD) : B19 m ρ c (Proc.devRef .tc main_arg27) = m ((c : Thread nD τ).loc main_arg27) :=
  (StableHlo.after_of_writes_sub hostOps6 _ hostOps6_writes (by decide : main_arg27 ∉ hostOps6_W)).trans <|
  (B18_of_ne m ρ c main_arg27 (by decide)).trans <|
  (StableHlo.after_of_writes_sub hostOps5 _ hostOps5_writes (by decide : main_arg27 ∉ hostOps5_W)).trans <|
  (B16_of_ne m ρ c main_arg27 (by decide)).trans <|
  (StableHlo.after_of_writes_sub hostOps4 _ hostOps4_writes (by decide : main_arg27 ∉ hostOps4_W)).trans <|
  (B14_of_ne m ρ c main_arg27 (by decide)).trans <|
  (StableHlo.after_of_writes_sub hostOps3 _ hostOps3_writes (by decide : main_arg27 ∉ hostOps3_W)).trans <|
  (B12_of_ne m ρ c main_arg27 (by decide)).trans <|
  (StableHlo.after_of_writes_sub hostOps2 _ hostOps2_writes (by decide : main_arg27 ∉ hostOps2_W)).trans <|
  (B10_of_ne m ρ c main_arg27 (by decide)).trans <|
  (StableHlo.after_of_writes_sub hostOps1_6 _ hostOps1_6_writes (by decide : main_arg27 ∉ hostOps1_6_W)).trans <|
  (StableHlo.after_of_writes_sub hostOps1_5 _ hostOps1_5_writes (by decide : main_arg27 ∉ hostOps1_5_W)).trans <|
  (StableHlo.after_of_writes_sub hostOps1_4 _ hostOps1_4_writes (by decide : main_arg27 ∉ hostOps1_4_W)).trans <|
  (StableHlo.after_of_writes_sub hostOps1_3 _ hostOps1_3_writes (by decide : main_arg27 ∉ hostOps1_3_W)).trans <|
  (StableHlo.after_of_writes_sub hostOps1_2 _ hostOps1_2_writes (by decide : main_arg27 ∉ hostOps1_2_W)).trans <|
  (StableHlo.after_of_writes_sub hostOps1_1 _ hostOps1_1_writes (by decide : main_arg27 ∉ hostOps1_1_W)).trans <|
  (StableHlo.after_of_writes_sub hostOps1 _ hostOps1_writes (by decide : main_arg27 ∉ hostOps1_W)).trans <|
  (B2_of_ne m ρ c main_arg27 (by decide)).trans <|
  (StableHlo.after_of_writes_sub hostOps0 _ hostOps0_writes (by decide : main_arg27 ∉ hostOps0_W)).trans <| rfl
theorem B19_main_arg28 (c : Dev nD) : B19 m ρ c (Proc.devRef .tc main_arg28) = m ((c : Thread nD τ).loc main_arg28) :=
  (StableHlo.after_of_writes_sub hostOps6 _ hostOps6_writes (by decide : main_arg28 ∉ hostOps6_W)).trans <|
  (B18_of_ne m ρ c main_arg28 (by decide)).trans <|
  (StableHlo.after_of_writes_sub hostOps5 _ hostOps5_writes (by decide : main_arg28 ∉ hostOps5_W)).trans <|
  (B16_of_ne m ρ c main_arg28 (by decide)).trans <|
  (StableHlo.after_of_writes_sub hostOps4 _ hostOps4_writes (by decide : main_arg28 ∉ hostOps4_W)).trans <|
  (B14_of_ne m ρ c main_arg28 (by decide)).trans <|
  (StableHlo.after_of_writes_sub hostOps3 _ hostOps3_writes (by decide : main_arg28 ∉ hostOps3_W)).trans <|
  (B12_of_ne m ρ c main_arg28 (by decide)).trans <|
  (StableHlo.after_of_writes_sub hostOps2 _ hostOps2_writes (by decide : main_arg28 ∉ hostOps2_W)).trans <|
  (B10_of_ne m ρ c main_arg28 (by decide)).trans <|
  (StableHlo.after_of_writes_sub hostOps1_6 _ hostOps1_6_writes (by decide : main_arg28 ∉ hostOps1_6_W)).trans <|
  (StableHlo.after_of_writes_sub hostOps1_5 _ hostOps1_5_writes (by decide : main_arg28 ∉ hostOps1_5_W)).trans <|
  (StableHlo.after_of_writes_sub hostOps1_4 _ hostOps1_4_writes (by decide : main_arg28 ∉ hostOps1_4_W)).trans <|
  (StableHlo.after_of_writes_sub hostOps1_3 _ hostOps1_3_writes (by decide : main_arg28 ∉ hostOps1_3_W)).trans <|
  (StableHlo.after_of_writes_sub hostOps1_2 _ hostOps1_2_writes (by decide : main_arg28 ∉ hostOps1_2_W)).trans <|
  (StableHlo.after_of_writes_sub hostOps1_1 _ hostOps1_1_writes (by decide : main_arg28 ∉ hostOps1_1_W)).trans <|
  (StableHlo.after_of_writes_sub hostOps1 _ hostOps1_writes (by decide : main_arg28 ∉ hostOps1_W)).trans <|
  (B2_of_ne m ρ c main_arg28 (by decide)).trans <|
  (StableHlo.after_of_writes_sub hostOps0 _ hostOps0_writes (by decide : main_arg28 ∉ hostOps0_W)).trans <| rfl
theorem B19_main_arg29 (c : Dev nD) : B19 m ρ c (Proc.devRef .tc main_arg29) = m ((c : Thread nD τ).loc main_arg29) :=
  (StableHlo.after_of_writes_sub hostOps6 _ hostOps6_writes (by decide : main_arg29 ∉ hostOps6_W)).trans <|
  (B18_of_ne m ρ c main_arg29 (by decide)).trans <|
  (StableHlo.after_of_writes_sub hostOps5 _ hostOps5_writes (by decide : main_arg29 ∉ hostOps5_W)).trans <|
  (B16_of_ne m ρ c main_arg29 (by decide)).trans <|
  (StableHlo.after_of_writes_sub hostOps4 _ hostOps4_writes (by decide : main_arg29 ∉ hostOps4_W)).trans <|
  (B14_of_ne m ρ c main_arg29 (by decide)).trans <|
  (StableHlo.after_of_writes_sub hostOps3 _ hostOps3_writes (by decide : main_arg29 ∉ hostOps3_W)).trans <|
  (B12_of_ne m ρ c main_arg29 (by decide)).trans <|
  (StableHlo.after_of_writes_sub hostOps2 _ hostOps2_writes (by decide : main_arg29 ∉ hostOps2_W)).trans <|
  (B10_of_ne m ρ c main_arg29 (by decide)).trans <|
  (StableHlo.after_of_writes_sub hostOps1_6 _ hostOps1_6_writes (by decide : main_arg29 ∉ hostOps1_6_W)).trans <|
  (StableHlo.after_of_writes_sub hostOps1_5 _ hostOps1_5_writes (by decide : main_arg29 ∉ hostOps1_5_W)).trans <|
  (StableHlo.after_of_writes_sub hostOps1_4 _ hostOps1_4_writes (by decide : main_arg29 ∉ hostOps1_4_W)).trans <|
  (StableHlo.after_of_writes_sub hostOps1_3 _ hostOps1_3_writes (by decide : main_arg29 ∉ hostOps1_3_W)).trans <|
  (StableHlo.after_of_writes_sub hostOps1_2 _ hostOps1_2_writes (by decide : main_arg29 ∉ hostOps1_2_W)).trans <|
  (StableHlo.after_of_writes_sub hostOps1_1 _ hostOps1_1_writes (by decide : main_arg29 ∉ hostOps1_1_W)).trans <|
  (StableHlo.after_of_writes_sub hostOps1 _ hostOps1_writes (by decide : main_arg29 ∉ hostOps1_W)).trans <|
  (B2_of_ne m ρ c main_arg29 (by decide)).trans <|
  (StableHlo.after_of_writes_sub hostOps0 _ hostOps0_writes (by decide : main_arg29 ∉ hostOps0_W)).trans <| rfl

/-! ## The proof data family and the thread state -/

/-- No pipeline has a prefetched table. -/
abbrev adm' : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm' p) c
  | ⟨0, _⟩ => fun c => dat0 (T1 m ρ) c
  | ⟨1, _⟩ => fun c => dat1 (T9 m ρ) c
  | ⟨2, _⟩ => fun c => dat2 (T11 m ρ) c
  | ⟨3, _⟩ => fun c => dat3 (T13 m ρ) c
  | ⟨4, _⟩ => fun c => dat4 (T15 m ρ) c
  | ⟨5, _⟩ => fun c => dat5 (T17 m ρ) c
abbrev 𝒱₀' : Variants := Variants.none
/-- No core owes another anything: no level is assigned. -/
abbrev L' : GSem nD τ sig → Finset Unit := fun _ => ∅
abbrev lv' : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tend (c : Dev nD) : sProp 𝕄 := iprop(StableHlo.held (c : Thread nD τ) (Pipeline.ucRefs τ sig) (B19 m ρ c) ∗ ∃ r, prngReg c r)

/-- What the launch hands a region is its invariant before the first point, and after the last point the invariant
    gives that back. -/
theorem hin0 (c : Dev nD) : Pipeline.ΦA spec0 c ⊢ (dat0 (T1 m ρ) c).Φ 0 := by
  rw [show (dat0 (T1 m ρ) c).Φ 0 = Pipeline.ΦA spec0 c from rfl]
theorem hout0 (c : Dev nD) : (dat0 (T1 m ρ) c).Φ (Fin.last cfg0.N) ⊢ Pipeline.ΦA spec0 c := by
  rw [show (dat0 (T1 m ρ) c).Φ (Fin.last cfg0.N) = Pipeline.ΦA spec0 c from rfl]
theorem hin2 (c : Dev nD) : Pipeline.ΦA spec2 c ⊢ (dat2 (T11 m ρ) c).Φ 0 := by
  rw [show (dat2 (T11 m ρ) c).Φ 0 = Pipeline.ΦA spec2 c from rfl]
theorem hout2 (c : Dev nD) : (dat2 (T11 m ρ) c).Φ (Fin.last cfg2.N) ⊢ Pipeline.ΦA spec2 c := by
  rw [show (dat2 (T11 m ρ) c).Φ (Fin.last cfg2.N) = Pipeline.ΦA spec2 c from rfl]
theorem hin3 (c : Dev nD) : Pipeline.ΦA spec3 c ⊢ (dat3 (T13 m ρ) c).Φ 0 := by
  rw [show (dat3 (T13 m ρ) c).Φ 0 = Pipeline.ΦA spec3 c from rfl]
theorem hout3 (c : Dev nD) : (dat3 (T13 m ρ) c).Φ (Fin.last cfg3.N) ⊢ Pipeline.ΦA spec3 c := by
  rw [show (dat3 (T13 m ρ) c).Φ (Fin.last cfg3.N) = Pipeline.ΦA spec3 c from rfl]
theorem hin4 (c : Dev nD) : Pipeline.ΦA spec4 c ⊢ (dat4 (T15 m ρ) c).Φ 0 := by
  rw [show (dat4 (T15 m ρ) c).Φ 0 = Pipeline.ΦA spec4 c from rfl]
theorem hout4 (c : Dev nD) : (dat4 (T15 m ρ) c).Φ (Fin.last cfg4.N) ⊢ Pipeline.ΦA spec4 c := by
  rw [show (dat4 (T15 m ρ) c).Φ (Fin.last cfg4.N) = Pipeline.ΦA spec4 c from rfl]
theorem hin5 (c : Dev nD) : Pipeline.ΦA spec5 c ⊢ (dat5 (T17 m ρ) c).Φ 0 := by
  rw [show (dat5 (T17 m ρ) c).Φ 0 = Pipeline.ΦA spec5 c from rfl]
theorem hout5 (c : Dev nD) : (dat5 (T17 m ρ) c).Φ (Fin.last cfg5.N) ⊢ Pipeline.ΦA spec5 c := by
  rw [show (dat5 (T17 m ρ) c).Φ (Fin.last cfg5.N) = Pipeline.ΦA spec5 c from rfl]

/-! ## The regions as segments -/

set_option backward.isDefEq.respectTransparency.types false in
/-- LAYER 0's region over the thread state: entered from every unscoped buffer at boundary 1, left at boundary 2. -/
def reg0 : Pipeline.RegionSeg (pcfgs (F := F)) adm' (pdats m ρ) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ L' lv' 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (T1 m ρ) c).Φ 0 from rfl]
    have hΦ := (hin0 m ρ c)
    iintro ⟨Hp, -, Hr⟩
    iapply hΦ
    unfold Pipeline.ΦA
    isplitl [Hr]; · iexact Hr
    iexact Hp
  hout c := by
    rw [Pipeline.ownSems0_none, show (pdats m ρ 0 c).Φ (Fin.last _) = (dat0 (T1 m ρ) c).Φ (Fin.last cfg0.N) from rfl]
    have hΦ := (hout0 m ρ c)
    iintro H
    ihave H' := hΦ $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (T1 m ρ c) (T2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 1's region over the thread state: entered from every unscoped buffer at boundary 9, left at boundary 10. -/
def reg1 : Pipeline.RegionSeg (pcfgs (F := F)) adm' (pdats m ρ) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (T9 m ρ) c).loose
  hwaits := Pipeline.hwaits_of_owed_zero _ _ _ _ L' lv' 1 fun _ _ => rfl
  pre c := iprop(StableHlo.held (c : Thread nD τ) (Pipeline.ucRefs τ sig) (B9 m ρ c) ∗ R c)
  post c := iprop(StableHlo.held (c : Thread nD τ) (Pipeline.ucRefs τ sig) (B10 m ρ c) ∗ R c)
  X c := iprop(∃ r, prngReg c r)
  Y c := iprop(∃ r, prngReg c r)
  Z c := Pipeline.unscopedRest (Ix := Unit) (Name := ℕ) (U := UR sig nD τ) (Lvl := ℕ) spec1 c (T9 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (T9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (T9 m ρ) c).Φ 0 from rfl]
    have hΦ := (hin1 (T9 m ρ) c)
    iintro ⟨Hp, -, Hr⟩
    iapply hΦ
    unfold Pipeline.ΦA
    isplitl [Hr]; · iexact Hr
    iexact Hp
  hout c := by
    rw [Pipeline.ownSems0_none, show (pdats m ρ 1 c).Φ (Fin.last _) = (dat1 (T9 m ρ) c).Φ (Fin.last cfg1.N) from rfl]
    have hΦ := (hout1 (T9 m ρ) c)
    iintro H
    ihave H' := hΦ $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (T9 m ρ c) (T10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 2's region over the thread state: entered from every unscoped buffer at boundary 11, left at boundary 12. -/
def reg2 : Pipeline.RegionSeg (pcfgs (F := F)) adm' (pdats m ρ) () defs₀ 𝒱₀' L' lv' 2 where
  win := launch2.win.to₀
  block_pos := launch2.block_pos
  stage_whole := launch2.stage_whole
  K := PEmpty
  osem k := k.elim
  ho := Pipeline.OwnSemFacts.none _
  hbody c := (body_obligation2 (T11 m ρ) c).loose
  hwaits := Pipeline.hwaits_of_owed_zero _ _ _ _ L' lv' 2 fun _ _ => rfl
  pre c := iprop(StableHlo.held (c : Thread nD τ) (Pipeline.ucRefs τ sig) (B11 m ρ c) ∗ R c)
  post c := iprop(StableHlo.held (c : Thread nD τ) (Pipeline.ucRefs τ sig) (B12 m ρ c) ∗ R c)
  X c := iprop(∃ r, prngReg c r)
  Y c := iprop(∃ r, prngReg c r)
  Z c := Pipeline.unscopedRest (Ix := Unit) (Name := ℕ) (U := UR sig nD τ) (Lvl := ℕ) spec2 c (T11 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (T11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (T11 m ρ) c).Φ 0 from rfl]
    have hΦ := (hin2 m ρ c)
    iintro ⟨Hp, -, Hr⟩
    iapply hΦ
    unfold Pipeline.ΦA
    isplitl [Hr]; · iexact Hr
    iexact Hp
  hout c := by
    rw [Pipeline.ownSems0_none, show (pdats m ρ 2 c).Φ (Fin.last _) = (dat2 (T11 m ρ) c).Φ (Fin.last cfg2.N) from rfl]
    have hΦ := (hout2 m ρ c)
    iintro H
    ihave H' := hΦ $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (T11 m ρ c) (T12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 3's region over the thread state: entered from every unscoped buffer at boundary 13, left at boundary 14. -/
def reg3 : Pipeline.RegionSeg (pcfgs (F := F)) adm' (pdats m ρ) () defs₀ 𝒱₀' L' lv' 3 where
  win := launch3.win.to₀
  block_pos := launch3.block_pos
  stage_whole := launch3.stage_whole
  K := PEmpty
  osem k := k.elim
  ho := Pipeline.OwnSemFacts.none _
  hbody c := (body_obligation3 (T13 m ρ) c).loose
  hwaits := Pipeline.hwaits_of_owed_zero _ _ _ _ L' lv' 3 fun _ _ => rfl
  pre c := iprop(StableHlo.held (c : Thread nD τ) (Pipeline.ucRefs τ sig) (B13 m ρ c) ∗ R c)
  post c := iprop(StableHlo.held (c : Thread nD τ) (Pipeline.ucRefs τ sig) (B14 m ρ c) ∗ R c)
  X c := iprop(∃ r, prngReg c r)
  Y c := iprop(∃ r, prngReg c r)
  Z c := Pipeline.unscopedRest (Ix := Unit) (Name := ℕ) (U := UR sig nD τ) (Lvl := ℕ) spec3 c (T13 m ρ c)
  hentry c := by
    rw [Pipeline.ownSems0_none]
    have hsplit := Pipeline.arrays_of_unscopedBufs (p := 3) (pcfgs (F := F)) adm' (pdats m ρ) launch3.win launch3.arr_whole c
      ((pdats m ρ 3 c).share_full fun _ => rfl) (T13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (T13 m ρ) c).Φ 0 from rfl]
    have hΦ := (hin3 m ρ c)
    iintro ⟨Hp, -, Hr⟩
    iapply hΦ
    unfold Pipeline.ΦA
    isplitl [Hr]; · iexact Hr
    iexact Hp
  hout c := by
    rw [Pipeline.ownSems0_none, show (pdats m ρ 3 c).Φ (Fin.last _) = (dat3 (T13 m ρ) c).Φ (Fin.last cfg3.N) from rfl]
    have hΦ := (hout3 m ρ c)
    iintro H
    ihave H' := hΦ $$ H
    unfold Pipeline.ΦA
    icases H' with ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m ρ) ((pdats m ρ 3 c).share_full fun _ => rfl)
      (T13 m ρ c) (T14 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 4's region over the thread state: entered from every unscoped buffer at boundary 15, left at boundary 16. -/
def reg4 : Pipeline.RegionSeg (pcfgs (F := F)) adm' (pdats m ρ) () defs₀ 𝒱₀' L' lv' 4 where
  win := launch4.win.to₀
  block_pos := launch4.block_pos
  stage_whole := launch4.stage_whole
  K := PEmpty
  osem k := k.elim
  ho := Pipeline.OwnSemFacts.none _
  hbody c := (body_obligation4 (T15 m ρ) c).loose
  hwaits := Pipeline.hwaits_of_owed_zero _ _ _ _ L' lv' 4 fun _ _ => rfl
  pre c := iprop(StableHlo.held (c : Thread nD τ) (Pipeline.ucRefs τ sig) (B15 m ρ c) ∗ R c)
  post c := iprop(StableHlo.held (c : Thread nD τ) (Pipeline.ucRefs τ sig) (B16 m ρ c) ∗ R c)
  X c := iprop(∃ r, prngReg c r)
  Y c := iprop(∃ r, prngReg c r)
  Z c := Pipeline.unscopedRest (Ix := Unit) (Name := ℕ) (U := UR sig nD τ) (Lvl := ℕ) spec4 c (T15 m ρ c)
  hentry c := by
    rw [Pipeline.ownSems0_none]
    have hsplit := Pipeline.arrays_of_unscopedBufs (p := 4) (pcfgs (F := F)) adm' (pdats m ρ) launch4.win launch4.arr_whole c
      ((pdats m ρ 4 c).share_full fun _ => rfl) (T15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (T15 m ρ) c).Φ 0 from rfl]
    have hΦ := (hin4 m ρ c)
    iintro ⟨Hp, -, Hr⟩
    iapply hΦ
    unfold Pipeline.ΦA
    isplitl [Hr]; · iexact Hr
    iexact Hp
  hout c := by
    rw [Pipeline.ownSems0_none, show (pdats m ρ 4 c).Φ (Fin.last _) = (dat4 (T15 m ρ) c).Φ (Fin.last cfg4.N) from rfl]
    have hΦ := (hout4 m ρ c)
    iintro H
    ihave H' := hΦ $$ H
    unfold Pipeline.ΦA
    icases H' with ⟨Hr, Hp⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (pdats m ρ) ((pdats m ρ 4 c).share_full fun _ => rfl)
      (T15 m ρ c) (T16 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 5's region over the thread state: entered from every unscoped buffer at boundary 17, left at boundary 18. -/
def reg5 : Pipeline.RegionSeg (pcfgs (F := F)) adm' (pdats m ρ) () defs₀ 𝒱₀' L' lv' 5 where
  win := launch5.win.to₀
  block_pos := launch5.block_pos
  stage_whole := launch5.stage_whole
  K := PEmpty
  osem k := k.elim
  ho := Pipeline.OwnSemFacts.none _
  hbody c := (body_obligation5 (T17 m ρ) c).loose
  hwaits := Pipeline.hwaits_of_owed_zero _ _ _ _ L' lv' 5 fun _ _ => rfl
  pre c := iprop(StableHlo.held (c : Thread nD τ) (Pipeline.ucRefs τ sig) (B17 m ρ c) ∗ R c)
  post c := iprop(StableHlo.held (c : Thread nD τ) (Pipeline.ucRefs τ sig) (B18 m ρ c) ∗ R c)
  X c := iprop(∃ r, prngReg c r)
  Y c := iprop(∃ r, prngReg c r)
  Z c := Pipeline.unscopedRest (Ix := Unit) (Name := ℕ) (U := UR sig nD τ) (Lvl := ℕ) spec5 c (T17 m ρ c)
  hentry c := by
    rw [Pipeline.ownSems0_none]
    have hsplit := Pipeline.arrays_of_unscopedBufs (p := 5) (pcfgs (F := F)) adm' (pdats m ρ) launch5.win launch5.arr_whole c
      ((pdats m ρ 5 c).share_full fun _ => rfl) (T17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (T17 m ρ) c).Φ 0 from rfl]
    have hΦ := (hin5 m ρ c)
    iintro ⟨Hp, -, Hr⟩
    iapply hΦ
    unfold Pipeline.ΦA
    isplitl [Hr]; · iexact Hr
    iexact Hp
  hout c := by
    rw [Pipeline.ownSems0_none, show (pdats m ρ 5 c).Φ (Fin.last _) = (dat5 (T17 m ρ) c).Φ (Fin.last cfg5.N) from rfl]
    have hΦ := (hout5 m ρ c)
    iintro H
    ihave H' := hΦ $$ H
    unfold Pipeline.ΦA
    icases H' with ⟨Hr, Hp⟩
    isplitl [Hp]; · iexact Hp
    isplitr; · iempintro
    iexact Hr
  hexit c := by
    have hjoin := Pipeline.unscopedBufs_of_arrays (p := 5) (pcfgs (F := F)) adm' (Ix := Unit) (Name := ℕ) (U := UR sig nD τ) (Lvl := ℕ)
      launch5.win launch5.arr_whole c (pdats m ρ) ((pdats m ρ 5 c).share_full fun _ => rfl)
      (T17 m ρ c) (T18 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nineteen segments in order. -/
abbrev segs : List (Pipeline.Seg (pcfgs (F := F)) adm' (pdats m ρ) () defs₀ 𝒱₀' L' lv') :=
  [ .host (hseg hostOps0 hostOps0_sub hostOps0_fresh (B0 m ρ)),
    .region (reg0 m ρ),
    .host (hseg hostOps1 hostOps1_sub hostOps1_fresh (B2 m ρ)),
    .host (hseg hostOps1_1 hostOps1_1_sub hostOps1_1_fresh (B3 m ρ)),
    .host (hseg hostOps1_2 hostOps1_2_sub hostOps1_2_fresh (B4 m ρ)),
    .host (hseg hostOps1_3 hostOps1_3_sub hostOps1_3_fresh (B5 m ρ)),
    .host (hseg hostOps1_4 hostOps1_4_sub hostOps1_4_fresh (B6 m ρ)),
    .host (hseg hostOps1_5 hostOps1_5_sub hostOps1_5_fresh (B7 m ρ)),
    .host (hseg hostOps1_6 hostOps1_6_sub hostOps1_6_fresh (B8 m ρ)),
    .region (reg1 m ρ),
    .host (hseg hostOps2 hostOps2_sub hostOps2_fresh (B10 m ρ)),
    .region (reg2 m ρ),
    .host (hseg hostOps3 hostOps3_sub hostOps3_fresh (B12 m ρ)),
    .region (reg3 m ρ),
    .host (hseg hostOps4 hostOps4_sub hostOps4_fresh (B14 m ρ)),
    .region (reg4 m ρ),
    .host (hseg hostOps5 hostOps5_sub hostOps5_fresh (B16 m ρ)),
    .region (reg5 m ρ),
    .host (hseg hostOps6 hostOps6_sub hostOps6_fresh (B18 m ρ)) ]

/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B19 m ρ c b) :=
  Pipeline.θ_run_regions_kit (pcfgs (F := F)) adm' (pdats m ρ) () cellOf_inj emb₁ defs₀ 𝒱₀' L' lv' m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tend m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B19 m ρ c) ∗ R c) ⊢ _
      iintro ⟨Hh, Hp, HO⟩
      isplitl [Hh Hp]
      · isplitl [Hh]; · iexact Hh
        iexact Hp
      iexact HO⟩)
    (hinit := by
      refine Pipeline.initEach L' lv' fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B19 m ρ c b)
    (hfin := fun c s' => by
      iintro ⟨⟨Hh, -⟩, HSI⟩
      unfold StableHlo.held
      imodintro
      iapply (pointsTo_read_all (Pipeline.ucRefs τ sig) (fun b => (((c : Thread nD τ)).1, b)) (B19 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c =>
    ⟨(h c _ (mem_uc main_arg0 (by decide))).trans (B19_main_arg0 m ρ c),
     (h c _ (mem_uc main_arg1 (by decide))).trans (B19_main_arg1 m ρ c),
     (h c _ (mem_uc main_arg2 (by decide))).trans (B19_main_arg2 m ρ c),
     (h c _ (mem_uc main_arg3 (by decide))).trans (B19_main_arg3 m ρ c),
     (h c _ (mem_uc main_arg4 (by decide))).trans (B19_main_arg4 m ρ c),
     (h c _ (mem_uc main_arg5 (by decide))).trans (B19_main_arg5 m ρ c),
     (h c _ (mem_uc main_arg6 (by decide))).trans (B19_main_arg6 m ρ c),
     (h c _ (mem_uc main_arg7 (by decide))).trans (B19_main_arg7 m ρ c),
     (h c _ (mem_uc main_arg8 (by decide))).trans (B19_main_arg8 m ρ c),
     (h c _ (mem_uc main_arg9 (by decide))).trans (B19_main_arg9 m ρ c),
     (h c _ (mem_uc main_arg10 (by decide))).trans (B19_main_arg10 m ρ c),
     (h c _ (mem_uc main_arg11 (by decide))).trans (B19_main_arg11 m ρ c),
     (h c _ (mem_uc main_arg12 (by decide))).trans (B19_main_arg12 m ρ c),
     (h c _ (mem_uc main_arg13 (by decide))).trans (B19_main_arg13 m ρ c),
     (h c _ (mem_uc main_arg14 (by decide))).trans (B19_main_arg14 m ρ c),
     (h c _ (mem_uc main_arg15 (by decide))).trans (B19_main_arg15 m ρ c),
     (h c _ (mem_uc main_arg16 (by decide))).trans (B19_main_arg16 m ρ c),
     (h c _ (mem_uc main_arg17 (by decide))).trans (B19_main_arg17 m ρ c),
     (h c _ (mem_uc main_arg18 (by decide))).trans (B19_main_arg18 m ρ c),
     (h c _ (mem_uc main_arg19 (by decide))).trans (B19_main_arg19 m ρ c),
     (h c _ (mem_uc main_arg20 (by decide))).trans (B19_main_arg20 m ρ c),
     (h c _ (mem_uc main_arg21 (by decide))).trans (B19_main_arg21 m ρ c),
     (h c _ (mem_uc main_arg22 (by decide))).trans (B19_main_arg22 m ρ c),
     (h c _ (mem_uc main_arg23 (by decide))).trans (B19_main_arg23 m ρ c),
     (h c _ (mem_uc main_arg24 (by decide))).trans (B19_main_arg24 m ρ c),
     (h c _ (mem_uc main_arg25 (by decide))).trans (B19_main_arg25 m ρ c),
     (h c _ (mem_uc main_arg26 (by decide))).trans (B19_main_arg26 m ρ c),
     (h c _ (mem_uc main_arg27 (by decide))).trans (B19_main_arg27 m ρ c),
     (h c _ (mem_uc main_arg28 (by decide))).trans (B19_main_arg28 m ρ c),
     (h c _ (mem_uc main_arg29 (by decide))).trans (B19_main_arg29 m ρ c)⟩) (run_all m ρ)

end Cert.Kernel.Layers

end
-- ==== Proof.IdealDiag.lean ====
/- The diagonal layer as one pipelined region over batch tiles: at every grid point the three strided columns of the
   input are each scaled by their own weight row, the three products and the bias row are added, and tanh is applied;
   the result is stored over the whole output block (which the body reads once before overwriting it). -/
import proofs.«156066_j47502338294403_1_alg».proof.Proof.Gen.KernelIdeal.Launch
import proofs.«156066_j47502338294403_1_alg».proof.Proof.Gen.KernelIdeal.Skeleton
import proofs.«156066_j47502338294403_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole buffers: the seven inputs are read and handed back as they were; the output block, entered at
    anything, ends with the pieces the run finds. -/
noncomputable def diagRun (c : Dev nD) (i : grid0.Coords) (arg1 : Memref sig .tc .vmem S128x9229 .f32) (harg1 : arg1.IsWhole) (arg2 : Memref sig .tc .vmem S128x9229 .f32) (harg2 : arg2.IsWhole) (arg3 : Memref sig .tc .vmem S128x9229 .f32) (harg3 : arg3.IsWhole) (arg4 : Memref sig .tc .vmem S1x9229 .f32) (harg4 : arg4.IsWhole) (arg5 : Memref sig .tc .vmem S1x9229 .f32) (harg5 : arg5.IsWhole) (arg6 : Memref sig .tc .vmem S1x9229 .f32) (harg6 : arg6.IsWhole) (arg7 : Memref sig .tc .vmem S1x9229 .f32) (harg7 : arg7.IsWhole) (arg8 : Memref sig .tc .vmem S128x9229 .f32) (harg8 : arg8.IsWhole)
    (x0 : Vec F S128x9229 .f32) (x1 : Vec F S128x9229 .f32) (x2 : Vec F S128x9229 .f32) (x3 : Vec F S1x9229 .f32) (x4 : Vec F S1x9229 .f32) (x5 : Vec F S1x9229 .f32) (x6 : Vec F S1x9229 .f32) :
    { L7 : List (View.Piece (Elt F) S128x9229 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)) -∗ K ⟨⟩))
          ⊢ wp frame (wpE (defs₀ (F := F)) Variants.none c none) E (cc0__diag_kernel i arg1 harg1 arg2 harg2 arg3 harg3 arg4 harg4 arg5 harg5 arg6 harg6 arg7 harg7 arg8 harg8) K } := by
  refine ⟨?_, fun E K => ?run⟩
  case run =>
    simp only [cc0__diag_kernel_eq_skeleton]; unfold cc0__diag_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

/-! ## The staging buffers the body is called on -/

abbrev ms0_0 (t : Fin cfg0.N) : Memref sig .tc .vmem S128x9229 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x9229 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x9229 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x9229 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x9229 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x9229 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x9229 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x9229 .f32 := win0_7.stage (cfg0.slots t 7)
abbrev hs0_7 (t : Fin cfg0.N) : (ms0_7 t).IsWhole := hstage0_7 ((cfg0.slots t 7).cast nbuf0_7)
/-- One staging buffer of the output window, through which its contents are stated. -/
abbrev VO0 : View sig .tc .vmem S128x9229 .f32 := (Memref.whole cc0_stg7_0 : Memref sig .tc .vmem S128x9229 .f32).view

/-- The pieces the run leaves in the output block cover it. -/
theorem coverDiag (c : Dev nD) (i : grid0.Coords) (arg1 : Memref sig .tc .vmem S128x9229 .f32) (harg1 : arg1.IsWhole) (arg2 : Memref sig .tc .vmem S128x9229 .f32) (harg2 : arg2.IsWhole) (arg3 : Memref sig .tc .vmem S128x9229 .f32) (harg3 : arg3.IsWhole) (arg4 : Memref sig .tc .vmem S1x9229 .f32) (harg4 : arg4.IsWhole) (arg5 : Memref sig .tc .vmem S1x9229 .f32) (harg5 : arg5.IsWhole) (arg6 : Memref sig .tc .vmem S1x9229 .f32) (harg6 : arg6.IsWhole) (arg7 : Memref sig .tc .vmem S1x9229 .f32) (harg7 : arg7.IsWhole) (arg8 : Memref sig .tc .vmem S128x9229 .f32) (harg8 : arg8.IsWhole)
    (x0 : Vec F S128x9229 .f32) (x1 : Vec F S128x9229 .f32) (x2 : Vec F S128x9229 .f32) (x3 : Vec F S1x9229 .f32) (x4 : Vec F S1x9229 .f32) (x5 : Vec F S1x9229 .f32) (x6 : Vec F S1x9229 .f32) (y : S128x9229.Idx) :
    ∃ pc ∈ (diagRun c i arg1 harg1 arg2 harg2 arg3 harg3 arg4 harg4 arg5 harg5 arg6 harg6 arg7 harg7 arg8 harg8 x0 x1 x2 x3 x4 x5 x6).1, y ∈ pc.1.set :=
  View.cover_of_tiledL (diagRun c i arg1 harg1 arg2 harg2 arg3 harg3 arg4 harg4 arg5 harg5 arg6 harg6 arg7 harg7 arg8 harg8 x0 x1 x2 x3 x4 x5 x6).1 S128x9229.size (by sl_kernel_rfl) y

/-- What the body leaves in the output block: its pieces read back. -/
def diagOut (c : Dev nD) (i : grid0.Coords) (arg1 : Memref sig .tc .vmem S128x9229 .f32) (harg1 : arg1.IsWhole) (arg2 : Memref sig .tc .vmem S128x9229 .f32) (harg2 : arg2.IsWhole) (arg3 : Memref sig .tc .vmem S128x9229 .f32) (harg3 : arg3.IsWhole) (arg4 : Memref sig .tc .vmem S1x9229 .f32) (harg4 : arg4.IsWhole) (arg5 : Memref sig .tc .vmem S1x9229 .f32) (harg5 : arg5.IsWhole) (arg6 : Memref sig .tc .vmem S1x9229 .f32) (harg6 : arg6.IsWhole) (arg7 : Memref sig .tc .vmem S1x9229 .f32) (harg7 : arg7.IsWhole) (arg8 : Memref sig .tc .vmem S128x9229 .f32) (harg8 : arg8.IsWhole)
    (x0 : Vec F S128x9229 .f32) (x1 : Vec F S128x9229 .f32) (x2 : Vec F S128x9229 .f32) (x3 : Vec F S1x9229 .f32) (x4 : Vec F S1x9229 .f32) (x5 : Vec F S1x9229 .f32) (x6 : Vec F S1x9229 .f32) : Vec F S128x9229 .f32 :=
  VO0.read (Elt F) (VO0.writes (Elt F) VO0.junk (diagRun c i arg1 harg1 arg2 harg2 arg3 harg3 arg4 harg4 arg5 harg5 arg6 harg6 arg7 harg7 arg8 harg8 x0 x1 x2 x3 x4 x5 x6).1)

section Region

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The output block after the body at point `t`: the body's result on the point's seven input blocks. -/
def outAt0 (c : Dev nD) (t : Fin cfg0.N) : Vec F S128x9229 .f32 :=
  diagOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) (iblk0 V c 5 t) (iblk0 V c 6 t)

/-- The proof data of the diagonal layer on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns (no window of this layer is ever idle). -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold outAt0 diagOut; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((diagRun c (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (coverDiag c _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Layers

end
-- ==== Proof.IdealLayer1Runs.lean ====
/- Layer 1 of the masked network as one pipelined region whose contracted axis is cut into nineteen tiles: the grid's
   second coordinate counts the tiles.  At the first tile the accumulator is cleared before the tile's product is
   added; at every later tile the product is added to what the tile before left; at the last tile the bias row is
   then added and tanh applied, and only there is the output block stored.  Here: the body's run in each of the
   three cases the grid meets. -/
import proofs.«156066_j47502338294403_1_alg».proof.Proof.Gen.KernelIdeal.Launch
import proofs.«156066_j47502338294403_1_alg».proof.Proof.Gen.KernelIdeal.Skeleton
import proofs.«156066_j47502338294403_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first tile of the contracted axis: its second coordinate is zero. -/
abbrev first1 (i : grid1.Coords) : Prop :=
  (Scalar.cmpi .ne (Scalar.extui (Scalar.cmpi .eq (BitVec.ofNat 32 (i 1).val) 0#32)) 0#32) = 1#1
/-- The point is the last tile of the contracted axis: its second coordinate is eighteen. -/
abbrev last1 (i : grid1.Coords) : Prop := k1_cond2 i = 1#1

/-- Points are numbered batch tile by batch tile, nineteen to a batch tile. -/
theorem first1_iff : ∀ t : Fin cfg1.N, first1 (grid1.coords t) ↔ t.val % 19 = 0 :=
  (by decide +kernel : ∀ t : Fin grid1.N, first1 (grid1.coords t) ↔ t.val % 19 = 0)
theorem last1_iff : ∀ t : Fin cfg1.N, last1 (grid1.coords t) ↔ t.val % 19 = 18 :=
  (by decide +kernel : ∀ t : Fin grid1.N, last1 (grid1.coords t) ↔ t.val % 19 = 18)

set_option maxHeartbeats 4000000 in
/-- FIRST TILE (not the last): the accumulator, entered at anything, ends with the pieces the run finds; the output
    block is handed back untouched. -/
noncomputable def layerRun1_A (c : Dev nD) (i : grid1.Coords)
    (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole)
    (hc0 : first1 i) (hc1 : ¬last1 i) (x0 : Vec F S512x512 .f32) (x1 : Vec F S512x1387 .f32) (x2 : Vec F S512x1387 .i32) (x3 : Vec F S1x1387 .f32) :
    { LS0 : List (View.Piece (Elt F) S512x1387 .f32) //
      ∀ (xi4 : Vec F S512x1387 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E
              (cc1__masked_linear_kernel i arg2 harg2 arg3 harg3 arg4 harg4 arg5 harg5 arg6 harg6 arg7 harg7) K } := by
  refine ⟨?_, fun xi4 E K => ?run⟩
  case run =>
    simp only [cc1__masked_linear_kernel_eq_skeleton]; unfold cc1__masked_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- A MIDDLE TILE: the accumulator, entered at what the tile before left, ends with the pieces the run finds; the output
    block is handed back untouched. -/
noncomputable def layerRun1_B (c : Dev nD) (i : grid1.Coords)
    (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole)
    (hc0 : ¬first1 i) (hc1 : ¬last1 i) (x0 : Vec F S512x512 .f32) (x1 : Vec F S512x1387 .f32) (x2 : Vec F S512x1387 .i32) (x3 : Vec F S1x1387 .f32) (xs0 : Vec F S512x1387 .f32) :
    { LS0 : List (View.Piece (Elt F) S512x1387 .f32) //
      ∀ (xi4 : Vec F S512x1387 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E
              (cc1__masked_linear_kernel i arg2 harg2 arg3 harg3 arg4 harg4 arg5 harg5 arg6 harg6 arg7 harg7) K } := by
  refine ⟨?_, fun xi4 E K => ?run⟩
  case run =>
    simp only [cc1__masked_linear_kernel_eq_skeleton]; unfold cc1__masked_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1
    obtain rfl := harg4.eq_unread hf2; obtain rfl := harg5.eq_unread hf3; obtain rfl := harg6.eq_unread hf4
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- THE LAST TILE (not the first): the accumulator, entered at what the tile before left, and the output block, entered
    at anything, end with the pieces the run finds. -/
noncomputable def layerRun1_C (c : Dev nD) (i : grid1.Coords)
    (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole)
    (hc0 : ¬first1 i) (hc1 : last1 i) (x0 : Vec F S512x512 .f32) (x1 : Vec F S512x1387 .f32) (x2 : Vec F S512x1387 .i32) (x3 : Vec F S1x1387 .f32) (xs0 : Vec F S512x1387 .f32) :
    Σ' (L4 : List (View.Piece (Elt F) S512x1387 .f32)), { LS0 : List (View.Piece (Elt F) S512x1387 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
            ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E
              (cc1__masked_linear_kernel i arg2 harg2 arg3 harg3 arg4 harg4 arg5 harg5 arg6 harg6 arg7 harg7) K } := by
  refine ⟨?_, ?_, fun E K => ?run⟩
  case run =>
    simp only [cc1__masked_linear_kernel_eq_skeleton]; unfold cc1__masked_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1
    obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Layers

end
-- ==== Proof.IdealLayer1Data.lean ====
/- Layer 1: what the output block and the accumulator hold after each grid point, by recursion on the point — the
   accumulator after a tile is the tile's product added to what the tile before left (to zero at a batch tile's first
   tile), the output block is written at a batch tile's last tile only —, the region's invariant carrying the
   accumulator's contents from a point to the next, and the body's obligation at every point, by the tile's position. -/
import proofs.«156066_j47502338294403_1_alg».proof.Proof.IdealLayer1Runs

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging buffers the body is called on; where the output window is idle -/

abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1387 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1387 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1387 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1387 .f32 := win1_4.stage (cfg1.slots t 4)
abbrev hs1_4 (t : Fin cfg1.N) : (ms1_4 t).IsWhole := hstage1_4 ((cfg1.slots t 4).cast nbuf1_4)
/-- The accumulator: a whole buffer of the kernel's own, and the view through which its contents are stated. -/
abbrev scM1 : Memref sig .tc .vmem S512x1387 .f32 := Memref.whole cc1_scratch0
abbrev VS1 : View sig .tc .vmem S512x1387 .f32 := scM1.view
/-- One staging buffer of the output window, through which its contents are stated. -/
abbrev VO1 : View sig .tc .vmem S512x1387 .f32 := (Memref.whole cc1_stg4_0 : Memref sig .tc .vmem S512x1387 .f32).view

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from a batch tile's last tile the output window is idle and is not written back. -/
theorem idleAt1_4_A : ∀ t : Fin cfg1.N, first1 (grid1.coords t) → ¬last1 (grid1.coords t) → cfg1.idle 4 (grid1.coords t) = true := by decide +kernel
theorem noFlush1_4_A : ∀ t : Fin cfg1.N, first1 (grid1.coords t) → ¬last1 (grid1.coords t) → (cfg1.win 4).flush t = false := by decide +kernel
theorem idleAt1_4_B : ∀ t : Fin cfg1.N, ¬first1 (grid1.coords t) → ¬last1 (grid1.coords t) → cfg1.idle 4 (grid1.coords t) = true := by decide +kernel
theorem noFlush1_4_B : ∀ t : Fin cfg1.N, ¬first1 (grid1.coords t) → ¬last1 (grid1.coords t) → (cfg1.win 4).flush t = false := by decide +kernel
/-- At a batch tile's last tile it is live. -/
theorem liveAt1_4_C : ∀ t : Fin cfg1.N, ¬first1 (grid1.coords t) → last1 (grid1.coords t) → cfg1.idle 4 (grid1.coords t) = false := by decide +kernel

/-- The region's invariant with the accumulator set apart, at some contents. -/
theorem PhiA1_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## What each case leaves -/

theorem scoverA (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : first1 i) (hc1 : ¬last1 i) (x0 : Vec F S512x512 .f32) (x1 : Vec F S512x1387 .f32) (x2 : Vec F S512x1387 .i32) (x3 : Vec F S1x1387 .f32) (y : S512x1387.Idx) :
    ∃ pc ∈ (layerRun1_A c i arg2 harg2 arg3 harg3 arg4 harg4 arg5 harg5 arg6 harg6 arg7 harg7 hc0 hc1 x0 x1 x2 x3).1, y ∈ pc.1.set :=
  View.cover_of_tiledL (layerRun1_A c i arg2 harg2 arg3 harg3 arg4 harg4 arg5 harg5 arg6 harg6 arg7 harg7 hc0 hc1 x0 x1 x2 x3).1 S512x1387.size (by sl_kernel_rfl) y
/-- The accumulator after a first tile. -/
def soutA (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : first1 i) (hc1 : ¬last1 i) (x0 : Vec F S512x512 .f32) (x1 : Vec F S512x1387 .f32) (x2 : Vec F S512x1387 .i32) (x3 : Vec F S1x1387 .f32) : Vec F S512x1387 .f32 :=
  VS1.read (Elt F) (VS1.writes (Elt F) VS1.junk (layerRun1_A c i arg2 harg2 arg3 harg3 arg4 harg4 arg5 harg5 arg6 harg6 arg7 harg7 hc0 hc1 x0 x1 x2 x3).1)

theorem scoverB (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : ¬first1 i) (hc1 : ¬last1 i) (x0 : Vec F S512x512 .f32) (x1 : Vec F S512x1387 .f32) (x2 : Vec F S512x1387 .i32) (x3 : Vec F S1x1387 .f32) (xs0 : Vec F S512x1387 .f32) (y : S512x1387.Idx) :
    ∃ pc ∈ (layerRun1_B c i arg2 harg2 arg3 harg3 arg4 harg4 arg5 harg5 arg6 harg6 arg7 harg7 hc0 hc1 x0 x1 x2 x3 xs0).1, y ∈ pc.1.set :=
  View.cover_of_tiledL (layerRun1_B c i arg2 harg2 arg3 harg3 arg4 harg4 arg5 harg5 arg6 harg6 arg7 harg7 hc0 hc1 x0 x1 x2 x3 xs0).1 S512x1387.size (by sl_kernel_rfl) y
/-- The accumulator after a middle tile, from what the tile before left. -/
def soutB (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : ¬first1 i) (hc1 : ¬last1 i) (x0 : Vec F S512x512 .f32) (x1 : Vec F S512x1387 .f32) (x2 : Vec F S512x1387 .i32) (x3 : Vec F S1x1387 .f32) (xs0 : Vec F S512x1387 .f32) : Vec F S512x1387 .f32 :=
  VS1.read (Elt F) (VS1.writes (Elt F) VS1.junk (layerRun1_B c i arg2 harg2 arg3 harg3 arg4 harg4 arg5 harg5 arg6 harg6 arg7 harg7 hc0 hc1 x0 x1 x2 x3 xs0).1)

theorem coverC (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : ¬first1 i) (hc1 : last1 i) (x0 : Vec F S512x512 .f32) (x1 : Vec F S512x1387 .f32) (x2 : Vec F S512x1387 .i32) (x3 : Vec F S1x1387 .f32) (xs0 : Vec F S512x1387 .f32) (y : S512x1387.Idx) :
    ∃ pc ∈ (layerRun1_C c i arg2 harg2 arg3 harg3 arg4 harg4 arg5 harg5 arg6 harg6 arg7 harg7 hc0 hc1 x0 x1 x2 x3 xs0).1, y ∈ pc.1.set :=
  View.cover_of_tiledL (layerRun1_C c i arg2 harg2 arg3 harg3 arg4 harg4 arg5 harg5 arg6 harg6 arg7 harg7 hc0 hc1 x0 x1 x2 x3 xs0).1 S512x1387.size (by sl_kernel_rfl) y
/-- The output block after a last tile. -/
def outC (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : ¬first1 i) (hc1 : last1 i) (x0 : Vec F S512x512 .f32) (x1 : Vec F S512x1387 .f32) (x2 : Vec F S512x1387 .i32) (x3 : Vec F S1x1387 .f32) (xs0 : Vec F S512x1387 .f32) : Vec F S512x1387 .f32 :=
  VO1.read (Elt F) (VO1.writes (Elt F) VO1.junk (layerRun1_C c i arg2 harg2 arg3 harg3 arg4 harg4 arg5 harg5 arg6 harg6 arg7 harg7 hc0 hc1 x0 x1 x2 x3 xs0).1)
theorem scoverC (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : ¬first1 i) (hc1 : last1 i) (x0 : Vec F S512x512 .f32) (x1 : Vec F S512x1387 .f32) (x2 : Vec F S512x1387 .i32) (x3 : Vec F S1x1387 .f32) (xs0 : Vec F S512x1387 .f32) (y : S512x1387.Idx) :
    ∃ pc ∈ (layerRun1_C c i arg2 harg2 arg3 harg3 arg4 harg4 arg5 harg5 arg6 harg6 arg7 harg7 hc0 hc1 x0 x1 x2 x3 xs0).2.1, y ∈ pc.1.set :=
  View.cover_of_tiledL (layerRun1_C c i arg2 harg2 arg3 harg3 arg4 harg4 arg5 harg5 arg6 harg6 arg7 harg7 hc0 hc1 x0 x1 x2 x3 xs0).2.1 S512x1387.size (by sl_kernel_rfl) y
/-- The accumulator after a last tile. -/
def soutC (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : ¬first1 i) (hc1 : last1 i) (x0 : Vec F S512x512 .f32) (x1 : Vec F S512x1387 .f32) (x2 : Vec F S512x1387 .i32) (x3 : Vec F S1x1387 .f32) (xs0 : Vec F S512x1387 .f32) : Vec F S512x1387 .f32 :=
  VS1.read (Elt F) (VS1.writes (Elt F) VS1.junk (layerRun1_C c i arg2 harg2 arg3 harg3 arg4 harg4 arg5 harg5 arg6 harg6 arg7 harg7 hc0 hc1 x0 x1 x2 x3 xs0).2.1)

/-- What stands for the output block where no store reaches it (nothing reads this). -/
def outIdle : Vec F S512x1387 .f32 := VO1.read (Elt F) (VO1.writes (Elt F) VO1.junk [])

section Region

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: the output block and the accumulator after the body at position `n`. -/
def outsAt1 (c : Dev nD) : (n : ℕ) → n < cfg1.N → Vec F S512x1387 .f32 × Vec F S512x1387 .f32
  | 0, hn => (outIdle, soutA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((first1_iff ⟨0, hn⟩).mpr (Nat.zero_mod _)) (fun h => (fun h => by (try dsimp only at h); omega) ((last1_iff ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 19 = 0 then
      if h1 : (n + 1) % 19 = 18 then
        False.elim (by omega)
      else
        (outIdle, soutA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((first1_iff ⟨n + 1, hn⟩).mpr h0) (fun h => h1 ((last1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 19 = 18 then
        (outC c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((first1_iff ⟨n + 1, hn⟩).mp h)) ((last1_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         soutC c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((first1_iff ⟨n + 1, hn⟩).mp h)) ((last1_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (outIdle, soutB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((first1_iff ⟨n + 1, hn⟩).mp h)) (fun h => h1 ((last1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 19 = 0) (h1 : ¬t.val % 19 = 18) :
    outsAt1 V c t.val t.isLt = (outIdle, soutA c (grid1.coords t) (ms1_0 t) (hs1_0 t) (ms1_1 t) (hs1_1 t) (ms1_2 t) (hs1_2 t) (ms1_3 t) (hs1_3 t) (ms1_4 t) (hs1_4 t) scM1 (Memref.isWhole_whole _) ((first1_iff t).mpr h0) (fun h => h1 ((last1_iff t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 19 = 0) (h1 : ¬t.val % 19 = 18) :
    outsAt1 V c t.val t.isLt = (outIdle, soutB c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((first1_iff t).mp h)) (fun h => h1 ((last1_iff t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 19 = 0) (h1 : t.val % 19 = 18) :
    outsAt1 V c t.val t.isLt = (outC c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((first1_iff t).mp h)) ((last1_iff t).mpr h1) (iblk1 V c 0 t) (iblk1 V c 1 t) (iblk1 V c 2 t) (iblk1 V c 3 t) (outsAt1 V c (t.val - 1) (Nat.lt_of_le_of_lt (Nat.sub_le _ _) t.isLt)).2,
      soutC c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((first1_iff t).mp h)) ((last1_iff t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scoped rest with the accumulator at anything;
    afterwards the accumulator at what the point before left, beside the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of layer 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point, by the tile's position: the invariant hands it the accumulator at what the point before left
    (at anything before the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 38 := lt_of_lt_of_eq t.isLt (show cfg1.N = 38 from N_1)
  by_cases h0 : t.val % 19 = 0
  · by_cases h1 : t.val % 19 = 18
    · exfalso; omega
    · -- a first tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((first1_iff t).mpr h0) (fun h => h1 ((last1_iff t).mp h))) (noFlush1_4_A t ((first1_iff t).mpr h0) (fun h => h1 ((last1_iff t).mp h)))]
      rw [outsAt1_A V c t h0 h1]
      unfold soutA; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩, ⟨%d4, H4⟩⟩
        iapply ((layerRun1_A c (grid1.coords t) _ _ _ _ _ _ _ _ _ _ _ _ ((first1_iff t).mpr h0) (fun h => h1 ((last1_iff t).mp h)) (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scoverA c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((layerRun1_A c (grid1.coords t) _ _ _ _ _ _ _ _ _ _ _ _ ((first1_iff t).mpr h0) (fun h => h1 ((last1_iff t).mp h)) (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scoverA c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 19 = 18
    · -- a last tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((first1_iff t).mp h)) ((last1_iff t).mpr h1)], after1_4]
      rw [outsAt1_C V c t h0 h1]
      unfold outC soutC; (try dsimp only)
      have hz : t.val ≠ 0 := by omega
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((layerRun1_C c (grid1.coords t) _ _ _ _ _ _ _ _ _ _ _ _ (fun h => h0 ((first1_iff t).mp h)) ((last1_iff t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scoverC c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _)
    · -- a middle tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((first1_iff t).mp h)) (fun h => h1 ((last1_iff t).mp h))) (noFlush1_4_B t (fun h => h0 ((first1_iff t).mp h)) (fun h => h1 ((last1_iff t).mp h)))]
      rw [outsAt1_B V c t h0 h1]
      unfold soutB; (try dsimp only)
      have hz : t.val ≠ 0 := by omega
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((layerRun1_B c (grid1.coords t) _ _ _ _ _ _ _ _ _ _ _ _ (fun h => h0 ((first1_iff t).mp h)) (fun h => h1 ((last1_iff t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scoverB c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 38 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

end Region

end Cert.KernelIdeal.Layers

end
-- ==== Proof.IdealLayer2Run.lean ====
/- Layer 2 of the masked network as one pipelined region whose contracted axis is a single tile: at every grid point the
   accumulator is cleared, the whole product of the activation block with the masked weight is added once, and the
   bias row is added and tanh applied.  Here: the body's run on any whole buffers, with both of its conditionals
   (first tile, last tile) taken. -/
import proofs.«156066_j47502338294403_1_alg».proof.Proof.Gen.KernelIdeal.Launch
import proofs.«156066_j47502338294403_1_alg».proof.Proof.Gen.KernelIdeal.Skeleton
import proofs.«156066_j47502338294403_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first tile of the contracted axis: its second coordinate is zero. -/
abbrev first2 (i : grid2.Coords) : Prop :=
  (Scalar.cmpi .ne (Scalar.extui (Scalar.cmpi .eq (BitVec.ofNat 32 (i 1).val) 0#32)) 0#32) = 1#1
/-- The point is the last tile of the contracted axis. -/
abbrev last2 (i : grid2.Coords) : Prop := k2_cond2 i = 1#1

/-- The contracted axis has one tile, so every point is both the first and the last. -/
theorem first2_all : ∀ t : Fin cfg2.N, first2 (grid2.coords t) :=
  (by decide +kernel : ∀ t : Fin grid2.N, first2 (grid2.coords t))
theorem last2_all : ∀ t : Fin cfg2.N, last2 (grid2.coords t) :=
  (by decide +kernel : ∀ t : Fin grid2.N, last2 (grid2.coords t))

set_option maxHeartbeats 4000000 in
/-- The body on whole buffers: the activation block, the weight, the mask and the bias row are read and handed back
    as they were; the output block and the accumulator, entered at anything, end with the pieces the run finds. -/
noncomputable def layerRun2 (c : Dev nD) (i : grid2.Coords)
    (arg2 : Memref sig .tc .vmem S512x1387 .f32) (harg2 : arg2.IsWhole) (arg3 : Memref sig .tc .vmem S1387x1066 .f32) (harg3 : arg3.IsWhole)
    (arg4 : Memref sig .tc .vmem S1387x1066 .i32) (harg4 : arg4.IsWhole) (arg5 : Memref sig .tc .vmem S1x1066 .f32) (harg5 : arg5.IsWhole)
    (arg6 : Memref sig .tc .vmem S512x1066 .f32) (harg6 : arg6.IsWhole) (arg7 : Memref sig .tc .vmem S512x1066 .f32) (harg7 : arg7.IsWhole)
    (hc0 : first2 i) (hc1 : last2 i)
    (x0 : Vec F S512x1387 .f32) (x1 : Vec F S1387x1066 .f32) (x2 : Vec F S1387x1066 .i32) (x3 : Vec F S1x1066 .f32) :
    Σ' (L4 : List (View.Piece (Elt F) S512x1066 .f32)), { LS0 : List (View.Piece (Elt F) S512x1066 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E
              (cc2__masked_linear_kernel i arg2 harg2 arg3 harg3 arg4 harg4 arg5 harg5 arg6 harg6 arg7 harg7) K } := by
  refine ⟨?_, ?_, fun E K => ?run⟩
  case run =>
    simp only [cc2__masked_linear_kernel_eq_skeleton]; unfold cc2__masked_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Layers

end
-- ==== Proof.IdealLayer2Data.lean ====
/- Layer 2: what each window's staging buffer holds around the body at every grid point.  The four inputs (the
   activation block of the point's batch tile, the whole weight, the whole mask, the bias row) hold their blocks
   whether or not they were fetched again at the point; the output block holds what the body's one store leaves,
   a function of those four blocks alone, because the accumulator is cleared before it is read. -/
import proofs.«156066_j47502338294403_1_alg».proof.Proof.IdealLayer2Run
import Idealize.ShloMosaic.Lib.Pipeline.RegionsLoop

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging buffers the body is called on, and where its windows are live -/

abbrev ms2_0 (t : Fin cfg2.N) : Memref sig .tc .vmem S512x1387 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1387x1066 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1387x1066 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1066 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x1066 .f32 := win2_4.stage (cfg2.slots t 4)
abbrev hs2_4 (t : Fin cfg2.N) : (ms2_4 t).IsWhole := hstage2_4 ((cfg2.slots t 4).cast nbuf2_4)
/-- The accumulator: a whole buffer of the kernel's own. -/
abbrev scM2 : Memref sig .tc .vmem S512x1066 .f32 := Memref.whole cc2_scratch0
/-- One staging buffer of the output window, through which its contents are stated. -/
abbrev VO2 : View sig .tc .vmem S512x1066 .f32 := (Memref.whole cc2_stg4_0 : Memref sig .tc .vmem S512x1066 .f32).view

/-- No window is idle at any point: the output is stored under the last-tile condition, which holds everywhere. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel

/-- The region's invariant with the accumulator set apart: at some contents, beside the other scoped buffers and the
    generator register. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## What the body leaves in the output block -/

/-- The pieces the run leaves in the output block cover it. -/
theorem cover2 (c : Dev nD) (i : grid2.Coords)
    (arg2 : Memref sig .tc .vmem S512x1387 .f32) (harg2 : arg2.IsWhole) (arg3 : Memref sig .tc .vmem S1387x1066 .f32) (harg3 : arg3.IsWhole)
    (arg4 : Memref sig .tc .vmem S1387x1066 .i32) (harg4 : arg4.IsWhole) (arg5 : Memref sig .tc .vmem S1x1066 .f32) (harg5 : arg5.IsWhole)
    (arg6 : Memref sig .tc .vmem S512x1066 .f32) (harg6 : arg6.IsWhole) (arg7 : Memref sig .tc .vmem S512x1066 .f32) (harg7 : arg7.IsWhole)
    (hc0 : first2 i) (hc1 : last2 i)
    (x0 : Vec F S512x1387 .f32) (x1 : Vec F S1387x1066 .f32) (x2 : Vec F S1387x1066 .i32) (x3 : Vec F S1x1066 .f32) (y : S512x1066.Idx) :
    ∃ pc ∈ (layerRun2 c i arg2 harg2 arg3 harg3 arg4 harg4 arg5 harg5 arg6 harg6 arg7 harg7 hc0 hc1 x0 x1 x2 x3).1, y ∈ pc.1.set :=
  View.cover_of_tiledL (layerRun2 c i arg2 harg2 arg3 harg3 arg4 harg4 arg5 harg5 arg6 harg6 arg7 harg7 hc0 hc1 x0 x1 x2 x3).1 S512x1066.size (by sl_kernel_rfl) y

/-- What the body leaves in the output block: its pieces read back. -/
def layerOut2 (c : Dev nD) (i : grid2.Coords)
    (arg2 : Memref sig .tc .vmem S512x1387 .f32) (harg2 : arg2.IsWhole) (arg3 : Memref sig .tc .vmem S1387x1066 .f32) (harg3 : arg3.IsWhole)
    (arg4 : Memref sig .tc .vmem S1387x1066 .i32) (harg4 : arg4.IsWhole) (arg5 : Memref sig .tc .vmem S1x1066 .f32) (harg5 : arg5.IsWhole)
    (arg6 : Memref sig .tc .vmem S512x1066 .f32) (harg6 : arg6.IsWhole) (arg7 : Memref sig .tc .vmem S512x1066 .f32) (harg7 : arg7.IsWhole)
    (hc0 : first2 i) (hc1 : last2 i)
    (x0 : Vec F S512x1387 .f32) (x1 : Vec F S1387x1066 .f32) (x2 : Vec F S1387x1066 .i32) (x3 : Vec F S1x1066 .f32) : Vec F S512x1066 .f32 :=
  VO2.read (Elt F) (VO2.writes (Elt F) VO2.junk (layerRun2 c i arg2 harg2 arg3 harg3 arg4 harg4 arg5 harg5 arg6 harg6 arg7 harg7 hc0 hc1 x0 x1 x2 x3).1)

section Region

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The output block after the body at point `t`: the body's result on the point's four input blocks. -/
def outAt2 (c : Dev nD) (t : Fin cfg2.N) : Vec F S512x1066 .f32 :=
  layerOut2 c (grid2.coords t) (ms2_0 t) (hs2_0 t) (ms2_1 t) (hs2_1 t) (ms2_2 t) (hs2_2 t) (ms2_3 t) (hs2_3 t) (ms2_4 t) (hs2_4 t) scM2 (Memref.isWhole_whole _) (first2_all t) (last2_all t) (iblk2 V c 0 t) (iblk2 V c 1 t) (iblk2 V c 2 t) (iblk2 V c 3 t)

/-- The proof data of the layer on core `c`: the arrays as the region finds them; each input's buffer at its block;
    the output's at the body's result; the invariant the scoped rest and the generator register, unchanged; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any point: the inputs' buffers hold their blocks, the invariant lends the accumulator at anything and
    takes it back at anything, and the output block ends at the run's pieces read back. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl, PhiA2_eq]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  unfold outAt2 layerOut2; (try dsimp only)
  iintro ⟨⟨⟨HS0, Hrest⟩, Hg⟩, Ho, ⟨%d0, H0⟩, ⟨%d1, H1⟩, ⟨%d2, H2⟩, ⟨%d3, H3⟩, ⟨%d4, H4⟩⟩
  iapply ((layerRun2 c (grid2.coords t) _ _ _ _ _ _ _ _ _ _ _ _ (first2_all t) (last2_all t) (iblk2 V c 0 t) (iblk2 V c 1 t) (iblk2 V c 2 t) (iblk2 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2 c _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Layers

end
-- ==== Proof.IdealLayer3Run.lean ====
/- Layer 3 of the masked network as one pipelined region whose contracted axis is a single tile: at every grid point the
   accumulator is cleared, the whole product of the activation block with the masked weight is added once, and the
   bias row is added and tanh applied.  Here: the body's run on any whole buffers, with both of its conditionals
   (first tile, last tile) taken. -/
import proofs.«156066_j47502338294403_1_alg».proof.Proof.Gen.KernelIdeal.Launch
import proofs.«156066_j47502338294403_1_alg».proof.Proof.Gen.KernelIdeal.Skeleton
import proofs.«156066_j47502338294403_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first tile of the contracted axis: its second coordinate is zero. -/
abbrev first3 (i : grid3.Coords) : Prop :=
  (Scalar.cmpi .ne (Scalar.extui (Scalar.cmpi .eq (BitVec.ofNat 32 (i 1).val) 0#32)) 0#32) = 1#1
/-- The point is the last tile of the contracted axis. -/
abbrev last3 (i : grid3.Coords) : Prop := k3_cond2 i = 1#1

/-- The contracted axis has one tile, so every point is both the first and the last. -/
theorem first3_all : ∀ t : Fin cfg3.N, first3 (grid3.coords t) :=
  (by decide +kernel : ∀ t : Fin grid3.N, first3 (grid3.coords t))
theorem last3_all : ∀ t : Fin cfg3.N, last3 (grid3.coords t) :=
  (by decide +kernel : ∀ t : Fin grid3.N, last3 (grid3.coords t))

set_option maxHeartbeats 4000000 in
/-- The body on whole buffers: the activation block, the weight, the mask and the bias row are read and handed back
    as they were; the output block and the accumulator, entered at anything, end with the pieces the run finds. -/
noncomputable def layerRun3 (c : Dev nD) (i : grid3.Coords)
    (arg2 : Memref sig .tc .vmem S512x1066 .f32) (harg2 : arg2.IsWhole) (arg3 : Memref sig .tc .vmem S1066x447 .f32) (harg3 : arg3.IsWhole)
    (arg4 : Memref sig .tc .vmem S1066x447 .i32) (harg4 : arg4.IsWhole) (arg5 : Memref sig .tc .vmem S1x447 .f32) (harg5 : arg5.IsWhole)
    (arg6 : Memref sig .tc .vmem S512x447 .f32) (harg6 : arg6.IsWhole) (arg7 : Memref sig .tc .vmem S512x447 .f32) (harg7 : arg7.IsWhole)
    (hc0 : first3 i) (hc1 : last3 i)
    (x0 : Vec F S512x1066 .f32) (x1 : Vec F S1066x447 .f32) (x2 : Vec F S1066x447 .i32) (x3 : Vec F S1x447 .f32) :
    Σ' (L4 : List (View.Piece (Elt F) S512x447 .f32)), { LS0 : List (View.Piece (Elt F) S512x447 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E
              (cc3__masked_linear_kernel i arg2 harg2 arg3 harg3 arg4 harg4 arg5 harg5 arg6 harg6 arg7 harg7) K } := by
  refine ⟨?_, ?_, fun E K => ?run⟩
  case run =>
    simp only [cc3__masked_linear_kernel_eq_skeleton]; unfold cc3__masked_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Layers

end
-- ==== Proof.IdealLayer3Data.lean ====
/- Layer 3: what each window's staging buffer holds around the body at every grid point.  The four inputs (the
   activation block of the point's batch tile, the whole weight, the whole mask, the bias row) hold their blocks
   whether or not they were fetched again at the point; the output block holds what the body's one store leaves,
   a function of those four blocks alone, because the accumulator is cleared before it is read. -/
import proofs.«156066_j47502338294403_1_alg».proof.Proof.IdealLayer3Run
import Idealize.ShloMosaic.Lib.Pipeline.RegionsLoop

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging buffers the body is called on, and where its windows are live -/

abbrev ms3_0 (t : Fin cfg3.N) : Memref sig .tc .vmem S512x1066 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1066x447 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1066x447 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x447 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x447 .f32 := win3_4.stage (cfg3.slots t 4)
abbrev hs3_4 (t : Fin cfg3.N) : (ms3_4 t).IsWhole := hstage3_4 ((cfg3.slots t 4).cast nbuf3_4)
/-- The accumulator: a whole buffer of the kernel's own. -/
abbrev scM3 : Memref sig .tc .vmem S512x447 .f32 := Memref.whole cc3_scratch0
/-- One staging buffer of the output window, through which its contents are stated. -/
abbrev VO3 : View sig .tc .vmem S512x447 .f32 := (Memref.whole cc3_stg4_0 : Memref sig .tc .vmem S512x447 .f32).view

/-- No window is idle at any point: the output is stored under the last-tile condition, which holds everywhere. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel

/-- The region's invariant with the accumulator set apart: at some contents, beside the other scoped buffers and the
    generator register. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## What the body leaves in the output block -/

/-- The pieces the run leaves in the output block cover it. -/
theorem cover3 (c : Dev nD) (i : grid3.Coords)
    (arg2 : Memref sig .tc .vmem S512x1066 .f32) (harg2 : arg2.IsWhole) (arg3 : Memref sig .tc .vmem S1066x447 .f32) (harg3 : arg3.IsWhole)
    (arg4 : Memref sig .tc .vmem S1066x447 .i32) (harg4 : arg4.IsWhole) (arg5 : Memref sig .tc .vmem S1x447 .f32) (harg5 : arg5.IsWhole)
    (arg6 : Memref sig .tc .vmem S512x447 .f32) (harg6 : arg6.IsWhole) (arg7 : Memref sig .tc .vmem S512x447 .f32) (harg7 : arg7.IsWhole)
    (hc0 : first3 i) (hc1 : last3 i)
    (x0 : Vec F S512x1066 .f32) (x1 : Vec F S1066x447 .f32) (x2 : Vec F S1066x447 .i32) (x3 : Vec F S1x447 .f32) (y : S512x447.Idx) :
    ∃ pc ∈ (layerRun3 c i arg2 harg2 arg3 harg3 arg4 harg4 arg5 harg5 arg6 harg6 arg7 harg7 hc0 hc1 x0 x1 x2 x3).1, y ∈ pc.1.set :=
  View.cover_of_tiledL (layerRun3 c i arg2 harg2 arg3 harg3 arg4 harg4 arg5 harg5 arg6 harg6 arg7 harg7 hc0 hc1 x0 x1 x2 x3).1 S512x447.size (by sl_kernel_rfl) y

/-- What the body leaves in the output block: its pieces read back. -/
def layerOut3 (c : Dev nD) (i : grid3.Coords)
    (arg2 : Memref sig .tc .vmem S512x1066 .f32) (harg2 : arg2.IsWhole) (arg3 : Memref sig .tc .vmem S1066x447 .f32) (harg3 : arg3.IsWhole)
    (arg4 : Memref sig .tc .vmem S1066x447 .i32) (harg4 : arg4.IsWhole) (arg5 : Memref sig .tc .vmem S1x447 .f32) (harg5 : arg5.IsWhole)
    (arg6 : Memref sig .tc .vmem S512x447 .f32) (harg6 : arg6.IsWhole) (arg7 : Memref sig .tc .vmem S512x447 .f32) (harg7 : arg7.IsWhole)
    (hc0 : first3 i) (hc1 : last3 i)
    (x0 : Vec F S512x1066 .f32) (x1 : Vec F S1066x447 .f32) (x2 : Vec F S1066x447 .i32) (x3 : Vec F S1x447 .f32) : Vec F S512x447 .f32 :=
  VO3.read (Elt F) (VO3.writes (Elt F) VO3.junk (layerRun3 c i arg2 harg2 arg3 harg3 arg4 harg4 arg5 harg5 arg6 harg6 arg7 harg7 hc0 hc1 x0 x1 x2 x3).1)

section Region

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The output block after the body at point `t`: the body's result on the point's four input blocks. -/
def outAt3 (c : Dev nD) (t : Fin cfg3.N) : Vec F S512x447 .f32 :=
  layerOut3 c (grid3.coords t) (ms3_0 t) (hs3_0 t) (ms3_1 t) (hs3_1 t) (ms3_2 t) (hs3_2 t) (ms3_3 t) (hs3_3 t) (ms3_4 t) (hs3_4 t) scM3 (Memref.isWhole_whole _) (first3_all t) (last3_all t) (iblk3 V c 0 t) (iblk3 V c 1 t) (iblk3 V c 2 t) (iblk3 V c 3 t)

/-- The proof data of the layer on core `c`: the arrays as the region finds them; each input's buffer at its block;
    the output's at the body's result; the invariant the scoped rest and the generator register, unchanged; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => outAt3 V c t
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = outAt3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4000000 in
/-- The body at any point: the inputs' buffers hold their blocks, the invariant lends the accumulator at anything and
    takes it back at anything, and the output block ends at the run's pieces read back. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl, PhiA3_eq]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  unfold outAt3 layerOut3; (try dsimp only)
  iintro ⟨⟨⟨HS0, Hrest⟩, Hg⟩, Ho, ⟨%d0, H0⟩, ⟨%d1, H1⟩, ⟨%d2, H2⟩, ⟨%d3, H3⟩, ⟨%d4, H4⟩⟩
  iapply ((layerRun3 c (grid3.coords t) _ _ _ _ _ _ _ _ _ _ _ _ (first3_all t) (last3_all t) (iblk3 V c 0 t) (iblk3 V c 1 t) (iblk3 V c 2 t) (iblk3 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover3 c _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Layers

end
-- ==== Proof.IdealLayer4Run.lean ====
/- Layer 4 of the masked network as one pipelined region whose contracted axis is a single tile: at every grid point the
   accumulator is cleared, the whole product of the activation block with the masked weight is added once, and the
   bias row is added and tanh applied.  Here: the body's run on any whole buffers, with both of its conditionals
   (first tile, last tile) taken. -/
import proofs.«156066_j47502338294403_1_alg».proof.Proof.Gen.KernelIdeal.Launch
import proofs.«156066_j47502338294403_1_alg».proof.Proof.Gen.KernelIdeal.Skeleton
import proofs.«156066_j47502338294403_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first tile of the contracted axis: its second coordinate is zero. -/
abbrev first4 (i : grid4.Coords) : Prop :=
  (Scalar.cmpi .ne (Scalar.extui (Scalar.cmpi .eq (BitVec.ofNat 32 (i 1).val) 0#32)) 0#32) = 1#1
/-- The point is the last tile of the contracted axis. -/
abbrev last4 (i : grid4.Coords) : Prop := k4_cond2 i = 1#1

/-- The contracted axis has one tile, so every point is both the first and the last. -/
theorem first4_all : ∀ t : Fin cfg4.N, first4 (grid4.coords t) :=
  (by decide +kernel : ∀ t : Fin grid4.N, first4 (grid4.coords t))
theorem last4_all : ∀ t : Fin cfg4.N, last4 (grid4.coords t) :=
  (by decide +kernel : ∀ t : Fin grid4.N, last4 (grid4.coords t))

set_option maxHeartbeats 4000000 in
/-- The body on whole buffers: the activation block, the weight, the mask and the bias row are read and handed back
    as they were; the output block and the accumulator, entered at anything, end with the pieces the run finds. -/
noncomputable def layerRun4 (c : Dev nD) (i : grid4.Coords)
    (arg2 : Memref sig .tc .vmem S512x447 .f32) (harg2 : arg2.IsWhole) (arg3 : Memref sig .tc .vmem S447x147 .f32) (harg3 : arg3.IsWhole)
    (arg4 : Memref sig .tc .vmem S447x147 .i32) (harg4 : arg4.IsWhole) (arg5 : Memref sig .tc .vmem S1x147 .f32) (harg5 : arg5.IsWhole)
    (arg6 : Memref sig .tc .vmem S512x147 .f32) (harg6 : arg6.IsWhole) (arg7 : Memref sig .tc .vmem S512x147 .f32) (harg7 : arg7.IsWhole)
    (hc0 : first4 i) (hc1 : last4 i)
    (x0 : Vec F S512x447 .f32) (x1 : Vec F S447x147 .f32) (x2 : Vec F S447x147 .i32) (x3 : Vec F S1x147 .f32) :
    Σ' (L4 : List (View.Piece (Elt F) S512x147 .f32)), { LS0 : List (View.Piece (Elt F) S512x147 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E
              (cc4__masked_linear_kernel i arg2 harg2 arg3 harg3 arg4 harg4 arg5 harg5 arg6 harg6 arg7 harg7) K } := by
  refine ⟨?_, ?_, fun E K => ?run⟩
  case run =>
    simp only [cc4__masked_linear_kernel_eq_skeleton]; unfold cc4__masked_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Layers

end
-- ==== Proof.IdealLayer4Data.lean ====
/- Layer 4: what each window's staging buffer holds around the body at every grid point.  The four inputs (the
   activation block of the point's batch tile, the whole weight, the whole mask, the bias row) hold their blocks
   whether or not they were fetched again at the point; the output block holds what the body's one store leaves,
   a function of those four blocks alone, because the accumulator is cleared before it is read. -/
import proofs.«156066_j47502338294403_1_alg».proof.Proof.IdealLayer4Run
import Idealize.ShloMosaic.Lib.Pipeline.RegionsLoop

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging buffers the body is called on, and where its windows are live -/

abbrev ms4_0 (t : Fin cfg4.N) : Memref sig .tc .vmem S512x447 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S447x147 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S447x147 .i32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x147 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S512x147 .f32 := win4_4.stage (cfg4.slots t 4)
abbrev hs4_4 (t : Fin cfg4.N) : (ms4_4 t).IsWhole := hstage4_4 ((cfg4.slots t 4).cast nbuf4_4)
/-- The accumulator: a whole buffer of the kernel's own. -/
abbrev scM4 : Memref sig .tc .vmem S512x147 .f32 := Memref.whole cc4_scratch0
/-- One staging buffer of the output window, through which its contents are stated. -/
abbrev VO4 : View sig .tc .vmem S512x147 .f32 := (Memref.whole cc4_stg4_0 : Memref sig .tc .vmem S512x147 .f32).view

/-- No window is idle at any point: the output is stored under the last-tile condition, which holds everywhere. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel

/-- The region's invariant with the accumulator set apart: at some contents, beside the other scoped buffers and the
    generator register. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-! ## What the body leaves in the output block -/

/-- The pieces the run leaves in the output block cover it. -/
theorem cover4 (c : Dev nD) (i : grid4.Coords)
    (arg2 : Memref sig .tc .vmem S512x447 .f32) (harg2 : arg2.IsWhole) (arg3 : Memref sig .tc .vmem S447x147 .f32) (harg3 : arg3.IsWhole)
    (arg4 : Memref sig .tc .vmem S447x147 .i32) (harg4 : arg4.IsWhole) (arg5 : Memref sig .tc .vmem S1x147 .f32) (harg5 : arg5.IsWhole)
    (arg6 : Memref sig .tc .vmem S512x147 .f32) (harg6 : arg6.IsWhole) (arg7 : Memref sig .tc .vmem S512x147 .f32) (harg7 : arg7.IsWhole)
    (hc0 : first4 i) (hc1 : last4 i)
    (x0 : Vec F S512x447 .f32) (x1 : Vec F S447x147 .f32) (x2 : Vec F S447x147 .i32) (x3 : Vec F S1x147 .f32) (y : S512x147.Idx) :
    ∃ pc ∈ (layerRun4 c i arg2 harg2 arg3 harg3 arg4 harg4 arg5 harg5 arg6 harg6 arg7 harg7 hc0 hc1 x0 x1 x2 x3).1, y ∈ pc.1.set :=
  View.cover_of_tiledL (layerRun4 c i arg2 harg2 arg3 harg3 arg4 harg4 arg5 harg5 arg6 harg6 arg7 harg7 hc0 hc1 x0 x1 x2 x3).1 S512x147.size (by sl_kernel_rfl) y

/-- What the body leaves in the output block: its pieces read back. -/
def layerOut4 (c : Dev nD) (i : grid4.Coords)
    (arg2 : Memref sig .tc .vmem S512x447 .f32) (harg2 : arg2.IsWhole) (arg3 : Memref sig .tc .vmem S447x147 .f32) (harg3 : arg3.IsWhole)
    (arg4 : Memref sig .tc .vmem S447x147 .i32) (harg4 : arg4.IsWhole) (arg5 : Memref sig .tc .vmem S1x147 .f32) (harg5 : arg5.IsWhole)
    (arg6 : Memref sig .tc .vmem S512x147 .f32) (harg6 : arg6.IsWhole) (arg7 : Memref sig .tc .vmem S512x147 .f32) (harg7 : arg7.IsWhole)
    (hc0 : first4 i) (hc1 : last4 i)
    (x0 : Vec F S512x447 .f32) (x1 : Vec F S447x147 .f32) (x2 : Vec F S447x147 .i32) (x3 : Vec F S1x147 .f32) : Vec F S512x147 .f32 :=
  VO4.read (Elt F) (VO4.writes (Elt F) VO4.junk (layerRun4 c i arg2 harg2 arg3 harg3 arg4 harg4 arg5 harg5 arg6 harg6 arg7 harg7 hc0 hc1 x0 x1 x2 x3).1)

section Region

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The output block after the body at point `t`: the body's result on the point's four input blocks. -/
def outAt4 (c : Dev nD) (t : Fin cfg4.N) : Vec F S512x147 .f32 :=
  layerOut4 c (grid4.coords t) (ms4_0 t) (hs4_0 t) (ms4_1 t) (hs4_1 t) (ms4_2 t) (hs4_2 t) (ms4_3 t) (hs4_3 t) (ms4_4 t) (hs4_4 t) scM4 (Memref.isWhole_whole _) (first4_all t) (last4_all t) (iblk4 V c 0 t) (iblk4 V c 1 t) (iblk4 V c 2 t) (iblk4 V c 3 t)

/-- The proof data of the layer on core `c`: the arrays as the region finds them; each input's buffer at its block;
    the output's at the body's result; the invariant the scoped rest and the generator register, unchanged; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outAt4 V c t
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = outAt4 V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4000000 in
/-- The body at any point: the inputs' buffers hold their blocks, the invariant lends the accumulator at anything and
    takes it back at anything, and the output block ends at the run's pieces read back. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Pipeline.ΦA spec4 c from rfl, show (dat4 V c).Φ t.castSucc = Pipeline.ΦA spec4 c from rfl, PhiA4_eq]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  unfold outAt4 layerOut4; (try dsimp only)
  iintro ⟨⟨⟨HS0, Hrest⟩, Hg⟩, Ho, ⟨%d0, H0⟩, ⟨%d1, H1⟩, ⟨%d2, H2⟩, ⟨%d3, H3⟩, ⟨%d4, H4⟩⟩
  iapply ((layerRun4 c (grid4.coords t) _ _ _ _ _ _ _ _ _ _ _ _ (first4_all t) (last4_all t) (iblk4 V c 0 t) (iblk4 V c 1 t) (iblk4 V c 2 t) (iblk4 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover4 c _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region

end Cert.KernelIdeal.Layers

end
-- ==== Proof.IdealLayer5Run.lean ====
/- Layer 5 of the masked network as one pipelined region whose contracted axis is a single tile: at every grid point the
   accumulator is cleared, the whole product of the activation block with the masked weight is added once, and the
   bias row is added and tanh applied.  Here: the body's run on any whole buffers, with both of its conditionals
   (first tile, last tile) taken. -/
import proofs.«156066_j47502338294403_1_alg».proof.Proof.Gen.KernelIdeal.Launch
import proofs.«156066_j47502338294403_1_alg».proof.Proof.Gen.KernelIdeal.Skeleton
import proofs.«156066_j47502338294403_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first tile of the contracted axis: its second coordinate is zero. -/
abbrev first5 (i : grid5.Coords) : Prop :=
  (Scalar.cmpi .ne (Scalar.extui (Scalar.cmpi .eq (BitVec.ofNat 32 (i 1).val) 0#32)) 0#32) = 1#1
/-- The point is the last tile of the contracted axis. -/
abbrev last5 (i : grid5.Coords) : Prop := k5_cond2 i = 1#1

/-- The contracted axis has one tile, so every point is both the first and the last. -/
theorem first5_all : ∀ t : Fin cfg5.N, first5 (grid5.coords t) :=
  (by decide +kernel : ∀ t : Fin grid5.N, first5 (grid5.coords t))
theorem last5_all : ∀ t : Fin cfg5.N, last5 (grid5.coords t) :=
  (by decide +kernel : ∀ t : Fin grid5.N, last5 (grid5.coords t))

set_option maxHeartbeats 4000000 in
/-- The body on whole buffers: the activation block, the weight, the mask and the bias row are read and handed back
    as they were; the output block and the accumulator, entered at anything, end with the pieces the run finds. -/
noncomputable def layerRun5 (c : Dev nD) (i : grid5.Coords)
    (arg2 : Memref sig .tc .vmem S512x147 .f32) (harg2 : arg2.IsWhole) (arg3 : Memref sig .tc .vmem S147x26 .f32) (harg3 : arg3.IsWhole)
    (arg4 : Memref sig .tc .vmem S147x26 .i32) (harg4 : arg4.IsWhole) (arg5 : Memref sig .tc .vmem S1x26 .f32) (harg5 : arg5.IsWhole)
    (arg6 : Memref sig .tc .vmem S512x26 .f32) (harg6 : arg6.IsWhole) (arg7 : Memref sig .tc .vmem S512x26 .f32) (harg7 : arg7.IsWhole)
    (hc0 : first5 i) (hc1 : last5 i)
    (x0 : Vec F S512x147 .f32) (x1 : Vec F S147x26 .f32) (x2 : Vec F S147x26 .i32) (x3 : Vec F S1x26 .f32) :
    Σ' (L4 : List (View.Piece (Elt F) S512x26 .f32)), { LS0 : List (View.Piece (Elt F) S512x26 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E
              (cc5__masked_linear_kernel i arg2 harg2 arg3 harg3 arg4 harg4 arg5 harg5 arg6 harg6 arg7 harg7) K } := by
  refine ⟨?_, ?_, fun E K => ?run⟩
  case run =>
    simp only [cc5__masked_linear_kernel_eq_skeleton]; unfold cc5__masked_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Layers

end
-- ==== Proof.IdealLayer5Data.lean ====
/- Layer 5: what each window's staging buffer holds around the body at every grid point.  The four inputs (the
   activation block of the point's batch tile, the whole weight, the whole mask, the bias row) hold their blocks
   whether or not they were fetched again at the point; the output block holds what the body's one store leaves,
   a function of those four blocks alone, because the accumulator is cleared before it is read. -/
import proofs.«156066_j47502338294403_1_alg».proof.Proof.IdealLayer5Run
import Idealize.ShloMosaic.Lib.Pipeline.RegionsLoop

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging buffers the body is called on, and where its windows are live -/

abbrev ms5_0 (t : Fin cfg5.N) : Memref sig .tc .vmem S512x147 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S147x26 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S147x26 .i32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x26 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S512x26 .f32 := win5_4.stage (cfg5.slots t 4)
abbrev hs5_4 (t : Fin cfg5.N) : (ms5_4 t).IsWhole := hstage5_4 ((cfg5.slots t 4).cast nbuf5_4)
/-- The accumulator: a whole buffer of the kernel's own. -/
abbrev scM5 : Memref sig .tc .vmem S512x26 .f32 := Memref.whole cc5_scratch0
/-- One staging buffer of the output window, through which its contents are stated. -/
abbrev VO5 : View sig .tc .vmem S512x26 .f32 := (Memref.whole cc5_stg4_0 : Memref sig .tc .vmem S512x26 .f32).view

/-- No window is idle at any point: the output is stored under the last-tile condition, which holds everywhere. -/
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel

/-- The region's invariant with the accumulator set apart: at some contents, beside the other scoped buffers and the
    generator register. -/
theorem PhiA5_eq (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-! ## What the body leaves in the output block -/

/-- The pieces the run leaves in the output block cover it. -/
theorem cover5 (c : Dev nD) (i : grid5.Coords)
    (arg2 : Memref sig .tc .vmem S512x147 .f32) (harg2 : arg2.IsWhole) (arg3 : Memref sig .tc .vmem S147x26 .f32) (harg3 : arg3.IsWhole)
    (arg4 : Memref sig .tc .vmem S147x26 .i32) (harg4 : arg4.IsWhole) (arg5 : Memref sig .tc .vmem S1x26 .f32) (harg5 : arg5.IsWhole)
    (arg6 : Memref sig .tc .vmem S512x26 .f32) (harg6 : arg6.IsWhole) (arg7 : Memref sig .tc .vmem S512x26 .f32) (harg7 : arg7.IsWhole)
    (hc0 : first5 i) (hc1 : last5 i)
    (x0 : Vec F S512x147 .f32) (x1 : Vec F S147x26 .f32) (x2 : Vec F S147x26 .i32) (x3 : Vec F S1x26 .f32) (y : S512x26.Idx) :
    ∃ pc ∈ (layerRun5 c i arg2 harg2 arg3 harg3 arg4 harg4 arg5 harg5 arg6 harg6 arg7 harg7 hc0 hc1 x0 x1 x2 x3).1, y ∈ pc.1.set :=
  View.cover_of_tiledL (layerRun5 c i arg2 harg2 arg3 harg3 arg4 harg4 arg5 harg5 arg6 harg6 arg7 harg7 hc0 hc1 x0 x1 x2 x3).1 S512x26.size (by sl_kernel_rfl) y

/-- What the body leaves in the output block: its pieces read back. -/
def layerOut5 (c : Dev nD) (i : grid5.Coords)
    (arg2 : Memref sig .tc .vmem S512x147 .f32) (harg2 : arg2.IsWhole) (arg3 : Memref sig .tc .vmem S147x26 .f32) (harg3 : arg3.IsWhole)
    (arg4 : Memref sig .tc .vmem S147x26 .i32) (harg4 : arg4.IsWhole) (arg5 : Memref sig .tc .vmem S1x26 .f32) (harg5 : arg5.IsWhole)
    (arg6 : Memref sig .tc .vmem S512x26 .f32) (harg6 : arg6.IsWhole) (arg7 : Memref sig .tc .vmem S512x26 .f32) (harg7 : arg7.IsWhole)
    (hc0 : first5 i) (hc1 : last5 i)
    (x0 : Vec F S512x147 .f32) (x1 : Vec F S147x26 .f32) (x2 : Vec F S147x26 .i32) (x3 : Vec F S1x26 .f32) : Vec F S512x26 .f32 :=
  VO5.read (Elt F) (VO5.writes (Elt F) VO5.junk (layerRun5 c i arg2 harg2 arg3 harg3 arg4 harg4 arg5 harg5 arg6 harg6 arg7 harg7 hc0 hc1 x0 x1 x2 x3).1)

section Region

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The output block after the body at point `t`: the body's result on the point's four input blocks. -/
def outAt5 (c : Dev nD) (t : Fin cfg5.N) : Vec F S512x26 .f32 :=
  layerOut5 c (grid5.coords t) (ms5_0 t) (hs5_0 t) (ms5_1 t) (hs5_1 t) (ms5_2 t) (hs5_2 t) (ms5_3 t) (hs5_3 t) (ms5_4 t) (hs5_4 t) scM5 (Memref.isWhole_whole _) (first5_all t) (last5_all t) (iblk5 V c 0 t) (iblk5 V c 1 t) (iblk5 V c 2 t) (iblk5 V c 3 t)

/-- The proof data of the layer on core `c`: the arrays as the region finds them; each input's buffer at its block;
    the output's at the body's result; the invariant the scoped rest and the generator register, unchanged; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => outAt5 V c t
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = outAt5 V c t := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4000000 in
/-- The body at any point: the inputs' buffers hold their blocks, the invariant lends the accumulator at anything and
    takes it back at anything, and the output block ends at the run's pieces read back. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = Pipeline.ΦA spec5 c from rfl, show (dat5 V c).Φ t.castSucc = Pipeline.ΦA spec5 c from rfl, PhiA5_eq]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  unfold outAt5 layerOut5; (try dsimp only)
  iintro ⟨⟨⟨HS0, Hrest⟩, Hg⟩, Ho, ⟨%d0, H0⟩, ⟨%d1, H1⟩, ⟨%d2, H2⟩, ⟨%d3, H3⟩, ⟨%d4, H4⟩⟩
  iapply ((layerRun5 c (grid5.coords t) _ _ _ _ _ _ _ _ _ _ _ _ (first5_all t) (last5_all t) (iblk5 V c 0 t) (iblk5 V c 1 t) (iblk5 V c 2 t) (iblk5 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover5 c _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region

end Cert.KernelIdeal.Layers

end
-- ==== Proof.IdealRun.lean ====
/- The whole run of the six-region program: the contents of every unscoped buffer at each boundary between two of
   @main's nineteen items (a stretch of host operations applies its operations; a region leaves each of its arrays at
   what its write-backs fold to and every other buffer as it found it), each region as a segment entered from the
   boundary before it and left at the one after it, and the launch over the list of segments: every weakly fair
   execution terminates with every unscoped buffer at the last boundary's contents. -/
import proofs.«156066_j47502338294403_1_alg».proof.Proof.IdealDiag
import proofs.«156066_j47502338294403_1_alg».proof.Proof.IdealLayer1Data
import proofs.«156066_j47502338294403_1_alg».proof.Proof.IdealLayer2Data
import proofs.«156066_j47502338294403_1_alg».proof.Proof.IdealLayer3Data
import proofs.«156066_j47502338294403_1_alg».proof.Proof.IdealLayer4Data
import proofs.«156066_j47502338294403_1_alg».proof.Proof.IdealLayer5Data
import proofs.«156066_j47502338294403_1_alg».proof.Proof.Gen.KernelIdeal.Regions

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After item 0, the host stretch `hostOps0`. -/
abbrev B1 : Dev nD → Valuation τ sig (Elt F) := fun c => StableHlo.after hostOps0 (B0 m ρ c)
/-- The same read at the TensorCore's references (what layer 0's proof data take). -/
abbrev T1 : (c : Dev nD) → (b : Ref sig .tc) → Buf (Elt F) ((c : Thread nD τ).loc b) := fun c b => B1 m ρ c b
/-- After item 1, region 0: its arrays at what the pipeline leaves, every other buffer as entered. -/
def B2 (c : Dev nD) : Valuation τ sig (Elt F) :=
  Pipeline.withArrays spec0 c (B1 m ρ c) fun w => (dat0 (T1 m ρ) c).arrAt w cfg0.N
theorem B2_arr (c : Dev nD) (w : Fin cfg0.W) :
    B2 m ρ c (Proc.devRef .tc (Pipeline.arrRef spec0 w)) = (dat0 (T1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev T2 : (c : Dev nD) → (b : Ref sig .tc) → Buf (Elt F) ((c : Thread nD τ).loc b) := fun c b => B2 m ρ c b
theorem hF0 (c : Dev nD) (w : Fin cfg0.W) : (dat0 (T1 m ρ) c).arrAt w cfg0.N = T2 m ρ c (Pipeline.arrRef spec0 w) :=
  (B2_arr m ρ c w).symm
theorem hrest0 (c : Dev nD) : ∀ b, b ∉ Finset.univ.image (Pipeline.arrRef spec0) → T2 m ρ c b = T1 m ρ c b :=
  fun b hb => B2_of_ne m ρ c b fun w e => hb (Finset.mem_image.mpr ⟨w, Finset.mem_univ _, e⟩)
/-- After item 2, the host stretch `hostOps1`. -/
abbrev B3 : Dev nD → Valuation τ sig (Elt F) := fun c => StableHlo.after hostOps1 (B2 m ρ c)
/-- After item 3, the host stretch `hostOps1_1`. -/
abbrev B4 : Dev nD → Valuation τ sig (Elt F) := fun c => StableHlo.after hostOps1_1 (B3 m ρ c)
/-- After item 4, the host stretch `hostOps1_2`. -/
abbrev B5 : Dev nD → Valuation τ sig (Elt F) := fun c => StableHlo.after hostOps1_2 (B4 m ρ c)
/-- After item 5, the host stretch `hostOps1_3`. -/
abbrev B6 : Dev nD → Valuation τ sig (Elt F) := fun c => StableHlo.after hostOps1_3 (B5 m ρ c)
/-- After item 6, the host stretch `hostOps1_4`. -/
abbrev B7 : Dev nD → Valuation τ sig (Elt F) := fun c => StableHlo.after hostOps1_4 (B6 m ρ c)
/-- After item 7, the host stretch `hostOps1_5`. -/
abbrev B8 : Dev nD → Valuation τ sig (Elt F) := fun c => StableHlo.after hostOps1_5 (B7 m ρ c)
/-- After item 8, the host stretch `hostOps1_6`. -/
abbrev B9 : Dev nD → Valuation τ sig (Elt F) := fun c => StableHlo.after hostOps1_6 (B8 m ρ c)
/-- The same read at the TensorCore's references (what layer 1's proof data take). -/
abbrev T9 : (c : Dev nD) → (b : Ref sig .tc) → Buf (Elt F) ((c : Thread nD τ).loc b) := fun c b => B9 m ρ c b
/-- After item 9, region 1: its arrays at what the pipeline leaves, every other buffer as entered. -/
def B10 (c : Dev nD) : Valuation τ sig (Elt F) :=
  Pipeline.withArrays spec1 c (B9 m ρ c) fun w => (dat1 (T9 m ρ) c).arrAt w cfg1.N
theorem B10_arr (c : Dev nD) (w : Fin cfg1.W) :
    B10 m ρ c (Proc.devRef .tc (Pipeline.arrRef spec1 w)) = (dat1 (T9 m ρ) c).arrAt w cfg1.N := by
  unfold B10; exact Pipeline.withArrays_arr spec1 launch1.win.arr_inj c _ _ w
theorem B10_of_ne (c : Dev nD) (b : Ref sig .tc) (hb : ∀ w, Pipeline.arrRef spec1 w ≠ b) :
    B10 m ρ c (Proc.devRef .tc b) = B9 m ρ c (Proc.devRef .tc b) := by
  unfold B10; exact Pipeline.withArrays_of_ne spec1 c _ _ b hb
abbrev T10 : (c : Dev nD) → (b : Ref sig .tc) → Buf (Elt F) ((c : Thread nD τ).loc b) := fun c b => B10 m ρ c b
theorem hF1 (c : Dev nD) (w : Fin cfg1.W) : (dat1 (T9 m ρ) c).arrAt w cfg1.N = T10 m ρ c (Pipeline.arrRef spec1 w) :=
  (B10_arr m ρ c w).symm
theorem hrest1 (c : Dev nD) : ∀ b, b ∉ Finset.univ.image (Pipeline.arrRef spec1) → T10 m ρ c b = T9 m ρ c b :=
  fun b hb => B10_of_ne m ρ c b fun w e => hb (Finset.mem_image.mpr ⟨w, Finset.mem_univ _, e⟩)
/-- After item 10, the host stretch `hostOps2`. -/
abbrev B11 : Dev nD → Valuation τ sig (Elt F) := fun c => StableHlo.after hostOps2 (B10 m ρ c)
/-- The same read at the TensorCore's references (what layer 2's proof data take). -/
abbrev T11 : (c : Dev nD) → (b : Ref sig .tc) → Buf (Elt F) ((c : Thread nD τ).loc b) := fun c b => B11 m ρ c b
/-- After item 11, region 2: its arrays at what the pipeline leaves, every other buffer as entered. -/
def B12 (c : Dev nD) : Valuation τ sig (Elt F) :=
  Pipeline.withArrays spec2 c (B11 m ρ c) fun w => (dat2 (T11 m ρ) c).arrAt w cfg2.N
theorem B12_arr (c : Dev nD) (w : Fin cfg2.W) :
    B12 m ρ c (Proc.devRef .tc (Pipeline.arrRef spec2 w)) = (dat2 (T11 m ρ) c).arrAt w cfg2.N := by
  unfold B12; exact Pipeline.withArrays_arr spec2 launch2.win.arr_inj c _ _ w
theorem B12_of_ne (c : Dev nD) (b : Ref sig .tc) (hb : ∀ w, Pipeline.arrRef spec2 w ≠ b) :
    B12 m ρ c (Proc.devRef .tc b) = B11 m ρ c (Proc.devRef .tc b) := by
  unfold B12; exact Pipeline.withArrays_of_ne spec2 c _ _ b hb
abbrev T12 : (c : Dev nD) → (b : Ref sig .tc) → Buf (Elt F) ((c : Thread nD τ).loc b) := fun c b => B12 m ρ c b
theorem hF2 (c : Dev nD) (w : Fin cfg2.W) : (dat2 (T11 m ρ) c).arrAt w cfg2.N = T12 m ρ c (Pipeline.arrRef spec2 w) :=
  (B12_arr m ρ c w).symm
theorem hrest2 (c : Dev nD) : ∀ b, b ∉ Finset.univ.image (Pipeline.arrRef spec2) → T12 m ρ c b = T11 m ρ c b :=
  fun b hb => B12_of_ne m ρ c b fun w e => hb (Finset.mem_image.mpr ⟨w, Finset.mem_univ _, e⟩)
/-- After item 12, the host stretch `hostOps3`. -/
abbrev B13 : Dev nD → Valuation τ sig (Elt F) := fun c => StableHlo.after hostOps3 (B12 m ρ c)
/-- The same read at the TensorCore's references (what layer 3's proof data take). -/
abbrev T13 : (c : Dev nD) → (b : Ref sig .tc) → Buf (Elt F) ((c : Thread nD τ).loc b) := fun c b => B13 m ρ c b
/-- After item 13, region 3: its arrays at what the pipeline leaves, every other buffer as entered. -/
def B14 (c : Dev nD) : Valuation τ sig (Elt F) :=
  Pipeline.withArrays spec3 c (B13 m ρ c) fun w => (dat3 (T13 m ρ) c).arrAt w cfg3.N
theorem B14_arr (c : Dev nD) (w : Fin cfg3.W) :
    B14 m ρ c (Proc.devRef .tc (Pipeline.arrRef spec3 w)) = (dat3 (T13 m ρ) c).arrAt w cfg3.N := by
  unfold B14; exact Pipeline.withArrays_arr spec3 launch3.win.arr_inj c _ _ w
theorem B14_of_ne (c : Dev nD) (b : Ref sig .tc) (hb : ∀ w, Pipeline.arrRef spec3 w ≠ b) :
    B14 m ρ c (Proc.devRef .tc b) = B13 m ρ c (Proc.devRef .tc b) := by
  unfold B14; exact Pipeline.withArrays_of_ne spec3 c _ _ b hb
abbrev T14 : (c : Dev nD) → (b : Ref sig .tc) → Buf (Elt F) ((c : Thread nD τ).loc b) := fun c b => B14 m ρ c b
theorem hF3 (c : Dev nD) (w : Fin cfg3.W) : (dat3 (T13 m ρ) c).arrAt w cfg3.N = T14 m ρ c (Pipeline.arrRef spec3 w) :=
  (B14_arr m ρ c w).symm
theorem hrest3 (c : Dev nD) : ∀ b, b ∉ Finset.univ.image (Pipeline.arrRef spec3) → T14 m ρ c b = T13 m ρ c b :=
  fun b hb => B14_of_ne m ρ c b fun w e => hb (Finset.mem_image.mpr ⟨w, Finset.mem_univ _, e⟩)
/-- After item 14, the host stretch `hostOps4`. -/
abbrev B15 : Dev nD → Valuation τ sig (Elt F) := fun c => StableHlo.after hostOps4 (B14 m ρ c)
/-- The same read at the TensorCore's references (what layer 4's proof data take). -/
abbrev T15 : (c : Dev nD) → (b : Ref sig .tc) → Buf (Elt F) ((c : Thread nD τ).loc b) := fun c b => B15 m ρ c b
/-- After item 15, region 4: its arrays at what the pipeline leaves, every other buffer as entered. -/
def B16 (c : Dev nD) : Valuation τ sig (Elt F) :=
  Pipeline.withArrays spec4 c (B15 m ρ c) fun w => (dat4 (T15 m ρ) c).arrAt w cfg4.N
theorem B16_arr (c : Dev nD) (w : Fin cfg4.W) :
    B16 m ρ c (Proc.devRef .tc (Pipeline.arrRef spec4 w)) = (dat4 (T15 m ρ) c).arrAt w cfg4.N := by
  unfold B16; exact Pipeline.withArrays_arr spec4 launch4.win.arr_inj c _ _ w
theorem B16_of_ne (c : Dev nD) (b : Ref sig .tc) (hb : ∀ w, Pipeline.arrRef spec4 w ≠ b) :
    B16 m ρ c (Proc.devRef .tc b) = B15 m ρ c (Proc.devRef .tc b) := by
  unfold B16; exact Pipeline.withArrays_of_ne spec4 c _ _ b hb
abbrev T16 : (c : Dev nD) → (b : Ref sig .tc) → Buf (Elt F) ((c : Thread nD τ).loc b) := fun c b => B16 m ρ c b
theorem hF4 (c : Dev nD) (w : Fin cfg4.W) : (dat4 (T15 m ρ) c).arrAt w cfg4.N = T16 m ρ c (Pipeline.arrRef spec4 w) :=
  (B16_arr m ρ c w).symm
theorem hrest4 (c : Dev nD) : ∀ b, b ∉ Finset.univ.image (Pipeline.arrRef spec4) → T16 m ρ c b = T15 m ρ c b :=
  fun b hb => B16_of_ne m ρ c b fun w e => hb (Finset.mem_image.mpr ⟨w, Finset.mem_univ _, e⟩)
/-- After item 16, the host stretch `hostOps5`. -/
abbrev B17 : Dev nD → Valuation τ sig (Elt F) := fun c => StableHlo.after hostOps5 (B16 m ρ c)
/-- The same read at the TensorCore's references (what layer 5's proof data take). -/
abbrev T17 : (c : Dev nD) → (b : Ref sig .tc) → Buf (Elt F) ((c : Thread nD τ).loc b) := fun c b => B17 m ρ c b
/-- After item 17, region 5: its arrays at what the pipeline leaves, every other buffer as entered. -/
def B18 (c : Dev nD) : Valuation τ sig (Elt F) :=
  Pipeline.withArrays spec5 c (B17 m ρ c) fun w => (dat5 (T17 m ρ) c).arrAt w cfg5.N
theorem B18_arr (c : Dev nD) (w : Fin cfg5.W) :
    B18 m ρ c (Proc.devRef .tc (Pipeline.arrRef spec5 w)) = (dat5 (T17 m ρ) c).arrAt w cfg5.N := by
  unfold B18; exact Pipeline.withArrays_arr spec5 launch5.win.arr_inj c _ _ w
theorem B18_of_ne (c : Dev nD) (b : Ref sig .tc) (hb : ∀ w, Pipeline.arrRef spec5 w ≠ b) :
    B18 m ρ c (Proc.devRef .tc b) = B17 m ρ c (Proc.devRef .tc b) := by
  unfold B18; exact Pipeline.withArrays_of_ne spec5 c _ _ b hb
abbrev T18 : (c : Dev nD) → (b : Ref sig .tc) → Buf (Elt F) ((c : Thread nD τ).loc b) := fun c b => B18 m ρ c b
theorem hF5 (c : Dev nD) (w : Fin cfg5.W) : (dat5 (T17 m ρ) c).arrAt w cfg5.N = T18 m ρ c (Pipeline.arrRef spec5 w) :=
  (B18_arr m ρ c w).symm
theorem hrest5 (c : Dev nD) : ∀ b, b ∉ Finset.univ.image (Pipeline.arrRef spec5) → T18 m ρ c b = T17 m ρ c b :=
  fun b hb => B18_of_ne m ρ c b fun w e => hb (Finset.mem_image.mpr ⟨w, Finset.mem_univ _, e⟩)
/-- After item 18, the host stretch `hostOps6`. -/
abbrev B19 : Dev nD → Valuation τ sig (Elt F) := fun c => StableHlo.after hostOps6 (B18 m ρ c)

/-! ## No item writes an argument -/

theorem B19_main_arg0 (c : Dev nD) : B19 m ρ c (Proc.devRef .tc main_arg0) = m ((c : Thread nD τ).loc main_arg0) :=
  (StableHlo.after_of_writes_sub hostOps6 _ hostOps6_writes (by decide : main_arg0 ∉ hostOps6_W)).trans <|
  (B18_of_ne m ρ c main_arg0 (by decide)).trans <|
  (StableHlo.after_of_writes_sub hostOps5 _ hostOps5_writes (by decide : main_arg0 ∉ hostOps5_W)).trans <|
  (B16_of_ne m ρ c main_arg0 (by decide)).trans <|
  (StableHlo.after_of_writes_sub hostOps4 _ hostOps4_writes (by decide : main_arg0 ∉ hostOps4_W)).trans <|
  (B14_of_ne m ρ c main_arg0 (by decide)).trans <|
  (StableHlo.after_of_writes_sub hostOps3 _ hostOps3_writes (by decide : main_arg0 ∉ hostOps3_W)).trans <|
  (B12_of_ne m ρ c main_arg0 (by decide)).trans <|
  (StableHlo.after_of_writes_sub hostOps2 _ hostOps2_writes (by decide : main_arg0 ∉ hostOps2_W)).trans <|
  (B10_of_ne m ρ c main_arg0 (by decide)).trans <|
  (StableHlo.after_of_writes_sub hostOps1_6 _ hostOps1_6_writes (by decide : main_arg0 ∉ hostOps1_6_W)).trans <|
  (StableHlo.after_of_writes_sub hostOps1_5 _ hostOps1_5_writes (by decide : main_arg0 ∉ hostOps1_5_W)).trans <|
  (StableHlo.after_of_writes_sub hostOps1_4 _ hostOps1_4_writes (by decide : main_arg0 ∉ hostOps1_4_W)).trans <|
  (StableHlo.after_of_writes_sub hostOps1_3 _ hostOps1_3_writes (by decide : main_arg0 ∉ hostOps1_3_W)).trans <|
  (StableHlo.after_of_writes_sub hostOps1_2 _ hostOps1_2_writes (by decide : main_arg0 ∉ hostOps1_2_W)).trans <|
  (StableHlo.after_of_writes_sub hostOps1_1 _ hostOps1_1_writes (by decide : main_arg0 ∉ hostOps1_1_W)).trans <|
  (StableHlo.after_of_writes_sub hostOps1 _ hostOps1_writes (by decide : main_arg0 ∉ hostOps1_W)).trans <|
  (B2_of_ne m ρ c main_arg0 (by decide)).trans <|
  (StableHlo.after_of_writes_sub hostOps0 _ hostOps0_writes (by decide : main_arg0 ∉ hostOps0_W)).trans <| rfl
theorem B19_main_arg1 (c : Dev nD) : B19 m ρ c (Proc.devRef .tc main_arg1) = m ((c : Thread nD τ).loc main_arg1) :=
  (StableHlo.after_of_writes_sub hostOps6 _ hostOps6_writes (by decide : main_arg1 ∉ hostOps6_W)).trans <|
  (B18_of_ne m ρ c main_arg1 (by decide)).trans <|
  (StableHlo.after_of_writes_sub hostOps5 _ hostOps5_writes (by decide : main_arg1 ∉ hostOps5_W)).trans <|
  (B16_of_ne m ρ c main_arg1 (by decide)).trans <|
  (StableHlo.after_of_writes_sub hostOps4 _ hostOps4_writes (by decide : main_arg1 ∉ hostOps4_W)).trans <|
  (B14_of_ne m ρ c main_arg1 (by decide)).trans <|
  (StableHlo.after_of_writes_sub hostOps3 _ hostOps3_writes (by decide : main_arg1 ∉ hostOps3_W)).trans <|
  (B12_of_ne m ρ c main_arg1 (by decide)).trans <|
  (StableHlo.after_of_writes_sub hostOps2 _ hostOps2_writes (by decide : main_arg1 ∉ hostOps2_W)).trans <|
  (B10_of_ne m ρ c main_arg1 (by decide)).trans <|
  (StableHlo.after_of_writes_sub hostOps1_6 _ hostOps1_6_writes (by decide : main_arg1 ∉ hostOps1_6_W)).trans <|
  (StableHlo.after_of_writes_sub hostOps1_5 _ hostOps1_5_writes (by decide : main_arg1 ∉ hostOps1_5_W)).trans <|
  (StableHlo.after_of_writes_sub hostOps1_4 _ hostOps1_4_writes (by decide : main_arg1 ∉ hostOps1_4_W)).trans <|
  (StableHlo.after_of_writes_sub hostOps1_3 _ hostOps1_3_writes (by decide : main_arg1 ∉ hostOps1_3_W)).trans <|
  (StableHlo.after_of_writes_sub hostOps1_2 _ hostOps1_2_writes (by decide : main_arg1 ∉ hostOps1_2_W)).trans <|
  (StableHlo.after_of_writes_sub hostOps1_1 _ hostOps1_1_writes (by decide : main_arg1 ∉ hostOps1_1_W)).trans <|
  (StableHlo.after_of_writes_sub hostOps1 _ hostOps1_writes (by decide : main_arg1 ∉ hostOps1_W)).trans <|
  (B2_of_ne m ρ c main_arg1 (by decide)).trans <|
  (StableHlo.after_of_writes_sub hostOps0 _ hostOps0_writes (by decide : main_arg1 ∉ hostOps0_W)).trans <| rfl
theorem B19_main_arg2 (c : Dev nD) : B19 m ρ c (Proc.devRef .tc main_arg2) = m ((c : Thread nD τ).loc main_arg2) :=
  (StableHlo.after_of_writes_sub hostOps6 _ hostOps6_writes (by decide : main_arg2 ∉ hostOps6_W)).trans <|
  (B18_of_ne m ρ c main_arg2 (by decide)).trans <|
  (StableHlo.after_of_writes_sub hostOps5 _ hostOps5_writes (by decide : main_arg2 ∉ hostOps5_W)).trans <|
  (B16_of_ne m ρ c main_arg2 (by decide)).trans <|
  (StableHlo.after_of_writes_sub hostOps4 _ hostOps4_writes (by decide : main_arg2 ∉ hostOps4_W)).trans <|
  (B14_of_ne m ρ c main_arg2 (by decide)).trans <|
  (StableHlo.after_of_writes_sub hostOps3 _ hostOps3_writes (by decide : main_arg2 ∉ hostOps3_W)).trans <|
  (B12_of_ne m ρ c main_arg2 (by decide)).trans <|
  (StableHlo.after_of_writes_sub hostOps2 _ hostOps2_writes (by decide : main_arg2 ∉ hostOps2_W)).trans <|
  (B10_of_ne m ρ c main_arg2 (by decide)).trans <|
  (StableHlo.after_of_writes_sub hostOps1_6 _ hostOps1_6_writes (by decide : main_arg2 ∉ hostOps1_6_W)).trans <|
  (StableHlo.after_of_writes_sub hostOps1_5 _ hostOps1_5_writes (by decide : main_arg2 ∉ hostOps1_5_W)).trans <|
  (StableHlo.after_of_writes_sub hostOps1_4 _ hostOps1_4_writes (by decide : main_arg2 ∉ hostOps1_4_W)).trans <|
  (StableHlo.after_of_writes_sub hostOps1_3 _ hostOps1_3_writes (by decide : main_arg2 ∉ hostOps1_3_W)).trans <|
  (StableHlo.after_of_writes_sub hostOps1_2 _ hostOps1_2_writes (by decide : main_arg2 ∉ hostOps1_2_W)).trans <|
  (StableHlo.after_of_writes_sub hostOps1_1 _ hostOps1_1_writes (by decide : main_arg2 ∉ hostOps1_1_W)).trans <|
  (StableHlo.after_of_writes_sub hostOps1 _ hostOps1_writes (by decide : main_arg2 ∉ hostOps1_W)).trans <|
  (B2_of_ne m ρ c main_arg2 (by decide)).trans <|
  (StableHlo.after_of_writes_sub hostOps0 _ hostOps0_writes (by decide : main_arg2 ∉ hostOps0_W)).trans <| rfl
theorem B19_main_arg3 (c : Dev nD) : B19 m ρ c (Proc.devRef .tc main_arg3) = m ((c : Thread nD τ).loc main_arg3) :=
  (StableHlo.after_of_writes_sub hostOps6 _ hostOps6_writes (by decide : main_arg3 ∉ hostOps6_W)).trans <|
  (B18_of_ne m ρ c main_arg3 (by decide)).trans <|
  (StableHlo.after_of_writes_sub hostOps5 _ hostOps5_writes (by decide : main_arg3 ∉ hostOps5_W)).trans <|
  (B16_of_ne m ρ c main_arg3 (by decide)).trans <|
  (StableHlo.after_of_writes_sub hostOps4 _ hostOps4_writes (by decide : main_arg3 ∉ hostOps4_W)).trans <|
  (B14_of_ne m ρ c main_arg3 (by decide)).trans <|
  (StableHlo.after_of_writes_sub hostOps3 _ hostOps3_writes (by decide : main_arg3 ∉ hostOps3_W)).trans <|
  (B12_of_ne m ρ c main_arg3 (by decide)).trans <|
  (StableHlo.after_of_writes_sub hostOps2 _ hostOps2_writes (by decide : main_arg3 ∉ hostOps2_W)).trans <|
  (B10_of_ne m ρ c main_arg3 (by decide)).trans <|
  (StableHlo.after_of_writes_sub hostOps1_6 _ hostOps1_6_writes (by decide : main_arg3 ∉ hostOps1_6_W)).trans <|
  (StableHlo.after_of_writes_sub hostOps1_5 _ hostOps1_5_writes (by decide : main_arg3 ∉ hostOps1_5_W)).trans <|
  (StableHlo.after_of_writes_sub hostOps1_4 _ hostOps1_4_writes (by decide : main_arg3 ∉ hostOps1_4_W)).trans <|
  (StableHlo.after_of_writes_sub hostOps1_3 _ hostOps1_3_writes (by decide : main_arg3 ∉ hostOps1_3_W)).trans <|
  (StableHlo.after_of_writes_sub hostOps1_2 _ hostOps1_2_writes (by decide : main_arg3 ∉ hostOps1_2_W)).trans <|
  (StableHlo.after_of_writes_sub hostOps1_1 _ hostOps1_1_writes (by decide : main_arg3 ∉ hostOps1_1_W)).trans <|
  (StableHlo.after_of_writes_sub hostOps1 _ hostOps1_writes (by decide : main_arg3 ∉ hostOps1_W)).trans <|
  (B2_of_ne m ρ c main_arg3 (by decide)).trans <|
  (StableHlo.after_of_writes_sub hostOps0 _ hostOps0_writes (by decide : main_arg3 ∉ hostOps0_W)).trans <| rfl
theorem B19_main_arg4 (c : Dev nD) : B19 m ρ c (Proc.devRef .tc main_arg4) = m ((c : Thread nD τ).loc main_arg4) :=
  (StableHlo.after_of_writes_sub hostOps6 _ hostOps6_writes (by decide : main_arg4 ∉ hostOps6_W)).trans <|
  (B18_of_ne m ρ c main_arg4 (by decide)).trans <|
  (StableHlo.after_of_writes_sub hostOps5 _ hostOps5_writes (by decide : main_arg4 ∉ hostOps5_W)).trans <|
  (B16_of_ne m ρ c main_arg4 (by decide)).trans <|
  (StableHlo.after_of_writes_sub hostOps4 _ hostOps4_writes (by decide : main_arg4 ∉ hostOps4_W)).trans <|
  (B14_of_ne m ρ c main_arg4 (by decide)).trans <|
  (StableHlo.after_of_writes_sub hostOps3 _ hostOps3_writes (by decide : main_arg4 ∉ hostOps3_W)).trans <|
  (B12_of_ne m ρ c main_arg4 (by decide)).trans <|
  (StableHlo.after_of_writes_sub hostOps2 _ hostOps2_writes (by decide : main_arg4 ∉ hostOps2_W)).trans <|
  (B10_of_ne m ρ c main_arg4 (by decide)).trans <|
  (StableHlo.after_of_writes_sub hostOps1_6 _ hostOps1_6_writes (by decide : main_arg4 ∉ hostOps1_6_W)).trans <|
  (StableHlo.after_of_writes_sub hostOps1_5 _ hostOps1_5_writes (by decide : main_arg4 ∉ hostOps1_5_W)).trans <|
  (StableHlo.after_of_writes_sub hostOps1_4 _ hostOps1_4_writes (by decide : main_arg4 ∉ hostOps1_4_W)).trans <|
  (StableHlo.after_of_writes_sub hostOps1_3 _ hostOps1_3_writes (by decide : main_arg4 ∉ hostOps1_3_W)).trans <|
  (StableHlo.after_of_writes_sub hostOps1_2 _ hostOps1_2_writes (by decide : main_arg4 ∉ hostOps1_2_W)).trans <|
  (StableHlo.after_of_writes_sub hostOps1_1 _ hostOps1_1_writes (by decide : main_arg4 ∉ hostOps1_1_W)).trans <|
  (StableHlo.after_of_writes_sub hostOps1 _ hostOps1_writes (by decide : main_arg4 ∉ hostOps1_W)).trans <|
  (B2_of_ne m ρ c main_arg4 (by decide)).trans <|
  (StableHlo.after_of_writes_sub hostOps0 _ hostOps0_writes (by decide : main_arg4 ∉ hostOps0_W)).trans <| rfl
theorem B19_main_arg5 (c : Dev nD) : B19 m ρ c (Proc.devRef .tc main_arg5) = m ((c : Thread nD τ).loc main_arg5) :=
  (StableHlo.after_of_writes_sub hostOps6 _ hostOps6_writes (by decide : main_arg5 ∉ hostOps6_W)).trans <|
  (B18_of_ne m ρ c main_arg5 (by decide)).trans <|
  (StableHlo.after_of_writes_sub hostOps5 _ hostOps5_writes (by decide : main_arg5 ∉ hostOps5_W)).trans <|
  (B16_of_ne m ρ c main_arg5 (by decide)).trans <|
  (StableHlo.after_of_writes_sub hostOps4 _ hostOps4_writes (by decide : main_arg5 ∉ hostOps4_W)).trans <|
  (B14_of_ne m ρ c main_arg5 (by decide)).trans <|
  (StableHlo.after_of_writes_sub hostOps3 _ hostOps3_writes (by decide : main_arg5 ∉ hostOps3_W)).trans <|
  ((B12_arr m ρ c 1).trans (((dat2 (T11 m ρ) c).arrAt_in 1 rfl _).trans (A_eq2 (T11 m ρ) c 1))).trans <|
  (StableHlo.after_of_writes_sub hostOps2 _ hostOps2_writes (by decide : main_arg5 ∉ hostOps2_W)).trans <|
  (B10_of_ne m ρ c main_arg5 (by decide)).trans <|
  (StableHlo.after_of_writes_sub hostOps1_6 _ hostOps1_6_writes (by decide : main_arg5 ∉ hostOps1_6_W)).trans <|
  (StableHlo.after_of_writes_sub hostOps1_5 _ hostOps1_5_writes (by decide : main_arg5 ∉ hostOps1_5_W)).trans <|
  (StableHlo.after_of_writes_sub hostOps1_4 _ hostOps1_4_writes (by decide : main_arg5 ∉ hostOps1_4_W)).trans <|
  (StableHlo.after_of_writes_sub hostOps1_3 _ hostOps1_3_writes (by decide : main_arg5 ∉ hostOps1_3_W)).trans <|
  (StableHlo.after_of_writes_sub hostOps1_2 _ hostOps1_2_writes (by decide : main_arg5 ∉ hostOps1_2_W)).trans <|
  (StableHlo.after_of_writes_sub hostOps1_1 _ hostOps1_1_writes (by decide : main_arg5 ∉ hostOps1_1_W)).trans <|
  (StableHlo.after_of_writes_sub hostOps1 _ hostOps1_writes (by decide : main_arg5 ∉ hostOps1_W)).trans <|
  (B2_of_ne m ρ c main_arg5 (by decide)).trans <|
  (StableHlo.after_of_writes_sub hostOps0 _ hostOps0_writes (by decide : main_arg5 ∉ hostOps0_W)).trans <| rfl
theorem B19_main_arg6 (c : Dev nD) : B19 m ρ c (Proc.devRef .tc main_arg6) = m ((c : Thread nD τ).loc main_arg6) :=
  (StableHlo.after_of_writes_sub hostOps6 _ hostOps6_writes (by decide : main_arg6 ∉ hostOps6_W)).trans <|
  (B18_of_ne m ρ c main_arg6 (by decide)).trans <|
  (StableHlo.after_of_writes_sub hostOps5 _ hostOps5_writes (by decide : main_arg6 ∉ hostOps5_W)).trans <|
  (B16_of_ne m ρ c main_arg6 (by decide)).trans <|
  (StableHlo.after_of_writes_sub hostOps4 _ hostOps4_writes (by decide : main_arg6 ∉ hostOps4_W)).trans <|
  (B14_of_ne m ρ c main_arg6 (by decide)).trans <|
  (StableHlo.after_of_writes_sub hostOps3 _ hostOps3_writes (by decide : main_arg6 ∉ hostOps3_W)).trans <|
  (B12_of_ne m ρ c main_arg6 (by decide)).trans <|
  (StableHlo.after_of_writes_sub hostOps2 _ hostOps2_writes (by decide : main_arg6 ∉ hostOps2_W)).trans <|
  (B10_of_ne m ρ c main_arg6 (by decide)).trans <|
  (StableHlo.after_of_writes_sub hostOps1_6 _ hostOps1_6_writes (by decide : main_arg6 ∉ hostOps1_6_W)).trans <|
  (StableHlo.after_of_writes_sub hostOps1_5 _ hostOps1_5_writes (by decide : main_arg6 ∉ hostOps1_5_W)).trans <|
  (StableHlo.after_of_writes_sub hostOps1_4 _ hostOps1_4_writes (by decide : main_arg6 ∉ hostOps1_4_W)).trans <|
  (StableHlo.after_of_writes_sub hostOps1_3 _ hostOps1_3_writes (by decide : main_arg6 ∉ hostOps1_3_W)).trans <|
  (StableHlo.after_of_writes_sub hostOps1_2 _ hostOps1_2_writes (by decide : main_arg6 ∉ hostOps1_2_W)).trans <|
  (StableHlo.after_of_writes_sub hostOps1_1 _ hostOps1_1_writes (by decide : main_arg6 ∉ hostOps1_1_W)).trans <|
  (StableHlo.after_of_writes_sub hostOps1 _ hostOps1_writes (by decide : main_arg6 ∉ hostOps1_W)).trans <|
  (B2_of_ne m ρ c main_arg6 (by decide)).trans <|
  (StableHlo.after_of_writes_sub hostOps0 _ hostOps0_writes (by decide : main_arg6 ∉ hostOps0_W)).trans <| rfl
theorem B19_main_arg7 (c : Dev nD) : B19 m ρ c (Proc.devRef .tc main_arg7) = m ((c : Thread nD τ).loc main_arg7) :=
  (StableHlo.after_of_writes_sub hostOps6 _ hostOps6_writes (by decide : main_arg7 ∉ hostOps6_W)).trans <|
  (B18_of_ne m ρ c main_arg7 (by decide)).trans <|
  (StableHlo.after_of_writes_sub hostOps5 _ hostOps5_writes (by decide : main_arg7 ∉ hostOps5_W)).trans <|
  (B16_of_ne m ρ c main_arg7 (by decide)).trans <|
  (StableHlo.after_of_writes_sub hostOps4 _ hostOps4_writes (by decide : main_arg7 ∉ hostOps4_W)).trans <|
  ((B14_arr m ρ c 1).trans (((dat3 (T13 m ρ) c).arrAt_in 1 rfl _).trans (A_eq3 (T13 m ρ) c 1))).trans <|
  (StableHlo.after_of_writes_sub hostOps3 _ hostOps3_writes (by decide : main_arg7 ∉ hostOps3_W)).trans <|
  (B12_of_ne m ρ c main_arg7 (by decide)).trans <|
  (StableHlo.after_of_writes_sub hostOps2 _ hostOps2_writes (by decide : main_arg7 ∉ hostOps2_W)).trans <|
  (B10_of_ne m ρ c main_arg7 (by decide)).trans <|
  (StableHlo.after_of_writes_sub hostOps1_6 _ hostOps1_6_writes (by decide : main_arg7 ∉ hostOps1_6_W)).trans <|
  (StableHlo.after_of_writes_sub hostOps1_5 _ hostOps1_5_writes (by decide : main_arg7 ∉ hostOps1_5_W)).trans <|
  (StableHlo.after_of_writes_sub hostOps1_4 _ hostOps1_4_writes (by decide : main_arg7 ∉ hostOps1_4_W)).trans <|
  (StableHlo.after_of_writes_sub hostOps1_3 _ hostOps1_3_writes (by decide : main_arg7 ∉ hostOps1_3_W)).trans <|
  (StableHlo.after_of_writes_sub hostOps1_2 _ hostOps1_2_writes (by decide : main_arg7 ∉ hostOps1_2_W)).trans <|
  (StableHlo.after_of_writes_sub hostOps1_1 _ hostOps1_1_writes (by decide : main_arg7 ∉ hostOps1_1_W)).trans <|
  (StableHlo.after_of_writes_sub hostOps1 _ hostOps1_writes (by decide : main_arg7 ∉ hostOps1_W)).trans <|
  (B2_of_ne m ρ c main_arg7 (by decide)).trans <|
  (StableHlo.after_of_writes_sub hostOps0 _ hostOps0_writes (by decide : main_arg7 ∉ hostOps0_W)).trans <| rfl
theorem B19_main_arg8 (c : Dev nD) : B19 m ρ c (Proc.devRef .tc main_arg8) = m ((c : Thread nD τ).loc main_arg8) :=
  (StableHlo.after_of_writes_sub hostOps6 _ hostOps6_writes (by decide : main_arg8 ∉ hostOps6_W)).trans <|
  (B18_of_ne m ρ c main_arg8 (by decide)).trans <|
  (StableHlo.after_of_writes_sub hostOps5 _ hostOps5_writes (by decide : main_arg8 ∉ hostOps5_W)).trans <|
  (B16_of_ne m ρ c main_arg8 (by decide)).trans <|
  (StableHlo.after_of_writes_sub hostOps4 _ hostOps4_writes (by decide : main_arg8 ∉ hostOps4_W)).trans <|
  (B14_of_ne m ρ c main_arg8 (by decide)).trans <|
  (StableHlo.after_of_writes_sub hostOps3 _ hostOps3_writes (by decide : main_arg8 ∉ hostOps3_W)).trans <|
  (B12_of_ne m ρ c main_arg8 (by decide)).trans <|
  (StableHlo.after_of_writes_sub hostOps2 _ hostOps2_writes (by decide : main_arg8 ∉ hostOps2_W)).trans <|
  (B10_of_ne m ρ c main_arg8 (by decide)).trans <|
  (StableHlo.after_of_writes_sub hostOps1_6 _ hostOps1_6_writes (by decide : main_arg8 ∉ hostOps1_6_W)).trans <|
  (StableHlo.after_of_writes_sub hostOps1_5 _ hostOps1_5_writes (by decide : main_arg8 ∉ hostOps1_5_W)).trans <|
  (StableHlo.after_of_writes_sub hostOps1_4 _ hostOps1_4_writes (by decide : main_arg8 ∉ hostOps1_4_W)).trans <|
  (StableHlo.after_of_writes_sub hostOps1_3 _ hostOps1_3_writes (by decide : main_arg8 ∉ hostOps1_3_W)).trans <|
  (StableHlo.after_of_writes_sub hostOps1_2 _ hostOps1_2_writes (by decide : main_arg8 ∉ hostOps1_2_W)).trans <|
  (StableHlo.after_of_writes_sub hostOps1_1 _ hostOps1_1_writes (by decide : main_arg8 ∉ hostOps1_1_W)).trans <|
  (StableHlo.after_of_writes_sub hostOps1 _ hostOps1_writes (by decide : main_arg8 ∉ hostOps1_W)).trans <|
  (B2_of_ne m ρ c main_arg8 (by decide)).trans <|
  (StableHlo.after_of_writes_sub hostOps0 _ hostOps0_writes (by decide : main_arg8 ∉ hostOps0_W)).trans <| rfl
theorem B19_main_arg9 (c : Dev nD) : B19 m ρ c (Proc.devRef .tc main_arg9) = m ((c : Thread nD τ).loc main_arg9) :=
  (StableHlo.after_of_writes_sub hostOps6 _ hostOps6_writes (by decide : main_arg9 ∉ hostOps6_W)).trans <|
  (B18_of_ne m ρ c main_arg9 (by decide)).trans <|
  (StableHlo.after_of_writes_sub hostOps5 _ hostOps5_writes (by decide : main_arg9 ∉ hostOps5_W)).trans <|
  ((B16_arr m ρ c 1).trans (((dat4 (T15 m ρ) c).arrAt_in 1 rfl _).trans (A_eq4 (T15 m ρ) c 1))).trans <|
  (StableHlo.after_of_writes_sub hostOps4 _ hostOps4_writes (by decide : main_arg9 ∉ hostOps4_W)).trans <|
  (B14_of_ne m ρ c main_arg9 (by decide)).trans <|
  (StableHlo.after_of_writes_sub hostOps3 _ hostOps3_writes (by decide : main_arg9 ∉ hostOps3_W)).trans <|
  (B12_of_ne m ρ c main_arg9 (by decide)).trans <|
  (StableHlo.after_of_writes_sub hostOps2 _ hostOps2_writes (by decide : main_arg9 ∉ hostOps2_W)).trans <|
  (B10_of_ne m ρ c main_arg9 (by decide)).trans <|
  (StableHlo.after_of_writes_sub hostOps1_6 _ hostOps1_6_writes (by decide : main_arg9 ∉ hostOps1_6_W)).trans <|
  (StableHlo.after_of_writes_sub hostOps1_5 _ hostOps1_5_writes (by decide : main_arg9 ∉ hostOps1_5_W)).trans <|
  (StableHlo.after_of_writes_sub hostOps1_4 _ hostOps1_4_writes (by decide : main_arg9 ∉ hostOps1_4_W)).trans <|
  (StableHlo.after_of_writes_sub hostOps1_3 _ hostOps1_3_writes (by decide : main_arg9 ∉ hostOps1_3_W)).trans <|
  (StableHlo.after_of_writes_sub hostOps1_2 _ hostOps1_2_writes (by decide : main_arg9 ∉ hostOps1_2_W)).trans <|
  (StableHlo.after_of_writes_sub hostOps1_1 _ hostOps1_1_writes (by decide : main_arg9 ∉ hostOps1_1_W)).trans <|
  (StableHlo.after_of_writes_sub hostOps1 _ hostOps1_writes (by decide : main_arg9 ∉ hostOps1_W)).trans <|
  (B2_of_ne m ρ c main_arg9 (by decide)).trans <|
  (StableHlo.after_of_writes_sub hostOps0 _ hostOps0_writes (by decide : main_arg9 ∉ hostOps0_W)).trans <| rfl
theorem B19_main_arg10 (c : Dev nD) : B19 m ρ c (Proc.devRef .tc main_arg10) = m ((c : Thread nD τ).loc main_arg10) :=
  (StableHlo.after_of_writes_sub hostOps6 _ hostOps6_writes (by decide : main_arg10 ∉ hostOps6_W)).trans <|
  (B18_of_ne m ρ c main_arg10 (by decide)).trans <|
  (StableHlo.after_of_writes_sub hostOps5 _ hostOps5_writes (by decide : main_arg10 ∉ hostOps5_W)).trans <|
  (B16_of_ne m ρ c main_arg10 (by decide)).trans <|
  (StableHlo.after_of_writes_sub hostOps4 _ hostOps4_writes (by decide : main_arg10 ∉ hostOps4_W)).trans <|
  (B14_of_ne m ρ c main_arg10 (by decide)).trans <|
  (StableHlo.after_of_writes_sub hostOps3 _ hostOps3_writes (by decide : main_arg10 ∉ hostOps3_W)).trans <|
  (B12_of_ne m ρ c main_arg10 (by decide)).trans <|
  (StableHlo.after_of_writes_sub hostOps2 _ hostOps2_writes (by decide : main_arg10 ∉ hostOps2_W)).trans <|
  (B10_of_ne m ρ c main_arg10 (by decide)).trans <|
  (StableHlo.after_of_writes_sub hostOps1_6 _ hostOps1_6_writes (by decide : main_arg10 ∉ hostOps1_6_W)).trans <|
  (StableHlo.after_of_writes_sub hostOps1_5 _ hostOps1_5_writes (by decide : main_arg10 ∉ hostOps1_5_W)).trans <|
  (StableHlo.after_of_writes_sub hostOps1_4 _ hostOps1_4_writes (by decide : main_arg10 ∉ hostOps1_4_W)).trans <|
  (StableHlo.after_of_writes_sub hostOps1_3 _ hostOps1_3_writes (by decide : main_arg10 ∉ hostOps1_3_W)).trans <|
  (StableHlo.after_of_writes_sub hostOps1_2 _ hostOps1_2_writes (by decide : main_arg10 ∉ hostOps1_2_W)).trans <|
  (StableHlo.after_of_writes_sub hostOps1_1 _ hostOps1_1_writes (by decide : main_arg10 ∉ hostOps1_1_W)).trans <|
  (StableHlo.after_of_writes_sub hostOps1 _ hostOps1_writes (by decide : main_arg10 ∉ hostOps1_W)).trans <|
  (B2_of_ne m ρ c main_arg10 (by decide)).trans <|
  (StableHlo.after_of_writes_sub hostOps0 _ hostOps0_writes (by decide : main_arg10 ∉ hostOps0_W)).trans <| rfl
theorem B19_main_arg11 (c : Dev nD) : B19 m ρ c (Proc.devRef .tc main_arg11) = m ((c : Thread nD τ).loc main_arg11) :=
  (StableHlo.after_of_writes_sub hostOps6 _ hostOps6_writes (by decide : main_arg11 ∉ hostOps6_W)).trans <|
  ((B18_arr m ρ c 1).trans (((dat5 (T17 m ρ) c).arrAt_in 1 rfl _).trans (A_eq5 (T17 m ρ) c 1))).trans <|
  (StableHlo.after_of_writes_sub hostOps5 _ hostOps5_writes (by decide : main_arg11 ∉ hostOps5_W)).trans <|
  (B16_of_ne m ρ c main_arg11 (by decide)).trans <|
  (StableHlo.after_of_writes_sub hostOps4 _ hostOps4_writes (by decide : main_arg11 ∉ hostOps4_W)).trans <|
  (B14_of_ne m ρ c main_arg11 (by decide)).trans <|
  (StableHlo.after_of_writes_sub hostOps3 _ hostOps3_writes (by decide : main_arg11 ∉ hostOps3_W)).trans <|
  (B12_of_ne m ρ c main_arg11 (by decide)).trans <|
  (StableHlo.after_of_writes_sub hostOps2 _ hostOps2_writes (by decide : main_arg11 ∉ hostOps2_W)).trans <|
  (B10_of_ne m ρ c main_arg11 (by decide)).trans <|
  (StableHlo.after_of_writes_sub hostOps1_6 _ hostOps1_6_writes (by decide : main_arg11 ∉ hostOps1_6_W)).trans <|
  (StableHlo.after_of_writes_sub hostOps1_5 _ hostOps1_5_writes (by decide : main_arg11 ∉ hostOps1_5_W)).trans <|
  (StableHlo.after_of_writes_sub hostOps1_4 _ hostOps1_4_writes (by decide : main_arg11 ∉ hostOps1_4_W)).trans <|
  (StableHlo.after_of_writes_sub hostOps1_3 _ hostOps1_3_writes (by decide : main_arg11 ∉ hostOps1_3_W)).trans <|
  (StableHlo.after_of_writes_sub hostOps1_2 _ hostOps1_2_writes (by decide : main_arg11 ∉ hostOps1_2_W)).trans <|
  (StableHlo.after_of_writes_sub hostOps1_1 _ hostOps1_1_writes (by decide : main_arg11 ∉ hostOps1_1_W)).trans <|
  (StableHlo.after_of_writes_sub hostOps1 _ hostOps1_writes (by decide : main_arg11 ∉ hostOps1_W)).trans <|
  (B2_of_ne m ρ c main_arg11 (by decide)).trans <|
  (StableHlo.after_of_writes_sub hostOps0 _ hostOps0_writes (by decide : main_arg11 ∉ hostOps0_W)).trans <| rfl
theorem B19_main_arg12 (c : Dev nD) : B19 m ρ c (Proc.devRef .tc main_arg12) = m ((c : Thread nD τ).loc main_arg12) :=
  (StableHlo.after_of_writes_sub hostOps6 _ hostOps6_writes (by decide : main_arg12 ∉ hostOps6_W)).trans <|
  (B18_of_ne m ρ c main_arg12 (by decide)).trans <|
  (StableHlo.after_of_writes_sub hostOps5 _ hostOps5_writes (by decide : main_arg12 ∉ hostOps5_W)).trans <|
  (B16_of_ne m ρ c main_arg12 (by decide)).trans <|
  (StableHlo.after_of_writes_sub hostOps4 _ hostOps4_writes (by decide : main_arg12 ∉ hostOps4_W)).trans <|
  (B14_of_ne m ρ c main_arg12 (by decide)).trans <|
  (StableHlo.after_of_writes_sub hostOps3 _ hostOps3_writes (by decide : main_arg12 ∉ hostOps3_W)).trans <|
  (B12_of_ne m ρ c main_arg12 (by decide)).trans <|
  (StableHlo.after_of_writes_sub hostOps2 _ hostOps2_writes (by decide : main_arg12 ∉ hostOps2_W)).trans <|
  (B10_of_ne m ρ c main_arg12 (by decide)).trans <|
  (StableHlo.after_of_writes_sub hostOps1_6 _ hostOps1_6_writes (by decide : main_arg12 ∉ hostOps1_6_W)).trans <|
  (StableHlo.after_of_writes_sub hostOps1_5 _ hostOps1_5_writes (by decide : main_arg12 ∉ hostOps1_5_W)).trans <|
  (StableHlo.after_of_writes_sub hostOps1_4 _ hostOps1_4_writes (by decide : main_arg12 ∉ hostOps1_4_W)).trans <|
  (StableHlo.after_of_writes_sub hostOps1_3 _ hostOps1_3_writes (by decide : main_arg12 ∉ hostOps1_3_W)).trans <|
  (StableHlo.after_of_writes_sub hostOps1_2 _ hostOps1_2_writes (by decide : main_arg12 ∉ hostOps1_2_W)).trans <|
  (StableHlo.after_of_writes_sub hostOps1_1 _ hostOps1_1_writes (by decide : main_arg12 ∉ hostOps1_1_W)).trans <|
  (StableHlo.after_of_writes_sub hostOps1 _ hostOps1_writes (by decide : main_arg12 ∉ hostOps1_W)).trans <|
  (B2_of_ne m ρ c main_arg12 (by decide)).trans <|
  (StableHlo.after_of_writes_sub hostOps0 _ hostOps0_writes (by decide : main_arg12 ∉ hostOps0_W)).trans <| rfl
theorem B19_main_arg13 (c : Dev nD) : B19 m ρ c (Proc.devRef .tc main_arg13) = m ((c : Thread nD τ).loc main_arg13) :=
  (StableHlo.after_of_writes_sub hostOps6 _ hostOps6_writes (by decide : main_arg13 ∉ hostOps6_W)).trans <|
  (B18_of_ne m ρ c main_arg13 (by decide)).trans <|
  (StableHlo.after_of_writes_sub hostOps5 _ hostOps5_writes (by decide : main_arg13 ∉ hostOps5_W)).trans <|
  (B16_of_ne m ρ c main_arg13 (by decide)).trans <|
  (StableHlo.after_of_writes_sub hostOps4 _ hostOps4_writes (by decide : main_arg13 ∉ hostOps4_W)).trans <|
  (B14_of_ne m ρ c main_arg13 (by decide)).trans <|
  (StableHlo.after_of_writes_sub hostOps3 _ hostOps3_writes (by decide : main_arg13 ∉ hostOps3_W)).trans <|
  (B12_of_ne m ρ c main_arg13 (by decide)).trans <|
  (StableHlo.after_of_writes_sub hostOps2 _ hostOps2_writes (by decide : main_arg13 ∉ hostOps2_W)).trans <|
  (B10_of_ne m ρ c main_arg13 (by decide)).trans <|
  (StableHlo.after_of_writes_sub hostOps1_6 _ hostOps1_6_writes (by decide : main_arg13 ∉ hostOps1_6_W)).trans <|
  (StableHlo.after_of_writes_sub hostOps1_5 _ hostOps1_5_writes (by decide : main_arg13 ∉ hostOps1_5_W)).trans <|
  (StableHlo.after_of_writes_sub hostOps1_4 _ hostOps1_4_writes (by decide : main_arg13 ∉ hostOps1_4_W)).trans <|
  (StableHlo.after_of_writes_sub hostOps1_3 _ hostOps1_3_writes (by decide : main_arg13 ∉ hostOps1_3_W)).trans <|
  (StableHlo.after_of_writes_sub hostOps1_2 _ hostOps1_2_writes (by decide : main_arg13 ∉ hostOps1_2_W)).trans <|
  (StableHlo.after_of_writes_sub hostOps1_1 _ hostOps1_1_writes (by decide : main_arg13 ∉ hostOps1_1_W)).trans <|
  (StableHlo.after_of_writes_sub hostOps1 _ hostOps1_writes (by decide : main_arg13 ∉ hostOps1_W)).trans <|
  (B2_of_ne m ρ c main_arg13 (by decide)).trans <|
  (StableHlo.after_of_writes_sub hostOps0 _ hostOps0_writes (by decide : main_arg13 ∉ hostOps0_W)).trans <| rfl
theorem B19_main_arg14 (c : Dev nD) : B19 m ρ c (Proc.devRef .tc main_arg14) = m ((c : Thread nD τ).loc main_arg14) :=
  (StableHlo.after_of_writes_sub hostOps6 _ hostOps6_writes (by decide : main_arg14 ∉ hostOps6_W)).trans <|
  (B18_of_ne m ρ c main_arg14 (by decide)).trans <|
  (StableHlo.after_of_writes_sub hostOps5 _ hostOps5_writes (by decide : main_arg14 ∉ hostOps5_W)).trans <|
  (B16_of_ne m ρ c main_arg14 (by decide)).trans <|
  (StableHlo.after_of_writes_sub hostOps4 _ hostOps4_writes (by decide : main_arg14 ∉ hostOps4_W)).trans <|
  (B14_of_ne m ρ c main_arg14 (by decide)).trans <|
  (StableHlo.after_of_writes_sub hostOps3 _ hostOps3_writes (by decide : main_arg14 ∉ hostOps3_W)).trans <|
  (B12_of_ne m ρ c main_arg14 (by decide)).trans <|
  (StableHlo.after_of_writes_sub hostOps2 _ hostOps2_writes (by decide : main_arg14 ∉ hostOps2_W)).trans <|
  (B10_of_ne m ρ c main_arg14 (by decide)).trans <|
  (StableHlo.after_of_writes_sub hostOps1_6 _ hostOps1_6_writes (by decide : main_arg14 ∉ hostOps1_6_W)).trans <|
  (StableHlo.after_of_writes_sub hostOps1_5 _ hostOps1_5_writes (by decide : main_arg14 ∉ hostOps1_5_W)).trans <|
  (StableHlo.after_of_writes_sub hostOps1_4 _ hostOps1_4_writes (by decide : main_arg14 ∉ hostOps1_4_W)).trans <|
  (StableHlo.after_of_writes_sub hostOps1_3 _ hostOps1_3_writes (by decide : main_arg14 ∉ hostOps1_3_W)).trans <|
  (StableHlo.after_of_writes_sub hostOps1_2 _ hostOps1_2_writes (by decide : main_arg14 ∉ hostOps1_2_W)).trans <|
  (StableHlo.after_of_writes_sub hostOps1_1 _ hostOps1_1_writes (by decide : main_arg14 ∉ hostOps1_1_W)).trans <|
  (StableHlo.after_of_writes_sub hostOps1 _ hostOps1_writes (by decide : main_arg14 ∉ hostOps1_W)).trans <|
  (B2_of_ne m ρ c main_arg14 (by decide)).trans <|
  (StableHlo.after_of_writes_sub hostOps0 _ hostOps0_writes (by decide : main_arg14 ∉ hostOps0_W)).trans <| rfl
theorem B19_main_arg15 (c : Dev nD) : B19 m ρ c (Proc.devRef .tc main_arg15) = m ((c : Thread nD τ).loc main_arg15) :=
  (StableHlo.after_of_writes_sub hostOps6 _ hostOps6_writes (by decide : main_arg15 ∉ hostOps6_W)).trans <|
  (B18_of_ne m ρ c main_arg15 (by decide)).trans <|
  (StableHlo.after_of_writes_sub hostOps5 _ hostOps5_writes (by decide : main_arg15 ∉ hostOps5_W)).trans <|
  (B16_of_ne m ρ c main_arg15 (by decide)).trans <|
  (StableHlo.after_of_writes_sub hostOps4 _ hostOps4_writes (by decide : main_arg15 ∉ hostOps4_W)).trans <|
  (B14_of_ne m ρ c main_arg15 (by decide)).trans <|
  (StableHlo.after_of_writes_sub hostOps3 _ hostOps3_writes (by decide : main_arg15 ∉ hostOps3_W)).trans <|
  (B12_of_ne m ρ c main_arg15 (by decide)).trans <|
  (StableHlo.after_of_writes_sub hostOps2 _ hostOps2_writes (by decide : main_arg15 ∉ hostOps2_W)).trans <|
  (B10_of_ne m ρ c main_arg15 (by decide)).trans <|
  (StableHlo.after_of_writes_sub hostOps1_6 _ hostOps1_6_writes (by decide : main_arg15 ∉ hostOps1_6_W)).trans <|
  (StableHlo.after_of_writes_sub hostOps1_5 _ hostOps1_5_writes (by decide : main_arg15 ∉ hostOps1_5_W)).trans <|
  (StableHlo.after_of_writes_sub hostOps1_4 _ hostOps1_4_writes (by decide : main_arg15 ∉ hostOps1_4_W)).trans <|
  (StableHlo.after_of_writes_sub hostOps1_3 _ hostOps1_3_writes (by decide : main_arg15 ∉ hostOps1_3_W)).trans <|
  (StableHlo.after_of_writes_sub hostOps1_2 _ hostOps1_2_writes (by decide : main_arg15 ∉ hostOps1_2_W)).trans <|
  (StableHlo.after_of_writes_sub hostOps1_1 _ hostOps1_1_writes (by decide : main_arg15 ∉ hostOps1_1_W)).trans <|
  (StableHlo.after_of_writes_sub hostOps1 _ hostOps1_writes (by decide : main_arg15 ∉ hostOps1_W)).trans <|
  (B2_of_ne m ρ c main_arg15 (by decide)).trans <|
  (StableHlo.after_of_writes_sub hostOps0 _ hostOps0_writes (by decide : main_arg15 ∉ hostOps0_W)).trans <| rfl
theorem B19_main_arg16 (c : Dev nD) : B19 m ρ c (Proc.devRef .tc main_arg16) = m ((c : Thread nD τ).loc main_arg16) :=
  (StableHlo.after_of_writes_sub hostOps6 _ hostOps6_writes (by decide : main_arg16 ∉ hostOps6_W)).trans <|
  (B18_of_ne m ρ c main_arg16 (by decide)).trans <|
  (StableHlo.after_of_writes_sub hostOps5 _ hostOps5_writes (by decide : main_arg16 ∉ hostOps5_W)).trans <|
  (B16_of_ne m ρ c main_arg16 (by decide)).trans <|
  (StableHlo.after_of_writes_sub hostOps4 _ hostOps4_writes (by decide : main_arg16 ∉ hostOps4_W)).trans <|
  (B14_of_ne m ρ c main_arg16 (by decide)).trans <|
  (StableHlo.after_of_writes_sub hostOps3 _ hostOps3_writes (by decide : main_arg16 ∉ hostOps3_W)).trans <|
  (B12_of_ne m ρ c main_arg16 (by decide)).trans <|
  (StableHlo.after_of_writes_sub hostOps2 _ hostOps2_writes (by decide : main_arg16 ∉ hostOps2_W)).trans <|
  (B10_of_ne m ρ c main_arg16 (by decide)).trans <|
  (StableHlo.after_of_writes_sub hostOps1_6 _ hostOps1_6_writes (by decide : main_arg16 ∉ hostOps1_6_W)).trans <|
  (StableHlo.after_of_writes_sub hostOps1_5 _ hostOps1_5_writes (by decide : main_arg16 ∉ hostOps1_5_W)).trans <|
  (StableHlo.after_of_writes_sub hostOps1_4 _ hostOps1_4_writes (by decide : main_arg16 ∉ hostOps1_4_W)).trans <|
  (StableHlo.after_of_writes_sub hostOps1_3 _ hostOps1_3_writes (by decide : main_arg16 ∉ hostOps1_3_W)).trans <|
  (StableHlo.after_of_writes_sub hostOps1_2 _ hostOps1_2_writes (by decide : main_arg16 ∉ hostOps1_2_W)).trans <|
  (StableHlo.after_of_writes_sub hostOps1_1 _ hostOps1_1_writes (by decide : main_arg16 ∉ hostOps1_1_W)).trans <|
  (StableHlo.after_of_writes_sub hostOps1 _ hostOps1_writes (by decide : main_arg16 ∉ hostOps1_W)).trans <|
  (B2_of_ne m ρ c main_arg16 (by decide)).trans <|
  (StableHlo.after_of_writes_sub hostOps0 _ hostOps0_writes (by decide : main_arg16 ∉ hostOps0_W)).trans <| rfl
theorem B19_main_arg17 (c : Dev nD) : B19 m ρ c (Proc.devRef .tc main_arg17) = m ((c : Thread nD τ).loc main_arg17) :=
  (StableHlo.after_of_writes_sub hostOps6 _ hostOps6_writes (by decide : main_arg17 ∉ hostOps6_W)).trans <|
  (B18_of_ne m ρ c main_arg17 (by decide)).trans <|
  (StableHlo.after_of_writes_sub hostOps5 _ hostOps5_writes (by decide : main_arg17 ∉ hostOps5_W)).trans <|
  (B16_of_ne m ρ c main_arg17 (by decide)).trans <|
  (StableHlo.after_of_writes_sub hostOps4 _ hostOps4_writes (by decide : main_arg17 ∉ hostOps4_W)).trans <|
  (B14_of_ne m ρ c main_arg17 (by decide)).trans <|
  (StableHlo.after_of_writes_sub hostOps3 _ hostOps3_writes (by decide : main_arg17 ∉ hostOps3_W)).trans <|
  (B12_of_ne m ρ c main_arg17 (by decide)).trans <|
  (StableHlo.after_of_writes_sub hostOps2 _ hostOps2_writes (by decide : main_arg17 ∉ hostOps2_W)).trans <|
  (B10_of_ne m ρ c main_arg17 (by decide)).trans <|
  (StableHlo.after_of_writes_sub hostOps1_6 _ hostOps1_6_writes (by decide : main_arg17 ∉ hostOps1_6_W)).trans <|
  (StableHlo.after_of_writes_sub hostOps1_5 _ hostOps1_5_writes (by decide : main_arg17 ∉ hostOps1_5_W)).trans <|
  (StableHlo.after_of_writes_sub hostOps1_4 _ hostOps1_4_writes (by decide : main_arg17 ∉ hostOps1_4_W)).trans <|
  (StableHlo.after_of_writes_sub hostOps1_3 _ hostOps1_3_writes (by decide : main_arg17 ∉ hostOps1_3_W)).trans <|
  (StableHlo.after_of_writes_sub hostOps1_2 _ hostOps1_2_writes (by decide : main_arg17 ∉ hostOps1_2_W)).trans <|
  (StableHlo.after_of_writes_sub hostOps1_1 _ hostOps1_1_writes (by decide : main_arg17 ∉ hostOps1_1_W)).trans <|
  (StableHlo.after_of_writes_sub hostOps1 _ hostOps1_writes (by decide : main_arg17 ∉ hostOps1_W)).trans <|
  (B2_of_ne m ρ c main_arg17 (by decide)).trans <|
  (StableHlo.after_of_writes_sub hostOps0 _ hostOps0_writes (by decide : main_arg17 ∉ hostOps0_W)).trans <| rfl
theorem B19_main_arg18 (c : Dev nD) : B19 m ρ c (Proc.devRef .tc main_arg18) = m ((c : Thread nD τ).loc main_arg18) :=
  (StableHlo.after_of_writes_sub hostOps6 _ hostOps6_writes (by decide : main_arg18 ∉ hostOps6_W)).trans <|
  (B18_of_ne m ρ c main_arg18 (by decide)).trans <|
  (StableHlo.after_of_writes_sub hostOps5 _ hostOps5_writes (by decide : main_arg18 ∉ hostOps5_W)).trans <|
  (B16_of_ne m ρ c main_arg18 (by decide)).trans <|
  (StableHlo.after_of_writes_sub hostOps4 _ hostOps4_writes (by decide : main_arg18 ∉ hostOps4_W)).trans <|
  (B14_of_ne m ρ c main_arg18 (by decide)).trans <|
  (StableHlo.after_of_writes_sub hostOps3 _ hostOps3_writes (by decide : main_arg18 ∉ hostOps3_W)).trans <|
  (B12_of_ne m ρ c main_arg18 (by decide)).trans <|
  (StableHlo.after_of_writes_sub hostOps2 _ hostOps2_writes (by decide : main_arg18 ∉ hostOps2_W)).trans <|
  (B10_of_ne m ρ c main_arg18 (by decide)).trans <|
  (StableHlo.after_of_writes_sub hostOps1_6 _ hostOps1_6_writes (by decide : main_arg18 ∉ hostOps1_6_W)).trans <|
  (StableHlo.after_of_writes_sub hostOps1_5 _ hostOps1_5_writes (by decide : main_arg18 ∉ hostOps1_5_W)).trans <|
  (StableHlo.after_of_writes_sub hostOps1_4 _ hostOps1_4_writes (by decide : main_arg18 ∉ hostOps1_4_W)).trans <|
  (StableHlo.after_of_writes_sub hostOps1_3 _ hostOps1_3_writes (by decide : main_arg18 ∉ hostOps1_3_W)).trans <|
  (StableHlo.after_of_writes_sub hostOps1_2 _ hostOps1_2_writes (by decide : main_arg18 ∉ hostOps1_2_W)).trans <|
  (StableHlo.after_of_writes_sub hostOps1_1 _ hostOps1_1_writes (by decide : main_arg18 ∉ hostOps1_1_W)).trans <|
  (StableHlo.after_of_writes_sub hostOps1 _ hostOps1_writes (by decide : main_arg18 ∉ hostOps1_W)).trans <|
  (B2_of_ne m ρ c main_arg18 (by decide)).trans <|
  (StableHlo.after_of_writes_sub hostOps0 _ hostOps0_writes (by decide : main_arg18 ∉ hostOps0_W)).trans <| rfl
theorem B19_main_arg19 (c : Dev nD) : B19 m ρ c (Proc.devRef .tc main_arg19) = m ((c : Thread nD τ).loc main_arg19) :=
  (StableHlo.after_of_writes_sub hostOps6 _ hostOps6_writes (by decide : main_arg19 ∉ hostOps6_W)).trans <|
  (B18_of_ne m ρ c main_arg19 (by decide)).trans <|
  (StableHlo.after_of_writes_sub hostOps5 _ hostOps5_writes (by decide : main_arg19 ∉ hostOps5_W)).trans <|
  (B16_of_ne m ρ c main_arg19 (by decide)).trans <|
  (StableHlo.after_of_writes_sub hostOps4 _ hostOps4_writes (by decide : main_arg19 ∉ hostOps4_W)).trans <|
  (B14_of_ne m ρ c main_arg19 (by decide)).trans <|
  (StableHlo.after_of_writes_sub hostOps3 _ hostOps3_writes (by decide : main_arg19 ∉ hostOps3_W)).trans <|
  (B12_of_ne m ρ c main_arg19 (by decide)).trans <|
  (StableHlo.after_of_writes_sub hostOps2 _ hostOps2_writes (by decide : main_arg19 ∉ hostOps2_W)).trans <|
  (B10_of_ne m ρ c main_arg19 (by decide)).trans <|
  (StableHlo.after_of_writes_sub hostOps1_6 _ hostOps1_6_writes (by decide : main_arg19 ∉ hostOps1_6_W)).trans <|
  (StableHlo.after_of_writes_sub hostOps1_5 _ hostOps1_5_writes (by decide : main_arg19 ∉ hostOps1_5_W)).trans <|
  (StableHlo.after_of_writes_sub hostOps1_4 _ hostOps1_4_writes (by decide : main_arg19 ∉ hostOps1_4_W)).trans <|
  (StableHlo.after_of_writes_sub hostOps1_3 _ hostOps1_3_writes (by decide : main_arg19 ∉ hostOps1_3_W)).trans <|
  (StableHlo.after_of_writes_sub hostOps1_2 _ hostOps1_2_writes (by decide : main_arg19 ∉ hostOps1_2_W)).trans <|
  (StableHlo.after_of_writes_sub hostOps1_1 _ hostOps1_1_writes (by decide : main_arg19 ∉ hostOps1_1_W)).trans <|
  (StableHlo.after_of_writes_sub hostOps1 _ hostOps1_writes (by decide : main_arg19 ∉ hostOps1_W)).trans <|
  (B2_of_ne m ρ c main_arg19 (by decide)).trans <|
  (StableHlo.after_of_writes_sub hostOps0 _ hostOps0_writes (by decide : main_arg19 ∉ hostOps0_W)).trans <| rfl
theorem B19_main_arg20 (c : Dev nD) : B19 m ρ c (Proc.devRef .tc main_arg20) = m ((c : Thread nD τ).loc main_arg20) :=
  (StableHlo.after_of_writes_sub hostOps6 _ hostOps6_writes (by decide : main_arg20 ∉ hostOps6_W)).trans <|
  (B18_of_ne m ρ c main_arg20 (by decide)).trans <|
  (StableHlo.after_of_writes_sub hostOps5 _ hostOps5_writes (by decide : main_arg20 ∉ hostOps5_W)).trans <|
  (B16_of_ne m ρ c main_arg20 (by decide)).trans <|
  (StableHlo.after_of_writes_sub hostOps4 _ hostOps4_writes (by decide : main_arg20 ∉ hostOps4_W)).trans <|
  (B14_of_ne m ρ c main_arg20 (by decide)).trans <|
  (StableHlo.after_of_writes_sub hostOps3 _ hostOps3_writes (by decide : main_arg20 ∉ hostOps3_W)).trans <|
  (B12_of_ne m ρ c main_arg20 (by decide)).trans <|
  (StableHlo.after_of_writes_sub hostOps2 _ hostOps2_writes (by decide : main_arg20 ∉ hostOps2_W)).trans <|
  (B10_of_ne m ρ c main_arg20 (by decide)).trans <|
  (StableHlo.after_of_writes_sub hostOps1_6 _ hostOps1_6_writes (by decide : main_arg20 ∉ hostOps1_6_W)).trans <|
  (StableHlo.after_of_writes_sub hostOps1_5 _ hostOps1_5_writes (by decide : main_arg20 ∉ hostOps1_5_W)).trans <|
  (StableHlo.after_of_writes_sub hostOps1_4 _ hostOps1_4_writes (by decide : main_arg20 ∉ hostOps1_4_W)).trans <|
  (StableHlo.after_of_writes_sub hostOps1_3 _ hostOps1_3_writes (by decide : main_arg20 ∉ hostOps1_3_W)).trans <|
  (StableHlo.after_of_writes_sub hostOps1_2 _ hostOps1_2_writes (by decide : main_arg20 ∉ hostOps1_2_W)).trans <|
  (StableHlo.after_of_writes_sub hostOps1_1 _ hostOps1_1_writes (by decide : main_arg20 ∉ hostOps1_1_W)).trans <|
  (StableHlo.after_of_writes_sub hostOps1 _ hostOps1_writes (by decide : main_arg20 ∉ hostOps1_W)).trans <|
  (B2_of_ne m ρ c main_arg20 (by decide)).trans <|
  (StableHlo.after_of_writes_sub hostOps0 _ hostOps0_writes (by decide : main_arg20 ∉ hostOps0_W)).trans <| rfl
theorem B19_main_arg21 (c : Dev nD) : B19 m ρ c (Proc.devRef .tc main_arg21) = m ((c : Thread nD τ).loc main_arg21) :=
  (StableHlo.after_of_writes_sub hostOps6 _ hostOps6_writes (by decide : main_arg21 ∉ hostOps6_W)).trans <|
  (B18_of_ne m ρ c main_arg21 (by decide)).trans <|
  (StableHlo.after_of_writes_sub hostOps5 _ hostOps5_writes (by decide : main_arg21 ∉ hostOps5_W)).trans <|
  (B16_of_ne m ρ c main_arg21 (by decide)).trans <|
  (StableHlo.after_of_writes_sub hostOps4 _ hostOps4_writes (by decide : main_arg21 ∉ hostOps4_W)).trans <|
  (B14_of_ne m ρ c main_arg21 (by decide)).trans <|
  (StableHlo.after_of_writes_sub hostOps3 _ hostOps3_writes (by decide : main_arg21 ∉ hostOps3_W)).trans <|
  (B12_of_ne m ρ c main_arg21 (by decide)).trans <|
  (StableHlo.after_of_writes_sub hostOps2 _ hostOps2_writes (by decide : main_arg21 ∉ hostOps2_W)).trans <|
  (B10_of_ne m ρ c main_arg21 (by decide)).trans <|
  (StableHlo.after_of_writes_sub hostOps1_6 _ hostOps1_6_writes (by decide : main_arg21 ∉ hostOps1_6_W)).trans <|
  (StableHlo.after_of_writes_sub hostOps1_5 _ hostOps1_5_writes (by decide : main_arg21 ∉ hostOps1_5_W)).trans <|
  (StableHlo.after_of_writes_sub hostOps1_4 _ hostOps1_4_writes (by decide : main_arg21 ∉ hostOps1_4_W)).trans <|
  (StableHlo.after_of_writes_sub hostOps1_3 _ hostOps1_3_writes (by decide : main_arg21 ∉ hostOps1_3_W)).trans <|
  (StableHlo.after_of_writes_sub hostOps1_2 _ hostOps1_2_writes (by decide : main_arg21 ∉ hostOps1_2_W)).trans <|
  (StableHlo.after_of_writes_sub hostOps1_1 _ hostOps1_1_writes (by decide : main_arg21 ∉ hostOps1_1_W)).trans <|
  (StableHlo.after_of_writes_sub hostOps1 _ hostOps1_writes (by decide : main_arg21 ∉ hostOps1_W)).trans <|
  (B2_of_ne m ρ c main_arg21 (by decide)).trans <|
  (StableHlo.after_of_writes_sub hostOps0 _ hostOps0_writes (by decide : main_arg21 ∉ hostOps0_W)).trans <| rfl
theorem B19_main_arg22 (c : Dev nD) : B19 m ρ c (Proc.devRef .tc main_arg22) = m ((c : Thread nD τ).loc main_arg22) :=
  (StableHlo.after_of_writes_sub hostOps6 _ hostOps6_writes (by decide : main_arg22 ∉ hostOps6_W)).trans <|
  (B18_of_ne m ρ c main_arg22 (by decide)).trans <|
  (StableHlo.after_of_writes_sub hostOps5 _ hostOps5_writes (by decide : main_arg22 ∉ hostOps5_W)).trans <|
  (B16_of_ne m ρ c main_arg22 (by decide)).trans <|
  (StableHlo.after_of_writes_sub hostOps4 _ hostOps4_writes (by decide : main_arg22 ∉ hostOps4_W)).trans <|
  (B14_of_ne m ρ c main_arg22 (by decide)).trans <|
  (StableHlo.after_of_writes_sub hostOps3 _ hostOps3_writes (by decide : main_arg22 ∉ hostOps3_W)).trans <|
  (B12_of_ne m ρ c main_arg22 (by decide)).trans <|
  (StableHlo.after_of_writes_sub hostOps2 _ hostOps2_writes (by decide : main_arg22 ∉ hostOps2_W)).trans <|
  (B10_of_ne m ρ c main_arg22 (by decide)).trans <|
  (StableHlo.after_of_writes_sub hostOps1_6 _ hostOps1_6_writes (by decide : main_arg22 ∉ hostOps1_6_W)).trans <|
  (StableHlo.after_of_writes_sub hostOps1_5 _ hostOps1_5_writes (by decide : main_arg22 ∉ hostOps1_5_W)).trans <|
  (StableHlo.after_of_writes_sub hostOps1_4 _ hostOps1_4_writes (by decide : main_arg22 ∉ hostOps1_4_W)).trans <|
  (StableHlo.after_of_writes_sub hostOps1_3 _ hostOps1_3_writes (by decide : main_arg22 ∉ hostOps1_3_W)).trans <|
  (StableHlo.after_of_writes_sub hostOps1_2 _ hostOps1_2_writes (by decide : main_arg22 ∉ hostOps1_2_W)).trans <|
  (StableHlo.after_of_writes_sub hostOps1_1 _ hostOps1_1_writes (by decide : main_arg22 ∉ hostOps1_1_W)).trans <|
  (StableHlo.after_of_writes_sub hostOps1 _ hostOps1_writes (by decide : main_arg22 ∉ hostOps1_W)).trans <|
  (B2_of_ne m ρ c main_arg22 (by decide)).trans <|
  (StableHlo.after_of_writes_sub hostOps0 _ hostOps0_writes (by decide : main_arg22 ∉ hostOps0_W)).trans <| rfl
theorem B19_main_arg23 (c : Dev nD) : B19 m ρ c (Proc.devRef .tc main_arg23) = m ((c : Thread nD τ).loc main_arg23) :=
  (StableHlo.after_of_writes_sub hostOps6 _ hostOps6_writes (by decide : main_arg23 ∉ hostOps6_W)).trans <|
  (B18_of_ne m ρ c main_arg23 (by decide)).trans <|
  (StableHlo.after_of_writes_sub hostOps5 _ hostOps5_writes (by decide : main_arg23 ∉ hostOps5_W)).trans <|
  (B16_of_ne m ρ c main_arg23 (by decide)).trans <|
  (StableHlo.after_of_writes_sub hostOps4 _ hostOps4_writes (by decide : main_arg23 ∉ hostOps4_W)).trans <|
  (B14_of_ne m ρ c main_arg23 (by decide)).trans <|
  (StableHlo.after_of_writes_sub hostOps3 _ hostOps3_writes (by decide : main_arg23 ∉ hostOps3_W)).trans <|
  (B12_of_ne m ρ c main_arg23 (by decide)).trans <|
  (StableHlo.after_of_writes_sub hostOps2 _ hostOps2_writes (by decide : main_arg23 ∉ hostOps2_W)).trans <|
  (B10_of_ne m ρ c main_arg23 (by decide)).trans <|
  (StableHlo.after_of_writes_sub hostOps1_6 _ hostOps1_6_writes (by decide : main_arg23 ∉ hostOps1_6_W)).trans <|
  (StableHlo.after_of_writes_sub hostOps1_5 _ hostOps1_5_writes (by decide : main_arg23 ∉ hostOps1_5_W)).trans <|
  (StableHlo.after_of_writes_sub hostOps1_4 _ hostOps1_4_writes (by decide : main_arg23 ∉ hostOps1_4_W)).trans <|
  (StableHlo.after_of_writes_sub hostOps1_3 _ hostOps1_3_writes (by decide : main_arg23 ∉ hostOps1_3_W)).trans <|
  (StableHlo.after_of_writes_sub hostOps1_2 _ hostOps1_2_writes (by decide : main_arg23 ∉ hostOps1_2_W)).trans <|
  (StableHlo.after_of_writes_sub hostOps1_1 _ hostOps1_1_writes (by decide : main_arg23 ∉ hostOps1_1_W)).trans <|
  (StableHlo.after_of_writes_sub hostOps1 _ hostOps1_writes (by decide : main_arg23 ∉ hostOps1_W)).trans <|
  (B2_of_ne m ρ c main_arg23 (by decide)).trans <|
  (StableHlo.after_of_writes_sub hostOps0 _ hostOps0_writes (by decide : main_arg23 ∉ hostOps0_W)).trans <| rfl
theorem B19_main_arg24 (c : Dev nD) : B19 m ρ c (Proc.devRef .tc main_arg24) = m ((c : Thread nD τ).loc main_arg24) :=
  (StableHlo.after_of_writes_sub hostOps6 _ hostOps6_writes (by decide : main_arg24 ∉ hostOps6_W)).trans <|
  (B18_of_ne m ρ c main_arg24 (by decide)).trans <|
  (StableHlo.after_of_writes_sub hostOps5 _ hostOps5_writes (by decide : main_arg24 ∉ hostOps5_W)).trans <|
  (B16_of_ne m ρ c main_arg24 (by decide)).trans <|
  (StableHlo.after_of_writes_sub hostOps4 _ hostOps4_writes (by decide : main_arg24 ∉ hostOps4_W)).trans <|
  (B14_of_ne m ρ c main_arg24 (by decide)).trans <|
  (StableHlo.after_of_writes_sub hostOps3 _ hostOps3_writes (by decide : main_arg24 ∉ hostOps3_W)).trans <|
  (B12_of_ne m ρ c main_arg24 (by decide)).trans <|
  (StableHlo.after_of_writes_sub hostOps2 _ hostOps2_writes (by decide : main_arg24 ∉ hostOps2_W)).trans <|
  (B10_of_ne m ρ c main_arg24 (by decide)).trans <|
  (StableHlo.after_of_writes_sub hostOps1_6 _ hostOps1_6_writes (by decide : main_arg24 ∉ hostOps1_6_W)).trans <|
  (StableHlo.after_of_writes_sub hostOps1_5 _ hostOps1_5_writes (by decide : main_arg24 ∉ hostOps1_5_W)).trans <|
  (StableHlo.after_of_writes_sub hostOps1_4 _ hostOps1_4_writes (by decide : main_arg24 ∉ hostOps1_4_W)).trans <|
  (StableHlo.after_of_writes_sub hostOps1_3 _ hostOps1_3_writes (by decide : main_arg24 ∉ hostOps1_3_W)).trans <|
  (StableHlo.after_of_writes_sub hostOps1_2 _ hostOps1_2_writes (by decide : main_arg24 ∉ hostOps1_2_W)).trans <|
  (StableHlo.after_of_writes_sub hostOps1_1 _ hostOps1_1_writes (by decide : main_arg24 ∉ hostOps1_1_W)).trans <|
  (StableHlo.after_of_writes_sub hostOps1 _ hostOps1_writes (by decide : main_arg24 ∉ hostOps1_W)).trans <|
  (B2_of_ne m ρ c main_arg24 (by decide)).trans <|
  (StableHlo.after_of_writes_sub hostOps0 _ hostOps0_writes (by decide : main_arg24 ∉ hostOps0_W)).trans <| rfl
theorem B19_main_arg25 (c : Dev nD) : B19 m ρ c (Proc.devRef .tc main_arg25) = m ((c : Thread nD τ).loc main_arg25) :=
  (StableHlo.after_of_writes_sub hostOps6 _ hostOps6_writes (by decide : main_arg25 ∉ hostOps6_W)).trans <|
  (B18_of_ne m ρ c main_arg25 (by decide)).trans <|
  (StableHlo.after_of_writes_sub hostOps5 _ hostOps5_writes (by decide : main_arg25 ∉ hostOps5_W)).trans <|
  (B16_of_ne m ρ c main_arg25 (by decide)).trans <|
  (StableHlo.after_of_writes_sub hostOps4 _ hostOps4_writes (by decide : main_arg25 ∉ hostOps4_W)).trans <|
  (B14_of_ne m ρ c main_arg25 (by decide)).trans <|
  (StableHlo.after_of_writes_sub hostOps3 _ hostOps3_writes (by decide : main_arg25 ∉ hostOps3_W)).trans <|
  (B12_of_ne m ρ c main_arg25 (by decide)).trans <|
  (StableHlo.after_of_writes_sub hostOps2 _ hostOps2_writes (by decide : main_arg25 ∉ hostOps2_W)).trans <|
  (B10_of_ne m ρ c main_arg25 (by decide)).trans <|
  (StableHlo.after_of_writes_sub hostOps1_6 _ hostOps1_6_writes (by decide : main_arg25 ∉ hostOps1_6_W)).trans <|
  (StableHlo.after_of_writes_sub hostOps1_5 _ hostOps1_5_writes (by decide : main_arg25 ∉ hostOps1_5_W)).trans <|
  (StableHlo.after_of_writes_sub hostOps1_4 _ hostOps1_4_writes (by decide : main_arg25 ∉ hostOps1_4_W)).trans <|
  (StableHlo.after_of_writes_sub hostOps1_3 _ hostOps1_3_writes (by decide : main_arg25 ∉ hostOps1_3_W)).trans <|
  (StableHlo.after_of_writes_sub hostOps1_2 _ hostOps1_2_writes (by decide : main_arg25 ∉ hostOps1_2_W)).trans <|
  (StableHlo.after_of_writes_sub hostOps1_1 _ hostOps1_1_writes (by decide : main_arg25 ∉ hostOps1_1_W)).trans <|
  (StableHlo.after_of_writes_sub hostOps1 _ hostOps1_writes (by decide : main_arg25 ∉ hostOps1_W)).trans <|
  (B2_of_ne m ρ c main_arg25 (by decide)).trans <|
  (StableHlo.after_of_writes_sub hostOps0 _ hostOps0_writes (by decide : main_arg25 ∉ hostOps0_W)).trans <| rfl
theorem B19_main_arg26 (c : Dev nD) : B19 m ρ c (Proc.devRef .tc main_arg26) = m ((c : Thread nD τ).loc main_arg26) :=
  (StableHlo.after_of_writes_sub hostOps6 _ hostOps6_writes (by decide : main_arg26 ∉ hostOps6_W)).trans <|
  (B18_of_ne m ρ c main_arg26 (by decide)).trans <|
  (StableHlo.after_of_writes_sub hostOps5 _ hostOps5_writes (by decide : main_arg26 ∉ hostOps5_W)).trans <|
  (B16_of_ne m ρ c main_arg26 (by decide)).trans <|
  (StableHlo.after_of_writes_sub hostOps4 _ hostOps4_writes (by decide : main_arg26 ∉ hostOps4_W)).trans <|
  (B14_of_ne m ρ c main_arg26 (by decide)).trans <|
  (StableHlo.after_of_writes_sub hostOps3 _ hostOps3_writes (by decide : main_arg26 ∉ hostOps3_W)).trans <|
  (B12_of_ne m ρ c main_arg26 (by decide)).trans <|
  (StableHlo.after_of_writes_sub hostOps2 _ hostOps2_writes (by decide : main_arg26 ∉ hostOps2_W)).trans <|
  (B10_of_ne m ρ c main_arg26 (by decide)).trans <|
  (StableHlo.after_of_writes_sub hostOps1_6 _ hostOps1_6_writes (by decide : main_arg26 ∉ hostOps1_6_W)).trans <|
  (StableHlo.after_of_writes_sub hostOps1_5 _ hostOps1_5_writes (by decide : main_arg26 ∉ hostOps1_5_W)).trans <|
  (StableHlo.after_of_writes_sub hostOps1_4 _ hostOps1_4_writes (by decide : main_arg26 ∉ hostOps1_4_W)).trans <|
  (StableHlo.after_of_writes_sub hostOps1_3 _ hostOps1_3_writes (by decide : main_arg26 ∉ hostOps1_3_W)).trans <|
  (StableHlo.after_of_writes_sub hostOps1_2 _ hostOps1_2_writes (by decide : main_arg26 ∉ hostOps1_2_W)).trans <|
  (StableHlo.after_of_writes_sub hostOps1_1 _ hostOps1_1_writes (by decide : main_arg26 ∉ hostOps1_1_W)).trans <|
  (StableHlo.after_of_writes_sub hostOps1 _ hostOps1_writes (by decide : main_arg26 ∉ hostOps1_W)).trans <|
  (B2_of_ne m ρ c main_arg26 (by decide)).trans <|
  (StableHlo.after_of_writes_sub hostOps0 _ hostOps0_writes (by decide : main_arg26 ∉ hostOps0_W)).trans <| rfl
theorem B19_main_arg27 (c : Dev nD) : B19 m ρ c (Proc.devRef .tc main_arg27) = m ((c : Thread nD τ).loc main_arg27) :=
  (StableHlo.after_of_writes_sub hostOps6 _ hostOps6_writes (by decide : main_arg27 ∉ hostOps6_W)).trans <|
  (B18_of_ne m ρ c main_arg27 (by decide)).trans <|
  (StableHlo.after_of_writes_sub hostOps5 _ hostOps5_writes (by decide : main_arg27 ∉ hostOps5_W)).trans <|
  (B16_of_ne m ρ c main_arg27 (by decide)).trans <|
  (StableHlo.after_of_writes_sub hostOps4 _ hostOps4_writes (by decide : main_arg27 ∉ hostOps4_W)).trans <|
  (B14_of_ne m ρ c main_arg27 (by decide)).trans <|
  (StableHlo.after_of_writes_sub hostOps3 _ hostOps3_writes (by decide : main_arg27 ∉ hostOps3_W)).trans <|
  (B12_of_ne m ρ c main_arg27 (by decide)).trans <|
  (StableHlo.after_of_writes_sub hostOps2 _ hostOps2_writes (by decide : main_arg27 ∉ hostOps2_W)).trans <|
  (B10_of_ne m ρ c main_arg27 (by decide)).trans <|
  (StableHlo.after_of_writes_sub hostOps1_6 _ hostOps1_6_writes (by decide : main_arg27 ∉ hostOps1_6_W)).trans <|
  (StableHlo.after_of_writes_sub hostOps1_5 _ hostOps1_5_writes (by decide : main_arg27 ∉ hostOps1_5_W)).trans <|
  (StableHlo.after_of_writes_sub hostOps1_4 _ hostOps1_4_writes (by decide : main_arg27 ∉ hostOps1_4_W)).trans <|
  (StableHlo.after_of_writes_sub hostOps1_3 _ hostOps1_3_writes (by decide : main_arg27 ∉ hostOps1_3_W)).trans <|
  (StableHlo.after_of_writes_sub hostOps1_2 _ hostOps1_2_writes (by decide : main_arg27 ∉ hostOps1_2_W)).trans <|
  (StableHlo.after_of_writes_sub hostOps1_1 _ hostOps1_1_writes (by decide : main_arg27 ∉ hostOps1_1_W)).trans <|
  (StableHlo.after_of_writes_sub hostOps1 _ hostOps1_writes (by decide : main_arg27 ∉ hostOps1_W)).trans <|
  (B2_of_ne m ρ c main_arg27 (by decide)).trans <|
  (StableHlo.after_of_writes_sub hostOps0 _ hostOps0_writes (by decide : main_arg27 ∉ hostOps0_W)).trans <| rfl
theorem B19_main_arg28 (c : Dev nD) : B19 m ρ c (Proc.devRef .tc main_arg28) = m ((c : Thread nD τ).loc main_arg28) :=
  (StableHlo.after_of_writes_sub hostOps6 _ hostOps6_writes (by decide : main_arg28 ∉ hostOps6_W)).trans <|
  (B18_of_ne m ρ c main_arg28 (by decide)).trans <|
  (StableHlo.after_of_writes_sub hostOps5 _ hostOps5_writes (by decide : main_arg28 ∉ hostOps5_W)).trans <|
  (B16_of_ne m ρ c main_arg28 (by decide)).trans <|
  (StableHlo.after_of_writes_sub hostOps4 _ hostOps4_writes (by decide : main_arg28 ∉ hostOps4_W)).trans <|
  (B14_of_ne m ρ c main_arg28 (by decide)).trans <|
  (StableHlo.after_of_writes_sub hostOps3 _ hostOps3_writes (by decide : main_arg28 ∉ hostOps3_W)).trans <|
  (B12_of_ne m ρ c main_arg28 (by decide)).trans <|
  (StableHlo.after_of_writes_sub hostOps2 _ hostOps2_writes (by decide : main_arg28 ∉ hostOps2_W)).trans <|
  (B10_of_ne m ρ c main_arg28 (by decide)).trans <|
  (StableHlo.after_of_writes_sub hostOps1_6 _ hostOps1_6_writes (by decide : main_arg28 ∉ hostOps1_6_W)).trans <|
  (StableHlo.after_of_writes_sub hostOps1_5 _ hostOps1_5_writes (by decide : main_arg28 ∉ hostOps1_5_W)).trans <|
  (StableHlo.after_of_writes_sub hostOps1_4 _ hostOps1_4_writes (by decide : main_arg28 ∉ hostOps1_4_W)).trans <|
  (StableHlo.after_of_writes_sub hostOps1_3 _ hostOps1_3_writes (by decide : main_arg28 ∉ hostOps1_3_W)).trans <|
  (StableHlo.after_of_writes_sub hostOps1_2 _ hostOps1_2_writes (by decide : main_arg28 ∉ hostOps1_2_W)).trans <|
  (StableHlo.after_of_writes_sub hostOps1_1 _ hostOps1_1_writes (by decide : main_arg28 ∉ hostOps1_1_W)).trans <|
  (StableHlo.after_of_writes_sub hostOps1 _ hostOps1_writes (by decide : main_arg28 ∉ hostOps1_W)).trans <|
  (B2_of_ne m ρ c main_arg28 (by decide)).trans <|
  (StableHlo.after_of_writes_sub hostOps0 _ hostOps0_writes (by decide : main_arg28 ∉ hostOps0_W)).trans <| rfl
theorem B19_main_arg29 (c : Dev nD) : B19 m ρ c (Proc.devRef .tc main_arg29) = m ((c : Thread nD τ).loc main_arg29) :=
  (StableHlo.after_of_writes_sub hostOps6 _ hostOps6_writes (by decide : main_arg29 ∉ hostOps6_W)).trans <|
  (B18_of_ne m ρ c main_arg29 (by decide)).trans <|
  (StableHlo.after_of_writes_sub hostOps5 _ hostOps5_writes (by decide : main_arg29 ∉ hostOps5_W)).trans <|
  (B16_of_ne m ρ c main_arg29 (by decide)).trans <|
  (StableHlo.after_of_writes_sub hostOps4 _ hostOps4_writes (by decide : main_arg29 ∉ hostOps4_W)).trans <|
  (B14_of_ne m ρ c main_arg29 (by decide)).trans <|
  (StableHlo.after_of_writes_sub hostOps3 _ hostOps3_writes (by decide : main_arg29 ∉ hostOps3_W)).trans <|
  (B12_of_ne m ρ c main_arg29 (by decide)).trans <|
  (StableHlo.after_of_writes_sub hostOps2 _ hostOps2_writes (by decide : main_arg29 ∉ hostOps2_W)).trans <|
  (B10_of_ne m ρ c main_arg29 (by decide)).trans <|
  (StableHlo.after_of_writes_sub hostOps1_6 _ hostOps1_6_writes (by decide : main_arg29 ∉ hostOps1_6_W)).trans <|
  (StableHlo.after_of_writes_sub hostOps1_5 _ hostOps1_5_writes (by decide : main_arg29 ∉ hostOps1_5_W)).trans <|
  (StableHlo.after_of_writes_sub hostOps1_4 _ hostOps1_4_writes (by decide : main_arg29 ∉ hostOps1_4_W)).trans <|
  (StableHlo.after_of_writes_sub hostOps1_3 _ hostOps1_3_writes (by decide : main_arg29 ∉ hostOps1_3_W)).trans <|
  (StableHlo.after_of_writes_sub hostOps1_2 _ hostOps1_2_writes (by decide : main_arg29 ∉ hostOps1_2_W)).trans <|
  (StableHlo.after_of_writes_sub hostOps1_1 _ hostOps1_1_writes (by decide : main_arg29 ∉ hostOps1_1_W)).trans <|
  (StableHlo.after_of_writes_sub hostOps1 _ hostOps1_writes (by decide : main_arg29 ∉ hostOps1_W)).trans <|
  (B2_of_ne m ρ c main_arg29 (by decide)).trans <|
  (StableHlo.after_of_writes_sub hostOps0 _ hostOps0_writes (by decide : main_arg29 ∉ hostOps0_W)).trans <| rfl

/-! ## The proof data family and the thread state -/

/-- No pipeline has a prefetched table. -/
abbrev adm' : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm' p) c
  | ⟨0, _⟩ => fun c => dat0 (T1 m ρ) c
  | ⟨1, _⟩ => fun c => dat1 (T9 m ρ) c
  | ⟨2, _⟩ => fun c => dat2 (T11 m ρ) c
  | ⟨3, _⟩ => fun c => dat3 (T13 m ρ) c
  | ⟨4, _⟩ => fun c => dat4 (T15 m ρ) c
  | ⟨5, _⟩ => fun c => dat5 (T17 m ρ) c
abbrev 𝒱₀' : Variants := Variants.none
/-- No core owes another anything: no level is assigned. -/
abbrev L' : GSem nD τ sig → Finset Unit := fun _ => ∅
abbrev lv' : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tend (c : Dev nD) : sProp 𝕄 := iprop(StableHlo.held (c : Thread nD τ) (Pipeline.ucRefs τ sig) (B19 m ρ c) ∗ ∃ r, prngReg c r)

/-- What the launch hands a region is its invariant before the first point, and after the last point the invariant
    gives that back. -/
theorem hin0 (c : Dev nD) : Pipeline.ΦA spec0 c ⊢ (dat0 (T1 m ρ) c).Φ 0 := by
  rw [show (dat0 (T1 m ρ) c).Φ 0 = Pipeline.ΦA spec0 c from rfl]
theorem hout0 (c : Dev nD) : (dat0 (T1 m ρ) c).Φ (Fin.last cfg0.N) ⊢ Pipeline.ΦA spec0 c := by
  rw [show (dat0 (T1 m ρ) c).Φ (Fin.last cfg0.N) = Pipeline.ΦA spec0 c from rfl]
theorem hin2 (c : Dev nD) : Pipeline.ΦA spec2 c ⊢ (dat2 (T11 m ρ) c).Φ 0 := by
  rw [show (dat2 (T11 m ρ) c).Φ 0 = Pipeline.ΦA spec2 c from rfl]
theorem hout2 (c : Dev nD) : (dat2 (T11 m ρ) c).Φ (Fin.last cfg2.N) ⊢ Pipeline.ΦA spec2 c := by
  rw [show (dat2 (T11 m ρ) c).Φ (Fin.last cfg2.N) = Pipeline.ΦA spec2 c from rfl]
theorem hin3 (c : Dev nD) : Pipeline.ΦA spec3 c ⊢ (dat3 (T13 m ρ) c).Φ 0 := by
  rw [show (dat3 (T13 m ρ) c).Φ 0 = Pipeline.ΦA spec3 c from rfl]
theorem hout3 (c : Dev nD) : (dat3 (T13 m ρ) c).Φ (Fin.last cfg3.N) ⊢ Pipeline.ΦA spec3 c := by
  rw [show (dat3 (T13 m ρ) c).Φ (Fin.last cfg3.N) = Pipeline.ΦA spec3 c from rfl]
theorem hin4 (c : Dev nD) : Pipeline.ΦA spec4 c ⊢ (dat4 (T15 m ρ) c).Φ 0 := by
  rw [show (dat4 (T15 m ρ) c).Φ 0 = Pipeline.ΦA spec4 c from rfl]
theorem hout4 (c : Dev nD) : (dat4 (T15 m ρ) c).Φ (Fin.last cfg4.N) ⊢ Pipeline.ΦA spec4 c := by
  rw [show (dat4 (T15 m ρ) c).Φ (Fin.last cfg4.N) = Pipeline.ΦA spec4 c from rfl]
theorem hin5 (c : Dev nD) : Pipeline.ΦA spec5 c ⊢ (dat5 (T17 m ρ) c).Φ 0 := by
  rw [show (dat5 (T17 m ρ) c).Φ 0 = Pipeline.ΦA spec5 c from rfl]
theorem hout5 (c : Dev nD) : (dat5 (T17 m ρ) c).Φ (Fin.last cfg5.N) ⊢ Pipeline.ΦA spec5 c := by
  rw [show (dat5 (T17 m ρ) c).Φ (Fin.last cfg5.N) = Pipeline.ΦA spec5 c from rfl]

/-! ## The regions as segments -/

set_option backward.isDefEq.respectTransparency.types false in
/-- LAYER 0's region over the thread state: entered from every unscoped buffer at boundary 1, left at boundary 2. -/
def reg0 : Pipeline.RegionSeg (pcfgs (F := F)) adm' (pdats m ρ) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ L' lv' 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (T1 m ρ) c).Φ 0 from rfl]
    have hΦ := (hin0 m ρ c)
    iintro ⟨Hp, -, Hr⟩
    iapply hΦ
    unfold Pipeline.ΦA
    isplitl [Hr]; · iexact Hr
    iexact Hp
  hout c := by
    rw [Pipeline.ownSems0_none, show (pdats m ρ 0 c).Φ (Fin.last _) = (dat0 (T1 m ρ) c).Φ (Fin.last cfg0.N) from rfl]
    have hΦ := (hout0 m ρ c)
    iintro H
    ihave H' := hΦ $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (T1 m ρ c) (T2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 1's region over the thread state: entered from every unscoped buffer at boundary 9, left at boundary 10. -/
def reg1 : Pipeline.RegionSeg (pcfgs (F := F)) adm' (pdats m ρ) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (T9 m ρ) c).loose
  hwaits := Pipeline.hwaits_of_owed_zero _ _ _ _ L' lv' 1 fun _ _ => rfl
  pre c := iprop(StableHlo.held (c : Thread nD τ) (Pipeline.ucRefs τ sig) (B9 m ρ c) ∗ R c)
  post c := iprop(StableHlo.held (c : Thread nD τ) (Pipeline.ucRefs τ sig) (B10 m ρ c) ∗ R c)
  X c := iprop(∃ r, prngReg c r)
  Y c := iprop(∃ r, prngReg c r)
  Z c := Pipeline.unscopedRest (Ix := Unit) (Name := ℕ) (U := UR sig nD τ) (Lvl := ℕ) spec1 c (T9 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (T9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (T9 m ρ) c).Φ 0 from rfl]
    have hΦ := (hin1 (T9 m ρ) c)
    iintro ⟨Hp, -, Hr⟩
    iapply hΦ
    unfold Pipeline.ΦA
    isplitl [Hr]; · iexact Hr
    iexact Hp
  hout c := by
    rw [Pipeline.ownSems0_none, show (pdats m ρ 1 c).Φ (Fin.last _) = (dat1 (T9 m ρ) c).Φ (Fin.last cfg1.N) from rfl]
    have hΦ := (hout1 (T9 m ρ) c)
    iintro H
    ihave H' := hΦ $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (T9 m ρ c) (T10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 2's region over the thread state: entered from every unscoped buffer at boundary 11, left at boundary 12. -/
def reg2 : Pipeline.RegionSeg (pcfgs (F := F)) adm' (pdats m ρ) () defs₀ 𝒱₀' L' lv' 2 where
  win := launch2.win.to₀
  block_pos := launch2.block_pos
  stage_whole := launch2.stage_whole
  K := PEmpty
  osem k := k.elim
  ho := Pipeline.OwnSemFacts.none _
  hbody c := (body_obligation2 (T11 m ρ) c).loose
  hwaits := Pipeline.hwaits_of_owed_zero _ _ _ _ L' lv' 2 fun _ _ => rfl
  pre c := iprop(StableHlo.held (c : Thread nD τ) (Pipeline.ucRefs τ sig) (B11 m ρ c) ∗ R c)
  post c := iprop(StableHlo.held (c : Thread nD τ) (Pipeline.ucRefs τ sig) (B12 m ρ c) ∗ R c)
  X c := iprop(∃ r, prngReg c r)
  Y c := iprop(∃ r, prngReg c r)
  Z c := Pipeline.unscopedRest (Ix := Unit) (Name := ℕ) (U := UR sig nD τ) (Lvl := ℕ) spec2 c (T11 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (T11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (T11 m ρ) c).Φ 0 from rfl]
    have hΦ := (hin2 m ρ c)
    iintro ⟨Hp, -, Hr⟩
    iapply hΦ
    unfold Pipeline.ΦA
    isplitl [Hr]; · iexact Hr
    iexact Hp
  hout c := by
    rw [Pipeline.ownSems0_none, show (pdats m ρ 2 c).Φ (Fin.last _) = (dat2 (T11 m ρ) c).Φ (Fin.last cfg2.N) from rfl]
    have hΦ := (hout2 m ρ c)
    iintro H
    ihave H' := hΦ $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (T11 m ρ c) (T12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 3's region over the thread state: entered from every unscoped buffer at boundary 13, left at boundary 14. -/
def reg3 : Pipeline.RegionSeg (pcfgs (F := F)) adm' (pdats m ρ) () defs₀ 𝒱₀' L' lv' 3 where
  win := launch3.win.to₀
  block_pos := launch3.block_pos
  stage_whole := launch3.stage_whole
  K := PEmpty
  osem k := k.elim
  ho := Pipeline.OwnSemFacts.none _
  hbody c := (body_obligation3 (T13 m ρ) c).loose
  hwaits := Pipeline.hwaits_of_owed_zero _ _ _ _ L' lv' 3 fun _ _ => rfl
  pre c := iprop(StableHlo.held (c : Thread nD τ) (Pipeline.ucRefs τ sig) (B13 m ρ c) ∗ R c)
  post c := iprop(StableHlo.held (c : Thread nD τ) (Pipeline.ucRefs τ sig) (B14 m ρ c) ∗ R c)
  X c := iprop(∃ r, prngReg c r)
  Y c := iprop(∃ r, prngReg c r)
  Z c := Pipeline.unscopedRest (Ix := Unit) (Name := ℕ) (U := UR sig nD τ) (Lvl := ℕ) spec3 c (T13 m ρ c)
  hentry c := by
    rw [Pipeline.ownSems0_none]
    have hsplit := Pipeline.arrays_of_unscopedBufs (p := 3) (pcfgs (F := F)) adm' (pdats m ρ) launch3.win launch3.arr_whole c
      ((pdats m ρ 3 c).share_full fun _ => rfl) (T13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (T13 m ρ) c).Φ 0 from rfl]
    have hΦ := (hin3 m ρ c)
    iintro ⟨Hp, -, Hr⟩
    iapply hΦ
    unfold Pipeline.ΦA
    isplitl [Hr]; · iexact Hr
    iexact Hp
  hout c := by
    rw [Pipeline.ownSems0_none, show (pdats m ρ 3 c).Φ (Fin.last _) = (dat3 (T13 m ρ) c).Φ (Fin.last cfg3.N) from rfl]
    have hΦ := (hout3 m ρ c)
    iintro H
    ihave H' := hΦ $$ H
    unfold Pipeline.ΦA
    icases H' with ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m ρ) ((pdats m ρ 3 c).share_full fun _ => rfl)
      (T13 m ρ c) (T14 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 4's region over the thread state: entered from every unscoped buffer at boundary 15, left at boundary 16. -/
def reg4 : Pipeline.RegionSeg (pcfgs (F := F)) adm' (pdats m ρ) () defs₀ 𝒱₀' L' lv' 4 where
  win := launch4.win.to₀
  block_pos := launch4.block_pos
  stage_whole := launch4.stage_whole
  K := PEmpty
  osem k := k.elim
  ho := Pipeline.OwnSemFacts.none _
  hbody c := (body_obligation4 (T15 m ρ) c).loose
  hwaits := Pipeline.hwaits_of_owed_zero _ _ _ _ L' lv' 4 fun _ _ => rfl
  pre c := iprop(StableHlo.held (c : Thread nD τ) (Pipeline.ucRefs τ sig) (B15 m ρ c) ∗ R c)
  post c := iprop(StableHlo.held (c : Thread nD τ) (Pipeline.ucRefs τ sig) (B16 m ρ c) ∗ R c)
  X c := iprop(∃ r, prngReg c r)
  Y c := iprop(∃ r, prngReg c r)
  Z c := Pipeline.unscopedRest (Ix := Unit) (Name := ℕ) (U := UR sig nD τ) (Lvl := ℕ) spec4 c (T15 m ρ c)
  hentry c := by
    rw [Pipeline.ownSems0_none]
    have hsplit := Pipeline.arrays_of_unscopedBufs (p := 4) (pcfgs (F := F)) adm' (pdats m ρ) launch4.win launch4.arr_whole c
      ((pdats m ρ 4 c).share_full fun _ => rfl) (T15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (T15 m ρ) c).Φ 0 from rfl]
    have hΦ := (hin4 m ρ c)
    iintro ⟨Hp, -, Hr⟩
    iapply hΦ
    unfold Pipeline.ΦA
    isplitl [Hr]; · iexact Hr
    iexact Hp
  hout c := by
    rw [Pipeline.ownSems0_none, show (pdats m ρ 4 c).Φ (Fin.last _) = (dat4 (T15 m ρ) c).Φ (Fin.last cfg4.N) from rfl]
    have hΦ := (hout4 m ρ c)
    iintro H
    ihave H' := hΦ $$ H
    unfold Pipeline.ΦA
    icases H' with ⟨Hr, Hp⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (pdats m ρ) ((pdats m ρ 4 c).share_full fun _ => rfl)
      (T15 m ρ c) (T16 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 5's region over the thread state: entered from every unscoped buffer at boundary 17, left at boundary 18. -/
def reg5 : Pipeline.RegionSeg (pcfgs (F := F)) adm' (pdats m ρ) () defs₀ 𝒱₀' L' lv' 5 where
  win := launch5.win.to₀
  block_pos := launch5.block_pos
  stage_whole := launch5.stage_whole
  K := PEmpty
  osem k := k.elim
  ho := Pipeline.OwnSemFacts.none _
  hbody c := (body_obligation5 (T17 m ρ) c).loose
  hwaits := Pipeline.hwaits_of_owed_zero _ _ _ _ L' lv' 5 fun _ _ => rfl
  pre c := iprop(StableHlo.held (c : Thread nD τ) (Pipeline.ucRefs τ sig) (B17 m ρ c) ∗ R c)
  post c := iprop(StableHlo.held (c : Thread nD τ) (Pipeline.ucRefs τ sig) (B18 m ρ c) ∗ R c)
  X c := iprop(∃ r, prngReg c r)
  Y c := iprop(∃ r, prngReg c r)
  Z c := Pipeline.unscopedRest (Ix := Unit) (Name := ℕ) (U := UR sig nD τ) (Lvl := ℕ) spec5 c (T17 m ρ c)
  hentry c := by
    rw [Pipeline.ownSems0_none]
    have hsplit := Pipeline.arrays_of_unscopedBufs (p := 5) (pcfgs (F := F)) adm' (pdats m ρ) launch5.win launch5.arr_whole c
      ((pdats m ρ 5 c).share_full fun _ => rfl) (T17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (T17 m ρ) c).Φ 0 from rfl]
    have hΦ := (hin5 m ρ c)
    iintro ⟨Hp, -, Hr⟩
    iapply hΦ
    unfold Pipeline.ΦA
    isplitl [Hr]; · iexact Hr
    iexact Hp
  hout c := by
    rw [Pipeline.ownSems0_none, show (pdats m ρ 5 c).Φ (Fin.last _) = (dat5 (T17 m ρ) c).Φ (Fin.last cfg5.N) from rfl]
    have hΦ := (hout5 m ρ c)
    iintro H
    ihave H' := hΦ $$ H
    unfold Pipeline.ΦA
    icases H' with ⟨Hr, Hp⟩
    isplitl [Hp]; · iexact Hp
    isplitr; · iempintro
    iexact Hr
  hexit c := by
    have hjoin := Pipeline.unscopedBufs_of_arrays (p := 5) (pcfgs (F := F)) adm' (Ix := Unit) (Name := ℕ) (U := UR sig nD τ) (Lvl := ℕ)
      launch5.win launch5.arr_whole c (pdats m ρ) ((pdats m ρ 5 c).share_full fun _ => rfl)
      (T17 m ρ c) (T18 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nineteen segments in order. -/
abbrev segs : List (Pipeline.Seg (pcfgs (F := F)) adm' (pdats m ρ) () defs₀ 𝒱₀' L' lv') :=
  [ .host (hseg hostOps0 hostOps0_sub hostOps0_fresh (B0 m ρ)),
    .region (reg0 m ρ),
    .host (hseg hostOps1 hostOps1_sub hostOps1_fresh (B2 m ρ)),
    .host (hseg hostOps1_1 hostOps1_1_sub hostOps1_1_fresh (B3 m ρ)),
    .host (hseg hostOps1_2 hostOps1_2_sub hostOps1_2_fresh (B4 m ρ)),
    .host (hseg hostOps1_3 hostOps1_3_sub hostOps1_3_fresh (B5 m ρ)),
    .host (hseg hostOps1_4 hostOps1_4_sub hostOps1_4_fresh (B6 m ρ)),
    .host (hseg hostOps1_5 hostOps1_5_sub hostOps1_5_fresh (B7 m ρ)),
    .host (hseg hostOps1_6 hostOps1_6_sub hostOps1_6_fresh (B8 m ρ)),
    .region (reg1 m ρ),
    .host (hseg hostOps2 hostOps2_sub hostOps2_fresh (B10 m ρ)),
    .region (reg2 m ρ),
    .host (hseg hostOps3 hostOps3_sub hostOps3_fresh (B12 m ρ)),
    .region (reg3 m ρ),
    .host (hseg hostOps4 hostOps4_sub hostOps4_fresh (B14 m ρ)),
    .region (reg4 m ρ),
    .host (hseg hostOps5 hostOps5_sub hostOps5_fresh (B16 m ρ)),
    .region (reg5 m ρ),
    .host (hseg hostOps6 hostOps6_sub hostOps6_fresh (B18 m ρ)) ]

/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B19 m ρ c b) :=
  Pipeline.θ_run_regions_kit (pcfgs (F := F)) adm' (pdats m ρ) () cellOf_inj emb₁ defs₀ 𝒱₀' L' lv' m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tend m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B19 m ρ c) ∗ R c) ⊢ _
      iintro ⟨Hh, Hp, HO⟩
      isplitl [Hh Hp]
      · isplitl [Hh]; · iexact Hh
        iexact Hp
      iexact HO⟩)
    (hinit := by
      refine Pipeline.initEach L' lv' fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B19 m ρ c b)
    (hfin := fun c s' => by
      iintro ⟨⟨Hh, -⟩, HSI⟩
      unfold StableHlo.held
      imodintro
      iapply (pointsTo_read_all (Pipeline.ucRefs τ sig) (fun b => (((c : Thread nD τ)).1, b)) (B19 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c =>
    ⟨(h c _ (mem_uc main_arg0 (by decide))).trans (B19_main_arg0 m ρ c),
     (h c _ (mem_uc main_arg1 (by decide))).trans (B19_main_arg1 m ρ c),
     (h c _ (mem_uc main_arg2 (by decide))).trans (B19_main_arg2 m ρ c),
     (h c _ (mem_uc main_arg3 (by decide))).trans (B19_main_arg3 m ρ c),
     (h c _ (mem_uc main_arg4 (by decide))).trans (B19_main_arg4 m ρ c),
     (h c _ (mem_uc main_arg5 (by decide))).trans (B19_main_arg5 m ρ c),
     (h c _ (mem_uc main_arg6 (by decide))).trans (B19_main_arg6 m ρ c),
     (h c _ (mem_uc main_arg7 (by decide))).trans (B19_main_arg7 m ρ c),
     (h c _ (mem_uc main_arg8 (by decide))).trans (B19_main_arg8 m ρ c),
     (h c _ (mem_uc main_arg9 (by decide))).trans (B19_main_arg9 m ρ c),
     (h c _ (mem_uc main_arg10 (by decide))).trans (B19_main_arg10 m ρ c),
     (h c _ (mem_uc main_arg11 (by decide))).trans (B19_main_arg11 m ρ c),
     (h c _ (mem_uc main_arg12 (by decide))).trans (B19_main_arg12 m ρ c),
     (h c _ (mem_uc main_arg13 (by decide))).trans (B19_main_arg13 m ρ c),
     (h c _ (mem_uc main_arg14 (by decide))).trans (B19_main_arg14 m ρ c),
     (h c _ (mem_uc main_arg15 (by decide))).trans (B19_main_arg15 m ρ c),
     (h c _ (mem_uc main_arg16 (by decide))).trans (B19_main_arg16 m ρ c),
     (h c _ (mem_uc main_arg17 (by decide))).trans (B19_main_arg17 m ρ c),
     (h c _ (mem_uc main_arg18 (by decide))).trans (B19_main_arg18 m ρ c),
     (h c _ (mem_uc main_arg19 (by decide))).trans (B19_main_arg19 m ρ c),
     (h c _ (mem_uc main_arg20 (by decide))).trans (B19_main_arg20 m ρ c),
     (h c _ (mem_uc main_arg21 (by decide))).trans (B19_main_arg21 m ρ c),
     (h c _ (mem_uc main_arg22 (by decide))).trans (B19_main_arg22 m ρ c),
     (h c _ (mem_uc main_arg23 (by decide))).trans (B19_main_arg23 m ρ c),
     (h c _ (mem_uc main_arg24 (by decide))).trans (B19_main_arg24 m ρ c),
     (h c _ (mem_uc main_arg25 (by decide))).trans (B19_main_arg25 m ρ c),
     (h c _ (mem_uc main_arg26 (by decide))).trans (B19_main_arg26 m ρ c),
     (h c _ (mem_uc main_arg27 (by decide))).trans (B19_main_arg27 m ρ c),
     (h c _ (mem_uc main_arg28 (by decide))).trans (B19_main_arg28 m ρ c),
     (h c _ (mem_uc main_arg29 (by decide))).trans (B19_main_arg29 m ρ c)⟩) (run_all m ρ)

end Cert.KernelIdeal.Layers

end
-- ==== Proof.Spec.lean ====
/- The six-layer masked network as plain functions of its arguments, index by index, on the extended reals.
   Row `r` is a batch element.  The diagonal layer groups the input's features three to a gene: gene `g` takes
   features 3g, 3g+1, 3g+2, each times its own weight, summed with the gene's bias, through tanh.  A masked layer
   takes the previous activation times the weight where the mask is set (and nothing where it is not), summed over
   the previous layer's width, plus the bias, through tanh.  A head is the logistic function of an activation's
   product with a weight column plus a scalar bias.  The result's column `h` is the head read off activation `h`. -/
import Idealize.ShloMosaic.PureOps.Ideal
import Idealize.ShloMosaic.Lib.ValueIdx

noncomputable section

namespace Cert.Spec

open Idealize.ShloMosaic

/-- The diagonal layer at row `r`, gene `g`. -/
def diag (x : Fin 1024 → Fin 27687 → EReal) (w0 : Fin 27687 → EReal) (b0 : Fin 9229 → EReal) (r : Fin 1024) (g : Fin 9229) : EReal :=
  Ideal.tanh ((∑ k : Fin 3, x r ⟨3 * g.val + k.val, by omega⟩ * w0 ⟨3 * g.val + k.val, by omega⟩) + b0 g)

/-- A masked layer from width `K` to width `N` at row `r`, unit `j`. -/
def layer {K N : ℕ} (a : Fin 1024 → Fin K → EReal) (W : Fin K → Fin N → EReal) (mk : Fin K → Fin N → BitVec 1) (b : Fin N → EReal)
    (r : Fin 1024) (j : Fin N) : EReal :=
  Ideal.tanh ((∑ i : Fin K, a r i * (if mk i j = 1#1 then W i j else 0)) + b j)

/-- A head at row `r`. -/
def head {K : ℕ} (a : Fin 1024 → Fin K → EReal) (lw : Fin K → EReal) (lb : EReal) (r : Fin 1024) : EReal :=
  Ideal.logistic ((∑ i : Fin K, a r i * lw i) + lb)

/-- The network's arguments. -/
structure Args where
  x : Fin 1024 → Fin 27687 → EReal
  w0 : Fin 27687 → EReal
  b0 : Fin 9229 → EReal
  W1 : Fin 9229 → Fin 1387 → EReal
  b1 : Fin 1387 → EReal
  W2 : Fin 1387 → Fin 1066 → EReal
  b2 : Fin 1066 → EReal
  W3 : Fin 1066 → Fin 447 → EReal
  b3 : Fin 447 → EReal
  W4 : Fin 447 → Fin 147 → EReal
  b4 : Fin 147 → EReal
  W5 : Fin 147 → Fin 26 → EReal
  b5 : Fin 26 → EReal
  l1w : Fin 9229 → EReal
  l1b : EReal
  l2w : Fin 1387 → EReal
  l2b : EReal
  l3w : Fin 1066 → EReal
  l3b : EReal
  l4w : Fin 447 → EReal
  l4b : EReal
  l5w : Fin 147 → EReal
  l5b : EReal
  l6w : Fin 26 → EReal
  l6b : EReal
  m1 : Fin 9229 → Fin 1387 → BitVec 1
  m2 : Fin 1387 → Fin 1066 → BitVec 1
  m3 : Fin 1066 → Fin 447 → BitVec 1
  m4 : Fin 447 → Fin 147 → BitVec 1
  m5 : Fin 147 → Fin 26 → BitVec 1

/-- The six activations. -/
def act0 (A : Args) : Fin 1024 → Fin 9229 → EReal := diag A.x A.w0 A.b0
def act1 (A : Args) : Fin 1024 → Fin 1387 → EReal := layer (act0 A) A.W1 A.m1 A.b1
def act2 (A : Args) : Fin 1024 → Fin 1066 → EReal := layer (act1 A) A.W2 A.m2 A.b2
def act3 (A : Args) : Fin 1024 → Fin 447 → EReal := layer (act2 A) A.W3 A.m3 A.b3
def act4 (A : Args) : Fin 1024 → Fin 147 → EReal := layer (act3 A) A.W4 A.m4 A.b4
def act5 (A : Args) : Fin 1024 → Fin 26 → EReal := layer (act4 A) A.W5 A.m5 A.b5

/-- The result at row `r`, column `h`: the head read off activation `h`. -/
def out (A : Args) (r : Fin 1024) (h : Fin 6) : EReal :=
  match h with
  | ⟨0, _⟩ => head (act0 A) A.l1w A.l1b r
  | ⟨1, _⟩ => head (act1 A) A.l2w A.l2b r
  | ⟨2, _⟩ => head (act2 A) A.l3w A.l3b r
  | ⟨3, _⟩ => head (act3 A) A.l4w A.l4b r
  | ⟨4, _⟩ => head (act4 A) A.l5w A.l5b r
  | ⟨5, _⟩ => head (act5 A) A.l6w A.l6b r

end Cert.Spec

end
-- ==== Proof.IdealArgs.lean ====
/- The kernel's thirty argument buffers read as the network's arguments, coordinate by coordinate. -/
import proofs.«156066_j47502338294403_1_alg».proof.Proof.Gen.KernelIdeal
import proofs.«156066_j47502338294403_1_alg».proof.Proof.Spec
import Idealize.ShloMosaic.Lib.ValueIdx

noncomputable section

namespace Cert.KernelIdeal.LayerValue

open Cert.KernelIdeal Cert.KernelIdeal.Gen
open Idealize.ShloMosaic Idealize.ShloMosaic.TcCoe Idealize.SL.Sem

/-- The kernel's thirty argument buffers read as the network's arguments, coordinate by coordinate. -/
def kerArgs (m : (ℓ : Loc nD τ sig) → Buf (Elt Ideal) ℓ) (c : Dev nD) : Cert.Spec.Args where
  x := fun r i => m ((c.tc : Thread nD τ).loc main_arg0) (ValueIdx.ix2 r i)
  w0 := fun i => m ((c.tc : Thread nD τ).loc main_arg1) (ValueIdx.ix1 i)
  b0 := fun i => m ((c.tc : Thread nD τ).loc main_arg2) (ValueIdx.ix1 i)
  W1 := fun i j => m ((c.tc : Thread nD τ).loc main_arg3) (ValueIdx.ix2 i j)
  b1 := fun i => m ((c.tc : Thread nD τ).loc main_arg4) (ValueIdx.ix1 i)
  W2 := fun i j => m ((c.tc : Thread nD τ).loc main_arg5) (ValueIdx.ix2 i j)
  b2 := fun i => m ((c.tc : Thread nD τ).loc main_arg6) (ValueIdx.ix1 i)
  W3 := fun i j => m ((c.tc : Thread nD τ).loc main_arg7) (ValueIdx.ix2 i j)
  b3 := fun i => m ((c.tc : Thread nD τ).loc main_arg8) (ValueIdx.ix1 i)
  W4 := fun i j => m ((c.tc : Thread nD τ).loc main_arg9) (ValueIdx.ix2 i j)
  b4 := fun i => m ((c.tc : Thread nD τ).loc main_arg10) (ValueIdx.ix1 i)
  W5 := fun i j => m ((c.tc : Thread nD τ).loc main_arg11) (ValueIdx.ix2 i j)
  b5 := fun i => m ((c.tc : Thread nD τ).loc main_arg12) (ValueIdx.ix1 i)
  l1w := fun i => m ((c.tc : Thread nD τ).loc main_arg13) (ValueIdx.ix2 i 0)
  l1b := m ((c.tc : Thread nD τ).loc main_arg14) (ValueIdx.ix1 0)
  l2w := fun i => m ((c.tc : Thread nD τ).loc main_arg15) (ValueIdx.ix2 i 0)
  l2b := m ((c.tc : Thread nD τ).loc main_arg16) (ValueIdx.ix1 0)
  l3w := fun i => m ((c.tc : Thread nD τ).loc main_arg17) (ValueIdx.ix2 i 0)
  l3b := m ((c.tc : Thread nD τ).loc main_arg18) (ValueIdx.ix1 0)
  l4w := fun i => m ((c.tc : Thread nD τ).loc main_arg19) (ValueIdx.ix2 i 0)
  l4b := m ((c.tc : Thread nD τ).loc main_arg20) (ValueIdx.ix1 0)
  l5w := fun i => m ((c.tc : Thread nD τ).loc main_arg21) (ValueIdx.ix2 i 0)
  l5b := m ((c.tc : Thread nD τ).loc main_arg22) (ValueIdx.ix1 0)
  l6w := fun i => m ((c.tc : Thread nD τ).loc main_arg23) (ValueIdx.ix2 i 0)
  l6b := m ((c.tc : Thread nD τ).loc main_arg24) (ValueIdx.ix1 0)
  m1 := fun i j => m ((c.tc : Thread nD τ).loc main_arg25) (ValueIdx.ix2 i j)
  m2 := fun i j => m ((c.tc : Thread nD τ).loc main_arg26) (ValueIdx.ix2 i j)
  m3 := fun i j => m ((c.tc : Thread nD τ).loc main_arg27) (ValueIdx.ix2 i j)
  m4 := fun i j => m ((c.tc : Thread nD τ).loc main_arg28) (ValueIdx.ix2 i j)
  m5 := fun i j => m ((c.tc : Thread nD τ).loc main_arg29) (ValueIdx.ix2 i j)

end Cert.KernelIdeal.LayerValue

end
-- ==== Proof.IdealHostReads.lean ====
/- The kernel's host-side layout operations, each read at one index of its result.
   The input is regrouped from 27687 features to 9229 genes of 3 (row-major) and feature k of every gene is sliced
   out, so slice k at (r, g) is feature 3g + k of row r; the feature weights likewise, laid out as one row. A bias
   vector laid out as one row reads the vector. An array padded with 499 further positions along one axis reads the
   array below position 9229 and the padding value from there on; the padding values are zero, as a number and as
   a bit. A mask bit widened to a word and compared with zero gives the bit back. -/
import proofs.«156066_j47502338294403_1_alg».proof.Proof.Gen.KernelIdeal.Launch
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal

noncomputable section

namespace Cert.KernelIdeal.HostReads

open Cert.KernelIdeal Cert.KernelIdeal.Gen Idealize.ShloMosaic Idealize.ShloMosaic.ValueIdx

/-! ## The mask word -/

/-- A bit widened to a 32-bit word is different from the zero word exactly when the bit is set. -/
theorem cmpi_ne_setWidth (b : BitVec 1) : Scalar.cmpi .ne (b.setWidth 32) 0#32 = b := by
  rcases BitVec.eq_zero_or_eq_one b with h | h <;> subst h <;> rfl

/-- A one-bit array widened to words reads, at each index, the bit there widened. -/
theorem extui_read {s : Shape} (mk : IVec s 1) (i : s.Idx) : extui 32 mk natLt_1_32 i = (mk i).setWidth 32 := rfl

/-! ## A bias vector laid out as one row -/

/-- The bias of width 9229 as a one-row array reads the bias at the column. -/
theorem bias_row9229 (b : (⟨S9229, .f32⟩ : BufTy).Contents (Elt Ideal)) (j : Fin 9229) :
    shapeCast S1x9229 b shapeCasts_S9229_S1x9229 (ix2 (0 : Fin 1) j) = b (ix1 j) :=
  shapeCast_a_1a_apply b shapeCasts_S9229_S1x9229 (0 : Fin 1) j

/-- The bias of width 1387 as a one-row array reads the bias at the column. -/
theorem bias_row1387 (b : (⟨S1387, .f32⟩ : BufTy).Contents (Elt Ideal)) (j : Fin 1387) :
    shapeCast S1x1387 b shapeCasts_S1387_S1x1387 (ix2 (0 : Fin 1) j) = b (ix1 j) :=
  shapeCast_a_1a_apply b shapeCasts_S1387_S1x1387 (0 : Fin 1) j

/-- The bias of width 1066 as a one-row array reads the bias at the column. -/
theorem bias_row1066 (b : (⟨S1066, .f32⟩ : BufTy).Contents (Elt Ideal)) (j : Fin 1066) :
    shapeCast S1x1066 b shapeCasts_S1066_S1x1066 (ix2 (0 : Fin 1) j) = b (ix1 j) :=
  shapeCast_a_1a_apply b shapeCasts_S1066_S1x1066 (0 : Fin 1) j

/-- The bias of width 447 as a one-row array reads the bias at the column. -/
theorem bias_row447 (b : (⟨S447, .f32⟩ : BufTy).Contents (Elt Ideal)) (j : Fin 447) :
    shapeCast S1x447 b shapeCasts_S447_S1x447 (ix2 (0 : Fin 1) j) = b (ix1 j) :=
  shapeCast_a_1a_apply b shapeCasts_S447_S1x447 (0 : Fin 1) j

/-- The bias of width 147 as a one-row array reads the bias at the column. -/
theorem bias_row147 (b : (⟨S147, .f32⟩ : BufTy).Contents (Elt Ideal)) (j : Fin 147) :
    shapeCast S1x147 b shapeCasts_S147_S1x147 (ix2 (0 : Fin 1) j) = b (ix1 j) :=
  shapeCast_a_1a_apply b shapeCasts_S147_S1x147 (0 : Fin 1) j

/-- The bias of width 26 as a one-row array reads the bias at the column. -/
theorem bias_row26 (b : (⟨S26, .f32⟩ : BufTy).Contents (Elt Ideal)) (j : Fin 26) :
    shapeCast S1x26 b shapeCasts_S26_S1x26 (ix2 (0 : Fin 1) j) = b (ix1 j) :=
  shapeCast_a_1a_apply b shapeCasts_S26_S1x26 (0 : Fin 1) j

/-! ## Padding along one axis -/

/-- An array of 9229 columns padded on the right to 9728 reads the array below column 9229 and the padding value
    from there on. -/
theorem pad_cols_read {α : Type} (a : S1024x9229.Idx → α) (z : S_.Idx → α) (r : Fin 1024) (i : Fin 9728) :
    pad S1024x9728 ![0, 0] ![0, 499] ![0, 0] a z pads_S1024x9229_S1024x9728_000_04990 h_S_ (ix2 r i)
      = if h : i.val < 9229 then a (ix2 r ⟨i.val, h⟩) else z ix0 := by
  by_cases h : i.val < 9229
  · rw [dif_pos h]
    exact pad_apply_of_inside _ _ _ a z pads_S1024x9229_S1024x9728_000_04990 h_S_ (ix2 r i) (ix2 r ⟨i.val, h⟩) (fun b => by
      match b with
      | ⟨0, _⟩ => show r.val = 0 + r.val * (0 + 1); omega
      | ⟨1, _⟩ => show i.val = 0 + i.val * (0 + 1); omega)
  · rw [dif_neg h]
    refine (pad_apply_of_not_inside _ _ _ a z pads_S1024x9229_S1024x9728_000_04990 h_S_ (ix2 r i)
      (1 : Fin S1024x9229.rank) (fun hin => h ?_)).trans (congrArg z (eq_ix0 _))
    have h3 : (i.val - 0) / 1 < 9229 := hin.2.2
    omega

/-- An array of 9229 rows padded below to 9728 reads the array above row 9229 and the padding value from there on. -/
theorem pad_rows_read {α : Type} (w : S9229x1387.Idx → α) (z : S_.Idx → α) (i : Fin 9728) (j : Fin 1387) :
    pad S9728x1387 ![0, 0] ![499, 0] ![0, 0] w z pads_S9229x1387_S9728x1387_04990_000 h_S_ (ix2 i j)
      = if h : i.val < 9229 then w (ix2 ⟨i.val, h⟩ j) else z ix0 := by
  by_cases h : i.val < 9229
  · rw [dif_pos h]
    exact pad_apply_of_inside _ _ _ w z pads_S9229x1387_S9728x1387_04990_000 h_S_ (ix2 i j) (ix2 ⟨i.val, h⟩ j) (fun b => by
      match b with
      | ⟨0, _⟩ => show i.val = 0 + i.val * (0 + 1); omega
      | ⟨1, _⟩ => show j.val = 0 + j.val * (0 + 1); omega)
  · rw [dif_neg h]
    refine (pad_apply_of_not_inside _ _ _ w z pads_S9229x1387_S9728x1387_04990_000 h_S_ (ix2 i j)
      (0 : Fin S9229x1387.rank) (fun hin => h ?_)).trans (congrArg z (eq_ix0 _))
    have h3 : (i.val - 0) / 1 < 9229 := hin.2.2
    omega

/-- The activation padded to 9728 columns. -/
theorem pad_act_read (a : (⟨S1024x9229, .f32⟩ : BufTy).Contents (Elt Ideal)) (z : (⟨S_, .f32⟩ : BufTy).Contents (Elt Ideal)) (r : Fin 1024) (i : Fin 9728) :
    pad S1024x9728 ![0, 0] ![0, 499] ![0, 0] a z pads_S1024x9229_S1024x9728_000_04990 h_S_ (ix2 r i)
      = if h : i.val < 9229 then a (ix2 r ⟨i.val, h⟩) else z ix0 :=
  pad_cols_read a z r i

/-- The weights padded to 9728 rows. -/
theorem pad_w_read (w : (⟨S9229x1387, .f32⟩ : BufTy).Contents (Elt Ideal)) (z : (⟨S_, .f32⟩ : BufTy).Contents (Elt Ideal)) (i : Fin 9728) (j : Fin 1387) :
    pad S9728x1387 ![0, 0] ![499, 0] ![0, 0] w z pads_S9229x1387_S9728x1387_04990_000 h_S_ (ix2 i j)
      = if h : i.val < 9229 then w (ix2 ⟨i.val, h⟩ j) else z ix0 :=
  pad_rows_read w z i j

/-- The mask padded to 9728 rows. -/
theorem pad_m_read (w : (⟨S9229x1387, .i1⟩ : BufTy).Contents (Elt Ideal)) (z : (⟨S_, .i1⟩ : BufTy).Contents (Elt Ideal)) (i : Fin 9728) (j : Fin 1387) :
    pad S9728x1387 ![0, 0] ![499, 0] ![0, 0] w z pads_S9229x1387_S9728x1387_04990_000 h_S_ (ix2 i j)
      = if h : i.val < 9229 then w (ix2 ⟨i.val, h⟩ j) else z ix0 :=
  pad_rows_read w z i j

/-! ## The padding values -/

/-- The integer zero converted to a number is zero. -/
theorem pad_zero_f32 : sitofp (F := Ideal) .f32 (constantI S_ 32 0#32) ix0 = (0 : EReal) := by
  show (((0#32 : BitVec 32).toInt : ℝ) : EReal) = 0
  simp

/-- Zero is not different from zero: the mask's padding bit is clear. -/
theorem pad_zero_bit :
    id (cmpi .ne (constantI S_ 32 0#32) (broadcastInDim S_ ![] bcast_S_S_ (constantI S_ 32 0#32))) ix0 = 0#1 := rfl

/-- The same without the identity step. -/
theorem pad_zero_bit' :
    cmpi .ne (constantI S_ 32 0#32) (broadcastInDim S_ ![] bcast_S_S_ (constantI S_ 32 0#32)) ix0 = 0#1 := rfl

/-! ## The input regrouped by gene and sliced by feature -/

/-- The input regrouped from 27687 features to 9229 genes of 3, feature `k` sliced out and the unit axis dropped:
    at row `r`, gene `g` it is feature `3g + k` of the row (all three layout steps keep the row-major position,
    the slice moving the last coordinate from `0` to `k`). -/
theorem slice_read_gen {α : Type} (x : S1024x27687.Idx → α) (k : Nat) (hk : k < 3)
    (hs : S1024x9229x3.Slices ![0, 0, k] S1024x9229x1) (r : Fin 1024) (g : Fin 9229) :
    shapeCast S1024x9229 (extractStridedSlice S1024x9229x1 ![0, 0, k]
        (shapeCast S1024x9229x3 x shapeCasts_S1024x27687_S1024x9229x3) hs) shapeCasts_S1024x9229x1_S1024x9229 (ix2 r g)
      = x (ix2 r (⟨3 * g.val + k, by omega⟩ : Fin 27687)) := by
  have hr := r.isLt; have hg := g.isLt
  refine (shapeCast_apply _ shapeCasts_S1024x9229x1_S1024x9229 (ix2 r g) (ix3 r g (0 : Fin 1)) ?_).trans ?_
  · rw [Shape.rowMajor_val_three, Shape.rowMajor_val_two]
    show (r.val * 9229 + g.val) * 1 + 0 = r.val * 9229 + g.val
    omega
  refine (extractStridedSlice_apply ![0, 0, k] _ hs (ix3 r g (0 : Fin 1)) (ix3 r g (⟨k, hk⟩ : Fin 3)) (fun a => ?_)).trans ?_
  · match a with
    | ⟨0, _⟩ => show r.val = 0 + r.val; omega
    | ⟨1, _⟩ => show g.val = 0 + g.val; omega
    | ⟨2, _⟩ => show k = k + 0; omega
  exact shapeCast_apply x shapeCasts_S1024x27687_S1024x9229x3 (ix3 r g (⟨k, hk⟩ : Fin 3))
    (ix2 r (⟨3 * g.val + k, by omega⟩ : Fin 27687)) (by
      rw [Shape.rowMajor_val_two, Shape.rowMajor_val_three]
      show r.val * 27687 + (3 * g.val + k) = (r.val * 9229 + g.val) * 3 + k
      omega)

theorem slice_read0 (x : (⟨S1024x27687, .f32⟩ : BufTy).Contents (Elt Ideal)) (r : Fin 1024) (g : Fin 9229) :
    shapeCast S1024x9229 (extractStridedSlice S1024x9229x1 ![0, 0, 0]
        (shapeCast S1024x9229x3 x shapeCasts_S1024x27687_S1024x9229x3) slices_S1024x9229x3_S1024x9229x1_0_0_0)
        shapeCasts_S1024x9229x1_S1024x9229 (ix2 r g)
      = x (ix2 r (⟨3 * g.val + 0, by omega⟩ : Fin 27687)) :=
  slice_read_gen x 0 (by decide) slices_S1024x9229x3_S1024x9229x1_0_0_0 r g

theorem slice_read1 (x : (⟨S1024x27687, .f32⟩ : BufTy).Contents (Elt Ideal)) (r : Fin 1024) (g : Fin 9229) :
    shapeCast S1024x9229 (extractStridedSlice S1024x9229x1 ![0, 0, 1]
        (shapeCast S1024x9229x3 x shapeCasts_S1024x27687_S1024x9229x3) slices_S1024x9229x3_S1024x9229x1_0_0_1)
        shapeCasts_S1024x9229x1_S1024x9229 (ix2 r g)
      = x (ix2 r (⟨3 * g.val + 1, by omega⟩ : Fin 27687)) :=
  slice_read_gen x 1 (by decide) slices_S1024x9229x3_S1024x9229x1_0_0_1 r g

theorem slice_read2 (x : (⟨S1024x27687, .f32⟩ : BufTy).Contents (Elt Ideal)) (r : Fin 1024) (g : Fin 9229) :
    shapeCast S1024x9229 (extractStridedSlice S1024x9229x1 ![0, 0, 2]
        (shapeCast S1024x9229x3 x shapeCasts_S1024x27687_S1024x9229x3) slices_S1024x9229x3_S1024x9229x1_0_0_2)
        shapeCasts_S1024x9229x1_S1024x9229 (ix2 r g)
      = x (ix2 r (⟨3 * g.val + 2, by omega⟩ : Fin 27687)) :=
  slice_read_gen x 2 (by decide) slices_S1024x9229x3_S1024x9229x1_0_0_2 r g

/-! ## The feature weights regrouped by gene, sliced by feature, laid out as one row -/

/-- The 27687 feature weights regrouped to 9229 genes of 3, feature `k` sliced out, the unit axis dropped and a
    leading unit axis added: at column `g` of the one row it is the weight of feature `3g + k`. -/
theorem wrow_read_gen {α : Type} (w : S27687.Idx → α) (k : Nat) (hk : k < 3)
    (hs : S9229x3.Slices ![0, k] S9229x1) (g : Fin 9229) :
    shapeCast S1x9229 (shapeCast S9229 (extractStridedSlice S9229x1 ![0, k]
        (shapeCast S9229x3 w shapeCasts_S27687_S9229x3) hs) shapeCasts_S9229x1_S9229) shapeCasts_S9229_S1x9229
        (ix2 (0 : Fin 1) g)
      = w (ix1 (⟨3 * g.val + k, by omega⟩ : Fin 27687)) := by
  have hg := g.isLt
  refine (shapeCast_a_1a_apply _ shapeCasts_S9229_S1x9229 (0 : Fin 1) g).trans ?_
  refine (shapeCast_apply _ shapeCasts_S9229x1_S9229 (ix1 g) (ix2 g (0 : Fin 1)) ?_).trans ?_
  · rw [Shape.rowMajor_val_two, Shape.rowMajor_val_one]
    show g.val * 1 + 0 = g.val
    omega
  refine (extractStridedSlice_apply ![0, k] _ hs (ix2 g (0 : Fin 1)) (ix2 g (⟨k, hk⟩ : Fin 3)) (fun a => ?_)).trans ?_
  · match a with
    | ⟨0, _⟩ => show g.val = 0 + g.val; omega
    | ⟨1, _⟩ => show k = k + 0; omega
  exact shapeCast_apply w shapeCasts_S27687_S9229x3 (ix2 g (⟨k, hk⟩ : Fin 3)) (ix1 (⟨3 * g.val + k, by omega⟩ : Fin 27687)) (by
    rw [Shape.rowMajor_val_one, Shape.rowMajor_val_two]
    show 3 * g.val + k = g.val * 3 + k
    omega)

theorem wrow_read0 (w : (⟨S27687, .f32⟩ : BufTy).Contents (Elt Ideal)) (g : Fin 9229) :
    shapeCast S1x9229 (shapeCast S9229 (extractStridedSlice S9229x1 ![0, 0]
        (shapeCast S9229x3 w shapeCasts_S27687_S9229x3) slices_S9229x3_S9229x1_0_0) shapeCasts_S9229x1_S9229)
        shapeCasts_S9229_S1x9229 (ix2 (0 : Fin 1) g)
      = w (ix1 (⟨3 * g.val + 0, by omega⟩ : Fin 27687)) :=
  wrow_read_gen w 0 (by decide) slices_S9229x3_S9229x1_0_0 g

theorem wrow_read1 (w : (⟨S27687, .f32⟩ : BufTy).Contents (Elt Ideal)) (g : Fin 9229) :
    shapeCast S1x9229 (shapeCast S9229 (extractStridedSlice S9229x1 ![0, 1]
        (shapeCast S9229x3 w shapeCasts_S27687_S9229x3) slices_S9229x3_S9229x1_0_1) shapeCasts_S9229x1_S9229)
        shapeCasts_S9229_S1x9229 (ix2 (0 : Fin 1) g)
      = w (ix1 (⟨3 * g.val + 1, by omega⟩ : Fin 27687)) :=
  wrow_read_gen w 1 (by decide) slices_S9229x3_S9229x1_0_1 g

theorem wrow_read2 (w : (⟨S27687, .f32⟩ : BufTy).Contents (Elt Ideal)) (g : Fin 9229) :
    shapeCast S1x9229 (shapeCast S9229 (extractStridedSlice S9229x1 ![0, 2]
        (shapeCast S9229x3 w shapeCasts_S27687_S9229x3) slices_S9229x3_S9229x1_0_2) shapeCasts_S9229x1_S9229)
        shapeCasts_S9229_S1x9229 (ix2 (0 : Fin 1) g)
      = w (ix1 (⟨3 * g.val + 2, by omega⟩ : Fin 27687)) :=
  wrow_read_gen w 2 (by decide) slices_S9229x3_S9229x1_0_2 g

end Cert.KernelIdeal.HostReads

end
-- ==== Proof.LibPadSum.lean ====
/-
  A sum over a range padded with zeros is the sum over the range.

  A function on `Fin m` is extended to `Fin (m + n)` by zero beyond `m`; summing the extension over all `m + n` positions
  gives the sum of the function over its `m` positions, because the last `n` terms are zero.  Only that zero is neutral
  for the addition is used, so the lemma holds in any additive commutative monoid.
-/
import Mathlib.Algebra.BigOperators.Fin

namespace Cert.Lib

open Finset

variable {β : Type*} [AddCommMonoid β]

/-- The extension by zero of `f : Fin m → β` to `Fin (m + n)`, summed, is `f` summed. -/
theorem sum_extend_zero (m n : ℕ) (f : Fin m → β) :
    ∑ i : Fin (m + n), (if h : i.val < m then f ⟨i.val, h⟩ else 0) = ∑ i : Fin m, f i := by
  rw [Fin.sum_univ_add]
  have h1 : ∀ i : Fin m, (if h : (Fin.castAdd n i).val < m then f ⟨(Fin.castAdd n i).val, h⟩ else 0) = f i :=
    fun i => by rw [dif_pos (show (Fin.castAdd n i).val < m from i.isLt)]; rfl
  have h2 : ∀ i : Fin n, (if h : (Fin.natAdd m i).val < m then f ⟨(Fin.natAdd m i).val, h⟩ else 0) = 0 :=
    fun i => dif_neg (by show ¬(m + i.val < m); omega)
  rw [Finset.sum_congr rfl (fun i _ => h1 i), Finset.sum_congr rfl (fun i _ => h2 i), Finset.sum_const_zero, add_zero]

/-- The same with the padded length given as one number `N = m + n`. -/
theorem sum_extend_zero' (m N : ℕ) (hmN : m ≤ N) (f : Fin m → β) :
    ∑ i : Fin N, (if h : i.val < m then f ⟨i.val, h⟩ else 0) = ∑ i : Fin m, f i := by
  obtain ⟨n, rfl⟩ := Nat.exists_eq_add_of_le hmN
  exact sum_extend_zero m n f

end Cert.Lib
-- ==== Proof.IdealDiagValue.lean ====
/- The diagonal layer's output array after its region, index by index on the extended reals: the one piece the body
   leaves in the output block is its arithmetic on the seven input blocks; that arithmetic at a row and a gene is the
   three products summed with the bias through tanh; and the eight row blocks, each written back by its own point, tile
   the array. -/
import proofs.«156066_j47502338294403_1_alg».proof.Proof.IdealDiag
import Idealize.ShloMosaic.Lib.Pipeline.Value
import Idealize.ShloMosaic.Lib.ValueIdx
import Idealize.ShloMosaic.PureOps.Ideal.Laws

set_option maxRecDepth 16384

noncomputable section

namespace Cert.KernelIdeal.LayerValue

open Cert.KernelIdeal Cert.KernelIdeal.Gen Cert.KernelIdeal.Layers
open Idealize.ShloMosaic Idealize.ShloMosaic.TcCoe Idealize.ShloMosaic.Tactic Idealize.ShloMosaic.ValueIdx
open Idealize.SL.Sem
open Idealize.ShloMosaic.Pipeline (Dat Cfg Window)

theorem zeros2_0 : (![0, 0] : Fin 2 → Nat) = fun _ => 0 := funext fun a => by fin_cases a <;> rfl

section Generic
variable {F : FTy → Type} [FloatOps F]

/-- The one piece the body leaves in the output block is its arithmetic on the seven blocks: every load reads a whole
    buffer (the output block's own load is not used). -/
theorem diagOut_eq (c : Dev nD) (i : grid0.Coords) (arg1 : Memref sig .tc .vmem S128x9229 .f32) (harg1 : arg1.IsWhole) (arg2 : Memref sig .tc .vmem S128x9229 .f32) (harg2 : arg2.IsWhole) (arg3 : Memref sig .tc .vmem S128x9229 .f32) (harg3 : arg3.IsWhole) (arg4 : Memref sig .tc .vmem S1x9229 .f32) (harg4 : arg4.IsWhole) (arg5 : Memref sig .tc .vmem S1x9229 .f32) (harg5 : arg5.IsWhole) (arg6 : Memref sig .tc .vmem S1x9229 .f32) (harg6 : arg6.IsWhole) (arg7 : Memref sig .tc .vmem S1x9229 .f32) (harg7 : arg7.IsWhole) (arg8 : Memref sig .tc .vmem S128x9229 .f32) (harg8 : arg8.IsWhole)
    (x0 : Vec F S128x9229 .f32) (x1 : Vec F S128x9229 .f32) (x2 : Vec F S128x9229 .f32) (x3 : Vec F S1x9229 .f32) (x4 : Vec F S1x9229 .f32) (x5 : Vec F S1x9229 .f32) (x6 : Vec F S1x9229 .f32) :
    diagOut c i arg1 harg1 arg2 harg2 arg3 harg3 arg4 harg4 arg5 harg5 arg6 harg6 arg7 harg7 arg8 harg8 x0 x1 x2 x3 x4 x5 x6 = k0_pay1 x0 x3 x1 x4 x2 x5 x6 := by
  unfold diagOut
  rw [View.read_writes_eq_canon _ _ _ (coverDiag c i arg1 harg1 arg2 harg2 arg3 harg3 arg4 harg4 arg5 harg5 arg6 harg6 arg7 harg7 arg8 harg8 x0 x1 x2 x3 x4 x5 x6)]
  unfold diagRun
  dsimp only
  try sl_unfold_words
  rw [View.canon_unit_zero (S := S128x9229) zeros2_0]
  simp only [View.readAt_eq_ld, harg1.read_unread, harg2.read_unread, harg3.read_unread, harg4.read_unread,
    harg5.read_unread, harg6.read_unread, harg7.read_unread, View.ld_unit_zero (S := S128x9229) zeros2_0,
    View.ld_unit_zero (S := S1x9229) zeros2_0]

end Generic

/-! ## The body's arithmetic at an index, on the extended reals -/

/-- A row broadcast down the block's rows reads the row's entry of the same column. -/
theorem bcast_row0 (b : Vec Ideal S1x9229 .f32) (p : Fin 128) (g : Fin 9229) :
    broadcastTo S128x9229 b broadcasts_S1x9229_S128x9229 (ix2 p g) = b (ix2 (0 : Fin 1) g) :=
  broadcastTo_apply b broadcasts_S1x9229_S128x9229 (ix2 p g) (ix2 (0 : Fin 1) g) (fun a => by
    match a with
    | ⟨0, _⟩ => rfl
    | ⟨1, _⟩ => rfl)

/-- The body at row `p`, gene `g`: each of the three columns times its weight, summed with the bias, through tanh. -/
theorem diag_apply0 (v0 : Vec Ideal S128x9229 .f32) (v2 : Vec Ideal S1x9229 .f32) (v6 : Vec Ideal S128x9229 .f32) (v8 : Vec Ideal S1x9229 .f32)
    (v13 : Vec Ideal S128x9229 .f32) (v15 : Vec Ideal S1x9229 .f32) (v20 : Vec Ideal S1x9229 .f32) (p : Fin 128) (g : Fin 9229) :
    k0_pay1 v0 v2 v6 v8 v13 v15 v20 (ix2 p g)
      = Ideal.tanh (((v0 (ix2 p g) * v2 (ix2 (0 : Fin 1) g) + v6 (ix2 p g) * v8 (ix2 (0 : Fin 1) g)) + v13 (ix2 p g) * v15 (ix2 (0 : Fin 1) g)) + v20 (ix2 (0 : Fin 1) g)) := by
  unfold k0_pay1
  simp only [shapeCast_self]
  show Ideal.tanh (((v0 (ix2 p g) * broadcastTo S128x9229 v2 broadcasts_S1x9229_S128x9229 (ix2 p g)
      + v6 (ix2 p g) * broadcastTo S128x9229 v8 broadcasts_S1x9229_S128x9229 (ix2 p g))
      + v13 (ix2 p g) * broadcastTo S128x9229 v15 broadcasts_S1x9229_S128x9229 (ix2 p g))
      + broadcastTo S128x9229 v20 broadcasts_S1x9229_S128x9229 (ix2 p g)) = _
  rw [bcast_row0, bcast_row0, bcast_row0, bcast_row0]

/-- One entry of the diagonal layer: three features each times its own weight, summed with the gene's bias, through tanh. -/
def diagEntry (a0 w0 a1 w1 a2 w2 b : EReal) : EReal := Ideal.tanh (((a0 * w0 + a1 * w1) + a2 * w2) + b)

/-! ## From blocks to the array -/

section Region

variable (V : (c : Dev nD) → (b : Ref sig .tc) → Buf (Elt Ideal) ((c : Thread nD τ).loc b))

/-- The diagonal layer's formula as one function of the seven arrays the region finds: the three columns, their three
    weight rows and the bias row. -/
def G0 (c : Dev nD) : S1024x9229.Idx → Elt Ideal .f32 := fun y =>
  diagEntry (V c (Pipeline.arrRef spec0 0) (ix2 (y 0) (y 1))) (V c (Pipeline.arrRef spec0 3) (ix2 (0 : Fin 1) (y 1)))
        (V c (Pipeline.arrRef spec0 1) (ix2 (y 0) (y 1))) (V c (Pipeline.arrRef spec0 4) (ix2 (0 : Fin 1) (y 1)))
        (V c (Pipeline.arrRef spec0 2) (ix2 (y 0) (y 1))) (V c (Pipeline.arrRef spec0 5) (ix2 (0 : Fin 1) (y 1)))
        (V c (Pipeline.arrRef spec0 6) (ix2 (0 : Fin 1) (y 1)))

/-- The index maps, decided over the grid: each column's block moves down the rows with the output's, the weight rows
    and the bias row stay, and the output's row block is one of eight. -/
theorem idx_facts0 : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 7 ∧ win0_7.index t (1 : Fin 2) = 0 :=
  (by decide +kernel : ∀ t : Fin grid0.N, _)

/-- Each of the eight row blocks is some point's. -/
theorem idx_onto0 : ∀ q : Fin 8, ∃ t : Fin cfg0.N, win0_7.index t (0 : Fin 2) = q.val :=
  (by decide +kernel : ∀ q : Fin 8, ∃ t : Fin grid0.N, win0_7.index t (0 : Fin 2) = q.val)

/-- The array row under row `p` of point `t`'s output block. -/
def rowAt0 (t : Fin cfg0.N) (p : Fin 128) : Fin 1024 :=
  ⟨win0_7.index t (0 : Fin 2) * 128 + p.val, by
    have h := (idx_facts0 t).2.2.2.2.2.2.2.2.2.2.2.2.2.2.1
    have hp := p.isLt
    omega⟩

/-- Where each window's block at point `t` sits in its array: a block's coordinate is the block index times the block
    size plus the coordinate inside the block. -/
theorem emb0_7 (t : Fin cfg0.N) (p : Fin 128) (g : Fin 9229) :
    ((cfg0.win 7).blk t).view.emb (ix2 p g) = ix2 (rowAt0 t p) g := by
  obtain ⟨e00, e01, e10, e11, e20, e21, e30, e31, e40, e41, e50, e51, e60, e61, e70, e71⟩ := idx_facts0 t
  funext a; apply Fin.ext
  match a with
  | ⟨0, _⟩ => show win0_7.index t (0 : Fin 2) * 128 + 1 * p.val = win0_7.index t (0 : Fin 2) * 128 + p.val; omega
  | ⟨1, _⟩ => show win0_7.index t (1 : Fin 2) * 9229 + 1 * g.val = g.val; omega
theorem emb0_0 (t : Fin cfg0.N) (p : Fin 128) (g : Fin 9229) :
    ((cfg0.win 0).blk t).view.emb (ix2 p g) = ix2 (rowAt0 t p) g := by
  obtain ⟨e00, e01, e10, e11, e20, e21, e30, e31, e40, e41, e50, e51, e60, e61, e70, e71⟩ := idx_facts0 t
  funext a; apply Fin.ext
  match a with
  | ⟨0, _⟩ => show win0_0.index t (0 : Fin 2) * 128 + 1 * p.val = win0_7.index t (0 : Fin 2) * 128 + p.val; omega
  | ⟨1, _⟩ => show win0_0.index t (1 : Fin 2) * 9229 + 1 * g.val = g.val; omega
theorem emb0_1 (t : Fin cfg0.N) (p : Fin 128) (g : Fin 9229) :
    ((cfg0.win 1).blk t).view.emb (ix2 p g) = ix2 (rowAt0 t p) g := by
  obtain ⟨e00, e01, e10, e11, e20, e21, e30, e31, e40, e41, e50, e51, e60, e61, e70, e71⟩ := idx_facts0 t
  funext a; apply Fin.ext
  match a with
  | ⟨0, _⟩ => show win0_1.index t (0 : Fin 2) * 128 + 1 * p.val = win0_7.index t (0 : Fin 2) * 128 + p.val; omega
  | ⟨1, _⟩ => show win0_1.index t (1 : Fin 2) * 9229 + 1 * g.val = g.val; omega
theorem emb0_2 (t : Fin cfg0.N) (p : Fin 128) (g : Fin 9229) :
    ((cfg0.win 2).blk t).view.emb (ix2 p g) = ix2 (rowAt0 t p) g := by
  obtain ⟨e00, e01, e10, e11, e20, e21, e30, e31, e40, e41, e50, e51, e60, e61, e70, e71⟩ := idx_facts0 t
  funext a; apply Fin.ext
  match a with
  | ⟨0, _⟩ => show win0_2.index t (0 : Fin 2) * 128 + 1 * p.val = win0_7.index t (0 : Fin 2) * 128 + p.val; omega
  | ⟨1, _⟩ => show win0_2.index t (1 : Fin 2) * 9229 + 1 * g.val = g.val; omega
theorem emb0_3 (t : Fin cfg0.N) (g : Fin 9229) :
    ((cfg0.win 3).blk t).view.emb (ix2 (0 : Fin 1) g) = ix2 (0 : Fin 1) g := by
  obtain ⟨e00, e01, e10, e11, e20, e21, e30, e31, e40, e41, e50, e51, e60, e61, e70, e71⟩ := idx_facts0 t
  funext a; apply Fin.ext
  match a with
  | ⟨0, _⟩ => show win0_3.index t (0 : Fin 2) * 1 + 1 * 0 = 0; omega
  | ⟨1, _⟩ => show win0_3.index t (1 : Fin 2) * 9229 + 1 * g.val = g.val; omega
theorem emb0_4 (t : Fin cfg0.N) (g : Fin 9229) :
    ((cfg0.win 4).blk t).view.emb (ix2 (0 : Fin 1) g) = ix2 (0 : Fin 1) g := by
  obtain ⟨e00, e01, e10, e11, e20, e21, e30, e31, e40, e41, e50, e51, e60, e61, e70, e71⟩ := idx_facts0 t
  funext a; apply Fin.ext
  match a with
  | ⟨0, _⟩ => show win0_4.index t (0 : Fin 2) * 1 + 1 * 0 = 0; omega
  | ⟨1, _⟩ => show win0_4.index t (1 : Fin 2) * 9229 + 1 * g.val = g.val; omega
theorem emb0_5 (t : Fin cfg0.N) (g : Fin 9229) :
    ((cfg0.win 5).blk t).view.emb (ix2 (0 : Fin 1) g) = ix2 (0 : Fin 1) g := by
  obtain ⟨e00, e01, e10, e11, e20, e21, e30, e31, e40, e41, e50, e51, e60, e61, e70, e71⟩ := idx_facts0 t
  funext a; apply Fin.ext
  match a with
  | ⟨0, _⟩ => show win0_5.index t (0 : Fin 2) * 1 + 1 * 0 = 0; omega
  | ⟨1, _⟩ => show win0_5.index t (1 : Fin 2) * 9229 + 1 * g.val = g.val; omega
theorem emb0_6 (t : Fin cfg0.N) (g : Fin 9229) :
    ((cfg0.win 6).blk t).view.emb (ix2 (0 : Fin 1) g) = ix2 (0 : Fin 1) g := by
  obtain ⟨e00, e01, e10, e11, e20, e21, e30, e31, e40, e41, e50, e51, e60, e61, e70, e71⟩ := idx_facts0 t
  funext a; apply Fin.ext
  match a with
  | ⟨0, _⟩ => show win0_6.index t (0 : Fin 2) * 1 + 1 * 0 = 0; omega
  | ⟨1, _⟩ => show win0_6.index t (1 : Fin 2) * 9229 + 1 * g.val = g.val; omega

/-- What point `t` writes back is block `t` of the layer's formula of the arrays as the region finds them. -/
theorem flushed_eq0 (c : Dev nD) (t : Fin cfg0.N) :
    (dat0 (F := Ideal) V c).flushed 7 t = ((cfg0.win 7).blk t).view.read (Elt Ideal) (G0 V c) := by
  show (cfg0.win 7).cut (grid0.coords t) ((dat0 (F := Ideal) V c).after 7 t) = _
  rw [after0_7]
  unfold outAt0
  rw [diagOut_eq]
  funext y
  obtain ⟨p, g, rfl⟩ : ∃ (p : Fin 128) (g : Fin 9229), y = ix2 p g := ⟨y 0, y 1, eq_ix2 y⟩
  show k0_pay1 (iblk0 V c 0 t) (iblk0 V c 3 t) (iblk0 V c 1 t) (iblk0 V c 4 t) (iblk0 V c 2 t) (iblk0 V c 5 t) (iblk0 V c 6 t) (ix2 p g)
    = G0 V c (((cfg0.win 7).blk t).view.emb (ix2 p g))
  refine (diag_apply0 (iblk0 V c 0 t) (iblk0 V c 3 t) (iblk0 V c 1 t) (iblk0 V c 4 t) (iblk0 V c 2 t) (iblk0 V c 5 t) (iblk0 V c 6 t) p g).trans ?_
  rw [emb0_7]
  have h0 : (iblk0 V c 0 t : Vec Ideal S128x9229 .f32) (ix2 p g) = V c (Pipeline.arrRef spec0 0) (ix2 (rowAt0 t p) g) := congrArg (V c (Pipeline.arrRef spec0 0)) (emb0_0 t p g)
  have h1 : (iblk0 V c 1 t : Vec Ideal S128x9229 .f32) (ix2 p g) = V c (Pipeline.arrRef spec0 1) (ix2 (rowAt0 t p) g) := congrArg (V c (Pipeline.arrRef spec0 1)) (emb0_1 t p g)
  have h2 : (iblk0 V c 2 t : Vec Ideal S128x9229 .f32) (ix2 p g) = V c (Pipeline.arrRef spec0 2) (ix2 (rowAt0 t p) g) := congrArg (V c (Pipeline.arrRef spec0 2)) (emb0_2 t p g)
  have h3 : (iblk0 V c 3 t : Vec Ideal S1x9229 .f32) (ix2 (0 : Fin 1) g) = V c (Pipeline.arrRef spec0 3) (ix2 (0 : Fin 1) g) := congrArg (V c (Pipeline.arrRef spec0 3)) (emb0_3 t g)
  have h4 : (iblk0 V c 4 t : Vec Ideal S1x9229 .f32) (ix2 (0 : Fin 1) g) = V c (Pipeline.arrRef spec0 4) (ix2 (0 : Fin 1) g) := congrArg (V c (Pipeline.arrRef spec0 4)) (emb0_4 t g)
  have h5 : (iblk0 V c 5 t : Vec Ideal S1x9229 .f32) (ix2 (0 : Fin 1) g) = V c (Pipeline.arrRef spec0 5) (ix2 (0 : Fin 1) g) := congrArg (V c (Pipeline.arrRef spec0 5)) (emb0_5 t g)
  have h6 : (iblk0 V c 6 t : Vec Ideal S1x9229 .f32) (ix2 (0 : Fin 1) g) = V c (Pipeline.arrRef spec0 6) (ix2 (0 : Fin 1) g) := congrArg (V c (Pipeline.arrRef spec0 6)) (emb0_6 t g)
  rw [h0, h1, h2, h3, h4, h5, h6]
  rfl

/-- An index of the array is in point `t`'s block iff each coordinate is in the block's range on its axis. -/
theorem mem_blk0 (t : Fin cfg0.N) (i : S1024x9229.Idx) :
    i ∈ ((cfg0.win 7).blk t).view.set ↔ ∀ a : Fin 2, win0_7.index t a * S128x9229.size a ≤ (i a).val ∧ (i a).val < win0_7.index t a * S128x9229.size a + S128x9229.size a := by
  show i ∈ ((View.whole main_v18).slice (win0_7.rect t)).set ↔ _
  rw [View.set_slice_whole, Rect.mem_set_unit]
  exact Iff.rfl

/-- Every index of the array is in the block of the point whose row block holds its row. -/
theorem cover_arr0 (i : S1024x9229.Idx) : ∃ t : Fin cfg0.N, (cfg0.win 7).flush t = true ∧ i ∈ ((cfg0.win 7).blk t).view.set := by
  have hi0 : (i 0).val < 1024 := (i 0).isLt
  have hi1 : (i 1).val < 9229 := (i 1).isLt
  obtain ⟨t, ht⟩ := idx_onto0 ⟨(i 0).val / 128, by omega⟩
  have q0 : win0_7.index t (0 : Fin 2) = (i 0).val / 128 := ht
  obtain ⟨e00, e01, e10, e11, e20, e21, e30, e31, e40, e41, e50, e51, e60, e61, e70, e71⟩ := idx_facts0 t
  refine ⟨t, flush0_7 t, ?_⟩
  rw [mem_blk0]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 9229 ≤ (i 1).val ∧ (i 1).val < win0_7.index t (1 : Fin 2) * 9229 + 9229; omega

/-- The output array after the region is the diagonal layer's formula of the arrays the region finds. -/
theorem final0 (c : Dev nD) : (dat0 (F := Ideal) V c).arrAt 7 cfg0.N = G0 V c :=
  (dat0 (F := Ideal) V c).arrAt_eq_of_cover 7 (G0 V c) (fun t _ => flushed_eq0 V c t) cover_arr0

/-- The output array after the region, row `r`, gene `g`: each of the three columns times its weight, summed with the
    bias, through tanh — of the arrays as the region finds them. -/
theorem diag_value (c : Dev nD) (r : Fin 1024) (g : Fin 9229) :
    (dat0 (F := Ideal) V c).arrAt 7 cfg0.N (ix2 r g)
      = diagEntry (V c (Pipeline.arrRef spec0 0) (ix2 r g)) (V c (Pipeline.arrRef spec0 3) (ix2 (0 : Fin 1) g))
        (V c (Pipeline.arrRef spec0 1) (ix2 r g)) (V c (Pipeline.arrRef spec0 4) (ix2 (0 : Fin 1) g))
        (V c (Pipeline.arrRef spec0 2) (ix2 r g)) (V c (Pipeline.arrRef spec0 5) (ix2 (0 : Fin 1) g))
        (V c (Pipeline.arrRef spec0 6) (ix2 (0 : Fin 1) g)) := by
  rw [final0]
  rfl

end Region

end Cert.KernelIdeal.LayerValue

end
-- ==== Proof.IdealLayer1Pieces.lean ====
/- Layer 1: what each case's stores leave, as the body's own arithmetic.  After a first tile the accumulator holds the
   tile's product added to zero; after any later tile, the product added to what the tile before left; at a last tile
   the output block holds tanh of that sum plus the bias row. -/
import proofs.«156066_j47502338294403_1_alg».proof.Proof.IdealLayer1Data
import Idealize.ShloMosaic.Lib.Pipeline.Value

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem zeroOffsets : (![0, 0] : Fin 2 → Nat) = fun _ => 0 := funext fun a => by fin_cases a <;> rfl

/-- A middle tile: the product added to what the tile before left. -/
theorem soutB_eq (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : ¬first1 i) (hc1 : ¬last1 i) (x0 : Vec F S512x512 .f32) (x1 : Vec F S512x1387 .f32) (x2 : Vec F S512x1387 .i32) (x3 : Vec F S1x1387 .f32) (xs0 : Vec F S512x1387 .f32) :
    soutB c i arg2 harg2 arg3 harg3 arg4 harg4 arg5 harg5 arg6 harg6 arg7 harg7 hc0 hc1 x0 x1 x2 x3 xs0 = k1_pay2 x0 x2 x1 xs0 := by
  unfold soutB
  rw [View.read_writes_eq_canon _ _ _ (scoverB c i arg2 harg2 arg3 harg3 arg4 harg4 arg5 harg5 arg6 harg6 arg7 harg7 hc0 hc1 x0 x1 x2 x3 xs0)]
  unfold layerRun1_B
  dsimp only
  try sl_unfold_words
  rw [View.canon_unit_zero (S := S512x1387) zeroOffsets]
  simp only [View.readAt_eq_ld, harg2.read_unread, harg3.read_unread, harg4.read_unread, harg7.read_unread,
    View.ld_unit_zero (S := S512x512) zeroOffsets, View.ld_unit_zero (S := S512x1387) zeroOffsets]

/-- A first tile: the product added to zero. -/
theorem soutA_eq (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : first1 i) (hc1 : ¬last1 i) (x0 : Vec F S512x512 .f32) (x1 : Vec F S512x1387 .f32) (x2 : Vec F S512x1387 .i32) (x3 : Vec F S1x1387 .f32) :
    soutA c i arg2 harg2 arg3 harg3 arg4 harg4 arg5 harg5 arg6 harg6 arg7 harg7 hc0 hc1 x0 x1 x2 x3 = k1_pay2 x0 x2 x1 (k1_pay1 (F := F)) := by
  unfold soutA
  rw [View.read_writes_eq_canon _ _ _ (scoverA c i arg2 harg2 arg3 harg3 arg4 harg4 arg5 harg5 arg6 harg6 arg7 harg7 hc0 hc1 x0 x1 x2 x3)]
  unfold layerRun1_A
  dsimp only
  sl_unfold_words
  rw [View.canon_cons_unit_zero (S := S512x1387) zeroOffsets, View.readCov_unit_zero (S := S512x1387) _ zeroOffsets]
  simp only [View.readAt_eq_ld, harg2.read_unread, harg3.read_unread, harg4.read_unread,
    View.ld_unit_zero (S := S512x512) zeroOffsets, View.ld_unit_zero (S := S512x1387) zeroOffsets]

/-- A last tile: the accumulator as at a middle tile, -/
theorem soutC_eq (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : ¬first1 i) (hc1 : last1 i) (x0 : Vec F S512x512 .f32) (x1 : Vec F S512x1387 .f32) (x2 : Vec F S512x1387 .i32) (x3 : Vec F S1x1387 .f32) (xs0 : Vec F S512x1387 .f32) :
    soutC c i arg2 harg2 arg3 harg3 arg4 harg4 arg5 harg5 arg6 harg6 arg7 harg7 hc0 hc1 x0 x1 x2 x3 xs0 = k1_pay2 x0 x2 x1 xs0 := by
  unfold soutC
  rw [View.read_writes_eq_canon _ _ _ (scoverC c i arg2 harg2 arg3 harg3 arg4 harg4 arg5 harg5 arg6 harg6 arg7 harg7 hc0 hc1 x0 x1 x2 x3 xs0)]
  unfold layerRun1_C
  dsimp only
  try sl_unfold_words
  rw [View.canon_unit_zero (S := S512x1387) zeroOffsets]
  simp only [View.readAt_eq_ld, harg2.read_unread, harg3.read_unread, harg4.read_unread, harg7.read_unread,
    View.ld_unit_zero (S := S512x512) zeroOffsets, View.ld_unit_zero (S := S512x1387) zeroOffsets]

/-- and the output block: tanh of the accumulator plus the bias row. -/
theorem outC_eq (c : Dev nD) (i : grid1.Coords) (arg2 : Memref sig .tc .vmem S512x512 .f32) (harg2 : arg2.IsWhole) (arg3 : Memref sig .tc .vmem S512x1387 .f32) (harg3 : arg3.IsWhole)
    (arg4 : Memref sig .tc .vmem S512x1387 .i32) (harg4 : arg4.IsWhole) (arg5 : Memref sig .tc .vmem S1x1387 .f32) (harg5 : arg5.IsWhole)
    (arg6 : Memref sig .tc .vmem S512x1387 .f32) (harg6 : arg6.IsWhole) (arg7 : Memref sig .tc .vmem S512x1387 .f32) (harg7 : arg7.IsWhole) (hc0 : ¬first1 i) (hc1 : last1 i) (x0 : Vec F S512x512 .f32) (x1 : Vec F S512x1387 .f32) (x2 : Vec F S512x1387 .i32) (x3 : Vec F S1x1387 .f32) (xs0 : Vec F S512x1387 .f32) :
    outC c i arg2 harg2 arg3 harg3 arg4 harg4 arg5 harg5 arg6 harg6 arg7 harg7 hc0 hc1 x0 x1 x2 x3 xs0 = k1_pay3 (k1_pay2 x0 x2 x1 xs0) x3 := by
  unfold outC
  rw [View.read_writes_eq_canon _ _ _ (coverC c i arg2 harg2 arg3 harg3 arg4 harg4 arg5 harg5 arg6 harg6 arg7 harg7 hc0 hc1 x0 x1 x2 x3 xs0)]
  unfold layerRun1_C
  dsimp only
  sl_unfold_words
  rw [View.canon_unit_zero (S := S512x1387) zeroOffsets, View.readCov_unit_zero (S := S512x1387) _ zeroOffsets]
  simp only [View.readAt_eq_ld, harg2.read_unread, harg3.read_unread, harg4.read_unread, harg5.read_unread, harg7.read_unread,
    View.ld_unit_zero (S := S512x512) zeroOffsets, View.ld_unit_zero (S := S512x1387) zeroOffsets, View.ld_unit_zero (S := S1x1387) zeroOffsets]

end Cert.KernelIdeal.Layers

end
-- ==== Proof.IdealLayer1Chain.lean ====
/- Layer 1: the accumulator after each grid point as a plain recursion — at a batch tile's first tile the tile's
   product added to zero, at every later tile the product added to the accumulator before —, and the output block at a
   batch tile's last tile as tanh of that accumulator plus the bias row. -/
import proofs.«156066_j47502338294403_1_alg».proof.Proof.IdealLayer1Pieces

set_option maxRecDepth 16384
set_option maxHeartbeats 800000

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The accumulator after position `n`. -/
def acc1 (c : Dev nD) : (n : ℕ) → n < cfg1.N → Vec F S512x1387 .f32
  | 0, h => k1_pay2 (iblk1 V c 0 ⟨0, h⟩) (iblk1 V c 2 ⟨0, h⟩) (iblk1 V c 1 ⟨0, h⟩) (k1_pay1 (F := F))
  | n + 1, h =>
    if (n + 1) % 19 = 0 then k1_pay2 (iblk1 V c 0 ⟨n + 1, h⟩) (iblk1 V c 2 ⟨n + 1, h⟩) (iblk1 V c 1 ⟨n + 1, h⟩) (k1_pay1 (F := F))
    else k1_pay2 (iblk1 V c 0 ⟨n + 1, h⟩) (iblk1 V c 2 ⟨n + 1, h⟩) (iblk1 V c 1 ⟨n + 1, h⟩) (acc1 c n (Nat.lt_of_succ_lt h))

theorem acc1_first (c : Dev nD) (t : Fin cfg1.N) (h0 : t.val % 19 = 0) :
    acc1 V c t.val t.isLt = k1_pay2 (iblk1 V c 0 t) (iblk1 V c 2 t) (iblk1 V c 1 t) (k1_pay1 (F := F)) := by
  obtain ⟨n, hn⟩ := t
  cases n with
  | zero => rfl
  | succ n => exact if_pos h0

theorem acc1_later (c : Dev nD) (t : Fin cfg1.N) (h0 : ¬t.val % 19 = 0) :
    acc1 V c t.val t.isLt = k1_pay2 (iblk1 V c 0 t) (iblk1 V c 2 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact if_neg h0

/-- One step of the proof data's recursion at a first tile, -/
theorem outsAt1_snd_first (c : Dev nD) (t : Fin cfg1.N) (h0 : t.val % 19 = 0) :
    (outsAt1 V c t.val t.isLt).2 = k1_pay2 (iblk1 V c 0 t) (iblk1 V c 2 t) (iblk1 V c 1 t) (k1_pay1 (F := F)) := by
  have h1 : ¬t.val % 19 = 18 := fun h => by omega
  rw [outsAt1_A V c t h0 h1]
  dsimp only
  rw [soutA_eq]

/-- at a middle tile, -/
theorem outsAt1_snd_middle (c : Dev nD) (t : Fin cfg1.N) (h0 : ¬t.val % 19 = 0) (h1 : ¬t.val % 19 = 18) :
    (outsAt1 V c t.val t.isLt).2 = k1_pay2 (iblk1 V c 0 t) (iblk1 V c 2 t) (iblk1 V c 1 t) (outsAt1 V c (t.val - 1) (Nat.lt_of_le_of_lt (Nat.sub_le _ _) t.isLt)).2 := by
  rw [outsAt1_B V c t h0 h1]
  dsimp only
  rw [soutB_eq]

/-- and at a last tile: the accumulator, -/
theorem outsAt1_snd_last (c : Dev nD) (t : Fin cfg1.N) (h0 : ¬t.val % 19 = 0) (h1 : t.val % 19 = 18) :
    (outsAt1 V c t.val t.isLt).2 = k1_pay2 (iblk1 V c 0 t) (iblk1 V c 2 t) (iblk1 V c 1 t) (outsAt1 V c (t.val - 1) (Nat.lt_of_le_of_lt (Nat.sub_le _ _) t.isLt)).2 := by
  rw [outsAt1_C V c t h0 h1]
  dsimp only
  rw [soutC_eq]

/-- and the output block. -/
theorem outsAt1_fst_last' (c : Dev nD) (t : Fin cfg1.N) (h0 : ¬t.val % 19 = 0) (h1 : t.val % 19 = 18) :
    (outsAt1 V c t.val t.isLt).1 = k1_pay3 (k1_pay2 (iblk1 V c 0 t) (iblk1 V c 2 t) (iblk1 V c 1 t) (outsAt1 V c (t.val - 1) (Nat.lt_of_le_of_lt (Nat.sub_le _ _) t.isLt)).2) (iblk1 V c 3 t) := by
  rw [outsAt1_C V c t h0 h1]
  dsimp only
  rw [outC_eq]

/-- What the proof data says the accumulator holds after a point IS the recursion: by induction on the point. -/
theorem outsAt1_snd (c : Dev nD) : ∀ (n : ℕ) (h : n < cfg1.N), (outsAt1 V c n h).2 = acc1 V c n h
  | 0, h => (outsAt1_snd_first V c ⟨0, h⟩ (Nat.zero_mod _)).trans (acc1_first V c ⟨0, h⟩ (Nat.zero_mod _)).symm
  | n + 1, h => by
    by_cases h0 : (n + 1) % 19 = 0
    · exact (outsAt1_snd_first V c ⟨n + 1, h⟩ h0).trans (acc1_first V c ⟨n + 1, h⟩ h0).symm
    · have ih := outsAt1_snd c n (Nat.lt_of_succ_lt h)
      by_cases h1 : (n + 1) % 19 = 18
      · refine (outsAt1_snd_last V c ⟨n + 1, h⟩ h0 h1).trans (.trans ?_ (acc1_later V c ⟨n + 1, h⟩ h0).symm)
        exact congrArg (k1_pay2 (iblk1 V c 0 ⟨n + 1, h⟩) (iblk1 V c 2 ⟨n + 1, h⟩) (iblk1 V c 1 ⟨n + 1, h⟩)) ih
      · refine (outsAt1_snd_middle V c ⟨n + 1, h⟩ h0 h1).trans (.trans ?_ (acc1_later V c ⟨n + 1, h⟩ h0).symm)
        exact congrArg (k1_pay2 (iblk1 V c 0 ⟨n + 1, h⟩) (iblk1 V c 2 ⟨n + 1, h⟩) (iblk1 V c 1 ⟨n + 1, h⟩)) ih

/-- At a batch tile's last tile the output block is tanh of the accumulator plus the bias row. -/
theorem outsAt1_fst_last (c : Dev nD) (t : Fin cfg1.N) (h1 : t.val % 19 = 18) :
    (outsAt1 V c t.val t.isLt).1 = k1_pay3 (acc1 V c t.val t.isLt) (iblk1 V c 3 t) := by
  have h0 : ¬t.val % 19 = 0 := by omega
  refine (outsAt1_fst_last' V c t h0 h1).trans ?_
  rw [acc1_later V c t h0, outsAt1_snd V c (t.val - 1)]

end Cert.KernelIdeal.Layers

end
-- ==== Proof.LibTileSum.lean ====
/-
  Regrouping a finite sum over `Fin (K * N)` into `K` consecutive tiles of `N` terms each.

  Position `m < K * N` is written `N * s + j` with tile `s < K` and offset `j < N`; a sum over all positions is then
  the sum over the tiles of each tile's own sum. Only commutativity and associativity of the addition are used, so
  the lemmas hold in any additive commutative monoid.
-/
import Mathlib.Data.Fintype.BigOperators
import Mathlib.Logic.Equiv.Fin.Basic

namespace Cert.Lib

open Finset

variable {β : Type*} [AddCommMonoid β]

/-- Offset `j < N` inside tile `s < K` is a position below `K * N`. -/
theorem tile_index_lt {K N : ℕ} (s : Fin K) (j : Fin N) : N * s.val + j.val < K * N :=
  calc N * s.val + j.val < N * s.val + N := Nat.add_lt_add_left j.isLt _
    _ = N * (s.val + 1) := (Nat.mul_succ _ _).symm
    _ ≤ N * K := Nat.mul_le_mul_left _ s.isLt
    _ = K * N := Nat.mul_comm _ _

/-- A sum over `K * N` positions is the sum over the `K` tiles of the sum over each tile's `N` offsets:
    `(s, j) ↦ N * s + j` is a bijection from pairs (tile, offset) onto positions. -/
theorem sum_fin_mul_eq_sum_tiles (K N : ℕ) (f : Fin (K * N) → β) :
    ∑ m : Fin (K * N), f m = ∑ s : Fin K, ∑ j : Fin N, f ⟨N * s.val + j.val, tile_index_lt s j⟩ := by
  rw [← (finProdFinEquiv : Fin K × Fin N ≃ Fin (K * N)).sum_comp f, Fintype.sum_prod_type]
  refine Finset.sum_congr rfl fun s _ => Finset.sum_congr rfl fun j _ => congrArg f (Fin.ext ?_)
  show j.val + N * s.val = N * s.val + j.val
  exact Nat.add_comm _ _

/-- The same with the tiles counted by `Finset.range K`: if `T s` is tile `s`'s own sum for every `s < K`, the sum
    over all positions is `∑ s ∈ range K, T s`. -/
theorem sum_fin_mul_eq_sum_range_of_tiles (K N : ℕ) (f : Fin (K * N) → β) (T : ℕ → β)
    (hT : ∀ s : Fin K, T s.val = ∑ j : Fin N, f ⟨N * s.val + j.val, tile_index_lt s j⟩) :
    ∑ m : Fin (K * N), f m = ∑ s ∈ Finset.range K, T s := by
  rw [sum_fin_mul_eq_sum_tiles K N f, ← Fin.sum_univ_eq_sum_range T K]
  exact Finset.sum_congr rfl fun s _ => (hT s).symm

/-- The same for a summand given as a function `g` of the position as a natural number: the sum over all positions
    is the sum over `s ∈ range K` of `∑ j : Fin N, g (N * s + j)`. -/
theorem sum_fin_mul_eq_sum_range (K N : ℕ) (f : Fin (K * N) → β) (g : ℕ → β) (hfg : ∀ m : Fin (K * N), f m = g m.val) :
    ∑ m : Fin (K * N), f m = ∑ s ∈ Finset.range K, ∑ j : Fin N, g (N * s + j.val) :=
  sum_fin_mul_eq_sum_range_of_tiles K N f (fun s => ∑ j : Fin N, g (N * s + j.val))
    fun s => Finset.sum_congr rfl fun j _ => (hfg ⟨N * s.val + j.val, tile_index_lt s j⟩).symm

/-! ## Four tiles of 1024 in 4096 positions

The three lemmas at `K = 4`, `N = 1024`, with the index type spelt `Fin 4096`. -/

/-- Offset `j < 1024` inside tile `s < 4` is a position below 4096. -/
theorem tile_index_lt_4096 (s : Fin 4) (j : Fin 1024) : 1024 * s.val + j.val < 4096 :=
  tile_index_lt (K := 4) (N := 1024) s j

/-- A sum over 4096 positions is the sum over four tiles of the sum over each tile's 1024 offsets. -/
theorem sum_fin4096_eq_sum_tiles (f : Fin 4096 → β) :
    ∑ m : Fin 4096, f m = ∑ s : Fin 4, ∑ j : Fin 1024, f ⟨1024 * s.val + j.val, tile_index_lt_4096 s j⟩ :=
  sum_fin_mul_eq_sum_tiles 4 1024 f

/-- The same with the four tiles counted by `Finset.range 4`, each tile's sum given as `T s`. -/
theorem sum_fin4096_eq_sum_range_of_tiles (f : Fin 4096 → β) (T : ℕ → β)
    (hT : ∀ s : Fin 4, T s.val = ∑ j : Fin 1024, f ⟨1024 * s.val + j.val, tile_index_lt_4096 s j⟩) :
    ∑ m : Fin 4096, f m = ∑ s ∈ Finset.range 4, T s :=
  sum_fin_mul_eq_sum_range_of_tiles 4 1024 f T hT

/-- The same for a summand given as a function `g` of the position as a natural number. -/
theorem sum_fin4096_eq_sum_range (f : Fin 4096 → β) (g : ℕ → β) (hfg : ∀ m : Fin 4096, f m = g m.val) :
    ∑ m : Fin 4096, f m = ∑ s ∈ Finset.range 4, ∑ j : Fin 1024, g (1024 * s + j.val) :=
  sum_fin_mul_eq_sum_range 4 1024 f g hfg

end Cert.Lib
-- ==== Proof.IdealLayer1Value.lean ====
/- Layer 1's output array after its region, index by index on the extended reals.  The accumulator after tile k of a batch
   tile holds, at a row and a unit, the sum over tiles 0..k of each tile's 512 products (activation times weight where the
   mask word is not zero); at the last tile, k = 18, the nineteen tile sums are one sum over the padded width 9728, the
   bias is added and tanh applied; and the two row blocks, each written back at its batch tile's last point, tile the array. -/
import proofs.«156066_j47502338294403_1_alg».proof.Proof.IdealLayer1Chain
import proofs.«156066_j47502338294403_1_alg».proof.Proof.LibTileSum
import proofs.«156066_j47502338294403_1_alg».proof.Proof.Spec
import Idealize.ShloMosaic.Lib.Pipeline.Value
import Idealize.ShloMosaic.Lib.ValueIdx
import Idealize.ShloMosaic.PureOps.Ideal.Laws

set_option maxRecDepth 16384
set_option maxHeartbeats 1600000

noncomputable section

namespace Cert.KernelIdeal.LayerValue

open Cert.KernelIdeal Cert.KernelIdeal.Gen Cert.KernelIdeal.Layers
open Idealize.ShloMosaic Idealize.ShloMosaic.TcCoe Idealize.ShloMosaic.Tactic Idealize.ShloMosaic.ValueIdx
open Idealize.SL.Sem
open Idealize.ShloMosaic.Pipeline (Dat Cfg Window)

/-! ## The body's arithmetic at an index, on the extended reals -/

/-- The cleared accumulator is zero everywhere. -/
theorem pay1_apply1 (y : S512x1387.Idx) : k1_pay1 (F := Ideal) y = 0 := by
  unfold k1_pay1
  simp only [shapeCast_self]
  show Ideal.ofBits .f32 0x00000000#32 = 0
  exact Ideal.ofBits_zero_f32

theorem lhs_row1 (y : S512x1387.Idx) (q : dot_S512x512_S512x1387_S512x1387_1_0_0_1_n_n.contr.Idx) : (dot_S512x512_S512x1387_S512x1387_1_0_0_1_n_n.lhsIdx y q 0).val = (y 0).val := by
  unfold DotDims.lhsIdx
  rw [dif_neg (show ¬(0 : Fin S512x512.rank) ∈ dot_S512x512_S512x1387_S512x1387_1_0_0_1_n_n.lhsBatch by decide), dif_pos (show (0 : Fin S512x512.rank) ∈ dot_S512x512_S512x1387_S512x1387_1_0_0_1_n_n.lhsNonContracting by decide)]
  rfl
theorem lhs_col1 (y : S512x1387.Idx) (q : dot_S512x512_S512x1387_S512x1387_1_0_0_1_n_n.contr.Idx) : (dot_S512x512_S512x1387_S512x1387_1_0_0_1_n_n.lhsIdx y q 1).val = (q ⟨0, by decide⟩).val :=
  dot_S512x512_S512x1387_S512x1387_1_0_0_1_n_n.lhsIdx_val_of_single rfl y q
theorem rhs_row1 (y : S512x1387.Idx) (q : dot_S512x512_S512x1387_S512x1387_1_0_0_1_n_n.contr.Idx) : (dot_S512x512_S512x1387_S512x1387_1_0_0_1_n_n.rhsIdx y q 0).val = (q ⟨0, by decide⟩).val :=
  dot_S512x512_S512x1387_S512x1387_1_0_0_1_n_n.rhsIdx_val_of_single rfl y q
theorem rhs_col1 (y : S512x1387.Idx) (q : dot_S512x512_S512x1387_S512x1387_1_0_0_1_n_n.contr.Idx) : (dot_S512x512_S512x1387_S512x1387_1_0_0_1_n_n.rhsIdx y q 1).val = (y 1).val := by
  unfold DotDims.rhsIdx
  rw [dif_neg (show ¬(1 : Fin S512x1387.rank) ∈ dot_S512x512_S512x1387_S512x1387_1_0_0_1_n_n.rhsBatch by decide), dif_pos (show (1 : Fin S512x1387.rank) ∈ dot_S512x512_S512x1387_S512x1387_1_0_0_1_n_n.rhsNonContracting by decide)]
  rfl

/-- The accumulation step at row `p`, unit `j`: the accumulator there plus the tile's 512 products. -/
theorem pay2_apply1 (x0 : Vec Ideal S512x512 .f32) (x2 : Vec Ideal S512x1387 .i32) (x1 : Vec Ideal S512x1387 .f32)
    (acc : Vec Ideal S512x1387 .f32) (p : Fin 512) (j : Fin 1387) :
    k1_pay2 x0 x2 x1 acc (ix2 p j)
      = acc (ix2 p j) + ∑ i : Fin 512, x0 (ix2 p i) * (if Scalar.cmpi .ne (x2 (ix2 i j)) 0#32 = 1#1 then x1 (ix2 i j) else 0) := by
  unfold k1_pay2
  simp only [shapeCast_self]
  show acc (ix2 p j) + FloatOps.matmul (F := Ideal) dot_S512x512_S512x1387_S512x1387_1_0_0_1_n_n none (truncf .bf16 x0 bitsLt_bf16_f32)
      (truncf .bf16 (select (cmpi .ne x2 (constantI S512x1387 32 0#32)) x1 (broadcast S512x1387 (Scalar.ofBits (F := Ideal) .f32 0x00000000#32))) bitsLt_bf16_f32)
      (constant (F := Ideal) S512x1387 .f32 0x00000000#32) (ix2 p j) = _
  rw [Ideal.matmul_constant_zero_apply, ← Equiv.sum_comp (contrEquiv1 dot_S512x512_S512x1387_S512x1387_1_0_0_1_n_n 512 rfl rfl).symm]
  refine congrArg (acc (ix2 p j) + ·) (Finset.sum_congr rfl fun k _ => ?_)
  have hk := contrEquiv1_symm_val dot_S512x512_S512x1387_S512x1387_1_0_0_1_n_n 512 rfl rfl k
  have el : dot_S512x512_S512x1387_S512x1387_1_0_0_1_n_n.lhsIdx (ix2 p j) ((contrEquiv1 dot_S512x512_S512x1387_S512x1387_1_0_0_1_n_n 512 rfl rfl).symm k) = ix2 p k := funext fun a => Fin.ext (by
    match a with
    | ⟨0, _⟩ => exact lhs_row1 _ _
    | ⟨1, _⟩ => exact (lhs_col1 _ _).trans hk)
  have er : dot_S512x512_S512x1387_S512x1387_1_0_0_1_n_n.rhsIdx (ix2 p j) ((contrEquiv1 dot_S512x512_S512x1387_S512x1387_1_0_0_1_n_n 512 rfl rfl).symm k) = ix2 k j := funext fun a => Fin.ext (by
    match a with
    | ⟨0, _⟩ => exact (rhs_row1 _ _).trans hk
    | ⟨1, _⟩ => exact rhs_col1 _ _)
  rw [el, er]
  show x0 (ix2 p k) * (if IntOp.cmpi .ne (x2 (ix2 k j)) 0#32 = 1 then x1 (ix2 k j) else Ideal.ofBits .f32 0x00000000#32) = _
  rw [Ideal.ofBits_zero_f32]
  rfl

/-- The last step at row `p`, unit `j`: the bias row's entry added, through tanh. -/
theorem pay3_apply1 (a : Vec Ideal S512x1387 .f32) (b : Vec Ideal S1x1387 .f32) (p : Fin 512) (j : Fin 1387) :
    k1_pay3 a b (ix2 p j) = Ideal.tanh (a (ix2 p j) + b (ix2 (0 : Fin 1) j)) := by
  unfold k1_pay3
  simp only [shapeCast_self]
  show Ideal.tanh (a (ix2 p j) + broadcastTo S512x1387 b broadcasts_S1x1387_S512x1387 (ix2 p j)) = _
  rw [broadcastTo_apply b broadcasts_S1x1387_S512x1387 (ix2 p j) (ix2 (0 : Fin 1) j) (fun a => by
    match a with
    | ⟨0, _⟩ => rfl
    | ⟨1, _⟩ => rfl)]

/-- One product of the contraction: the activation times the weight where the mask word is not zero. -/
def prod1 (a : EReal) (mk : BitVec 32) (w : EReal) : EReal := a * (if Scalar.cmpi .ne mk 0#32 = 1#1 then w else 0)

theorem pay2_apply1' (x0 : Vec Ideal S512x512 .f32) (x2 : Vec Ideal S512x1387 .i32) (x1 : Vec Ideal S512x1387 .f32)
    (acc : Vec Ideal S512x1387 .f32) (p : Fin 512) (j : Fin 1387) :
    k1_pay2 x0 x2 x1 acc (ix2 p j) = acc (ix2 p j) + ∑ i : Fin 512, prod1 (x0 (ix2 p i)) (x2 (ix2 i j)) (x1 (ix2 i j)) :=
  pay2_apply1 x0 x2 x1 acc p j

/-! ## The accumulator over the tiles -/

section Region

variable (V : (c : Dev nD) → (b : Ref sig .tc) → Buf (Elt Ideal) ((c : Thread nD τ).loc b))

/-- The index maps, decided over the grid: point `t` is tile `t % 19` of batch tile `t / 19`. -/
theorem idx_facts1 : ∀ t : Fin cfg1.N,
    win1_0.index t (0 : Fin 2) = t.val / 19 ∧ win1_0.index t (1 : Fin 2) = t.val % 19
    ∧ win1_1.index t (0 : Fin 2) = t.val % 19 ∧ win1_1.index t (1 : Fin 2) = 0
    ∧ win1_2.index t (0 : Fin 2) = t.val % 19 ∧ win1_2.index t (1 : Fin 2) = 0
    ∧ win1_3.index t (0 : Fin 2) = 0 ∧ win1_3.index t (1 : Fin 2) = 0
    ∧ win1_4.index t (0 : Fin 2) = t.val / 19 ∧ win1_4.index t (1 : Fin 2) = 0 :=
  (by decide +kernel : ∀ t : Fin grid1.N, _)

/-- One product of the padded contraction at row `r`, unit `j`, position `n` (nothing beyond the padded width). -/
def term1 (c : Dev nD) (r : Fin 1024) (j : Fin 1387) (n : ℕ) : EReal :=
  if h : n < 9728 then
    prod1 (V c (Pipeline.arrRef spec1 0) (ix2 r ⟨n, h⟩)) (V c (Pipeline.arrRef spec1 2) (ix2 (⟨n, h⟩ : Fin 9728) j)) (V c (Pipeline.arrRef spec1 1) (ix2 (⟨n, h⟩ : Fin 9728) j))
  else 0

/-- The array row under row `p` of a point of batch tile `q`. -/
def rowOf1 (q : ℕ) (hq : q < 2) (p : Fin 512) : Fin 1024 := ⟨q * 512 + p.val, by have := p.isLt; omega⟩

theorem emb1_0 (t : Fin cfg1.N) (p : Fin 512) (i : Fin 512) :
    ((cfg1.win 0).blk t).view.emb (ix2 p i) = ix2 (⟨(t.val / 19) * 512 + p.val, by have := p.isLt; have : t.val < 38 := lt_of_lt_of_eq t.isLt N_1; omega⟩ : Fin 1024) (⟨(t.val % 19) * 512 + i.val, by have := i.isLt; omega⟩ : Fin 9728) := by
  obtain ⟨e00, e01, e10, e11, e20, e21, e30, e31, e40, e41⟩ := idx_facts1 t
  funext a; apply Fin.ext
  match a with
  | ⟨0, _⟩ => show win1_0.index t (0 : Fin 2) * 512 + 1 * p.val = (t.val / 19) * 512 + p.val; omega
  | ⟨1, _⟩ => show win1_0.index t (1 : Fin 2) * 512 + 1 * i.val = (t.val % 19) * 512 + i.val; omega
theorem emb1_1 (t : Fin cfg1.N) (i : Fin 512) (j : Fin 1387) :
    ((cfg1.win 1).blk t).view.emb (ix2 i j) = ix2 (⟨(t.val % 19) * 512 + i.val, by have := i.isLt; omega⟩ : Fin 9728) j := by
  obtain ⟨e00, e01, e10, e11, e20, e21, e30, e31, e40, e41⟩ := idx_facts1 t
  funext a; apply Fin.ext
  match a with
  | ⟨0, _⟩ => show win1_1.index t (0 : Fin 2) * 512 + 1 * i.val = (t.val % 19) * 512 + i.val; omega
  | ⟨1, _⟩ => show win1_1.index t (1 : Fin 2) * 1387 + 1 * j.val = j.val; omega
theorem emb1_2 (t : Fin cfg1.N) (i : Fin 512) (j : Fin 1387) :
    ((cfg1.win 2).blk t).view.emb (ix2 i j) = ix2 (⟨(t.val % 19) * 512 + i.val, by have := i.isLt; omega⟩ : Fin 9728) j := by
  obtain ⟨e00, e01, e10, e11, e20, e21, e30, e31, e40, e41⟩ := idx_facts1 t
  funext a; apply Fin.ext
  match a with
  | ⟨0, _⟩ => show win1_2.index t (0 : Fin 2) * 512 + 1 * i.val = (t.val % 19) * 512 + i.val; omega
  | ⟨1, _⟩ => show win1_2.index t (1 : Fin 2) * 1387 + 1 * j.val = j.val; omega
theorem emb1_3 (t : Fin cfg1.N) (j : Fin 1387) :
    ((cfg1.win 3).blk t).view.emb (ix2 (0 : Fin 1) j) = ix2 (0 : Fin 1) j := by
  obtain ⟨e00, e01, e10, e11, e20, e21, e30, e31, e40, e41⟩ := idx_facts1 t
  funext a; apply Fin.ext
  match a with
  | ⟨0, _⟩ => show win1_3.index t (0 : Fin 2) * 1 + 1 * 0 = 0; omega
  | ⟨1, _⟩ => show win1_3.index t (1 : Fin 2) * 1387 + 1 * j.val = j.val; omega
theorem emb1_4 (t : Fin cfg1.N) (p : Fin 512) (j : Fin 1387) :
    ((cfg1.win 4).blk t).view.emb (ix2 p j) = ix2 (⟨(t.val / 19) * 512 + p.val, by have := p.isLt; have : t.val < 38 := lt_of_lt_of_eq t.isLt N_1; omega⟩ : Fin 1024) j := by
  obtain ⟨e00, e01, e10, e11, e20, e21, e30, e31, e40, e41⟩ := idx_facts1 t
  funext a; apply Fin.ext
  match a with
  | ⟨0, _⟩ => show win1_4.index t (0 : Fin 2) * 512 + 1 * p.val = (t.val / 19) * 512 + p.val; omega
  | ⟨1, _⟩ => show win1_4.index t (1 : Fin 2) * 1387 + 1 * j.val = j.val; omega

/-- Tile `t`'s 512 products at row `p`, unit `j` are the padded contraction's terms at positions 512·(t % 19) + i. -/
theorem tile1 (c : Dev nD) (t : Fin cfg1.N) (p : Fin 512) (j : Fin 1387) :
    (∑ i : Fin 512, prod1 ((iblk1 V c 0 t : Vec Ideal S512x512 .f32) (ix2 p i)) ((iblk1 V c 2 t : Vec Ideal S512x1387 .i32) (ix2 i j)) ((iblk1 V c 1 t : Vec Ideal S512x1387 .f32) (ix2 i j)))
      = ∑ i : Fin 512, term1 V c (⟨(t.val / 19) * 512 + p.val, by have := p.isLt; have : t.val < 38 := lt_of_lt_of_eq t.isLt N_1; omega⟩ : Fin 1024) j (512 * (t.val % 19) + i.val) := by
  refine Finset.sum_congr rfl fun i _ => ?_
  have hlt : 512 * (t.val % 19) + i.val < 9728 := by have := i.isLt; omega
  have e : (⟨(t.val % 19) * 512 + i.val, by have := i.isLt; omega⟩ : Fin 9728) = ⟨512 * (t.val % 19) + i.val, hlt⟩ := Fin.ext (by show (t.val % 19) * 512 + i.val = 512 * (t.val % 19) + i.val; omega)
  have h0 : (iblk1 V c 0 t : Vec Ideal S512x512 .f32) (ix2 p i) = V c (Pipeline.arrRef spec1 0) (ix2 (⟨(t.val / 19) * 512 + p.val, by have := p.isLt; have : t.val < 38 := lt_of_lt_of_eq t.isLt N_1; omega⟩ : Fin 1024) (⟨512 * (t.val % 19) + i.val, hlt⟩ : Fin 9728)) :=
    (congrArg (V c (Pipeline.arrRef spec1 0)) (emb1_0 t p i)).trans (by rw [e])
  have h1 : (iblk1 V c 1 t : Vec Ideal S512x1387 .f32) (ix2 i j) = V c (Pipeline.arrRef spec1 1) (ix2 (⟨512 * (t.val % 19) + i.val, hlt⟩ : Fin 9728) j) :=
    (congrArg (V c (Pipeline.arrRef spec1 1)) (emb1_1 t i j)).trans (by rw [e])
  have h2 : (iblk1 V c 2 t : Vec Ideal S512x1387 .i32) (ix2 i j) = V c (Pipeline.arrRef spec1 2) (ix2 (⟨512 * (t.val % 19) + i.val, hlt⟩ : Fin 9728) j) :=
    (congrArg (V c (Pipeline.arrRef spec1 2)) (emb1_2 t i j)).trans (by rw [e])
  rw [h0, h1, h2]
  unfold term1
  rw [dif_pos hlt]

/-- The accumulator after position `n` at row `p`, unit `j`: the sum over tiles 0..n % 19 of each tile's terms. -/
theorem acc1_apply (c : Dev nD) (p : Fin 512) (j : Fin 1387) : ∀ (n : ℕ) (h : n < cfg1.N),
    acc1 (F := Ideal) V c n h (ix2 p j)
      = ∑ s ∈ Finset.range (n % 19 + 1), ∑ i : Fin 512,
          term1 V c (⟨(n / 19) * 512 + p.val, by have := p.isLt; have : n < 38 := lt_of_lt_of_eq h N_1; omega⟩ : Fin 1024) j (512 * s + i.val)
  | 0, h => by
    rw [show acc1 (F := Ideal) V c 0 h = _ from acc1_first V c ⟨0, h⟩ (Nat.zero_mod _), pay2_apply1', pay1_apply1, zero_add]
    rw [tile1 V c ⟨0, h⟩ p j]
    simp only [Nat.zero_mod, Nat.zero_div, Nat.zero_add, Finset.range_one, Finset.sum_singleton]
  | n + 1, h => by
    have hN : n + 1 < 38 := lt_of_lt_of_eq h N_1
    by_cases h0 : (n + 1) % 19 = 0
    · rw [show acc1 (F := Ideal) V c (n + 1) h = _ from acc1_first V c ⟨n + 1, h⟩ h0, pay2_apply1', pay1_apply1, zero_add]
      rw [tile1 V c ⟨n + 1, h⟩ p j]
      simp only [h0, Nat.zero_add, Finset.range_one, Finset.sum_singleton]
    · rw [show acc1 (F := Ideal) V c (n + 1) h = _ from acc1_later V c ⟨n + 1, h⟩ h0, pay2_apply1']
      rw [show acc1 (F := Ideal) V c ((⟨n + 1, h⟩ : Fin cfg1.N).val - 1) _ (ix2 p j) = acc1 (F := Ideal) V c n (Nat.lt_of_succ_lt h) (ix2 p j) from rfl]
      rw [acc1_apply c p j n (Nat.lt_of_succ_lt h), tile1 V c ⟨n + 1, h⟩ p j]
      have hd : (n + 1) / 19 = n / 19 := by omega
      have hm : (n + 1) % 19 = n % 19 + 1 := by omega
      simp only [hd, hm]
      rw [Finset.sum_range_succ _ (n % 19 + 1)]

/-! ## From blocks to the array -/

/-- Layer 1's formula over the padded width, as one function of the four arrays the region finds. -/
def G1 (c : Dev nD) : S1024x1387.Idx → Elt Ideal .f32 := fun y =>
  Cert.Spec.layer (K := 9728) (fun r i => V c (Pipeline.arrRef spec1 0) (ix2 r i)) (fun i j => V c (Pipeline.arrRef spec1 1) (ix2 i j))
    (fun i j => Scalar.cmpi .ne (V c (Pipeline.arrRef spec1 2) (ix2 i j)) 0#32)
    (fun j => V c (Pipeline.arrRef spec1 3) (ix2 (0 : Fin 1) j)) (y 0) (y 1)

/-- The nineteen tile sums are the one sum over the padded width. -/
theorem tiles_sum1 (c : Dev nD) (r : Fin 1024) (j : Fin 1387) :
    (∑ s ∈ Finset.range 19, ∑ i : Fin 512, term1 V c r j (512 * s + i.val))
      = ∑ i : Fin 9728, prod1 (V c (Pipeline.arrRef spec1 0) (ix2 r i)) (V c (Pipeline.arrRef spec1 2) (ix2 i j)) (V c (Pipeline.arrRef spec1 1) (ix2 i j)) :=
  (Cert.Lib.sum_fin_mul_eq_sum_range 19 512
    (fun i : Fin (19 * 512) => prod1 (V c (Pipeline.arrRef spec1 0) (ix2 r (i : Fin 9728))) (V c (Pipeline.arrRef spec1 2) (ix2 (i : Fin 9728) j)) (V c (Pipeline.arrRef spec1 1) (ix2 (i : Fin 9728) j)))
    (term1 V c r j) (fun i => by unfold term1; rw [dif_pos i.isLt])).symm

/-- What a batch tile's last point writes back is its block of layer 1's formula. -/
theorem flushed_eq1 (c : Dev nD) (t : Fin cfg1.N) (hf : (cfg1.win 4).flush t = true) :
    (dat1 (F := Ideal) V c).flushed 4 t = ((cfg1.win 4).blk t).view.read (Elt Ideal) (G1 V c) := by
  have h18 : t.val % 19 = 18 := (flush1_4 t).mp hf
  have hN : t.val < 38 := lt_of_lt_of_eq t.isLt N_1
  show (cfg1.win 4).cut (grid1.coords t) ((dat1 (F := Ideal) V c).after 4 t) = _
  rw [after1_4, outsAt1_fst_last V c t h18]
  funext y
  obtain ⟨p, j, rfl⟩ : ∃ (p : Fin 512) (j : Fin 1387), y = ix2 p j := ⟨y 0, y 1, eq_ix2 y⟩
  show k1_pay3 (acc1 (F := Ideal) V c t.val t.isLt) (iblk1 V c 3 t) (ix2 p j) = G1 V c (((cfg1.win 4).blk t).view.emb (ix2 p j))
  rw [pay3_apply1, acc1_apply V c p j t.val t.isLt, emb1_4]
  have h3 : (iblk1 V c 3 t : Vec Ideal S1x1387 .f32) (ix2 (0 : Fin 1) j) = V c (Pipeline.arrRef spec1 3) (ix2 (0 : Fin 1) j) :=
    congrArg (V c (Pipeline.arrRef spec1 3)) (emb1_3 t j)
  rw [h3, h18, tiles_sum1]
  rfl

theorem mem_blk1 (t : Fin cfg1.N) (i : S1024x1387.Idx) :
    i ∈ ((cfg1.win 4).blk t).view.set ↔ ∀ a : Fin 2, win1_4.index t a * S512x1387.size a ≤ (i a).val ∧ (i a).val < win1_4.index t a * S512x1387.size a + S512x1387.size a := by
  show i ∈ ((View.whole main_v34).slice (win1_4.rect t)).set ↔ _
  rw [View.set_slice_whole, Rect.mem_set_unit]
  exact Iff.rfl

/-- Every index of the array is in the block of its batch tile's last point. -/
theorem cover_arr1 (i : S1024x1387.Idx) : ∃ t : Fin cfg1.N, (cfg1.win 4).flush t = true ∧ i ∈ ((cfg1.win 4).blk t).view.set := by
  have hi0 : (i 0).val < 1024 := (i 0).isLt
  have hi1 : (i 1).val < 1387 := (i 1).isLt
  let t : Fin cfg1.N := ⟨19 * ((i 0).val / 512) + 18, by rw [show cfg1.N = 38 from N_1]; omega⟩
  have htv : t.val = 19 * ((i 0).val / 512) + 18 := rfl
  obtain ⟨e00, e01, e10, e11, e20, e21, e30, e31, e40, e41⟩ := idx_facts1 t
  refine ⟨t, (flush1_4 t).mpr (by rw [htv]; omega), ?_⟩
  rw [mem_blk1]
  intro a
  match a with
  | ⟨0, _⟩ => show win1_4.index t (0 : Fin 2) * 512 ≤ (i 0).val ∧ (i 0).val < win1_4.index t (0 : Fin 2) * 512 + 512; rw [e40, htv]; omega
  | ⟨1, _⟩ => show win1_4.index t (1 : Fin 2) * 1387 ≤ (i 1).val ∧ (i 1).val < win1_4.index t (1 : Fin 2) * 1387 + 1387; rw [e41]; omega

/-- The output array after the region is layer 1's formula, over the padded width, of the arrays the region finds. -/
theorem final1 (c : Dev nD) : (dat1 (F := Ideal) V c).arrAt 4 cfg1.N = G1 V c :=
  (dat1 (F := Ideal) V c).arrAt_eq_of_cover 4 (G1 V c) (fun t hf => flushed_eq1 V c t hf) cover_arr1

theorem layer1_value (c : Dev nD) (r : Fin 1024) (j : Fin 1387) :
    (dat1 (F := Ideal) V c).arrAt 4 cfg1.N (ix2 r j)
      = Cert.Spec.layer (K := 9728) (fun r i => V c (Pipeline.arrRef spec1 0) (ix2 r i)) (fun i j => V c (Pipeline.arrRef spec1 1) (ix2 i j))
          (fun i j => Scalar.cmpi .ne (V c (Pipeline.arrRef spec1 2) (ix2 i j)) 0#32)
          (fun j => V c (Pipeline.arrRef spec1 3) (ix2 (0 : Fin 1) j)) r j := by
  rw [final1]
  rfl

end Region

end Cert.KernelIdeal.LayerValue

end
-- ==== Proof.IdealGlueAct01.lean ====
/- The kernel's first two activations, as the specification's functions of the kernel's arguments.
   Activation 0 is what the diagonal layer's region leaves in its output array: the region finds the input's three
   feature columns, the three rows of feature weights and the bias row, each a layout of an argument, and at row r,
   gene g they read the arguments at features 3g, 3g + 1, 3g + 2 and at gene g, so the entry is the diagonal layer's.
   Activation 1 is what layer 1's region leaves: it runs over 9728 positions, finding activation 0 extended by zero
   columns, the weights extended by zero rows, the mask extended by clear rows and widened to words, and the bias as
   one row; the 499 extra terms of each sum are zero times something, so the entry is the masked layer over 9229. -/
import proofs.«156066_j47502338294403_1_alg».proof.Proof.IdealRun
import proofs.«156066_j47502338294403_1_alg».proof.Proof.IdealArgs
import proofs.«156066_j47502338294403_1_alg».proof.Proof.IdealHostReads
import proofs.«156066_j47502338294403_1_alg».proof.Proof.LibPadSum
import proofs.«156066_j47502338294403_1_alg».proof.Proof.Spec
import proofs.«156066_j47502338294403_1_alg».proof.Proof.IdealDiagValue
import proofs.«156066_j47502338294403_1_alg».proof.Proof.IdealLayer1Value
import Idealize.ShloMosaic.Lib.StableHlo.Run
import Idealize.ShloMosaic.Lib.Pipeline.Value
import Idealize.ShloMosaic.Lib.ValueIdx

set_option maxRecDepth 16384
set_option maxHeartbeats 1600000

noncomputable section

namespace Cert.KernelIdeal.LayerValue

open Cert.KernelIdeal Cert.KernelIdeal.Gen Cert.KernelIdeal.Layers
open Idealize.ShloMosaic Idealize.ShloMosaic.TcCoe Idealize.ShloMosaic.ValueIdx Idealize.ShloMosaic.StableHlo
open Idealize.SL.Sem
open Idealize.ShloMosaic.Pipeline (Dat Cfg Window)

/-! ## A layer over a padded width

The kernel runs layer 1 over 9728 positions: the activation, the weights and the mask are extended beyond position 9229,
the activation and the weights by zero and the mask by the clear bit. The extra terms of the sum are zero times something,
so the layer over the padded width is the layer over 9229. -/

/-- A two-index array extended by zero columns from 9229 to 9728. -/
def padCols (a : Fin 1024 → Fin 9229 → EReal) : Fin 1024 → Fin 9728 → EReal :=
  fun r i => if h : i.val < 9229 then a r ⟨i.val, h⟩ else 0
/-- A two-index array extended by zero rows from 9229 to 9728. -/
def padRows {N : ℕ} (f : Fin 9229 → Fin N → EReal) : Fin 9728 → Fin N → EReal :=
  fun i j => if h : i.val < 9229 then f ⟨i.val, h⟩ j else 0
/-- A two-index array of bits extended by clear rows from 9229 to 9728. -/
def padBits {N : ℕ} (f : Fin 9229 → Fin N → BitVec 1) : Fin 9728 → Fin N → BitVec 1 :=
  fun i j => if h : i.val < 9229 then f ⟨i.val, h⟩ j else 0#1

/-- A masked layer over the padded width is the masked layer over 9229. -/
theorem layer_padded {N : ℕ} (a : Fin 1024 → Fin 9229 → EReal) (W : Fin 9229 → Fin N → EReal)
    (mk : Fin 9229 → Fin N → BitVec 1) (b : Fin N → EReal) (r : Fin 1024) (j : Fin N) :
    Cert.Spec.layer (K := 9728) (padCols a) (padRows W) (padBits mk) b r j = Cert.Spec.layer a W mk b r j := by
  unfold Cert.Spec.layer padCols padRows padBits
  refine congrArg (fun s => Ideal.tanh (s + b j)) ?_
  refine Eq.trans ?_ (Cert.Lib.sum_extend_zero' 9229 9728 (by omega) (fun i => a r i * (if mk i j = 1#1 then W i j else 0)))
  refine Finset.sum_congr rfl fun i _ => ?_
  by_cases h : i.val < 9229
  · simp only [dif_pos h]
  · simp only [dif_neg h, zero_mul]

variable (m : (ℓ : Loc nD τ sig) → Buf (Elt Ideal) ℓ) (ρ : Dev nD → PrngReg) (c : Dev nD)

/-- Activation 0: the diagonal layer's output array after its region, of the network's arguments. The region finds
    the three feature columns of the input, the three rows of feature weights and the bias row, each a layout of an
    argument; read at an index they are the arguments at features 3g, 3g + 1, 3g + 2 and at gene g. -/
theorem act0_at (r : Fin 1024) (g : Fin 9229) :
    B2 m ρ c (Proc.devRef .tc main_v18) (ix2 r g) = Cert.Spec.act0 (kerArgs m c) r g := by
  have harr : B2 m ρ c (Proc.devRef .tc main_v18) = (dat0 (F := Ideal) (T1 m ρ) c).arrAt 7 cfg0.N := B2_arr m ρ c 7
  rw [harr, diag_value (T1 m ρ) c r g]
  have es0 : B1 m ρ c (Proc.devRef .tc main_v2) = shapeCast S1024x9229 (extractStridedSlice S1024x9229x1 ![0, 0, 0]
      (shapeCast S1024x9229x3 (B0 m ρ c (Proc.devRef .tc main_arg0)) shapeCasts_S1024x27687_S1024x9229x3) slices_S1024x9229x3_S1024x9229x1_0_0_0)
      shapeCasts_S1024x9229x1_S1024x9229 := by
    show StableHlo.after hostOps0 (B0 m ρ c) (Proc.devRef .tc main_v2) = _
    after_results <;> rfl
  have es1 : B1 m ρ c (Proc.devRef .tc main_v4) = shapeCast S1024x9229 (extractStridedSlice S1024x9229x1 ![0, 0, 1]
      (shapeCast S1024x9229x3 (B0 m ρ c (Proc.devRef .tc main_arg0)) shapeCasts_S1024x27687_S1024x9229x3) slices_S1024x9229x3_S1024x9229x1_0_0_1)
      shapeCasts_S1024x9229x1_S1024x9229 := by
    show StableHlo.after hostOps0 (B0 m ρ c) (Proc.devRef .tc main_v4) = _
    after_results <;> rfl
  have es2 : B1 m ρ c (Proc.devRef .tc main_v6) = shapeCast S1024x9229 (extractStridedSlice S1024x9229x1 ![0, 0, 2]
      (shapeCast S1024x9229x3 (B0 m ρ c (Proc.devRef .tc main_arg0)) shapeCasts_S1024x27687_S1024x9229x3) slices_S1024x9229x3_S1024x9229x1_0_0_2)
      shapeCasts_S1024x9229x1_S1024x9229 := by
    show StableHlo.after hostOps0 (B0 m ρ c) (Proc.devRef .tc main_v6) = _
    after_results <;> rfl
  have ew0 : B1 m ρ c (Proc.devRef .tc main_v10) = shapeCast S1x9229 (shapeCast S9229 (extractStridedSlice S9229x1 ![0, 0]
      (shapeCast S9229x3 (B0 m ρ c (Proc.devRef .tc main_arg1)) shapeCasts_S27687_S9229x3) slices_S9229x3_S9229x1_0_0) shapeCasts_S9229x1_S9229)
      shapeCasts_S9229_S1x9229 := by
    show StableHlo.after hostOps0 (B0 m ρ c) (Proc.devRef .tc main_v10) = _
    after_results <;> rfl
  have ew1 : B1 m ρ c (Proc.devRef .tc main_v13) = shapeCast S1x9229 (shapeCast S9229 (extractStridedSlice S9229x1 ![0, 1]
      (shapeCast S9229x3 (B0 m ρ c (Proc.devRef .tc main_arg1)) shapeCasts_S27687_S9229x3) slices_S9229x3_S9229x1_0_1) shapeCasts_S9229x1_S9229)
      shapeCasts_S9229_S1x9229 := by
    show StableHlo.after hostOps0 (B0 m ρ c) (Proc.devRef .tc main_v13) = _
    after_results <;> rfl
  have ew2 : B1 m ρ c (Proc.devRef .tc main_v16) = shapeCast S1x9229 (shapeCast S9229 (extractStridedSlice S9229x1 ![0, 2]
      (shapeCast S9229x3 (B0 m ρ c (Proc.devRef .tc main_arg1)) shapeCasts_S27687_S9229x3) slices_S9229x3_S9229x1_0_2) shapeCasts_S9229x1_S9229)
      shapeCasts_S9229_S1x9229 := by
    show StableHlo.after hostOps0 (B0 m ρ c) (Proc.devRef .tc main_v16) = _
    after_results <;> rfl
  have eb : B1 m ρ c (Proc.devRef .tc main_v17) = shapeCast S1x9229 (B0 m ρ c (Proc.devRef .tc main_arg2)) shapeCasts_S9229_S1x9229 := by
    show StableHlo.after hostOps0 (B0 m ρ c) (Proc.devRef .tc main_v17) = _
    after_results <;> rfl
  show diagEntry (B1 m ρ c (Proc.devRef .tc main_v2) (ix2 r g)) (B1 m ρ c (Proc.devRef .tc main_v10) (ix2 (0 : Fin 1) g))
      (B1 m ρ c (Proc.devRef .tc main_v4) (ix2 r g)) (B1 m ρ c (Proc.devRef .tc main_v13) (ix2 (0 : Fin 1) g))
      (B1 m ρ c (Proc.devRef .tc main_v6) (ix2 r g)) (B1 m ρ c (Proc.devRef .tc main_v16) (ix2 (0 : Fin 1) g))
      (B1 m ρ c (Proc.devRef .tc main_v17) (ix2 (0 : Fin 1) g)) = _
  rw [es0, es1, es2, ew0, ew1, ew2, eb, Cert.KernelIdeal.HostReads.slice_read0, Cert.KernelIdeal.HostReads.slice_read1, Cert.KernelIdeal.HostReads.slice_read2,
    Cert.KernelIdeal.HostReads.wrow_read0, Cert.KernelIdeal.HostReads.wrow_read1, Cert.KernelIdeal.HostReads.wrow_read2, Cert.KernelIdeal.HostReads.bias_row9229]
  unfold diagEntry
  show _ = Cert.Spec.diag (kerArgs m c).x (kerArgs m c).w0 (kerArgs m c).b0 r g
  unfold Cert.Spec.diag
  rw [Fin.sum_univ_three]
  rfl

/-- Activation 1: layer 1's output array after its region, of the network's arguments. The region finds activation 0
    padded with zero columns, the weights padded with zero rows, the mask padded with clear rows and widened to words,
    and the bias as one row. -/
theorem act1_at (r : Fin 1024) (j : Fin 1387) :
    B10 m ρ c (Proc.devRef .tc main_v34) (ix2 r j) = Cert.Spec.act1 (kerArgs m c) r j := by
  have harr : B10 m ρ c (Proc.devRef .tc main_v34) = (dat1 (F := Ideal) (T9 m ρ) c).arrAt 4 cfg1.N := B10_arr m ρ c 4
  rw [harr, layer1_value (T9 m ρ) c r j]
  -- the padded activation
  have ec : B3 m ρ c (Proc.devRef .tc main_c) = constantI S_ 32 0#32 := by
    show StableHlo.after hostOps1 (B2 m ρ c) (Proc.devRef .tc main_c) = _
    after_results <;> rfl
  have e30 : B4 m ρ c (Proc.devRef .tc main_v30) = pad S1024x9728 ![0, 0] ![0, 499] ![0, 0] (B3 m ρ c (Proc.devRef .tc main_v18) : (⟨S1024x9229, .f32⟩ : BufTy).Contents (Elt Ideal))
      (sitofp (F := Ideal) .f32 (B3 m ρ c (Proc.devRef .tc main_c) : (⟨S_, .i32⟩ : BufTy).Contents (Elt Ideal)) : (⟨S_, .f32⟩ : BufTy).Contents (Elt Ideal))
      pads_S1024x9229_S1024x9728_000_04990 h_S_ := by
    show StableHlo.after hostOps1_1 (B3 m ρ c) (Proc.devRef .tc main_v30) = _
    after_results <;> rfl
  have hc30 : B9 m ρ c (Proc.devRef .tc main_v30) = B4 m ρ c (Proc.devRef .tc main_v30) :=
    (StableHlo.after_of_writes_sub hostOps1_6 _ hostOps1_6_writes (by decide : main_v30 ∉ hostOps1_6_W)).trans <|
      (StableHlo.after_of_writes_sub hostOps1_5 _ hostOps1_5_writes (by decide : main_v30 ∉ hostOps1_5_W)).trans <|
      (StableHlo.after_of_writes_sub hostOps1_4 _ hostOps1_4_writes (by decide : main_v30 ∉ hostOps1_4_W)).trans <|
      (StableHlo.after_of_writes_sub hostOps1_3 _ hostOps1_3_writes (by decide : main_v30 ∉ hostOps1_3_W)).trans <|
      (StableHlo.after_of_writes_sub hostOps1_2 _ hostOps1_2_writes (by decide : main_v30 ∉ hostOps1_2_W))
  have h18 : B3 m ρ c (Proc.devRef .tc main_v18) = B2 m ρ c (Proc.devRef .tc main_v18) :=
    StableHlo.after_of_writes_sub hostOps1 _ hostOps1_writes (by decide : main_v18 ∉ hostOps1_W)
  have ha : (fun (r : Fin 1024) (i : Fin 9728) => T9 m ρ c (Pipeline.arrRef spec1 0) (ix2 r i)) = padCols (Cert.Spec.act0 (kerArgs m c)) :=
    funext fun r => funext fun i => by
      refine (congrFun (hc30.trans e30) (ix2 r i)).trans ?_
      rw [Cert.KernelIdeal.HostReads.pad_act_read]
      unfold padCols
      by_cases h : i.val < 9229
      · rw [dif_pos h, dif_pos h, h18]; exact act0_at m ρ c r ⟨i.val, h⟩
      · rw [dif_neg h, dif_neg h, ec]; exact Cert.KernelIdeal.HostReads.pad_zero_f32
  -- the padded weights
  have ec1 : B5 m ρ c (Proc.devRef .tc main_c_1) = constantI S_ 32 0#32 := by
    show StableHlo.after hostOps1_2 (B4 m ρ c) (Proc.devRef .tc main_c_1) = _
    after_results <;> rfl
  have e31 : B6 m ρ c (Proc.devRef .tc main_v31) = pad S9728x1387 ![0, 0] ![499, 0] ![0, 0] (B5 m ρ c (Proc.devRef .tc main_arg3) : (⟨S9229x1387, .f32⟩ : BufTy).Contents (Elt Ideal))
      (sitofp (F := Ideal) .f32 (B5 m ρ c (Proc.devRef .tc main_c_1) : (⟨S_, .i32⟩ : BufTy).Contents (Elt Ideal)) : (⟨S_, .f32⟩ : BufTy).Contents (Elt Ideal))
      pads_S9229x1387_S9728x1387_04990_000 h_S_ := by
    show StableHlo.after hostOps1_3 (B5 m ρ c) (Proc.devRef .tc main_v31) = _
    after_results <;> rfl
  have hc31 : B9 m ρ c (Proc.devRef .tc main_v31) = B6 m ρ c (Proc.devRef .tc main_v31) :=
    (StableHlo.after_of_writes_sub hostOps1_6 _ hostOps1_6_writes (by decide : main_v31 ∉ hostOps1_6_W)).trans <|
      (StableHlo.after_of_writes_sub hostOps1_5 _ hostOps1_5_writes (by decide : main_v31 ∉ hostOps1_5_W)).trans <|
      (StableHlo.after_of_writes_sub hostOps1_4 _ hostOps1_4_writes (by decide : main_v31 ∉ hostOps1_4_W))
  have harg3 : B5 m ρ c (Proc.devRef .tc main_arg3) = m ((c.tc : Thread nD τ).loc main_arg3) :=
    ((StableHlo.after_of_writes_sub hostOps1_2 _ hostOps1_2_writes (by decide : main_arg3 ∉ hostOps1_2_W)).trans <|
      (StableHlo.after_of_writes_sub hostOps1_1 _ hostOps1_1_writes (by decide : main_arg3 ∉ hostOps1_1_W)).trans <|
      (StableHlo.after_of_writes_sub hostOps1 _ hostOps1_writes (by decide : main_arg3 ∉ hostOps1_W)).trans <|
      (B2_of_ne m ρ c main_arg3 (by decide)).trans <|
      (StableHlo.after_of_writes_sub hostOps0 _ hostOps0_writes (by decide : main_arg3 ∉ hostOps0_W)).trans <| rfl)
  have hW : (fun (i : Fin 9728) (j : Fin 1387) => T9 m ρ c (Pipeline.arrRef spec1 1) (ix2 i j)) = padRows (kerArgs m c).W1 :=
    funext fun i => funext fun j => by
      refine (congrFun (hc31.trans e31) (ix2 i j)).trans ?_
      rw [Cert.KernelIdeal.HostReads.pad_w_read]
      unfold padRows
      by_cases h : i.val < 9229
      · rw [dif_pos h, dif_pos h]; exact congrFun harg3 (ix2 ⟨i.val, h⟩ j)
      · rw [dif_neg h, dif_neg h, ec1]; exact Cert.KernelIdeal.HostReads.pad_zero_f32
  -- the padded mask, widened to words
  have ec2 : B7 m ρ c (Proc.devRef .tc main_c_2) = constantI S_ 32 0#32 := by
    show StableHlo.after hostOps1_4 (B6 m ρ c) (Proc.devRef .tc main_c_2) = _
    after_results <;> rfl
  have e32 : B8 m ρ c (Proc.devRef .tc main_v32) = pad S9728x1387 ![0, 0] ![499, 0] ![0, 0] (B7 m ρ c (Proc.devRef .tc main_arg25) : (⟨S9229x1387, .i1⟩ : BufTy).Contents (Elt Ideal))
      (id (cmpi .ne (B7 m ρ c (Proc.devRef .tc main_c_2) : (⟨S_, .i32⟩ : BufTy).Contents (Elt Ideal)) (broadcastInDim S_ ![] bcast_S_S_ (constantI S_ 32 0#32))) : (⟨S_, .i1⟩ : BufTy).Contents (Elt Ideal))
      pads_S9229x1387_S9728x1387_04990_000 h_S_ := by
    show StableHlo.after hostOps1_5 (B7 m ρ c) (Proc.devRef .tc main_v32) = _
    after_results <;> rfl
  have e33 : B9 m ρ c (Proc.devRef .tc main_v33) = extui 32 (B8 m ρ c (Proc.devRef .tc main_v32) : (⟨S9728x1387, .i1⟩ : BufTy).Contents (Elt Ideal)) natLt_1_32 := by
    show StableHlo.after hostOps1_6 (B8 m ρ c) (Proc.devRef .tc main_v33) = _
    after_results <;> rfl
  have harg25 : B7 m ρ c (Proc.devRef .tc main_arg25) = m ((c.tc : Thread nD τ).loc main_arg25) :=
    ((StableHlo.after_of_writes_sub hostOps1_4 _ hostOps1_4_writes (by decide : main_arg25 ∉ hostOps1_4_W)).trans <|
      (StableHlo.after_of_writes_sub hostOps1_3 _ hostOps1_3_writes (by decide : main_arg25 ∉ hostOps1_3_W)).trans <|
      (StableHlo.after_of_writes_sub hostOps1_2 _ hostOps1_2_writes (by decide : main_arg25 ∉ hostOps1_2_W)).trans <|
      (StableHlo.after_of_writes_sub hostOps1_1 _ hostOps1_1_writes (by decide : main_arg25 ∉ hostOps1_1_W)).trans <|
      (StableHlo.after_of_writes_sub hostOps1 _ hostOps1_writes (by decide : main_arg25 ∉ hostOps1_W)).trans <|
      (B2_of_ne m ρ c main_arg25 (by decide)).trans <|
      (StableHlo.after_of_writes_sub hostOps0 _ hostOps0_writes (by decide : main_arg25 ∉ hostOps0_W)).trans <| rfl)
  have hm : (fun (i : Fin 9728) (j : Fin 1387) => Scalar.cmpi .ne (T9 m ρ c (Pipeline.arrRef spec1 2) (ix2 i j)) 0#32) = padBits (kerArgs m c).m1 :=
    funext fun i => funext fun j => by
      show Scalar.cmpi .ne (B9 m ρ c (Proc.devRef .tc main_v33) (ix2 i j)) 0#32 = _
      rw [e33, Cert.KernelIdeal.HostReads.extui_read, Cert.KernelIdeal.HostReads.cmpi_ne_setWidth, e32, Cert.KernelIdeal.HostReads.pad_m_read]
      unfold padBits
      by_cases h : i.val < 9229
      · rw [dif_pos h, dif_pos h]; exact congrFun harg25 (ix2 ⟨i.val, h⟩ j)
      · rw [dif_neg h, dif_neg h, ec2]; exact Cert.KernelIdeal.HostReads.pad_zero_bit
  -- the bias row
  have e29 : B3 m ρ c (Proc.devRef .tc main_v29) = shapeCast S1x1387 (B2 m ρ c (Proc.devRef .tc main_arg4) : (⟨S1387, .f32⟩ : BufTy).Contents (Elt Ideal)) shapeCasts_S1387_S1x1387 := by
    show StableHlo.after hostOps1 (B2 m ρ c) (Proc.devRef .tc main_v29) = _
    after_results <;> rfl
  have hc29 : B9 m ρ c (Proc.devRef .tc main_v29) = B3 m ρ c (Proc.devRef .tc main_v29) :=
    (StableHlo.after_of_writes_sub hostOps1_6 _ hostOps1_6_writes (by decide : main_v29 ∉ hostOps1_6_W)).trans <|
      (StableHlo.after_of_writes_sub hostOps1_5 _ hostOps1_5_writes (by decide : main_v29 ∉ hostOps1_5_W)).trans <|
      (StableHlo.after_of_writes_sub hostOps1_4 _ hostOps1_4_writes (by decide : main_v29 ∉ hostOps1_4_W)).trans <|
      (StableHlo.after_of_writes_sub hostOps1_3 _ hostOps1_3_writes (by decide : main_v29 ∉ hostOps1_3_W)).trans <|
      (StableHlo.after_of_writes_sub hostOps1_2 _ hostOps1_2_writes (by decide : main_v29 ∉ hostOps1_2_W)).trans <|
      (StableHlo.after_of_writes_sub hostOps1_1 _ hostOps1_1_writes (by decide : main_v29 ∉ hostOps1_1_W))
  have harg4 : B2 m ρ c (Proc.devRef .tc main_arg4) = m ((c.tc : Thread nD τ).loc main_arg4) :=
    ((B2_of_ne m ρ c main_arg4 (by decide)).trans <|
      (StableHlo.after_of_writes_sub hostOps0 _ hostOps0_writes (by decide : main_arg4 ∉ hostOps0_W)).trans <| rfl)
  have hb : (fun (j : Fin 1387) => T9 m ρ c (Pipeline.arrRef spec1 3) (ix2 (0 : Fin 1) j)) = (kerArgs m c).b1 :=
    funext fun j => by
      refine (congrFun (hc29.trans e29) (ix2 (0 : Fin 1) j)).trans ?_
      rw [Cert.KernelIdeal.HostReads.bias_row1387]
      exact congrFun harg4 (ix1 j)
  rw [ha, hW, hm, hb]
  exact layer_padded _ _ _ _ r j

end Cert.KernelIdeal.LayerValue

end
-- ==== Proof.IdealHeads.lean ====
/- A head of the network read at a row, on the extended reals: the activation's product with the weight column, plus
   the scalar bias carried to every row, through one over one plus the exponential of the negation, which is the
   logistic function. -/
import proofs.«156066_j47502338294403_1_alg».proof.Proof.Gen.KernelIdeal.Launch
import proofs.«156066_j47502338294403_1_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.LayerValue

open Cert.KernelIdeal Cert.KernelIdeal.Gen
open Idealize.ShloMosaic Idealize.ShloMosaic.TcCoe Idealize.ShloMosaic.ValueIdx
open Idealize.SL.Sem

/-- One over one plus the exponential of the negation is the logistic function. -/
theorem one_over_one_plus_exp_neg (z : EReal) :
    Ideal.div (Ideal.ofBits .f32 0x3F800000#32) (Ideal.ofBits .f32 0x3F800000#32 + Ideal.exp (-z)) = Ideal.logistic z := by
  rw [Ideal.ofBits_one_f32]; rfl

/-- The scalar one carried to every row. -/
theorem ones_apply (y : S1024x1.Idx) :
    broadcastInDim S1024x1 ![] bcast_S_S1024x1 (constant (F := Ideal) S_ .f32 0x3F800000#32) y = Ideal.ofBits .f32 0x3F800000#32 :=
  (broadcastInDim_apply _ bcast_S_S1024x1 (constant (F := Ideal) S_ .f32 0x3F800000#32) y ix0 (fun a => a.elim0)).trans rfl

/-- The scalar bias carried to every row. -/
theorem bias_apply (lb : (⟨S1, .f32⟩ : BufTy).Contents (Elt Ideal)) (y : S1024x1.Idx) :
    broadcastInDim S1024x1 ![0, 1] bcast_S1x1_S1024x1_0_1 (broadcastInDim S1x1 ![1] bcast_S1_S1x1_1 lb) y = lb (ix1 (0 : Fin 1)) := by
  rw [broadcastInDim_apply _ bcast_S1x1_S1024x1_0_1 (broadcastInDim S1x1 ![1] bcast_S1_S1x1_1 lb) y (ix2 (0 : Fin 1) (0 : Fin 1)) (fun a => match a with
    | ⟨0, _⟩ => by show 0 = if (1 : Nat) = 1 then 0 else (y 0).val; rw [if_pos rfl]
    | ⟨1, _⟩ => by show 0 = if (1 : Nat) = 1 then 0 else (y 1).val; rw [if_pos rfl])]
  exact broadcastInDim_apply _ bcast_S1_S1x1_1 lb (ix2 (0 : Fin 1) (0 : Fin 1)) (ix1 (0 : Fin 1)) (fun a => match a with
    | ⟨0, _⟩ => by show 0 = if (1 : Nat) = 1 then 0 else ((ix2 (0 : Fin 1) (0 : Fin 1)) 1).val; rw [if_pos rfl])

/-! ## The head over width 9229 -/

theorem hd1_lhs0 (y : S1024x1.Idx) (q : dot_S1024x9229_S9229x1_S1024x1_1_0_0_1_n_n.contr.Idx) : (dot_S1024x9229_S9229x1_S1024x1_1_0_0_1_n_n.lhsIdx y q 0).val = (y 0).val := by
  unfold DotDims.lhsIdx
  rw [dif_neg (show ¬(0 : Fin S1024x9229.rank) ∈ dot_S1024x9229_S9229x1_S1024x1_1_0_0_1_n_n.lhsBatch by decide), dif_pos (show (0 : Fin S1024x9229.rank) ∈ dot_S1024x9229_S9229x1_S1024x1_1_0_0_1_n_n.lhsNonContracting by decide)]
  rfl
theorem hd1_lhs1 (y : S1024x1.Idx) (q : dot_S1024x9229_S9229x1_S1024x1_1_0_0_1_n_n.contr.Idx) : (dot_S1024x9229_S9229x1_S1024x1_1_0_0_1_n_n.lhsIdx y q 1).val = (q ⟨0, by decide⟩).val :=
  dot_S1024x9229_S9229x1_S1024x1_1_0_0_1_n_n.lhsIdx_val_of_single rfl y q
theorem hd1_rhs0 (y : S1024x1.Idx) (q : dot_S1024x9229_S9229x1_S1024x1_1_0_0_1_n_n.contr.Idx) : (dot_S1024x9229_S9229x1_S1024x1_1_0_0_1_n_n.rhsIdx y q 0).val = (q ⟨0, by decide⟩).val :=
  dot_S1024x9229_S9229x1_S1024x1_1_0_0_1_n_n.rhsIdx_val_of_single rfl y q
theorem hd1_rhs1 (y : S1024x1.Idx) (q : dot_S1024x9229_S9229x1_S1024x1_1_0_0_1_n_n.contr.Idx) : (dot_S1024x9229_S9229x1_S1024x1_1_0_0_1_n_n.rhsIdx y q 1).val = (y 1).val := by
  unfold DotDims.rhsIdx
  rw [dif_neg (show ¬(1 : Fin S9229x1.rank) ∈ dot_S1024x9229_S9229x1_S1024x1_1_0_0_1_n_n.rhsBatch by decide), dif_pos (show (1 : Fin S9229x1.rank) ∈ dot_S1024x9229_S9229x1_S1024x1_1_0_0_1_n_n.rhsNonContracting by decide)]
  rfl

/-- The activation's product with the weight column at a row is the sum over the width. -/
theorem hd1_dot (a : (⟨S1024x9229, .f32⟩ : BufTy).Contents (Elt Ideal)) (lw : (⟨S9229x1, .f32⟩ : BufTy).Contents (Elt Ideal)) (r : Fin 1024) :
    Host.dotGeneral (F := Ideal) (φ₁ := .f32) (φ₂ := .f32) dot_S1024x9229_S9229x1_S1024x1_1_0_0_1_n_n none a lw (ix2 r (0 : Fin 1)) = ∑ k : Fin 9229, a (ix2 r k) * lw (ix2 k (0 : Fin 1)) := by
  simp only [Host.dotGeneral]
  rw [Ideal.dotGeneral_apply, ← Equiv.sum_comp (contrEquiv1 dot_S1024x9229_S9229x1_S1024x1_1_0_0_1_n_n 9229 rfl rfl).symm]
  refine Finset.sum_congr rfl fun k _ => ?_
  have hk := contrEquiv1_symm_val dot_S1024x9229_S9229x1_S1024x1_1_0_0_1_n_n 9229 rfl rfl k
  have el : dot_S1024x9229_S9229x1_S1024x1_1_0_0_1_n_n.lhsIdx (ix2 r (0 : Fin 1)) ((contrEquiv1 dot_S1024x9229_S9229x1_S1024x1_1_0_0_1_n_n 9229 rfl rfl).symm k) = ix2 r k := funext fun a => Fin.ext (by
    match a with
    | ⟨0, _⟩ => exact hd1_lhs0 _ _
    | ⟨1, _⟩ => exact (hd1_lhs1 _ _).trans hk)
  have er : dot_S1024x9229_S9229x1_S1024x1_1_0_0_1_n_n.rhsIdx (ix2 r (0 : Fin 1)) ((contrEquiv1 dot_S1024x9229_S9229x1_S1024x1_1_0_0_1_n_n 9229 rfl rfl).symm k) = ix2 k (0 : Fin 1) := funext fun a => Fin.ext (by
    match a with
    | ⟨0, _⟩ => exact (hd1_rhs0 _ _).trans hk
    | ⟨1, _⟩ => exact hd1_rhs1 _ _)
  rw [el, er]

/-- The whole head at a row. -/
theorem head1_read (a : (⟨S1024x9229, .f32⟩ : BufTy).Contents (Elt Ideal)) (lw : (⟨S9229x1, .f32⟩ : BufTy).Contents (Elt Ideal))
    (lb : (⟨S1, .f32⟩ : BufTy).Contents (Elt Ideal)) (r : Fin 1024) :
    Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x9229_S9229x1_S1024x1_1_0_0_1_n_n none a lw)
          (broadcastInDim S1024x1 ![0, 1] bcast_S1x1_S1024x1_0_1 (broadcastInDim S1x1 ![1] bcast_S1_S1x1_1 lb)))))) (ix2 r (0 : Fin 1))
      = Cert.Spec.head (fun r i => a (ix2 r i)) (fun i => lw (ix2 i (0 : Fin 1))) (lb (ix1 (0 : Fin 1))) r := by
  show FloatOps.hostDivf (broadcastInDim S1024x1 ![] bcast_S_S1024x1 (constant (F := Ideal) S_ .f32 0x3F800000#32) (ix2 r (0 : Fin 1)))
      (FloatOps.addf (broadcastInDim S1024x1 ![] bcast_S_S1024x1 (constant (F := Ideal) S_ .f32 0x3F800000#32) (ix2 r (0 : Fin 1)))
        (FloatOps.hostUnary .exp (FloatOps.hostNegf (FloatOps.addf (Host.dotGeneral (F := Ideal) (φ₁ := .f32) (φ₂ := .f32) dot_S1024x9229_S9229x1_S1024x1_1_0_0_1_n_n none a lw (ix2 r (0 : Fin 1)))
          (broadcastInDim S1024x1 ![0, 1] bcast_S1x1_S1024x1_0_1 (broadcastInDim S1x1 ![1] bcast_S1_S1x1_1 lb) (ix2 r (0 : Fin 1))))))) = _
  rw [ones_apply, bias_apply, hd1_dot]
  simp only [Ideal.hostDivf_def, Ideal.addf_def, Ideal.hostUnary_exp_def, Ideal.hostNegf_def, Ideal.negf_def]
  exact one_over_one_plus_exp_neg _

/-! ## The head over width 1387 -/

theorem hd2_lhs0 (y : S1024x1.Idx) (q : dot_S1024x1387_S1387x1_S1024x1_1_0_0_1_n_n.contr.Idx) : (dot_S1024x1387_S1387x1_S1024x1_1_0_0_1_n_n.lhsIdx y q 0).val = (y 0).val := by
  unfold DotDims.lhsIdx
  rw [dif_neg (show ¬(0 : Fin S1024x1387.rank) ∈ dot_S1024x1387_S1387x1_S1024x1_1_0_0_1_n_n.lhsBatch by decide), dif_pos (show (0 : Fin S1024x1387.rank) ∈ dot_S1024x1387_S1387x1_S1024x1_1_0_0_1_n_n.lhsNonContracting by decide)]
  rfl
theorem hd2_lhs1 (y : S1024x1.Idx) (q : dot_S1024x1387_S1387x1_S1024x1_1_0_0_1_n_n.contr.Idx) : (dot_S1024x1387_S1387x1_S1024x1_1_0_0_1_n_n.lhsIdx y q 1).val = (q ⟨0, by decide⟩).val :=
  dot_S1024x1387_S1387x1_S1024x1_1_0_0_1_n_n.lhsIdx_val_of_single rfl y q
theorem hd2_rhs0 (y : S1024x1.Idx) (q : dot_S1024x1387_S1387x1_S1024x1_1_0_0_1_n_n.contr.Idx) : (dot_S1024x1387_S1387x1_S1024x1_1_0_0_1_n_n.rhsIdx y q 0).val = (q ⟨0, by decide⟩).val :=
  dot_S1024x1387_S1387x1_S1024x1_1_0_0_1_n_n.rhsIdx_val_of_single rfl y q
theorem hd2_rhs1 (y : S1024x1.Idx) (q : dot_S1024x1387_S1387x1_S1024x1_1_0_0_1_n_n.contr.Idx) : (dot_S1024x1387_S1387x1_S1024x1_1_0_0_1_n_n.rhsIdx y q 1).val = (y 1).val := by
  unfold DotDims.rhsIdx
  rw [dif_neg (show ¬(1 : Fin S1387x1.rank) ∈ dot_S1024x1387_S1387x1_S1024x1_1_0_0_1_n_n.rhsBatch by decide), dif_pos (show (1 : Fin S1387x1.rank) ∈ dot_S1024x1387_S1387x1_S1024x1_1_0_0_1_n_n.rhsNonContracting by decide)]
  rfl

/-- The activation's product with the weight column at a row is the sum over the width. -/
theorem hd2_dot (a : (⟨S1024x1387, .f32⟩ : BufTy).Contents (Elt Ideal)) (lw : (⟨S1387x1, .f32⟩ : BufTy).Contents (Elt Ideal)) (r : Fin 1024) :
    Host.dotGeneral (F := Ideal) (φ₁ := .f32) (φ₂ := .f32) dot_S1024x1387_S1387x1_S1024x1_1_0_0_1_n_n none a lw (ix2 r (0 : Fin 1)) = ∑ k : Fin 1387, a (ix2 r k) * lw (ix2 k (0 : Fin 1)) := by
  simp only [Host.dotGeneral]
  rw [Ideal.dotGeneral_apply, ← Equiv.sum_comp (contrEquiv1 dot_S1024x1387_S1387x1_S1024x1_1_0_0_1_n_n 1387 rfl rfl).symm]
  refine Finset.sum_congr rfl fun k _ => ?_
  have hk := contrEquiv1_symm_val dot_S1024x1387_S1387x1_S1024x1_1_0_0_1_n_n 1387 rfl rfl k
  have el : dot_S1024x1387_S1387x1_S1024x1_1_0_0_1_n_n.lhsIdx (ix2 r (0 : Fin 1)) ((contrEquiv1 dot_S1024x1387_S1387x1_S1024x1_1_0_0_1_n_n 1387 rfl rfl).symm k) = ix2 r k := funext fun a => Fin.ext (by
    match a with
    | ⟨0, _⟩ => exact hd2_lhs0 _ _
    | ⟨1, _⟩ => exact (hd2_lhs1 _ _).trans hk)
  have er : dot_S1024x1387_S1387x1_S1024x1_1_0_0_1_n_n.rhsIdx (ix2 r (0 : Fin 1)) ((contrEquiv1 dot_S1024x1387_S1387x1_S1024x1_1_0_0_1_n_n 1387 rfl rfl).symm k) = ix2 k (0 : Fin 1) := funext fun a => Fin.ext (by
    match a with
    | ⟨0, _⟩ => exact (hd2_rhs0 _ _).trans hk
    | ⟨1, _⟩ => exact hd2_rhs1 _ _)
  rw [el, er]

/-- The whole head at a row. -/
theorem head2_read (a : (⟨S1024x1387, .f32⟩ : BufTy).Contents (Elt Ideal)) (lw : (⟨S1387x1, .f32⟩ : BufTy).Contents (Elt Ideal))
    (lb : (⟨S1, .f32⟩ : BufTy).Contents (Elt Ideal)) (r : Fin 1024) :
    Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x1387_S1387x1_S1024x1_1_0_0_1_n_n none a lw)
          (broadcastInDim S1024x1 ![0, 1] bcast_S1x1_S1024x1_0_1 (broadcastInDim S1x1 ![1] bcast_S1_S1x1_1 lb)))))) (ix2 r (0 : Fin 1))
      = Cert.Spec.head (fun r i => a (ix2 r i)) (fun i => lw (ix2 i (0 : Fin 1))) (lb (ix1 (0 : Fin 1))) r := by
  show FloatOps.hostDivf (broadcastInDim S1024x1 ![] bcast_S_S1024x1 (constant (F := Ideal) S_ .f32 0x3F800000#32) (ix2 r (0 : Fin 1)))
      (FloatOps.addf (broadcastInDim S1024x1 ![] bcast_S_S1024x1 (constant (F := Ideal) S_ .f32 0x3F800000#32) (ix2 r (0 : Fin 1)))
        (FloatOps.hostUnary .exp (FloatOps.hostNegf (FloatOps.addf (Host.dotGeneral (F := Ideal) (φ₁ := .f32) (φ₂ := .f32) dot_S1024x1387_S1387x1_S1024x1_1_0_0_1_n_n none a lw (ix2 r (0 : Fin 1)))
          (broadcastInDim S1024x1 ![0, 1] bcast_S1x1_S1024x1_0_1 (broadcastInDim S1x1 ![1] bcast_S1_S1x1_1 lb) (ix2 r (0 : Fin 1))))))) = _
  rw [ones_apply, bias_apply, hd2_dot]
  simp only [Ideal.hostDivf_def, Ideal.addf_def, Ideal.hostUnary_exp_def, Ideal.hostNegf_def, Ideal.negf_def]
  exact one_over_one_plus_exp_neg _

/-! ## The head over width 1066 -/

theorem hd3_lhs0 (y : S1024x1.Idx) (q : dot_S1024x1066_S1066x1_S1024x1_1_0_0_1_n_n.contr.Idx) : (dot_S1024x1066_S1066x1_S1024x1_1_0_0_1_n_n.lhsIdx y q 0).val = (y 0).val := by
  unfold DotDims.lhsIdx
  rw [dif_neg (show ¬(0 : Fin S1024x1066.rank) ∈ dot_S1024x1066_S1066x1_S1024x1_1_0_0_1_n_n.lhsBatch by decide), dif_pos (show (0 : Fin S1024x1066.rank) ∈ dot_S1024x1066_S1066x1_S1024x1_1_0_0_1_n_n.lhsNonContracting by decide)]
  rfl
theorem hd3_lhs1 (y : S1024x1.Idx) (q : dot_S1024x1066_S1066x1_S1024x1_1_0_0_1_n_n.contr.Idx) : (dot_S1024x1066_S1066x1_S1024x1_1_0_0_1_n_n.lhsIdx y q 1).val = (q ⟨0, by decide⟩).val :=
  dot_S1024x1066_S1066x1_S1024x1_1_0_0_1_n_n.lhsIdx_val_of_single rfl y q
theorem hd3_rhs0 (y : S1024x1.Idx) (q : dot_S1024x1066_S1066x1_S1024x1_1_0_0_1_n_n.contr.Idx) : (dot_S1024x1066_S1066x1_S1024x1_1_0_0_1_n_n.rhsIdx y q 0).val = (q ⟨0, by decide⟩).val :=
  dot_S1024x1066_S1066x1_S1024x1_1_0_0_1_n_n.rhsIdx_val_of_single rfl y q
theorem hd3_rhs1 (y : S1024x1.Idx) (q : dot_S1024x1066_S1066x1_S1024x1_1_0_0_1_n_n.contr.Idx) : (dot_S1024x1066_S1066x1_S1024x1_1_0_0_1_n_n.rhsIdx y q 1).val = (y 1).val := by
  unfold DotDims.rhsIdx
  rw [dif_neg (show ¬(1 : Fin S1066x1.rank) ∈ dot_S1024x1066_S1066x1_S1024x1_1_0_0_1_n_n.rhsBatch by decide), dif_pos (show (1 : Fin S1066x1.rank) ∈ dot_S1024x1066_S1066x1_S1024x1_1_0_0_1_n_n.rhsNonContracting by decide)]
  rfl

/-- The activation's product with the weight column at a row is the sum over the width. -/
theorem hd3_dot (a : (⟨S1024x1066, .f32⟩ : BufTy).Contents (Elt Ideal)) (lw : (⟨S1066x1, .f32⟩ : BufTy).Contents (Elt Ideal)) (r : Fin 1024) :
    Host.dotGeneral (F := Ideal) (φ₁ := .f32) (φ₂ := .f32) dot_S1024x1066_S1066x1_S1024x1_1_0_0_1_n_n none a lw (ix2 r (0 : Fin 1)) = ∑ k : Fin 1066, a (ix2 r k) * lw (ix2 k (0 : Fin 1)) := by
  simp only [Host.dotGeneral]
  rw [Ideal.dotGeneral_apply, ← Equiv.sum_comp (contrEquiv1 dot_S1024x1066_S1066x1_S1024x1_1_0_0_1_n_n 1066 rfl rfl).symm]
  refine Finset.sum_congr rfl fun k _ => ?_
  have hk := contrEquiv1_symm_val dot_S1024x1066_S1066x1_S1024x1_1_0_0_1_n_n 1066 rfl rfl k
  have el : dot_S1024x1066_S1066x1_S1024x1_1_0_0_1_n_n.lhsIdx (ix2 r (0 : Fin 1)) ((contrEquiv1 dot_S1024x1066_S1066x1_S1024x1_1_0_0_1_n_n 1066 rfl rfl).symm k) = ix2 r k := funext fun a => Fin.ext (by
    match a with
    | ⟨0, _⟩ => exact hd3_lhs0 _ _
    | ⟨1, _⟩ => exact (hd3_lhs1 _ _).trans hk)
  have er : dot_S1024x1066_S1066x1_S1024x1_1_0_0_1_n_n.rhsIdx (ix2 r (0 : Fin 1)) ((contrEquiv1 dot_S1024x1066_S1066x1_S1024x1_1_0_0_1_n_n 1066 rfl rfl).symm k) = ix2 k (0 : Fin 1) := funext fun a => Fin.ext (by
    match a with
    | ⟨0, _⟩ => exact (hd3_rhs0 _ _).trans hk
    | ⟨1, _⟩ => exact hd3_rhs1 _ _)
  rw [el, er]

/-- The whole head at a row. -/
theorem head3_read (a : (⟨S1024x1066, .f32⟩ : BufTy).Contents (Elt Ideal)) (lw : (⟨S1066x1, .f32⟩ : BufTy).Contents (Elt Ideal))
    (lb : (⟨S1, .f32⟩ : BufTy).Contents (Elt Ideal)) (r : Fin 1024) :
    Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x1066_S1066x1_S1024x1_1_0_0_1_n_n none a lw)
          (broadcastInDim S1024x1 ![0, 1] bcast_S1x1_S1024x1_0_1 (broadcastInDim S1x1 ![1] bcast_S1_S1x1_1 lb)))))) (ix2 r (0 : Fin 1))
      = Cert.Spec.head (fun r i => a (ix2 r i)) (fun i => lw (ix2 i (0 : Fin 1))) (lb (ix1 (0 : Fin 1))) r := by
  show FloatOps.hostDivf (broadcastInDim S1024x1 ![] bcast_S_S1024x1 (constant (F := Ideal) S_ .f32 0x3F800000#32) (ix2 r (0 : Fin 1)))
      (FloatOps.addf (broadcastInDim S1024x1 ![] bcast_S_S1024x1 (constant (F := Ideal) S_ .f32 0x3F800000#32) (ix2 r (0 : Fin 1)))
        (FloatOps.hostUnary .exp (FloatOps.hostNegf (FloatOps.addf (Host.dotGeneral (F := Ideal) (φ₁ := .f32) (φ₂ := .f32) dot_S1024x1066_S1066x1_S1024x1_1_0_0_1_n_n none a lw (ix2 r (0 : Fin 1)))
          (broadcastInDim S1024x1 ![0, 1] bcast_S1x1_S1024x1_0_1 (broadcastInDim S1x1 ![1] bcast_S1_S1x1_1 lb) (ix2 r (0 : Fin 1))))))) = _
  rw [ones_apply, bias_apply, hd3_dot]
  simp only [Ideal.hostDivf_def, Ideal.addf_def, Ideal.hostUnary_exp_def, Ideal.hostNegf_def, Ideal.negf_def]
  exact one_over_one_plus_exp_neg _

/-! ## The head over width 447 -/

theorem hd4_lhs0 (y : S1024x1.Idx) (q : dot_S1024x447_S447x1_S1024x1_1_0_0_1_n_n.contr.Idx) : (dot_S1024x447_S447x1_S1024x1_1_0_0_1_n_n.lhsIdx y q 0).val = (y 0).val := by
  unfold DotDims.lhsIdx
  rw [dif_neg (show ¬(0 : Fin S1024x447.rank) ∈ dot_S1024x447_S447x1_S1024x1_1_0_0_1_n_n.lhsBatch by decide), dif_pos (show (0 : Fin S1024x447.rank) ∈ dot_S1024x447_S447x1_S1024x1_1_0_0_1_n_n.lhsNonContracting by decide)]
  rfl
theorem hd4_lhs1 (y : S1024x1.Idx) (q : dot_S1024x447_S447x1_S1024x1_1_0_0_1_n_n.contr.Idx) : (dot_S1024x447_S447x1_S1024x1_1_0_0_1_n_n.lhsIdx y q 1).val = (q ⟨0, by decide⟩).val :=
  dot_S1024x447_S447x1_S1024x1_1_0_0_1_n_n.lhsIdx_val_of_single rfl y q
theorem hd4_rhs0 (y : S1024x1.Idx) (q : dot_S1024x447_S447x1_S1024x1_1_0_0_1_n_n.contr.Idx) : (dot_S1024x447_S447x1_S1024x1_1_0_0_1_n_n.rhsIdx y q 0).val = (q ⟨0, by decide⟩).val :=
  dot_S1024x447_S447x1_S1024x1_1_0_0_1_n_n.rhsIdx_val_of_single rfl y q
theorem hd4_rhs1 (y : S1024x1.Idx) (q : dot_S1024x447_S447x1_S1024x1_1_0_0_1_n_n.contr.Idx) : (dot_S1024x447_S447x1_S1024x1_1_0_0_1_n_n.rhsIdx y q 1).val = (y 1).val := by
  unfold DotDims.rhsIdx
  rw [dif_neg (show ¬(1 : Fin S447x1.rank) ∈ dot_S1024x447_S447x1_S1024x1_1_0_0_1_n_n.rhsBatch by decide), dif_pos (show (1 : Fin S447x1.rank) ∈ dot_S1024x447_S447x1_S1024x1_1_0_0_1_n_n.rhsNonContracting by decide)]
  rfl

/-- The activation's product with the weight column at a row is the sum over the width. -/
theorem hd4_dot (a : (⟨S1024x447, .f32⟩ : BufTy).Contents (Elt Ideal)) (lw : (⟨S447x1, .f32⟩ : BufTy).Contents (Elt Ideal)) (r : Fin 1024) :
    Host.dotGeneral (F := Ideal) (φ₁ := .f32) (φ₂ := .f32) dot_S1024x447_S447x1_S1024x1_1_0_0_1_n_n none a lw (ix2 r (0 : Fin 1)) = ∑ k : Fin 447, a (ix2 r k) * lw (ix2 k (0 : Fin 1)) := by
  simp only [Host.dotGeneral]
  rw [Ideal.dotGeneral_apply, ← Equiv.sum_comp (contrEquiv1 dot_S1024x447_S447x1_S1024x1_1_0_0_1_n_n 447 rfl rfl).symm]
  refine Finset.sum_congr rfl fun k _ => ?_
  have hk := contrEquiv1_symm_val dot_S1024x447_S447x1_S1024x1_1_0_0_1_n_n 447 rfl rfl k
  have el : dot_S1024x447_S447x1_S1024x1_1_0_0_1_n_n.lhsIdx (ix2 r (0 : Fin 1)) ((contrEquiv1 dot_S1024x447_S447x1_S1024x1_1_0_0_1_n_n 447 rfl rfl).symm k) = ix2 r k := funext fun a => Fin.ext (by
    match a with
    | ⟨0, _⟩ => exact hd4_lhs0 _ _
    | ⟨1, _⟩ => exact (hd4_lhs1 _ _).trans hk)
  have er : dot_S1024x447_S447x1_S1024x1_1_0_0_1_n_n.rhsIdx (ix2 r (0 : Fin 1)) ((contrEquiv1 dot_S1024x447_S447x1_S1024x1_1_0_0_1_n_n 447 rfl rfl).symm k) = ix2 k (0 : Fin 1) := funext fun a => Fin.ext (by
    match a with
    | ⟨0, _⟩ => exact (hd4_rhs0 _ _).trans hk
    | ⟨1, _⟩ => exact hd4_rhs1 _ _)
  rw [el, er]

/-- The whole head at a row. -/
theorem head4_read (a : (⟨S1024x447, .f32⟩ : BufTy).Contents (Elt Ideal)) (lw : (⟨S447x1, .f32⟩ : BufTy).Contents (Elt Ideal))
    (lb : (⟨S1, .f32⟩ : BufTy).Contents (Elt Ideal)) (r : Fin 1024) :
    Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x447_S447x1_S1024x1_1_0_0_1_n_n none a lw)
          (broadcastInDim S1024x1 ![0, 1] bcast_S1x1_S1024x1_0_1 (broadcastInDim S1x1 ![1] bcast_S1_S1x1_1 lb)))))) (ix2 r (0 : Fin 1))
      = Cert.Spec.head (fun r i => a (ix2 r i)) (fun i => lw (ix2 i (0 : Fin 1))) (lb (ix1 (0 : Fin 1))) r := by
  show FloatOps.hostDivf (broadcastInDim S1024x1 ![] bcast_S_S1024x1 (constant (F := Ideal) S_ .f32 0x3F800000#32) (ix2 r (0 : Fin 1)))
      (FloatOps.addf (broadcastInDim S1024x1 ![] bcast_S_S1024x1 (constant (F := Ideal) S_ .f32 0x3F800000#32) (ix2 r (0 : Fin 1)))
        (FloatOps.hostUnary .exp (FloatOps.hostNegf (FloatOps.addf (Host.dotGeneral (F := Ideal) (φ₁ := .f32) (φ₂ := .f32) dot_S1024x447_S447x1_S1024x1_1_0_0_1_n_n none a lw (ix2 r (0 : Fin 1)))
          (broadcastInDim S1024x1 ![0, 1] bcast_S1x1_S1024x1_0_1 (broadcastInDim S1x1 ![1] bcast_S1_S1x1_1 lb) (ix2 r (0 : Fin 1))))))) = _
  rw [ones_apply, bias_apply, hd4_dot]
  simp only [Ideal.hostDivf_def, Ideal.addf_def, Ideal.hostUnary_exp_def, Ideal.hostNegf_def, Ideal.negf_def]
  exact one_over_one_plus_exp_neg _

/-! ## The head over width 147 -/

theorem hd5_lhs0 (y : S1024x1.Idx) (q : dot_S1024x147_S147x1_S1024x1_1_0_0_1_n_n.contr.Idx) : (dot_S1024x147_S147x1_S1024x1_1_0_0_1_n_n.lhsIdx y q 0).val = (y 0).val := by
  unfold DotDims.lhsIdx
  rw [dif_neg (show ¬(0 : Fin S1024x147.rank) ∈ dot_S1024x147_S147x1_S1024x1_1_0_0_1_n_n.lhsBatch by decide), dif_pos (show (0 : Fin S1024x147.rank) ∈ dot_S1024x147_S147x1_S1024x1_1_0_0_1_n_n.lhsNonContracting by decide)]
  rfl
theorem hd5_lhs1 (y : S1024x1.Idx) (q : dot_S1024x147_S147x1_S1024x1_1_0_0_1_n_n.contr.Idx) : (dot_S1024x147_S147x1_S1024x1_1_0_0_1_n_n.lhsIdx y q 1).val = (q ⟨0, by decide⟩).val :=
  dot_S1024x147_S147x1_S1024x1_1_0_0_1_n_n.lhsIdx_val_of_single rfl y q
theorem hd5_rhs0 (y : S1024x1.Idx) (q : dot_S1024x147_S147x1_S1024x1_1_0_0_1_n_n.contr.Idx) : (dot_S1024x147_S147x1_S1024x1_1_0_0_1_n_n.rhsIdx y q 0).val = (q ⟨0, by decide⟩).val :=
  dot_S1024x147_S147x1_S1024x1_1_0_0_1_n_n.rhsIdx_val_of_single rfl y q
theorem hd5_rhs1 (y : S1024x1.Idx) (q : dot_S1024x147_S147x1_S1024x1_1_0_0_1_n_n.contr.Idx) : (dot_S1024x147_S147x1_S1024x1_1_0_0_1_n_n.rhsIdx y q 1).val = (y 1).val := by
  unfold DotDims.rhsIdx
  rw [dif_neg (show ¬(1 : Fin S147x1.rank) ∈ dot_S1024x147_S147x1_S1024x1_1_0_0_1_n_n.rhsBatch by decide), dif_pos (show (1 : Fin S147x1.rank) ∈ dot_S1024x147_S147x1_S1024x1_1_0_0_1_n_n.rhsNonContracting by decide)]
  rfl

/-- The activation's product with the weight column at a row is the sum over the width. -/
theorem hd5_dot (a : (⟨S1024x147, .f32⟩ : BufTy).Contents (Elt Ideal)) (lw : (⟨S147x1, .f32⟩ : BufTy).Contents (Elt Ideal)) (r : Fin 1024) :
    Host.dotGeneral (F := Ideal) (φ₁ := .f32) (φ₂ := .f32) dot_S1024x147_S147x1_S1024x1_1_0_0_1_n_n none a lw (ix2 r (0 : Fin 1)) = ∑ k : Fin 147, a (ix2 r k) * lw (ix2 k (0 : Fin 1)) := by
  simp only [Host.dotGeneral]
  rw [Ideal.dotGeneral_apply, ← Equiv.sum_comp (contrEquiv1 dot_S1024x147_S147x1_S1024x1_1_0_0_1_n_n 147 rfl rfl).symm]
  refine Finset.sum_congr rfl fun k _ => ?_
  have hk := contrEquiv1_symm_val dot_S1024x147_S147x1_S1024x1_1_0_0_1_n_n 147 rfl rfl k
  have el : dot_S1024x147_S147x1_S1024x1_1_0_0_1_n_n.lhsIdx (ix2 r (0 : Fin 1)) ((contrEquiv1 dot_S1024x147_S147x1_S1024x1_1_0_0_1_n_n 147 rfl rfl).symm k) = ix2 r k := funext fun a => Fin.ext (by
    match a with
    | ⟨0, _⟩ => exact hd5_lhs0 _ _
    | ⟨1, _⟩ => exact (hd5_lhs1 _ _).trans hk)
  have er : dot_S1024x147_S147x1_S1024x1_1_0_0_1_n_n.rhsIdx (ix2 r (0 : Fin 1)) ((contrEquiv1 dot_S1024x147_S147x1_S1024x1_1_0_0_1_n_n 147 rfl rfl).symm k) = ix2 k (0 : Fin 1) := funext fun a => Fin.ext (by
    match a with
    | ⟨0, _⟩ => exact (hd5_rhs0 _ _).trans hk
    | ⟨1, _⟩ => exact hd5_rhs1 _ _)
  rw [el, er]

/-- The whole head at a row. -/
theorem head5_read (a : (⟨S1024x147, .f32⟩ : BufTy).Contents (Elt Ideal)) (lw : (⟨S147x1, .f32⟩ : BufTy).Contents (Elt Ideal))
    (lb : (⟨S1, .f32⟩ : BufTy).Contents (Elt Ideal)) (r : Fin 1024) :
    Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x147_S147x1_S1024x1_1_0_0_1_n_n none a lw)
          (broadcastInDim S1024x1 ![0, 1] bcast_S1x1_S1024x1_0_1 (broadcastInDim S1x1 ![1] bcast_S1_S1x1_1 lb)))))) (ix2 r (0 : Fin 1))
      = Cert.Spec.head (fun r i => a (ix2 r i)) (fun i => lw (ix2 i (0 : Fin 1))) (lb (ix1 (0 : Fin 1))) r := by
  show FloatOps.hostDivf (broadcastInDim S1024x1 ![] bcast_S_S1024x1 (constant (F := Ideal) S_ .f32 0x3F800000#32) (ix2 r (0 : Fin 1)))
      (FloatOps.addf (broadcastInDim S1024x1 ![] bcast_S_S1024x1 (constant (F := Ideal) S_ .f32 0x3F800000#32) (ix2 r (0 : Fin 1)))
        (FloatOps.hostUnary .exp (FloatOps.hostNegf (FloatOps.addf (Host.dotGeneral (F := Ideal) (φ₁ := .f32) (φ₂ := .f32) dot_S1024x147_S147x1_S1024x1_1_0_0_1_n_n none a lw (ix2 r (0 : Fin 1)))
          (broadcastInDim S1024x1 ![0, 1] bcast_S1x1_S1024x1_0_1 (broadcastInDim S1x1 ![1] bcast_S1_S1x1_1 lb) (ix2 r (0 : Fin 1))))))) = _
  rw [ones_apply, bias_apply, hd5_dot]
  simp only [Ideal.hostDivf_def, Ideal.addf_def, Ideal.hostUnary_exp_def, Ideal.hostNegf_def, Ideal.negf_def]
  exact one_over_one_plus_exp_neg _

/-! ## The head over width 26 -/

theorem hd6_lhs0 (y : S1024x1.Idx) (q : dot_S1024x26_S26x1_S1024x1_1_0_0_1_n_n.contr.Idx) : (dot_S1024x26_S26x1_S1024x1_1_0_0_1_n_n.lhsIdx y q 0).val = (y 0).val := by
  unfold DotDims.lhsIdx
  rw [dif_neg (show ¬(0 : Fin S1024x26.rank) ∈ dot_S1024x26_S26x1_S1024x1_1_0_0_1_n_n.lhsBatch by decide), dif_pos (show (0 : Fin S1024x26.rank) ∈ dot_S1024x26_S26x1_S1024x1_1_0_0_1_n_n.lhsNonContracting by decide)]
  rfl
theorem hd6_lhs1 (y : S1024x1.Idx) (q : dot_S1024x26_S26x1_S1024x1_1_0_0_1_n_n.contr.Idx) : (dot_S1024x26_S26x1_S1024x1_1_0_0_1_n_n.lhsIdx y q 1).val = (q ⟨0, by decide⟩).val :=
  dot_S1024x26_S26x1_S1024x1_1_0_0_1_n_n.lhsIdx_val_of_single rfl y q
theorem hd6_rhs0 (y : S1024x1.Idx) (q : dot_S1024x26_S26x1_S1024x1_1_0_0_1_n_n.contr.Idx) : (dot_S1024x26_S26x1_S1024x1_1_0_0_1_n_n.rhsIdx y q 0).val = (q ⟨0, by decide⟩).val :=
  dot_S1024x26_S26x1_S1024x1_1_0_0_1_n_n.rhsIdx_val_of_single rfl y q
theorem hd6_rhs1 (y : S1024x1.Idx) (q : dot_S1024x26_S26x1_S1024x1_1_0_0_1_n_n.contr.Idx) : (dot_S1024x26_S26x1_S1024x1_1_0_0_1_n_n.rhsIdx y q 1).val = (y 1).val := by
  unfold DotDims.rhsIdx
  rw [dif_neg (show ¬(1 : Fin S26x1.rank) ∈ dot_S1024x26_S26x1_S1024x1_1_0_0_1_n_n.rhsBatch by decide), dif_pos (show (1 : Fin S26x1.rank) ∈ dot_S1024x26_S26x1_S1024x1_1_0_0_1_n_n.rhsNonContracting by decide)]
  rfl

/-- The activation's product with the weight column at a row is the sum over the width. -/
theorem hd6_dot (a : (⟨S1024x26, .f32⟩ : BufTy).Contents (Elt Ideal)) (lw : (⟨S26x1, .f32⟩ : BufTy).Contents (Elt Ideal)) (r : Fin 1024) :
    Host.dotGeneral (F := Ideal) (φ₁ := .f32) (φ₂ := .f32) dot_S1024x26_S26x1_S1024x1_1_0_0_1_n_n none a lw (ix2 r (0 : Fin 1)) = ∑ k : Fin 26, a (ix2 r k) * lw (ix2 k (0 : Fin 1)) := by
  simp only [Host.dotGeneral]
  rw [Ideal.dotGeneral_apply, ← Equiv.sum_comp (contrEquiv1 dot_S1024x26_S26x1_S1024x1_1_0_0_1_n_n 26 rfl rfl).symm]
  refine Finset.sum_congr rfl fun k _ => ?_
  have hk := contrEquiv1_symm_val dot_S1024x26_S26x1_S1024x1_1_0_0_1_n_n 26 rfl rfl k
  have el : dot_S1024x26_S26x1_S1024x1_1_0_0_1_n_n.lhsIdx (ix2 r (0 : Fin 1)) ((contrEquiv1 dot_S1024x26_S26x1_S1024x1_1_0_0_1_n_n 26 rfl rfl).symm k) = ix2 r k := funext fun a => Fin.ext (by
    match a with
    | ⟨0, _⟩ => exact hd6_lhs0 _ _
    | ⟨1, _⟩ => exact (hd6_lhs1 _ _).trans hk)
  have er : dot_S1024x26_S26x1_S1024x1_1_0_0_1_n_n.rhsIdx (ix2 r (0 : Fin 1)) ((contrEquiv1 dot_S1024x26_S26x1_S1024x1_1_0_0_1_n_n 26 rfl rfl).symm k) = ix2 k (0 : Fin 1) := funext fun a => Fin.ext (by
    match a with
    | ⟨0, _⟩ => exact (hd6_rhs0 _ _).trans hk
    | ⟨1, _⟩ => exact hd6_rhs1 _ _)
  rw [el, er]

/-- The whole head at a row. -/
theorem head6_read (a : (⟨S1024x26, .f32⟩ : BufTy).Contents (Elt Ideal)) (lw : (⟨S26x1, .f32⟩ : BufTy).Contents (Elt Ideal))
    (lb : (⟨S1, .f32⟩ : BufTy).Contents (Elt Ideal)) (r : Fin 1024) :
    Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x26_S26x1_S1024x1_1_0_0_1_n_n none a lw)
          (broadcastInDim S1024x1 ![0, 1] bcast_S1x1_S1024x1_0_1 (broadcastInDim S1x1 ![1] bcast_S1_S1x1_1 lb)))))) (ix2 r (0 : Fin 1))
      = Cert.Spec.head (fun r i => a (ix2 r i)) (fun i => lw (ix2 i (0 : Fin 1))) (lb (ix1 (0 : Fin 1))) r := by
  show FloatOps.hostDivf (broadcastInDim S1024x1 ![] bcast_S_S1024x1 (constant (F := Ideal) S_ .f32 0x3F800000#32) (ix2 r (0 : Fin 1)))
      (FloatOps.addf (broadcastInDim S1024x1 ![] bcast_S_S1024x1 (constant (F := Ideal) S_ .f32 0x3F800000#32) (ix2 r (0 : Fin 1)))
        (FloatOps.hostUnary .exp (FloatOps.hostNegf (FloatOps.addf (Host.dotGeneral (F := Ideal) (φ₁ := .f32) (φ₂ := .f32) dot_S1024x26_S26x1_S1024x1_1_0_0_1_n_n none a lw (ix2 r (0 : Fin 1)))
          (broadcastInDim S1024x1 ![0, 1] bcast_S1x1_S1024x1_0_1 (broadcastInDim S1x1 ![1] bcast_S1_S1x1_1 lb) (ix2 r (0 : Fin 1))))))) = _
  rw [ones_apply, bias_apply, hd6_dot]
  simp only [Ideal.hostDivf_def, Ideal.addf_def, Ideal.hostUnary_exp_def, Ideal.hostNegf_def, Ideal.negf_def]
  exact one_over_one_plus_exp_neg _

end Cert.KernelIdeal.LayerValue

end
-- ==== Proof.IdealLayer2Value.lean ====
/- Layer 2's output array after its region, index by index on the extended reals: the one piece the body leaves in the
   output block is its arithmetic on the four input blocks; that arithmetic at a row and a unit is a masked layer's
   formula on the block's rows; and the two row blocks, each written back by its own point, tile the array. -/
import proofs.«156066_j47502338294403_1_alg».proof.Proof.IdealLayer2Data
import proofs.«156066_j47502338294403_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.LayerValue

open Cert.KernelIdeal Cert.KernelIdeal.Gen Cert.KernelIdeal.Layers
open Idealize.ShloMosaic Idealize.ShloMosaic.TcCoe Idealize.ShloMosaic.Tactic Idealize.ShloMosaic.ValueIdx
open Idealize.SL.Sem
open Idealize.ShloMosaic.Pipeline (Dat Cfg Window)

theorem zeros2_2 : (![0, 0] : Fin 2 → Nat) = fun _ => 0 := funext fun a => by fin_cases a <;> rfl

section Generic
variable {F : FTy → Type} [FloatOps F]

/-- The one piece the body leaves in the output block is the bias-and-tanh step of the accumulation step of the
    cleared accumulator: every load reads a whole buffer, and each read-back of the accumulator reads the store before it. -/
theorem layerOut2_eq (c : Dev nD) (i : grid2.Coords)
    (arg2 : Memref sig .tc .vmem S512x1387 .f32) (harg2 : arg2.IsWhole) (arg3 : Memref sig .tc .vmem S1387x1066 .f32) (harg3 : arg3.IsWhole)
    (arg4 : Memref sig .tc .vmem S1387x1066 .i32) (harg4 : arg4.IsWhole) (arg5 : Memref sig .tc .vmem S1x1066 .f32) (harg5 : arg5.IsWhole)
    (arg6 : Memref sig .tc .vmem S512x1066 .f32) (harg6 : arg6.IsWhole) (arg7 : Memref sig .tc .vmem S512x1066 .f32) (harg7 : arg7.IsWhole)
    (hc0 : first2 i) (hc1 : last2 i)
    (x0 : Vec F S512x1387 .f32) (x1 : Vec F S1387x1066 .f32) (x2 : Vec F S1387x1066 .i32) (x3 : Vec F S1x1066 .f32) :
    layerOut2 c i arg2 harg2 arg3 harg3 arg4 harg4 arg5 harg5 arg6 harg6 arg7 harg7 hc0 hc1 x0 x1 x2 x3
      = k2_pay3 (k2_pay2 x0 x2 x1 (k2_pay1 (F := F))) x3 := by
  unfold layerOut2
  rw [View.read_writes_eq_canon _ _ _ (cover2 c i arg2 harg2 arg3 harg3 arg4 harg4 arg5 harg5 arg6 harg6 arg7 harg7 hc0 hc1 x0 x1 x2 x3)]
  unfold layerRun2
  dsimp only
  sl_unfold_words
  rw [View.canon_unit_zero (S := S512x1066) zeros2_2]
  simp only [View.readCov_cons_toLoadRect, View.readAt_eq_ld, harg2.read_unread, harg3.read_unread, harg4.read_unread,
    harg5.read_unread, View.ld_unit_zero (S := S512x1387) zeros2_2, View.ld_unit_zero (S := S1387x1066) zeros2_2,
    View.ld_unit_zero (S := S1x1066) zeros2_2]

end Generic

/-! ## The body's arithmetic at an index, on the extended reals -/

/-- The cleared accumulator is zero everywhere. -/
theorem pay1_apply2 (y : S512x1066.Idx) : k2_pay1 (F := Ideal) y = 0 := by
  unfold k2_pay1
  simp only [shapeCast_self]
  show Ideal.ofBits .f32 0x00000000#32 = 0
  exact Ideal.ofBits_zero_f32

/-- On the contraction's left operand the row is the output's row … -/
theorem lhs_row2 (y : S512x1066.Idx) (q : dot_S512x1387_S1387x1066_S512x1066_1_0_0_1_n_n.contr.Idx) :
    (dot_S512x1387_S1387x1066_S512x1066_1_0_0_1_n_n.lhsIdx y q 0).val = (y 0).val := by
  unfold DotDims.lhsIdx
  rw [dif_neg (show ¬(0 : Fin S512x1387.rank) ∈ dot_S512x1387_S1387x1066_S512x1066_1_0_0_1_n_n.lhsBatch by decide), dif_pos (show (0 : Fin S512x1387.rank) ∈ dot_S512x1387_S1387x1066_S512x1066_1_0_0_1_n_n.lhsNonContracting by decide)]
  rfl
/-- … and the column the contraction position; -/
theorem lhs_col2 (y : S512x1066.Idx) (q : dot_S512x1387_S1387x1066_S512x1066_1_0_0_1_n_n.contr.Idx) :
    (dot_S512x1387_S1387x1066_S512x1066_1_0_0_1_n_n.lhsIdx y q 1).val = (q ⟨0, by decide⟩).val :=
  dot_S512x1387_S1387x1066_S512x1066_1_0_0_1_n_n.lhsIdx_val_of_single rfl y q
/-- on the right operand the row is the contraction position … -/
theorem rhs_row2 (y : S512x1066.Idx) (q : dot_S512x1387_S1387x1066_S512x1066_1_0_0_1_n_n.contr.Idx) :
    (dot_S512x1387_S1387x1066_S512x1066_1_0_0_1_n_n.rhsIdx y q 0).val = (q ⟨0, by decide⟩).val :=
  dot_S512x1387_S1387x1066_S512x1066_1_0_0_1_n_n.rhsIdx_val_of_single rfl y q
/-- … and the column the output's column. -/
theorem rhs_col2 (y : S512x1066.Idx) (q : dot_S512x1387_S1387x1066_S512x1066_1_0_0_1_n_n.contr.Idx) :
    (dot_S512x1387_S1387x1066_S512x1066_1_0_0_1_n_n.rhsIdx y q 1).val = (y 1).val := by
  unfold DotDims.rhsIdx
  rw [dif_neg (show ¬(1 : Fin S1387x1066.rank) ∈ dot_S512x1387_S1387x1066_S512x1066_1_0_0_1_n_n.rhsBatch by decide), dif_pos (show (1 : Fin S1387x1066.rank) ∈ dot_S512x1387_S1387x1066_S512x1066_1_0_0_1_n_n.rhsNonContracting by decide)]
  rfl

/-- The accumulation step at row `p`, unit `j`: the accumulator there plus the sum over the previous layer's width of the
    activation times the weight where the mask word is not zero. The narrowing of both operands is the identity on the
    extended reals, and the product's own accumulator is the zero splat. -/
theorem pay2_apply2 (x0 : Vec Ideal S512x1387 .f32) (x2 : Vec Ideal S1387x1066 .i32) (x1 : Vec Ideal S1387x1066 .f32)
    (acc : Vec Ideal S512x1066 .f32) (p : Fin 512) (j : Fin 1066) :
    k2_pay2 x0 x2 x1 acc (ix2 p j)
      = acc (ix2 p j) + ∑ i : Fin 1387, x0 (ix2 p i) * (if Scalar.cmpi .ne (x2 (ix2 i j)) 0#32 = 1#1 then x1 (ix2 i j) else 0) := by
  unfold k2_pay2
  simp only [shapeCast_self]
  show acc (ix2 p j) + FloatOps.matmul (F := Ideal) dot_S512x1387_S1387x1066_S512x1066_1_0_0_1_n_n none (truncf .bf16 x0 bitsLt_bf16_f32)
      (truncf .bf16 (select (cmpi .ne x2 (constantI S1387x1066 32 0#32)) x1 (broadcast S1387x1066 (Scalar.ofBits (F := Ideal) .f32 0x00000000#32))) bitsLt_bf16_f32)
      (constant (F := Ideal) S512x1066 .f32 0x00000000#32) (ix2 p j) = _
  rw [Ideal.matmul_constant_zero_apply, ← Equiv.sum_comp (contrEquiv1 dot_S512x1387_S1387x1066_S512x1066_1_0_0_1_n_n 1387 rfl rfl).symm]
  refine congrArg (acc (ix2 p j) + ·) (Finset.sum_congr rfl fun k _ => ?_)
  have hk := contrEquiv1_symm_val dot_S512x1387_S1387x1066_S512x1066_1_0_0_1_n_n 1387 rfl rfl k
  have el : dot_S512x1387_S1387x1066_S512x1066_1_0_0_1_n_n.lhsIdx (ix2 p j) ((contrEquiv1 dot_S512x1387_S1387x1066_S512x1066_1_0_0_1_n_n 1387 rfl rfl).symm k) = ix2 p k := funext fun a => Fin.ext (by
    match a with
    | ⟨0, _⟩ => exact lhs_row2 _ _
    | ⟨1, _⟩ => exact (lhs_col2 _ _).trans hk)
  have er : dot_S512x1387_S1387x1066_S512x1066_1_0_0_1_n_n.rhsIdx (ix2 p j) ((contrEquiv1 dot_S512x1387_S1387x1066_S512x1066_1_0_0_1_n_n 1387 rfl rfl).symm k) = ix2 k j := funext fun a => Fin.ext (by
    match a with
    | ⟨0, _⟩ => exact (rhs_row2 _ _).trans hk
    | ⟨1, _⟩ => exact rhs_col2 _ _)
  rw [el, er]
  show x0 (ix2 p k) * (if IntOp.cmpi .ne (x2 (ix2 k j)) 0#32 = 1 then x1 (ix2 k j) else Ideal.ofBits .f32 0x00000000#32) = _
  rw [Ideal.ofBits_zero_f32]
  rfl

/-- The last step at row `p`, unit `j`: the bias row's entry added, through tanh. -/
theorem pay3_apply2 (a : Vec Ideal S512x1066 .f32) (b : Vec Ideal S1x1066 .f32) (p : Fin 512) (j : Fin 1066) :
    k2_pay3 a b (ix2 p j) = Ideal.tanh (a (ix2 p j) + b (ix2 (0 : Fin 1) j)) := by
  unfold k2_pay3
  simp only [shapeCast_self]
  show Ideal.tanh (a (ix2 p j) + broadcastTo S512x1066 b broadcasts_S1x1066_S512x1066 (ix2 p j)) = _
  rw [broadcastTo_apply b broadcasts_S1x1066_S512x1066 (ix2 p j) (ix2 (0 : Fin 1) j) (fun a => by
    match a with
    | ⟨0, _⟩ => rfl
    | ⟨1, _⟩ => rfl)]

/-- The whole body at row `p`, unit `j`: a masked layer's formula on the block's rows. -/
theorem body_apply2 (x0 : Vec Ideal S512x1387 .f32) (x1 : Vec Ideal S1387x1066 .f32) (x2 : Vec Ideal S1387x1066 .i32)
    (x3 : Vec Ideal S1x1066 .f32) (p : Fin 512) (j : Fin 1066) :
    k2_pay3 (k2_pay2 x0 x2 x1 (k2_pay1 (F := Ideal))) x3 (ix2 p j)
      = Ideal.tanh ((∑ i : Fin 1387, x0 (ix2 p i) * (if Scalar.cmpi .ne (x2 (ix2 i j)) 0#32 = 1#1 then x1 (ix2 i j) else 0)) + x3 (ix2 (0 : Fin 1) j)) := by
  rw [pay3_apply2, pay2_apply2, pay1_apply2, zero_add]

/-! ## From blocks to the array -/

section Region

variable (V : (c : Dev nD) → (b : Ref sig .tc) → Buf (Elt Ideal) ((c : Thread nD τ).loc b))

/-- The layer's formula as one function of the four arrays the region finds: the activation, the weight, the mask and
    the bias row. -/
def G2 (c : Dev nD) : S1024x1066.Idx → Elt Ideal .f32 := fun y =>
  Cert.Spec.layer (fun r i => V c (Pipeline.arrRef spec2 0) (ix2 r i)) (fun i j => V c (Pipeline.arrRef spec2 1) (ix2 i j))
    (fun i j => Scalar.cmpi .ne (V c (Pipeline.arrRef spec2 2) (ix2 i j)) 0#32)
    (fun j => V c (Pipeline.arrRef spec2 3) (ix2 (0 : Fin 1) j)) (y 0) (y 1)

/-- The index maps, decided over the grid: the activation's block moves down the rows with the output's, the weight,
    the mask and the bias row stay, and the output's row block is one of two. -/
theorem idx_facts2 : ∀ t : Fin cfg2.N,
    win2_0.index t (0 : Fin 2) = win2_4.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) ≤ 1 ∧ win2_4.index t (1 : Fin 2) = 0 :=
  (by decide +kernel : ∀ t : Fin grid2.N, _)

/-- Each of the two row blocks is some point's. -/
theorem idx_onto2 : ∀ q : Fin 2, ∃ t : Fin cfg2.N, win2_4.index t (0 : Fin 2) = q.val :=
  (by decide +kernel : ∀ q : Fin 2, ∃ t : Fin grid2.N, win2_4.index t (0 : Fin 2) = q.val)

/-- The array row under row `p` of point `t`'s output block. -/
def rowAt2 (t : Fin cfg2.N) (p : Fin 512) : Fin 1024 :=
  ⟨win2_4.index t (0 : Fin 2) * 512 + p.val, by
    have h := (idx_facts2 t).2.2.2.2.2.2.2.2.1
    have hp := p.isLt
    omega⟩

/-- Where each window's block at point `t` sits in its array: a block's coordinate is the block index times the block
    size plus the coordinate inside the block. -/
theorem emb2_4 (t : Fin cfg2.N) (p : Fin 512) (j : Fin 1066) :
    ((cfg2.win 4).blk t).view.emb (ix2 p j) = ix2 (rowAt2 t p) j := by
  obtain ⟨e00, e01, e10, e11, e20, e21, e30, e31, e40, e41⟩ := idx_facts2 t
  funext a; apply Fin.ext
  match a with
  | ⟨0, _⟩ => show win2_4.index t (0 : Fin 2) * 512 + 1 * p.val = win2_4.index t (0 : Fin 2) * 512 + p.val; omega
  | ⟨1, _⟩ => show win2_4.index t (1 : Fin 2) * 1066 + 1 * j.val = j.val; omega
theorem emb2_0 (t : Fin cfg2.N) (p : Fin 512) (i : Fin 1387) :
    ((cfg2.win 0).blk t).view.emb (ix2 p i) = ix2 (rowAt2 t p) i := by
  obtain ⟨e00, e01, e10, e11, e20, e21, e30, e31, e40, e41⟩ := idx_facts2 t
  funext a; apply Fin.ext
  match a with
  | ⟨0, _⟩ => show win2_0.index t (0 : Fin 2) * 512 + 1 * p.val = win2_4.index t (0 : Fin 2) * 512 + p.val; omega
  | ⟨1, _⟩ => show win2_0.index t (1 : Fin 2) * 1387 + 1 * i.val = i.val; omega
theorem emb2_1 (t : Fin cfg2.N) (i : Fin 1387) (j : Fin 1066) :
    ((cfg2.win 1).blk t).view.emb (ix2 i j) = ix2 i j := by
  obtain ⟨e00, e01, e10, e11, e20, e21, e30, e31, e40, e41⟩ := idx_facts2 t
  funext a; apply Fin.ext
  match a with
  | ⟨0, _⟩ => show win2_1.index t (0 : Fin 2) * 1387 + 1 * i.val = i.val; omega
  | ⟨1, _⟩ => show win2_1.index t (1 : Fin 2) * 1066 + 1 * j.val = j.val; omega
theorem emb2_2 (t : Fin cfg2.N) (i : Fin 1387) (j : Fin 1066) :
    ((cfg2.win 2).blk t).view.emb (ix2 i j) = ix2 i j := by
  obtain ⟨e00, e01, e10, e11, e20, e21, e30, e31, e40, e41⟩ := idx_facts2 t
  funext a; apply Fin.ext
  match a with
  | ⟨0, _⟩ => show win2_2.index t (0 : Fin 2) * 1387 + 1 * i.val = i.val; omega
  | ⟨1, _⟩ => show win2_2.index t (1 : Fin 2) * 1066 + 1 * j.val = j.val; omega
theorem emb2_3 (t : Fin cfg2.N) (j : Fin 1066) :
    ((cfg2.win 3).blk t).view.emb (ix2 (0 : Fin 1) j) = ix2 (0 : Fin 1) j := by
  obtain ⟨e00, e01, e10, e11, e20, e21, e30, e31, e40, e41⟩ := idx_facts2 t
  funext a; apply Fin.ext
  match a with
  | ⟨0, _⟩ => show win2_3.index t (0 : Fin 2) * 1 + 1 * 0 = 0; omega
  | ⟨1, _⟩ => show win2_3.index t (1 : Fin 2) * 1066 + 1 * j.val = j.val; omega

/-- What point `t` writes back is block `t` of the layer's formula of the arrays as the region finds them. -/
theorem flushed_eq2 (c : Dev nD) (t : Fin cfg2.N) :
    (dat2 (F := Ideal) V c).flushed 4 t = ((cfg2.win 4).blk t).view.read (Elt Ideal) (G2 V c) := by
  show (cfg2.win 4).cut (grid2.coords t) ((dat2 (F := Ideal) V c).after 4 t) = _
  rw [after2_4]
  unfold outAt2
  rw [layerOut2_eq]
  funext y
  obtain ⟨p, j, rfl⟩ : ∃ (p : Fin 512) (j : Fin 1066), y = ix2 p j := ⟨y 0, y 1, eq_ix2 y⟩
  show k2_pay3 (k2_pay2 (iblk2 V c 0 t) (iblk2 V c 2 t) (iblk2 V c 1 t) (k2_pay1 (F := Ideal))) (iblk2 V c 3 t) (ix2 p j)
    = G2 V c (((cfg2.win 4).blk t).view.emb (ix2 p j))
  refine (body_apply2 (iblk2 V c 0 t) (iblk2 V c 1 t) (iblk2 V c 2 t) (iblk2 V c 3 t) p j).trans ?_
  rw [emb2_4]
  have h0 : ∀ i : Fin 1387, (iblk2 V c 0 t : Vec Ideal S512x1387 .f32) (ix2 p i) = V c (Pipeline.arrRef spec2 0) (ix2 (rowAt2 t p) i) :=
    fun i => congrArg (V c (Pipeline.arrRef spec2 0)) (emb2_0 t p i)
  have h1 : ∀ i : Fin 1387, (iblk2 V c 1 t : Vec Ideal S1387x1066 .f32) (ix2 i j) = V c (Pipeline.arrRef spec2 1) (ix2 i j) :=
    fun i => congrArg (V c (Pipeline.arrRef spec2 1)) (emb2_1 t i j)
  have h2 : ∀ i : Fin 1387, (iblk2 V c 2 t : Vec Ideal S1387x1066 .i32) (ix2 i j) = V c (Pipeline.arrRef spec2 2) (ix2 i j) :=
    fun i => congrArg (V c (Pipeline.arrRef spec2 2)) (emb2_2 t i j)
  have h3 : (iblk2 V c 3 t : Vec Ideal S1x1066 .f32) (ix2 (0 : Fin 1) j) = V c (Pipeline.arrRef spec2 3) (ix2 (0 : Fin 1) j) :=
    congrArg (V c (Pipeline.arrRef spec2 3)) (emb2_3 t j)
  rw [h3, Finset.sum_congr rfl fun i _ => by rw [h0 i, h1 i, h2 i]]
  rfl

/-- An index of the array is in point `t`'s block iff each coordinate is in the block's range on its axis. -/
theorem mem_blk2 (t : Fin cfg2.N) (i : S1024x1066.Idx) :
    i ∈ ((cfg2.win 4).blk t).view.set ↔ ∀ a : Fin 2, win2_4.index t a * S512x1066.size a ≤ (i a).val ∧ (i a).val < win2_4.index t a * S512x1066.size a + S512x1066.size a := by
  show i ∈ ((View.whole main_v47).slice (win2_4.rect t)).set ↔ _
  rw [View.set_slice_whole, Rect.mem_set_unit]
  exact Iff.rfl

/-- Every index of the array is in the block of the point whose row block holds its row. -/
theorem cover_arr2 (i : S1024x1066.Idx) : ∃ t : Fin cfg2.N, (cfg2.win 4).flush t = true ∧ i ∈ ((cfg2.win 4).blk t).view.set := by
  have hi0 : (i 0).val < 1024 := (i 0).isLt
  have hi1 : (i 1).val < 1066 := (i 1).isLt
  obtain ⟨t, ht⟩ := idx_onto2 ⟨(i 0).val / 512, by omega⟩
  have q0 : win2_4.index t (0 : Fin 2) = (i 0).val / 512 := ht
  obtain ⟨e00, e01, e10, e11, e20, e21, e30, e31, e40, e41⟩ := idx_facts2 t
  refine ⟨t, flush2_4 t, ?_⟩
  rw [mem_blk2]
  intro a
  match a with
  | ⟨0, _⟩ => show win2_4.index t (0 : Fin 2) * 512 ≤ (i 0).val ∧ (i 0).val < win2_4.index t (0 : Fin 2) * 512 + 512; omega
  | ⟨1, _⟩ => show win2_4.index t (1 : Fin 2) * 1066 ≤ (i 1).val ∧ (i 1).val < win2_4.index t (1 : Fin 2) * 1066 + 1066; omega

/-- The output array after the region is the layer's formula of the arrays the region finds. -/
theorem final2 (c : Dev nD) : (dat2 (F := Ideal) V c).arrAt 4 cfg2.N = G2 V c :=
  (dat2 (F := Ideal) V c).arrAt_eq_of_cover 4 (G2 V c) (fun t _ => flushed_eq2 V c t) cover_arr2

/-- The output array after the region, row `r`, unit `j`: a masked layer of the activation, the weight, the mask (a unit
    where the mask word is not zero) and the bias row as the region finds them. -/
theorem layer2_value (c : Dev nD) (r : Fin 1024) (j : Fin 1066) :
    (dat2 (F := Ideal) V c).arrAt 4 cfg2.N (ix2 r j)
      = Cert.Spec.layer (fun r i => V c (Pipeline.arrRef spec2 0) (ix2 r i)) (fun i j => V c (Pipeline.arrRef spec2 1) (ix2 i j))
          (fun i j => Scalar.cmpi .ne (V c (Pipeline.arrRef spec2 2) (ix2 i j)) 0#32)
          (fun j => V c (Pipeline.arrRef spec2 3) (ix2 (0 : Fin 1) j)) r j := by
  rw [final2]
  rfl

end Region

end Cert.KernelIdeal.LayerValue

end
-- ==== Proof.IdealLayer3Value.lean ====
/- Layer 3's output array after its region, index by index on the extended reals: the one piece the body leaves in the
   output block is its arithmetic on the four input blocks; that arithmetic at a row and a unit is a masked layer's
   formula on the block's rows; and the two row blocks, each written back by its own point, tile the array. -/
import proofs.«156066_j47502338294403_1_alg».proof.Proof.IdealLayer3Data
import proofs.«156066_j47502338294403_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.LayerValue

open Cert.KernelIdeal Cert.KernelIdeal.Gen Cert.KernelIdeal.Layers
open Idealize.ShloMosaic Idealize.ShloMosaic.TcCoe Idealize.ShloMosaic.Tactic Idealize.ShloMosaic.ValueIdx
open Idealize.SL.Sem
open Idealize.ShloMosaic.Pipeline (Dat Cfg Window)

theorem zeros2_3 : (![0, 0] : Fin 2 → Nat) = fun _ => 0 := funext fun a => by fin_cases a <;> rfl

section Generic
variable {F : FTy → Type} [FloatOps F]

/-- The one piece the body leaves in the output block is the bias-and-tanh step of the accumulation step of the
    cleared accumulator: every load reads a whole buffer, and each read-back of the accumulator reads the store before it. -/
theorem layerOut3_eq (c : Dev nD) (i : grid3.Coords)
    (arg2 : Memref sig .tc .vmem S512x1066 .f32) (harg2 : arg2.IsWhole) (arg3 : Memref sig .tc .vmem S1066x447 .f32) (harg3 : arg3.IsWhole)
    (arg4 : Memref sig .tc .vmem S1066x447 .i32) (harg4 : arg4.IsWhole) (arg5 : Memref sig .tc .vmem S1x447 .f32) (harg5 : arg5.IsWhole)
    (arg6 : Memref sig .tc .vmem S512x447 .f32) (harg6 : arg6.IsWhole) (arg7 : Memref sig .tc .vmem S512x447 .f32) (harg7 : arg7.IsWhole)
    (hc0 : first3 i) (hc1 : last3 i)
    (x0 : Vec F S512x1066 .f32) (x1 : Vec F S1066x447 .f32) (x2 : Vec F S1066x447 .i32) (x3 : Vec F S1x447 .f32) :
    layerOut3 c i arg2 harg2 arg3 harg3 arg4 harg4 arg5 harg5 arg6 harg6 arg7 harg7 hc0 hc1 x0 x1 x2 x3
      = k3_pay3 (k3_pay2 x0 x2 x1 (k3_pay1 (F := F))) x3 := by
  unfold layerOut3
  rw [View.read_writes_eq_canon _ _ _ (cover3 c i arg2 harg2 arg3 harg3 arg4 harg4 arg5 harg5 arg6 harg6 arg7 harg7 hc0 hc1 x0 x1 x2 x3)]
  unfold layerRun3
  dsimp only
  sl_unfold_words
  rw [View.canon_unit_zero (S := S512x447) zeros2_3]
  simp only [View.readCov_cons_toLoadRect, View.readAt_eq_ld, harg2.read_unread, harg3.read_unread, harg4.read_unread,
    harg5.read_unread, View.ld_unit_zero (S := S512x1066) zeros2_3, View.ld_unit_zero (S := S1066x447) zeros2_3,
    View.ld_unit_zero (S := S1x447) zeros2_3]

end Generic

/-! ## The body's arithmetic at an index, on the extended reals -/

/-- The cleared accumulator is zero everywhere. -/
theorem pay1_apply3 (y : S512x447.Idx) : k3_pay1 (F := Ideal) y = 0 := by
  unfold k3_pay1
  simp only [shapeCast_self]
  show Ideal.ofBits .f32 0x00000000#32 = 0
  exact Ideal.ofBits_zero_f32

/-- On the contraction's left operand the row is the output's row … -/
theorem lhs_row3 (y : S512x447.Idx) (q : dot_S512x1066_S1066x447_S512x447_1_0_0_1_n_n.contr.Idx) :
    (dot_S512x1066_S1066x447_S512x447_1_0_0_1_n_n.lhsIdx y q 0).val = (y 0).val := by
  unfold DotDims.lhsIdx
  rw [dif_neg (show ¬(0 : Fin S512x1066.rank) ∈ dot_S512x1066_S1066x447_S512x447_1_0_0_1_n_n.lhsBatch by decide), dif_pos (show (0 : Fin S512x1066.rank) ∈ dot_S512x1066_S1066x447_S512x447_1_0_0_1_n_n.lhsNonContracting by decide)]
  rfl
/-- … and the column the contraction position; -/
theorem lhs_col3 (y : S512x447.Idx) (q : dot_S512x1066_S1066x447_S512x447_1_0_0_1_n_n.contr.Idx) :
    (dot_S512x1066_S1066x447_S512x447_1_0_0_1_n_n.lhsIdx y q 1).val = (q ⟨0, by decide⟩).val :=
  dot_S512x1066_S1066x447_S512x447_1_0_0_1_n_n.lhsIdx_val_of_single rfl y q
/-- on the right operand the row is the contraction position … -/
theorem rhs_row3 (y : S512x447.Idx) (q : dot_S512x1066_S1066x447_S512x447_1_0_0_1_n_n.contr.Idx) :
    (dot_S512x1066_S1066x447_S512x447_1_0_0_1_n_n.rhsIdx y q 0).val = (q ⟨0, by decide⟩).val :=
  dot_S512x1066_S1066x447_S512x447_1_0_0_1_n_n.rhsIdx_val_of_single rfl y q
/-- … and the column the output's column. -/
theorem rhs_col3 (y : S512x447.Idx) (q : dot_S512x1066_S1066x447_S512x447_1_0_0_1_n_n.contr.Idx) :
    (dot_S512x1066_S1066x447_S512x447_1_0_0_1_n_n.rhsIdx y q 1).val = (y 1).val := by
  unfold DotDims.rhsIdx
  rw [dif_neg (show ¬(1 : Fin S1066x447.rank) ∈ dot_S512x1066_S1066x447_S512x447_1_0_0_1_n_n.rhsBatch by decide), dif_pos (show (1 : Fin S1066x447.rank) ∈ dot_S512x1066_S1066x447_S512x447_1_0_0_1_n_n.rhsNonContracting by decide)]
  rfl

/-- The accumulation step at row `p`, unit `j`: the accumulator there plus the sum over the previous layer's width of the
    activation times the weight where the mask word is not zero. The narrowing of both operands is the identity on the
    extended reals, and the product's own accumulator is the zero splat. -/
theorem pay2_apply3 (x0 : Vec Ideal S512x1066 .f32) (x2 : Vec Ideal S1066x447 .i32) (x1 : Vec Ideal S1066x447 .f32)
    (acc : Vec Ideal S512x447 .f32) (p : Fin 512) (j : Fin 447) :
    k3_pay2 x0 x2 x1 acc (ix2 p j)
      = acc (ix2 p j) + ∑ i : Fin 1066, x0 (ix2 p i) * (if Scalar.cmpi .ne (x2 (ix2 i j)) 0#32 = 1#1 then x1 (ix2 i j) else 0) := by
  unfold k3_pay2
  simp only [shapeCast_self]
  show acc (ix2 p j) + FloatOps.matmul (F := Ideal) dot_S512x1066_S1066x447_S512x447_1_0_0_1_n_n none (truncf .bf16 x0 bitsLt_bf16_f32)
      (truncf .bf16 (select (cmpi .ne x2 (constantI S1066x447 32 0#32)) x1 (broadcast S1066x447 (Scalar.ofBits (F := Ideal) .f32 0x00000000#32))) bitsLt_bf16_f32)
      (constant (F := Ideal) S512x447 .f32 0x00000000#32) (ix2 p j) = _
  rw [Ideal.matmul_constant_zero_apply, ← Equiv.sum_comp (contrEquiv1 dot_S512x1066_S1066x447_S512x447_1_0_0_1_n_n 1066 rfl rfl).symm]
  refine congrArg (acc (ix2 p j) + ·) (Finset.sum_congr rfl fun k _ => ?_)
  have hk := contrEquiv1_symm_val dot_S512x1066_S1066x447_S512x447_1_0_0_1_n_n 1066 rfl rfl k
  have el : dot_S512x1066_S1066x447_S512x447_1_0_0_1_n_n.lhsIdx (ix2 p j) ((contrEquiv1 dot_S512x1066_S1066x447_S512x447_1_0_0_1_n_n 1066 rfl rfl).symm k) = ix2 p k := funext fun a => Fin.ext (by
    match a with
    | ⟨0, _⟩ => exact lhs_row3 _ _
    | ⟨1, _⟩ => exact (lhs_col3 _ _).trans hk)
  have er : dot_S512x1066_S1066x447_S512x447_1_0_0_1_n_n.rhsIdx (ix2 p j) ((contrEquiv1 dot_S512x1066_S1066x447_S512x447_1_0_0_1_n_n 1066 rfl rfl).symm k) = ix2 k j := funext fun a => Fin.ext (by
    match a with
    | ⟨0, _⟩ => exact (rhs_row3 _ _).trans hk
    | ⟨1, _⟩ => exact rhs_col3 _ _)
  rw [el, er]
  show x0 (ix2 p k) * (if IntOp.cmpi .ne (x2 (ix2 k j)) 0#32 = 1 then x1 (ix2 k j) else Ideal.ofBits .f32 0x00000000#32) = _
  rw [Ideal.ofBits_zero_f32]
  rfl

/-- The last step at row `p`, unit `j`: the bias row's entry added, through tanh. -/
theorem pay3_apply3 (a : Vec Ideal S512x447 .f32) (b : Vec Ideal S1x447 .f32) (p : Fin 512) (j : Fin 447) :
    k3_pay3 a b (ix2 p j) = Ideal.tanh (a (ix2 p j) + b (ix2 (0 : Fin 1) j)) := by
  unfold k3_pay3
  simp only [shapeCast_self]
  show Ideal.tanh (a (ix2 p j) + broadcastTo S512x447 b broadcasts_S1x447_S512x447 (ix2 p j)) = _
  rw [broadcastTo_apply b broadcasts_S1x447_S512x447 (ix2 p j) (ix2 (0 : Fin 1) j) (fun a => by
    match a with
    | ⟨0, _⟩ => rfl
    | ⟨1, _⟩ => rfl)]

/-- The whole body at row `p`, unit `j`: a masked layer's formula on the block's rows. -/
theorem body_apply3 (x0 : Vec Ideal S512x1066 .f32) (x1 : Vec Ideal S1066x447 .f32) (x2 : Vec Ideal S1066x447 .i32)
    (x3 : Vec Ideal S1x447 .f32) (p : Fin 512) (j : Fin 447) :
    k3_pay3 (k3_pay2 x0 x2 x1 (k3_pay1 (F := Ideal))) x3 (ix2 p j)
      = Ideal.tanh ((∑ i : Fin 1066, x0 (ix2 p i) * (if Scalar.cmpi .ne (x2 (ix2 i j)) 0#32 = 1#1 then x1 (ix2 i j) else 0)) + x3 (ix2 (0 : Fin 1) j)) := by
  rw [pay3_apply3, pay2_apply3, pay1_apply3, zero_add]

/-! ## From blocks to the array -/

section Region

variable (V : (c : Dev nD) → (b : Ref sig .tc) → Buf (Elt Ideal) ((c : Thread nD τ).loc b))

/-- The layer's formula as one function of the four arrays the region finds: the activation, the weight, the mask and
    the bias row. -/
def G3 (c : Dev nD) : S1024x447.Idx → Elt Ideal .f32 := fun y =>
  Cert.Spec.layer (fun r i => V c (Pipeline.arrRef spec3 0) (ix2 r i)) (fun i j => V c (Pipeline.arrRef spec3 1) (ix2 i j))
    (fun i j => Scalar.cmpi .ne (V c (Pipeline.arrRef spec3 2) (ix2 i j)) 0#32)
    (fun j => V c (Pipeline.arrRef spec3 3) (ix2 (0 : Fin 1) j)) (y 0) (y 1)

/-- The index maps, decided over the grid: the activation's block moves down the rows with the output's, the weight,
    the mask and the bias row stay, and the output's row block is one of two. -/
theorem idx_facts3 : ∀ t : Fin cfg3.N,
    win3_0.index t (0 : Fin 2) = win3_4.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) ≤ 1 ∧ win3_4.index t (1 : Fin 2) = 0 :=
  (by decide +kernel : ∀ t : Fin grid3.N, _)

/-- Each of the two row blocks is some point's. -/
theorem idx_onto3 : ∀ q : Fin 2, ∃ t : Fin cfg3.N, win3_4.index t (0 : Fin 2) = q.val :=
  (by decide +kernel : ∀ q : Fin 2, ∃ t : Fin grid3.N, win3_4.index t (0 : Fin 2) = q.val)

/-- The array row under row `p` of point `t`'s output block. -/
def rowAt3 (t : Fin cfg3.N) (p : Fin 512) : Fin 1024 :=
  ⟨win3_4.index t (0 : Fin 2) * 512 + p.val, by
    have h := (idx_facts3 t).2.2.2.2.2.2.2.2.1
    have hp := p.isLt
    omega⟩

/-- Where each window's block at point `t` sits in its array: a block's coordinate is the block index times the block
    size plus the coordinate inside the block. -/
theorem emb3_4 (t : Fin cfg3.N) (p : Fin 512) (j : Fin 447) :
    ((cfg3.win 4).blk t).view.emb (ix2 p j) = ix2 (rowAt3 t p) j := by
  obtain ⟨e00, e01, e10, e11, e20, e21, e30, e31, e40, e41⟩ := idx_facts3 t
  funext a; apply Fin.ext
  match a with
  | ⟨0, _⟩ => show win3_4.index t (0 : Fin 2) * 512 + 1 * p.val = win3_4.index t (0 : Fin 2) * 512 + p.val; omega
  | ⟨1, _⟩ => show win3_4.index t (1 : Fin 2) * 447 + 1 * j.val = j.val; omega
theorem emb3_0 (t : Fin cfg3.N) (p : Fin 512) (i : Fin 1066) :
    ((cfg3.win 0).blk t).view.emb (ix2 p i) = ix2 (rowAt3 t p) i := by
  obtain ⟨e00, e01, e10, e11, e20, e21, e30, e31, e40, e41⟩ := idx_facts3 t
  funext a; apply Fin.ext
  match a with
  | ⟨0, _⟩ => show win3_0.index t (0 : Fin 2) * 512 + 1 * p.val = win3_4.index t (0 : Fin 2) * 512 + p.val; omega
  | ⟨1, _⟩ => show win3_0.index t (1 : Fin 2) * 1066 + 1 * i.val = i.val; omega
theorem emb3_1 (t : Fin cfg3.N) (i : Fin 1066) (j : Fin 447) :
    ((cfg3.win 1).blk t).view.emb (ix2 i j) = ix2 i j := by
  obtain ⟨e00, e01, e10, e11, e20, e21, e30, e31, e40, e41⟩ := idx_facts3 t
  funext a; apply Fin.ext
  match a with
  | ⟨0, _⟩ => show win3_1.index t (0 : Fin 2) * 1066 + 1 * i.val = i.val; omega
  | ⟨1, _⟩ => show win3_1.index t (1 : Fin 2) * 447 + 1 * j.val = j.val; omega
theorem emb3_2 (t : Fin cfg3.N) (i : Fin 1066) (j : Fin 447) :
    ((cfg3.win 2).blk t).view.emb (ix2 i j) = ix2 i j := by
  obtain ⟨e00, e01, e10, e11, e20, e21, e30, e31, e40, e41⟩ := idx_facts3 t
  funext a; apply Fin.ext
  match a with
  | ⟨0, _⟩ => show win3_2.index t (0 : Fin 2) * 1066 + 1 * i.val = i.val; omega
  | ⟨1, _⟩ => show win3_2.index t (1 : Fin 2) * 447 + 1 * j.val = j.val; omega
theorem emb3_3 (t : Fin cfg3.N) (j : Fin 447) :
    ((cfg3.win 3).blk t).view.emb (ix2 (0 : Fin 1) j) = ix2 (0 : Fin 1) j := by
  obtain ⟨e00, e01, e10, e11, e20, e21, e30, e31, e40, e41⟩ := idx_facts3 t
  funext a; apply Fin.ext
  match a with
  | ⟨0, _⟩ => show win3_3.index t (0 : Fin 2) * 1 + 1 * 0 = 0; omega
  | ⟨1, _⟩ => show win3_3.index t (1 : Fin 2) * 447 + 1 * j.val = j.val; omega

/-- What point `t` writes back is block `t` of the layer's formula of the arrays as the region finds them. -/
theorem flushed_eq3 (c : Dev nD) (t : Fin cfg3.N) :
    (dat3 (F := Ideal) V c).flushed 4 t = ((cfg3.win 4).blk t).view.read (Elt Ideal) (G3 V c) := by
  show (cfg3.win 4).cut (grid3.coords t) ((dat3 (F := Ideal) V c).after 4 t) = _
  rw [after3_4]
  unfold outAt3
  rw [layerOut3_eq]
  funext y
  obtain ⟨p, j, rfl⟩ : ∃ (p : Fin 512) (j : Fin 447), y = ix2 p j := ⟨y 0, y 1, eq_ix2 y⟩
  show k3_pay3 (k3_pay2 (iblk3 V c 0 t) (iblk3 V c 2 t) (iblk3 V c 1 t) (k3_pay1 (F := Ideal))) (iblk3 V c 3 t) (ix2 p j)
    = G3 V c (((cfg3.win 4).blk t).view.emb (ix2 p j))
  refine (body_apply3 (iblk3 V c 0 t) (iblk3 V c 1 t) (iblk3 V c 2 t) (iblk3 V c 3 t) p j).trans ?_
  rw [emb3_4]
  have h0 : ∀ i : Fin 1066, (iblk3 V c 0 t : Vec Ideal S512x1066 .f32) (ix2 p i) = V c (Pipeline.arrRef spec3 0) (ix2 (rowAt3 t p) i) :=
    fun i => congrArg (V c (Pipeline.arrRef spec3 0)) (emb3_0 t p i)
  have h1 : ∀ i : Fin 1066, (iblk3 V c 1 t : Vec Ideal S1066x447 .f32) (ix2 i j) = V c (Pipeline.arrRef spec3 1) (ix2 i j) :=
    fun i => congrArg (V c (Pipeline.arrRef spec3 1)) (emb3_1 t i j)
  have h2 : ∀ i : Fin 1066, (iblk3 V c 2 t : Vec Ideal S1066x447 .i32) (ix2 i j) = V c (Pipeline.arrRef spec3 2) (ix2 i j) :=
    fun i => congrArg (V c (Pipeline.arrRef spec3 2)) (emb3_2 t i j)
  have h3 : (iblk3 V c 3 t : Vec Ideal S1x447 .f32) (ix2 (0 : Fin 1) j) = V c (Pipeline.arrRef spec3 3) (ix2 (0 : Fin 1) j) :=
    congrArg (V c (Pipeline.arrRef spec3 3)) (emb3_3 t j)
  rw [h3, Finset.sum_congr rfl fun i _ => by rw [h0 i, h1 i, h2 i]]
  rfl

/-- An index of the array is in point `t`'s block iff each coordinate is in the block's range on its axis. -/
theorem mem_blk3 (t : Fin cfg3.N) (i : S1024x447.Idx) :
    i ∈ ((cfg3.win 4).blk t).view.set ↔ ∀ a : Fin 2, win3_4.index t a * S512x447.size a ≤ (i a).val ∧ (i a).val < win3_4.index t a * S512x447.size a + S512x447.size a := by
  show i ∈ ((View.whole main_v60).slice (win3_4.rect t)).set ↔ _
  rw [View.set_slice_whole, Rect.mem_set_unit]
  exact Iff.rfl

/-- Every index of the array is in the block of the point whose row block holds its row. -/
theorem cover_arr3 (i : S1024x447.Idx) : ∃ t : Fin cfg3.N, (cfg3.win 4).flush t = true ∧ i ∈ ((cfg3.win 4).blk t).view.set := by
  have hi0 : (i 0).val < 1024 := (i 0).isLt
  have hi1 : (i 1).val < 447 := (i 1).isLt
  obtain ⟨t, ht⟩ := idx_onto3 ⟨(i 0).val / 512, by omega⟩
  have q0 : win3_4.index t (0 : Fin 2) = (i 0).val / 512 := ht
  obtain ⟨e00, e01, e10, e11, e20, e21, e30, e31, e40, e41⟩ := idx_facts3 t
  refine ⟨t, flush3_4 t, ?_⟩
  rw [mem_blk3]
  intro a
  match a with
  | ⟨0, _⟩ => show win3_4.index t (0 : Fin 2) * 512 ≤ (i 0).val ∧ (i 0).val < win3_4.index t (0 : Fin 2) * 512 + 512; omega
  | ⟨1, _⟩ => show win3_4.index t (1 : Fin 2) * 447 ≤ (i 1).val ∧ (i 1).val < win3_4.index t (1 : Fin 2) * 447 + 447; omega

/-- The output array after the region is the layer's formula of the arrays the region finds. -/
theorem final3 (c : Dev nD) : (dat3 (F := Ideal) V c).arrAt 4 cfg3.N = G3 V c :=
  (dat3 (F := Ideal) V c).arrAt_eq_of_cover 4 (G3 V c) (fun t _ => flushed_eq3 V c t) cover_arr3

/-- The output array after the region, row `r`, unit `j`: a masked layer of the activation, the weight, the mask (a unit
    where the mask word is not zero) and the bias row as the region finds them. -/
theorem layer3_value (c : Dev nD) (r : Fin 1024) (j : Fin 447) :
    (dat3 (F := Ideal) V c).arrAt 4 cfg3.N (ix2 r j)
      = Cert.Spec.layer (fun r i => V c (Pipeline.arrRef spec3 0) (ix2 r i)) (fun i j => V c (Pipeline.arrRef spec3 1) (ix2 i j))
          (fun i j => Scalar.cmpi .ne (V c (Pipeline.arrRef spec3 2) (ix2 i j)) 0#32)
          (fun j => V c (Pipeline.arrRef spec3 3) (ix2 (0 : Fin 1) j)) r j := by
  rw [final3]
  rfl

end Region

end Cert.KernelIdeal.LayerValue

end
-- ==== Proof.IdealLayer4Value.lean ====
/- Layer 4's output array after its region, index by index on the extended reals: the one piece the body leaves in the
   output block is its arithmetic on the four input blocks; that arithmetic at a row and a unit is a masked layer's
   formula on the block's rows; and the two row blocks, each written back by its own point, tile the array. -/
import proofs.«156066_j47502338294403_1_alg».proof.Proof.IdealLayer4Data
import proofs.«156066_j47502338294403_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.LayerValue

open Cert.KernelIdeal Cert.KernelIdeal.Gen Cert.KernelIdeal.Layers
open Idealize.ShloMosaic Idealize.ShloMosaic.TcCoe Idealize.ShloMosaic.Tactic Idealize.ShloMosaic.ValueIdx
open Idealize.SL.Sem
open Idealize.ShloMosaic.Pipeline (Dat Cfg Window)

theorem zeros2_4 : (![0, 0] : Fin 2 → Nat) = fun _ => 0 := funext fun a => by fin_cases a <;> rfl

section Generic
variable {F : FTy → Type} [FloatOps F]

/-- The one piece the body leaves in the output block is the bias-and-tanh step of the accumulation step of the
    cleared accumulator: every load reads a whole buffer, and each read-back of the accumulator reads the store before it. -/
theorem layerOut4_eq (c : Dev nD) (i : grid4.Coords)
    (arg2 : Memref sig .tc .vmem S512x447 .f32) (harg2 : arg2.IsWhole) (arg3 : Memref sig .tc .vmem S447x147 .f32) (harg3 : arg3.IsWhole)
    (arg4 : Memref sig .tc .vmem S447x147 .i32) (harg4 : arg4.IsWhole) (arg5 : Memref sig .tc .vmem S1x147 .f32) (harg5 : arg5.IsWhole)
    (arg6 : Memref sig .tc .vmem S512x147 .f32) (harg6 : arg6.IsWhole) (arg7 : Memref sig .tc .vmem S512x147 .f32) (harg7 : arg7.IsWhole)
    (hc0 : first4 i) (hc1 : last4 i)
    (x0 : Vec F S512x447 .f32) (x1 : Vec F S447x147 .f32) (x2 : Vec F S447x147 .i32) (x3 : Vec F S1x147 .f32) :
    layerOut4 c i arg2 harg2 arg3 harg3 arg4 harg4 arg5 harg5 arg6 harg6 arg7 harg7 hc0 hc1 x0 x1 x2 x3
      = k4_pay3 (k4_pay2 x0 x2 x1 (k4_pay1 (F := F))) x3 := by
  unfold layerOut4
  rw [View.read_writes_eq_canon _ _ _ (cover4 c i arg2 harg2 arg3 harg3 arg4 harg4 arg5 harg5 arg6 harg6 arg7 harg7 hc0 hc1 x0 x1 x2 x3)]
  unfold layerRun4
  dsimp only
  sl_unfold_words
  rw [View.canon_unit_zero (S := S512x147) zeros2_4]
  simp only [View.readCov_cons_toLoadRect, View.readAt_eq_ld, harg2.read_unread, harg3.read_unread, harg4.read_unread,
    harg5.read_unread, View.ld_unit_zero (S := S512x447) zeros2_4, View.ld_unit_zero (S := S447x147) zeros2_4,
    View.ld_unit_zero (S := S1x147) zeros2_4]

end Generic

/-! ## The body's arithmetic at an index, on the extended reals -/

/-- The cleared accumulator is zero everywhere. -/
theorem pay1_apply4 (y : S512x147.Idx) : k4_pay1 (F := Ideal) y = 0 := by
  unfold k4_pay1
  simp only [shapeCast_self]
  show Ideal.ofBits .f32 0x00000000#32 = 0
  exact Ideal.ofBits_zero_f32

/-- On the contraction's left operand the row is the output's row … -/
theorem lhs_row4 (y : S512x147.Idx) (q : dot_S512x447_S447x147_S512x147_1_0_0_1_n_n.contr.Idx) :
    (dot_S512x447_S447x147_S512x147_1_0_0_1_n_n.lhsIdx y q 0).val = (y 0).val := by
  unfold DotDims.lhsIdx
  rw [dif_neg (show ¬(0 : Fin S512x447.rank) ∈ dot_S512x447_S447x147_S512x147_1_0_0_1_n_n.lhsBatch by decide), dif_pos (show (0 : Fin S512x447.rank) ∈ dot_S512x447_S447x147_S512x147_1_0_0_1_n_n.lhsNonContracting by decide)]
  rfl
/-- … and the column the contraction position; -/
theorem lhs_col4 (y : S512x147.Idx) (q : dot_S512x447_S447x147_S512x147_1_0_0_1_n_n.contr.Idx) :
    (dot_S512x447_S447x147_S512x147_1_0_0_1_n_n.lhsIdx y q 1).val = (q ⟨0, by decide⟩).val :=
  dot_S512x447_S447x147_S512x147_1_0_0_1_n_n.lhsIdx_val_of_single rfl y q
/-- on the right operand the row is the contraction position … -/
theorem rhs_row4 (y : S512x147.Idx) (q : dot_S512x447_S447x147_S512x147_1_0_0_1_n_n.contr.Idx) :
    (dot_S512x447_S447x147_S512x147_1_0_0_1_n_n.rhsIdx y q 0).val = (q ⟨0, by decide⟩).val :=
  dot_S512x447_S447x147_S512x147_1_0_0_1_n_n.rhsIdx_val_of_single rfl y q
/-- … and the column the output's column. -/
theorem rhs_col4 (y : S512x147.Idx) (q : dot_S512x447_S447x147_S512x147_1_0_0_1_n_n.contr.Idx) :
    (dot_S512x447_S447x147_S512x147_1_0_0_1_n_n.rhsIdx y q 1).val = (y 1).val := by
  unfold DotDims.rhsIdx
  rw [dif_neg (show ¬(1 : Fin S447x147.rank) ∈ dot_S512x447_S447x147_S512x147_1_0_0_1_n_n.rhsBatch by decide), dif_pos (show (1 : Fin S447x147.rank) ∈ dot_S512x447_S447x147_S512x147_1_0_0_1_n_n.rhsNonContracting by decide)]
  rfl

/-- The accumulation step at row `p`, unit `j`: the accumulator there plus the sum over the previous layer's width of the
    activation times the weight where the mask word is not zero. The narrowing of both operands is the identity on the
    extended reals, and the product's own accumulator is the zero splat. -/
theorem pay2_apply4 (x0 : Vec Ideal S512x447 .f32) (x2 : Vec Ideal S447x147 .i32) (x1 : Vec Ideal S447x147 .f32)
    (acc : Vec Ideal S512x147 .f32) (p : Fin 512) (j : Fin 147) :
    k4_pay2 x0 x2 x1 acc (ix2 p j)
      = acc (ix2 p j) + ∑ i : Fin 447, x0 (ix2 p i) * (if Scalar.cmpi .ne (x2 (ix2 i j)) 0#32 = 1#1 then x1 (ix2 i j) else 0) := by
  unfold k4_pay2
  simp only [shapeCast_self]
  show acc (ix2 p j) + FloatOps.matmul (F := Ideal) dot_S512x447_S447x147_S512x147_1_0_0_1_n_n none (truncf .bf16 x0 bitsLt_bf16_f32)
      (truncf .bf16 (select (cmpi .ne x2 (constantI S447x147 32 0#32)) x1 (broadcast S447x147 (Scalar.ofBits (F := Ideal) .f32 0x00000000#32))) bitsLt_bf16_f32)
      (constant (F := Ideal) S512x147 .f32 0x00000000#32) (ix2 p j) = _
  rw [Ideal.matmul_constant_zero_apply, ← Equiv.sum_comp (contrEquiv1 dot_S512x447_S447x147_S512x147_1_0_0_1_n_n 447 rfl rfl).symm]
  refine congrArg (acc (ix2 p j) + ·) (Finset.sum_congr rfl fun k _ => ?_)
  have hk := contrEquiv1_symm_val dot_S512x447_S447x147_S512x147_1_0_0_1_n_n 447 rfl rfl k
  have el : dot_S512x447_S447x147_S512x147_1_0_0_1_n_n.lhsIdx (ix2 p j) ((contrEquiv1 dot_S512x447_S447x147_S512x147_1_0_0_1_n_n 447 rfl rfl).symm k) = ix2 p k := funext fun a => Fin.ext (by
    match a with
    | ⟨0, _⟩ => exact lhs_row4 _ _
    | ⟨1, _⟩ => exact (lhs_col4 _ _).trans hk)
  have er : dot_S512x447_S447x147_S512x147_1_0_0_1_n_n.rhsIdx (ix2 p j) ((contrEquiv1 dot_S512x447_S447x147_S512x147_1_0_0_1_n_n 447 rfl rfl).symm k) = ix2 k j := funext fun a => Fin.ext (by
    match a with
    | ⟨0, _⟩ => exact (rhs_row4 _ _).trans hk
    | ⟨1, _⟩ => exact rhs_col4 _ _)
  rw [el, er]
  show x0 (ix2 p k) * (if IntOp.cmpi .ne (x2 (ix2 k j)) 0#32 = 1 then x1 (ix2 k j) else Ideal.ofBits .f32 0x00000000#32) = _
  rw [Ideal.ofBits_zero_f32]
  rfl

/-- The last step at row `p`, unit `j`: the bias row's entry added, through tanh. -/
theorem pay3_apply4 (a : Vec Ideal S512x147 .f32) (b : Vec Ideal S1x147 .f32) (p : Fin 512) (j : Fin 147) :
    k4_pay3 a b (ix2 p j) = Ideal.tanh (a (ix2 p j) + b (ix2 (0 : Fin 1) j)) := by
  unfold k4_pay3
  simp only [shapeCast_self]
  show Ideal.tanh (a (ix2 p j) + broadcastTo S512x147 b broadcasts_S1x147_S512x147 (ix2 p j)) = _
  rw [broadcastTo_apply b broadcasts_S1x147_S512x147 (ix2 p j) (ix2 (0 : Fin 1) j) (fun a => by
    match a with
    | ⟨0, _⟩ => rfl
    | ⟨1, _⟩ => rfl)]

/-- The whole body at row `p`, unit `j`: a masked layer's formula on the block's rows. -/
theorem body_apply4 (x0 : Vec Ideal S512x447 .f32) (x1 : Vec Ideal S447x147 .f32) (x2 : Vec Ideal S447x147 .i32)
    (x3 : Vec Ideal S1x147 .f32) (p : Fin 512) (j : Fin 147) :
    k4_pay3 (k4_pay2 x0 x2 x1 (k4_pay1 (F := Ideal))) x3 (ix2 p j)
      = Ideal.tanh ((∑ i : Fin 447, x0 (ix2 p i) * (if Scalar.cmpi .ne (x2 (ix2 i j)) 0#32 = 1#1 then x1 (ix2 i j) else 0)) + x3 (ix2 (0 : Fin 1) j)) := by
  rw [pay3_apply4, pay2_apply4, pay1_apply4, zero_add]

/-! ## From blocks to the array -/

section Region

variable (V : (c : Dev nD) → (b : Ref sig .tc) → Buf (Elt Ideal) ((c : Thread nD τ).loc b))

/-- The layer's formula as one function of the four arrays the region finds: the activation, the weight, the mask and
    the bias row. -/
def G4 (c : Dev nD) : S1024x147.Idx → Elt Ideal .f32 := fun y =>
  Cert.Spec.layer (fun r i => V c (Pipeline.arrRef spec4 0) (ix2 r i)) (fun i j => V c (Pipeline.arrRef spec4 1) (ix2 i j))
    (fun i j => Scalar.cmpi .ne (V c (Pipeline.arrRef spec4 2) (ix2 i j)) 0#32)
    (fun j => V c (Pipeline.arrRef spec4 3) (ix2 (0 : Fin 1) j)) (y 0) (y 1)

/-- The index maps, decided over the grid: the activation's block moves down the rows with the output's, the weight,
    the mask and the bias row stay, and the output's row block is one of two. -/
theorem idx_facts4 : ∀ t : Fin cfg4.N,
    win4_0.index t (0 : Fin 2) = win4_4.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) ≤ 1 ∧ win4_4.index t (1 : Fin 2) = 0 :=
  (by decide +kernel : ∀ t : Fin grid4.N, _)

/-- Each of the two row blocks is some point's. -/
theorem idx_onto4 : ∀ q : Fin 2, ∃ t : Fin cfg4.N, win4_4.index t (0 : Fin 2) = q.val :=
  (by decide +kernel : ∀ q : Fin 2, ∃ t : Fin grid4.N, win4_4.index t (0 : Fin 2) = q.val)

/-- The array row under row `p` of point `t`'s output block. -/
def rowAt4 (t : Fin cfg4.N) (p : Fin 512) : Fin 1024 :=
  ⟨win4_4.index t (0 : Fin 2) * 512 + p.val, by
    have h := (idx_facts4 t).2.2.2.2.2.2.2.2.1
    have hp := p.isLt
    omega⟩

/-- Where each window's block at point `t` sits in its array: a block's coordinate is the block index times the block
    size plus the coordinate inside the block. -/
theorem emb4_4 (t : Fin cfg4.N) (p : Fin 512) (j : Fin 147) :
    ((cfg4.win 4).blk t).view.emb (ix2 p j) = ix2 (rowAt4 t p) j := by
  obtain ⟨e00, e01, e10, e11, e20, e21, e30, e31, e40, e41⟩ := idx_facts4 t
  funext a; apply Fin.ext
  match a with
  | ⟨0, _⟩ => show win4_4.index t (0 : Fin 2) * 512 + 1 * p.val = win4_4.index t (0 : Fin 2) * 512 + p.val; omega
  | ⟨1, _⟩ => show win4_4.index t (1 : Fin 2) * 147 + 1 * j.val = j.val; omega
theorem emb4_0 (t : Fin cfg4.N) (p : Fin 512) (i : Fin 447) :
    ((cfg4.win 0).blk t).view.emb (ix2 p i) = ix2 (rowAt4 t p) i := by
  obtain ⟨e00, e01, e10, e11, e20, e21, e30, e31, e40, e41⟩ := idx_facts4 t
  funext a; apply Fin.ext
  match a with
  | ⟨0, _⟩ => show win4_0.index t (0 : Fin 2) * 512 + 1 * p.val = win4_4.index t (0 : Fin 2) * 512 + p.val; omega
  | ⟨1, _⟩ => show win4_0.index t (1 : Fin 2) * 447 + 1 * i.val = i.val; omega
theorem emb4_1 (t : Fin cfg4.N) (i : Fin 447) (j : Fin 147) :
    ((cfg4.win 1).blk t).view.emb (ix2 i j) = ix2 i j := by
  obtain ⟨e00, e01, e10, e11, e20, e21, e30, e31, e40, e41⟩ := idx_facts4 t
  funext a; apply Fin.ext
  match a with
  | ⟨0, _⟩ => show win4_1.index t (0 : Fin 2) * 447 + 1 * i.val = i.val; omega
  | ⟨1, _⟩ => show win4_1.index t (1 : Fin 2) * 147 + 1 * j.val = j.val; omega
theorem emb4_2 (t : Fin cfg4.N) (i : Fin 447) (j : Fin 147) :
    ((cfg4.win 2).blk t).view.emb (ix2 i j) = ix2 i j := by
  obtain ⟨e00, e01, e10, e11, e20, e21, e30, e31, e40, e41⟩ := idx_facts4 t
  funext a; apply Fin.ext
  match a with
  | ⟨0, _⟩ => show win4_2.index t (0 : Fin 2) * 447 + 1 * i.val = i.val; omega
  | ⟨1, _⟩ => show win4_2.index t (1 : Fin 2) * 147 + 1 * j.val = j.val; omega
theorem emb4_3 (t : Fin cfg4.N) (j : Fin 147) :
    ((cfg4.win 3).blk t).view.emb (ix2 (0 : Fin 1) j) = ix2 (0 : Fin 1) j := by
  obtain ⟨e00, e01, e10, e11, e20, e21, e30, e31, e40, e41⟩ := idx_facts4 t
  funext a; apply Fin.ext
  match a with
  | ⟨0, _⟩ => show win4_3.index t (0 : Fin 2) * 1 + 1 * 0 = 0; omega
  | ⟨1, _⟩ => show win4_3.index t (1 : Fin 2) * 147 + 1 * j.val = j.val; omega

/-- What point `t` writes back is block `t` of the layer's formula of the arrays as the region finds them. -/
theorem flushed_eq4 (c : Dev nD) (t : Fin cfg4.N) :
    (dat4 (F := Ideal) V c).flushed 4 t = ((cfg4.win 4).blk t).view.read (Elt Ideal) (G4 V c) := by
  show (cfg4.win 4).cut (grid4.coords t) ((dat4 (F := Ideal) V c).after 4 t) = _
  rw [after4_4]
  unfold outAt4
  rw [layerOut4_eq]
  funext y
  obtain ⟨p, j, rfl⟩ : ∃ (p : Fin 512) (j : Fin 147), y = ix2 p j := ⟨y 0, y 1, eq_ix2 y⟩
  show k4_pay3 (k4_pay2 (iblk4 V c 0 t) (iblk4 V c 2 t) (iblk4 V c 1 t) (k4_pay1 (F := Ideal))) (iblk4 V c 3 t) (ix2 p j)
    = G4 V c (((cfg4.win 4).blk t).view.emb (ix2 p j))
  refine (body_apply4 (iblk4 V c 0 t) (iblk4 V c 1 t) (iblk4 V c 2 t) (iblk4 V c 3 t) p j).trans ?_
  rw [emb4_4]
  have h0 : ∀ i : Fin 447, (iblk4 V c 0 t : Vec Ideal S512x447 .f32) (ix2 p i) = V c (Pipeline.arrRef spec4 0) (ix2 (rowAt4 t p) i) :=
    fun i => congrArg (V c (Pipeline.arrRef spec4 0)) (emb4_0 t p i)
  have h1 : ∀ i : Fin 447, (iblk4 V c 1 t : Vec Ideal S447x147 .f32) (ix2 i j) = V c (Pipeline.arrRef spec4 1) (ix2 i j) :=
    fun i => congrArg (V c (Pipeline.arrRef spec4 1)) (emb4_1 t i j)
  have h2 : ∀ i : Fin 447, (iblk4 V c 2 t : Vec Ideal S447x147 .i32) (ix2 i j) = V c (Pipeline.arrRef spec4 2) (ix2 i j) :=
    fun i => congrArg (V c (Pipeline.arrRef spec4 2)) (emb4_2 t i j)
  have h3 : (iblk4 V c 3 t : Vec Ideal S1x147 .f32) (ix2 (0 : Fin 1) j) = V c (Pipeline.arrRef spec4 3) (ix2 (0 : Fin 1) j) :=
    congrArg (V c (Pipeline.arrRef spec4 3)) (emb4_3 t j)
  rw [h3, Finset.sum_congr rfl fun i _ => by rw [h0 i, h1 i, h2 i]]
  rfl

/-- An index of the array is in point `t`'s block iff each coordinate is in the block's range on its axis. -/
theorem mem_blk4 (t : Fin cfg4.N) (i : S1024x147.Idx) :
    i ∈ ((cfg4.win 4).blk t).view.set ↔ ∀ a : Fin 2, win4_4.index t a * S512x147.size a ≤ (i a).val ∧ (i a).val < win4_4.index t a * S512x147.size a + S512x147.size a := by
  show i ∈ ((View.whole main_v73).slice (win4_4.rect t)).set ↔ _
  rw [View.set_slice_whole, Rect.mem_set_unit]
  exact Iff.rfl

/-- Every index of the array is in the block of the point whose row block holds its row. -/
theorem cover_arr4 (i : S1024x147.Idx) : ∃ t : Fin cfg4.N, (cfg4.win 4).flush t = true ∧ i ∈ ((cfg4.win 4).blk t).view.set := by
  have hi0 : (i 0).val < 1024 := (i 0).isLt
  have hi1 : (i 1).val < 147 := (i 1).isLt
  obtain ⟨t, ht⟩ := idx_onto4 ⟨(i 0).val / 512, by omega⟩
  have q0 : win4_4.index t (0 : Fin 2) = (i 0).val / 512 := ht
  obtain ⟨e00, e01, e10, e11, e20, e21, e30, e31, e40, e41⟩ := idx_facts4 t
  refine ⟨t, flush4_4 t, ?_⟩
  rw [mem_blk4]
  intro a
  match a with
  | ⟨0, _⟩ => show win4_4.index t (0 : Fin 2) * 512 ≤ (i 0).val ∧ (i 0).val < win4_4.index t (0 : Fin 2) * 512 + 512; omega
  | ⟨1, _⟩ => show win4_4.index t (1 : Fin 2) * 147 ≤ (i 1).val ∧ (i 1).val < win4_4.index t (1 : Fin 2) * 147 + 147; omega

/-- The output array after the region is the layer's formula of the arrays the region finds. -/
theorem final4 (c : Dev nD) : (dat4 (F := Ideal) V c).arrAt 4 cfg4.N = G4 V c :=
  (dat4 (F := Ideal) V c).arrAt_eq_of_cover 4 (G4 V c) (fun t _ => flushed_eq4 V c t) cover_arr4

/-- The output array after the region, row `r`, unit `j`: a masked layer of the activation, the weight, the mask (a unit
    where the mask word is not zero) and the bias row as the region finds them. -/
theorem layer4_value (c : Dev nD) (r : Fin 1024) (j : Fin 147) :
    (dat4 (F := Ideal) V c).arrAt 4 cfg4.N (ix2 r j)
      = Cert.Spec.layer (fun r i => V c (Pipeline.arrRef spec4 0) (ix2 r i)) (fun i j => V c (Pipeline.arrRef spec4 1) (ix2 i j))
          (fun i j => Scalar.cmpi .ne (V c (Pipeline.arrRef spec4 2) (ix2 i j)) 0#32)
          (fun j => V c (Pipeline.arrRef spec4 3) (ix2 (0 : Fin 1) j)) r j := by
  rw [final4]
  rfl

end Region

end Cert.KernelIdeal.LayerValue

end
-- ==== Proof.IdealLayer5Value.lean ====
/- Layer 5's output array after its region, index by index on the extended reals: the one piece the body leaves in the
   output block is its arithmetic on the four input blocks; that arithmetic at a row and a unit is a masked layer's
   formula on the block's rows; and the two row blocks, each written back by its own point, tile the array. -/
import proofs.«156066_j47502338294403_1_alg».proof.Proof.IdealLayer5Data
import proofs.«156066_j47502338294403_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.LayerValue

open Cert.KernelIdeal Cert.KernelIdeal.Gen Cert.KernelIdeal.Layers
open Idealize.ShloMosaic Idealize.ShloMosaic.TcCoe Idealize.ShloMosaic.Tactic Idealize.ShloMosaic.ValueIdx
open Idealize.SL.Sem
open Idealize.ShloMosaic.Pipeline (Dat Cfg Window)

theorem zeros2_5 : (![0, 0] : Fin 2 → Nat) = fun _ => 0 := funext fun a => by fin_cases a <;> rfl

section Generic
variable {F : FTy → Type} [FloatOps F]

/-- The one piece the body leaves in the output block is the bias-and-tanh step of the accumulation step of the
    cleared accumulator: every load reads a whole buffer, and each read-back of the accumulator reads the store before it. -/
theorem layerOut5_eq (c : Dev nD) (i : grid5.Coords)
    (arg2 : Memref sig .tc .vmem S512x147 .f32) (harg2 : arg2.IsWhole) (arg3 : Memref sig .tc .vmem S147x26 .f32) (harg3 : arg3.IsWhole)
    (arg4 : Memref sig .tc .vmem S147x26 .i32) (harg4 : arg4.IsWhole) (arg5 : Memref sig .tc .vmem S1x26 .f32) (harg5 : arg5.IsWhole)
    (arg6 : Memref sig .tc .vmem S512x26 .f32) (harg6 : arg6.IsWhole) (arg7 : Memref sig .tc .vmem S512x26 .f32) (harg7 : arg7.IsWhole)
    (hc0 : first5 i) (hc1 : last5 i)
    (x0 : Vec F S512x147 .f32) (x1 : Vec F S147x26 .f32) (x2 : Vec F S147x26 .i32) (x3 : Vec F S1x26 .f32) :
    layerOut5 c i arg2 harg2 arg3 harg3 arg4 harg4 arg5 harg5 arg6 harg6 arg7 harg7 hc0 hc1 x0 x1 x2 x3
      = k5_pay3 (k5_pay2 x0 x2 x1 (k5_pay1 (F := F))) x3 := by
  unfold layerOut5
  rw [View.read_writes_eq_canon _ _ _ (cover5 c i arg2 harg2 arg3 harg3 arg4 harg4 arg5 harg5 arg6 harg6 arg7 harg7 hc0 hc1 x0 x1 x2 x3)]
  unfold layerRun5
  dsimp only
  sl_unfold_words
  rw [View.canon_unit_zero (S := S512x26) zeros2_5]
  simp only [View.readCov_cons_toLoadRect, View.readAt_eq_ld, harg2.read_unread, harg3.read_unread, harg4.read_unread,
    harg5.read_unread, View.ld_unit_zero (S := S512x147) zeros2_5, View.ld_unit_zero (S := S147x26) zeros2_5,
    View.ld_unit_zero (S := S1x26) zeros2_5]

end Generic

/-! ## The body's arithmetic at an index, on the extended reals -/

/-- The cleared accumulator is zero everywhere. -/
theorem pay1_apply5 (y : S512x26.Idx) : k5_pay1 (F := Ideal) y = 0 := by
  unfold k5_pay1
  simp only [shapeCast_self]
  show Ideal.ofBits .f32 0x00000000#32 = 0
  exact Ideal.ofBits_zero_f32

/-- On the contraction's left operand the row is the output's row … -/
theorem lhs_row5 (y : S512x26.Idx) (q : dot_S512x147_S147x26_S512x26_1_0_0_1_n_n.contr.Idx) :
    (dot_S512x147_S147x26_S512x26_1_0_0_1_n_n.lhsIdx y q 0).val = (y 0).val := by
  unfold DotDims.lhsIdx
  rw [dif_neg (show ¬(0 : Fin S512x147.rank) ∈ dot_S512x147_S147x26_S512x26_1_0_0_1_n_n.lhsBatch by decide), dif_pos (show (0 : Fin S512x147.rank) ∈ dot_S512x147_S147x26_S512x26_1_0_0_1_n_n.lhsNonContracting by decide)]
  rfl
/-- … and the column the contraction position; -/
theorem lhs_col5 (y : S512x26.Idx) (q : dot_S512x147_S147x26_S512x26_1_0_0_1_n_n.contr.Idx) :
    (dot_S512x147_S147x26_S512x26_1_0_0_1_n_n.lhsIdx y q 1).val = (q ⟨0, by decide⟩).val :=
  dot_S512x147_S147x26_S512x26_1_0_0_1_n_n.lhsIdx_val_of_single rfl y q
/-- on the right operand the row is the contraction position … -/
theorem rhs_row5 (y : S512x26.Idx) (q : dot_S512x147_S147x26_S512x26_1_0_0_1_n_n.contr.Idx) :
    (dot_S512x147_S147x26_S512x26_1_0_0_1_n_n.rhsIdx y q 0).val = (q ⟨0, by decide⟩).val :=
  dot_S512x147_S147x26_S512x26_1_0_0_1_n_n.rhsIdx_val_of_single rfl y q
/-- … and the column the output's column. -/
theorem rhs_col5 (y : S512x26.Idx) (q : dot_S512x147_S147x26_S512x26_1_0_0_1_n_n.contr.Idx) :
    (dot_S512x147_S147x26_S512x26_1_0_0_1_n_n.rhsIdx y q 1).val = (y 1).val := by
  unfold DotDims.rhsIdx
  rw [dif_neg (show ¬(1 : Fin S147x26.rank) ∈ dot_S512x147_S147x26_S512x26_1_0_0_1_n_n.rhsBatch by decide), dif_pos (show (1 : Fin S147x26.rank) ∈ dot_S512x147_S147x26_S512x26_1_0_0_1_n_n.rhsNonContracting by decide)]
  rfl

/-- The accumulation step at row `p`, unit `j`: the accumulator there plus the sum over the previous layer's width of the
    activation times the weight where the mask word is not zero. The narrowing of both operands is the identity on the
    extended reals, and the product's own accumulator is the zero splat. -/
theorem pay2_apply5 (x0 : Vec Ideal S512x147 .f32) (x2 : Vec Ideal S147x26 .i32) (x1 : Vec Ideal S147x26 .f32)
    (acc : Vec Ideal S512x26 .f32) (p : Fin 512) (j : Fin 26) :
    k5_pay2 x0 x2 x1 acc (ix2 p j)
      = acc (ix2 p j) + ∑ i : Fin 147, x0 (ix2 p i) * (if Scalar.cmpi .ne (x2 (ix2 i j)) 0#32 = 1#1 then x1 (ix2 i j) else 0) := by
  unfold k5_pay2
  simp only [shapeCast_self]
  show acc (ix2 p j) + FloatOps.matmul (F := Ideal) dot_S512x147_S147x26_S512x26_1_0_0_1_n_n none (truncf .bf16 x0 bitsLt_bf16_f32)
      (truncf .bf16 (select (cmpi .ne x2 (constantI S147x26 32 0#32)) x1 (broadcast S147x26 (Scalar.ofBits (F := Ideal) .f32 0x00000000#32))) bitsLt_bf16_f32)
      (constant (F := Ideal) S512x26 .f32 0x00000000#32) (ix2 p j) = _
  rw [Ideal.matmul_constant_zero_apply, ← Equiv.sum_comp (contrEquiv1 dot_S512x147_S147x26_S512x26_1_0_0_1_n_n 147 rfl rfl).symm]
  refine congrArg (acc (ix2 p j) + ·) (Finset.sum_congr rfl fun k _ => ?_)
  have hk := contrEquiv1_symm_val dot_S512x147_S147x26_S512x26_1_0_0_1_n_n 147 rfl rfl k
  have el : dot_S512x147_S147x26_S512x26_1_0_0_1_n_n.lhsIdx (ix2 p j) ((contrEquiv1 dot_S512x147_S147x26_S512x26_1_0_0_1_n_n 147 rfl rfl).symm k) = ix2 p k := funext fun a => Fin.ext (by
    match a with
    | ⟨0, _⟩ => exact lhs_row5 _ _
    | ⟨1, _⟩ => exact (lhs_col5 _ _).trans hk)
  have er : dot_S512x147_S147x26_S512x26_1_0_0_1_n_n.rhsIdx (ix2 p j) ((contrEquiv1 dot_S512x147_S147x26_S512x26_1_0_0_1_n_n 147 rfl rfl).symm k) = ix2 k j := funext fun a => Fin.ext (by
    match a with
    | ⟨0, _⟩ => exact (rhs_row5 _ _).trans hk
    | ⟨1, _⟩ => exact rhs_col5 _ _)
  rw [el, er]
  show x0 (ix2 p k) * (if IntOp.cmpi .ne (x2 (ix2 k j)) 0#32 = 1 then x1 (ix2 k j) else Ideal.ofBits .f32 0x00000000#32) = _
  rw [Ideal.ofBits_zero_f32]
  rfl

/-- The last step at row `p`, unit `j`: the bias row's entry added, through tanh. -/
theorem pay3_apply5 (a : Vec Ideal S512x26 .f32) (b : Vec Ideal S1x26 .f32) (p : Fin 512) (j : Fin 26) :
    k5_pay3 a b (ix2 p j) = Ideal.tanh (a (ix2 p j) + b (ix2 (0 : Fin 1) j)) := by
  unfold k5_pay3
  simp only [shapeCast_self]
  show Ideal.tanh (a (ix2 p j) + broadcastTo S512x26 b broadcasts_S1x26_S512x26 (ix2 p j)) = _
  rw [broadcastTo_apply b broadcasts_S1x26_S512x26 (ix2 p j) (ix2 (0 : Fin 1) j) (fun a => by
    match a with
    | ⟨0, _⟩ => rfl
    | ⟨1, _⟩ => rfl)]

/-- The whole body at row `p`, unit `j`: a masked layer's formula on the block's rows. -/
theorem body_apply5 (x0 : Vec Ideal S512x147 .f32) (x1 : Vec Ideal S147x26 .f32) (x2 : Vec Ideal S147x26 .i32)
    (x3 : Vec Ideal S1x26 .f32) (p : Fin 512) (j : Fin 26) :
    k5_pay3 (k5_pay2 x0 x2 x1 (k5_pay1 (F := Ideal))) x3 (ix2 p j)
      = Ideal.tanh ((∑ i : Fin 147, x0 (ix2 p i) * (if Scalar.cmpi .ne (x2 (ix2 i j)) 0#32 = 1#1 then x1 (ix2 i j) else 0)) + x3 (ix2 (0 : Fin 1) j)) := by
  rw [pay3_apply5, pay2_apply5, pay1_apply5, zero_add]

/-! ## From blocks to the array -/

section Region

variable (V : (c : Dev nD) → (b : Ref sig .tc) → Buf (Elt Ideal) ((c : Thread nD τ).loc b))

/-- The layer's formula as one function of the four arrays the region finds: the activation, the weight, the mask and
    the bias row. -/
def G5 (c : Dev nD) : S1024x26.Idx → Elt Ideal .f32 := fun y =>
  Cert.Spec.layer (fun r i => V c (Pipeline.arrRef spec5 0) (ix2 r i)) (fun i j => V c (Pipeline.arrRef spec5 1) (ix2 i j))
    (fun i j => Scalar.cmpi .ne (V c (Pipeline.arrRef spec5 2) (ix2 i j)) 0#32)
    (fun j => V c (Pipeline.arrRef spec5 3) (ix2 (0 : Fin 1) j)) (y 0) (y 1)

/-- The index maps, decided over the grid: the activation's block moves down the rows with the output's, the weight,
    the mask and the bias row stay, and the output's row block is one of two. -/
theorem idx_facts5 : ∀ t : Fin cfg5.N,
    win5_0.index t (0 : Fin 2) = win5_4.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) ≤ 1 ∧ win5_4.index t (1 : Fin 2) = 0 :=
  (by decide +kernel : ∀ t : Fin grid5.N, _)

/-- Each of the two row blocks is some point's. -/
theorem idx_onto5 : ∀ q : Fin 2, ∃ t : Fin cfg5.N, win5_4.index t (0 : Fin 2) = q.val :=
  (by decide +kernel : ∀ q : Fin 2, ∃ t : Fin grid5.N, win5_4.index t (0 : Fin 2) = q.val)

/-- The array row under row `p` of point `t`'s output block. -/
def rowAt5 (t : Fin cfg5.N) (p : Fin 512) : Fin 1024 :=
  ⟨win5_4.index t (0 : Fin 2) * 512 + p.val, by
    have h := (idx_facts5 t).2.2.2.2.2.2.2.2.1
    have hp := p.isLt
    omega⟩

/-- Where each window's block at point `t` sits in its array: a block's coordinate is the block index times the block
    size plus the coordinate inside the block. -/
theorem emb5_4 (t : Fin cfg5.N) (p : Fin 512) (j : Fin 26) :
    ((cfg5.win 4).blk t).view.emb (ix2 p j) = ix2 (rowAt5 t p) j := by
  obtain ⟨e00, e01, e10, e11, e20, e21, e30, e31, e40, e41⟩ := idx_facts5 t
  funext a; apply Fin.ext
  match a with
  | ⟨0, _⟩ => show win5_4.index t (0 : Fin 2) * 512 + 1 * p.val = win5_4.index t (0 : Fin 2) * 512 + p.val; omega
  | ⟨1, _⟩ => show win5_4.index t (1 : Fin 2) * 26 + 1 * j.val = j.val; omega
theorem emb5_0 (t : Fin cfg5.N) (p : Fin 512) (i : Fin 147) :
    ((cfg5.win 0).blk t).view.emb (ix2 p i) = ix2 (rowAt5 t p) i := by
  obtain ⟨e00, e01, e10, e11, e20, e21, e30, e31, e40, e41⟩ := idx_facts5 t
  funext a; apply Fin.ext
  match a with
  | ⟨0, _⟩ => show win5_0.index t (0 : Fin 2) * 512 + 1 * p.val = win5_4.index t (0 : Fin 2) * 512 + p.val; omega
  | ⟨1, _⟩ => show win5_0.index t (1 : Fin 2) * 147 + 1 * i.val = i.val; omega
theorem emb5_1 (t : Fin cfg5.N) (i : Fin 147) (j : Fin 26) :
    ((cfg5.win 1).blk t).view.emb (ix2 i j) = ix2 i j := by
  obtain ⟨e00, e01, e10, e11, e20, e21, e30, e31, e40, e41⟩ := idx_facts5 t
  funext a; apply Fin.ext
  match a with
  | ⟨0, _⟩ => show win5_1.index t (0 : Fin 2) * 147 + 1 * i.val = i.val; omega
  | ⟨1, _⟩ => show win5_1.index t (1 : Fin 2) * 26 + 1 * j.val = j.val; omega
theorem emb5_2 (t : Fin cfg5.N) (i : Fin 147) (j : Fin 26) :
    ((cfg5.win 2).blk t).view.emb (ix2 i j) = ix2 i j := by
  obtain ⟨e00, e01, e10, e11, e20, e21, e30, e31, e40, e41⟩ := idx_facts5 t
  funext a; apply Fin.ext
  match a with
  | ⟨0, _⟩ => show win5_2.index t (0 : Fin 2) * 147 + 1 * i.val = i.val; omega
  | ⟨1, _⟩ => show win5_2.index t (1 : Fin 2) * 26 + 1 * j.val = j.val; omega
theorem emb5_3 (t : Fin cfg5.N) (j : Fin 26) :
    ((cfg5.win 3).blk t).view.emb (ix2 (0 : Fin 1) j) = ix2 (0 : Fin 1) j := by
  obtain ⟨e00, e01, e10, e11, e20, e21, e30, e31, e40, e41⟩ := idx_facts5 t
  funext a; apply Fin.ext
  match a with
  | ⟨0, _⟩ => show win5_3.index t (0 : Fin 2) * 1 + 1 * 0 = 0; omega
  | ⟨1, _⟩ => show win5_3.index t (1 : Fin 2) * 26 + 1 * j.val = j.val; omega

/-- What point `t` writes back is block `t` of the layer's formula of the arrays as the region finds them. -/
theorem flushed_eq5 (c : Dev nD) (t : Fin cfg5.N) :
    (dat5 (F := Ideal) V c).flushed 4 t = ((cfg5.win 4).blk t).view.read (Elt Ideal) (G5 V c) := by
  show (cfg5.win 4).cut (grid5.coords t) ((dat5 (F := Ideal) V c).after 4 t) = _
  rw [after5_4]
  unfold outAt5
  rw [layerOut5_eq]
  funext y
  obtain ⟨p, j, rfl⟩ : ∃ (p : Fin 512) (j : Fin 26), y = ix2 p j := ⟨y 0, y 1, eq_ix2 y⟩
  show k5_pay3 (k5_pay2 (iblk5 V c 0 t) (iblk5 V c 2 t) (iblk5 V c 1 t) (k5_pay1 (F := Ideal))) (iblk5 V c 3 t) (ix2 p j)
    = G5 V c (((cfg5.win 4).blk t).view.emb (ix2 p j))
  refine (body_apply5 (iblk5 V c 0 t) (iblk5 V c 1 t) (iblk5 V c 2 t) (iblk5 V c 3 t) p j).trans ?_
  rw [emb5_4]
  have h0 : ∀ i : Fin 147, (iblk5 V c 0 t : Vec Ideal S512x147 .f32) (ix2 p i) = V c (Pipeline.arrRef spec5 0) (ix2 (rowAt5 t p) i) :=
    fun i => congrArg (V c (Pipeline.arrRef spec5 0)) (emb5_0 t p i)
  have h1 : ∀ i : Fin 147, (iblk5 V c 1 t : Vec Ideal S147x26 .f32) (ix2 i j) = V c (Pipeline.arrRef spec5 1) (ix2 i j) :=
    fun i => congrArg (V c (Pipeline.arrRef spec5 1)) (emb5_1 t i j)
  have h2 : ∀ i : Fin 147, (iblk5 V c 2 t : Vec Ideal S147x26 .i32) (ix2 i j) = V c (Pipeline.arrRef spec5 2) (ix2 i j) :=
    fun i => congrArg (V c (Pipeline.arrRef spec5 2)) (emb5_2 t i j)
  have h3 : (iblk5 V c 3 t : Vec Ideal S1x26 .f32) (ix2 (0 : Fin 1) j) = V c (Pipeline.arrRef spec5 3) (ix2 (0 : Fin 1) j) :=
    congrArg (V c (Pipeline.arrRef spec5 3)) (emb5_3 t j)
  rw [h3, Finset.sum_congr rfl fun i _ => by rw [h0 i, h1 i, h2 i]]
  rfl

/-- An index of the array is in point `t`'s block iff each coordinate is in the block's range on its axis. -/
theorem mem_blk5 (t : Fin cfg5.N) (i : S1024x26.Idx) :
    i ∈ ((cfg5.win 4).blk t).view.set ↔ ∀ a : Fin 2, win5_4.index t a * S512x26.size a ≤ (i a).val ∧ (i a).val < win5_4.index t a * S512x26.size a + S512x26.size a := by
  show i ∈ ((View.whole main_v86).slice (win5_4.rect t)).set ↔ _
  rw [View.set_slice_whole, Rect.mem_set_unit]
  exact Iff.rfl

/-- Every index of the array is in the block of the point whose row block holds its row. -/
theorem cover_arr5 (i : S1024x26.Idx) : ∃ t : Fin cfg5.N, (cfg5.win 4).flush t = true ∧ i ∈ ((cfg5.win 4).blk t).view.set := by
  have hi0 : (i 0).val < 1024 := (i 0).isLt
  have hi1 : (i 1).val < 26 := (i 1).isLt
  obtain ⟨t, ht⟩ := idx_onto5 ⟨(i 0).val / 512, by omega⟩
  have q0 : win5_4.index t (0 : Fin 2) = (i 0).val / 512 := ht
  obtain ⟨e00, e01, e10, e11, e20, e21, e30, e31, e40, e41⟩ := idx_facts5 t
  refine ⟨t, flush5_4 t, ?_⟩
  rw [mem_blk5]
  intro a
  match a with
  | ⟨0, _⟩ => show win5_4.index t (0 : Fin 2) * 512 ≤ (i 0).val ∧ (i 0).val < win5_4.index t (0 : Fin 2) * 512 + 512; omega
  | ⟨1, _⟩ => show win5_4.index t (1 : Fin 2) * 26 ≤ (i 1).val ∧ (i 1).val < win5_4.index t (1 : Fin 2) * 26 + 26; omega

/-- The output array after the region is the layer's formula of the arrays the region finds. -/
theorem final5 (c : Dev nD) : (dat5 (F := Ideal) V c).arrAt 4 cfg5.N = G5 V c :=
  (dat5 (F := Ideal) V c).arrAt_eq_of_cover 4 (G5 V c) (fun t _ => flushed_eq5 V c t) cover_arr5

/-- The output array after the region, row `r`, unit `j`: a masked layer of the activation, the weight, the mask (a unit
    where the mask word is not zero) and the bias row as the region finds them. -/
theorem layer5_value (c : Dev nD) (r : Fin 1024) (j : Fin 26) :
    (dat5 (F := Ideal) V c).arrAt 4 cfg5.N (ix2 r j)
      = Cert.Spec.layer (fun r i => V c (Pipeline.arrRef spec5 0) (ix2 r i)) (fun i j => V c (Pipeline.arrRef spec5 1) (ix2 i j))
          (fun i j => Scalar.cmpi .ne (V c (Pipeline.arrRef spec5 2) (ix2 i j)) 0#32)
          (fun j => V c (Pipeline.arrRef spec5 3) (ix2 (0 : Fin 1) j)) r j := by
  rw [final5]
  rfl

end Region

end Cert.KernelIdeal.LayerValue

end
-- ==== Proof.IdealGlue.lean ====
/- The kernel's result, read back through its host operations to the network's arguments.  Each masked layer's region
   finds the activation before it (carried unchanged over the host stretch that computes that activation's head), its own
   weight argument, its mask argument widened to a word (not zero exactly where the mask is set) and its bias argument as
   a row; each head is a stretch of host operations applied to the activation of its layer; and the result is the six
   heads side by side, the first five carried unchanged from the stretches that computed them. -/
import proofs.«156066_j47502338294403_1_alg».proof.Proof.IdealGlueAct01
import proofs.«156066_j47502338294403_1_alg».proof.Proof.IdealHeads
import proofs.«156066_j47502338294403_1_alg».proof.Proof.IdealLayer2Value
import proofs.«156066_j47502338294403_1_alg».proof.Proof.IdealLayer3Value
import proofs.«156066_j47502338294403_1_alg».proof.Proof.IdealLayer4Value
import proofs.«156066_j47502338294403_1_alg».proof.Proof.IdealLayer5Value
import Idealize.ShloMosaic.Lib.StableHlo.Run
import Idealize.ShloMosaic.Lib.Pipeline.Value
import Idealize.ShloMosaic.Lib.ValueIdx

set_option maxRecDepth 16384
set_option maxHeartbeats 1600000

noncomputable section

namespace Cert.KernelIdeal.LayerValue

open Cert.KernelIdeal Cert.KernelIdeal.Gen Cert.KernelIdeal.Layers
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)

/-- Activation 2: layer 2's output array after its region, of the network's arguments. -/
theorem act2_at (r : Fin 1024) (j : Fin 1066) :
    B12 m ρ c (Proc.devRef .tc main_v47) (ix2 r j) = Cert.Spec.act2 (kerArgs m c) r j := by
  have harr : B12 m ρ c (Proc.devRef .tc main_v47) = (dat2 (F := Ideal) (T11 m ρ) c).arrAt 4 cfg2.N := B12_arr m ρ c 4
  rw [harr, layer2_value (T11 m ρ) c r j]
  have ha : (fun (r : Fin 1024) (i : Fin 1387) => T11 m ρ c (Pipeline.arrRef spec2 0) (ix2 r i)) = Cert.Spec.act1 (kerArgs m c) :=
    funext fun r => funext fun i => (congrFun ((StableHlo.after_of_writes_sub hostOps2 _ hostOps2_writes (by decide : main_v34 ∉ hostOps2_W))) (ix2 r i)).trans (act1_at m ρ c r i)
  have hW : (fun (i : Fin 1387) (j : Fin 1066) => T11 m ρ c (Pipeline.arrRef spec2 1) (ix2 i j)) = (kerArgs m c).W2 :=
    funext fun i => funext fun j => congrFun ((StableHlo.after_of_writes_sub hostOps2 _ hostOps2_writes (by decide : main_arg5 ∉ hostOps2_W)).trans <| (B10_of_ne m ρ c main_arg5 (by decide)).trans <| (StableHlo.after_of_writes_sub hostOps1_6 _ hostOps1_6_writes (by decide : main_arg5 ∉ hostOps1_6_W)).trans <| (StableHlo.after_of_writes_sub hostOps1_5 _ hostOps1_5_writes (by decide : main_arg5 ∉ hostOps1_5_W)).trans <| (StableHlo.after_of_writes_sub hostOps1_4 _ hostOps1_4_writes (by decide : main_arg5 ∉ hostOps1_4_W)).trans <| (StableHlo.after_of_writes_sub hostOps1_3 _ hostOps1_3_writes (by decide : main_arg5 ∉ hostOps1_3_W)).trans <| (StableHlo.after_of_writes_sub hostOps1_2 _ hostOps1_2_writes (by decide : main_arg5 ∉ hostOps1_2_W)).trans <| (StableHlo.after_of_writes_sub hostOps1_1 _ hostOps1_1_writes (by decide : main_arg5 ∉ hostOps1_1_W)).trans <| (StableHlo.after_of_writes_sub hostOps1 _ hostOps1_writes (by decide : main_arg5 ∉ hostOps1_W)).trans <| (B2_of_ne m ρ c main_arg5 (by decide)).trans <| (StableHlo.after_of_writes_sub hostOps0 _ hostOps0_writes (by decide : main_arg5 ∉ hostOps0_W)).trans <| rfl) (ix2 i j)
  have hm : (fun (i : Fin 1387) (j : Fin 1066) => Scalar.cmpi .ne (T11 m ρ c (Pipeline.arrRef spec2 2) (ix2 i j)) 0#32) = (kerArgs m c).m2 :=
    funext fun i => funext fun j => by
      have e : B11 m ρ c (Proc.devRef .tc main_v46) = extui 32 (B10 m ρ c (Proc.devRef .tc main_arg26)) natLt_1_32 := by
        show StableHlo.after hostOps2 (B10 m ρ c) (Proc.devRef .tc main_v46) = _
        after_results <;> rfl
      show Scalar.cmpi .ne (B11 m ρ c (Proc.devRef .tc main_v46) (ix2 i j)) 0#32 = _
      rw [e, Cert.KernelIdeal.HostReads.extui_read, Cert.KernelIdeal.HostReads.cmpi_ne_setWidth]
      exact congrFun ((B10_of_ne m ρ c main_arg26 (by decide)).trans <| (StableHlo.after_of_writes_sub hostOps1_6 _ hostOps1_6_writes (by decide : main_arg26 ∉ hostOps1_6_W)).trans <| (StableHlo.after_of_writes_sub hostOps1_5 _ hostOps1_5_writes (by decide : main_arg26 ∉ hostOps1_5_W)).trans <| (StableHlo.after_of_writes_sub hostOps1_4 _ hostOps1_4_writes (by decide : main_arg26 ∉ hostOps1_4_W)).trans <| (StableHlo.after_of_writes_sub hostOps1_3 _ hostOps1_3_writes (by decide : main_arg26 ∉ hostOps1_3_W)).trans <| (StableHlo.after_of_writes_sub hostOps1_2 _ hostOps1_2_writes (by decide : main_arg26 ∉ hostOps1_2_W)).trans <| (StableHlo.after_of_writes_sub hostOps1_1 _ hostOps1_1_writes (by decide : main_arg26 ∉ hostOps1_1_W)).trans <| (StableHlo.after_of_writes_sub hostOps1 _ hostOps1_writes (by decide : main_arg26 ∉ hostOps1_W)).trans <| (B2_of_ne m ρ c main_arg26 (by decide)).trans <| (StableHlo.after_of_writes_sub hostOps0 _ hostOps0_writes (by decide : main_arg26 ∉ hostOps0_W)).trans <| rfl) (ix2 i j)
  have hb : (fun (j : Fin 1066) => T11 m ρ c (Pipeline.arrRef spec2 3) (ix2 (0 : Fin 1) j)) = (kerArgs m c).b2 :=
    funext fun j => by
      have e : B11 m ρ c (Proc.devRef .tc main_v45) = shapeCast S1x1066 (B10 m ρ c (Proc.devRef .tc main_arg6)) shapeCasts_S1066_S1x1066 := by
        show StableHlo.after hostOps2 (B10 m ρ c) (Proc.devRef .tc main_v45) = _
        after_results <;> rfl
      show B11 m ρ c (Proc.devRef .tc main_v45) (ix2 (0 : Fin 1) j) = _
      rw [e, Cert.KernelIdeal.HostReads.bias_row1066]
      exact congrFun ((B10_of_ne m ρ c main_arg6 (by decide)).trans <| (StableHlo.after_of_writes_sub hostOps1_6 _ hostOps1_6_writes (by decide : main_arg6 ∉ hostOps1_6_W)).trans <| (StableHlo.after_of_writes_sub hostOps1_5 _ hostOps1_5_writes (by decide : main_arg6 ∉ hostOps1_5_W)).trans <| (StableHlo.after_of_writes_sub hostOps1_4 _ hostOps1_4_writes (by decide : main_arg6 ∉ hostOps1_4_W)).trans <| (StableHlo.after_of_writes_sub hostOps1_3 _ hostOps1_3_writes (by decide : main_arg6 ∉ hostOps1_3_W)).trans <| (StableHlo.after_of_writes_sub hostOps1_2 _ hostOps1_2_writes (by decide : main_arg6 ∉ hostOps1_2_W)).trans <| (StableHlo.after_of_writes_sub hostOps1_1 _ hostOps1_1_writes (by decide : main_arg6 ∉ hostOps1_1_W)).trans <| (StableHlo.after_of_writes_sub hostOps1 _ hostOps1_writes (by decide : main_arg6 ∉ hostOps1_W)).trans <| (B2_of_ne m ρ c main_arg6 (by decide)).trans <| (StableHlo.after_of_writes_sub hostOps0 _ hostOps0_writes (by decide : main_arg6 ∉ hostOps0_W)).trans <| rfl) (ix1 j)
  rw [ha, hW, hm, hb]
  rfl

/-- Activation 3: layer 3's output array after its region, of the network's arguments. -/
theorem act3_at (r : Fin 1024) (j : Fin 447) :
    B14 m ρ c (Proc.devRef .tc main_v60) (ix2 r j) = Cert.Spec.act3 (kerArgs m c) r j := by
  have harr : B14 m ρ c (Proc.devRef .tc main_v60) = (dat3 (F := Ideal) (T13 m ρ) c).arrAt 4 cfg3.N := B14_arr m ρ c 4
  rw [harr, layer3_value (T13 m ρ) c r j]
  have ha : (fun (r : Fin 1024) (i : Fin 1066) => T13 m ρ c (Pipeline.arrRef spec3 0) (ix2 r i)) = Cert.Spec.act2 (kerArgs m c) :=
    funext fun r => funext fun i => (congrFun ((StableHlo.after_of_writes_sub hostOps3 _ hostOps3_writes (by decide : main_v47 ∉ hostOps3_W))) (ix2 r i)).trans (act2_at m ρ c r i)
  have hW : (fun (i : Fin 1066) (j : Fin 447) => T13 m ρ c (Pipeline.arrRef spec3 1) (ix2 i j)) = (kerArgs m c).W3 :=
    funext fun i => funext fun j => congrFun ((StableHlo.after_of_writes_sub hostOps3 _ hostOps3_writes (by decide : main_arg7 ∉ hostOps3_W)).trans <| (B12_of_ne m ρ c main_arg7 (by decide)).trans <| (StableHlo.after_of_writes_sub hostOps2 _ hostOps2_writes (by decide : main_arg7 ∉ hostOps2_W)).trans <| (B10_of_ne m ρ c main_arg7 (by decide)).trans <| (StableHlo.after_of_writes_sub hostOps1_6 _ hostOps1_6_writes (by decide : main_arg7 ∉ hostOps1_6_W)).trans <| (StableHlo.after_of_writes_sub hostOps1_5 _ hostOps1_5_writes (by decide : main_arg7 ∉ hostOps1_5_W)).trans <| (StableHlo.after_of_writes_sub hostOps1_4 _ hostOps1_4_writes (by decide : main_arg7 ∉ hostOps1_4_W)).trans <| (StableHlo.after_of_writes_sub hostOps1_3 _ hostOps1_3_writes (by decide : main_arg7 ∉ hostOps1_3_W)).trans <| (StableHlo.after_of_writes_sub hostOps1_2 _ hostOps1_2_writes (by decide : main_arg7 ∉ hostOps1_2_W)).trans <| (StableHlo.after_of_writes_sub hostOps1_1 _ hostOps1_1_writes (by decide : main_arg7 ∉ hostOps1_1_W)).trans <| (StableHlo.after_of_writes_sub hostOps1 _ hostOps1_writes (by decide : main_arg7 ∉ hostOps1_W)).trans <| (B2_of_ne m ρ c main_arg7 (by decide)).trans <| (StableHlo.after_of_writes_sub hostOps0 _ hostOps0_writes (by decide : main_arg7 ∉ hostOps0_W)).trans <| rfl) (ix2 i j)
  have hm : (fun (i : Fin 1066) (j : Fin 447) => Scalar.cmpi .ne (T13 m ρ c (Pipeline.arrRef spec3 2) (ix2 i j)) 0#32) = (kerArgs m c).m3 :=
    funext fun i => funext fun j => by
      have e : B13 m ρ c (Proc.devRef .tc main_v59) = extui 32 (B12 m ρ c (Proc.devRef .tc main_arg27)) natLt_1_32 := by
        show StableHlo.after hostOps3 (B12 m ρ c) (Proc.devRef .tc main_v59) = _
        after_results <;> rfl
      show Scalar.cmpi .ne (B13 m ρ c (Proc.devRef .tc main_v59) (ix2 i j)) 0#32 = _
      rw [e, Cert.KernelIdeal.HostReads.extui_read, Cert.KernelIdeal.HostReads.cmpi_ne_setWidth]
      exact congrFun ((B12_of_ne m ρ c main_arg27 (by decide)).trans <| (StableHlo.after_of_writes_sub hostOps2 _ hostOps2_writes (by decide : main_arg27 ∉ hostOps2_W)).trans <| (B10_of_ne m ρ c main_arg27 (by decide)).trans <| (StableHlo.after_of_writes_sub hostOps1_6 _ hostOps1_6_writes (by decide : main_arg27 ∉ hostOps1_6_W)).trans <| (StableHlo.after_of_writes_sub hostOps1_5 _ hostOps1_5_writes (by decide : main_arg27 ∉ hostOps1_5_W)).trans <| (StableHlo.after_of_writes_sub hostOps1_4 _ hostOps1_4_writes (by decide : main_arg27 ∉ hostOps1_4_W)).trans <| (StableHlo.after_of_writes_sub hostOps1_3 _ hostOps1_3_writes (by decide : main_arg27 ∉ hostOps1_3_W)).trans <| (StableHlo.after_of_writes_sub hostOps1_2 _ hostOps1_2_writes (by decide : main_arg27 ∉ hostOps1_2_W)).trans <| (StableHlo.after_of_writes_sub hostOps1_1 _ hostOps1_1_writes (by decide : main_arg27 ∉ hostOps1_1_W)).trans <| (StableHlo.after_of_writes_sub hostOps1 _ hostOps1_writes (by decide : main_arg27 ∉ hostOps1_W)).trans <| (B2_of_ne m ρ c main_arg27 (by decide)).trans <| (StableHlo.after_of_writes_sub hostOps0 _ hostOps0_writes (by decide : main_arg27 ∉ hostOps0_W)).trans <| rfl) (ix2 i j)
  have hb : (fun (j : Fin 447) => T13 m ρ c (Pipeline.arrRef spec3 3) (ix2 (0 : Fin 1) j)) = (kerArgs m c).b3 :=
    funext fun j => by
      have e : B13 m ρ c (Proc.devRef .tc main_v58) = shapeCast S1x447 (B12 m ρ c (Proc.devRef .tc main_arg8)) shapeCasts_S447_S1x447 := by
        show StableHlo.after hostOps3 (B12 m ρ c) (Proc.devRef .tc main_v58) = _
        after_results <;> rfl
      show B13 m ρ c (Proc.devRef .tc main_v58) (ix2 (0 : Fin 1) j) = _
      rw [e, Cert.KernelIdeal.HostReads.bias_row447]
      exact congrFun ((B12_of_ne m ρ c main_arg8 (by decide)).trans <| (StableHlo.after_of_writes_sub hostOps2 _ hostOps2_writes (by decide : main_arg8 ∉ hostOps2_W)).trans <| (B10_of_ne m ρ c main_arg8 (by decide)).trans <| (StableHlo.after_of_writes_sub hostOps1_6 _ hostOps1_6_writes (by decide : main_arg8 ∉ hostOps1_6_W)).trans <| (StableHlo.after_of_writes_sub hostOps1_5 _ hostOps1_5_writes (by decide : main_arg8 ∉ hostOps1_5_W)).trans <| (StableHlo.after_of_writes_sub hostOps1_4 _ hostOps1_4_writes (by decide : main_arg8 ∉ hostOps1_4_W)).trans <| (StableHlo.after_of_writes_sub hostOps1_3 _ hostOps1_3_writes (by decide : main_arg8 ∉ hostOps1_3_W)).trans <| (StableHlo.after_of_writes_sub hostOps1_2 _ hostOps1_2_writes (by decide : main_arg8 ∉ hostOps1_2_W)).trans <| (StableHlo.after_of_writes_sub hostOps1_1 _ hostOps1_1_writes (by decide : main_arg8 ∉ hostOps1_1_W)).trans <| (StableHlo.after_of_writes_sub hostOps1 _ hostOps1_writes (by decide : main_arg8 ∉ hostOps1_W)).trans <| (B2_of_ne m ρ c main_arg8 (by decide)).trans <| (StableHlo.after_of_writes_sub hostOps0 _ hostOps0_writes (by decide : main_arg8 ∉ hostOps0_W)).trans <| rfl) (ix1 j)
  rw [ha, hW, hm, hb]
  rfl

/-- Activation 4: layer 4's output array after its region, of the network's arguments. -/
theorem act4_at (r : Fin 1024) (j : Fin 147) :
    B16 m ρ c (Proc.devRef .tc main_v73) (ix2 r j) = Cert.Spec.act4 (kerArgs m c) r j := by
  have harr : B16 m ρ c (Proc.devRef .tc main_v73) = (dat4 (F := Ideal) (T15 m ρ) c).arrAt 4 cfg4.N := B16_arr m ρ c 4
  rw [harr, layer4_value (T15 m ρ) c r j]
  have ha : (fun (r : Fin 1024) (i : Fin 447) => T15 m ρ c (Pipeline.arrRef spec4 0) (ix2 r i)) = Cert.Spec.act3 (kerArgs m c) :=
    funext fun r => funext fun i => (congrFun ((StableHlo.after_of_writes_sub hostOps4 _ hostOps4_writes (by decide : main_v60 ∉ hostOps4_W))) (ix2 r i)).trans (act3_at m ρ c r i)
  have hW : (fun (i : Fin 447) (j : Fin 147) => T15 m ρ c (Pipeline.arrRef spec4 1) (ix2 i j)) = (kerArgs m c).W4 :=
    funext fun i => funext fun j => congrFun ((StableHlo.after_of_writes_sub hostOps4 _ hostOps4_writes (by decide : main_arg9 ∉ hostOps4_W)).trans <| (B14_of_ne m ρ c main_arg9 (by decide)).trans <| (StableHlo.after_of_writes_sub hostOps3 _ hostOps3_writes (by decide : main_arg9 ∉ hostOps3_W)).trans <| (B12_of_ne m ρ c main_arg9 (by decide)).trans <| (StableHlo.after_of_writes_sub hostOps2 _ hostOps2_writes (by decide : main_arg9 ∉ hostOps2_W)).trans <| (B10_of_ne m ρ c main_arg9 (by decide)).trans <| (StableHlo.after_of_writes_sub hostOps1_6 _ hostOps1_6_writes (by decide : main_arg9 ∉ hostOps1_6_W)).trans <| (StableHlo.after_of_writes_sub hostOps1_5 _ hostOps1_5_writes (by decide : main_arg9 ∉ hostOps1_5_W)).trans <| (StableHlo.after_of_writes_sub hostOps1_4 _ hostOps1_4_writes (by decide : main_arg9 ∉ hostOps1_4_W)).trans <| (StableHlo.after_of_writes_sub hostOps1_3 _ hostOps1_3_writes (by decide : main_arg9 ∉ hostOps1_3_W)).trans <| (StableHlo.after_of_writes_sub hostOps1_2 _ hostOps1_2_writes (by decide : main_arg9 ∉ hostOps1_2_W)).trans <| (StableHlo.after_of_writes_sub hostOps1_1 _ hostOps1_1_writes (by decide : main_arg9 ∉ hostOps1_1_W)).trans <| (StableHlo.after_of_writes_sub hostOps1 _ hostOps1_writes (by decide : main_arg9 ∉ hostOps1_W)).trans <| (B2_of_ne m ρ c main_arg9 (by decide)).trans <| (StableHlo.after_of_writes_sub hostOps0 _ hostOps0_writes (by decide : main_arg9 ∉ hostOps0_W)).trans <| rfl) (ix2 i j)
  have hm : (fun (i : Fin 447) (j : Fin 147) => Scalar.cmpi .ne (T15 m ρ c (Pipeline.arrRef spec4 2) (ix2 i j)) 0#32) = (kerArgs m c).m4 :=
    funext fun i => funext fun j => by
      have e : B15 m ρ c (Proc.devRef .tc main_v72) = extui 32 (B14 m ρ c (Proc.devRef .tc main_arg28)) natLt_1_32 := by
        show StableHlo.after hostOps4 (B14 m ρ c) (Proc.devRef .tc main_v72) = _
        after_results <;> rfl
      show Scalar.cmpi .ne (B15 m ρ c (Proc.devRef .tc main_v72) (ix2 i j)) 0#32 = _
      rw [e, Cert.KernelIdeal.HostReads.extui_read, Cert.KernelIdeal.HostReads.cmpi_ne_setWidth]
      exact congrFun ((B14_of_ne m ρ c main_arg28 (by decide)).trans <| (StableHlo.after_of_writes_sub hostOps3 _ hostOps3_writes (by decide : main_arg28 ∉ hostOps3_W)).trans <| (B12_of_ne m ρ c main_arg28 (by decide)).trans <| (StableHlo.after_of_writes_sub hostOps2 _ hostOps2_writes (by decide : main_arg28 ∉ hostOps2_W)).trans <| (B10_of_ne m ρ c main_arg28 (by decide)).trans <| (StableHlo.after_of_writes_sub hostOps1_6 _ hostOps1_6_writes (by decide : main_arg28 ∉ hostOps1_6_W)).trans <| (StableHlo.after_of_writes_sub hostOps1_5 _ hostOps1_5_writes (by decide : main_arg28 ∉ hostOps1_5_W)).trans <| (StableHlo.after_of_writes_sub hostOps1_4 _ hostOps1_4_writes (by decide : main_arg28 ∉ hostOps1_4_W)).trans <| (StableHlo.after_of_writes_sub hostOps1_3 _ hostOps1_3_writes (by decide : main_arg28 ∉ hostOps1_3_W)).trans <| (StableHlo.after_of_writes_sub hostOps1_2 _ hostOps1_2_writes (by decide : main_arg28 ∉ hostOps1_2_W)).trans <| (StableHlo.after_of_writes_sub hostOps1_1 _ hostOps1_1_writes (by decide : main_arg28 ∉ hostOps1_1_W)).trans <| (StableHlo.after_of_writes_sub hostOps1 _ hostOps1_writes (by decide : main_arg28 ∉ hostOps1_W)).trans <| (B2_of_ne m ρ c main_arg28 (by decide)).trans <| (StableHlo.after_of_writes_sub hostOps0 _ hostOps0_writes (by decide : main_arg28 ∉ hostOps0_W)).trans <| rfl) (ix2 i j)
  have hb : (fun (j : Fin 147) => T15 m ρ c (Pipeline.arrRef spec4 3) (ix2 (0 : Fin 1) j)) = (kerArgs m c).b4 :=
    funext fun j => by
      have e : B15 m ρ c (Proc.devRef .tc main_v71) = shapeCast S1x147 (B14 m ρ c (Proc.devRef .tc main_arg10)) shapeCasts_S147_S1x147 := by
        show StableHlo.after hostOps4 (B14 m ρ c) (Proc.devRef .tc main_v71) = _
        after_results <;> rfl
      show B15 m ρ c (Proc.devRef .tc main_v71) (ix2 (0 : Fin 1) j) = _
      rw [e, Cert.KernelIdeal.HostReads.bias_row147]
      exact congrFun ((B14_of_ne m ρ c main_arg10 (by decide)).trans <| (StableHlo.after_of_writes_sub hostOps3 _ hostOps3_writes (by decide : main_arg10 ∉ hostOps3_W)).trans <| (B12_of_ne m ρ c main_arg10 (by decide)).trans <| (StableHlo.after_of_writes_sub hostOps2 _ hostOps2_writes (by decide : main_arg10 ∉ hostOps2_W)).trans <| (B10_of_ne m ρ c main_arg10 (by decide)).trans <| (StableHlo.after_of_writes_sub hostOps1_6 _ hostOps1_6_writes (by decide : main_arg10 ∉ hostOps1_6_W)).trans <| (StableHlo.after_of_writes_sub hostOps1_5 _ hostOps1_5_writes (by decide : main_arg10 ∉ hostOps1_5_W)).trans <| (StableHlo.after_of_writes_sub hostOps1_4 _ hostOps1_4_writes (by decide : main_arg10 ∉ hostOps1_4_W)).trans <| (StableHlo.after_of_writes_sub hostOps1_3 _ hostOps1_3_writes (by decide : main_arg10 ∉ hostOps1_3_W)).trans <| (StableHlo.after_of_writes_sub hostOps1_2 _ hostOps1_2_writes (by decide : main_arg10 ∉ hostOps1_2_W)).trans <| (StableHlo.after_of_writes_sub hostOps1_1 _ hostOps1_1_writes (by decide : main_arg10 ∉ hostOps1_1_W)).trans <| (StableHlo.after_of_writes_sub hostOps1 _ hostOps1_writes (by decide : main_arg10 ∉ hostOps1_W)).trans <| (B2_of_ne m ρ c main_arg10 (by decide)).trans <| (StableHlo.after_of_writes_sub hostOps0 _ hostOps0_writes (by decide : main_arg10 ∉ hostOps0_W)).trans <| rfl) (ix1 j)
  rw [ha, hW, hm, hb]
  rfl

/-- Activation 5: layer 5's output array after its region, of the network's arguments. -/
theorem act5_at (r : Fin 1024) (j : Fin 26) :
    B18 m ρ c (Proc.devRef .tc main_v86) (ix2 r j) = Cert.Spec.act5 (kerArgs m c) r j := by
  have harr : B18 m ρ c (Proc.devRef .tc main_v86) = (dat5 (F := Ideal) (T17 m ρ) c).arrAt 4 cfg5.N := B18_arr m ρ c 4
  rw [harr, layer5_value (T17 m ρ) c r j]
  have ha : (fun (r : Fin 1024) (i : Fin 147) => T17 m ρ c (Pipeline.arrRef spec5 0) (ix2 r i)) = Cert.Spec.act4 (kerArgs m c) :=
    funext fun r => funext fun i => (congrFun ((StableHlo.after_of_writes_sub hostOps5 _ hostOps5_writes (by decide : main_v73 ∉ hostOps5_W))) (ix2 r i)).trans (act4_at m ρ c r i)
  have hW : (fun (i : Fin 147) (j : Fin 26) => T17 m ρ c (Pipeline.arrRef spec5 1) (ix2 i j)) = (kerArgs m c).W5 :=
    funext fun i => funext fun j => congrFun ((StableHlo.after_of_writes_sub hostOps5 _ hostOps5_writes (by decide : main_arg11 ∉ hostOps5_W)).trans <| (B16_of_ne m ρ c main_arg11 (by decide)).trans <| (StableHlo.after_of_writes_sub hostOps4 _ hostOps4_writes (by decide : main_arg11 ∉ hostOps4_W)).trans <| (B14_of_ne m ρ c main_arg11 (by decide)).trans <| (StableHlo.after_of_writes_sub hostOps3 _ hostOps3_writes (by decide : main_arg11 ∉ hostOps3_W)).trans <| (B12_of_ne m ρ c main_arg11 (by decide)).trans <| (StableHlo.after_of_writes_sub hostOps2 _ hostOps2_writes (by decide : main_arg11 ∉ hostOps2_W)).trans <| (B10_of_ne m ρ c main_arg11 (by decide)).trans <| (StableHlo.after_of_writes_sub hostOps1_6 _ hostOps1_6_writes (by decide : main_arg11 ∉ hostOps1_6_W)).trans <| (StableHlo.after_of_writes_sub hostOps1_5 _ hostOps1_5_writes (by decide : main_arg11 ∉ hostOps1_5_W)).trans <| (StableHlo.after_of_writes_sub hostOps1_4 _ hostOps1_4_writes (by decide : main_arg11 ∉ hostOps1_4_W)).trans <| (StableHlo.after_of_writes_sub hostOps1_3 _ hostOps1_3_writes (by decide : main_arg11 ∉ hostOps1_3_W)).trans <| (StableHlo.after_of_writes_sub hostOps1_2 _ hostOps1_2_writes (by decide : main_arg11 ∉ hostOps1_2_W)).trans <| (StableHlo.after_of_writes_sub hostOps1_1 _ hostOps1_1_writes (by decide : main_arg11 ∉ hostOps1_1_W)).trans <| (StableHlo.after_of_writes_sub hostOps1 _ hostOps1_writes (by decide : main_arg11 ∉ hostOps1_W)).trans <| (B2_of_ne m ρ c main_arg11 (by decide)).trans <| (StableHlo.after_of_writes_sub hostOps0 _ hostOps0_writes (by decide : main_arg11 ∉ hostOps0_W)).trans <| rfl) (ix2 i j)
  have hm : (fun (i : Fin 147) (j : Fin 26) => Scalar.cmpi .ne (T17 m ρ c (Pipeline.arrRef spec5 2) (ix2 i j)) 0#32) = (kerArgs m c).m5 :=
    funext fun i => funext fun j => by
      have e : B17 m ρ c (Proc.devRef .tc main_v85) = extui 32 (B16 m ρ c (Proc.devRef .tc main_arg29)) natLt_1_32 := by
        show StableHlo.after hostOps5 (B16 m ρ c) (Proc.devRef .tc main_v85) = _
        after_results <;> rfl
      show Scalar.cmpi .ne (B17 m ρ c (Proc.devRef .tc main_v85) (ix2 i j)) 0#32 = _
      rw [e, Cert.KernelIdeal.HostReads.extui_read, Cert.KernelIdeal.HostReads.cmpi_ne_setWidth]
      exact congrFun ((B16_of_ne m ρ c main_arg29 (by decide)).trans <| (StableHlo.after_of_writes_sub hostOps4 _ hostOps4_writes (by decide : main_arg29 ∉ hostOps4_W)).trans <| (B14_of_ne m ρ c main_arg29 (by decide)).trans <| (StableHlo.after_of_writes_sub hostOps3 _ hostOps3_writes (by decide : main_arg29 ∉ hostOps3_W)).trans <| (B12_of_ne m ρ c main_arg29 (by decide)).trans <| (StableHlo.after_of_writes_sub hostOps2 _ hostOps2_writes (by decide : main_arg29 ∉ hostOps2_W)).trans <| (B10_of_ne m ρ c main_arg29 (by decide)).trans <| (StableHlo.after_of_writes_sub hostOps1_6 _ hostOps1_6_writes (by decide : main_arg29 ∉ hostOps1_6_W)).trans <| (StableHlo.after_of_writes_sub hostOps1_5 _ hostOps1_5_writes (by decide : main_arg29 ∉ hostOps1_5_W)).trans <| (StableHlo.after_of_writes_sub hostOps1_4 _ hostOps1_4_writes (by decide : main_arg29 ∉ hostOps1_4_W)).trans <| (StableHlo.after_of_writes_sub hostOps1_3 _ hostOps1_3_writes (by decide : main_arg29 ∉ hostOps1_3_W)).trans <| (StableHlo.after_of_writes_sub hostOps1_2 _ hostOps1_2_writes (by decide : main_arg29 ∉ hostOps1_2_W)).trans <| (StableHlo.after_of_writes_sub hostOps1_1 _ hostOps1_1_writes (by decide : main_arg29 ∉ hostOps1_1_W)).trans <| (StableHlo.after_of_writes_sub hostOps1 _ hostOps1_writes (by decide : main_arg29 ∉ hostOps1_W)).trans <| (B2_of_ne m ρ c main_arg29 (by decide)).trans <| (StableHlo.after_of_writes_sub hostOps0 _ hostOps0_writes (by decide : main_arg29 ∉ hostOps0_W)).trans <| rfl) (ix2 i j)
  have hb : (fun (j : Fin 26) => T17 m ρ c (Pipeline.arrRef spec5 3) (ix2 (0 : Fin 1) j)) = (kerArgs m c).b5 :=
    funext fun j => by
      have e : B17 m ρ c (Proc.devRef .tc main_v84) = shapeCast S1x26 (B16 m ρ c (Proc.devRef .tc main_arg12)) shapeCasts_S26_S1x26 := by
        show StableHlo.after hostOps5 (B16 m ρ c) (Proc.devRef .tc main_v84) = _
        after_results <;> rfl
      show B17 m ρ c (Proc.devRef .tc main_v84) (ix2 (0 : Fin 1) j) = _
      rw [e, Cert.KernelIdeal.HostReads.bias_row26]
      exact congrFun ((B16_of_ne m ρ c main_arg12 (by decide)).trans <| (StableHlo.after_of_writes_sub hostOps4 _ hostOps4_writes (by decide : main_arg12 ∉ hostOps4_W)).trans <| (B14_of_ne m ρ c main_arg12 (by decide)).trans <| (StableHlo.after_of_writes_sub hostOps3 _ hostOps3_writes (by decide : main_arg12 ∉ hostOps3_W)).trans <| (B12_of_ne m ρ c main_arg12 (by decide)).trans <| (StableHlo.after_of_writes_sub hostOps2 _ hostOps2_writes (by decide : main_arg12 ∉ hostOps2_W)).trans <| (B10_of_ne m ρ c main_arg12 (by decide)).trans <| (StableHlo.after_of_writes_sub hostOps1_6 _ hostOps1_6_writes (by decide : main_arg12 ∉ hostOps1_6_W)).trans <| (StableHlo.after_of_writes_sub hostOps1_5 _ hostOps1_5_writes (by decide : main_arg12 ∉ hostOps1_5_W)).trans <| (StableHlo.after_of_writes_sub hostOps1_4 _ hostOps1_4_writes (by decide : main_arg12 ∉ hostOps1_4_W)).trans <| (StableHlo.after_of_writes_sub hostOps1_3 _ hostOps1_3_writes (by decide : main_arg12 ∉ hostOps1_3_W)).trans <| (StableHlo.after_of_writes_sub hostOps1_2 _ hostOps1_2_writes (by decide : main_arg12 ∉ hostOps1_2_W)).trans <| (StableHlo.after_of_writes_sub hostOps1_1 _ hostOps1_1_writes (by decide : main_arg12 ∉ hostOps1_1_W)).trans <| (StableHlo.after_of_writes_sub hostOps1 _ hostOps1_writes (by decide : main_arg12 ∉ hostOps1_W)).trans <| (B2_of_ne m ρ c main_arg12 (by decide)).trans <| (StableHlo.after_of_writes_sub hostOps0 _ hostOps0_writes (by decide : main_arg12 ∉ hostOps0_W)).trans <| rfl) (ix1 j)
  rw [ha, hW, hm, hb]
  rfl

/-- Head 1's operations, applied to the activation and the head's two arguments as boundary 2 holds them, read at a row. -/
theorem head1_core (r : Fin 1024) :
    (Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x9229_S9229x1_S1024x1_1_0_0_1_n_n none (B2 m ρ c (Proc.devRef .tc main_v18)) (B2 m ρ c (Proc.devRef .tc main_arg13)))
          (broadcastInDim S1024x1 ![0, 1] bcast_S1x1_S1024x1_0_1 (broadcastInDim S1x1 ![1] bcast_S1_S1x1_1 (B2 m ρ c (Proc.devRef .tc main_arg14))))))))) (ix2 r (0 : Fin 1))
      = Cert.Spec.head (Cert.Spec.act0 (kerArgs m c)) (kerArgs m c).l1w (kerArgs m c).l1b r := by
  rw [head1_read]
  have ha : (fun (r : Fin 1024) (i : Fin 9229) => B2 m ρ c (Proc.devRef .tc main_v18) (ix2 r i)) = Cert.Spec.act0 (kerArgs m c) :=
    funext fun r => funext fun i => act0_at m ρ c r i
  have hw : (fun (i : Fin 9229) => B2 m ρ c (Proc.devRef .tc main_arg13) (ix2 i (0 : Fin 1))) = (kerArgs m c).l1w :=
    funext fun i => congrFun ((B2_of_ne m ρ c main_arg13 (by decide)).trans <| (StableHlo.after_of_writes_sub hostOps0 _ hostOps0_writes (by decide : main_arg13 ∉ hostOps0_W)).trans <| rfl) (ix2 i (0 : Fin 1))
  have hb : B2 m ρ c (Proc.devRef .tc main_arg14) (ix1 (0 : Fin 1)) = (kerArgs m c).l1b :=
    congrFun ((B2_of_ne m ρ c main_arg14 (by decide)).trans <| (StableHlo.after_of_writes_sub hostOps0 _ hostOps0_writes (by decide : main_arg14 ∉ hostOps0_W)).trans <| rfl) (ix1 (0 : Fin 1))
  rw [ha, hw, hb]

/-- Head 1's buffer after the stretch that computes it. -/
theorem head1_at (r : Fin 1024) :
    B3 m ρ c (Proc.devRef .tc main_v28) (ix2 r (0 : Fin 1))
      = Cert.Spec.head (Cert.Spec.act0 (kerArgs m c)) (kerArgs m c).l1w (kerArgs m c).l1b r := by
  have e : B3 m ρ c (Proc.devRef .tc main_v28)
      = Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x9229_S9229x1_S1024x1_1_0_0_1_n_n none (B2 m ρ c (Proc.devRef .tc main_v18)) (B2 m ρ c (Proc.devRef .tc main_arg13)))
          (broadcastInDim S1024x1 ![0, 1] bcast_S1x1_S1024x1_0_1 (broadcastInDim S1x1 ![1] bcast_S1_S1x1_1 (B2 m ρ c (Proc.devRef .tc main_arg14)))))))) := by
    show StableHlo.after hostOps1 (B2 m ρ c) (Proc.devRef .tc main_v28) = _
    after_results <;> rfl
  rw [e]
  exact head1_core m ρ c r

/-- Head 2's operations, applied to the activation and the head's two arguments as boundary 10 holds them, read at a row. -/
theorem head2_core (r : Fin 1024) :
    (Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x1387_S1387x1_S1024x1_1_0_0_1_n_n none (B10 m ρ c (Proc.devRef .tc main_v34)) (B10 m ρ c (Proc.devRef .tc main_arg15)))
          (broadcastInDim S1024x1 ![0, 1] bcast_S1x1_S1024x1_0_1 (broadcastInDim S1x1 ![1] bcast_S1_S1x1_1 (B10 m ρ c (Proc.devRef .tc main_arg16))))))))) (ix2 r (0 : Fin 1))
      = Cert.Spec.head (Cert.Spec.act1 (kerArgs m c)) (kerArgs m c).l2w (kerArgs m c).l2b r := by
  rw [head2_read]
  have ha : (fun (r : Fin 1024) (i : Fin 1387) => B10 m ρ c (Proc.devRef .tc main_v34) (ix2 r i)) = Cert.Spec.act1 (kerArgs m c) :=
    funext fun r => funext fun i => act1_at m ρ c r i
  have hw : (fun (i : Fin 1387) => B10 m ρ c (Proc.devRef .tc main_arg15) (ix2 i (0 : Fin 1))) = (kerArgs m c).l2w :=
    funext fun i => congrFun ((B10_of_ne m ρ c main_arg15 (by decide)).trans <| (StableHlo.after_of_writes_sub hostOps1_6 _ hostOps1_6_writes (by decide : main_arg15 ∉ hostOps1_6_W)).trans <| (StableHlo.after_of_writes_sub hostOps1_5 _ hostOps1_5_writes (by decide : main_arg15 ∉ hostOps1_5_W)).trans <| (StableHlo.after_of_writes_sub hostOps1_4 _ hostOps1_4_writes (by decide : main_arg15 ∉ hostOps1_4_W)).trans <| (StableHlo.after_of_writes_sub hostOps1_3 _ hostOps1_3_writes (by decide : main_arg15 ∉ hostOps1_3_W)).trans <| (StableHlo.after_of_writes_sub hostOps1_2 _ hostOps1_2_writes (by decide : main_arg15 ∉ hostOps1_2_W)).trans <| (StableHlo.after_of_writes_sub hostOps1_1 _ hostOps1_1_writes (by decide : main_arg15 ∉ hostOps1_1_W)).trans <| (StableHlo.after_of_writes_sub hostOps1 _ hostOps1_writes (by decide : main_arg15 ∉ hostOps1_W)).trans <| (B2_of_ne m ρ c main_arg15 (by decide)).trans <| (StableHlo.after_of_writes_sub hostOps0 _ hostOps0_writes (by decide : main_arg15 ∉ hostOps0_W)).trans <| rfl) (ix2 i (0 : Fin 1))
  have hb : B10 m ρ c (Proc.devRef .tc main_arg16) (ix1 (0 : Fin 1)) = (kerArgs m c).l2b :=
    congrFun ((B10_of_ne m ρ c main_arg16 (by decide)).trans <| (StableHlo.after_of_writes_sub hostOps1_6 _ hostOps1_6_writes (by decide : main_arg16 ∉ hostOps1_6_W)).trans <| (StableHlo.after_of_writes_sub hostOps1_5 _ hostOps1_5_writes (by decide : main_arg16 ∉ hostOps1_5_W)).trans <| (StableHlo.after_of_writes_sub hostOps1_4 _ hostOps1_4_writes (by decide : main_arg16 ∉ hostOps1_4_W)).trans <| (StableHlo.after_of_writes_sub hostOps1_3 _ hostOps1_3_writes (by decide : main_arg16 ∉ hostOps1_3_W)).trans <| (StableHlo.after_of_writes_sub hostOps1_2 _ hostOps1_2_writes (by decide : main_arg16 ∉ hostOps1_2_W)).trans <| (StableHlo.after_of_writes_sub hostOps1_1 _ hostOps1_1_writes (by decide : main_arg16 ∉ hostOps1_1_W)).trans <| (StableHlo.after_of_writes_sub hostOps1 _ hostOps1_writes (by decide : main_arg16 ∉ hostOps1_W)).trans <| (B2_of_ne m ρ c main_arg16 (by decide)).trans <| (StableHlo.after_of_writes_sub hostOps0 _ hostOps0_writes (by decide : main_arg16 ∉ hostOps0_W)).trans <| rfl) (ix1 (0 : Fin 1))
  rw [ha, hw, hb]

/-- Head 2's buffer after the stretch that computes it. -/
theorem head2_at (r : Fin 1024) :
    B11 m ρ c (Proc.devRef .tc main_v44) (ix2 r (0 : Fin 1))
      = Cert.Spec.head (Cert.Spec.act1 (kerArgs m c)) (kerArgs m c).l2w (kerArgs m c).l2b r := by
  have e : B11 m ρ c (Proc.devRef .tc main_v44)
      = Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x1387_S1387x1_S1024x1_1_0_0_1_n_n none (B10 m ρ c (Proc.devRef .tc main_v34)) (B10 m ρ c (Proc.devRef .tc main_arg15)))
          (broadcastInDim S1024x1 ![0, 1] bcast_S1x1_S1024x1_0_1 (broadcastInDim S1x1 ![1] bcast_S1_S1x1_1 (B10 m ρ c (Proc.devRef .tc main_arg16)))))))) := by
    show StableHlo.after hostOps2 (B10 m ρ c) (Proc.devRef .tc main_v44) = _
    after_results <;> rfl
  rw [e]
  exact head2_core m ρ c r

/-- Head 3's operations, applied to the activation and the head's two arguments as boundary 12 holds them, read at a row. -/
theorem head3_core (r : Fin 1024) :
    (Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x1066_S1066x1_S1024x1_1_0_0_1_n_n none (B12 m ρ c (Proc.devRef .tc main_v47)) (B12 m ρ c (Proc.devRef .tc main_arg17)))
          (broadcastInDim S1024x1 ![0, 1] bcast_S1x1_S1024x1_0_1 (broadcastInDim S1x1 ![1] bcast_S1_S1x1_1 (B12 m ρ c (Proc.devRef .tc main_arg18))))))))) (ix2 r (0 : Fin 1))
      = Cert.Spec.head (Cert.Spec.act2 (kerArgs m c)) (kerArgs m c).l3w (kerArgs m c).l3b r := by
  rw [head3_read]
  have ha : (fun (r : Fin 1024) (i : Fin 1066) => B12 m ρ c (Proc.devRef .tc main_v47) (ix2 r i)) = Cert.Spec.act2 (kerArgs m c) :=
    funext fun r => funext fun i => act2_at m ρ c r i
  have hw : (fun (i : Fin 1066) => B12 m ρ c (Proc.devRef .tc main_arg17) (ix2 i (0 : Fin 1))) = (kerArgs m c).l3w :=
    funext fun i => congrFun ((B12_of_ne m ρ c main_arg17 (by decide)).trans <| (StableHlo.after_of_writes_sub hostOps2 _ hostOps2_writes (by decide : main_arg17 ∉ hostOps2_W)).trans <| (B10_of_ne m ρ c main_arg17 (by decide)).trans <| (StableHlo.after_of_writes_sub hostOps1_6 _ hostOps1_6_writes (by decide : main_arg17 ∉ hostOps1_6_W)).trans <| (StableHlo.after_of_writes_sub hostOps1_5 _ hostOps1_5_writes (by decide : main_arg17 ∉ hostOps1_5_W)).trans <| (StableHlo.after_of_writes_sub hostOps1_4 _ hostOps1_4_writes (by decide : main_arg17 ∉ hostOps1_4_W)).trans <| (StableHlo.after_of_writes_sub hostOps1_3 _ hostOps1_3_writes (by decide : main_arg17 ∉ hostOps1_3_W)).trans <| (StableHlo.after_of_writes_sub hostOps1_2 _ hostOps1_2_writes (by decide : main_arg17 ∉ hostOps1_2_W)).trans <| (StableHlo.after_of_writes_sub hostOps1_1 _ hostOps1_1_writes (by decide : main_arg17 ∉ hostOps1_1_W)).trans <| (StableHlo.after_of_writes_sub hostOps1 _ hostOps1_writes (by decide : main_arg17 ∉ hostOps1_W)).trans <| (B2_of_ne m ρ c main_arg17 (by decide)).trans <| (StableHlo.after_of_writes_sub hostOps0 _ hostOps0_writes (by decide : main_arg17 ∉ hostOps0_W)).trans <| rfl) (ix2 i (0 : Fin 1))
  have hb : B12 m ρ c (Proc.devRef .tc main_arg18) (ix1 (0 : Fin 1)) = (kerArgs m c).l3b :=
    congrFun ((B12_of_ne m ρ c main_arg18 (by decide)).trans <| (StableHlo.after_of_writes_sub hostOps2 _ hostOps2_writes (by decide : main_arg18 ∉ hostOps2_W)).trans <| (B10_of_ne m ρ c main_arg18 (by decide)).trans <| (StableHlo.after_of_writes_sub hostOps1_6 _ hostOps1_6_writes (by decide : main_arg18 ∉ hostOps1_6_W)).trans <| (StableHlo.after_of_writes_sub hostOps1_5 _ hostOps1_5_writes (by decide : main_arg18 ∉ hostOps1_5_W)).trans <| (StableHlo.after_of_writes_sub hostOps1_4 _ hostOps1_4_writes (by decide : main_arg18 ∉ hostOps1_4_W)).trans <| (StableHlo.after_of_writes_sub hostOps1_3 _ hostOps1_3_writes (by decide : main_arg18 ∉ hostOps1_3_W)).trans <| (StableHlo.after_of_writes_sub hostOps1_2 _ hostOps1_2_writes (by decide : main_arg18 ∉ hostOps1_2_W)).trans <| (StableHlo.after_of_writes_sub hostOps1_1 _ hostOps1_1_writes (by decide : main_arg18 ∉ hostOps1_1_W)).trans <| (StableHlo.after_of_writes_sub hostOps1 _ hostOps1_writes (by decide : main_arg18 ∉ hostOps1_W)).trans <| (B2_of_ne m ρ c main_arg18 (by decide)).trans <| (StableHlo.after_of_writes_sub hostOps0 _ hostOps0_writes (by decide : main_arg18 ∉ hostOps0_W)).trans <| rfl) (ix1 (0 : Fin 1))
  rw [ha, hw, hb]

/-- Head 3's buffer after the stretch that computes it. -/
theorem head3_at (r : Fin 1024) :
    B13 m ρ c (Proc.devRef .tc main_v57) (ix2 r (0 : Fin 1))
      = Cert.Spec.head (Cert.Spec.act2 (kerArgs m c)) (kerArgs m c).l3w (kerArgs m c).l3b r := by
  have e : B13 m ρ c (Proc.devRef .tc main_v57)
      = Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x1066_S1066x1_S1024x1_1_0_0_1_n_n none (B12 m ρ c (Proc.devRef .tc main_v47)) (B12 m ρ c (Proc.devRef .tc main_arg17)))
          (broadcastInDim S1024x1 ![0, 1] bcast_S1x1_S1024x1_0_1 (broadcastInDim S1x1 ![1] bcast_S1_S1x1_1 (B12 m ρ c (Proc.devRef .tc main_arg18)))))))) := by
    show StableHlo.after hostOps3 (B12 m ρ c) (Proc.devRef .tc main_v57) = _
    after_results <;> rfl
  rw [e]
  exact head3_core m ρ c r

/-- Head 4's operations, applied to the activation and the head's two arguments as boundary 14 holds them, read at a row. -/
theorem head4_core (r : Fin 1024) :
    (Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x447_S447x1_S1024x1_1_0_0_1_n_n none (B14 m ρ c (Proc.devRef .tc main_v60)) (B14 m ρ c (Proc.devRef .tc main_arg19)))
          (broadcastInDim S1024x1 ![0, 1] bcast_S1x1_S1024x1_0_1 (broadcastInDim S1x1 ![1] bcast_S1_S1x1_1 (B14 m ρ c (Proc.devRef .tc main_arg20))))))))) (ix2 r (0 : Fin 1))
      = Cert.Spec.head (Cert.Spec.act3 (kerArgs m c)) (kerArgs m c).l4w (kerArgs m c).l4b r := by
  rw [head4_read]
  have ha : (fun (r : Fin 1024) (i : Fin 447) => B14 m ρ c (Proc.devRef .tc main_v60) (ix2 r i)) = Cert.Spec.act3 (kerArgs m c) :=
    funext fun r => funext fun i => act3_at m ρ c r i
  have hw : (fun (i : Fin 447) => B14 m ρ c (Proc.devRef .tc main_arg19) (ix2 i (0 : Fin 1))) = (kerArgs m c).l4w :=
    funext fun i => congrFun ((B14_of_ne m ρ c main_arg19 (by decide)).trans <| (StableHlo.after_of_writes_sub hostOps3 _ hostOps3_writes (by decide : main_arg19 ∉ hostOps3_W)).trans <| (B12_of_ne m ρ c main_arg19 (by decide)).trans <| (StableHlo.after_of_writes_sub hostOps2 _ hostOps2_writes (by decide : main_arg19 ∉ hostOps2_W)).trans <| (B10_of_ne m ρ c main_arg19 (by decide)).trans <| (StableHlo.after_of_writes_sub hostOps1_6 _ hostOps1_6_writes (by decide : main_arg19 ∉ hostOps1_6_W)).trans <| (StableHlo.after_of_writes_sub hostOps1_5 _ hostOps1_5_writes (by decide : main_arg19 ∉ hostOps1_5_W)).trans <| (StableHlo.after_of_writes_sub hostOps1_4 _ hostOps1_4_writes (by decide : main_arg19 ∉ hostOps1_4_W)).trans <| (StableHlo.after_of_writes_sub hostOps1_3 _ hostOps1_3_writes (by decide : main_arg19 ∉ hostOps1_3_W)).trans <| (StableHlo.after_of_writes_sub hostOps1_2 _ hostOps1_2_writes (by decide : main_arg19 ∉ hostOps1_2_W)).trans <| (StableHlo.after_of_writes_sub hostOps1_1 _ hostOps1_1_writes (by decide : main_arg19 ∉ hostOps1_1_W)).trans <| (StableHlo.after_of_writes_sub hostOps1 _ hostOps1_writes (by decide : main_arg19 ∉ hostOps1_W)).trans <| (B2_of_ne m ρ c main_arg19 (by decide)).trans <| (StableHlo.after_of_writes_sub hostOps0 _ hostOps0_writes (by decide : main_arg19 ∉ hostOps0_W)).trans <| rfl) (ix2 i (0 : Fin 1))
  have hb : B14 m ρ c (Proc.devRef .tc main_arg20) (ix1 (0 : Fin 1)) = (kerArgs m c).l4b :=
    congrFun ((B14_of_ne m ρ c main_arg20 (by decide)).trans <| (StableHlo.after_of_writes_sub hostOps3 _ hostOps3_writes (by decide : main_arg20 ∉ hostOps3_W)).trans <| (B12_of_ne m ρ c main_arg20 (by decide)).trans <| (StableHlo.after_of_writes_sub hostOps2 _ hostOps2_writes (by decide : main_arg20 ∉ hostOps2_W)).trans <| (B10_of_ne m ρ c main_arg20 (by decide)).trans <| (StableHlo.after_of_writes_sub hostOps1_6 _ hostOps1_6_writes (by decide : main_arg20 ∉ hostOps1_6_W)).trans <| (StableHlo.after_of_writes_sub hostOps1_5 _ hostOps1_5_writes (by decide : main_arg20 ∉ hostOps1_5_W)).trans <| (StableHlo.after_of_writes_sub hostOps1_4 _ hostOps1_4_writes (by decide : main_arg20 ∉ hostOps1_4_W)).trans <| (StableHlo.after_of_writes_sub hostOps1_3 _ hostOps1_3_writes (by decide : main_arg20 ∉ hostOps1_3_W)).trans <| (StableHlo.after_of_writes_sub hostOps1_2 _ hostOps1_2_writes (by decide : main_arg20 ∉ hostOps1_2_W)).trans <| (StableHlo.after_of_writes_sub hostOps1_1 _ hostOps1_1_writes (by decide : main_arg20 ∉ hostOps1_1_W)).trans <| (StableHlo.after_of_writes_sub hostOps1 _ hostOps1_writes (by decide : main_arg20 ∉ hostOps1_W)).trans <| (B2_of_ne m ρ c main_arg20 (by decide)).trans <| (StableHlo.after_of_writes_sub hostOps0 _ hostOps0_writes (by decide : main_arg20 ∉ hostOps0_W)).trans <| rfl) (ix1 (0 : Fin 1))
  rw [ha, hw, hb]

/-- Head 4's buffer after the stretch that computes it. -/
theorem head4_at (r : Fin 1024) :
    B15 m ρ c (Proc.devRef .tc main_v70) (ix2 r (0 : Fin 1))
      = Cert.Spec.head (Cert.Spec.act3 (kerArgs m c)) (kerArgs m c).l4w (kerArgs m c).l4b r := by
  have e : B15 m ρ c (Proc.devRef .tc main_v70)
      = Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x447_S447x1_S1024x1_1_0_0_1_n_n none (B14 m ρ c (Proc.devRef .tc main_v60)) (B14 m ρ c (Proc.devRef .tc main_arg19)))
          (broadcastInDim S1024x1 ![0, 1] bcast_S1x1_S1024x1_0_1 (broadcastInDim S1x1 ![1] bcast_S1_S1x1_1 (B14 m ρ c (Proc.devRef .tc main_arg20)))))))) := by
    show StableHlo.after hostOps4 (B14 m ρ c) (Proc.devRef .tc main_v70) = _
    after_results <;> rfl
  rw [e]
  exact head4_core m ρ c r

/-- Head 5's operations, applied to the activation and the head's two arguments as boundary 16 holds them, read at a row. -/
theorem head5_core (r : Fin 1024) :
    (Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x147_S147x1_S1024x1_1_0_0_1_n_n none (B16 m ρ c (Proc.devRef .tc main_v73)) (B16 m ρ c (Proc.devRef .tc main_arg21)))
          (broadcastInDim S1024x1 ![0, 1] bcast_S1x1_S1024x1_0_1 (broadcastInDim S1x1 ![1] bcast_S1_S1x1_1 (B16 m ρ c (Proc.devRef .tc main_arg22))))))))) (ix2 r (0 : Fin 1))
      = Cert.Spec.head (Cert.Spec.act4 (kerArgs m c)) (kerArgs m c).l5w (kerArgs m c).l5b r := by
  rw [head5_read]
  have ha : (fun (r : Fin 1024) (i : Fin 147) => B16 m ρ c (Proc.devRef .tc main_v73) (ix2 r i)) = Cert.Spec.act4 (kerArgs m c) :=
    funext fun r => funext fun i => act4_at m ρ c r i
  have hw : (fun (i : Fin 147) => B16 m ρ c (Proc.devRef .tc main_arg21) (ix2 i (0 : Fin 1))) = (kerArgs m c).l5w :=
    funext fun i => congrFun ((B16_of_ne m ρ c main_arg21 (by decide)).trans <| (StableHlo.after_of_writes_sub hostOps4 _ hostOps4_writes (by decide : main_arg21 ∉ hostOps4_W)).trans <| (B14_of_ne m ρ c main_arg21 (by decide)).trans <| (StableHlo.after_of_writes_sub hostOps3 _ hostOps3_writes (by decide : main_arg21 ∉ hostOps3_W)).trans <| (B12_of_ne m ρ c main_arg21 (by decide)).trans <| (StableHlo.after_of_writes_sub hostOps2 _ hostOps2_writes (by decide : main_arg21 ∉ hostOps2_W)).trans <| (B10_of_ne m ρ c main_arg21 (by decide)).trans <| (StableHlo.after_of_writes_sub hostOps1_6 _ hostOps1_6_writes (by decide : main_arg21 ∉ hostOps1_6_W)).trans <| (StableHlo.after_of_writes_sub hostOps1_5 _ hostOps1_5_writes (by decide : main_arg21 ∉ hostOps1_5_W)).trans <| (StableHlo.after_of_writes_sub hostOps1_4 _ hostOps1_4_writes (by decide : main_arg21 ∉ hostOps1_4_W)).trans <| (StableHlo.after_of_writes_sub hostOps1_3 _ hostOps1_3_writes (by decide : main_arg21 ∉ hostOps1_3_W)).trans <| (StableHlo.after_of_writes_sub hostOps1_2 _ hostOps1_2_writes (by decide : main_arg21 ∉ hostOps1_2_W)).trans <| (StableHlo.after_of_writes_sub hostOps1_1 _ hostOps1_1_writes (by decide : main_arg21 ∉ hostOps1_1_W)).trans <| (StableHlo.after_of_writes_sub hostOps1 _ hostOps1_writes (by decide : main_arg21 ∉ hostOps1_W)).trans <| (B2_of_ne m ρ c main_arg21 (by decide)).trans <| (StableHlo.after_of_writes_sub hostOps0 _ hostOps0_writes (by decide : main_arg21 ∉ hostOps0_W)).trans <| rfl) (ix2 i (0 : Fin 1))
  have hb : B16 m ρ c (Proc.devRef .tc main_arg22) (ix1 (0 : Fin 1)) = (kerArgs m c).l5b :=
    congrFun ((B16_of_ne m ρ c main_arg22 (by decide)).trans <| (StableHlo.after_of_writes_sub hostOps4 _ hostOps4_writes (by decide : main_arg22 ∉ hostOps4_W)).trans <| (B14_of_ne m ρ c main_arg22 (by decide)).trans <| (StableHlo.after_of_writes_sub hostOps3 _ hostOps3_writes (by decide : main_arg22 ∉ hostOps3_W)).trans <| (B12_of_ne m ρ c main_arg22 (by decide)).trans <| (StableHlo.after_of_writes_sub hostOps2 _ hostOps2_writes (by decide : main_arg22 ∉ hostOps2_W)).trans <| (B10_of_ne m ρ c main_arg22 (by decide)).trans <| (StableHlo.after_of_writes_sub hostOps1_6 _ hostOps1_6_writes (by decide : main_arg22 ∉ hostOps1_6_W)).trans <| (StableHlo.after_of_writes_sub hostOps1_5 _ hostOps1_5_writes (by decide : main_arg22 ∉ hostOps1_5_W)).trans <| (StableHlo.after_of_writes_sub hostOps1_4 _ hostOps1_4_writes (by decide : main_arg22 ∉ hostOps1_4_W)).trans <| (StableHlo.after_of_writes_sub hostOps1_3 _ hostOps1_3_writes (by decide : main_arg22 ∉ hostOps1_3_W)).trans <| (StableHlo.after_of_writes_sub hostOps1_2 _ hostOps1_2_writes (by decide : main_arg22 ∉ hostOps1_2_W)).trans <| (StableHlo.after_of_writes_sub hostOps1_1 _ hostOps1_1_writes (by decide : main_arg22 ∉ hostOps1_1_W)).trans <| (StableHlo.after_of_writes_sub hostOps1 _ hostOps1_writes (by decide : main_arg22 ∉ hostOps1_W)).trans <| (B2_of_ne m ρ c main_arg22 (by decide)).trans <| (StableHlo.after_of_writes_sub hostOps0 _ hostOps0_writes (by decide : main_arg22 ∉ hostOps0_W)).trans <| rfl) (ix1 (0 : Fin 1))
  rw [ha, hw, hb]

/-- Head 5's buffer after the stretch that computes it. -/
theorem head5_at (r : Fin 1024) :
    B17 m ρ c (Proc.devRef .tc main_v83) (ix2 r (0 : Fin 1))
      = Cert.Spec.head (Cert.Spec.act4 (kerArgs m c)) (kerArgs m c).l5w (kerArgs m c).l5b r := by
  have e : B17 m ρ c (Proc.devRef .tc main_v83)
      = Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x147_S147x1_S1024x1_1_0_0_1_n_n none (B16 m ρ c (Proc.devRef .tc main_v73)) (B16 m ρ c (Proc.devRef .tc main_arg21)))
          (broadcastInDim S1024x1 ![0, 1] bcast_S1x1_S1024x1_0_1 (broadcastInDim S1x1 ![1] bcast_S1_S1x1_1 (B16 m ρ c (Proc.devRef .tc main_arg22)))))))) := by
    show StableHlo.after hostOps5 (B16 m ρ c) (Proc.devRef .tc main_v83) = _
    after_results <;> rfl
  rw [e]
  exact head5_core m ρ c r

/-- Head 6's operations, applied to the activation and the head's two arguments as boundary 18 holds them, read at a row. -/
theorem head6_core (r : Fin 1024) :
    (Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x26_S26x1_S1024x1_1_0_0_1_n_n none (B18 m ρ c (Proc.devRef .tc main_v86)) (B18 m ρ c (Proc.devRef .tc main_arg23)))
          (broadcastInDim S1024x1 ![0, 1] bcast_S1x1_S1024x1_0_1 (broadcastInDim S1x1 ![1] bcast_S1_S1x1_1 (B18 m ρ c (Proc.devRef .tc main_arg24))))))))) (ix2 r (0 : Fin 1))
      = Cert.Spec.head (Cert.Spec.act5 (kerArgs m c)) (kerArgs m c).l6w (kerArgs m c).l6b r := by
  rw [head6_read]
  have ha : (fun (r : Fin 1024) (i : Fin 26) => B18 m ρ c (Proc.devRef .tc main_v86) (ix2 r i)) = Cert.Spec.act5 (kerArgs m c) :=
    funext fun r => funext fun i => act5_at m ρ c r i
  have hw : (fun (i : Fin 26) => B18 m ρ c (Proc.devRef .tc main_arg23) (ix2 i (0 : Fin 1))) = (kerArgs m c).l6w :=
    funext fun i => congrFun ((B18_of_ne m ρ c main_arg23 (by decide)).trans <| (StableHlo.after_of_writes_sub hostOps5 _ hostOps5_writes (by decide : main_arg23 ∉ hostOps5_W)).trans <| (B16_of_ne m ρ c main_arg23 (by decide)).trans <| (StableHlo.after_of_writes_sub hostOps4 _ hostOps4_writes (by decide : main_arg23 ∉ hostOps4_W)).trans <| (B14_of_ne m ρ c main_arg23 (by decide)).trans <| (StableHlo.after_of_writes_sub hostOps3 _ hostOps3_writes (by decide : main_arg23 ∉ hostOps3_W)).trans <| (B12_of_ne m ρ c main_arg23 (by decide)).trans <| (StableHlo.after_of_writes_sub hostOps2 _ hostOps2_writes (by decide : main_arg23 ∉ hostOps2_W)).trans <| (B10_of_ne m ρ c main_arg23 (by decide)).trans <| (StableHlo.after_of_writes_sub hostOps1_6 _ hostOps1_6_writes (by decide : main_arg23 ∉ hostOps1_6_W)).trans <| (StableHlo.after_of_writes_sub hostOps1_5 _ hostOps1_5_writes (by decide : main_arg23 ∉ hostOps1_5_W)).trans <| (StableHlo.after_of_writes_sub hostOps1_4 _ hostOps1_4_writes (by decide : main_arg23 ∉ hostOps1_4_W)).trans <| (StableHlo.after_of_writes_sub hostOps1_3 _ hostOps1_3_writes (by decide : main_arg23 ∉ hostOps1_3_W)).trans <| (StableHlo.after_of_writes_sub hostOps1_2 _ hostOps1_2_writes (by decide : main_arg23 ∉ hostOps1_2_W)).trans <| (StableHlo.after_of_writes_sub hostOps1_1 _ hostOps1_1_writes (by decide : main_arg23 ∉ hostOps1_1_W)).trans <| (StableHlo.after_of_writes_sub hostOps1 _ hostOps1_writes (by decide : main_arg23 ∉ hostOps1_W)).trans <| (B2_of_ne m ρ c main_arg23 (by decide)).trans <| (StableHlo.after_of_writes_sub hostOps0 _ hostOps0_writes (by decide : main_arg23 ∉ hostOps0_W)).trans <| rfl) (ix2 i (0 : Fin 1))
  have hb : B18 m ρ c (Proc.devRef .tc main_arg24) (ix1 (0 : Fin 1)) = (kerArgs m c).l6b :=
    congrFun ((B18_of_ne m ρ c main_arg24 (by decide)).trans <| (StableHlo.after_of_writes_sub hostOps5 _ hostOps5_writes (by decide : main_arg24 ∉ hostOps5_W)).trans <| (B16_of_ne m ρ c main_arg24 (by decide)).trans <| (StableHlo.after_of_writes_sub hostOps4 _ hostOps4_writes (by decide : main_arg24 ∉ hostOps4_W)).trans <| (B14_of_ne m ρ c main_arg24 (by decide)).trans <| (StableHlo.after_of_writes_sub hostOps3 _ hostOps3_writes (by decide : main_arg24 ∉ hostOps3_W)).trans <| (B12_of_ne m ρ c main_arg24 (by decide)).trans <| (StableHlo.after_of_writes_sub hostOps2 _ hostOps2_writes (by decide : main_arg24 ∉ hostOps2_W)).trans <| (B10_of_ne m ρ c main_arg24 (by decide)).trans <| (StableHlo.after_of_writes_sub hostOps1_6 _ hostOps1_6_writes (by decide : main_arg24 ∉ hostOps1_6_W)).trans <| (StableHlo.after_of_writes_sub hostOps1_5 _ hostOps1_5_writes (by decide : main_arg24 ∉ hostOps1_5_W)).trans <| (StableHlo.after_of_writes_sub hostOps1_4 _ hostOps1_4_writes (by decide : main_arg24 ∉ hostOps1_4_W)).trans <| (StableHlo.after_of_writes_sub hostOps1_3 _ hostOps1_3_writes (by decide : main_arg24 ∉ hostOps1_3_W)).trans <| (StableHlo.after_of_writes_sub hostOps1_2 _ hostOps1_2_writes (by decide : main_arg24 ∉ hostOps1_2_W)).trans <| (StableHlo.after_of_writes_sub hostOps1_1 _ hostOps1_1_writes (by decide : main_arg24 ∉ hostOps1_1_W)).trans <| (StableHlo.after_of_writes_sub hostOps1 _ hostOps1_writes (by decide : main_arg24 ∉ hostOps1_W)).trans <| (B2_of_ne m ρ c main_arg24 (by decide)).trans <| (StableHlo.after_of_writes_sub hostOps0 _ hostOps0_writes (by decide : main_arg24 ∉ hostOps0_W)).trans <| rfl) (ix1 (0 : Fin 1))
  rw [ha, hw, hb]

/-- Head 6's buffer after the stretch that computes it. -/
theorem head6_at (r : Fin 1024) :
    B19 m ρ c (Proc.devRef .tc main_v96) (ix2 r (0 : Fin 1))
      = Cert.Spec.head (Cert.Spec.act5 (kerArgs m c)) (kerArgs m c).l6w (kerArgs m c).l6b r := by
  have e : B19 m ρ c (Proc.devRef .tc main_v96)
      = Host.divf (broadcastInDim S1024x1 ![] bcast_S_S1024x1 (constant (F := Ideal) S_ .f32 0x3F800000#32))
      (addf (broadcastInDim S1024x1 ![] bcast_S_S1024x1 (constant (F := Ideal) S_ .f32 0x3F800000#32))
        (Host.exp (Host.negf (addf (Host.dotGeneral (F := Ideal) (φ₁ := .f32) (φ₂ := .f32) dot_S1024x26_S26x1_S1024x1_1_0_0_1_n_n none (B18 m ρ c (Proc.devRef .tc main_v86)) (B18 m ρ c (Proc.devRef .tc main_arg23)))
          (broadcastInDim S1024x1 ![0, 1] bcast_S1x1_S1024x1_0_1 (broadcastInDim S1x1 ![1] bcast_S1_S1x1_1 (B18 m ρ c (Proc.devRef .tc main_arg24)))))))) := by
    show StableHlo.after hostOps6 (B18 m ρ c) (Proc.devRef .tc main_v96) = _
    after_results <;> rfl
  rw [e]
  exact head6_core m ρ c r

/-- A concatenation along the column axis into six columns, read at column `k` where piece `k` is a one-column array and
    the `k` pieces before it have one column each: piece `k` at its one column, same row. -/
theorem concat6_at {α : Type} (xs : List ((s : Shape) × (s.Idx → α)))
    (hc : Shape.Concatenates (xs.map (·.1)) S1024x6 1) (r : Fin 1024) (k : Nat) (hk6 : k < 6) (hk : k < xs.length)
    (u : S1024x1.Idx → α) (hxk : xs[k] = ⟨S1024x1, u⟩)
    (hpre : (((xs.take k).map (·.1)).map fun s =>
      if h : s.rank = S1024x6.rank then s.size ((1 : Fin S1024x6.rank).cast h.symm) else 0).sum = k) :
    concatenate S1024x6 1 xs hc (ix2 r (⟨k, hk6⟩ : Fin 6)) = u (ix2 r (0 : Fin 1)) :=
  concatenate_apply_piece 1 xs hc (ix2 r (⟨k, hk6⟩ : Fin 6)) k hk S1024x1 u hxk rfl k hpre (ix2 r (0 : Fin 1))
    (fun b hb => by match b with | ⟨0, _⟩ => rfl | ⟨1, _⟩ => exact absurd rfl hb) (by show k + 0 = k; rfl)

/-- THE KERNEL'S RESULT at row `r`, column `h`: the specification's, of the kernel's arguments. -/
theorem out_at (r : Fin 1024) (h : Fin 6) :
    B19 m ρ c (Proc.devRef .tc main_v97) (ix2 r h) = Cert.Spec.out (kerArgs m c) r h := by
  show StableHlo.after hostOps6 (B18 m ρ c) (Proc.devRef .tc main_v97) (ix2 r h) = _
  after_results
  match h with
  | ⟨0, _⟩ =>
    refine (concat6_at _ _ r 0 (by decide) (by show (0 : ℕ) < 6; decide) _ rfl rfl).trans ?_
    after_results
    exact (congrFun ((B18_of_ne m ρ c main_v28 (by decide)).trans <| (StableHlo.after_of_writes_sub hostOps5 _ hostOps5_writes (by decide : main_v28 ∉ hostOps5_W)).trans <| (B16_of_ne m ρ c main_v28 (by decide)).trans <| (StableHlo.after_of_writes_sub hostOps4 _ hostOps4_writes (by decide : main_v28 ∉ hostOps4_W)).trans <| (B14_of_ne m ρ c main_v28 (by decide)).trans <| (StableHlo.after_of_writes_sub hostOps3 _ hostOps3_writes (by decide : main_v28 ∉ hostOps3_W)).trans <| (B12_of_ne m ρ c main_v28 (by decide)).trans <| (StableHlo.after_of_writes_sub hostOps2 _ hostOps2_writes (by decide : main_v28 ∉ hostOps2_W)).trans <| (B10_of_ne m ρ c main_v28 (by decide)).trans <| (StableHlo.after_of_writes_sub hostOps1_6 _ hostOps1_6_writes (by decide : main_v28 ∉ hostOps1_6_W)).trans <| (StableHlo.after_of_writes_sub hostOps1_5 _ hostOps1_5_writes (by decide : main_v28 ∉ hostOps1_5_W)).trans <| (StableHlo.after_of_writes_sub hostOps1_4 _ hostOps1_4_writes (by decide : main_v28 ∉ hostOps1_4_W)).trans <| (StableHlo.after_of_writes_sub hostOps1_3 _ hostOps1_3_writes (by decide : main_v28 ∉ hostOps1_3_W)).trans <| (StableHlo.after_of_writes_sub hostOps1_2 _ hostOps1_2_writes (by decide : main_v28 ∉ hostOps1_2_W)).trans <| (StableHlo.after_of_writes_sub hostOps1_1 _ hostOps1_1_writes (by decide : main_v28 ∉ hostOps1_1_W))) (ix2 r (0 : Fin 1))).trans (head1_at m ρ c r)
  | ⟨1, _⟩ =>
    refine (concat6_at _ _ r 1 (by decide) (by show (1 : ℕ) < 6; decide) _ rfl rfl).trans ?_
    after_results
    exact (congrFun ((B18_of_ne m ρ c main_v44 (by decide)).trans <| (StableHlo.after_of_writes_sub hostOps5 _ hostOps5_writes (by decide : main_v44 ∉ hostOps5_W)).trans <| (B16_of_ne m ρ c main_v44 (by decide)).trans <| (StableHlo.after_of_writes_sub hostOps4 _ hostOps4_writes (by decide : main_v44 ∉ hostOps4_W)).trans <| (B14_of_ne m ρ c main_v44 (by decide)).trans <| (StableHlo.after_of_writes_sub hostOps3 _ hostOps3_writes (by decide : main_v44 ∉ hostOps3_W)).trans <| (B12_of_ne m ρ c main_v44 (by decide))) (ix2 r (0 : Fin 1))).trans (head2_at m ρ c r)
  | ⟨2, _⟩ =>
    refine (concat6_at _ _ r 2 (by decide) (by show (2 : ℕ) < 6; decide) _ rfl rfl).trans ?_
    after_results
    exact (congrFun ((B18_of_ne m ρ c main_v57 (by decide)).trans <| (StableHlo.after_of_writes_sub hostOps5 _ hostOps5_writes (by decide : main_v57 ∉ hostOps5_W)).trans <| (B16_of_ne m ρ c main_v57 (by decide)).trans <| (StableHlo.after_of_writes_sub hostOps4 _ hostOps4_writes (by decide : main_v57 ∉ hostOps4_W)).trans <| (B14_of_ne m ρ c main_v57 (by decide))) (ix2 r (0 : Fin 1))).trans (head3_at m ρ c r)
  | ⟨3, _⟩ =>
    refine (concat6_at _ _ r 3 (by decide) (by show (3 : ℕ) < 6; decide) _ rfl rfl).trans ?_
    after_results
    exact (congrFun ((B18_of_ne m ρ c main_v70 (by decide)).trans <| (StableHlo.after_of_writes_sub hostOps5 _ hostOps5_writes (by decide : main_v70 ∉ hostOps5_W)).trans <| (B16_of_ne m ρ c main_v70 (by decide))) (ix2 r (0 : Fin 1))).trans (head4_at m ρ c r)
  | ⟨4, _⟩ =>
    refine (concat6_at _ _ r 4 (by decide) (by show (4 : ℕ) < 6; decide) _ rfl rfl).trans ?_
    after_results
    exact (congrFun ((B18_of_ne m ρ c main_v83 (by decide))) (ix2 r (0 : Fin 1))).trans (head5_at m ρ c r)
  | ⟨5, _⟩ =>
    refine (concat6_at _ _ r 5 (by decide) (by show (5 : ℕ) < 6; decide) _ rfl rfl).trans ?_
    after_results
    exact head6_core m ρ c r

end Cert.KernelIdeal.LayerValue

end
-- ==== Proof.RefSide.lean ====
/- The reference network's result, index by index, is the specification's function of the reference's arguments.
   The reference computes, for a batch of 1024 rows: a diagonal layer (each of 9229 genes sums its three features, each
   times its own weight, adds the gene's bias, and takes tanh); five masked layers (the previous activation times the
   weights where the mask bit is set, summed over the previous width, plus the bias, through tanh); and after each of the
   six activations a head (the activation times a weight column, plus a scalar bias, through the logistic function written
   as one over one plus the exponential of the negation). The six heads are joined as the six columns of the result.
   Each operation is read at one index from its operands at an index; the index functions that come out are identified
   with rows and columns; a mask bit read as a number times a weight is the weight or zero; and the result's column h
   is head h at its one column. -/
import proofs.«156066_j47502338294403_1_alg».proof.Proof.Gen.ReferenceIdeal.Read
import proofs.«156066_j47502338294403_1_alg».proof.Proof.Spec
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- The reference's thirty argument buffers read as the network's arguments, coordinate by coordinate. -/
def refArgs (m : (ℓ : Loc nD τ sig) → Buf (Elt Ideal) ℓ) (c : Dev nD) : Cert.Spec.Args where
  x := fun r i => m ((c.tc : Thread nD τ).loc main_arg0) (ValueIdx.ix2 r i)
  w0 := fun i => m ((c.tc : Thread nD τ).loc main_arg1) (ValueIdx.ix1 i)
  b0 := fun i => m ((c.tc : Thread nD τ).loc main_arg2) (ValueIdx.ix1 i)
  W1 := fun i j => m ((c.tc : Thread nD τ).loc main_arg3) (ValueIdx.ix2 i j)
  b1 := fun i => m ((c.tc : Thread nD τ).loc main_arg4) (ValueIdx.ix1 i)
  W2 := fun i j => m ((c.tc : Thread nD τ).loc main_arg5) (ValueIdx.ix2 i j)
  b2 := fun i => m ((c.tc : Thread nD τ).loc main_arg6) (ValueIdx.ix1 i)
  W3 := fun i j => m ((c.tc : Thread nD τ).loc main_arg7) (ValueIdx.ix2 i j)
  b3 := fun i => m ((c.tc : Thread nD τ).loc main_arg8) (ValueIdx.ix1 i)
  W4 := fun i j => m ((c.tc : Thread nD τ).loc main_arg9) (ValueIdx.ix2 i j)
  b4 := fun i => m ((c.tc : Thread nD τ).loc main_arg10) (ValueIdx.ix1 i)
  W5 := fun i j => m ((c.tc : Thread nD τ).loc main_arg11) (ValueIdx.ix2 i j)
  b5 := fun i => m ((c.tc : Thread nD τ).loc main_arg12) (ValueIdx.ix1 i)
  l1w := fun i => m ((c.tc : Thread nD τ).loc main_arg13) (ValueIdx.ix2 i 0)
  l1b := m ((c.tc : Thread nD τ).loc main_arg14) (ValueIdx.ix1 0)
  l2w := fun i => m ((c.tc : Thread nD τ).loc main_arg15) (ValueIdx.ix2 i 0)
  l2b := m ((c.tc : Thread nD τ).loc main_arg16) (ValueIdx.ix1 0)
  l3w := fun i => m ((c.tc : Thread nD τ).loc main_arg17) (ValueIdx.ix2 i 0)
  l3b := m ((c.tc : Thread nD τ).loc main_arg18) (ValueIdx.ix1 0)
  l4w := fun i => m ((c.tc : Thread nD τ).loc main_arg19) (ValueIdx.ix2 i 0)
  l4b := m ((c.tc : Thread nD τ).loc main_arg20) (ValueIdx.ix1 0)
  l5w := fun i => m ((c.tc : Thread nD τ).loc main_arg21) (ValueIdx.ix2 i 0)
  l5b := m ((c.tc : Thread nD τ).loc main_arg22) (ValueIdx.ix1 0)
  l6w := fun i => m ((c.tc : Thread nD τ).loc main_arg23) (ValueIdx.ix2 i 0)
  l6b := m ((c.tc : Thread nD τ).loc main_arg24) (ValueIdx.ix1 0)
  m1 := fun i j => m ((c.tc : Thread nD τ).loc main_arg25) (ValueIdx.ix2 i j)
  m2 := fun i j => m ((c.tc : Thread nD τ).loc main_arg26) (ValueIdx.ix2 i j)
  m3 := fun i j => m ((c.tc : Thread nD τ).loc main_arg27) (ValueIdx.ix2 i j)
  m4 := fun i j => m ((c.tc : Thread nD τ).loc main_arg28) (ValueIdx.ix2 i j)
  m5 := fun i j => m ((c.tc : Thread nD τ).loc main_arg29) (ValueIdx.ix2 i j)

/-! ## Two facts about extended reals -/

/-- A one-bit word read as an unsigned number is one when the bit is set and zero when it is not, so a weight times
    it is the weight where the bit is set and nothing elsewhere (a product with zero is zero for every extended real). -/
theorem mul_bit (W : EReal) (b : BitVec 1) :
    W * (FloatOps.uitofp (F := Ideal) .f32 b : EReal) = if b = 1#1 then W else 0 := by
  show W * ((b.toNat : ℝ) : EReal) = _
  rcases BitVec.eq_zero_or_eq_one b with h | h
  · subst h; simp
  · subst h; simp

/-- One over one plus the exponential of the negation is the logistic function. -/
theorem logistic_spelt (z : EReal) :
    Ideal.div (Ideal.ofBits .f32 0x3F800000#32) (Ideal.ofBits .f32 0x3F800000#32 + Ideal.exp (-z)) = Ideal.logistic z := by
  rw [Ideal.ofBits_one_f32]; rfl

section Layers

variable (x0 : (⟨S1024x27687, .f32⟩ : BufTy).Contents (Elt Ideal))
  (x1 : (⟨S27687, .f32⟩ : BufTy).Contents (Elt Ideal))
  (x2 : (⟨S9229, .f32⟩ : BufTy).Contents (Elt Ideal))
  (x3 : (⟨S9229x1387, .f32⟩ : BufTy).Contents (Elt Ideal))
  (x4 : (⟨S1387, .f32⟩ : BufTy).Contents (Elt Ideal))
  (x5 : (⟨S1387x1066, .f32⟩ : BufTy).Contents (Elt Ideal))
  (x6 : (⟨S1066, .f32⟩ : BufTy).Contents (Elt Ideal))
  (x7 : (⟨S1066x447, .f32⟩ : BufTy).Contents (Elt Ideal))
  (x8 : (⟨S447, .f32⟩ : BufTy).Contents (Elt Ideal))
  (x9 : (⟨S447x147, .f32⟩ : BufTy).Contents (Elt Ideal))
  (x10 : (⟨S147, .f32⟩ : BufTy).Contents (Elt Ideal))
  (x11 : (⟨S147x26, .f32⟩ : BufTy).Contents (Elt Ideal))
  (x12 : (⟨S26, .f32⟩ : BufTy).Contents (Elt Ideal))
  (x13 : (⟨S9229x1, .f32⟩ : BufTy).Contents (Elt Ideal))
  (x14 : (⟨S1, .f32⟩ : BufTy).Contents (Elt Ideal))
  (x15 : (⟨S1387x1, .f32⟩ : BufTy).Contents (Elt Ideal))
  (x16 : (⟨S1, .f32⟩ : BufTy).Contents (Elt Ideal))
  (x17 : (⟨S1066x1, .f32⟩ : BufTy).Contents (Elt Ideal))
  (x18 : (⟨S1, .f32⟩ : BufTy).Contents (Elt Ideal))
  (x19 : (⟨S447x1, .f32⟩ : BufTy).Contents (Elt Ideal))
  (x20 : (⟨S1, .f32⟩ : BufTy).Contents (Elt Ideal))
  (x21 : (⟨S147x1, .f32⟩ : BufTy).Contents (Elt Ideal))
  (x22 : (⟨S1, .f32⟩ : BufTy).Contents (Elt Ideal))
  (x23 : (⟨S26x1, .f32⟩ : BufTy).Contents (Elt Ideal))
  (x24 : (⟨S1, .f32⟩ : BufTy).Contents (Elt Ideal))
  (x25 : (⟨S9229x1387, .i1⟩ : BufTy).Contents (Elt Ideal))
  (x26 : (⟨S1387x1066, .i1⟩ : BufTy).Contents (Elt Ideal))
  (x27 : (⟨S1066x447, .i1⟩ : BufTy).Contents (Elt Ideal))
  (x28 : (⟨S447x147, .i1⟩ : BufTy).Contents (Elt Ideal))
  (x29 : (⟨S147x26, .i1⟩ : BufTy).Contents (Elt Ideal))

/-! ## The diagonal layer

The product of the input with the broadcast feature weights is reshaped from 27687 features to 9229 genes of 3, row-major,
so element (r, g, k) of the reshaped array is feature 3g + k of row r; the sum over k starts from zero. -/

theorem diag_at (r : Fin 1024) (g : Fin 9229) :
    Read.val_main_v8 (F := Ideal) x0 x1 x2 (ix2 r g)
      = Cert.Spec.diag (fun r i => x0 (ix2 r i)) (fun i => x1 (ix1 i)) (fun i => x2 (ix1 i)) r g := by
  have e3 : ∀ k : Fin 3, Read.idx_main_v3 (Read.idx_main_v4 (ix2 r g) k)
      = ix2 r (⟨3 * g.val + k.val, by omega⟩ : Fin 27687) := fun k =>
    funext fun a => Fin.ext (by
      have hr := r.isLt; have hg := g.isLt; have hk := k.isLt
      match a with
      | ⟨0, _⟩ => show ((r.val * 9229 + g.val) * 3 + k.val) / 27687 = r.val; omega
      | ⟨1, _⟩ => show ((r.val * 9229 + g.val) * 3 + k.val) % 27687 = 3 * g.val + k.val; omega)
  have e1 : ∀ q : Fin 27687, Read.idx_main_v0 (Read.idx_main_v1 (ix2 r q)) = ix1 q := fun q =>
    funext fun a => Fin.ext (by match a with | ⟨0, _⟩ => rfl)
  have e6 : Read.idx_main_v5 (Read.idx_main_v6 (ix2 r g)) = ix1 g :=
    funext fun a => Fin.ext (by match a with | ⟨0, _⟩ => rfl)
  rw [Read.val_main_v8_apply, Read.val_main_v7_apply, Read.val_main_v4_apply, Read.val_main_v6_apply,
    Read.val_main_v5_apply, e6, Read.val_main_cst_apply]
  simp only [Read.val_main_v3_apply, e3, Read.val_main_v2_apply, Read.val_main_v1_apply, Read.val_main_v0_apply, e1]
  simp only [Ideal.hostUnary_tanh_def, Ideal.addf_def, Ideal.mulf_def, Ideal.ofBits_def, Ideal.ofBits_zero_f32, zero_add]
  rfl

/-! ## The five masked layers -/

/-- Layer 1, from width 9229 to width 1387: the contraction runs over the previous activation's units; the weight array is the
    weights times the mask read as a number, which is the weight where the mask is set and zero elsewhere. -/
theorem layer1_at (r : Fin 1024) (j : Fin 1387) :
    Read.val_main_v25 (F := Ideal) x0 x1 x2 x3 x4 x25 (ix2 r j)
      = Cert.Spec.layer (fun r i => Read.val_main_v8 (F := Ideal) x0 x1 x2 (ix2 r i)) (fun i j => x3 (ix2 i j))
          (fun i j => x25 (ix2 i j)) (fun j => x4 (ix1 j)) r j := by
  have el : ∀ k : Fin 9229, Read.lidx_main_v21 (ix2 r j) k = ix2 r k := fun k =>
    funext fun a => Fin.ext (by match a with | ⟨0, _⟩ => rfl | ⟨1, _⟩ => rfl)
  have er : ∀ k : Fin 9229, Read.ridx_main_v21 (ix2 r j) k = ix2 k j := fun k =>
    funext fun a => Fin.ext (by match a with | ⟨0, _⟩ => rfl | ⟨1, _⟩ => rfl)
  have eb : Read.idx_main_v22 (Read.idx_main_v23 (ix2 r j)) = ix1 j :=
    funext fun a => Fin.ext (by match a with | ⟨0, _⟩ => rfl)
  rw [Read.val_main_v25_apply, Read.val_main_v24_apply, Read.val_main_v21_apply, Read.val_main_v23_apply,
    Read.val_main_v22_apply, eb]
  simp only [el, er, Read.val_main_v20_apply, Read.val_main_v19_apply]
  simp only [Ideal.hostUnary_tanh_def, Ideal.addf_def, Ideal.mulf_def, mul_bit]
  rfl

/-- Layer 2, from width 1387 to width 1066: the contraction runs over the previous activation's units; the weight array is the
    weights times the mask read as a number, which is the weight where the mask is set and zero elsewhere. -/
theorem layer2_at (r : Fin 1024) (j : Fin 1066) :
    Read.val_main_v42 (F := Ideal) x0 x1 x2 x3 x4 x5 x6 x25 x26 (ix2 r j)
      = Cert.Spec.layer (fun r i => Read.val_main_v25 (F := Ideal) x0 x1 x2 x3 x4 x25 (ix2 r i)) (fun i j => x5 (ix2 i j))
          (fun i j => x26 (ix2 i j)) (fun j => x6 (ix1 j)) r j := by
  have el : ∀ k : Fin 1387, Read.lidx_main_v38 (ix2 r j) k = ix2 r k := fun k =>
    funext fun a => Fin.ext (by match a with | ⟨0, _⟩ => rfl | ⟨1, _⟩ => rfl)
  have er : ∀ k : Fin 1387, Read.ridx_main_v38 (ix2 r j) k = ix2 k j := fun k =>
    funext fun a => Fin.ext (by match a with | ⟨0, _⟩ => rfl | ⟨1, _⟩ => rfl)
  have eb : Read.idx_main_v39 (Read.idx_main_v40 (ix2 r j)) = ix1 j :=
    funext fun a => Fin.ext (by match a with | ⟨0, _⟩ => rfl)
  rw [Read.val_main_v42_apply, Read.val_main_v41_apply, Read.val_main_v38_apply, Read.val_main_v40_apply,
    Read.val_main_v39_apply, eb]
  simp only [el, er, Read.val_main_v37_apply, Read.val_main_v36_apply]
  simp only [Ideal.hostUnary_tanh_def, Ideal.addf_def, Ideal.mulf_def, mul_bit]
  rfl

/-- Layer 3, from width 1066 to width 447: the contraction runs over the previous activation's units; the weight array is the
    weights times the mask read as a number, which is the weight where the mask is set and zero elsewhere. -/
theorem layer3_at (r : Fin 1024) (j : Fin 447) :
    Read.val_main_v59 (F := Ideal) x0 x1 x2 x3 x4 x5 x6 x7 x8 x25 x26 x27 (ix2 r j)
      = Cert.Spec.layer (fun r i => Read.val_main_v42 (F := Ideal) x0 x1 x2 x3 x4 x5 x6 x25 x26 (ix2 r i)) (fun i j => x7 (ix2 i j))
          (fun i j => x27 (ix2 i j)) (fun j => x8 (ix1 j)) r j := by
  have el : ∀ k : Fin 1066, Read.lidx_main_v55 (ix2 r j) k = ix2 r k := fun k =>
    funext fun a => Fin.ext (by match a with | ⟨0, _⟩ => rfl | ⟨1, _⟩ => rfl)
  have er : ∀ k : Fin 1066, Read.ridx_main_v55 (ix2 r j) k = ix2 k j := fun k =>
    funext fun a => Fin.ext (by match a with | ⟨0, _⟩ => rfl | ⟨1, _⟩ => rfl)
  have eb : Read.idx_main_v56 (Read.idx_main_v57 (ix2 r j)) = ix1 j :=
    funext fun a => Fin.ext (by match a with | ⟨0, _⟩ => rfl)
  rw [Read.val_main_v59_apply, Read.val_main_v58_apply, Read.val_main_v55_apply, Read.val_main_v57_apply,
    Read.val_main_v56_apply, eb]
  simp only [el, er, Read.val_main_v54_apply, Read.val_main_v53_apply]
  simp only [Ideal.hostUnary_tanh_def, Ideal.addf_def, Ideal.mulf_def, mul_bit]
  rfl

/-- Layer 4, from width 447 to width 147: the contraction runs over the previous activation's units; the weight array is the
    weights times the mask read as a number, which is the weight where the mask is set and zero elsewhere. -/
theorem layer4_at (r : Fin 1024) (j : Fin 147) :
    Read.val_main_v76 (F := Ideal) x0 x1 x2 x3 x4 x5 x6 x7 x8 x9 x10 x25 x26 x27 x28 (ix2 r j)
      = Cert.Spec.layer (fun r i => Read.val_main_v59 (F := Ideal) x0 x1 x2 x3 x4 x5 x6 x7 x8 x25 x26 x27 (ix2 r i)) (fun i j => x9 (ix2 i j))
          (fun i j => x28 (ix2 i j)) (fun j => x10 (ix1 j)) r j := by
  have el : ∀ k : Fin 447, Read.lidx_main_v72 (ix2 r j) k = ix2 r k := fun k =>
    funext fun a => Fin.ext (by match a with | ⟨0, _⟩ => rfl | ⟨1, _⟩ => rfl)
  have er : ∀ k : Fin 447, Read.ridx_main_v72 (ix2 r j) k = ix2 k j := fun k =>
    funext fun a => Fin.ext (by match a with | ⟨0, _⟩ => rfl | ⟨1, _⟩ => rfl)
  have eb : Read.idx_main_v73 (Read.idx_main_v74 (ix2 r j)) = ix1 j :=
    funext fun a => Fin.ext (by match a with | ⟨0, _⟩ => rfl)
  rw [Read.val_main_v76_apply, Read.val_main_v75_apply, Read.val_main_v72_apply, Read.val_main_v74_apply,
    Read.val_main_v73_apply, eb]
  simp only [el, er, Read.val_main_v71_apply, Read.val_main_v70_apply]
  simp only [Ideal.hostUnary_tanh_def, Ideal.addf_def, Ideal.mulf_def, mul_bit]
  rfl

/-- Layer 5, from width 147 to width 26: the contraction runs over the previous activation's units; the weight array is the
    weights times the mask read as a number, which is the weight where the mask is set and zero elsewhere. -/
theorem layer5_at (r : Fin 1024) (j : Fin 26) :
    Read.val_main_v93 (F := Ideal) x0 x1 x2 x3 x4 x5 x6 x7 x8 x9 x10 x11 x12 x25 x26 x27 x28 x29 (ix2 r j)
      = Cert.Spec.layer (fun r i => Read.val_main_v76 (F := Ideal) x0 x1 x2 x3 x4 x5 x6 x7 x8 x9 x10 x25 x26 x27 x28 (ix2 r i)) (fun i j => x11 (ix2 i j))
          (fun i j => x29 (ix2 i j)) (fun j => x12 (ix1 j)) r j := by
  have el : ∀ k : Fin 147, Read.lidx_main_v89 (ix2 r j) k = ix2 r k := fun k =>
    funext fun a => Fin.ext (by match a with | ⟨0, _⟩ => rfl | ⟨1, _⟩ => rfl)
  have er : ∀ k : Fin 147, Read.ridx_main_v89 (ix2 r j) k = ix2 k j := fun k =>
    funext fun a => Fin.ext (by match a with | ⟨0, _⟩ => rfl | ⟨1, _⟩ => rfl)
  have eb : Read.idx_main_v90 (Read.idx_main_v91 (ix2 r j)) = ix1 j :=
    funext fun a => Fin.ext (by match a with | ⟨0, _⟩ => rfl)
  rw [Read.val_main_v93_apply, Read.val_main_v92_apply, Read.val_main_v89_apply, Read.val_main_v91_apply,
    Read.val_main_v90_apply, eb]
  simp only [el, er, Read.val_main_v88_apply, Read.val_main_v87_apply]
  simp only [Ideal.hostUnary_tanh_def, Ideal.addf_def, Ideal.mulf_def, mul_bit]
  rfl

/-! ## The six heads -/

/-- Head 1, read off the activation of width 9229: its product with the weight column plus the scalar bias, through
    one over one plus the exponential of the negation. -/
theorem head1_at (r : Fin 1024) :
    Read.val_main_v18 (F := Ideal) x0 x1 x2 x13 x14 (ix2 r (0 : Fin 1))
      = Cert.Spec.head (fun r i => Read.val_main_v8 (F := Ideal) x0 x1 x2 (ix2 r i)) (fun i => x13 (ix2 i (0 : Fin 1)))
          (x14 (ix1 (0 : Fin 1))) r := by
  have el : ∀ k : Fin 9229, Read.lidx_main_v9 (ix2 r (0 : Fin 1)) k = ix2 r k := fun k =>
    funext fun a => Fin.ext (by match a with | ⟨0, _⟩ => rfl | ⟨1, _⟩ => rfl)
  have er : ∀ k : Fin 9229, Read.ridx_main_v9 (ix2 r (0 : Fin 1)) k = ix2 k (0 : Fin 1) := fun k =>
    funext fun a => Fin.ext (by match a with | ⟨0, _⟩ => rfl | ⟨1, _⟩ => rfl)
  have eb : Read.idx_main_v10 (Read.idx_main_v11 (ix2 r (0 : Fin 1))) = ix1 (0 : Fin 1) :=
    funext fun a => Fin.ext (by match a with | ⟨0, _⟩ => rfl)
  rw [Read.val_main_v18_apply, Read.val_main_v17_apply, Read.val_main_cst_1_apply, Read.val_main_v16_apply,
    Read.val_main_v15_apply, Read.val_main_cst_0_apply, Read.val_main_v14_apply, Read.val_main_v13_apply,
    Read.val_main_v12_apply, Read.val_main_v9_apply, Read.val_main_v11_apply, Read.val_main_v10_apply, eb]
  simp only [el, er]
  simp only [Ideal.hostDivf_def, Ideal.ofBits_def, Ideal.addf_def, Ideal.hostUnary_exp_def, Ideal.hostNegf_def, Ideal.negf_def]
  exact logistic_spelt _

/-- Head 2, read off the activation of width 1387: its product with the weight column plus the scalar bias, through
    one over one plus the exponential of the negation. -/
theorem head2_at (r : Fin 1024) :
    Read.val_main_v35 (F := Ideal) x0 x1 x2 x3 x4 x15 x16 x25 (ix2 r (0 : Fin 1))
      = Cert.Spec.head (fun r i => Read.val_main_v25 (F := Ideal) x0 x1 x2 x3 x4 x25 (ix2 r i)) (fun i => x15 (ix2 i (0 : Fin 1)))
          (x16 (ix1 (0 : Fin 1))) r := by
  have el : ∀ k : Fin 1387, Read.lidx_main_v26 (ix2 r (0 : Fin 1)) k = ix2 r k := fun k =>
    funext fun a => Fin.ext (by match a with | ⟨0, _⟩ => rfl | ⟨1, _⟩ => rfl)
  have er : ∀ k : Fin 1387, Read.ridx_main_v26 (ix2 r (0 : Fin 1)) k = ix2 k (0 : Fin 1) := fun k =>
    funext fun a => Fin.ext (by match a with | ⟨0, _⟩ => rfl | ⟨1, _⟩ => rfl)
  have eb : Read.idx_main_v27 (Read.idx_main_v28 (ix2 r (0 : Fin 1))) = ix1 (0 : Fin 1) :=
    funext fun a => Fin.ext (by match a with | ⟨0, _⟩ => rfl)
  rw [Read.val_main_v35_apply, Read.val_main_v34_apply, Read.val_main_cst_3_apply, Read.val_main_v33_apply,
    Read.val_main_v32_apply, Read.val_main_cst_2_apply, Read.val_main_v31_apply, Read.val_main_v30_apply,
    Read.val_main_v29_apply, Read.val_main_v26_apply, Read.val_main_v28_apply, Read.val_main_v27_apply, eb]
  simp only [el, er]
  simp only [Ideal.hostDivf_def, Ideal.ofBits_def, Ideal.addf_def, Ideal.hostUnary_exp_def, Ideal.hostNegf_def, Ideal.negf_def]
  exact logistic_spelt _

/-- Head 3, read off the activation of width 1066: its product with the weight column plus the scalar bias, through
    one over one plus the exponential of the negation. -/
theorem head3_at (r : Fin 1024) :
    Read.val_main_v52 (F := Ideal) x0 x1 x2 x3 x4 x5 x6 x17 x18 x25 x26 (ix2 r (0 : Fin 1))
      = Cert.Spec.head (fun r i => Read.val_main_v42 (F := Ideal) x0 x1 x2 x3 x4 x5 x6 x25 x26 (ix2 r i)) (fun i => x17 (ix2 i (0 : Fin 1)))
          (x18 (ix1 (0 : Fin 1))) r := by
  have el : ∀ k : Fin 1066, Read.lidx_main_v43 (ix2 r (0 : Fin 1)) k = ix2 r k := fun k =>
    funext fun a => Fin.ext (by match a with | ⟨0, _⟩ => rfl | ⟨1, _⟩ => rfl)
  have er : ∀ k : Fin 1066, Read.ridx_main_v43 (ix2 r (0 : Fin 1)) k = ix2 k (0 : Fin 1) := fun k =>
    funext fun a => Fin.ext (by match a with | ⟨0, _⟩ => rfl | ⟨1, _⟩ => rfl)
  have eb : Read.idx_main_v44 (Read.idx_main_v45 (ix2 r (0 : Fin 1))) = ix1 (0 : Fin 1) :=
    funext fun a => Fin.ext (by match a with | ⟨0, _⟩ => rfl)
  rw [Read.val_main_v52_apply, Read.val_main_v51_apply, Read.val_main_cst_5_apply, Read.val_main_v50_apply,
    Read.val_main_v49_apply, Read.val_main_cst_4_apply, Read.val_main_v48_apply, Read.val_main_v47_apply,
    Read.val_main_v46_apply, Read.val_main_v43_apply, Read.val_main_v45_apply, Read.val_main_v44_apply, eb]
  simp only [el, er]
  simp only [Ideal.hostDivf_def, Ideal.ofBits_def, Ideal.addf_def, Ideal.hostUnary_exp_def, Ideal.hostNegf_def, Ideal.negf_def]
  exact logistic_spelt _

/-- Head 4, read off the activation of width 447: its product with the weight column plus the scalar bias, through
    one over one plus the exponential of the negation. -/
theorem head4_at (r : Fin 1024) :
    Read.val_main_v69 (F := Ideal) x0 x1 x2 x3 x4 x5 x6 x7 x8 x19 x20 x25 x26 x27 (ix2 r (0 : Fin 1))
      = Cert.Spec.head (fun r i => Read.val_main_v59 (F := Ideal) x0 x1 x2 x3 x4 x5 x6 x7 x8 x25 x26 x27 (ix2 r i)) (fun i => x19 (ix2 i (0 : Fin 1)))
          (x20 (ix1 (0 : Fin 1))) r := by
  have el : ∀ k : Fin 447, Read.lidx_main_v60 (ix2 r (0 : Fin 1)) k = ix2 r k := fun k =>
    funext fun a => Fin.ext (by match a with | ⟨0, _⟩ => rfl | ⟨1, _⟩ => rfl)
  have er : ∀ k : Fin 447, Read.ridx_main_v60 (ix2 r (0 : Fin 1)) k = ix2 k (0 : Fin 1) := fun k =>
    funext fun a => Fin.ext (by match a with | ⟨0, _⟩ => rfl | ⟨1, _⟩ => rfl)
  have eb : Read.idx_main_v61 (Read.idx_main_v62 (ix2 r (0 : Fin 1))) = ix1 (0 : Fin 1) :=
    funext fun a => Fin.ext (by match a with | ⟨0, _⟩ => rfl)
  rw [Read.val_main_v69_apply, Read.val_main_v68_apply, Read.val_main_cst_7_apply, Read.val_main_v67_apply,
    Read.val_main_v66_apply, Read.val_main_cst_6_apply, Read.val_main_v65_apply, Read.val_main_v64_apply,
    Read.val_main_v63_apply, Read.val_main_v60_apply, Read.val_main_v62_apply, Read.val_main_v61_apply, eb]
  simp only [el, er]
  simp only [Ideal.hostDivf_def, Ideal.ofBits_def, Ideal.addf_def, Ideal.hostUnary_exp_def, Ideal.hostNegf_def, Ideal.negf_def]
  exact logistic_spelt _

/-- Head 5, read off the activation of width 147: its product with the weight column plus the scalar bias, through
    one over one plus the exponential of the negation. -/
theorem head5_at (r : Fin 1024) :
    Read.val_main_v86 (F := Ideal) x0 x1 x2 x3 x4 x5 x6 x7 x8 x9 x10 x21 x22 x25 x26 x27 x28 (ix2 r (0 : Fin 1))
      = Cert.Spec.head (fun r i => Read.val_main_v76 (F := Ideal) x0 x1 x2 x3 x4 x5 x6 x7 x8 x9 x10 x25 x26 x27 x28 (ix2 r i)) (fun i => x21 (ix2 i (0 : Fin 1)))
          (x22 (ix1 (0 : Fin 1))) r := by
  have el : ∀ k : Fin 147, Read.lidx_main_v77 (ix2 r (0 : Fin 1)) k = ix2 r k := fun k =>
    funext fun a => Fin.ext (by match a with | ⟨0, _⟩ => rfl | ⟨1, _⟩ => rfl)
  have er : ∀ k : Fin 147, Read.ridx_main_v77 (ix2 r (0 : Fin 1)) k = ix2 k (0 : Fin 1) := fun k =>
    funext fun a => Fin.ext (by match a with | ⟨0, _⟩ => rfl | ⟨1, _⟩ => rfl)
  have eb : Read.idx_main_v78 (Read.idx_main_v79 (ix2 r (0 : Fin 1))) = ix1 (0 : Fin 1) :=
    funext fun a => Fin.ext (by match a with | ⟨0, _⟩ => rfl)
  rw [Read.val_main_v86_apply, Read.val_main_v85_apply, Read.val_main_cst_9_apply, Read.val_main_v84_apply,
    Read.val_main_v83_apply, Read.val_main_cst_8_apply, Read.val_main_v82_apply, Read.val_main_v81_apply,
    Read.val_main_v80_apply, Read.val_main_v77_apply, Read.val_main_v79_apply, Read.val_main_v78_apply, eb]
  simp only [el, er]
  simp only [Ideal.hostDivf_def, Ideal.ofBits_def, Ideal.addf_def, Ideal.hostUnary_exp_def, Ideal.hostNegf_def, Ideal.negf_def]
  exact logistic_spelt _

/-- Head 6, read off the activation of width 26: its product with the weight column plus the scalar bias, through
    one over one plus the exponential of the negation. -/
theorem head6_at (r : Fin 1024) :
    Read.val_main_v103 (F := Ideal) x0 x1 x2 x3 x4 x5 x6 x7 x8 x9 x10 x11 x12 x23 x24 x25 x26 x27 x28 x29 (ix2 r (0 : Fin 1))
      = Cert.Spec.head (fun r i => Read.val_main_v93 (F := Ideal) x0 x1 x2 x3 x4 x5 x6 x7 x8 x9 x10 x11 x12 x25 x26 x27 x28 x29 (ix2 r i)) (fun i => x23 (ix2 i (0 : Fin 1)))
          (x24 (ix1 (0 : Fin 1))) r := by
  have el : ∀ k : Fin 26, Read.lidx_main_v94 (ix2 r (0 : Fin 1)) k = ix2 r k := fun k =>
    funext fun a => Fin.ext (by match a with | ⟨0, _⟩ => rfl | ⟨1, _⟩ => rfl)
  have er : ∀ k : Fin 26, Read.ridx_main_v94 (ix2 r (0 : Fin 1)) k = ix2 k (0 : Fin 1) := fun k =>
    funext fun a => Fin.ext (by match a with | ⟨0, _⟩ => rfl | ⟨1, _⟩ => rfl)
  have eb : Read.idx_main_v95 (Read.idx_main_v96 (ix2 r (0 : Fin 1))) = ix1 (0 : Fin 1) :=
    funext fun a => Fin.ext (by match a with | ⟨0, _⟩ => rfl)
  rw [Read.val_main_v103_apply, Read.val_main_v102_apply, Read.val_main_cst_11_apply, Read.val_main_v101_apply,
    Read.val_main_v100_apply, Read.val_main_cst_10_apply, Read.val_main_v99_apply, Read.val_main_v98_apply,
    Read.val_main_v97_apply, Read.val_main_v94_apply, Read.val_main_v96_apply, Read.val_main_v95_apply, eb]
  simp only [el, er]
  simp only [Ideal.hostDivf_def, Ideal.ofBits_def, Ideal.addf_def, Ideal.hostUnary_exp_def, Ideal.hostNegf_def, Ideal.negf_def]
  exact logistic_spelt _

end Layers

/-! ## The result: six one-column arrays joined along the column axis -/

/-- A concatenation along the column axis into six columns, read at column `k` where piece `k` is a one-column array
    and the `k` pieces before it have one column each: piece `k` at its one column, same row. -/
theorem concat6_piece {α : Type} (xs : List ((s : Shape) × (s.Idx → α)))
    (hc : Shape.Concatenates (xs.map (·.1)) S1024x6 1) (r : Fin 1024) (k : Nat) (hk6 : k < 6) (hk : k < xs.length)
    (u : S1024x1.Idx → α) (hxk : xs[k] = ⟨S1024x1, u⟩)
    (hpre : (((xs.take k).map (·.1)).map fun s =>
      if h : s.rank = S1024x6.rank then s.size ((1 : Fin S1024x6.rank).cast h.symm) else 0).sum = k) :
    concatenate S1024x6 1 xs hc (ix2 r (⟨k, hk6⟩ : Fin 6)) = u (ix2 r (0 : Fin 1)) :=
  concatenate_apply_piece 1 xs hc (ix2 r (⟨k, hk6⟩ : Fin 6)) k hk S1024x1 u hxk rfl k hpre (ix2 r (0 : Fin 1))
    (fun b hb => by match b with | ⟨0, _⟩ => rfl | ⟨1, _⟩ => exact absurd rfl hb) (by show k + 0 = k; rfl)

/-! ## The six activations and the result, as the specification's -/

section Assembly

variable (m : (ℓ : Loc nD τ sig) → Buf (Elt Ideal) ℓ) (c : Dev nD)

theorem act0_eq : (fun r i => Read.val_main_v8 (F := Ideal) (m ((c.tc : Thread nD τ).loc main_arg0)) (m ((c.tc : Thread nD τ).loc main_arg1)) (m ((c.tc : Thread nD τ).loc main_arg2)) (ix2 r i)) = Cert.Spec.act0 (refArgs m c) := by
  funext r i
  exact diag_at _ _ _ r i

theorem act1_eq : (fun r i => Read.val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg25)) (ix2 r i)) = Cert.Spec.act1 (refArgs m c) := by
  funext r i
  rw [layer1_at, act0_eq m c]; rfl

theorem act2_eq : (fun r i => Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg25)) (m ((c.tc : Thread nD τ).loc main_arg26)) (ix2 r i)) = Cert.Spec.act2 (refArgs m c) := by
  funext r i
  rw [layer2_at, act1_eq m c]; rfl

theorem act3_eq : (fun r i => Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg25)) (m ((c.tc : Thread nD τ).loc main_arg26)) (m ((c.tc : Thread nD τ).loc main_arg27)) (ix2 r i)) = Cert.Spec.act3 (refArgs m c) := by
  funext r i
  rw [layer3_at, act2_eq m c]; rfl

theorem act4_eq : (fun r i => Read.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg25)) (m ((c.tc : Thread nD τ).loc main_arg26)) (m ((c.tc : Thread nD τ).loc main_arg27)) (m ((c.tc : Thread nD τ).loc main_arg28)) (ix2 r i)) = Cert.Spec.act4 (refArgs m c) := by
  funext r i
  rw [layer4_at, act3_eq m c]; rfl

theorem act5_eq : (fun r i => Read.val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (ix2 r i)) = Cert.Spec.act5 (refArgs m c) := by
  funext r i
  rw [layer5_at, act4_eq m c]; rfl

/-- The reference's result at row `r`, column `h` is the specification's, of the reference's arguments. -/
theorem ref_out (r : Fin 1024) (h : Fin 6) :
    Cert.ReferenceIdeal.Value.res_main_v104 (F := Ideal) m c (ValueIdx.ix2 r h) = Cert.Spec.out (refArgs m c) r h := by
  refine (congrFun (Read.val_main_v104_eq (F := Ideal) m c) (ix2 r h)).trans ?_
  unfold Read.val_main_v104
  match h with
  | ⟨0, _⟩ =>
    refine (concat6_piece _ _ r 0 (by decide) (by show (0 : ℕ) < 6; decide) _ rfl rfl).trans ?_
    rw [head1_at, act0_eq m c]; rfl
  | ⟨1, _⟩ =>
    refine (concat6_piece _ _ r 1 (by decide) (by show (1 : ℕ) < 6; decide) _ rfl rfl).trans ?_
    rw [head2_at, act1_eq m c]; rfl
  | ⟨2, _⟩ =>
    refine (concat6_piece _ _ r 2 (by decide) (by show (2 : ℕ) < 6; decide) _ rfl rfl).trans ?_
    rw [head3_at, act2_eq m c]; rfl
  | ⟨3, _⟩ =>
    refine (concat6_piece _ _ r 3 (by decide) (by show (3 : ℕ) < 6; decide) _ rfl rfl).trans ?_
    rw [head4_at, act3_eq m c]; rfl
  | ⟨4, _⟩ =>
    refine (concat6_piece _ _ r 4 (by decide) (by show (4 : ℕ) < 6; decide) _ rfl rfl).trans ?_
    rw [head5_at, act4_eq m c]; rfl
  | ⟨5, _⟩ =>
    refine (concat6_piece _ _ r 5 (by decide) (by show (5 : ℕ) < 6; decide) _ rfl rfl).trans ?_
    rw [head6_at, act5_eq m c]; rfl

end Assembly

end Cert.ReferenceIdeal.RefValue

end
-- ==== Proof.lean ====
/- The five conjuncts of the claim for a six-layer masked network.
   The kernel is six pipelined regions: a diagonal layer (three strided columns of the input, each scaled by
   its own weight row, summed with a bias row, then tanh) and five masked linear layers (the weight kept where
   the mask is set and zero elsewhere, a matrix product accumulated over tiles of the contracted axis, the bias
   row added and tanh applied at the last tile), with a sigmoid head read off every activation and the six heads
   joined side by side.  The reference computes the same layers as whole-array operations.
   At the ideal instance the two agree because a sum may be regrouped freely on the extended reals, a weight
   times the mask's 0 or 1 is the weight selected by the mask, and zero padding adds only zero terms: both
   results are, row by row and head by head, one specification of the thirty arguments. -/
import proofs.«156066_j47502338294403_1_alg».proof.Defs
import proofs.«156066_j47502338294403_1_alg».proof.Proof.Gen.Kernel
import proofs.«156066_j47502338294403_1_alg».proof.Proof.Gen.KernelIdeal
import proofs.«156066_j47502338294403_1_alg».proof.Proof.Gen.ReferenceIdeal
import proofs.«156066_j47502338294403_1_alg».proof.Proof.Gen.ReferenceIdeal.Run
import proofs.«156066_j47502338294403_1_alg».proof.Proof.Gen.ReferenceIdeal.Read
import proofs.«156066_j47502338294403_1_alg».proof.Proof.Gen.Pre_finite_inputs
import proofs.«156066_j47502338294403_1_alg».proof.Proof.BitsRun
import proofs.«156066_j47502338294403_1_alg».proof.Proof.IdealRun
import proofs.«156066_j47502338294403_1_alg».proof.Proof.IdealGlue
import proofs.«156066_j47502338294403_1_alg».proof.Proof.RefSide
import Idealize.ShloMosaic.Adequacy
import Idealize.ShloMosaic.Init

set_option maxRecDepth 16384
set_option maxHeartbeats 1600000

noncomputable section

namespace Cert.Proof

open Idealize.ShloMosaic Idealize.ShloMosaic.TcCoe Idealize.SL.Sem

/-- The word-level kernel runs to the end and leaves its arguments as launched. -/
theorem frame_p : Cert.frame_Kernel (hKernel := Cert.Kernel.Gen.facts) (hPre_finite_inputs := Cert.Pre_finite_inputs.Gen.facts) :=
  fun m ρ _ => Cert.Kernel.Layers.frame (F := Bits) m ρ

/-- So does the idealized kernel. -/
theorem frame_pi : Cert.frame_KernelIdeal (hKernelIdeal := Cert.KernelIdeal.Gen.facts) (hPre_finite_inputs := Cert.Pre_finite_inputs.Gen.facts) :=
  fun m ρ _ => Cert.KernelIdeal.Layers.frame (F := Ideal) m ρ

/-- The reference has no kernel region: its frame is its run with the result forgotten. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Memories that agree on the thirty argument buffers give the two programs the same network arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) :
    Cert.ReferenceIdeal.RefValue.refArgs m' c = Cert.KernelIdeal.LayerValue.kerArgs m c := by
  obtain ⟨h0, h1, h2, h3, h4, h5, h6, h7, h8, h9, h10, h11, h12, h13, h14, h15, h16, h17, h18, h19, h20, h21, h22, h23, h24, h25, h26, h27, h28, h29⟩ := h
  unfold Cert.ReferenceIdeal.RefValue.refArgs Cert.KernelIdeal.LayerValue.kerArgs
  rw [h0, h1, h2, h3, h4, h5, h6, h7, h8, h9, h10, h11, h12, h13, h14, h15, h16, h17, h18, h19, h20, h21, h22, h23, h24, h25, h26, h27, h28, h29]

/-- At the ideal instance the kernel's result array and the reference's are the same function of the arguments: each
    is, at row `r` and column `h`, the specification's head `h` read off activation `h`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Layers.B19 (F := Ideal) m ρ c (Proc.devRef .tc Cert.KernelIdeal.main_v97), ?_, ?_⟩
  · exact (θ_run Cert.KernelIdeal.defs _ _).mono (fun r h c =>
      ⟨h c _ (Cert.KernelIdeal.Layers.mem_uc Cert.KernelIdeal.main_v97 (by decide)),
       (h c _ (Cert.KernelIdeal.Layers.mem_uc Cert.KernelIdeal.main_arg0 (by decide))).trans (Cert.KernelIdeal.Layers.B19_main_arg0 m ρ c),
       (h c _ (Cert.KernelIdeal.Layers.mem_uc Cert.KernelIdeal.main_arg1 (by decide))).trans (Cert.KernelIdeal.Layers.B19_main_arg1 m ρ c),
       (h c _ (Cert.KernelIdeal.Layers.mem_uc Cert.KernelIdeal.main_arg2 (by decide))).trans (Cert.KernelIdeal.Layers.B19_main_arg2 m ρ c),
       (h c _ (Cert.KernelIdeal.Layers.mem_uc Cert.KernelIdeal.main_arg3 (by decide))).trans (Cert.KernelIdeal.Layers.B19_main_arg3 m ρ c),
       (h c _ (Cert.KernelIdeal.Layers.mem_uc Cert.KernelIdeal.main_arg4 (by decide))).trans (Cert.KernelIdeal.Layers.B19_main_arg4 m ρ c),
       (h c _ (Cert.KernelIdeal.Layers.mem_uc Cert.KernelIdeal.main_arg5 (by decide))).trans (Cert.KernelIdeal.Layers.B19_main_arg5 m ρ c),
       (h c _ (Cert.KernelIdeal.Layers.mem_uc Cert.KernelIdeal.main_arg6 (by decide))).trans (Cert.KernelIdeal.Layers.B19_main_arg6 m ρ c),
       (h c _ (Cert.KernelIdeal.Layers.mem_uc Cert.KernelIdeal.main_arg7 (by decide))).trans (Cert.KernelIdeal.Layers.B19_main_arg7 m ρ c),
       (h c _ (Cert.KernelIdeal.Layers.mem_uc Cert.KernelIdeal.main_arg8 (by decide))).trans (Cert.KernelIdeal.Layers.B19_main_arg8 m ρ c),
       (h c _ (Cert.KernelIdeal.Layers.mem_uc Cert.KernelIdeal.main_arg9 (by decide))).trans (Cert.KernelIdeal.Layers.B19_main_arg9 m ρ c),
       (h c _ (Cert.KernelIdeal.Layers.mem_uc Cert.KernelIdeal.main_arg10 (by decide))).trans (Cert.KernelIdeal.Layers.B19_main_arg10 m ρ c),
       (h c _ (Cert.KernelIdeal.Layers.mem_uc Cert.KernelIdeal.main_arg11 (by decide))).trans (Cert.KernelIdeal.Layers.B19_main_arg11 m ρ c),
       (h c _ (Cert.KernelIdeal.Layers.mem_uc Cert.KernelIdeal.main_arg12 (by decide))).trans (Cert.KernelIdeal.Layers.B19_main_arg12 m ρ c),
       (h c _ (Cert.KernelIdeal.Layers.mem_uc Cert.KernelIdeal.main_arg13 (by decide))).trans (Cert.KernelIdeal.Layers.B19_main_arg13 m ρ c),
       (h c _ (Cert.KernelIdeal.Layers.mem_uc Cert.KernelIdeal.main_arg14 (by decide))).trans (Cert.KernelIdeal.Layers.B19_main_arg14 m ρ c),
       (h c _ (Cert.KernelIdeal.Layers.mem_uc Cert.KernelIdeal.main_arg15 (by decide))).trans (Cert.KernelIdeal.Layers.B19_main_arg15 m ρ c),
       (h c _ (Cert.KernelIdeal.Layers.mem_uc Cert.KernelIdeal.main_arg16 (by decide))).trans (Cert.KernelIdeal.Layers.B19_main_arg16 m ρ c),
       (h c _ (Cert.KernelIdeal.Layers.mem_uc Cert.KernelIdeal.main_arg17 (by decide))).trans (Cert.KernelIdeal.Layers.B19_main_arg17 m ρ c),
       (h c _ (Cert.KernelIdeal.Layers.mem_uc Cert.KernelIdeal.main_arg18 (by decide))).trans (Cert.KernelIdeal.Layers.B19_main_arg18 m ρ c),
       (h c _ (Cert.KernelIdeal.Layers.mem_uc Cert.KernelIdeal.main_arg19 (by decide))).trans (Cert.KernelIdeal.Layers.B19_main_arg19 m ρ c),
       (h c _ (Cert.KernelIdeal.Layers.mem_uc Cert.KernelIdeal.main_arg20 (by decide))).trans (Cert.KernelIdeal.Layers.B19_main_arg20 m ρ c),
       (h c _ (Cert.KernelIdeal.Layers.mem_uc Cert.KernelIdeal.main_arg21 (by decide))).trans (Cert.KernelIdeal.Layers.B19_main_arg21 m ρ c),
       (h c _ (Cert.KernelIdeal.Layers.mem_uc Cert.KernelIdeal.main_arg22 (by decide))).trans (Cert.KernelIdeal.Layers.B19_main_arg22 m ρ c),
       (h c _ (Cert.KernelIdeal.Layers.mem_uc Cert.KernelIdeal.main_arg23 (by decide))).trans (Cert.KernelIdeal.Layers.B19_main_arg23 m ρ c),
       (h c _ (Cert.KernelIdeal.Layers.mem_uc Cert.KernelIdeal.main_arg24 (by decide))).trans (Cert.KernelIdeal.Layers.B19_main_arg24 m ρ c),
       (h c _ (Cert.KernelIdeal.Layers.mem_uc Cert.KernelIdeal.main_arg25 (by decide))).trans (Cert.KernelIdeal.Layers.B19_main_arg25 m ρ c),
       (h c _ (Cert.KernelIdeal.Layers.mem_uc Cert.KernelIdeal.main_arg26 (by decide))).trans (Cert.KernelIdeal.Layers.B19_main_arg26 m ρ c),
       (h c _ (Cert.KernelIdeal.Layers.mem_uc Cert.KernelIdeal.main_arg27 (by decide))).trans (Cert.KernelIdeal.Layers.B19_main_arg27 m ρ c),
       (h c _ (Cert.KernelIdeal.Layers.mem_uc Cert.KernelIdeal.main_arg28 (by decide))).trans (Cert.KernelIdeal.Layers.B19_main_arg28 m ρ c),
       (h c _ (Cert.KernelIdeal.Layers.mem_uc Cert.KernelIdeal.main_arg29 (by decide))).trans (Cert.KernelIdeal.Layers.B19_main_arg29 m ρ c)⟩)
      (Cert.KernelIdeal.Layers.run_all (F := Ideal) m ρ)
  · refine (θ_run Cert.ReferenceIdeal.defs _ _).mono (fun r h c => ⟨(h c).1.trans ?_, (h c).2⟩)
      (Cert.ReferenceIdeal.Value.run (F := Ideal) m' ρ')
    funext i
    have hi : i = ValueIdx.ix2 (n0 := 1024) (n1 := 6) (i 0) (i 1) := ValueIdx.eq_ix2 i
    rw [hi]
    exact (Cert.ReferenceIdeal.RefValue.ref_out m' c (i 0) (i 1)).trans
      ((congrArg (fun A => Cert.Spec.out A (i 0) (i 1)) (args_agree m m' c (hagree c))).trans
        (Cert.KernelIdeal.LayerValue.out_at m ρ c (i 0) (i 1)).symm)

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
